-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v3)) (v4 : (c : Dev Cert.KernelIdeal.nD) → Buf (Elt Ideal) ((c.tc : Thread Cert.KernelIdeal.nD Cert.KernelIdeal.τ).loc Cert.KernelIdeal.main_v4)) (v5 : (c : Dev Cert.KernelIdeal.nD) → Buf (Elt Ideal) ((c.tc : Thread Cert.KernelIdeal.nD Cert.KernelIdeal.τ).loc Cert.KernelIdeal.main_v5)) (v6 : (c : Dev Cert.KernelIdeal.nD) → Buf (Elt Ideal) ((c.tc : Thread Cert.KernelIdeal.nD Cert.KernelIdeal.τ).loc Cert.KernelIdeal.main_v6)) (v7 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_v5) = v5 c
          ∧ r.2.mem ((c.tc : Thread Cert.KernelIdeal.nD Cert.KernelIdeal.τ).loc Cert.KernelIdeal.main_v6) = v6 c
          ∧ r.2.mem ((c.tc : Thread Cert.KernelIdeal.nD Cert.KernelIdeal.τ).loc Cert.KernelIdeal.main_v7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_v4) = v4 c
          ∧ r.2.mem ((c.tc : Thread Cert.ReferenceIdeal.nD Cert.ReferenceIdeal.τ).loc Cert.ReferenceIdeal.main_v5) = v5 c
          ∧ r.2.mem ((c.tc : Thread Cert.ReferenceIdeal.nD Cert.ReferenceIdeal.τ).loc Cert.ReferenceIdeal.main_v6) = v6 c
          ∧ r.2.mem ((c.tc : Thread Cert.ReferenceIdeal.nD Cert.ReferenceIdeal.τ).loc Cert.ReferenceIdeal.main_v7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x64 : Shape := ⟨2, ![100000, 64]⟩
abbrev S1000000x64 : Shape := ⟨2, ![1000000, 64]⟩
abbrev S10000x64 : Shape := ⟨2, ![10000, 64]⟩
abbrev S20000x64 : Shape := ⟨2, ![20000, 64]⟩
abbrev S5000x64 : Shape := ⟨2, ![5000, 64]⟩
abbrev S1000x64 : Shape := ⟨2, ![1000, 64]⟩
abbrev S16384 : Shape := ⟨1, ![16384]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S10000x64 : S_.BroadcastsInDim S10000x64 (![] : Fin 0 → Fin S10000x64.rank)
  reducesTo_S10000x64_S_d0_1 : S10000x64.ReducesTo [0, 1] S_
  bcast_S_S20000x64 : S_.BroadcastsInDim S20000x64 (![] : Fin 0 → Fin S20000x64.rank)
  reducesTo_S20000x64_S_d0_1 : S20000x64.ReducesTo [0, 1] S_
  bcast_S_S5000x64 : S_.BroadcastsInDim S5000x64 (![] : Fin 0 → Fin S5000x64.rank)
  reducesTo_S5000x64_S_d0_1 : S5000x64.ReducesTo [0, 1] S_
  bcast_S_S1000x64 : S_.BroadcastsInDim S1000x64 (![] : Fin 0 → Fin S1000x64.rank)
  reducesTo_S1000x64_S_d0_1 : S1000x64.ReducesTo [0, 1] S_
  bcast_S_S16384 : S_.BroadcastsInDim S16384 (![] : Fin 0 → Fin S16384.rank)
  reducesTo_S16384_S_d0 : S16384.ReducesTo [0] S_

variable [Facts]

def fn_part5 {F : FTy → Type} [FloatOps F] (main_arg14 : IVec S16384 32) (main_arg15 : IVec S16384 32) (main_v80 : IVec S_ 1) (main_v82 : IVec S16384 1) (main_v83 : IVec S16384 32) : IVec S_ 1 :=
  let main_v84 : IVec S16384 1 := cmpi .sle main_arg14 main_v83
  let main_v85 : IVec S16384 1 := andi main_v82 main_v84
  let main_c_34 : IVec S_ 1 := constantI S_ 1 1#1
  let main_v86 : IVec S_ 1 := (fun x v => Host.reduce IntOp.andi x v reducesTo_S16384_S_d0 h_S_) main_v85 main_c_34
  let main_v87 : IVec S_ 1 := andi main_v80 main_v86
  let main_c_35 : IVec S_ 32 := constantI S_ 32 0#32
  let main_v88 : IVec S16384 32 := broadcastInDim S16384 ![] bcast_S_S16384 main_c_35
  let main_v89 : IVec S16384 1 := cmpi .sge main_arg15 main_v88
  let main_c_36 : IVec S_ 32 := constantI S_ 32 999#32
  let main_v90 : IVec S16384 32 := broadcastInDim S16384 ![] bcast_S_S16384 main_c_36
  let main_v91 : IVec S16384 1 := cmpi .sle main_arg15 main_v90
  let main_v92 : IVec S16384 1 := andi main_v89 main_v91
  let main_c_37 : IVec S_ 1 := constantI S_ 1 1#1
  let main_v93 : IVec S_ 1 := (fun x v => Host.reduce IntOp.andi x v reducesTo_S16384_S_d0 h_S_) main_v92 main_c_37
  let main_v94 : IVec S_ 1 := andi main_v87 main_v93
  main_v94

def fn_part4 {F : FTy → Type} [FloatOps F] (main_arg12 : IVec S16384 32) (main_arg13 : IVec S16384 32) (main_arg14 : IVec S16384 32) (main_arg15 : IVec S16384 32) (main_v66 : IVec S_ 1) (main_c_26 : IVec S_ 32) : IVec S_ 1 :=
  let main_v67 : IVec S16384 32 := broadcastInDim S16384 ![] bcast_S_S16384 main_c_26
  let main_v68 : IVec S16384 1 := cmpi .sge main_arg12 main_v67
  let main_c_27 : IVec S_ 32 := constantI S_ 32 19999#32
  let main_v69 : IVec S16384 32 := broadcastInDim S16384 ![] bcast_S_S16384 main_c_27
  let main_v70 : IVec S16384 1 := cmpi .sle main_arg12 main_v69
  let main_v71 : IVec S16384 1 := andi main_v68 main_v70
  let main_c_28 : IVec S_ 1 := constantI S_ 1 1#1
  let main_v72 : IVec S_ 1 := (fun x v => Host.reduce IntOp.andi x v reducesTo_S16384_S_d0 h_S_) main_v71 main_c_28
  let main_v73 : IVec S_ 1 := andi main_v66 main_v72
  let main_c_29 : IVec S_ 32 := constantI S_ 32 0#32
  let main_v74 : IVec S16384 32 := broadcastInDim S16384 ![] bcast_S_S16384 main_c_29
  let main_v75 : IVec S16384 1 := cmpi .sge main_arg13 main_v74
  let main_c_30 : IVec S_ 32 := constantI S_ 32 9999#32
  let main_v76 : IVec S16384 32 := broadcastInDim S16384 ![] bcast_S_S16384 main_c_30
  let main_v77 : IVec S16384 1 := cmpi .sle main_arg13 main_v76
  let main_v78 : IVec S16384 1 := andi main_v75 main_v77
  let main_c_31 : IVec S_ 1 := constantI S_ 1 1#1
  let main_v79 : IVec S_ 1 := (fun x v => Host.reduce IntOp.andi x v reducesTo_S16384_S_d0 h_S_) main_v78 main_c_31
  let main_v80 : IVec S_ 1 := andi main_v73 main_v79
  let main_c_32 : IVec S_ 32 := constantI S_ 32 0#32
  let main_v81 : IVec S16384 32 := broadcastInDim S16384 ![] bcast_S_S16384 main_c_32
  let main_v82 : IVec S16384 1 := cmpi .sge main_arg14 main_v81
  let main_c_33 : IVec S_ 32 := constantI S_ 32 4999#32
  let main_v83 : IVec S16384 32 := broadcastInDim S16384 ![] bcast_S_S16384 main_c_33
  fn_part5 (F := F) main_arg14 main_arg15 main_v80 main_v82 main_v83

def fn_part3 {F : FTy → Type} [FloatOps F] (main_arg10 : IVec S16384 32) (main_arg11 : IVec S16384 32) (main_arg12 : IVec S16384 32) (main_arg13 : IVec S16384 32) (main_arg14 : IVec S16384 32) (main_arg15 : IVec S16384 32) (main_v45 : IVec S_ 1) (main_v50 : IVec S16384 1) : IVec S_ 1 :=
  let main_c_19 : IVec S_ 1 := constantI S_ 1 1#1
  let main_v51 : IVec S_ 1 := (fun x v => Host.reduce IntOp.andi x v reducesTo_S16384_S_d0 h_S_) main_v50 main_c_19
  let main_v52 : IVec S_ 1 := andi main_v45 main_v51
  let main_c_20 : IVec S_ 32 := constantI S_ 32 0#32
  let main_v53 : IVec S16384 32 := broadcastInDim S16384 ![] bcast_S_S16384 main_c_20
  let main_v54 : IVec S16384 1 := cmpi .sge main_arg10 main_v53
  let main_c_21 : IVec S_ 32 := constantI S_ 32 9999#32
  let main_v55 : IVec S16384 32 := broadcastInDim S16384 ![] bcast_S_S16384 main_c_21
  let main_v56 : IVec S16384 1 := cmpi .sle main_arg10 main_v55
  let main_v57 : IVec S16384 1 := andi main_v54 main_v56
  let main_c_22 : IVec S_ 1 := constantI S_ 1 1#1
  let main_v58 : IVec S_ 1 := (fun x v => Host.reduce IntOp.andi x v reducesTo_S16384_S_d0 h_S_) main_v57 main_c_22
  let main_v59 : IVec S_ 1 := andi main_v52 main_v58
  let main_c_23 : IVec S_ 32 := constantI S_ 32 0#32
  let main_v60 : IVec S16384 32 := broadcastInDim S16384 ![] bcast_S_S16384 main_c_23
  let main_v61 : IVec S16384 1 := cmpi .sge main_arg11 main_v60
  let main_c_24 : IVec S_ 32 := constantI S_ 32 19999#32
  let main_v62 : IVec S16384 32 := broadcastInDim S16384 ![] bcast_S_S16384 main_c_24
  let main_v63 : IVec S16384 1 := cmpi .sle main_arg11 main_v62
  let main_v64 : IVec S16384 1 := andi main_v61 main_v63
  let main_c_25 : IVec S_ 1 := constantI S_ 1 1#1
  let main_v65 : IVec S_ 1 := (fun x v => Host.reduce IntOp.andi x v reducesTo_S16384_S_d0 h_S_) main_v64 main_c_25
  let main_v66 : IVec S_ 1 := andi main_v59 main_v65
  let main_c_26 : IVec S_ 32 := constantI S_ 32 0#32
  fn_part4 (F := F) main_arg12 main_arg13 main_arg14 main_arg15 main_v66 main_c_26

def fn_part2 {F : FTy → Type} [FloatOps F] (main_arg7 : FVec F S1000x64 .f32) (main_arg8 : IVec S16384 32) (main_arg9 : IVec S16384 32) (main_arg10 : IVec S16384 32) (main_arg11 : IVec S16384 32) (main_arg12 : IVec S16384 32) (main_arg13 : IVec S16384 32) (main_arg14 : IVec S16384 32) (main_arg15 : IVec S16384 32) (main_v33 : IVec S_ 1) : IVec S_ 1 :=
  let main_v34 : FVec F S1000x64 .f32 := Host.absf main_arg7
  let main_cst_12 : FVec F S_ .f32 := constant S_ .f32 0x7F800000#32
  let main_v35 : FVec F S1000x64 .f32 := broadcastInDim S1000x64 ![] bcast_S_S1000x64 main_cst_12
  let main_v36 : IVec S1000x64 1 := cmpf .olt main_v34 main_v35
  let main_c_13 : IVec S_ 1 := constantI S_ 1 1#1
  let main_v37 : IVec S_ 1 := (fun x v => Host.reduce IntOp.andi x v reducesTo_S1000x64_S_d0_1 h_S_) main_v36 main_c_13
  let main_v38 : IVec S_ 1 := andi main_v33 main_v37
  let main_c_14 : IVec S_ 32 := constantI S_ 32 0#32
  let main_v39 : IVec S16384 32 := broadcastInDim S16384 ![] bcast_S_S16384 main_c_14
  let main_v40 : IVec S16384 1 := cmpi .sge main_arg8 main_v39
  let main_c_15 : IVec S_ 32 := constantI S_ 32 99999#32
  let main_v41 : IVec S16384 32 := broadcastInDim S16384 ![] bcast_S_S16384 main_c_15
  let main_v42 : IVec S16384 1 := cmpi .sle main_arg8 main_v41
  let main_v43 : IVec S16384 1 := andi main_v40 main_v42
  let main_c_16 : IVec S_ 1 := constantI S_ 1 1#1
  let main_v44 : IVec S_ 1 := (fun x v => Host.reduce IntOp.andi x v reducesTo_S16384_S_d0 h_S_) main_v43 main_c_16
  let main_v45 : IVec S_ 1 := andi main_v38 main_v44
  let main_c_17 : IVec S_ 32 := constantI S_ 32 0#32
  let main_v46 : IVec S16384 32 := broadcastInDim S16384 ![] bcast_S_S16384 main_c_17
  let main_v47 : IVec S16384 1 := cmpi .sge main_arg9 main_v46
  let main_c_18 : IVec S_ 32 := constantI S_ 32 999999#32
  let main_v48 : IVec S16384 32 := broadcastInDim S16384 ![] bcast_S_S16384 main_c_18
  let main_v49 : IVec S16384 1 := cmpi .sle main_arg9 main_v48
  let main_v50 : IVec S16384 1 := andi main_v47 main_v49
  fn_part3 (F := F) main_arg10 main_arg11 main_arg12 main_arg13 main_arg14 main_arg15 main_v45 main_v50

def fn_part1 {F : FTy → Type} [FloatOps F] (main_arg4 : FVec F S20000x64 .f32) (main_arg5 : FVec F S10000x64 .f32) (main_arg6 : FVec F S5000x64 .f32) (main_arg7 : FVec F S1000x64 .f32) (main_arg8 : IVec S16384 32) (main_arg9 : IVec S16384 32) (main_arg10 : IVec S16384 32) (main_arg11 : IVec S16384 32) (main_arg12 : IVec S16384 32) (main_arg13 : IVec S16384 32) (main_arg14 : IVec S16384 32) (main_arg15 : IVec S16384 32) (main_v13 : IVec S_ 1) (main_v16 : IVec S20000x64 1) : IVec S_ 1 :=
  let main_c_5 : IVec S_ 1 := constantI S_ 1 1#1
  let main_v17 : IVec S_ 1 := (fun x v => Host.reduce IntOp.andi x v reducesTo_S20000x64_S_d0_1 h_S_) main_v16 main_c_5
  let main_v18 : IVec S_ 1 := andi main_v13 main_v17
  let main_v19 : FVec F S20000x64 .f32 := Host.absf main_arg4
  let main_cst_6 : FVec F S_ .f32 := constant S_ .f32 0x7F800000#32
  let main_v20 : FVec F S20000x64 .f32 := broadcastInDim S20000x64 ![] bcast_S_S20000x64 main_cst_6
  let main_v21 : IVec S20000x64 1 := cmpf .olt main_v19 main_v20
  let main_c_7 : IVec S_ 1 := constantI S_ 1 1#1
  let main_v22 : IVec S_ 1 := (fun x v => Host.reduce IntOp.andi x v reducesTo_S20000x64_S_d0_1 h_S_) main_v21 main_c_7
  let main_v23 : IVec S_ 1 := andi main_v18 main_v22
  let main_v24 : FVec F S10000x64 .f32 := Host.absf main_arg5
  let main_cst_8 : FVec F S_ .f32 := constant S_ .f32 0x7F800000#32
  let main_v25 : FVec F S10000x64 .f32 := broadcastInDim S10000x64 ![] bcast_S_S10000x64 main_cst_8
  let main_v26 : IVec S10000x64 1 := cmpf .olt main_v24 main_v25
  let main_c_9 : IVec S_ 1 := constantI S_ 1 1#1
  let main_v27 : IVec S_ 1 := (fun x v => Host.reduce IntOp.andi x v reducesTo_S10000x64_S_d0_1 h_S_) main_v26 main_c_9
  let main_v28 : IVec S_ 1 := andi main_v23 main_v27
  let main_v29 : FVec F S5000x64 .f32 := Host.absf main_arg6
  let main_cst_10 : FVec F S_ .f32 := constant S_ .f32 0x7F800000#32
  let main_v30 : FVec F S5000x64 .f32 := broadcastInDim S5000x64 ![] bcast_S_S5000x64 main_cst_10
  let main_v31 : IVec S5000x64 1 := cmpf .olt main_v29 main_v30
  let main_c_11 : IVec S_ 1 := constantI S_ 1 1#1
  let main_v32 : IVec S_ 1 := (fun x v => Host.reduce IntOp.andi x v reducesTo_S5000x64_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S100000x64 .f32) (main_arg1 : FVec F S1000000x64 .f32) (main_arg2 : FVec F S10000x64 .f32) (main_arg3 : FVec F S20000x64 .f32) (main_arg4 : FVec F S20000x64 .f32) (main_arg5 : FVec F S10000x64 .f32) (main_arg6 : FVec F S5000x64 .f32) (main_arg7 : FVec F S1000x64 .f32) (main_arg8 : IVec S16384 32) (main_arg9 : IVec S16384 32) (main_arg10 : IVec S16384 32) (main_arg11 : IVec S16384 32) (main_arg12 : IVec S16384 32) (main_arg13 : IVec S16384 32) (main_arg14 : IVec S16384 32) (main_arg15 : IVec S16384 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S10000x64 .f32 := Host.absf main_arg2
  let main_cst_2 : FVec F S_ .f32 := constant S_ .f32 0x7F800000#32
  let main_v10 : FVec F S10000x64 .f32 := broadcastInDim S10000x64 ![] bcast_S_S10000x64 main_cst_2
  let main_v11 : IVec S10000x64 1 := cmpf .olt main_v9 main_v10
  let main_c_3 : IVec S_ 1 := constantI S_ 1 1#1
  let main_v12 : IVec S_ 1 := (fun x v => Host.reduce IntOp.andi x v reducesTo_S10000x64_S_d0_1 h_S_) main_v11 main_c_3
  let main_v13 : IVec S_ 1 := andi main_v8 main_v12
  let main_v14 : FVec F S20000x64 .f32 := Host.absf main_arg3
  let main_cst_4 : FVec F S_ .f32 := constant S_ .f32 0x7F800000#32
  let main_v15 : FVec F S20000x64 .f32 := broadcastInDim S20000x64 ![] bcast_S_S20000x64 main_cst_4
  let main_v16 : IVec S20000x64 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S100000x64 : Shape := ⟨2, ![100000, 64]⟩
abbrev S1000000x64 : Shape := ⟨2, ![1000000, 64]⟩
abbrev S10000x64 : Shape := ⟨2, ![10000, 64]⟩
abbrev S20000x64 : Shape := ⟨2, ![20000, 64]⟩
abbrev S5000x64 : Shape := ⟨2, ![5000, 64]⟩
abbrev S1000x64 : Shape := ⟨2, ![1000, 64]⟩
abbrev S16384 : Shape := ⟨1, ![16384]⟩
abbrev S16384x64 : Shape := ⟨2, ![16384, 64]⟩
abbrev S512 : Shape := ⟨1, ![512]⟩
abbrev S_ : Shape := ⟨0, ![]⟩
abbrev S16 : Shape := ⟨1, ![16]⟩
abbrev S1 : Shape := ⟨1, ![1]⟩
abbrev S1x64 : Shape := ⟨2, ![1, 64]⟩
abbrev S64 : Shape := ⟨1, ![64]⟩

abbrev nBuf : Table → Nat
  | .hbm => 24
  | .local .scVector .vmem => 8
  | _ => 0

abbrev bufTy : (tb : Table) → Fin (nBuf tb) → BufTy
  | .hbm, ⟨0, _⟩ => ⟨S100000x64, .f32⟩
  | .hbm, ⟨1, _⟩ => ⟨S1000000x64, .f32⟩
  | .hbm, ⟨2, _⟩ => ⟨S10000x64, .f32⟩
  | .hbm, ⟨3, _⟩ => ⟨S20000x64, .f32⟩
  | .hbm, ⟨4, _⟩ => ⟨S20000x64, .f32⟩
  | .hbm, ⟨5, _⟩ => ⟨S10000x64, .f32⟩
  | .hbm, ⟨6, _⟩ => ⟨S5000x64, .f32⟩
  | .hbm, ⟨7, _⟩ => ⟨S1000x64, .f32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x64, .f32⟩
  | .hbm, ⟨17, _⟩ => ⟨S16384x64, .f32⟩
  | .hbm, ⟨18, _⟩ => ⟨S16384x64, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S16384x64, .f32⟩
  | .hbm, ⟨23, _⟩ => ⟨S16384x64, .f32⟩
  | .local .scVector .vmem, ⟨0, _⟩ => ⟨S512, .i32⟩
  | .local .scVector .vmem, ⟨1, _⟩ => ⟨S512, .i32⟩
  | .local .scVector .vmem, ⟨2, _⟩ => ⟨S512, .i32⟩
  | .local .scVector .vmem, ⟨3, _⟩ => ⟨S512, .i32⟩
  | .local .scVector .vmem, ⟨4, _⟩ => ⟨S512, .i32⟩
  | .local .scVector .vmem, ⟨5, _⟩ => ⟨S512, .i32⟩
  | .local .scVector .vmem, ⟨6, _⟩ => ⟨S512, .i32⟩
  | .local .scVector .vmem, ⟨7, _⟩ => ⟨S512, .i32⟩
  | _, _ => ⟨S100000x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_arg0_scv : Ref sig .scVector := ⟨.hbm, 0, rfl⟩
abbrev main_arg8_scv : Ref sig .scVector := ⟨.hbm, 8, rfl⟩
abbrev main_v0_scv : Ref sig .scVector := ⟨.hbm, 16, rfl⟩
abbrev main_arg1_scv : Ref sig .scVector := ⟨.hbm, 1, rfl⟩
abbrev main_arg9_scv : Ref sig .scVector := ⟨.hbm, 9, rfl⟩
abbrev main_v1_scv : Ref sig .scVector := ⟨.hbm, 17, rfl⟩
abbrev main_arg2_scv : Ref sig .scVector := ⟨.hbm, 2, rfl⟩
abbrev main_arg10_scv : Ref sig .scVector := ⟨.hbm, 10, rfl⟩
abbrev main_v2_scv : Ref sig .scVector := ⟨.hbm, 18, rfl⟩
abbrev main_arg3_scv : Ref sig .scVector := ⟨.hbm, 3, rfl⟩
abbrev main_arg11_scv : Ref sig .scVector := ⟨.hbm, 11, rfl⟩
abbrev main_v3_scv : Ref sig .scVector := ⟨.hbm, 19, rfl⟩
abbrev main_arg4_scv : Ref sig .scVector := ⟨.hbm, 4, rfl⟩
abbrev main_arg12_scv : Ref sig .scVector := ⟨.hbm, 12, rfl⟩
abbrev main_v4_scv : Ref sig .scVector := ⟨.hbm, 20, rfl⟩
abbrev main_arg5_scv : Ref sig .scVector := ⟨.hbm, 5, rfl⟩
abbrev main_arg13_scv : Ref sig .scVector := ⟨.hbm, 13, rfl⟩
abbrev main_v5_scv : Ref sig .scVector := ⟨.hbm, 21, rfl⟩
abbrev main_arg6_scv : Ref sig .scVector := ⟨.hbm, 6, rfl⟩
abbrev main_arg14_scv : Ref sig .scVector := ⟨.hbm, 14, rfl⟩
abbrev main_v6_scv : Ref sig .scVector := ⟨.hbm, 22, rfl⟩
abbrev main_arg7_scv : Ref sig .scVector := ⟨.hbm, 7, rfl⟩
abbrev main_arg15_scv : Ref sig .scVector := ⟨.hbm, 15, rfl⟩
abbrev main_v7_scv : Ref sig .scVector := ⟨.hbm, 23, rfl⟩
abbrev cc0_scratch0 : Ref sig .scVector := ⟨.vmem, 0, rfl⟩
abbrev cc1_scratch0 : Ref sig .scVector := ⟨.vmem, 1, rfl⟩
abbrev cc2_scratch0 : Ref sig .scVector := ⟨.vmem, 2, rfl⟩
abbrev cc3_scratch0 : Ref sig .scVector := ⟨.vmem, 3, rfl⟩
abbrev cc4_scratch0 : Ref sig .scVector := ⟨.vmem, 4, rfl⟩
abbrev cc5_scratch0 : Ref sig .scVector := ⟨.vmem, 5, rfl⟩
abbrev cc6_scratch0 : Ref sig .scVector := ⟨.vmem, 6, rfl⟩
abbrev cc7_scratch0 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg7 : BitVec 32 := Scf.iv c0_i32_0 c1_i32 k0_t1
  let c16_i32 : BitVec 32 := 16#32
  let v5 : BitVec 32 := Scalar.muli arg7 c16_i32
  let v6 : Index := Scalar.indexCast v5
  ![v6.toNat]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k0_t1
  let c16_i32_7 : BitVec 32 := 16#32
  let v10 : BitVec 32 := Scalar.muli arg7 c16_i32_7
  let v11 : BitVec 32 := Scalar.addi v2 v10
  let c0_i32_8 : BitVec 32 := 0#32
  let v12 : BitVec 32 := Scalar.addi v11 c0_i32_8
  let c0_i32_9 : BitVec 32 := 0#32
  ![v12.toNat, 0]
def k0_off4 (v9 : BitVec 32) : Fin 2 → Nat :=
  let c0_i32_10 : BitVec 32 := 0#32
  ![v9.toNat, 0]

def k0_chk1 (v9 : BitVec 32) : Prop :=
  (∀ a, (k0_off4 v9) a + S1x64.size a ≤ S100000x64.size a)
instance k0_chk1.dec : ∀ (v9 : BitVec 32), Decidable (k0_chk1 v9) := fun v9 => decidable_of_iff' _ (Iff.of_eq (k0_chk1.eq_1 v9))
theorem k0_off4_inb : ∀ (v9 : BitVec 32) (k0_hw1 : k0_chk1 v9), ∀ a, (k0_off4 v9) a + S1x64.size a ≤ S100000x64.size a := fun v9 k0_hw1 => k0_hw1

def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k0_t1
  let c16_i32_11 : BitVec 32 := 16#32
  let v19 : BitVec 32 := Scalar.muli arg7 c16_i32_11
  let v20 : BitVec 32 := Scalar.addi v2 v19
  let c1_i32_12 : BitVec 32 := 1#32
  let v21 : BitVec 32 := Scalar.addi v20 c1_i32_12
  let c0_i32_13 : BitVec 32 := 0#32
  ![v21.toNat, 0]
def k0_off6 (v18 : BitVec 32) : Fin 2 → Nat :=
  let c0_i32_14 : BitVec 32 := 0#32
  ![v18.toNat, 0]

def k0_chk2 (v18 : BitVec 32) : Prop :=
  (∀ a, (k0_off6 v18) a + S1x64.size a ≤ S100000x64.size a)
instance k0_chk2.dec : ∀ (v18 : BitVec 32), Decidable (k0_chk2 v18) := fun v18 => decidable_of_iff' _ (Iff.of_eq (k0_chk2.eq_1 v18))
theorem k0_off6_inb : ∀ (v18 : BitVec 32) (k0_hw2 : k0_chk2 v18), ∀ a, (k0_off6 v18) a + S1x64.size a ≤ S100000x64.size a := fun v18 k0_hw2 => k0_hw2

def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k0_t1
  let c16_i32_15 : BitVec 32 := 16#32
  let v28 : BitVec 32 := Scalar.muli arg7 c16_i32_15
  let v29 : BitVec 32 := Scalar.addi v2 v28
  let c2_i32_16 : BitVec 32 := 2#32
  let v30 : BitVec 32 := Scalar.addi v29 c2_i32_16
  let c0_i32_17 : BitVec 32 := 0#32
  ![v30.toNat, 0]
def k0_off8 (v27 : BitVec 32) : Fin 2 → Nat :=
  let c0_i32_18 : BitVec 32 := 0#32
  ![v27.toNat, 0]

def k0_chk3 (v27 : BitVec 32) : Prop :=
  (∀ a, (k0_off8 v27) a + S1x64.size a ≤ S100000x64.size a)
instance k0_chk3.dec : ∀ (v27 : BitVec 32), Decidable (k0_chk3 v27) := fun v27 => decidable_of_iff' _ (Iff.of_eq (k0_chk3.eq_1 v27))
theorem k0_off8_inb : ∀ (v27 : BitVec 32) (k0_hw3 : k0_chk3 v27), ∀ a, (k0_off8 v27) a + S1x64.size a ≤ S100000x64.size a := fun v27 k0_hw3 => k0_hw3

def k0_off9 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k0_t1
  let c16_i32_19 : BitVec 32 := 16#32
  let v37 : BitVec 32 := Scalar.muli arg7 c16_i32_19
  let v38 : BitVec 32 := Scalar.addi v2 v37
  let c3_i32 : BitVec 32 := 3#32
  let v39 : BitVec 32 := Scalar.addi v38 c3_i32
  let c0_i32_20 : BitVec 32 := 0#32
  ![v39.toNat, 0]
def k0_off10 (v36 : BitVec 32) : Fin 2 → Nat :=
  let c0_i32_21 : BitVec 32 := 0#32
  ![v36.toNat, 0]

def k0_chk4 (v36 : BitVec 32) : Prop :=
  (∀ a, (k0_off10 v36) a + S1x64.size a ≤ S100000x64.size a)
instance k0_chk4.dec : ∀ (v36 : BitVec 32), Decidable (k0_chk4 v36) := fun v36 => decidable_of_iff' _ (Iff.of_eq (k0_chk4.eq_1 v36))
theorem k0_off10_inb : ∀ (v36 : BitVec 32) (k0_hw4 : k0_chk4 v36), ∀ a, (k0_off10 v36) a + S1x64.size a ≤ S100000x64.size a := fun v36 k0_hw4 => k0_hw4

def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k0_t1
  let c16_i32_22 : BitVec 32 := 16#32
  let v46 : BitVec 32 := Scalar.muli arg7 c16_i32_22
  let v47 : BitVec 32 := Scalar.addi v2 v46
  let c4_i32 : BitVec 32 := 4#32
  let v48 : BitVec 32 := Scalar.addi v47 c4_i32
  let c0_i32_23 : BitVec 32 := 0#32
  ![v48.toNat, 0]
def k0_off12 (v45 : BitVec 32) : Fin 2 → Nat :=
  let c0_i32_24 : BitVec 32 := 0#32
  ![v45.toNat, 0]

def k0_chk5 (v45 : BitVec 32) : Prop :=
  (∀ a, (k0_off12 v45) a + S1x64.size a ≤ S100000x64.size a)
instance k0_chk5.dec : ∀ (v45 : BitVec 32), Decidable (k0_chk5 v45) := fun v45 => decidable_of_iff' _ (Iff.of_eq (k0_chk5.eq_1 v45))
theorem k0_off12_inb : ∀ (v45 : BitVec 32) (k0_hw5 : k0_chk5 v45), ∀ a, (k0_off12 v45) a + S1x64.size a ≤ S100000x64.size a := fun v45 k0_hw5 => k0_hw5

def k0_off13 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k0_t1
  let c16_i32_25 : BitVec 32 := 16#32
  let v55 : BitVec 32 := Scalar.muli arg7 c16_i32_25
  let v56 : BitVec 32 := Scalar.addi v2 v55
  let c5_i32 : BitVec 32 := 5#32
  let v57 : BitVec 32 := Scalar.addi v56 c5_i32
  let c0_i32_26 : BitVec 32 := 0#32
  ![v57.toNat, 0]
def k0_off14 (v54 : BitVec 32) : Fin 2 → Nat :=
  let c0_i32_27 : BitVec 32 := 0#32
  ![v54.toNat, 0]

def k0_chk6 (v54 : BitVec 32) : Prop :=
  (∀ a, (k0_off14 v54) a + S1x64.size a ≤ S100000x64.size a)
instance k0_chk6.dec : ∀ (v54 : BitVec 32), Decidable (k0_chk6 v54) := fun v54 => decidable_of_iff' _ (Iff.of_eq (k0_chk6.eq_1 v54))
theorem k0_off14_inb : ∀ (v54 : BitVec 32) (k0_hw6 : k0_chk6 v54), ∀ a, (k0_off14 v54) a + S1x64.size a ≤ S100000x64.size a := fun v54 k0_hw6 => k0_hw6

def k0_off15 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k0_t1
  let c16_i32_28 : BitVec 32 := 16#32
  let v64 : BitVec 32 := Scalar.muli arg7 c16_i32_28
  let v65 : BitVec 32 := Scalar.addi v2 v64
  let c6_i32 : BitVec 32 := 6#32
  let v66 : BitVec 32 := Scalar.addi v65 c6_i32
  let c0_i32_29 : BitVec 32 := 0#32
  ![v66.toNat, 0]
def k0_off16 (v63 : BitVec 32) : Fin 2 → Nat :=
  let c0_i32_30 : BitVec 32 := 0#32
  ![v63.toNat, 0]

def k0_chk7 (v63 : BitVec 32) : Prop :=
  (∀ a, (k0_off16 v63) a + S1x64.size a ≤ S100000x64.size a)
instance k0_chk7.dec : ∀ (v63 : BitVec 32), Decidable (k0_chk7 v63) := fun v63 => decidable_of_iff' _ (Iff.of_eq (k0_chk7.eq_1 v63))
theorem k0_off16_inb : ∀ (v63 : BitVec 32) (k0_hw7 : k0_chk7 v63), ∀ a, (k0_off16 v63) a + S1x64.size a ≤ S100000x64.size a := fun v63 k0_hw7 => k0_hw7

def k0_off17 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k0_t1
  let c16_i32_31 : BitVec 32 := 16#32
  let v73 : BitVec 32 := Scalar.muli arg7 c16_i32_31
  let v74 : BitVec 32 := Scalar.addi v2 v73
  let c7_i32 : BitVec 32 := 7#32
  let v75 : BitVec 32 := Scalar.addi v74 c7_i32
  let c0_i32_32 : BitVec 32 := 0#32
  ![v75.toNat, 0]
def k0_off18 (v72 : BitVec 32) : Fin 2 → Nat :=
  let c0_i32_33 : BitVec 32 := 0#32
  ![v72.toNat, 0]

def k0_chk8 (v72 : BitVec 32) : Prop :=
  (∀ a, (k0_off18 v72) a + S1x64.size a ≤ S100000x64.size a)
instance k0_chk8.dec : ∀ (v72 : BitVec 32), Decidable (k0_chk8 v72) := fun v72 => decidable_of_iff' _ (Iff.of_eq (k0_chk8.eq_1 v72))
theorem k0_off18_inb : ∀ (v72 : BitVec 32) (k0_hw8 : k0_chk8 v72), ∀ a, (k0_off18 v72) a + S1x64.size a ≤ S100000x64.size a := fun v72 k0_hw8 => k0_hw8

def k0_off19 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k0_t1
  let c16_i32_34 : BitVec 32 := 16#32
  let v82 : BitVec 32 := Scalar.muli arg7 c16_i32_34
  let v83 : BitVec 32 := Scalar.addi v2 v82
  let c8_i32 : BitVec 32 := 8#32
  let v84 : BitVec 32 := Scalar.addi v83 c8_i32
  let c0_i32_35 : BitVec 32 := 0#32
  ![v84.toNat, 0]
def k0_off20 (v81 : BitVec 32) : Fin 2 → Nat :=
  let c0_i32_36 : BitVec 32 := 0#32
  ![v81.toNat, 0]

def k0_chk9 (v81 : BitVec 32) : Prop :=
  (∀ a, (k0_off20 v81) a + S1x64.size a ≤ S100000x64.size a)
instance k0_chk9.dec : ∀ (v81 : BitVec 32), Decidable (k0_chk9 v81) := fun v81 => decidable_of_iff' _ (Iff.of_eq (k0_chk9.eq_1 v81))
theorem k0_off20_inb : ∀ (v81 : BitVec 32) (k0_hw9 : k0_chk9 v81), ∀ a, (k0_off20 v81) a + S1x64.size a ≤ S100000x64.size a := fun v81 k0_hw9 => k0_hw9

def k0_off21 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k0_t1
  let c16_i32_37 : BitVec 32 := 16#32
  let v91 : BitVec 32 := Scalar.muli arg7 c16_i32_37
  let v92 : BitVec 32 := Scalar.addi v2 v91
  let c9_i32 : BitVec 32 := 9#32
  let v93 : BitVec 32 := Scalar.addi v92 c9_i32
  let c0_i32_38 : BitVec 32 := 0#32
  ![v93.toNat, 0]
def k0_off22 (v90 : BitVec 32) : Fin 2 → Nat :=
  let c0_i32_39 : BitVec 32 := 0#32
  ![v90.toNat, 0]

def k0_chk10 (v90 : BitVec 32) : Prop :=
  (∀ a, (k0_off22 v90) a + S1x64.size a ≤ S100000x64.size a)
instance k0_chk10.dec : ∀ (v90 : BitVec 32), Decidable (k0_chk10 v90) := fun v90 => decidable_of_iff' _ (Iff.of_eq (k0_chk10.eq_1 v90))
theorem k0_off22_inb : ∀ (v90 : BitVec 32) (k0_hw10 : k0_chk10 v90), ∀ a, (k0_off22 v90) a + S1x64.size a ≤ S100000x64.size a := fun v90 k0_hw10 => k0_hw10

def k0_off23 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k0_t1
  let c16_i32_40 : BitVec 32 := 16#32
  let v100 : BitVec 32 := Scalar.muli arg7 c16_i32_40
  let v101 : BitVec 32 := Scalar.addi v2 v100
  let c10_i32 : BitVec 32 := 10#32
  let v102 : BitVec 32 := Scalar.addi v101 c10_i32
  let c0_i32_41 : BitVec 32 := 0#32
  ![v102.toNat, 0]
def k0_off24 (v99 : BitVec 32) : Fin 2 → Nat :=
  let c0_i32_42 : BitVec 32 := 0#32
  ![v99.toNat, 0]

def k0_chk11 (v99 : BitVec 32) : Prop :=
  (∀ a, (k0_off24 v99) a + S1x64.size a ≤ S100000x64.size a)
instance k0_chk11.dec : ∀ (v99 : BitVec 32), Decidable (k0_chk11 v99) := fun v99 => decidable_of_iff' _ (Iff.of_eq (k0_chk11.eq_1 v99))
theorem k0_off24_inb : ∀ (v99 : BitVec 32) (k0_hw11 : k0_chk11 v99), ∀ a, (k0_off24 v99) a + S1x64.size a ≤ S100000x64.size a := fun v99 k0_hw11 => k0_hw11

def k0_off25 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k0_t1
  let c16_i32_43 : BitVec 32 := 16#32
  let v109 : BitVec 32 := Scalar.muli arg7 c16_i32_43
  let v110 : BitVec 32 := Scalar.addi v2 v109
  let c11_i32 : BitVec 32 := 11#32
  let v111 : BitVec 32 := Scalar.addi v110 c11_i32
  let c0_i32_44 : BitVec 32 := 0#32
  ![v111.toNat, 0]
def k0_off26 (v108 : BitVec 32) : Fin 2 → Nat :=
  let c0_i32_45 : BitVec 32 := 0#32
  ![v108.toNat, 0]

def k0_chk12 (v108 : BitVec 32) : Prop :=
  (∀ a, (k0_off26 v108) a + S1x64.size a ≤ S100000x64.size a)
instance k0_chk12.dec : ∀ (v108 : BitVec 32), Decidable (k0_chk12 v108) := fun v108 => decidable_of_iff' _ (Iff.of_eq (k0_chk12.eq_1 v108))
theorem k0_off26_inb : ∀ (v108 : BitVec 32) (k0_hw12 : k0_chk12 v108), ∀ a, (k0_off26 v108) a + S1x64.size a ≤ S100000x64.size a := fun v108 k0_hw12 => k0_hw12

def k0_off27 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k0_t1
  let c16_i32_46 : BitVec 32 := 16#32
  let v118 : BitVec 32 := Scalar.muli arg7 c16_i32_46
  let v119 : BitVec 32 := Scalar.addi v2 v118
  let c12_i32 : BitVec 32 := 12#32
  let v120 : BitVec 32 := Scalar.addi v119 c12_i32
  let c0_i32_47 : BitVec 32 := 0#32
  ![v120.toNat, 0]
def k0_off28 (v117 : BitVec 32) : Fin 2 → Nat :=
  let c0_i32_48 : BitVec 32 := 0#32
  ![v117.toNat, 0]

def k0_chk13 (v117 : BitVec 32) : Prop :=
  (∀ a, (k0_off28 v117) a + S1x64.size a ≤ S100000x64.size a)
instance k0_chk13.dec : ∀ (v117 : BitVec 32), Decidable (k0_chk13 v117) := fun v117 => decidable_of_iff' _ (Iff.of_eq (k0_chk13.eq_1 v117))
theorem k0_off28_inb : ∀ (v117 : BitVec 32) (k0_hw13 : k0_chk13 v117), ∀ a, (k0_off28 v117) a + S1x64.size a ≤ S100000x64.size a := fun v117 k0_hw13 => k0_hw13

def k0_off29 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k0_t1
  let c16_i32_49 : BitVec 32 := 16#32
  let v127 : BitVec 32 := Scalar.muli arg7 c16_i32_49
  let v128 : BitVec 32 := Scalar.addi v2 v127
  let c13_i32 : BitVec 32 := 13#32
  let v129 : BitVec 32 := Scalar.addi v128 c13_i32
  let c0_i32_50 : BitVec 32 := 0#32
  ![v129.toNat, 0]
def k0_off30 (v126 : BitVec 32) : Fin 2 → Nat :=
  let c0_i32_51 : BitVec 32 := 0#32
  ![v126.toNat, 0]

def k0_chk14 (v126 : BitVec 32) : Prop :=
  (∀ a, (k0_off30 v126) a + S1x64.size a ≤ S100000x64.size a)
instance k0_chk14.dec : ∀ (v126 : BitVec 32), Decidable (k0_chk14 v126) := fun v126 => decidable_of_iff' _ (Iff.of_eq (k0_chk14.eq_1 v126))
theorem k0_off30_inb : ∀ (v126 : BitVec 32) (k0_hw14 : k0_chk14 v126), ∀ a, (k0_off30 v126) a + S1x64.size a ≤ S100000x64.size a := fun v126 k0_hw14 => k0_hw14

def k0_off31 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k0_t1
  let c16_i32_52 : BitVec 32 := 16#32
  let v136 : BitVec 32 := Scalar.muli arg7 c16_i32_52
  let v137 : BitVec 32 := Scalar.addi v2 v136
  let c14_i32 : BitVec 32 := 14#32
  let v138 : BitVec 32 := Scalar.addi v137 c14_i32
  let c0_i32_53 : BitVec 32 := 0#32
  ![v138.toNat, 0]
def k0_off32 (v135 : BitVec 32) : Fin 2 → Nat :=
  let c0_i32_54 : BitVec 32 := 0#32
  ![v135.toNat, 0]

def k0_chk15 (v135 : BitVec 32) : Prop :=
  (∀ a, (k0_off32 v135) a + S1x64.size a ≤ S100000x64.size a)
instance k0_chk15.dec : ∀ (v135 : BitVec 32), Decidable (k0_chk15 v135) := fun v135 => decidable_of_iff' _ (Iff.of_eq (k0_chk15.eq_1 v135))
theorem k0_off32_inb : ∀ (v135 : BitVec 32) (k0_hw15 : k0_chk15 v135), ∀ a, (k0_off32 v135) a + S1x64.size a ≤ S100000x64.size a := fun v135 k0_hw15 => k0_hw15

def k0_off33 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k0_t1
  let c16_i32_55 : BitVec 32 := 16#32
  let v145 : BitVec 32 := Scalar.muli arg7 c16_i32_55
  let v146 : BitVec 32 := Scalar.addi v2 v145
  let c15_i32 : BitVec 32 := 15#32
  let v147 : BitVec 32 := Scalar.addi v146 c15_i32
  let c0_i32_56 : BitVec 32 := 0#32
  ![v147.toNat, 0]
def k0_off34 (v144 : BitVec 32) : Fin 2 → Nat :=
  let c0_i32_57 : BitVec 32 := 0#32
  ![v144.toNat, 0]

def k0_chk16 (v144 : BitVec 32) : Prop :=
  (∀ a, (k0_off34 v144) a + S1x64.size a ≤ S100000x64.size a)
instance k0_chk16.dec : ∀ (v144 : BitVec 32), Decidable (k0_chk16 v144) := fun v144 => decidable_of_iff' _ (Iff.of_eq (k0_chk16.eq_1 v144))
theorem k0_off34_inb : ∀ (v144 : BitVec 32) (k0_hw16 : k0_chk16 v144), ∀ a, (k0_off34 v144) a + S1x64.size a ≤ S100000x64.size a := fun v144 k0_hw16 => k0_hw16

@[reducible] def k0_t2_loop : Scf.Loop 32 :=
  let c0_i32_3 : BitVec 32 := 0#32
  let c512_i32_4 : BitVec 32 := 512#32
  let v4 : BitVec 32 := Scalar.addi c0_i32_3 c512_i32_4
  let c1_i32_5 : BitVec 32 := 1#32
  ⟨c0_i32_3, v4, c1_i32_5⟩
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k1_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k1_off2 (k1_t1 : Fin k1_t1_loop.trips) : Fin 1 → Nat :=
  let c0_i32_0 : BitVec 32 := 0#32
  let c1_i32 : BitVec 32 := 1#32
  let arg7 : BitVec 32 := Scf.iv c0_i32_0 c1_i32 k1_t1
  let c16_i32 : BitVec 32 := 16#32
  let v5 : BitVec 32 := Scalar.muli arg7 c16_i32
  let v6 : Index := Scalar.indexCast v5
  ![v6.toNat]
def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k1_t1
  let c16_i32_7 : BitVec 32 := 16#32
  let v10 : BitVec 32 := Scalar.muli arg7 c16_i32_7
  let v11 : BitVec 32 := Scalar.addi v2 v10
  let c0_i32_8 : BitVec 32 := 0#32
  let v12 : BitVec 32 := Scalar.addi v11 c0_i32_8
  let c0_i32_9 : BitVec 32 := 0#32
  ![v12.toNat, 0]
def k1_off4 (v9 : BitVec 32) : Fin 2 → Nat :=
  let c0_i32_10 : BitVec 32 := 0#32
  ![v9.toNat, 0]

def k1_chk1 (v9 : BitVec 32) : Prop :=
  (∀ a, (k1_off4 v9) a + S1x64.size a ≤ S1000000x64.size a)
instance k1_chk1.dec : ∀ (v9 : BitVec 32), Decidable (k1_chk1 v9) := fun v9 => decidable_of_iff' _ (Iff.of_eq (k1_chk1.eq_1 v9))
theorem k1_off4_inb : ∀ (v9 : BitVec 32) (k1_hw1 : k1_chk1 v9), ∀ a, (k1_off4 v9) a + S1x64.size a ≤ S1000000x64.size a := fun v9 k1_hw1 => k1_hw1

def k1_off5 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k1_t1
  let c16_i32_11 : BitVec 32 := 16#32
  let v19 : BitVec 32 := Scalar.muli arg7 c16_i32_11
  let v20 : BitVec 32 := Scalar.addi v2 v19
  let c1_i32_12 : BitVec 32 := 1#32
  let v21 : BitVec 32 := Scalar.addi v20 c1_i32_12
  let c0_i32_13 : BitVec 32 := 0#32
  ![v21.toNat, 0]
def k1_off6 (v18 : BitVec 32) : Fin 2 → Nat :=
  let c0_i32_14 : BitVec 32 := 0#32
  ![v18.toNat, 0]

def k1_chk2 (v18 : BitVec 32) : Prop :=
  (∀ a, (k1_off6 v18) a + S1x64.size a ≤ S1000000x64.size a)
instance k1_chk2.dec : ∀ (v18 : BitVec 32), Decidable (k1_chk2 v18) := fun v18 => decidable_of_iff' _ (Iff.of_eq (k1_chk2.eq_1 v18))
theorem k1_off6_inb : ∀ (v18 : BitVec 32) (k1_hw2 : k1_chk2 v18), ∀ a, (k1_off6 v18) a + S1x64.size a ≤ S1000000x64.size a := fun v18 k1_hw2 => k1_hw2

def k1_off7 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k1_t1
  let c16_i32_15 : BitVec 32 := 16#32
  let v28 : BitVec 32 := Scalar.muli arg7 c16_i32_15
  let v29 : BitVec 32 := Scalar.addi v2 v28
  let c2_i32_16 : BitVec 32 := 2#32
  let v30 : BitVec 32 := Scalar.addi v29 c2_i32_16
  let c0_i32_17 : BitVec 32 := 0#32
  ![v30.toNat, 0]
def k1_off8 (v27 : BitVec 32) : Fin 2 → Nat :=
  let c0_i32_18 : BitVec 32 := 0#32
  ![v27.toNat, 0]

def k1_chk3 (v27 : BitVec 32) : Prop :=
  (∀ a, (k1_off8 v27) a + S1x64.size a ≤ S1000000x64.size a)
instance k1_chk3.dec : ∀ (v27 : BitVec 32), Decidable (k1_chk3 v27) := fun v27 => decidable_of_iff' _ (Iff.of_eq (k1_chk3.eq_1 v27))
theorem k1_off8_inb : ∀ (v27 : BitVec 32) (k1_hw3 : k1_chk3 v27), ∀ a, (k1_off8 v27) a + S1x64.size a ≤ S1000000x64.size a := fun v27 k1_hw3 => k1_hw3

def k1_off9 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k1_t1
  let c16_i32_19 : BitVec 32 := 16#32
  let v37 : BitVec 32 := Scalar.muli arg7 c16_i32_19
  let v38 : BitVec 32 := Scalar.addi v2 v37
  let c3_i32 : BitVec 32 := 3#32
  let v39 : BitVec 32 := Scalar.addi v38 c3_i32
  let c0_i32_20 : BitVec 32 := 0#32
  ![v39.toNat, 0]
def k1_off10 (v36 : BitVec 32) : Fin 2 → Nat :=
  let c0_i32_21 : BitVec 32 := 0#32
  ![v36.toNat, 0]

def k1_chk4 (v36 : BitVec 32) : Prop :=
  (∀ a, (k1_off10 v36) a + S1x64.size a ≤ S1000000x64.size a)
instance k1_chk4.dec : ∀ (v36 : BitVec 32), Decidable (k1_chk4 v36) := fun v36 => decidable_of_iff' _ (Iff.of_eq (k1_chk4.eq_1 v36))
theorem k1_off10_inb : ∀ (v36 : BitVec 32) (k1_hw4 : k1_chk4 v36), ∀ a, (k1_off10 v36) a + S1x64.size a ≤ S1000000x64.size a := fun v36 k1_hw4 => k1_hw4

def k1_off11 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k1_t1
  let c16_i32_22 : BitVec 32 := 16#32
  let v46 : BitVec 32 := Scalar.muli arg7 c16_i32_22
  let v47 : BitVec 32 := Scalar.addi v2 v46
  let c4_i32 : BitVec 32 := 4#32
  let v48 : BitVec 32 := Scalar.addi v47 c4_i32
  let c0_i32_23 : BitVec 32 := 0#32
  ![v48.toNat, 0]
def k1_off12 (v45 : BitVec 32) : Fin 2 → Nat :=
  let c0_i32_24 : BitVec 32 := 0#32
  ![v45.toNat, 0]

def k1_chk5 (v45 : BitVec 32) : Prop :=
  (∀ a, (k1_off12 v45) a + S1x64.size a ≤ S1000000x64.size a)
instance k1_chk5.dec : ∀ (v45 : BitVec 32), Decidable (k1_chk5 v45) := fun v45 => decidable_of_iff' _ (Iff.of_eq (k1_chk5.eq_1 v45))
theorem k1_off12_inb : ∀ (v45 : BitVec 32) (k1_hw5 : k1_chk5 v45), ∀ a, (k1_off12 v45) a + S1x64.size a ≤ S1000000x64.size a := fun v45 k1_hw5 => k1_hw5

def k1_off13 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k1_t1
  let c16_i32_25 : BitVec 32 := 16#32
  let v55 : BitVec 32 := Scalar.muli arg7 c16_i32_25
  let v56 : BitVec 32 := Scalar.addi v2 v55
  let c5_i32 : BitVec 32 := 5#32
  let v57 : BitVec 32 := Scalar.addi v56 c5_i32
  let c0_i32_26 : BitVec 32 := 0#32
  ![v57.toNat, 0]
def k1_off14 (v54 : BitVec 32) : Fin 2 → Nat :=
  let c0_i32_27 : BitVec 32 := 0#32
  ![v54.toNat, 0]

def k1_chk6 (v54 : BitVec 32) : Prop :=
  (∀ a, (k1_off14 v54) a + S1x64.size a ≤ S1000000x64.size a)
instance k1_chk6.dec : ∀ (v54 : BitVec 32), Decidable (k1_chk6 v54) := fun v54 => decidable_of_iff' _ (Iff.of_eq (k1_chk6.eq_1 v54))
theorem k1_off14_inb : ∀ (v54 : BitVec 32) (k1_hw6 : k1_chk6 v54), ∀ a, (k1_off14 v54) a + S1x64.size a ≤ S1000000x64.size a := fun v54 k1_hw6 => k1_hw6

def k1_off15 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k1_t1
  let c16_i32_28 : BitVec 32 := 16#32
  let v64 : BitVec 32 := Scalar.muli arg7 c16_i32_28
  let v65 : BitVec 32 := Scalar.addi v2 v64
  let c6_i32 : BitVec 32 := 6#32
  let v66 : BitVec 32 := Scalar.addi v65 c6_i32
  let c0_i32_29 : BitVec 32 := 0#32
  ![v66.toNat, 0]
def k1_off16 (v63 : BitVec 32) : Fin 2 → Nat :=
  let c0_i32_30 : BitVec 32 := 0#32
  ![v63.toNat, 0]

def k1_chk7 (v63 : BitVec 32) : Prop :=
  (∀ a, (k1_off16 v63) a + S1x64.size a ≤ S1000000x64.size a)
instance k1_chk7.dec : ∀ (v63 : BitVec 32), Decidable (k1_chk7 v63) := fun v63 => decidable_of_iff' _ (Iff.of_eq (k1_chk7.eq_1 v63))
theorem k1_off16_inb : ∀ (v63 : BitVec 32) (k1_hw7 : k1_chk7 v63), ∀ a, (k1_off16 v63) a + S1x64.size a ≤ S1000000x64.size a := fun v63 k1_hw7 => k1_hw7

def k1_off17 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k1_t1
  let c16_i32_31 : BitVec 32 := 16#32
  let v73 : BitVec 32 := Scalar.muli arg7 c16_i32_31
  let v74 : BitVec 32 := Scalar.addi v2 v73
  let c7_i32 : BitVec 32 := 7#32
  let v75 : BitVec 32 := Scalar.addi v74 c7_i32
  let c0_i32_32 : BitVec 32 := 0#32
  ![v75.toNat, 0]
def k1_off18 (v72 : BitVec 32) : Fin 2 → Nat :=
  let c0_i32_33 : BitVec 32 := 0#32
  ![v72.toNat, 0]

def k1_chk8 (v72 : BitVec 32) : Prop :=
  (∀ a, (k1_off18 v72) a + S1x64.size a ≤ S1000000x64.size a)
instance k1_chk8.dec : ∀ (v72 : BitVec 32), Decidable (k1_chk8 v72) := fun v72 => decidable_of_iff' _ (Iff.of_eq (k1_chk8.eq_1 v72))
theorem k1_off18_inb : ∀ (v72 : BitVec 32) (k1_hw8 : k1_chk8 v72), ∀ a, (k1_off18 v72) a + S1x64.size a ≤ S1000000x64.size a := fun v72 k1_hw8 => k1_hw8

def k1_off19 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k1_t1
  let c16_i32_34 : BitVec 32 := 16#32
  let v82 : BitVec 32 := Scalar.muli arg7 c16_i32_34
  let v83 : BitVec 32 := Scalar.addi v2 v82
  let c8_i32 : BitVec 32 := 8#32
  let v84 : BitVec 32 := Scalar.addi v83 c8_i32
  let c0_i32_35 : BitVec 32 := 0#32
  ![v84.toNat, 0]
def k1_off20 (v81 : BitVec 32) : Fin 2 → Nat :=
  let c0_i32_36 : BitVec 32 := 0#32
  ![v81.toNat, 0]

def k1_chk9 (v81 : BitVec 32) : Prop :=
  (∀ a, (k1_off20 v81) a + S1x64.size a ≤ S1000000x64.size a)
instance k1_chk9.dec : ∀ (v81 : BitVec 32), Decidable (k1_chk9 v81) := fun v81 => decidable_of_iff' _ (Iff.of_eq (k1_chk9.eq_1 v81))
theorem k1_off20_inb : ∀ (v81 : BitVec 32) (k1_hw9 : k1_chk9 v81), ∀ a, (k1_off20 v81) a + S1x64.size a ≤ S1000000x64.size a := fun v81 k1_hw9 => k1_hw9

def k1_off21 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k1_t1
  let c16_i32_37 : BitVec 32 := 16#32
  let v91 : BitVec 32 := Scalar.muli arg7 c16_i32_37
  let v92 : BitVec 32 := Scalar.addi v2 v91
  let c9_i32 : BitVec 32 := 9#32
  let v93 : BitVec 32 := Scalar.addi v92 c9_i32
  let c0_i32_38 : BitVec 32 := 0#32
  ![v93.toNat, 0]
def k1_off22 (v90 : BitVec 32) : Fin 2 → Nat :=
  let c0_i32_39 : BitVec 32 := 0#32
  ![v90.toNat, 0]

def k1_chk10 (v90 : BitVec 32) : Prop :=
  (∀ a, (k1_off22 v90) a + S1x64.size a ≤ S1000000x64.size a)
instance k1_chk10.dec : ∀ (v90 : BitVec 32), Decidable (k1_chk10 v90) := fun v90 => decidable_of_iff' _ (Iff.of_eq (k1_chk10.eq_1 v90))
theorem k1_off22_inb : ∀ (v90 : BitVec 32) (k1_hw10 : k1_chk10 v90), ∀ a, (k1_off22 v90) a + S1x64.size a ≤ S1000000x64.size a := fun v90 k1_hw10 => k1_hw10

def k1_off23 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k1_t1
  let c16_i32_40 : BitVec 32 := 16#32
  let v100 : BitVec 32 := Scalar.muli arg7 c16_i32_40
  let v101 : BitVec 32 := Scalar.addi v2 v100
  let c10_i32 : BitVec 32 := 10#32
  let v102 : BitVec 32 := Scalar.addi v101 c10_i32
  let c0_i32_41 : BitVec 32 := 0#32
  ![v102.toNat, 0]
def k1_off24 (v99 : BitVec 32) : Fin 2 → Nat :=
  let c0_i32_42 : BitVec 32 := 0#32
  ![v99.toNat, 0]

def k1_chk11 (v99 : BitVec 32) : Prop :=
  (∀ a, (k1_off24 v99) a + S1x64.size a ≤ S1000000x64.size a)
instance k1_chk11.dec : ∀ (v99 : BitVec 32), Decidable (k1_chk11 v99) := fun v99 => decidable_of_iff' _ (Iff.of_eq (k1_chk11.eq_1 v99))
theorem k1_off24_inb : ∀ (v99 : BitVec 32) (k1_hw11 : k1_chk11 v99), ∀ a, (k1_off24 v99) a + S1x64.size a ≤ S1000000x64.size a := fun v99 k1_hw11 => k1_hw11

def k1_off25 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k1_t1
  let c16_i32_43 : BitVec 32 := 16#32
  let v109 : BitVec 32 := Scalar.muli arg7 c16_i32_43
  let v110 : BitVec 32 := Scalar.addi v2 v109
  let c11_i32 : BitVec 32 := 11#32
  let v111 : BitVec 32 := Scalar.addi v110 c11_i32
  let c0_i32_44 : BitVec 32 := 0#32
  ![v111.toNat, 0]
def k1_off26 (v108 : BitVec 32) : Fin 2 → Nat :=
  let c0_i32_45 : BitVec 32 := 0#32
  ![v108.toNat, 0]

def k1_chk12 (v108 : BitVec 32) : Prop :=
  (∀ a, (k1_off26 v108) a + S1x64.size a ≤ S1000000x64.size a)
instance k1_chk12.dec : ∀ (v108 : BitVec 32), Decidable (k1_chk12 v108) := fun v108 => decidable_of_iff' _ (Iff.of_eq (k1_chk12.eq_1 v108))
theorem k1_off26_inb : ∀ (v108 : BitVec 32) (k1_hw12 : k1_chk12 v108), ∀ a, (k1_off26 v108) a + S1x64.size a ≤ S1000000x64.size a := fun v108 k1_hw12 => k1_hw12

def k1_off27 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k1_t1
  let c16_i32_46 : BitVec 32 := 16#32
  let v118 : BitVec 32 := Scalar.muli arg7 c16_i32_46
  let v119 : BitVec 32 := Scalar.addi v2 v118
  let c12_i32 : BitVec 32 := 12#32
  let v120 : BitVec 32 := Scalar.addi v119 c12_i32
  let c0_i32_47 : BitVec 32 := 0#32
  ![v120.toNat, 0]
def k1_off28 (v117 : BitVec 32) : Fin 2 → Nat :=
  let c0_i32_48 : BitVec 32 := 0#32
  ![v117.toNat, 0]

def k1_chk13 (v117 : BitVec 32) : Prop :=
  (∀ a, (k1_off28 v117) a + S1x64.size a ≤ S1000000x64.size a)
instance k1_chk13.dec : ∀ (v117 : BitVec 32), Decidable (k1_chk13 v117) := fun v117 => decidable_of_iff' _ (Iff.of_eq (k1_chk13.eq_1 v117))
theorem k1_off28_inb : ∀ (v117 : BitVec 32) (k1_hw13 : k1_chk13 v117), ∀ a, (k1_off28 v117) a + S1x64.size a ≤ S1000000x64.size a := fun v117 k1_hw13 => k1_hw13

def k1_off29 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k1_t1
  let c16_i32_49 : BitVec 32 := 16#32
  let v127 : BitVec 32 := Scalar.muli arg7 c16_i32_49
  let v128 : BitVec 32 := Scalar.addi v2 v127
  let c13_i32 : BitVec 32 := 13#32
  let v129 : BitVec 32 := Scalar.addi v128 c13_i32
  let c0_i32_50 : BitVec 32 := 0#32
  ![v129.toNat, 0]
def k1_off30 (v126 : BitVec 32) : Fin 2 → Nat :=
  let c0_i32_51 : BitVec 32 := 0#32
  ![v126.toNat, 0]

def k1_chk14 (v126 : BitVec 32) : Prop :=
  (∀ a, (k1_off30 v126) a + S1x64.size a ≤ S1000000x64.size a)
instance k1_chk14.dec : ∀ (v126 : BitVec 32), Decidable (k1_chk14 v126) := fun v126 => decidable_of_iff' _ (Iff.of_eq (k1_chk14.eq_1 v126))
theorem k1_off30_inb : ∀ (v126 : BitVec 32) (k1_hw14 : k1_chk14 v126), ∀ a, (k1_off30 v126) a + S1x64.size a ≤ S1000000x64.size a := fun v126 k1_hw14 => k1_hw14

def k1_off31 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k1_t1
  let c16_i32_52 : BitVec 32 := 16#32
  let v136 : BitVec 32 := Scalar.muli arg7 c16_i32_52
  let v137 : BitVec 32 := Scalar.addi v2 v136
  let c14_i32 : BitVec 32 := 14#32
  let v138 : BitVec 32 := Scalar.addi v137 c14_i32
  let c0_i32_53 : BitVec 32 := 0#32
  ![v138.toNat, 0]
def k1_off32 (v135 : BitVec 32) : Fin 2 → Nat :=
  let c0_i32_54 : BitVec 32 := 0#32
  ![v135.toNat, 0]

def k1_chk15 (v135 : BitVec 32) : Prop :=
  (∀ a, (k1_off32 v135) a + S1x64.size a ≤ S1000000x64.size a)
instance k1_chk15.dec : ∀ (v135 : BitVec 32), Decidable (k1_chk15 v135) := fun v135 => decidable_of_iff' _ (Iff.of_eq (k1_chk15.eq_1 v135))
theorem k1_off32_inb : ∀ (v135 : BitVec 32) (k1_hw15 : k1_chk15 v135), ∀ a, (k1_off32 v135) a + S1x64.size a ≤ S1000000x64.size a := fun v135 k1_hw15 => k1_hw15

def k1_off33 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k1_t1
  let c16_i32_55 : BitVec 32 := 16#32
  let v145 : BitVec 32 := Scalar.muli arg7 c16_i32_55
  let v146 : BitVec 32 := Scalar.addi v2 v145
  let c15_i32 : BitVec 32 := 15#32
  let v147 : BitVec 32 := Scalar.addi v146 c15_i32
  let c0_i32_56 : BitVec 32 := 0#32
  ![v147.toNat, 0]
def k1_off34 (v144 : BitVec 32) : Fin 2 → Nat :=
  let c0_i32_57 : BitVec 32 := 0#32
  ![v144.toNat, 0]

def k1_chk16 (v144 : BitVec 32) : Prop :=
  (∀ a, (k1_off34 v144) a + S1x64.size a ≤ S1000000x64.size a)
instance k1_chk16.dec : ∀ (v144 : BitVec 32), Decidable (k1_chk16 v144) := fun v144 => decidable_of_iff' _ (Iff.of_eq (k1_chk16.eq_1 v144))
theorem k1_off34_inb : ∀ (v144 : BitVec 32) (k1_hw16 : k1_chk16 v144), ∀ a, (k1_off34 v144) a + S1x64.size a ≤ S1000000x64.size a := fun v144 k1_hw16 => k1_hw16

@[reducible] def k1_t2_loop : Scf.Loop 32 :=
  let c0_i32_3 : BitVec 32 := 0#32
  let c512_i32_4 : BitVec 32 := 512#32
  let v4 : BitVec 32 := Scalar.addi c0_i32_3 c512_i32_4
  let c1_i32_5 : BitVec 32 := 1#32
  ⟨c0_i32_3, v4, c1_i32_5⟩
abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k2_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k2_off2 (k2_t1 : Fin k2_t1_loop.trips) : Fin 1 → Nat :=
  let c0_i32_0 : BitVec 32 := 0#32
  let c1_i32 : BitVec 32 := 1#32
  let arg7 : BitVec 32 := Scf.iv c0_i32_0 c1_i32 k2_t1
  let c16_i32 : BitVec 32 := 16#32
  let v5 : BitVec 32 := Scalar.muli arg7 c16_i32
  let v6 : Index := Scalar.indexCast v5
  ![v6.toNat]
def k2_off3 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k2_t1
  let c16_i32_7 : BitVec 32 := 16#32
  let v10 : BitVec 32 := Scalar.muli arg7 c16_i32_7
  let v11 : BitVec 32 := Scalar.addi v2 v10
  let c0_i32_8 : BitVec 32 := 0#32
  let v12 : BitVec 32 := Scalar.addi v11 c0_i32_8
  let c0_i32_9 : BitVec 32 := 0#32
  ![v12.toNat, 0]
def k2_off4 (v9 : BitVec 32) : Fin 2 → Nat :=
  let c0_i32_10 : BitVec 32 := 0#32
  ![v9.toNat, 0]

def k2_chk1 (v9 : BitVec 32) : Prop :=
  (∀ a, (k2_off4 v9) a + S1x64.size a ≤ S10000x64.size a)
instance k2_chk1.dec : ∀ (v9 : BitVec 32), Decidable (k2_chk1 v9) := fun v9 => decidable_of_iff' _ (Iff.of_eq (k2_chk1.eq_1 v9))
theorem k2_off4_inb : ∀ (v9 : BitVec 32) (k2_hw1 : k2_chk1 v9), ∀ a, (k2_off4 v9) a + S1x64.size a ≤ S10000x64.size a := fun v9 k2_hw1 => k2_hw1

def k2_off5 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k2_t1
  let c16_i32_11 : BitVec 32 := 16#32
  let v19 : BitVec 32 := Scalar.muli arg7 c16_i32_11
  let v20 : BitVec 32 := Scalar.addi v2 v19
  let c1_i32_12 : BitVec 32 := 1#32
  let v21 : BitVec 32 := Scalar.addi v20 c1_i32_12
  let c0_i32_13 : BitVec 32 := 0#32
  ![v21.toNat, 0]
def k2_off6 (v18 : BitVec 32) : Fin 2 → Nat :=
  let c0_i32_14 : BitVec 32 := 0#32
  ![v18.toNat, 0]

def k2_chk2 (v18 : BitVec 32) : Prop :=
  (∀ a, (k2_off6 v18) a + S1x64.size a ≤ S10000x64.size a)
instance k2_chk2.dec : ∀ (v18 : BitVec 32), Decidable (k2_chk2 v18) := fun v18 => decidable_of_iff' _ (Iff.of_eq (k2_chk2.eq_1 v18))
theorem k2_off6_inb : ∀ (v18 : BitVec 32) (k2_hw2 : k2_chk2 v18), ∀ a, (k2_off6 v18) a + S1x64.size a ≤ S10000x64.size a := fun v18 k2_hw2 => k2_hw2

def k2_off7 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k2_t1
  let c16_i32_15 : BitVec 32 := 16#32
  let v28 : BitVec 32 := Scalar.muli arg7 c16_i32_15
  let v29 : BitVec 32 := Scalar.addi v2 v28
  let c2_i32_16 : BitVec 32 := 2#32
  let v30 : BitVec 32 := Scalar.addi v29 c2_i32_16
  let c0_i32_17 : BitVec 32 := 0#32
  ![v30.toNat, 0]
def k2_off8 (v27 : BitVec 32) : Fin 2 → Nat :=
  let c0_i32_18 : BitVec 32 := 0#32
  ![v27.toNat, 0]

def k2_chk3 (v27 : BitVec 32) : Prop :=
  (∀ a, (k2_off8 v27) a + S1x64.size a ≤ S10000x64.size a)
instance k2_chk3.dec : ∀ (v27 : BitVec 32), Decidable (k2_chk3 v27) := fun v27 => decidable_of_iff' _ (Iff.of_eq (k2_chk3.eq_1 v27))
theorem k2_off8_inb : ∀ (v27 : BitVec 32) (k2_hw3 : k2_chk3 v27), ∀ a, (k2_off8 v27) a + S1x64.size a ≤ S10000x64.size a := fun v27 k2_hw3 => k2_hw3

def k2_off9 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k2_t1
  let c16_i32_19 : BitVec 32 := 16#32
  let v37 : BitVec 32 := Scalar.muli arg7 c16_i32_19
  let v38 : BitVec 32 := Scalar.addi v2 v37
  let c3_i32 : BitVec 32 := 3#32
  let v39 : BitVec 32 := Scalar.addi v38 c3_i32
  let c0_i32_20 : BitVec 32 := 0#32
  ![v39.toNat, 0]
def k2_off10 (v36 : BitVec 32) : Fin 2 → Nat :=
  let c0_i32_21 : BitVec 32 := 0#32
  ![v36.toNat, 0]

def k2_chk4 (v36 : BitVec 32) : Prop :=
  (∀ a, (k2_off10 v36) a + S1x64.size a ≤ S10000x64.size a)
instance k2_chk4.dec : ∀ (v36 : BitVec 32), Decidable (k2_chk4 v36) := fun v36 => decidable_of_iff' _ (Iff.of_eq (k2_chk4.eq_1 v36))
theorem k2_off10_inb : ∀ (v36 : BitVec 32) (k2_hw4 : k2_chk4 v36), ∀ a, (k2_off10 v36) a + S1x64.size a ≤ S10000x64.size a := fun v36 k2_hw4 => k2_hw4

def k2_off11 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k2_t1
  let c16_i32_22 : BitVec 32 := 16#32
  let v46 : BitVec 32 := Scalar.muli arg7 c16_i32_22
  let v47 : BitVec 32 := Scalar.addi v2 v46
  let c4_i32 : BitVec 32 := 4#32
  let v48 : BitVec 32 := Scalar.addi v47 c4_i32
  let c0_i32_23 : BitVec 32 := 0#32
  ![v48.toNat, 0]
def k2_off12 (v45 : BitVec 32) : Fin 2 → Nat :=
  let c0_i32_24 : BitVec 32 := 0#32
  ![v45.toNat, 0]

def k2_chk5 (v45 : BitVec 32) : Prop :=
  (∀ a, (k2_off12 v45) a + S1x64.size a ≤ S10000x64.size a)
instance k2_chk5.dec : ∀ (v45 : BitVec 32), Decidable (k2_chk5 v45) := fun v45 => decidable_of_iff' _ (Iff.of_eq (k2_chk5.eq_1 v45))
theorem k2_off12_inb : ∀ (v45 : BitVec 32) (k2_hw5 : k2_chk5 v45), ∀ a, (k2_off12 v45) a + S1x64.size a ≤ S10000x64.size a := fun v45 k2_hw5 => k2_hw5

def k2_off13 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k2_t1
  let c16_i32_25 : BitVec 32 := 16#32
  let v55 : BitVec 32 := Scalar.muli arg7 c16_i32_25
  let v56 : BitVec 32 := Scalar.addi v2 v55
  let c5_i32 : BitVec 32 := 5#32
  let v57 : BitVec 32 := Scalar.addi v56 c5_i32
  let c0_i32_26 : BitVec 32 := 0#32
  ![v57.toNat, 0]
def k2_off14 (v54 : BitVec 32) : Fin 2 → Nat :=
  let c0_i32_27 : BitVec 32 := 0#32
  ![v54.toNat, 0]

def k2_chk6 (v54 : BitVec 32) : Prop :=
  (∀ a, (k2_off14 v54) a + S1x64.size a ≤ S10000x64.size a)
instance k2_chk6.dec : ∀ (v54 : BitVec 32), Decidable (k2_chk6 v54) := fun v54 => decidable_of_iff' _ (Iff.of_eq (k2_chk6.eq_1 v54))
theorem k2_off14_inb : ∀ (v54 : BitVec 32) (k2_hw6 : k2_chk6 v54), ∀ a, (k2_off14 v54) a + S1x64.size a ≤ S10000x64.size a := fun v54 k2_hw6 => k2_hw6

def k2_off15 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k2_t1
  let c16_i32_28 : BitVec 32 := 16#32
  let v64 : BitVec 32 := Scalar.muli arg7 c16_i32_28
  let v65 : BitVec 32 := Scalar.addi v2 v64
  let c6_i32 : BitVec 32 := 6#32
  let v66 : BitVec 32 := Scalar.addi v65 c6_i32
  let c0_i32_29 : BitVec 32 := 0#32
  ![v66.toNat, 0]
def k2_off16 (v63 : BitVec 32) : Fin 2 → Nat :=
  let c0_i32_30 : BitVec 32 := 0#32
  ![v63.toNat, 0]

def k2_chk7 (v63 : BitVec 32) : Prop :=
  (∀ a, (k2_off16 v63) a + S1x64.size a ≤ S10000x64.size a)
instance k2_chk7.dec : ∀ (v63 : BitVec 32), Decidable (k2_chk7 v63) := fun v63 => decidable_of_iff' _ (Iff.of_eq (k2_chk7.eq_1 v63))
theorem k2_off16_inb : ∀ (v63 : BitVec 32) (k2_hw7 : k2_chk7 v63), ∀ a, (k2_off16 v63) a + S1x64.size a ≤ S10000x64.size a := fun v63 k2_hw7 => k2_hw7

def k2_off17 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k2_t1
  let c16_i32_31 : BitVec 32 := 16#32
  let v73 : BitVec 32 := Scalar.muli arg7 c16_i32_31
  let v74 : BitVec 32 := Scalar.addi v2 v73
  let c7_i32 : BitVec 32 := 7#32
  let v75 : BitVec 32 := Scalar.addi v74 c7_i32
  let c0_i32_32 : BitVec 32 := 0#32
  ![v75.toNat, 0]
def k2_off18 (v72 : BitVec 32) : Fin 2 → Nat :=
  let c0_i32_33 : BitVec 32 := 0#32
  ![v72.toNat, 0]

def k2_chk8 (v72 : BitVec 32) : Prop :=
  (∀ a, (k2_off18 v72) a + S1x64.size a ≤ S10000x64.size a)
instance k2_chk8.dec : ∀ (v72 : BitVec 32), Decidable (k2_chk8 v72) := fun v72 => decidable_of_iff' _ (Iff.of_eq (k2_chk8.eq_1 v72))
theorem k2_off18_inb : ∀ (v72 : BitVec 32) (k2_hw8 : k2_chk8 v72), ∀ a, (k2_off18 v72) a + S1x64.size a ≤ S10000x64.size a := fun v72 k2_hw8 => k2_hw8

def k2_off19 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k2_t1
  let c16_i32_34 : BitVec 32 := 16#32
  let v82 : BitVec 32 := Scalar.muli arg7 c16_i32_34
  let v83 : BitVec 32 := Scalar.addi v2 v82
  let c8_i32 : BitVec 32 := 8#32
  let v84 : BitVec 32 := Scalar.addi v83 c8_i32
  let c0_i32_35 : BitVec 32 := 0#32
  ![v84.toNat, 0]
def k2_off20 (v81 : BitVec 32) : Fin 2 → Nat :=
  let c0_i32_36 : BitVec 32 := 0#32
  ![v81.toNat, 0]

def k2_chk9 (v81 : BitVec 32) : Prop :=
  (∀ a, (k2_off20 v81) a + S1x64.size a ≤ S10000x64.size a)
instance k2_chk9.dec : ∀ (v81 : BitVec 32), Decidable (k2_chk9 v81) := fun v81 => decidable_of_iff' _ (Iff.of_eq (k2_chk9.eq_1 v81))
theorem k2_off20_inb : ∀ (v81 : BitVec 32) (k2_hw9 : k2_chk9 v81), ∀ a, (k2_off20 v81) a + S1x64.size a ≤ S10000x64.size a := fun v81 k2_hw9 => k2_hw9

def k2_off21 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k2_t1
  let c16_i32_37 : BitVec 32 := 16#32
  let v91 : BitVec 32 := Scalar.muli arg7 c16_i32_37
  let v92 : BitVec 32 := Scalar.addi v2 v91
  let c9_i32 : BitVec 32 := 9#32
  let v93 : BitVec 32 := Scalar.addi v92 c9_i32
  let c0_i32_38 : BitVec 32 := 0#32
  ![v93.toNat, 0]
def k2_off22 (v90 : BitVec 32) : Fin 2 → Nat :=
  let c0_i32_39 : BitVec 32 := 0#32
  ![v90.toNat, 0]

def k2_chk10 (v90 : BitVec 32) : Prop :=
  (∀ a, (k2_off22 v90) a + S1x64.size a ≤ S10000x64.size a)
instance k2_chk10.dec : ∀ (v90 : BitVec 32), Decidable (k2_chk10 v90) := fun v90 => decidable_of_iff' _ (Iff.of_eq (k2_chk10.eq_1 v90))
theorem k2_off22_inb : ∀ (v90 : BitVec 32) (k2_hw10 : k2_chk10 v90), ∀ a, (k2_off22 v90) a + S1x64.size a ≤ S10000x64.size a := fun v90 k2_hw10 => k2_hw10

def k2_off23 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k2_t1
  let c16_i32_40 : BitVec 32 := 16#32
  let v100 : BitVec 32 := Scalar.muli arg7 c16_i32_40
  let v101 : BitVec 32 := Scalar.addi v2 v100
  let c10_i32 : BitVec 32 := 10#32
  let v102 : BitVec 32 := Scalar.addi v101 c10_i32
  let c0_i32_41 : BitVec 32 := 0#32
  ![v102.toNat, 0]
def k2_off24 (v99 : BitVec 32) : Fin 2 → Nat :=
  let c0_i32_42 : BitVec 32 := 0#32
  ![v99.toNat, 0]

def k2_chk11 (v99 : BitVec 32) : Prop :=
  (∀ a, (k2_off24 v99) a + S1x64.size a ≤ S10000x64.size a)
instance k2_chk11.dec : ∀ (v99 : BitVec 32), Decidable (k2_chk11 v99) := fun v99 => decidable_of_iff' _ (Iff.of_eq (k2_chk11.eq_1 v99))
theorem k2_off24_inb : ∀ (v99 : BitVec 32) (k2_hw11 : k2_chk11 v99), ∀ a, (k2_off24 v99) a + S1x64.size a ≤ S10000x64.size a := fun v99 k2_hw11 => k2_hw11

def k2_off25 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k2_t1
  let c16_i32_43 : BitVec 32 := 16#32
  let v109 : BitVec 32 := Scalar.muli arg7 c16_i32_43
  let v110 : BitVec 32 := Scalar.addi v2 v109
  let c11_i32 : BitVec 32 := 11#32
  let v111 : BitVec 32 := Scalar.addi v110 c11_i32
  let c0_i32_44 : BitVec 32 := 0#32
  ![v111.toNat, 0]
def k2_off26 (v108 : BitVec 32) : Fin 2 → Nat :=
  let c0_i32_45 : BitVec 32 := 0#32
  ![v108.toNat, 0]

def k2_chk12 (v108 : BitVec 32) : Prop :=
  (∀ a, (k2_off26 v108) a + S1x64.size a ≤ S10000x64.size a)
instance k2_chk12.dec : ∀ (v108 : BitVec 32), Decidable (k2_chk12 v108) := fun v108 => decidable_of_iff' _ (Iff.of_eq (k2_chk12.eq_1 v108))
theorem k2_off26_inb : ∀ (v108 : BitVec 32) (k2_hw12 : k2_chk12 v108), ∀ a, (k2_off26 v108) a + S1x64.size a ≤ S10000x64.size a := fun v108 k2_hw12 => k2_hw12

def k2_off27 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k2_t1
  let c16_i32_46 : BitVec 32 := 16#32
  let v118 : BitVec 32 := Scalar.muli arg7 c16_i32_46
  let v119 : BitVec 32 := Scalar.addi v2 v118
  let c12_i32 : BitVec 32 := 12#32
  let v120 : BitVec 32 := Scalar.addi v119 c12_i32
  let c0_i32_47 : BitVec 32 := 0#32
  ![v120.toNat, 0]
def k2_off28 (v117 : BitVec 32) : Fin 2 → Nat :=
  let c0_i32_48 : BitVec 32 := 0#32
  ![v117.toNat, 0]

def k2_chk13 (v117 : BitVec 32) : Prop :=
  (∀ a, (k2_off28 v117) a + S1x64.size a ≤ S10000x64.size a)
instance k2_chk13.dec : ∀ (v117 : BitVec 32), Decidable (k2_chk13 v117) := fun v117 => decidable_of_iff' _ (Iff.of_eq (k2_chk13.eq_1 v117))
theorem k2_off28_inb : ∀ (v117 : BitVec 32) (k2_hw13 : k2_chk13 v117), ∀ a, (k2_off28 v117) a + S1x64.size a ≤ S10000x64.size a := fun v117 k2_hw13 => k2_hw13

def k2_off29 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k2_t1
  let c16_i32_49 : BitVec 32 := 16#32
  let v127 : BitVec 32 := Scalar.muli arg7 c16_i32_49
  let v128 : BitVec 32 := Scalar.addi v2 v127
  let c13_i32 : BitVec 32 := 13#32
  let v129 : BitVec 32 := Scalar.addi v128 c13_i32
  let c0_i32_50 : BitVec 32 := 0#32
  ![v129.toNat, 0]
def k2_off30 (v126 : BitVec 32) : Fin 2 → Nat :=
  let c0_i32_51 : BitVec 32 := 0#32
  ![v126.toNat, 0]

def k2_chk14 (v126 : BitVec 32) : Prop :=
  (∀ a, (k2_off30 v126) a + S1x64.size a ≤ S10000x64.size a)
instance k2_chk14.dec : ∀ (v126 : BitVec 32), Decidable (k2_chk14 v126) := fun v126 => decidable_of_iff' _ (Iff.of_eq (k2_chk14.eq_1 v126))
theorem k2_off30_inb : ∀ (v126 : BitVec 32) (k2_hw14 : k2_chk14 v126), ∀ a, (k2_off30 v126) a + S1x64.size a ≤ S10000x64.size a := fun v126 k2_hw14 => k2_hw14

def k2_off31 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k2_t1
  let c16_i32_52 : BitVec 32 := 16#32
  let v136 : BitVec 32 := Scalar.muli arg7 c16_i32_52
  let v137 : BitVec 32 := Scalar.addi v2 v136
  let c14_i32 : BitVec 32 := 14#32
  let v138 : BitVec 32 := Scalar.addi v137 c14_i32
  let c0_i32_53 : BitVec 32 := 0#32
  ![v138.toNat, 0]
def k2_off32 (v135 : BitVec 32) : Fin 2 → Nat :=
  let c0_i32_54 : BitVec 32 := 0#32
  ![v135.toNat, 0]

def k2_chk15 (v135 : BitVec 32) : Prop :=
  (∀ a, (k2_off32 v135) a + S1x64.size a ≤ S10000x64.size a)
instance k2_chk15.dec : ∀ (v135 : BitVec 32), Decidable (k2_chk15 v135) := fun v135 => decidable_of_iff' _ (Iff.of_eq (k2_chk15.eq_1 v135))
theorem k2_off32_inb : ∀ (v135 : BitVec 32) (k2_hw15 : k2_chk15 v135), ∀ a, (k2_off32 v135) a + S1x64.size a ≤ S10000x64.size a := fun v135 k2_hw15 => k2_hw15

def k2_off33 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k2_t1
  let c16_i32_55 : BitVec 32 := 16#32
  let v145 : BitVec 32 := Scalar.muli arg7 c16_i32_55
  let v146 : BitVec 32 := Scalar.addi v2 v145
  let c15_i32 : BitVec 32 := 15#32
  let v147 : BitVec 32 := Scalar.addi v146 c15_i32
  let c0_i32_56 : BitVec 32 := 0#32
  ![v147.toNat, 0]
def k2_off34 (v144 : BitVec 32) : Fin 2 → Nat :=
  let c0_i32_57 : BitVec 32 := 0#32
  ![v144.toNat, 0]

def k2_chk16 (v144 : BitVec 32) : Prop :=
  (∀ a, (k2_off34 v144) a + S1x64.size a ≤ S10000x64.size a)
instance k2_chk16.dec : ∀ (v144 : BitVec 32), Decidable (k2_chk16 v144) := fun v144 => decidable_of_iff' _ (Iff.of_eq (k2_chk16.eq_1 v144))
theorem k2_off34_inb : ∀ (v144 : BitVec 32) (k2_hw16 : k2_chk16 v144), ∀ a, (k2_off34 v144) a + S1x64.size a ≤ S10000x64.size a := fun v144 k2_hw16 => k2_hw16

@[reducible] def k2_t2_loop : Scf.Loop 32 :=
  let c0_i32_3 : BitVec 32 := 0#32
  let c512_i32_4 : BitVec 32 := 512#32
  let v4 : BitVec 32 := Scalar.addi c0_i32_3 c512_i32_4
  let c1_i32_5 : BitVec 32 := 1#32
  ⟨c0_i32_3, v4, c1_i32_5⟩
abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k3_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k3_off2 (k3_t1 : Fin k3_t1_loop.trips) : Fin 1 → Nat :=
  let c0_i32_0 : BitVec 32 := 0#32
  let c1_i32 : BitVec 32 := 1#32
  let arg7 : BitVec 32 := Scf.iv c0_i32_0 c1_i32 k3_t1
  let c16_i32 : BitVec 32 := 16#32
  let v5 : BitVec 32 := Scalar.muli arg7 c16_i32
  let v6 : Index := Scalar.indexCast v5
  ![v6.toNat]
def k3_off3 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k3_t1
  let c16_i32_7 : BitVec 32 := 16#32
  let v10 : BitVec 32 := Scalar.muli arg7 c16_i32_7
  let v11 : BitVec 32 := Scalar.addi v2 v10
  let c0_i32_8 : BitVec 32 := 0#32
  let v12 : BitVec 32 := Scalar.addi v11 c0_i32_8
  let c0_i32_9 : BitVec 32 := 0#32
  ![v12.toNat, 0]
def k3_off4 (v9 : BitVec 32) : Fin 2 → Nat :=
  let c0_i32_10 : BitVec 32 := 0#32
  ![v9.toNat, 0]

def k3_chk1 (v9 : BitVec 32) : Prop :=
  (∀ a, (k3_off4 v9) a + S1x64.size a ≤ S20000x64.size a)
instance k3_chk1.dec : ∀ (v9 : BitVec 32), Decidable (k3_chk1 v9) := fun v9 => decidable_of_iff' _ (Iff.of_eq (k3_chk1.eq_1 v9))
theorem k3_off4_inb : ∀ (v9 : BitVec 32) (k3_hw1 : k3_chk1 v9), ∀ a, (k3_off4 v9) a + S1x64.size a ≤ S20000x64.size a := fun v9 k3_hw1 => k3_hw1

def k3_off5 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k3_t1
  let c16_i32_11 : BitVec 32 := 16#32
  let v19 : BitVec 32 := Scalar.muli arg7 c16_i32_11
  let v20 : BitVec 32 := Scalar.addi v2 v19
  let c1_i32_12 : BitVec 32 := 1#32
  let v21 : BitVec 32 := Scalar.addi v20 c1_i32_12
  let c0_i32_13 : BitVec 32 := 0#32
  ![v21.toNat, 0]
def k3_off6 (v18 : BitVec 32) : Fin 2 → Nat :=
  let c0_i32_14 : BitVec 32 := 0#32
  ![v18.toNat, 0]

def k3_chk2 (v18 : BitVec 32) : Prop :=
  (∀ a, (k3_off6 v18) a + S1x64.size a ≤ S20000x64.size a)
instance k3_chk2.dec : ∀ (v18 : BitVec 32), Decidable (k3_chk2 v18) := fun v18 => decidable_of_iff' _ (Iff.of_eq (k3_chk2.eq_1 v18))
theorem k3_off6_inb : ∀ (v18 : BitVec 32) (k3_hw2 : k3_chk2 v18), ∀ a, (k3_off6 v18) a + S1x64.size a ≤ S20000x64.size a := fun v18 k3_hw2 => k3_hw2

def k3_off7 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k3_t1
  let c16_i32_15 : BitVec 32 := 16#32
  let v28 : BitVec 32 := Scalar.muli arg7 c16_i32_15
  let v29 : BitVec 32 := Scalar.addi v2 v28
  let c2_i32_16 : BitVec 32 := 2#32
  let v30 : BitVec 32 := Scalar.addi v29 c2_i32_16
  let c0_i32_17 : BitVec 32 := 0#32
  ![v30.toNat, 0]
def k3_off8 (v27 : BitVec 32) : Fin 2 → Nat :=
  let c0_i32_18 : BitVec 32 := 0#32
  ![v27.toNat, 0]

def k3_chk3 (v27 : BitVec 32) : Prop :=
  (∀ a, (k3_off8 v27) a + S1x64.size a ≤ S20000x64.size a)
instance k3_chk3.dec : ∀ (v27 : BitVec 32), Decidable (k3_chk3 v27) := fun v27 => decidable_of_iff' _ (Iff.of_eq (k3_chk3.eq_1 v27))
theorem k3_off8_inb : ∀ (v27 : BitVec 32) (k3_hw3 : k3_chk3 v27), ∀ a, (k3_off8 v27) a + S1x64.size a ≤ S20000x64.size a := fun v27 k3_hw3 => k3_hw3

def k3_off9 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k3_t1
  let c16_i32_19 : BitVec 32 := 16#32
  let v37 : BitVec 32 := Scalar.muli arg7 c16_i32_19
  let v38 : BitVec 32 := Scalar.addi v2 v37
  let c3_i32 : BitVec 32 := 3#32
  let v39 : BitVec 32 := Scalar.addi v38 c3_i32
  let c0_i32_20 : BitVec 32 := 0#32
  ![v39.toNat, 0]
def k3_off10 (v36 : BitVec 32) : Fin 2 → Nat :=
  let c0_i32_21 : BitVec 32 := 0#32
  ![v36.toNat, 0]

def k3_chk4 (v36 : BitVec 32) : Prop :=
  (∀ a, (k3_off10 v36) a + S1x64.size a ≤ S20000x64.size a)
instance k3_chk4.dec : ∀ (v36 : BitVec 32), Decidable (k3_chk4 v36) := fun v36 => decidable_of_iff' _ (Iff.of_eq (k3_chk4.eq_1 v36))
theorem k3_off10_inb : ∀ (v36 : BitVec 32) (k3_hw4 : k3_chk4 v36), ∀ a, (k3_off10 v36) a + S1x64.size a ≤ S20000x64.size a := fun v36 k3_hw4 => k3_hw4

def k3_off11 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k3_t1
  let c16_i32_22 : BitVec 32 := 16#32
  let v46 : BitVec 32 := Scalar.muli arg7 c16_i32_22
  let v47 : BitVec 32 := Scalar.addi v2 v46
  let c4_i32 : BitVec 32 := 4#32
  let v48 : BitVec 32 := Scalar.addi v47 c4_i32
  let c0_i32_23 : BitVec 32 := 0#32
  ![v48.toNat, 0]
def k3_off12 (v45 : BitVec 32) : Fin 2 → Nat :=
  let c0_i32_24 : BitVec 32 := 0#32
  ![v45.toNat, 0]

def k3_chk5 (v45 : BitVec 32) : Prop :=
  (∀ a, (k3_off12 v45) a + S1x64.size a ≤ S20000x64.size a)
instance k3_chk5.dec : ∀ (v45 : BitVec 32), Decidable (k3_chk5 v45) := fun v45 => decidable_of_iff' _ (Iff.of_eq (k3_chk5.eq_1 v45))
theorem k3_off12_inb : ∀ (v45 : BitVec 32) (k3_hw5 : k3_chk5 v45), ∀ a, (k3_off12 v45) a + S1x64.size a ≤ S20000x64.size a := fun v45 k3_hw5 => k3_hw5

def k3_off13 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k3_t1
  let c16_i32_25 : BitVec 32 := 16#32
  let v55 : BitVec 32 := Scalar.muli arg7 c16_i32_25
  let v56 : BitVec 32 := Scalar.addi v2 v55
  let c5_i32 : BitVec 32 := 5#32
  let v57 : BitVec 32 := Scalar.addi v56 c5_i32
  let c0_i32_26 : BitVec 32 := 0#32
  ![v57.toNat, 0]
def k3_off14 (v54 : BitVec 32) : Fin 2 → Nat :=
  let c0_i32_27 : BitVec 32 := 0#32
  ![v54.toNat, 0]

def k3_chk6 (v54 : BitVec 32) : Prop :=
  (∀ a, (k3_off14 v54) a + S1x64.size a ≤ S20000x64.size a)
instance k3_chk6.dec : ∀ (v54 : BitVec 32), Decidable (k3_chk6 v54) := fun v54 => decidable_of_iff' _ (Iff.of_eq (k3_chk6.eq_1 v54))
theorem k3_off14_inb : ∀ (v54 : BitVec 32) (k3_hw6 : k3_chk6 v54), ∀ a, (k3_off14 v54) a + S1x64.size a ≤ S20000x64.size a := fun v54 k3_hw6 => k3_hw6

def k3_off15 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k3_t1
  let c16_i32_28 : BitVec 32 := 16#32
  let v64 : BitVec 32 := Scalar.muli arg7 c16_i32_28
  let v65 : BitVec 32 := Scalar.addi v2 v64
  let c6_i32 : BitVec 32 := 6#32
  let v66 : BitVec 32 := Scalar.addi v65 c6_i32
  let c0_i32_29 : BitVec 32 := 0#32
  ![v66.toNat, 0]
def k3_off16 (v63 : BitVec 32) : Fin 2 → Nat :=
  let c0_i32_30 : BitVec 32 := 0#32
  ![v63.toNat, 0]

def k3_chk7 (v63 : BitVec 32) : Prop :=
  (∀ a, (k3_off16 v63) a + S1x64.size a ≤ S20000x64.size a)
instance k3_chk7.dec : ∀ (v63 : BitVec 32), Decidable (k3_chk7 v63) := fun v63 => decidable_of_iff' _ (Iff.of_eq (k3_chk7.eq_1 v63))
theorem k3_off16_inb : ∀ (v63 : BitVec 32) (k3_hw7 : k3_chk7 v63), ∀ a, (k3_off16 v63) a + S1x64.size a ≤ S20000x64.size a := fun v63 k3_hw7 => k3_hw7

def k3_off17 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k3_t1
  let c16_i32_31 : BitVec 32 := 16#32
  let v73 : BitVec 32 := Scalar.muli arg7 c16_i32_31
  let v74 : BitVec 32 := Scalar.addi v2 v73
  let c7_i32 : BitVec 32 := 7#32
  let v75 : BitVec 32 := Scalar.addi v74 c7_i32
  let c0_i32_32 : BitVec 32 := 0#32
  ![v75.toNat, 0]
def k3_off18 (v72 : BitVec 32) : Fin 2 → Nat :=
  let c0_i32_33 : BitVec 32 := 0#32
  ![v72.toNat, 0]

def k3_chk8 (v72 : BitVec 32) : Prop :=
  (∀ a, (k3_off18 v72) a + S1x64.size a ≤ S20000x64.size a)
instance k3_chk8.dec : ∀ (v72 : BitVec 32), Decidable (k3_chk8 v72) := fun v72 => decidable_of_iff' _ (Iff.of_eq (k3_chk8.eq_1 v72))
theorem k3_off18_inb : ∀ (v72 : BitVec 32) (k3_hw8 : k3_chk8 v72), ∀ a, (k3_off18 v72) a + S1x64.size a ≤ S20000x64.size a := fun v72 k3_hw8 => k3_hw8

def k3_off19 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k3_t1
  let c16_i32_34 : BitVec 32 := 16#32
  let v82 : BitVec 32 := Scalar.muli arg7 c16_i32_34
  let v83 : BitVec 32 := Scalar.addi v2 v82
  let c8_i32 : BitVec 32 := 8#32
  let v84 : BitVec 32 := Scalar.addi v83 c8_i32
  let c0_i32_35 : BitVec 32 := 0#32
  ![v84.toNat, 0]
def k3_off20 (v81 : BitVec 32) : Fin 2 → Nat :=
  let c0_i32_36 : BitVec 32 := 0#32
  ![v81.toNat, 0]

def k3_chk9 (v81 : BitVec 32) : Prop :=
  (∀ a, (k3_off20 v81) a + S1x64.size a ≤ S20000x64.size a)
instance k3_chk9.dec : ∀ (v81 : BitVec 32), Decidable (k3_chk9 v81) := fun v81 => decidable_of_iff' _ (Iff.of_eq (k3_chk9.eq_1 v81))
theorem k3_off20_inb : ∀ (v81 : BitVec 32) (k3_hw9 : k3_chk9 v81), ∀ a, (k3_off20 v81) a + S1x64.size a ≤ S20000x64.size a := fun v81 k3_hw9 => k3_hw9

def k3_off21 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k3_t1
  let c16_i32_37 : BitVec 32 := 16#32
  let v91 : BitVec 32 := Scalar.muli arg7 c16_i32_37
  let v92 : BitVec 32 := Scalar.addi v2 v91
  let c9_i32 : BitVec 32 := 9#32
  let v93 : BitVec 32 := Scalar.addi v92 c9_i32
  let c0_i32_38 : BitVec 32 := 0#32
  ![v93.toNat, 0]
def k3_off22 (v90 : BitVec 32) : Fin 2 → Nat :=
  let c0_i32_39 : BitVec 32 := 0#32
  ![v90.toNat, 0]

def k3_chk10 (v90 : BitVec 32) : Prop :=
  (∀ a, (k3_off22 v90) a + S1x64.size a ≤ S20000x64.size a)
instance k3_chk10.dec : ∀ (v90 : BitVec 32), Decidable (k3_chk10 v90) := fun v90 => decidable_of_iff' _ (Iff.of_eq (k3_chk10.eq_1 v90))
theorem k3_off22_inb : ∀ (v90 : BitVec 32) (k3_hw10 : k3_chk10 v90), ∀ a, (k3_off22 v90) a + S1x64.size a ≤ S20000x64.size a := fun v90 k3_hw10 => k3_hw10

def k3_off23 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k3_t1
  let c16_i32_40 : BitVec 32 := 16#32
  let v100 : BitVec 32 := Scalar.muli arg7 c16_i32_40
  let v101 : BitVec 32 := Scalar.addi v2 v100
  let c10_i32 : BitVec 32 := 10#32
  let v102 : BitVec 32 := Scalar.addi v101 c10_i32
  let c0_i32_41 : BitVec 32 := 0#32
  ![v102.toNat, 0]
def k3_off24 (v99 : BitVec 32) : Fin 2 → Nat :=
  let c0_i32_42 : BitVec 32 := 0#32
  ![v99.toNat, 0]

def k3_chk11 (v99 : BitVec 32) : Prop :=
  (∀ a, (k3_off24 v99) a + S1x64.size a ≤ S20000x64.size a)
instance k3_chk11.dec : ∀ (v99 : BitVec 32), Decidable (k3_chk11 v99) := fun v99 => decidable_of_iff' _ (Iff.of_eq (k3_chk11.eq_1 v99))
theorem k3_off24_inb : ∀ (v99 : BitVec 32) (k3_hw11 : k3_chk11 v99), ∀ a, (k3_off24 v99) a + S1x64.size a ≤ S20000x64.size a := fun v99 k3_hw11 => k3_hw11

def k3_off25 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k3_t1
  let c16_i32_43 : BitVec 32 := 16#32
  let v109 : BitVec 32 := Scalar.muli arg7 c16_i32_43
  let v110 : BitVec 32 := Scalar.addi v2 v109
  let c11_i32 : BitVec 32 := 11#32
  let v111 : BitVec 32 := Scalar.addi v110 c11_i32
  let c0_i32_44 : BitVec 32 := 0#32
  ![v111.toNat, 0]
def k3_off26 (v108 : BitVec 32) : Fin 2 → Nat :=
  let c0_i32_45 : BitVec 32 := 0#32
  ![v108.toNat, 0]

def k3_chk12 (v108 : BitVec 32) : Prop :=
  (∀ a, (k3_off26 v108) a + S1x64.size a ≤ S20000x64.size a)
instance k3_chk12.dec : ∀ (v108 : BitVec 32), Decidable (k3_chk12 v108) := fun v108 => decidable_of_iff' _ (Iff.of_eq (k3_chk12.eq_1 v108))
theorem k3_off26_inb : ∀ (v108 : BitVec 32) (k3_hw12 : k3_chk12 v108), ∀ a, (k3_off26 v108) a + S1x64.size a ≤ S20000x64.size a := fun v108 k3_hw12 => k3_hw12

def k3_off27 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k3_t1
  let c16_i32_46 : BitVec 32 := 16#32
  let v118 : BitVec 32 := Scalar.muli arg7 c16_i32_46
  let v119 : BitVec 32 := Scalar.addi v2 v118
  let c12_i32 : BitVec 32 := 12#32
  let v120 : BitVec 32 := Scalar.addi v119 c12_i32
  let c0_i32_47 : BitVec 32 := 0#32
  ![v120.toNat, 0]
def k3_off28 (v117 : BitVec 32) : Fin 2 → Nat :=
  let c0_i32_48 : BitVec 32 := 0#32
  ![v117.toNat, 0]

def k3_chk13 (v117 : BitVec 32) : Prop :=
  (∀ a, (k3_off28 v117) a + S1x64.size a ≤ S20000x64.size a)
instance k3_chk13.dec : ∀ (v117 : BitVec 32), Decidable (k3_chk13 v117) := fun v117 => decidable_of_iff' _ (Iff.of_eq (k3_chk13.eq_1 v117))
theorem k3_off28_inb : ∀ (v117 : BitVec 32) (k3_hw13 : k3_chk13 v117), ∀ a, (k3_off28 v117) a + S1x64.size a ≤ S20000x64.size a := fun v117 k3_hw13 => k3_hw13

def k3_off29 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k3_t1
  let c16_i32_49 : BitVec 32 := 16#32
  let v127 : BitVec 32 := Scalar.muli arg7 c16_i32_49
  let v128 : BitVec 32 := Scalar.addi v2 v127
  let c13_i32 : BitVec 32 := 13#32
  let v129 : BitVec 32 := Scalar.addi v128 c13_i32
  let c0_i32_50 : BitVec 32 := 0#32
  ![v129.toNat, 0]
def k3_off30 (v126 : BitVec 32) : Fin 2 → Nat :=
  let c0_i32_51 : BitVec 32 := 0#32
  ![v126.toNat, 0]

def k3_chk14 (v126 : BitVec 32) : Prop :=
  (∀ a, (k3_off30 v126) a + S1x64.size a ≤ S20000x64.size a)
instance k3_chk14.dec : ∀ (v126 : BitVec 32), Decidable (k3_chk14 v126) := fun v126 => decidable_of_iff' _ (Iff.of_eq (k3_chk14.eq_1 v126))
theorem k3_off30_inb : ∀ (v126 : BitVec 32) (k3_hw14 : k3_chk14 v126), ∀ a, (k3_off30 v126) a + S1x64.size a ≤ S20000x64.size a := fun v126 k3_hw14 => k3_hw14

def k3_off31 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k3_t1
  let c16_i32_52 : BitVec 32 := 16#32
  let v136 : BitVec 32 := Scalar.muli arg7 c16_i32_52
  let v137 : BitVec 32 := Scalar.addi v2 v136
  let c14_i32 : BitVec 32 := 14#32
  let v138 : BitVec 32 := Scalar.addi v137 c14_i32
  let c0_i32_53 : BitVec 32 := 0#32
  ![v138.toNat, 0]
def k3_off32 (v135 : BitVec 32) : Fin 2 → Nat :=
  let c0_i32_54 : BitVec 32 := 0#32
  ![v135.toNat, 0]

def k3_chk15 (v135 : BitVec 32) : Prop :=
  (∀ a, (k3_off32 v135) a + S1x64.size a ≤ S20000x64.size a)
instance k3_chk15.dec : ∀ (v135 : BitVec 32), Decidable (k3_chk15 v135) := fun v135 => decidable_of_iff' _ (Iff.of_eq (k3_chk15.eq_1 v135))
theorem k3_off32_inb : ∀ (v135 : BitVec 32) (k3_hw15 : k3_chk15 v135), ∀ a, (k3_off32 v135) a + S1x64.size a ≤ S20000x64.size a := fun v135 k3_hw15 => k3_hw15

def k3_off33 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k3_t1
  let c16_i32_55 : BitVec 32 := 16#32
  let v145 : BitVec 32 := Scalar.muli arg7 c16_i32_55
  let v146 : BitVec 32 := Scalar.addi v2 v145
  let c15_i32 : BitVec 32 := 15#32
  let v147 : BitVec 32 := Scalar.addi v146 c15_i32
  let c0_i32_56 : BitVec 32 := 0#32
  ![v147.toNat, 0]
def k3_off34 (v144 : BitVec 32) : Fin 2 → Nat :=
  let c0_i32_57 : BitVec 32 := 0#32
  ![v144.toNat, 0]

def k3_chk16 (v144 : BitVec 32) : Prop :=
  (∀ a, (k3_off34 v144) a + S1x64.size a ≤ S20000x64.size a)
instance k3_chk16.dec : ∀ (v144 : BitVec 32), Decidable (k3_chk16 v144) := fun v144 => decidable_of_iff' _ (Iff.of_eq (k3_chk16.eq_1 v144))
theorem k3_off34_inb : ∀ (v144 : BitVec 32) (k3_hw16 : k3_chk16 v144), ∀ a, (k3_off34 v144) a + S1x64.size a ≤ S20000x64.size a := fun v144 k3_hw16 => k3_hw16

@[reducible] def k3_t2_loop : Scf.Loop 32 :=
  let c0_i32_3 : BitVec 32 := 0#32
  let c512_i32_4 : BitVec 32 := 512#32
  let v4 : BitVec 32 := Scalar.addi c0_i32_3 c512_i32_4
  let c1_i32_5 : BitVec 32 := 1#32
  ⟨c0_i32_3, v4, c1_i32_5⟩
abbrev grid4 : Pipeline.Grid := ⟨2, ![2, 16], ![false, false]⟩

def k4_off1 (i : grid4.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k4_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k4_off2 (k4_t1 : Fin k4_t1_loop.trips) : Fin 1 → Nat :=
  let c0_i32_0 : BitVec 32 := 0#32
  let c1_i32 : BitVec 32 := 1#32
  let arg7 : BitVec 32 := Scf.iv c0_i32_0 c1_i32 k4_t1
  let c16_i32 : BitVec 32 := 16#32
  let v5 : BitVec 32 := Scalar.muli arg7 c16_i32
  let v6 : Index := Scalar.indexCast v5
  ![v6.toNat]
def k4_off3 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k4_t1
  let c16_i32_7 : BitVec 32 := 16#32
  let v10 : BitVec 32 := Scalar.muli arg7 c16_i32_7
  let v11 : BitVec 32 := Scalar.addi v2 v10
  let c0_i32_8 : BitVec 32 := 0#32
  let v12 : BitVec 32 := Scalar.addi v11 c0_i32_8
  let c0_i32_9 : BitVec 32 := 0#32
  ![v12.toNat, 0]
def k4_off4 (v9 : BitVec 32) : Fin 2 → Nat :=
  let c0_i32_10 : BitVec 32 := 0#32
  ![v9.toNat, 0]

def k4_chk1 (v9 : BitVec 32) : Prop :=
  (∀ a, (k4_off4 v9) a + S1x64.size a ≤ S20000x64.size a)
instance k4_chk1.dec : ∀ (v9 : BitVec 32), Decidable (k4_chk1 v9) := fun v9 => decidable_of_iff' _ (Iff.of_eq (k4_chk1.eq_1 v9))
theorem k4_off4_inb : ∀ (v9 : BitVec 32) (k4_hw1 : k4_chk1 v9), ∀ a, (k4_off4 v9) a + S1x64.size a ≤ S20000x64.size a := fun v9 k4_hw1 => k4_hw1

def k4_off5 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k4_t1
  let c16_i32_11 : BitVec 32 := 16#32
  let v19 : BitVec 32 := Scalar.muli arg7 c16_i32_11
  let v20 : BitVec 32 := Scalar.addi v2 v19
  let c1_i32_12 : BitVec 32 := 1#32
  let v21 : BitVec 32 := Scalar.addi v20 c1_i32_12
  let c0_i32_13 : BitVec 32 := 0#32
  ![v21.toNat, 0]
def k4_off6 (v18 : BitVec 32) : Fin 2 → Nat :=
  let c0_i32_14 : BitVec 32 := 0#32
  ![v18.toNat, 0]

def k4_chk2 (v18 : BitVec 32) : Prop :=
  (∀ a, (k4_off6 v18) a + S1x64.size a ≤ S20000x64.size a)
instance k4_chk2.dec : ∀ (v18 : BitVec 32), Decidable (k4_chk2 v18) := fun v18 => decidable_of_iff' _ (Iff.of_eq (k4_chk2.eq_1 v18))
theorem k4_off6_inb : ∀ (v18 : BitVec 32) (k4_hw2 : k4_chk2 v18), ∀ a, (k4_off6 v18) a + S1x64.size a ≤ S20000x64.size a := fun v18 k4_hw2 => k4_hw2

def k4_off7 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k4_t1
  let c16_i32_15 : BitVec 32 := 16#32
  let v28 : BitVec 32 := Scalar.muli arg7 c16_i32_15
  let v29 : BitVec 32 := Scalar.addi v2 v28
  let c2_i32_16 : BitVec 32 := 2#32
  let v30 : BitVec 32 := Scalar.addi v29 c2_i32_16
  let c0_i32_17 : BitVec 32 := 0#32
  ![v30.toNat, 0]
def k4_off8 (v27 : BitVec 32) : Fin 2 → Nat :=
  let c0_i32_18 : BitVec 32 := 0#32
  ![v27.toNat, 0]

def k4_chk3 (v27 : BitVec 32) : Prop :=
  (∀ a, (k4_off8 v27) a + S1x64.size a ≤ S20000x64.size a)
instance k4_chk3.dec : ∀ (v27 : BitVec 32), Decidable (k4_chk3 v27) := fun v27 => decidable_of_iff' _ (Iff.of_eq (k4_chk3.eq_1 v27))
theorem k4_off8_inb : ∀ (v27 : BitVec 32) (k4_hw3 : k4_chk3 v27), ∀ a, (k4_off8 v27) a + S1x64.size a ≤ S20000x64.size a := fun v27 k4_hw3 => k4_hw3

def k4_off9 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k4_t1
  let c16_i32_19 : BitVec 32 := 16#32
  let v37 : BitVec 32 := Scalar.muli arg7 c16_i32_19
  let v38 : BitVec 32 := Scalar.addi v2 v37
  let c3_i32 : BitVec 32 := 3#32
  let v39 : BitVec 32 := Scalar.addi v38 c3_i32
  let c0_i32_20 : BitVec 32 := 0#32
  ![v39.toNat, 0]
def k4_off10 (v36 : BitVec 32) : Fin 2 → Nat :=
  let c0_i32_21 : BitVec 32 := 0#32
  ![v36.toNat, 0]

def k4_chk4 (v36 : BitVec 32) : Prop :=
  (∀ a, (k4_off10 v36) a + S1x64.size a ≤ S20000x64.size a)
instance k4_chk4.dec : ∀ (v36 : BitVec 32), Decidable (k4_chk4 v36) := fun v36 => decidable_of_iff' _ (Iff.of_eq (k4_chk4.eq_1 v36))
theorem k4_off10_inb : ∀ (v36 : BitVec 32) (k4_hw4 : k4_chk4 v36), ∀ a, (k4_off10 v36) a + S1x64.size a ≤ S20000x64.size a := fun v36 k4_hw4 => k4_hw4

def k4_off11 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k4_t1
  let c16_i32_22 : BitVec 32 := 16#32
  let v46 : BitVec 32 := Scalar.muli arg7 c16_i32_22
  let v47 : BitVec 32 := Scalar.addi v2 v46
  let c4_i32 : BitVec 32 := 4#32
  let v48 : BitVec 32 := Scalar.addi v47 c4_i32
  let c0_i32_23 : BitVec 32 := 0#32
  ![v48.toNat, 0]
def k4_off12 (v45 : BitVec 32) : Fin 2 → Nat :=
  let c0_i32_24 : BitVec 32 := 0#32
  ![v45.toNat, 0]

def k4_chk5 (v45 : BitVec 32) : Prop :=
  (∀ a, (k4_off12 v45) a + S1x64.size a ≤ S20000x64.size a)
instance k4_chk5.dec : ∀ (v45 : BitVec 32), Decidable (k4_chk5 v45) := fun v45 => decidable_of_iff' _ (Iff.of_eq (k4_chk5.eq_1 v45))
theorem k4_off12_inb : ∀ (v45 : BitVec 32) (k4_hw5 : k4_chk5 v45), ∀ a, (k4_off12 v45) a + S1x64.size a ≤ S20000x64.size a := fun v45 k4_hw5 => k4_hw5

def k4_off13 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k4_t1
  let c16_i32_25 : BitVec 32 := 16#32
  let v55 : BitVec 32 := Scalar.muli arg7 c16_i32_25
  let v56 : BitVec 32 := Scalar.addi v2 v55
  let c5_i32 : BitVec 32 := 5#32
  let v57 : BitVec 32 := Scalar.addi v56 c5_i32
  let c0_i32_26 : BitVec 32 := 0#32
  ![v57.toNat, 0]
def k4_off14 (v54 : BitVec 32) : Fin 2 → Nat :=
  let c0_i32_27 : BitVec 32 := 0#32
  ![v54.toNat, 0]

def k4_chk6 (v54 : BitVec 32) : Prop :=
  (∀ a, (k4_off14 v54) a + S1x64.size a ≤ S20000x64.size a)
instance k4_chk6.dec : ∀ (v54 : BitVec 32), Decidable (k4_chk6 v54) := fun v54 => decidable_of_iff' _ (Iff.of_eq (k4_chk6.eq_1 v54))
theorem k4_off14_inb : ∀ (v54 : BitVec 32) (k4_hw6 : k4_chk6 v54), ∀ a, (k4_off14 v54) a + S1x64.size a ≤ S20000x64.size a := fun v54 k4_hw6 => k4_hw6

def k4_off15 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k4_t1
  let c16_i32_28 : BitVec 32 := 16#32
  let v64 : BitVec 32 := Scalar.muli arg7 c16_i32_28
  let v65 : BitVec 32 := Scalar.addi v2 v64
  let c6_i32 : BitVec 32 := 6#32
  let v66 : BitVec 32 := Scalar.addi v65 c6_i32
  let c0_i32_29 : BitVec 32 := 0#32
  ![v66.toNat, 0]
def k4_off16 (v63 : BitVec 32) : Fin 2 → Nat :=
  let c0_i32_30 : BitVec 32 := 0#32
  ![v63.toNat, 0]

def k4_chk7 (v63 : BitVec 32) : Prop :=
  (∀ a, (k4_off16 v63) a + S1x64.size a ≤ S20000x64.size a)
instance k4_chk7.dec : ∀ (v63 : BitVec 32), Decidable (k4_chk7 v63) := fun v63 => decidable_of_iff' _ (Iff.of_eq (k4_chk7.eq_1 v63))
theorem k4_off16_inb : ∀ (v63 : BitVec 32) (k4_hw7 : k4_chk7 v63), ∀ a, (k4_off16 v63) a + S1x64.size a ≤ S20000x64.size a := fun v63 k4_hw7 => k4_hw7

def k4_off17 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k4_t1
  let c16_i32_31 : BitVec 32 := 16#32
  let v73 : BitVec 32 := Scalar.muli arg7 c16_i32_31
  let v74 : BitVec 32 := Scalar.addi v2 v73
  let c7_i32 : BitVec 32 := 7#32
  let v75 : BitVec 32 := Scalar.addi v74 c7_i32
  let c0_i32_32 : BitVec 32 := 0#32
  ![v75.toNat, 0]
def k4_off18 (v72 : BitVec 32) : Fin 2 → Nat :=
  let c0_i32_33 : BitVec 32 := 0#32
  ![v72.toNat, 0]

def k4_chk8 (v72 : BitVec 32) : Prop :=
  (∀ a, (k4_off18 v72) a + S1x64.size a ≤ S20000x64.size a)
instance k4_chk8.dec : ∀ (v72 : BitVec 32), Decidable (k4_chk8 v72) := fun v72 => decidable_of_iff' _ (Iff.of_eq (k4_chk8.eq_1 v72))
theorem k4_off18_inb : ∀ (v72 : BitVec 32) (k4_hw8 : k4_chk8 v72), ∀ a, (k4_off18 v72) a + S1x64.size a ≤ S20000x64.size a := fun v72 k4_hw8 => k4_hw8

def k4_off19 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k4_t1
  let c16_i32_34 : BitVec 32 := 16#32
  let v82 : BitVec 32 := Scalar.muli arg7 c16_i32_34
  let v83 : BitVec 32 := Scalar.addi v2 v82
  let c8_i32 : BitVec 32 := 8#32
  let v84 : BitVec 32 := Scalar.addi v83 c8_i32
  let c0_i32_35 : BitVec 32 := 0#32
  ![v84.toNat, 0]
def k4_off20 (v81 : BitVec 32) : Fin 2 → Nat :=
  let c0_i32_36 : BitVec 32 := 0#32
  ![v81.toNat, 0]

def k4_chk9 (v81 : BitVec 32) : Prop :=
  (∀ a, (k4_off20 v81) a + S1x64.size a ≤ S20000x64.size a)
instance k4_chk9.dec : ∀ (v81 : BitVec 32), Decidable (k4_chk9 v81) := fun v81 => decidable_of_iff' _ (Iff.of_eq (k4_chk9.eq_1 v81))
theorem k4_off20_inb : ∀ (v81 : BitVec 32) (k4_hw9 : k4_chk9 v81), ∀ a, (k4_off20 v81) a + S1x64.size a ≤ S20000x64.size a := fun v81 k4_hw9 => k4_hw9

def k4_off21 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k4_t1
  let c16_i32_37 : BitVec 32 := 16#32
  let v91 : BitVec 32 := Scalar.muli arg7 c16_i32_37
  let v92 : BitVec 32 := Scalar.addi v2 v91
  let c9_i32 : BitVec 32 := 9#32
  let v93 : BitVec 32 := Scalar.addi v92 c9_i32
  let c0_i32_38 : BitVec 32 := 0#32
  ![v93.toNat, 0]
def k4_off22 (v90 : BitVec 32) : Fin 2 → Nat :=
  let c0_i32_39 : BitVec 32 := 0#32
  ![v90.toNat, 0]

def k4_chk10 (v90 : BitVec 32) : Prop :=
  (∀ a, (k4_off22 v90) a + S1x64.size a ≤ S20000x64.size a)
instance k4_chk10.dec : ∀ (v90 : BitVec 32), Decidable (k4_chk10 v90) := fun v90 => decidable_of_iff' _ (Iff.of_eq (k4_chk10.eq_1 v90))
theorem k4_off22_inb : ∀ (v90 : BitVec 32) (k4_hw10 : k4_chk10 v90), ∀ a, (k4_off22 v90) a + S1x64.size a ≤ S20000x64.size a := fun v90 k4_hw10 => k4_hw10

def k4_off23 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k4_t1
  let c16_i32_40 : BitVec 32 := 16#32
  let v100 : BitVec 32 := Scalar.muli arg7 c16_i32_40
  let v101 : BitVec 32 := Scalar.addi v2 v100
  let c10_i32 : BitVec 32 := 10#32
  let v102 : BitVec 32 := Scalar.addi v101 c10_i32
  let c0_i32_41 : BitVec 32 := 0#32
  ![v102.toNat, 0]
def k4_off24 (v99 : BitVec 32) : Fin 2 → Nat :=
  let c0_i32_42 : BitVec 32 := 0#32
  ![v99.toNat, 0]

def k4_chk11 (v99 : BitVec 32) : Prop :=
  (∀ a, (k4_off24 v99) a + S1x64.size a ≤ S20000x64.size a)
instance k4_chk11.dec : ∀ (v99 : BitVec 32), Decidable (k4_chk11 v99) := fun v99 => decidable_of_iff' _ (Iff.of_eq (k4_chk11.eq_1 v99))
theorem k4_off24_inb : ∀ (v99 : BitVec 32) (k4_hw11 : k4_chk11 v99), ∀ a, (k4_off24 v99) a + S1x64.size a ≤ S20000x64.size a := fun v99 k4_hw11 => k4_hw11

def k4_off25 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k4_t1
  let c16_i32_43 : BitVec 32 := 16#32
  let v109 : BitVec 32 := Scalar.muli arg7 c16_i32_43
  let v110 : BitVec 32 := Scalar.addi v2 v109
  let c11_i32 : BitVec 32 := 11#32
  let v111 : BitVec 32 := Scalar.addi v110 c11_i32
  let c0_i32_44 : BitVec 32 := 0#32
  ![v111.toNat, 0]
def k4_off26 (v108 : BitVec 32) : Fin 2 → Nat :=
  let c0_i32_45 : BitVec 32 := 0#32
  ![v108.toNat, 0]

def k4_chk12 (v108 : BitVec 32) : Prop :=
  (∀ a, (k4_off26 v108) a + S1x64.size a ≤ S20000x64.size a)
instance k4_chk12.dec : ∀ (v108 : BitVec 32), Decidable (k4_chk12 v108) := fun v108 => decidable_of_iff' _ (Iff.of_eq (k4_chk12.eq_1 v108))
theorem k4_off26_inb : ∀ (v108 : BitVec 32) (k4_hw12 : k4_chk12 v108), ∀ a, (k4_off26 v108) a + S1x64.size a ≤ S20000x64.size a := fun v108 k4_hw12 => k4_hw12

def k4_off27 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k4_t1
  let c16_i32_46 : BitVec 32 := 16#32
  let v118 : BitVec 32 := Scalar.muli arg7 c16_i32_46
  let v119 : BitVec 32 := Scalar.addi v2 v118
  let c12_i32 : BitVec 32 := 12#32
  let v120 : BitVec 32 := Scalar.addi v119 c12_i32
  let c0_i32_47 : BitVec 32 := 0#32
  ![v120.toNat, 0]
def k4_off28 (v117 : BitVec 32) : Fin 2 → Nat :=
  let c0_i32_48 : BitVec 32 := 0#32
  ![v117.toNat, 0]

def k4_chk13 (v117 : BitVec 32) : Prop :=
  (∀ a, (k4_off28 v117) a + S1x64.size a ≤ S20000x64.size a)
instance k4_chk13.dec : ∀ (v117 : BitVec 32), Decidable (k4_chk13 v117) := fun v117 => decidable_of_iff' _ (Iff.of_eq (k4_chk13.eq_1 v117))
theorem k4_off28_inb : ∀ (v117 : BitVec 32) (k4_hw13 : k4_chk13 v117), ∀ a, (k4_off28 v117) a + S1x64.size a ≤ S20000x64.size a := fun v117 k4_hw13 => k4_hw13

def k4_off29 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k4_t1
  let c16_i32_49 : BitVec 32 := 16#32
  let v127 : BitVec 32 := Scalar.muli arg7 c16_i32_49
  let v128 : BitVec 32 := Scalar.addi v2 v127
  let c13_i32 : BitVec 32 := 13#32
  let v129 : BitVec 32 := Scalar.addi v128 c13_i32
  let c0_i32_50 : BitVec 32 := 0#32
  ![v129.toNat, 0]
def k4_off30 (v126 : BitVec 32) : Fin 2 → Nat :=
  let c0_i32_51 : BitVec 32 := 0#32
  ![v126.toNat, 0]

def k4_chk14 (v126 : BitVec 32) : Prop :=
  (∀ a, (k4_off30 v126) a + S1x64.size a ≤ S20000x64.size a)
instance k4_chk14.dec : ∀ (v126 : BitVec 32), Decidable (k4_chk14 v126) := fun v126 => decidable_of_iff' _ (Iff.of_eq (k4_chk14.eq_1 v126))
theorem k4_off30_inb : ∀ (v126 : BitVec 32) (k4_hw14 : k4_chk14 v126), ∀ a, (k4_off30 v126) a + S1x64.size a ≤ S20000x64.size a := fun v126 k4_hw14 => k4_hw14

def k4_off31 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k4_t1
  let c16_i32_52 : BitVec 32 := 16#32
  let v136 : BitVec 32 := Scalar.muli arg7 c16_i32_52
  let v137 : BitVec 32 := Scalar.addi v2 v136
  let c14_i32 : BitVec 32 := 14#32
  let v138 : BitVec 32 := Scalar.addi v137 c14_i32
  let c0_i32_53 : BitVec 32 := 0#32
  ![v138.toNat, 0]
def k4_off32 (v135 : BitVec 32) : Fin 2 → Nat :=
  let c0_i32_54 : BitVec 32 := 0#32
  ![v135.toNat, 0]

def k4_chk15 (v135 : BitVec 32) : Prop :=
  (∀ a, (k4_off32 v135) a + S1x64.size a ≤ S20000x64.size a)
instance k4_chk15.dec : ∀ (v135 : BitVec 32), Decidable (k4_chk15 v135) := fun v135 => decidable_of_iff' _ (Iff.of_eq (k4_chk15.eq_1 v135))
theorem k4_off32_inb : ∀ (v135 : BitVec 32) (k4_hw15 : k4_chk15 v135), ∀ a, (k4_off32 v135) a + S1x64.size a ≤ S20000x64.size a := fun v135 k4_hw15 => k4_hw15

def k4_off33 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k4_t1
  let c16_i32_55 : BitVec 32 := 16#32
  let v145 : BitVec 32 := Scalar.muli arg7 c16_i32_55
  let v146 : BitVec 32 := Scalar.addi v2 v145
  let c15_i32 : BitVec 32 := 15#32
  let v147 : BitVec 32 := Scalar.addi v146 c15_i32
  let c0_i32_56 : BitVec 32 := 0#32
  ![v147.toNat, 0]
def k4_off34 (v144 : BitVec 32) : Fin 2 → Nat :=
  let c0_i32_57 : BitVec 32 := 0#32
  ![v144.toNat, 0]

def k4_chk16 (v144 : BitVec 32) : Prop :=
  (∀ a, (k4_off34 v144) a + S1x64.size a ≤ S20000x64.size a)
instance k4_chk16.dec : ∀ (v144 : BitVec 32), Decidable (k4_chk16 v144) := fun v144 => decidable_of_iff' _ (Iff.of_eq (k4_chk16.eq_1 v144))
theorem k4_off34_inb : ∀ (v144 : BitVec 32) (k4_hw16 : k4_chk16 v144), ∀ a, (k4_off34 v144) a + S1x64.size a ≤ S20000x64.size a := fun v144 k4_hw16 => k4_hw16

@[reducible] def k4_t2_loop : Scf.Loop 32 :=
  let c0_i32_3 : BitVec 32 := 0#32
  let c512_i32_4 : BitVec 32 := 512#32
  let v4 : BitVec 32 := Scalar.addi c0_i32_3 c512_i32_4
  let c1_i32_5 : BitVec 32 := 1#32
  ⟨c0_i32_3, v4, c1_i32_5⟩
abbrev grid5 : Pipeline.Grid := ⟨2, ![2, 16], ![false, false]⟩

def k5_off1 (i : grid5.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k5_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k5_off2 (k5_t1 : Fin k5_t1_loop.trips) : Fin 1 → Nat :=
  let c0_i32_0 : BitVec 32 := 0#32
  let c1_i32 : BitVec 32 := 1#32
  let arg7 : BitVec 32 := Scf.iv c0_i32_0 c1_i32 k5_t1
  let c16_i32 : BitVec 32 := 16#32
  let v5 : BitVec 32 := Scalar.muli arg7 c16_i32
  let v6 : Index := Scalar.indexCast v5
  ![v6.toNat]
def k5_off3 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k5_t1
  let c16_i32_7 : BitVec 32 := 16#32
  let v10 : BitVec 32 := Scalar.muli arg7 c16_i32_7
  let v11 : BitVec 32 := Scalar.addi v2 v10
  let c0_i32_8 : BitVec 32 := 0#32
  let v12 : BitVec 32 := Scalar.addi v11 c0_i32_8
  let c0_i32_9 : BitVec 32 := 0#32
  ![v12.toNat, 0]
def k5_off4 (v9 : BitVec 32) : Fin 2 → Nat :=
  let c0_i32_10 : BitVec 32 := 0#32
  ![v9.toNat, 0]

def k5_chk1 (v9 : BitVec 32) : Prop :=
  (∀ a, (k5_off4 v9) a + S1x64.size a ≤ S10000x64.size a)
instance k5_chk1.dec : ∀ (v9 : BitVec 32), Decidable (k5_chk1 v9) := fun v9 => decidable_of_iff' _ (Iff.of_eq (k5_chk1.eq_1 v9))
theorem k5_off4_inb : ∀ (v9 : BitVec 32) (k5_hw1 : k5_chk1 v9), ∀ a, (k5_off4 v9) a + S1x64.size a ≤ S10000x64.size a := fun v9 k5_hw1 => k5_hw1

def k5_off5 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k5_t1
  let c16_i32_11 : BitVec 32 := 16#32
  let v19 : BitVec 32 := Scalar.muli arg7 c16_i32_11
  let v20 : BitVec 32 := Scalar.addi v2 v19
  let c1_i32_12 : BitVec 32 := 1#32
  let v21 : BitVec 32 := Scalar.addi v20 c1_i32_12
  let c0_i32_13 : BitVec 32 := 0#32
  ![v21.toNat, 0]
def k5_off6 (v18 : BitVec 32) : Fin 2 → Nat :=
  let c0_i32_14 : BitVec 32 := 0#32
  ![v18.toNat, 0]

def k5_chk2 (v18 : BitVec 32) : Prop :=
  (∀ a, (k5_off6 v18) a + S1x64.size a ≤ S10000x64.size a)
instance k5_chk2.dec : ∀ (v18 : BitVec 32), Decidable (k5_chk2 v18) := fun v18 => decidable_of_iff' _ (Iff.of_eq (k5_chk2.eq_1 v18))
theorem k5_off6_inb : ∀ (v18 : BitVec 32) (k5_hw2 : k5_chk2 v18), ∀ a, (k5_off6 v18) a + S1x64.size a ≤ S10000x64.size a := fun v18 k5_hw2 => k5_hw2

def k5_off7 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k5_t1
  let c16_i32_15 : BitVec 32 := 16#32
  let v28 : BitVec 32 := Scalar.muli arg7 c16_i32_15
  let v29 : BitVec 32 := Scalar.addi v2 v28
  let c2_i32_16 : BitVec 32 := 2#32
  let v30 : BitVec 32 := Scalar.addi v29 c2_i32_16
  let c0_i32_17 : BitVec 32 := 0#32
  ![v30.toNat, 0]
def k5_off8 (v27 : BitVec 32) : Fin 2 → Nat :=
  let c0_i32_18 : BitVec 32 := 0#32
  ![v27.toNat, 0]

def k5_chk3 (v27 : BitVec 32) : Prop :=
  (∀ a, (k5_off8 v27) a + S1x64.size a ≤ S10000x64.size a)
instance k5_chk3.dec : ∀ (v27 : BitVec 32), Decidable (k5_chk3 v27) := fun v27 => decidable_of_iff' _ (Iff.of_eq (k5_chk3.eq_1 v27))
theorem k5_off8_inb : ∀ (v27 : BitVec 32) (k5_hw3 : k5_chk3 v27), ∀ a, (k5_off8 v27) a + S1x64.size a ≤ S10000x64.size a := fun v27 k5_hw3 => k5_hw3

def k5_off9 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k5_t1
  let c16_i32_19 : BitVec 32 := 16#32
  let v37 : BitVec 32 := Scalar.muli arg7 c16_i32_19
  let v38 : BitVec 32 := Scalar.addi v2 v37
  let c3_i32 : BitVec 32 := 3#32
  let v39 : BitVec 32 := Scalar.addi v38 c3_i32
  let c0_i32_20 : BitVec 32 := 0#32
  ![v39.toNat, 0]
def k5_off10 (v36 : BitVec 32) : Fin 2 → Nat :=
  let c0_i32_21 : BitVec 32 := 0#32
  ![v36.toNat, 0]

def k5_chk4 (v36 : BitVec 32) : Prop :=
  (∀ a, (k5_off10 v36) a + S1x64.size a ≤ S10000x64.size a)
instance k5_chk4.dec : ∀ (v36 : BitVec 32), Decidable (k5_chk4 v36) := fun v36 => decidable_of_iff' _ (Iff.of_eq (k5_chk4.eq_1 v36))
theorem k5_off10_inb : ∀ (v36 : BitVec 32) (k5_hw4 : k5_chk4 v36), ∀ a, (k5_off10 v36) a + S1x64.size a ≤ S10000x64.size a := fun v36 k5_hw4 => k5_hw4

def k5_off11 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k5_t1
  let c16_i32_22 : BitVec 32 := 16#32
  let v46 : BitVec 32 := Scalar.muli arg7 c16_i32_22
  let v47 : BitVec 32 := Scalar.addi v2 v46
  let c4_i32 : BitVec 32 := 4#32
  let v48 : BitVec 32 := Scalar.addi v47 c4_i32
  let c0_i32_23 : BitVec 32 := 0#32
  ![v48.toNat, 0]
def k5_off12 (v45 : BitVec 32) : Fin 2 → Nat :=
  let c0_i32_24 : BitVec 32 := 0#32
  ![v45.toNat, 0]

def k5_chk5 (v45 : BitVec 32) : Prop :=
  (∀ a, (k5_off12 v45) a + S1x64.size a ≤ S10000x64.size a)
instance k5_chk5.dec : ∀ (v45 : BitVec 32), Decidable (k5_chk5 v45) := fun v45 => decidable_of_iff' _ (Iff.of_eq (k5_chk5.eq_1 v45))
theorem k5_off12_inb : ∀ (v45 : BitVec 32) (k5_hw5 : k5_chk5 v45), ∀ a, (k5_off12 v45) a + S1x64.size a ≤ S10000x64.size a := fun v45 k5_hw5 => k5_hw5

def k5_off13 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k5_t1
  let c16_i32_25 : BitVec 32 := 16#32
  let v55 : BitVec 32 := Scalar.muli arg7 c16_i32_25
  let v56 : BitVec 32 := Scalar.addi v2 v55
  let c5_i32 : BitVec 32 := 5#32
  let v57 : BitVec 32 := Scalar.addi v56 c5_i32
  let c0_i32_26 : BitVec 32 := 0#32
  ![v57.toNat, 0]
def k5_off14 (v54 : BitVec 32) : Fin 2 → Nat :=
  let c0_i32_27 : BitVec 32 := 0#32
  ![v54.toNat, 0]

def k5_chk6 (v54 : BitVec 32) : Prop :=
  (∀ a, (k5_off14 v54) a + S1x64.size a ≤ S10000x64.size a)
instance k5_chk6.dec : ∀ (v54 : BitVec 32), Decidable (k5_chk6 v54) := fun v54 => decidable_of_iff' _ (Iff.of_eq (k5_chk6.eq_1 v54))
theorem k5_off14_inb : ∀ (v54 : BitVec 32) (k5_hw6 : k5_chk6 v54), ∀ a, (k5_off14 v54) a + S1x64.size a ≤ S10000x64.size a := fun v54 k5_hw6 => k5_hw6

def k5_off15 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k5_t1
  let c16_i32_28 : BitVec 32 := 16#32
  let v64 : BitVec 32 := Scalar.muli arg7 c16_i32_28
  let v65 : BitVec 32 := Scalar.addi v2 v64
  let c6_i32 : BitVec 32 := 6#32
  let v66 : BitVec 32 := Scalar.addi v65 c6_i32
  let c0_i32_29 : BitVec 32 := 0#32
  ![v66.toNat, 0]
def k5_off16 (v63 : BitVec 32) : Fin 2 → Nat :=
  let c0_i32_30 : BitVec 32 := 0#32
  ![v63.toNat, 0]

def k5_chk7 (v63 : BitVec 32) : Prop :=
  (∀ a, (k5_off16 v63) a + S1x64.size a ≤ S10000x64.size a)
instance k5_chk7.dec : ∀ (v63 : BitVec 32), Decidable (k5_chk7 v63) := fun v63 => decidable_of_iff' _ (Iff.of_eq (k5_chk7.eq_1 v63))
theorem k5_off16_inb : ∀ (v63 : BitVec 32) (k5_hw7 : k5_chk7 v63), ∀ a, (k5_off16 v63) a + S1x64.size a ≤ S10000x64.size a := fun v63 k5_hw7 => k5_hw7

def k5_off17 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k5_t1
  let c16_i32_31 : BitVec 32 := 16#32
  let v73 : BitVec 32 := Scalar.muli arg7 c16_i32_31
  let v74 : BitVec 32 := Scalar.addi v2 v73
  let c7_i32 : BitVec 32 := 7#32
  let v75 : BitVec 32 := Scalar.addi v74 c7_i32
  let c0_i32_32 : BitVec 32 := 0#32
  ![v75.toNat, 0]
def k5_off18 (v72 : BitVec 32) : Fin 2 → Nat :=
  let c0_i32_33 : BitVec 32 := 0#32
  ![v72.toNat, 0]

def k5_chk8 (v72 : BitVec 32) : Prop :=
  (∀ a, (k5_off18 v72) a + S1x64.size a ≤ S10000x64.size a)
instance k5_chk8.dec : ∀ (v72 : BitVec 32), Decidable (k5_chk8 v72) := fun v72 => decidable_of_iff' _ (Iff.of_eq (k5_chk8.eq_1 v72))
theorem k5_off18_inb : ∀ (v72 : BitVec 32) (k5_hw8 : k5_chk8 v72), ∀ a, (k5_off18 v72) a + S1x64.size a ≤ S10000x64.size a := fun v72 k5_hw8 => k5_hw8

def k5_off19 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k5_t1
  let c16_i32_34 : BitVec 32 := 16#32
  let v82 : BitVec 32 := Scalar.muli arg7 c16_i32_34
  let v83 : BitVec 32 := Scalar.addi v2 v82
  let c8_i32 : BitVec 32 := 8#32
  let v84 : BitVec 32 := Scalar.addi v83 c8_i32
  let c0_i32_35 : BitVec 32 := 0#32
  ![v84.toNat, 0]
def k5_off20 (v81 : BitVec 32) : Fin 2 → Nat :=
  let c0_i32_36 : BitVec 32 := 0#32
  ![v81.toNat, 0]

def k5_chk9 (v81 : BitVec 32) : Prop :=
  (∀ a, (k5_off20 v81) a + S1x64.size a ≤ S10000x64.size a)
instance k5_chk9.dec : ∀ (v81 : BitVec 32), Decidable (k5_chk9 v81) := fun v81 => decidable_of_iff' _ (Iff.of_eq (k5_chk9.eq_1 v81))
theorem k5_off20_inb : ∀ (v81 : BitVec 32) (k5_hw9 : k5_chk9 v81), ∀ a, (k5_off20 v81) a + S1x64.size a ≤ S10000x64.size a := fun v81 k5_hw9 => k5_hw9

def k5_off21 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k5_t1
  let c16_i32_37 : BitVec 32 := 16#32
  let v91 : BitVec 32 := Scalar.muli arg7 c16_i32_37
  let v92 : BitVec 32 := Scalar.addi v2 v91
  let c9_i32 : BitVec 32 := 9#32
  let v93 : BitVec 32 := Scalar.addi v92 c9_i32
  let c0_i32_38 : BitVec 32 := 0#32
  ![v93.toNat, 0]
def k5_off22 (v90 : BitVec 32) : Fin 2 → Nat :=
  let c0_i32_39 : BitVec 32 := 0#32
  ![v90.toNat, 0]

def k5_chk10 (v90 : BitVec 32) : Prop :=
  (∀ a, (k5_off22 v90) a + S1x64.size a ≤ S10000x64.size a)
instance k5_chk10.dec : ∀ (v90 : BitVec 32), Decidable (k5_chk10 v90) := fun v90 => decidable_of_iff' _ (Iff.of_eq (k5_chk10.eq_1 v90))
theorem k5_off22_inb : ∀ (v90 : BitVec 32) (k5_hw10 : k5_chk10 v90), ∀ a, (k5_off22 v90) a + S1x64.size a ≤ S10000x64.size a := fun v90 k5_hw10 => k5_hw10

def k5_off23 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k5_t1
  let c16_i32_40 : BitVec 32 := 16#32
  let v100 : BitVec 32 := Scalar.muli arg7 c16_i32_40
  let v101 : BitVec 32 := Scalar.addi v2 v100
  let c10_i32 : BitVec 32 := 10#32
  let v102 : BitVec 32 := Scalar.addi v101 c10_i32
  let c0_i32_41 : BitVec 32 := 0#32
  ![v102.toNat, 0]
def k5_off24 (v99 : BitVec 32) : Fin 2 → Nat :=
  let c0_i32_42 : BitVec 32 := 0#32
  ![v99.toNat, 0]

def k5_chk11 (v99 : BitVec 32) : Prop :=
  (∀ a, (k5_off24 v99) a + S1x64.size a ≤ S10000x64.size a)
instance k5_chk11.dec : ∀ (v99 : BitVec 32), Decidable (k5_chk11 v99) := fun v99 => decidable_of_iff' _ (Iff.of_eq (k5_chk11.eq_1 v99))
theorem k5_off24_inb : ∀ (v99 : BitVec 32) (k5_hw11 : k5_chk11 v99), ∀ a, (k5_off24 v99) a + S1x64.size a ≤ S10000x64.size a := fun v99 k5_hw11 => k5_hw11

def k5_off25 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k5_t1
  let c16_i32_43 : BitVec 32 := 16#32
  let v109 : BitVec 32 := Scalar.muli arg7 c16_i32_43
  let v110 : BitVec 32 := Scalar.addi v2 v109
  let c11_i32 : BitVec 32 := 11#32
  let v111 : BitVec 32 := Scalar.addi v110 c11_i32
  let c0_i32_44 : BitVec 32 := 0#32
  ![v111.toNat, 0]
def k5_off26 (v108 : BitVec 32) : Fin 2 → Nat :=
  let c0_i32_45 : BitVec 32 := 0#32
  ![v108.toNat, 0]

def k5_chk12 (v108 : BitVec 32) : Prop :=
  (∀ a, (k5_off26 v108) a + S1x64.size a ≤ S10000x64.size a)
instance k5_chk12.dec : ∀ (v108 : BitVec 32), Decidable (k5_chk12 v108) := fun v108 => decidable_of_iff' _ (Iff.of_eq (k5_chk12.eq_1 v108))
theorem k5_off26_inb : ∀ (v108 : BitVec 32) (k5_hw12 : k5_chk12 v108), ∀ a, (k5_off26 v108) a + S1x64.size a ≤ S10000x64.size a := fun v108 k5_hw12 => k5_hw12

def k5_off27 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k5_t1
  let c16_i32_46 : BitVec 32 := 16#32
  let v118 : BitVec 32 := Scalar.muli arg7 c16_i32_46
  let v119 : BitVec 32 := Scalar.addi v2 v118
  let c12_i32 : BitVec 32 := 12#32
  let v120 : BitVec 32 := Scalar.addi v119 c12_i32
  let c0_i32_47 : BitVec 32 := 0#32
  ![v120.toNat, 0]
def k5_off28 (v117 : BitVec 32) : Fin 2 → Nat :=
  let c0_i32_48 : BitVec 32 := 0#32
  ![v117.toNat, 0]

def k5_chk13 (v117 : BitVec 32) : Prop :=
  (∀ a, (k5_off28 v117) a + S1x64.size a ≤ S10000x64.size a)
instance k5_chk13.dec : ∀ (v117 : BitVec 32), Decidable (k5_chk13 v117) := fun v117 => decidable_of_iff' _ (Iff.of_eq (k5_chk13.eq_1 v117))
theorem k5_off28_inb : ∀ (v117 : BitVec 32) (k5_hw13 : k5_chk13 v117), ∀ a, (k5_off28 v117) a + S1x64.size a ≤ S10000x64.size a := fun v117 k5_hw13 => k5_hw13

def k5_off29 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k5_t1
  let c16_i32_49 : BitVec 32 := 16#32
  let v127 : BitVec 32 := Scalar.muli arg7 c16_i32_49
  let v128 : BitVec 32 := Scalar.addi v2 v127
  let c13_i32 : BitVec 32 := 13#32
  let v129 : BitVec 32 := Scalar.addi v128 c13_i32
  let c0_i32_50 : BitVec 32 := 0#32
  ![v129.toNat, 0]
def k5_off30 (v126 : BitVec 32) : Fin 2 → Nat :=
  let c0_i32_51 : BitVec 32 := 0#32
  ![v126.toNat, 0]

def k5_chk14 (v126 : BitVec 32) : Prop :=
  (∀ a, (k5_off30 v126) a + S1x64.size a ≤ S10000x64.size a)
instance k5_chk14.dec : ∀ (v126 : BitVec 32), Decidable (k5_chk14 v126) := fun v126 => decidable_of_iff' _ (Iff.of_eq (k5_chk14.eq_1 v126))
theorem k5_off30_inb : ∀ (v126 : BitVec 32) (k5_hw14 : k5_chk14 v126), ∀ a, (k5_off30 v126) a + S1x64.size a ≤ S10000x64.size a := fun v126 k5_hw14 => k5_hw14

def k5_off31 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k5_t1
  let c16_i32_52 : BitVec 32 := 16#32
  let v136 : BitVec 32 := Scalar.muli arg7 c16_i32_52
  let v137 : BitVec 32 := Scalar.addi v2 v136
  let c14_i32 : BitVec 32 := 14#32
  let v138 : BitVec 32 := Scalar.addi v137 c14_i32
  let c0_i32_53 : BitVec 32 := 0#32
  ![v138.toNat, 0]
def k5_off32 (v135 : BitVec 32) : Fin 2 → Nat :=
  let c0_i32_54 : BitVec 32 := 0#32
  ![v135.toNat, 0]

def k5_chk15 (v135 : BitVec 32) : Prop :=
  (∀ a, (k5_off32 v135) a + S1x64.size a ≤ S10000x64.size a)
instance k5_chk15.dec : ∀ (v135 : BitVec 32), Decidable (k5_chk15 v135) := fun v135 => decidable_of_iff' _ (Iff.of_eq (k5_chk15.eq_1 v135))
theorem k5_off32_inb : ∀ (v135 : BitVec 32) (k5_hw15 : k5_chk15 v135), ∀ a, (k5_off32 v135) a + S1x64.size a ≤ S10000x64.size a := fun v135 k5_hw15 => k5_hw15

def k5_off33 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k5_t1
  let c16_i32_55 : BitVec 32 := 16#32
  let v145 : BitVec 32 := Scalar.muli arg7 c16_i32_55
  let v146 : BitVec 32 := Scalar.addi v2 v145
  let c15_i32 : BitVec 32 := 15#32
  let v147 : BitVec 32 := Scalar.addi v146 c15_i32
  let c0_i32_56 : BitVec 32 := 0#32
  ![v147.toNat, 0]
def k5_off34 (v144 : BitVec 32) : Fin 2 → Nat :=
  let c0_i32_57 : BitVec 32 := 0#32
  ![v144.toNat, 0]

def k5_chk16 (v144 : BitVec 32) : Prop :=
  (∀ a, (k5_off34 v144) a + S1x64.size a ≤ S10000x64.size a)
instance k5_chk16.dec : ∀ (v144 : BitVec 32), Decidable (k5_chk16 v144) := fun v144 => decidable_of_iff' _ (Iff.of_eq (k5_chk16.eq_1 v144))
theorem k5_off34_inb : ∀ (v144 : BitVec 32) (k5_hw16 : k5_chk16 v144), ∀ a, (k5_off34 v144) a + S1x64.size a ≤ S10000x64.size a := fun v144 k5_hw16 => k5_hw16

@[reducible] def k5_t2_loop : Scf.Loop 32 :=
  let c0_i32_3 : BitVec 32 := 0#32
  let c512_i32_4 : BitVec 32 := 512#32
  let v4 : BitVec 32 := Scalar.addi c0_i32_3 c512_i32_4
  let c1_i32_5 : BitVec 32 := 1#32
  ⟨c0_i32_3, v4, c1_i32_5⟩
abbrev grid6 : Pipeline.Grid := ⟨2, ![2, 16], ![false, false]⟩

def k6_off1 (i : grid6.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k6_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k6_off2 (k6_t1 : Fin k6_t1_loop.trips) : Fin 1 → Nat :=
  let c0_i32_0 : BitVec 32 := 0#32
  let c1_i32 : BitVec 32 := 1#32
  let arg7 : BitVec 32 := Scf.iv c0_i32_0 c1_i32 k6_t1
  let c16_i32 : BitVec 32 := 16#32
  let v5 : BitVec 32 := Scalar.muli arg7 c16_i32
  let v6 : Index := Scalar.indexCast v5
  ![v6.toNat]
def k6_off3 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k6_t1
  let c16_i32_7 : BitVec 32 := 16#32
  let v10 : BitVec 32 := Scalar.muli arg7 c16_i32_7
  let v11 : BitVec 32 := Scalar.addi v2 v10
  let c0_i32_8 : BitVec 32 := 0#32
  let v12 : BitVec 32 := Scalar.addi v11 c0_i32_8
  let c0_i32_9 : BitVec 32 := 0#32
  ![v12.toNat, 0]
def k6_off4 (v9 : BitVec 32) : Fin 2 → Nat :=
  let c0_i32_10 : BitVec 32 := 0#32
  ![v9.toNat, 0]

def k6_chk1 (v9 : BitVec 32) : Prop :=
  (∀ a, (k6_off4 v9) a + S1x64.size a ≤ S5000x64.size a)
instance k6_chk1.dec : ∀ (v9 : BitVec 32), Decidable (k6_chk1 v9) := fun v9 => decidable_of_iff' _ (Iff.of_eq (k6_chk1.eq_1 v9))
theorem k6_off4_inb : ∀ (v9 : BitVec 32) (k6_hw1 : k6_chk1 v9), ∀ a, (k6_off4 v9) a + S1x64.size a ≤ S5000x64.size a := fun v9 k6_hw1 => k6_hw1

def k6_off5 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k6_t1
  let c16_i32_11 : BitVec 32 := 16#32
  let v19 : BitVec 32 := Scalar.muli arg7 c16_i32_11
  let v20 : BitVec 32 := Scalar.addi v2 v19
  let c1_i32_12 : BitVec 32 := 1#32
  let v21 : BitVec 32 := Scalar.addi v20 c1_i32_12
  let c0_i32_13 : BitVec 32 := 0#32
  ![v21.toNat, 0]
def k6_off6 (v18 : BitVec 32) : Fin 2 → Nat :=
  let c0_i32_14 : BitVec 32 := 0#32
  ![v18.toNat, 0]

def k6_chk2 (v18 : BitVec 32) : Prop :=
  (∀ a, (k6_off6 v18) a + S1x64.size a ≤ S5000x64.size a)
instance k6_chk2.dec : ∀ (v18 : BitVec 32), Decidable (k6_chk2 v18) := fun v18 => decidable_of_iff' _ (Iff.of_eq (k6_chk2.eq_1 v18))
theorem k6_off6_inb : ∀ (v18 : BitVec 32) (k6_hw2 : k6_chk2 v18), ∀ a, (k6_off6 v18) a + S1x64.size a ≤ S5000x64.size a := fun v18 k6_hw2 => k6_hw2

def k6_off7 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k6_t1
  let c16_i32_15 : BitVec 32 := 16#32
  let v28 : BitVec 32 := Scalar.muli arg7 c16_i32_15
  let v29 : BitVec 32 := Scalar.addi v2 v28
  let c2_i32_16 : BitVec 32 := 2#32
  let v30 : BitVec 32 := Scalar.addi v29 c2_i32_16
  let c0_i32_17 : BitVec 32 := 0#32
  ![v30.toNat, 0]
def k6_off8 (v27 : BitVec 32) : Fin 2 → Nat :=
  let c0_i32_18 : BitVec 32 := 0#32
  ![v27.toNat, 0]

def k6_chk3 (v27 : BitVec 32) : Prop :=
  (∀ a, (k6_off8 v27) a + S1x64.size a ≤ S5000x64.size a)
instance k6_chk3.dec : ∀ (v27 : BitVec 32), Decidable (k6_chk3 v27) := fun v27 => decidable_of_iff' _ (Iff.of_eq (k6_chk3.eq_1 v27))
theorem k6_off8_inb : ∀ (v27 : BitVec 32) (k6_hw3 : k6_chk3 v27), ∀ a, (k6_off8 v27) a + S1x64.size a ≤ S5000x64.size a := fun v27 k6_hw3 => k6_hw3

def k6_off9 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k6_t1
  let c16_i32_19 : BitVec 32 := 16#32
  let v37 : BitVec 32 := Scalar.muli arg7 c16_i32_19
  let v38 : BitVec 32 := Scalar.addi v2 v37
  let c3_i32 : BitVec 32 := 3#32
  let v39 : BitVec 32 := Scalar.addi v38 c3_i32
  let c0_i32_20 : BitVec 32 := 0#32
  ![v39.toNat, 0]
def k6_off10 (v36 : BitVec 32) : Fin 2 → Nat :=
  let c0_i32_21 : BitVec 32 := 0#32
  ![v36.toNat, 0]

def k6_chk4 (v36 : BitVec 32) : Prop :=
  (∀ a, (k6_off10 v36) a + S1x64.size a ≤ S5000x64.size a)
instance k6_chk4.dec : ∀ (v36 : BitVec 32), Decidable (k6_chk4 v36) := fun v36 => decidable_of_iff' _ (Iff.of_eq (k6_chk4.eq_1 v36))
theorem k6_off10_inb : ∀ (v36 : BitVec 32) (k6_hw4 : k6_chk4 v36), ∀ a, (k6_off10 v36) a + S1x64.size a ≤ S5000x64.size a := fun v36 k6_hw4 => k6_hw4

def k6_off11 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k6_t1
  let c16_i32_22 : BitVec 32 := 16#32
  let v46 : BitVec 32 := Scalar.muli arg7 c16_i32_22
  let v47 : BitVec 32 := Scalar.addi v2 v46
  let c4_i32 : BitVec 32 := 4#32
  let v48 : BitVec 32 := Scalar.addi v47 c4_i32
  let c0_i32_23 : BitVec 32 := 0#32
  ![v48.toNat, 0]
def k6_off12 (v45 : BitVec 32) : Fin 2 → Nat :=
  let c0_i32_24 : BitVec 32 := 0#32
  ![v45.toNat, 0]

def k6_chk5 (v45 : BitVec 32) : Prop :=
  (∀ a, (k6_off12 v45) a + S1x64.size a ≤ S5000x64.size a)
instance k6_chk5.dec : ∀ (v45 : BitVec 32), Decidable (k6_chk5 v45) := fun v45 => decidable_of_iff' _ (Iff.of_eq (k6_chk5.eq_1 v45))
theorem k6_off12_inb : ∀ (v45 : BitVec 32) (k6_hw5 : k6_chk5 v45), ∀ a, (k6_off12 v45) a + S1x64.size a ≤ S5000x64.size a := fun v45 k6_hw5 => k6_hw5

def k6_off13 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k6_t1
  let c16_i32_25 : BitVec 32 := 16#32
  let v55 : BitVec 32 := Scalar.muli arg7 c16_i32_25
  let v56 : BitVec 32 := Scalar.addi v2 v55
  let c5_i32 : BitVec 32 := 5#32
  let v57 : BitVec 32 := Scalar.addi v56 c5_i32
  let c0_i32_26 : BitVec 32 := 0#32
  ![v57.toNat, 0]
def k6_off14 (v54 : BitVec 32) : Fin 2 → Nat :=
  let c0_i32_27 : BitVec 32 := 0#32
  ![v54.toNat, 0]

def k6_chk6 (v54 : BitVec 32) : Prop :=
  (∀ a, (k6_off14 v54) a + S1x64.size a ≤ S5000x64.size a)
instance k6_chk6.dec : ∀ (v54 : BitVec 32), Decidable (k6_chk6 v54) := fun v54 => decidable_of_iff' _ (Iff.of_eq (k6_chk6.eq_1 v54))
theorem k6_off14_inb : ∀ (v54 : BitVec 32) (k6_hw6 : k6_chk6 v54), ∀ a, (k6_off14 v54) a + S1x64.size a ≤ S5000x64.size a := fun v54 k6_hw6 => k6_hw6

def k6_off15 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k6_t1
  let c16_i32_28 : BitVec 32 := 16#32
  let v64 : BitVec 32 := Scalar.muli arg7 c16_i32_28
  let v65 : BitVec 32 := Scalar.addi v2 v64
  let c6_i32 : BitVec 32 := 6#32
  let v66 : BitVec 32 := Scalar.addi v65 c6_i32
  let c0_i32_29 : BitVec 32 := 0#32
  ![v66.toNat, 0]
def k6_off16 (v63 : BitVec 32) : Fin 2 → Nat :=
  let c0_i32_30 : BitVec 32 := 0#32
  ![v63.toNat, 0]

def k6_chk7 (v63 : BitVec 32) : Prop :=
  (∀ a, (k6_off16 v63) a + S1x64.size a ≤ S5000x64.size a)
instance k6_chk7.dec : ∀ (v63 : BitVec 32), Decidable (k6_chk7 v63) := fun v63 => decidable_of_iff' _ (Iff.of_eq (k6_chk7.eq_1 v63))
theorem k6_off16_inb : ∀ (v63 : BitVec 32) (k6_hw7 : k6_chk7 v63), ∀ a, (k6_off16 v63) a + S1x64.size a ≤ S5000x64.size a := fun v63 k6_hw7 => k6_hw7

def k6_off17 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k6_t1
  let c16_i32_31 : BitVec 32 := 16#32
  let v73 : BitVec 32 := Scalar.muli arg7 c16_i32_31
  let v74 : BitVec 32 := Scalar.addi v2 v73
  let c7_i32 : BitVec 32 := 7#32
  let v75 : BitVec 32 := Scalar.addi v74 c7_i32
  let c0_i32_32 : BitVec 32 := 0#32
  ![v75.toNat, 0]
def k6_off18 (v72 : BitVec 32) : Fin 2 → Nat :=
  let c0_i32_33 : BitVec 32 := 0#32
  ![v72.toNat, 0]

def k6_chk8 (v72 : BitVec 32) : Prop :=
  (∀ a, (k6_off18 v72) a + S1x64.size a ≤ S5000x64.size a)
instance k6_chk8.dec : ∀ (v72 : BitVec 32), Decidable (k6_chk8 v72) := fun v72 => decidable_of_iff' _ (Iff.of_eq (k6_chk8.eq_1 v72))
theorem k6_off18_inb : ∀ (v72 : BitVec 32) (k6_hw8 : k6_chk8 v72), ∀ a, (k6_off18 v72) a + S1x64.size a ≤ S5000x64.size a := fun v72 k6_hw8 => k6_hw8

def k6_off19 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k6_t1
  let c16_i32_34 : BitVec 32 := 16#32
  let v82 : BitVec 32 := Scalar.muli arg7 c16_i32_34
  let v83 : BitVec 32 := Scalar.addi v2 v82
  let c8_i32 : BitVec 32 := 8#32
  let v84 : BitVec 32 := Scalar.addi v83 c8_i32
  let c0_i32_35 : BitVec 32 := 0#32
  ![v84.toNat, 0]
def k6_off20 (v81 : BitVec 32) : Fin 2 → Nat :=
  let c0_i32_36 : BitVec 32 := 0#32
  ![v81.toNat, 0]

def k6_chk9 (v81 : BitVec 32) : Prop :=
  (∀ a, (k6_off20 v81) a + S1x64.size a ≤ S5000x64.size a)
instance k6_chk9.dec : ∀ (v81 : BitVec 32), Decidable (k6_chk9 v81) := fun v81 => decidable_of_iff' _ (Iff.of_eq (k6_chk9.eq_1 v81))
theorem k6_off20_inb : ∀ (v81 : BitVec 32) (k6_hw9 : k6_chk9 v81), ∀ a, (k6_off20 v81) a + S1x64.size a ≤ S5000x64.size a := fun v81 k6_hw9 => k6_hw9

def k6_off21 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k6_t1
  let c16_i32_37 : BitVec 32 := 16#32
  let v91 : BitVec 32 := Scalar.muli arg7 c16_i32_37
  let v92 : BitVec 32 := Scalar.addi v2 v91
  let c9_i32 : BitVec 32 := 9#32
  let v93 : BitVec 32 := Scalar.addi v92 c9_i32
  let c0_i32_38 : BitVec 32 := 0#32
  ![v93.toNat, 0]
def k6_off22 (v90 : BitVec 32) : Fin 2 → Nat :=
  let c0_i32_39 : BitVec 32 := 0#32
  ![v90.toNat, 0]

def k6_chk10 (v90 : BitVec 32) : Prop :=
  (∀ a, (k6_off22 v90) a + S1x64.size a ≤ S5000x64.size a)
instance k6_chk10.dec : ∀ (v90 : BitVec 32), Decidable (k6_chk10 v90) := fun v90 => decidable_of_iff' _ (Iff.of_eq (k6_chk10.eq_1 v90))
theorem k6_off22_inb : ∀ (v90 : BitVec 32) (k6_hw10 : k6_chk10 v90), ∀ a, (k6_off22 v90) a + S1x64.size a ≤ S5000x64.size a := fun v90 k6_hw10 => k6_hw10

def k6_off23 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k6_t1
  let c16_i32_40 : BitVec 32 := 16#32
  let v100 : BitVec 32 := Scalar.muli arg7 c16_i32_40
  let v101 : BitVec 32 := Scalar.addi v2 v100
  let c10_i32 : BitVec 32 := 10#32
  let v102 : BitVec 32 := Scalar.addi v101 c10_i32
  let c0_i32_41 : BitVec 32 := 0#32
  ![v102.toNat, 0]
def k6_off24 (v99 : BitVec 32) : Fin 2 → Nat :=
  let c0_i32_42 : BitVec 32 := 0#32
  ![v99.toNat, 0]

def k6_chk11 (v99 : BitVec 32) : Prop :=
  (∀ a, (k6_off24 v99) a + S1x64.size a ≤ S5000x64.size a)
instance k6_chk11.dec : ∀ (v99 : BitVec 32), Decidable (k6_chk11 v99) := fun v99 => decidable_of_iff' _ (Iff.of_eq (k6_chk11.eq_1 v99))
theorem k6_off24_inb : ∀ (v99 : BitVec 32) (k6_hw11 : k6_chk11 v99), ∀ a, (k6_off24 v99) a + S1x64.size a ≤ S5000x64.size a := fun v99 k6_hw11 => k6_hw11

def k6_off25 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k6_t1
  let c16_i32_43 : BitVec 32 := 16#32
  let v109 : BitVec 32 := Scalar.muli arg7 c16_i32_43
  let v110 : BitVec 32 := Scalar.addi v2 v109
  let c11_i32 : BitVec 32 := 11#32
  let v111 : BitVec 32 := Scalar.addi v110 c11_i32
  let c0_i32_44 : BitVec 32 := 0#32
  ![v111.toNat, 0]
def k6_off26 (v108 : BitVec 32) : Fin 2 → Nat :=
  let c0_i32_45 : BitVec 32 := 0#32
  ![v108.toNat, 0]

def k6_chk12 (v108 : BitVec 32) : Prop :=
  (∀ a, (k6_off26 v108) a + S1x64.size a ≤ S5000x64.size a)
instance k6_chk12.dec : ∀ (v108 : BitVec 32), Decidable (k6_chk12 v108) := fun v108 => decidable_of_iff' _ (Iff.of_eq (k6_chk12.eq_1 v108))
theorem k6_off26_inb : ∀ (v108 : BitVec 32) (k6_hw12 : k6_chk12 v108), ∀ a, (k6_off26 v108) a + S1x64.size a ≤ S5000x64.size a := fun v108 k6_hw12 => k6_hw12

def k6_off27 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k6_t1
  let c16_i32_46 : BitVec 32 := 16#32
  let v118 : BitVec 32 := Scalar.muli arg7 c16_i32_46
  let v119 : BitVec 32 := Scalar.addi v2 v118
  let c12_i32 : BitVec 32 := 12#32
  let v120 : BitVec 32 := Scalar.addi v119 c12_i32
  let c0_i32_47 : BitVec 32 := 0#32
  ![v120.toNat, 0]
def k6_off28 (v117 : BitVec 32) : Fin 2 → Nat :=
  let c0_i32_48 : BitVec 32 := 0#32
  ![v117.toNat, 0]

def k6_chk13 (v117 : BitVec 32) : Prop :=
  (∀ a, (k6_off28 v117) a + S1x64.size a ≤ S5000x64.size a)
instance k6_chk13.dec : ∀ (v117 : BitVec 32), Decidable (k6_chk13 v117) := fun v117 => decidable_of_iff' _ (Iff.of_eq (k6_chk13.eq_1 v117))
theorem k6_off28_inb : ∀ (v117 : BitVec 32) (k6_hw13 : k6_chk13 v117), ∀ a, (k6_off28 v117) a + S1x64.size a ≤ S5000x64.size a := fun v117 k6_hw13 => k6_hw13

def k6_off29 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k6_t1
  let c16_i32_49 : BitVec 32 := 16#32
  let v127 : BitVec 32 := Scalar.muli arg7 c16_i32_49
  let v128 : BitVec 32 := Scalar.addi v2 v127
  let c13_i32 : BitVec 32 := 13#32
  let v129 : BitVec 32 := Scalar.addi v128 c13_i32
  let c0_i32_50 : BitVec 32 := 0#32
  ![v129.toNat, 0]
def k6_off30 (v126 : BitVec 32) : Fin 2 → Nat :=
  let c0_i32_51 : BitVec 32 := 0#32
  ![v126.toNat, 0]

def k6_chk14 (v126 : BitVec 32) : Prop :=
  (∀ a, (k6_off30 v126) a + S1x64.size a ≤ S5000x64.size a)
instance k6_chk14.dec : ∀ (v126 : BitVec 32), Decidable (k6_chk14 v126) := fun v126 => decidable_of_iff' _ (Iff.of_eq (k6_chk14.eq_1 v126))
theorem k6_off30_inb : ∀ (v126 : BitVec 32) (k6_hw14 : k6_chk14 v126), ∀ a, (k6_off30 v126) a + S1x64.size a ≤ S5000x64.size a := fun v126 k6_hw14 => k6_hw14

def k6_off31 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k6_t1
  let c16_i32_52 : BitVec 32 := 16#32
  let v136 : BitVec 32 := Scalar.muli arg7 c16_i32_52
  let v137 : BitVec 32 := Scalar.addi v2 v136
  let c14_i32 : BitVec 32 := 14#32
  let v138 : BitVec 32 := Scalar.addi v137 c14_i32
  let c0_i32_53 : BitVec 32 := 0#32
  ![v138.toNat, 0]
def k6_off32 (v135 : BitVec 32) : Fin 2 → Nat :=
  let c0_i32_54 : BitVec 32 := 0#32
  ![v135.toNat, 0]

def k6_chk15 (v135 : BitVec 32) : Prop :=
  (∀ a, (k6_off32 v135) a + S1x64.size a ≤ S5000x64.size a)
instance k6_chk15.dec : ∀ (v135 : BitVec 32), Decidable (k6_chk15 v135) := fun v135 => decidable_of_iff' _ (Iff.of_eq (k6_chk15.eq_1 v135))
theorem k6_off32_inb : ∀ (v135 : BitVec 32) (k6_hw15 : k6_chk15 v135), ∀ a, (k6_off32 v135) a + S1x64.size a ≤ S5000x64.size a := fun v135 k6_hw15 => k6_hw15

def k6_off33 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k6_t1
  let c16_i32_55 : BitVec 32 := 16#32
  let v145 : BitVec 32 := Scalar.muli arg7 c16_i32_55
  let v146 : BitVec 32 := Scalar.addi v2 v145
  let c15_i32 : BitVec 32 := 15#32
  let v147 : BitVec 32 := Scalar.addi v146 c15_i32
  let c0_i32_56 : BitVec 32 := 0#32
  ![v147.toNat, 0]
def k6_off34 (v144 : BitVec 32) : Fin 2 → Nat :=
  let c0_i32_57 : BitVec 32 := 0#32
  ![v144.toNat, 0]

def k6_chk16 (v144 : BitVec 32) : Prop :=
  (∀ a, (k6_off34 v144) a + S1x64.size a ≤ S5000x64.size a)
instance k6_chk16.dec : ∀ (v144 : BitVec 32), Decidable (k6_chk16 v144) := fun v144 => decidable_of_iff' _ (Iff.of_eq (k6_chk16.eq_1 v144))
theorem k6_off34_inb : ∀ (v144 : BitVec 32) (k6_hw16 : k6_chk16 v144), ∀ a, (k6_off34 v144) a + S1x64.size a ≤ S5000x64.size a := fun v144 k6_hw16 => k6_hw16

@[reducible] def k6_t2_loop : Scf.Loop 32 :=
  let c0_i32_3 : BitVec 32 := 0#32
  let c512_i32_4 : BitVec 32 := 512#32
  let v4 : BitVec 32 := Scalar.addi c0_i32_3 c512_i32_4
  let c1_i32_5 : BitVec 32 := 1#32
  ⟨c0_i32_3, v4, c1_i32_5⟩
abbrev grid7 : Pipeline.Grid := ⟨2, ![2, 16], ![false, false]⟩

def k7_off1 (i : grid7.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k7_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k7_off2 (k7_t1 : Fin k7_t1_loop.trips) : Fin 1 → Nat :=
  let c0_i32_0 : BitVec 32 := 0#32
  let c1_i32 : BitVec 32 := 1#32
  let arg7 : BitVec 32 := Scf.iv c0_i32_0 c1_i32 k7_t1
  let c16_i32 : BitVec 32 := 16#32
  let v5 : BitVec 32 := Scalar.muli arg7 c16_i32
  let v6 : Index := Scalar.indexCast v5
  ![v6.toNat]
def k7_off3 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k7_t1
  let c16_i32_7 : BitVec 32 := 16#32
  let v10 : BitVec 32 := Scalar.muli arg7 c16_i32_7
  let v11 : BitVec 32 := Scalar.addi v2 v10
  let c0_i32_8 : BitVec 32 := 0#32
  let v12 : BitVec 32 := Scalar.addi v11 c0_i32_8
  let c0_i32_9 : BitVec 32 := 0#32
  ![v12.toNat, 0]
def k7_off4 (v9 : BitVec 32) : Fin 2 → Nat :=
  let c0_i32_10 : BitVec 32 := 0#32
  ![v9.toNat, 0]

def k7_chk1 (v9 : BitVec 32) : Prop :=
  (∀ a, (k7_off4 v9) a + S1x64.size a ≤ S1000x64.size a)
instance k7_chk1.dec : ∀ (v9 : BitVec 32), Decidable (k7_chk1 v9) := fun v9 => decidable_of_iff' _ (Iff.of_eq (k7_chk1.eq_1 v9))
theorem k7_off4_inb : ∀ (v9 : BitVec 32) (k7_hw1 : k7_chk1 v9), ∀ a, (k7_off4 v9) a + S1x64.size a ≤ S1000x64.size a := fun v9 k7_hw1 => k7_hw1

def k7_off5 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k7_t1
  let c16_i32_11 : BitVec 32 := 16#32
  let v19 : BitVec 32 := Scalar.muli arg7 c16_i32_11
  let v20 : BitVec 32 := Scalar.addi v2 v19
  let c1_i32_12 : BitVec 32 := 1#32
  let v21 : BitVec 32 := Scalar.addi v20 c1_i32_12
  let c0_i32_13 : BitVec 32 := 0#32
  ![v21.toNat, 0]
def k7_off6 (v18 : BitVec 32) : Fin 2 → Nat :=
  let c0_i32_14 : BitVec 32 := 0#32
  ![v18.toNat, 0]

def k7_chk2 (v18 : BitVec 32) : Prop :=
  (∀ a, (k7_off6 v18) a + S1x64.size a ≤ S1000x64.size a)
instance k7_chk2.dec : ∀ (v18 : BitVec 32), Decidable (k7_chk2 v18) := fun v18 => decidable_of_iff' _ (Iff.of_eq (k7_chk2.eq_1 v18))
theorem k7_off6_inb : ∀ (v18 : BitVec 32) (k7_hw2 : k7_chk2 v18), ∀ a, (k7_off6 v18) a + S1x64.size a ≤ S1000x64.size a := fun v18 k7_hw2 => k7_hw2

def k7_off7 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k7_t1
  let c16_i32_15 : BitVec 32 := 16#32
  let v28 : BitVec 32 := Scalar.muli arg7 c16_i32_15
  let v29 : BitVec 32 := Scalar.addi v2 v28
  let c2_i32_16 : BitVec 32 := 2#32
  let v30 : BitVec 32 := Scalar.addi v29 c2_i32_16
  let c0_i32_17 : BitVec 32 := 0#32
  ![v30.toNat, 0]
def k7_off8 (v27 : BitVec 32) : Fin 2 → Nat :=
  let c0_i32_18 : BitVec 32 := 0#32
  ![v27.toNat, 0]

def k7_chk3 (v27 : BitVec 32) : Prop :=
  (∀ a, (k7_off8 v27) a + S1x64.size a ≤ S1000x64.size a)
instance k7_chk3.dec : ∀ (v27 : BitVec 32), Decidable (k7_chk3 v27) := fun v27 => decidable_of_iff' _ (Iff.of_eq (k7_chk3.eq_1 v27))
theorem k7_off8_inb : ∀ (v27 : BitVec 32) (k7_hw3 : k7_chk3 v27), ∀ a, (k7_off8 v27) a + S1x64.size a ≤ S1000x64.size a := fun v27 k7_hw3 => k7_hw3

def k7_off9 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k7_t1
  let c16_i32_19 : BitVec 32 := 16#32
  let v37 : BitVec 32 := Scalar.muli arg7 c16_i32_19
  let v38 : BitVec 32 := Scalar.addi v2 v37
  let c3_i32 : BitVec 32 := 3#32
  let v39 : BitVec 32 := Scalar.addi v38 c3_i32
  let c0_i32_20 : BitVec 32 := 0#32
  ![v39.toNat, 0]
def k7_off10 (v36 : BitVec 32) : Fin 2 → Nat :=
  let c0_i32_21 : BitVec 32 := 0#32
  ![v36.toNat, 0]

def k7_chk4 (v36 : BitVec 32) : Prop :=
  (∀ a, (k7_off10 v36) a + S1x64.size a ≤ S1000x64.size a)
instance k7_chk4.dec : ∀ (v36 : BitVec 32), Decidable (k7_chk4 v36) := fun v36 => decidable_of_iff' _ (Iff.of_eq (k7_chk4.eq_1 v36))
theorem k7_off10_inb : ∀ (v36 : BitVec 32) (k7_hw4 : k7_chk4 v36), ∀ a, (k7_off10 v36) a + S1x64.size a ≤ S1000x64.size a := fun v36 k7_hw4 => k7_hw4

def k7_off11 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k7_t1
  let c16_i32_22 : BitVec 32 := 16#32
  let v46 : BitVec 32 := Scalar.muli arg7 c16_i32_22
  let v47 : BitVec 32 := Scalar.addi v2 v46
  let c4_i32 : BitVec 32 := 4#32
  let v48 : BitVec 32 := Scalar.addi v47 c4_i32
  let c0_i32_23 : BitVec 32 := 0#32
  ![v48.toNat, 0]
def k7_off12 (v45 : BitVec 32) : Fin 2 → Nat :=
  let c0_i32_24 : BitVec 32 := 0#32
  ![v45.toNat, 0]

def k7_chk5 (v45 : BitVec 32) : Prop :=
  (∀ a, (k7_off12 v45) a + S1x64.size a ≤ S1000x64.size a)
instance k7_chk5.dec : ∀ (v45 : BitVec 32), Decidable (k7_chk5 v45) := fun v45 => decidable_of_iff' _ (Iff.of_eq (k7_chk5.eq_1 v45))
theorem k7_off12_inb : ∀ (v45 : BitVec 32) (k7_hw5 : k7_chk5 v45), ∀ a, (k7_off12 v45) a + S1x64.size a ≤ S1000x64.size a := fun v45 k7_hw5 => k7_hw5

def k7_off13 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k7_t1
  let c16_i32_25 : BitVec 32 := 16#32
  let v55 : BitVec 32 := Scalar.muli arg7 c16_i32_25
  let v56 : BitVec 32 := Scalar.addi v2 v55
  let c5_i32 : BitVec 32 := 5#32
  let v57 : BitVec 32 := Scalar.addi v56 c5_i32
  let c0_i32_26 : BitVec 32 := 0#32
  ![v57.toNat, 0]
def k7_off14 (v54 : BitVec 32) : Fin 2 → Nat :=
  let c0_i32_27 : BitVec 32 := 0#32
  ![v54.toNat, 0]

def k7_chk6 (v54 : BitVec 32) : Prop :=
  (∀ a, (k7_off14 v54) a + S1x64.size a ≤ S1000x64.size a)
instance k7_chk6.dec : ∀ (v54 : BitVec 32), Decidable (k7_chk6 v54) := fun v54 => decidable_of_iff' _ (Iff.of_eq (k7_chk6.eq_1 v54))
theorem k7_off14_inb : ∀ (v54 : BitVec 32) (k7_hw6 : k7_chk6 v54), ∀ a, (k7_off14 v54) a + S1x64.size a ≤ S1000x64.size a := fun v54 k7_hw6 => k7_hw6

def k7_off15 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k7_t1
  let c16_i32_28 : BitVec 32 := 16#32
  let v64 : BitVec 32 := Scalar.muli arg7 c16_i32_28
  let v65 : BitVec 32 := Scalar.addi v2 v64
  let c6_i32 : BitVec 32 := 6#32
  let v66 : BitVec 32 := Scalar.addi v65 c6_i32
  let c0_i32_29 : BitVec 32 := 0#32
  ![v66.toNat, 0]
def k7_off16 (v63 : BitVec 32) : Fin 2 → Nat :=
  let c0_i32_30 : BitVec 32 := 0#32
  ![v63.toNat, 0]

def k7_chk7 (v63 : BitVec 32) : Prop :=
  (∀ a, (k7_off16 v63) a + S1x64.size a ≤ S1000x64.size a)
instance k7_chk7.dec : ∀ (v63 : BitVec 32), Decidable (k7_chk7 v63) := fun v63 => decidable_of_iff' _ (Iff.of_eq (k7_chk7.eq_1 v63))
theorem k7_off16_inb : ∀ (v63 : BitVec 32) (k7_hw7 : k7_chk7 v63), ∀ a, (k7_off16 v63) a + S1x64.size a ≤ S1000x64.size a := fun v63 k7_hw7 => k7_hw7

def k7_off17 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k7_t1
  let c16_i32_31 : BitVec 32 := 16#32
  let v73 : BitVec 32 := Scalar.muli arg7 c16_i32_31
  let v74 : BitVec 32 := Scalar.addi v2 v73
  let c7_i32 : BitVec 32 := 7#32
  let v75 : BitVec 32 := Scalar.addi v74 c7_i32
  let c0_i32_32 : BitVec 32 := 0#32
  ![v75.toNat, 0]
def k7_off18 (v72 : BitVec 32) : Fin 2 → Nat :=
  let c0_i32_33 : BitVec 32 := 0#32
  ![v72.toNat, 0]

def k7_chk8 (v72 : BitVec 32) : Prop :=
  (∀ a, (k7_off18 v72) a + S1x64.size a ≤ S1000x64.size a)
instance k7_chk8.dec : ∀ (v72 : BitVec 32), Decidable (k7_chk8 v72) := fun v72 => decidable_of_iff' _ (Iff.of_eq (k7_chk8.eq_1 v72))
theorem k7_off18_inb : ∀ (v72 : BitVec 32) (k7_hw8 : k7_chk8 v72), ∀ a, (k7_off18 v72) a + S1x64.size a ≤ S1000x64.size a := fun v72 k7_hw8 => k7_hw8

def k7_off19 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k7_t1
  let c16_i32_34 : BitVec 32 := 16#32
  let v82 : BitVec 32 := Scalar.muli arg7 c16_i32_34
  let v83 : BitVec 32 := Scalar.addi v2 v82
  let c8_i32 : BitVec 32 := 8#32
  let v84 : BitVec 32 := Scalar.addi v83 c8_i32
  let c0_i32_35 : BitVec 32 := 0#32
  ![v84.toNat, 0]
def k7_off20 (v81 : BitVec 32) : Fin 2 → Nat :=
  let c0_i32_36 : BitVec 32 := 0#32
  ![v81.toNat, 0]

def k7_chk9 (v81 : BitVec 32) : Prop :=
  (∀ a, (k7_off20 v81) a + S1x64.size a ≤ S1000x64.size a)
instance k7_chk9.dec : ∀ (v81 : BitVec 32), Decidable (k7_chk9 v81) := fun v81 => decidable_of_iff' _ (Iff.of_eq (k7_chk9.eq_1 v81))
theorem k7_off20_inb : ∀ (v81 : BitVec 32) (k7_hw9 : k7_chk9 v81), ∀ a, (k7_off20 v81) a + S1x64.size a ≤ S1000x64.size a := fun v81 k7_hw9 => k7_hw9

def k7_off21 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k7_t1
  let c16_i32_37 : BitVec 32 := 16#32
  let v91 : BitVec 32 := Scalar.muli arg7 c16_i32_37
  let v92 : BitVec 32 := Scalar.addi v2 v91
  let c9_i32 : BitVec 32 := 9#32
  let v93 : BitVec 32 := Scalar.addi v92 c9_i32
  let c0_i32_38 : BitVec 32 := 0#32
  ![v93.toNat, 0]
def k7_off22 (v90 : BitVec 32) : Fin 2 → Nat :=
  let c0_i32_39 : BitVec 32 := 0#32
  ![v90.toNat, 0]

def k7_chk10 (v90 : BitVec 32) : Prop :=
  (∀ a, (k7_off22 v90) a + S1x64.size a ≤ S1000x64.size a)
instance k7_chk10.dec : ∀ (v90 : BitVec 32), Decidable (k7_chk10 v90) := fun v90 => decidable_of_iff' _ (Iff.of_eq (k7_chk10.eq_1 v90))
theorem k7_off22_inb : ∀ (v90 : BitVec 32) (k7_hw10 : k7_chk10 v90), ∀ a, (k7_off22 v90) a + S1x64.size a ≤ S1000x64.size a := fun v90 k7_hw10 => k7_hw10

def k7_off23 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k7_t1
  let c16_i32_40 : BitVec 32 := 16#32
  let v100 : BitVec 32 := Scalar.muli arg7 c16_i32_40
  let v101 : BitVec 32 := Scalar.addi v2 v100
  let c10_i32 : BitVec 32 := 10#32
  let v102 : BitVec 32 := Scalar.addi v101 c10_i32
  let c0_i32_41 : BitVec 32 := 0#32
  ![v102.toNat, 0]
def k7_off24 (v99 : BitVec 32) : Fin 2 → Nat :=
  let c0_i32_42 : BitVec 32 := 0#32
  ![v99.toNat, 0]

def k7_chk11 (v99 : BitVec 32) : Prop :=
  (∀ a, (k7_off24 v99) a + S1x64.size a ≤ S1000x64.size a)
instance k7_chk11.dec : ∀ (v99 : BitVec 32), Decidable (k7_chk11 v99) := fun v99 => decidable_of_iff' _ (Iff.of_eq (k7_chk11.eq_1 v99))
theorem k7_off24_inb : ∀ (v99 : BitVec 32) (k7_hw11 : k7_chk11 v99), ∀ a, (k7_off24 v99) a + S1x64.size a ≤ S1000x64.size a := fun v99 k7_hw11 => k7_hw11

def k7_off25 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k7_t1
  let c16_i32_43 : BitVec 32 := 16#32
  let v109 : BitVec 32 := Scalar.muli arg7 c16_i32_43
  let v110 : BitVec 32 := Scalar.addi v2 v109
  let c11_i32 : BitVec 32 := 11#32
  let v111 : BitVec 32 := Scalar.addi v110 c11_i32
  let c0_i32_44 : BitVec 32 := 0#32
  ![v111.toNat, 0]
def k7_off26 (v108 : BitVec 32) : Fin 2 → Nat :=
  let c0_i32_45 : BitVec 32 := 0#32
  ![v108.toNat, 0]

def k7_chk12 (v108 : BitVec 32) : Prop :=
  (∀ a, (k7_off26 v108) a + S1x64.size a ≤ S1000x64.size a)
instance k7_chk12.dec : ∀ (v108 : BitVec 32), Decidable (k7_chk12 v108) := fun v108 => decidable_of_iff' _ (Iff.of_eq (k7_chk12.eq_1 v108))
theorem k7_off26_inb : ∀ (v108 : BitVec 32) (k7_hw12 : k7_chk12 v108), ∀ a, (k7_off26 v108) a + S1x64.size a ≤ S1000x64.size a := fun v108 k7_hw12 => k7_hw12

def k7_off27 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k7_t1
  let c16_i32_46 : BitVec 32 := 16#32
  let v118 : BitVec 32 := Scalar.muli arg7 c16_i32_46
  let v119 : BitVec 32 := Scalar.addi v2 v118
  let c12_i32 : BitVec 32 := 12#32
  let v120 : BitVec 32 := Scalar.addi v119 c12_i32
  let c0_i32_47 : BitVec 32 := 0#32
  ![v120.toNat, 0]
def k7_off28 (v117 : BitVec 32) : Fin 2 → Nat :=
  let c0_i32_48 : BitVec 32 := 0#32
  ![v117.toNat, 0]

def k7_chk13 (v117 : BitVec 32) : Prop :=
  (∀ a, (k7_off28 v117) a + S1x64.size a ≤ S1000x64.size a)
instance k7_chk13.dec : ∀ (v117 : BitVec 32), Decidable (k7_chk13 v117) := fun v117 => decidable_of_iff' _ (Iff.of_eq (k7_chk13.eq_1 v117))
theorem k7_off28_inb : ∀ (v117 : BitVec 32) (k7_hw13 : k7_chk13 v117), ∀ a, (k7_off28 v117) a + S1x64.size a ≤ S1000x64.size a := fun v117 k7_hw13 => k7_hw13

def k7_off29 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k7_t1
  let c16_i32_49 : BitVec 32 := 16#32
  let v127 : BitVec 32 := Scalar.muli arg7 c16_i32_49
  let v128 : BitVec 32 := Scalar.addi v2 v127
  let c13_i32 : BitVec 32 := 13#32
  let v129 : BitVec 32 := Scalar.addi v128 c13_i32
  let c0_i32_50 : BitVec 32 := 0#32
  ![v129.toNat, 0]
def k7_off30 (v126 : BitVec 32) : Fin 2 → Nat :=
  let c0_i32_51 : BitVec 32 := 0#32
  ![v126.toNat, 0]

def k7_chk14 (v126 : BitVec 32) : Prop :=
  (∀ a, (k7_off30 v126) a + S1x64.size a ≤ S1000x64.size a)
instance k7_chk14.dec : ∀ (v126 : BitVec 32), Decidable (k7_chk14 v126) := fun v126 => decidable_of_iff' _ (Iff.of_eq (k7_chk14.eq_1 v126))
theorem k7_off30_inb : ∀ (v126 : BitVec 32) (k7_hw14 : k7_chk14 v126), ∀ a, (k7_off30 v126) a + S1x64.size a ≤ S1000x64.size a := fun v126 k7_hw14 => k7_hw14

def k7_off31 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k7_t1
  let c16_i32_52 : BitVec 32 := 16#32
  let v136 : BitVec 32 := Scalar.muli arg7 c16_i32_52
  let v137 : BitVec 32 := Scalar.addi v2 v136
  let c14_i32 : BitVec 32 := 14#32
  let v138 : BitVec 32 := Scalar.addi v137 c14_i32
  let c0_i32_53 : BitVec 32 := 0#32
  ![v138.toNat, 0]
def k7_off32 (v135 : BitVec 32) : Fin 2 → Nat :=
  let c0_i32_54 : BitVec 32 := 0#32
  ![v135.toNat, 0]

def k7_chk15 (v135 : BitVec 32) : Prop :=
  (∀ a, (k7_off32 v135) a + S1x64.size a ≤ S1000x64.size a)
instance k7_chk15.dec : ∀ (v135 : BitVec 32), Decidable (k7_chk15 v135) := fun v135 => decidable_of_iff' _ (Iff.of_eq (k7_chk15.eq_1 v135))
theorem k7_off32_inb : ∀ (v135 : BitVec 32) (k7_hw15 : k7_chk15 v135), ∀ a, (k7_off32 v135) a + S1x64.size a ≤ S1000x64.size a := fun v135 k7_hw15 => k7_hw15

def k7_off33 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg7 : BitVec 32 := Scf.iv c0_i32_0 c1_i32 k7_t1
  let c16_i32_55 : BitVec 32 := 16#32
  let v145 : BitVec 32 := Scalar.muli arg7 c16_i32_55
  let v146 : BitVec 32 := Scalar.addi v2 v145
  let c15_i32 : BitVec 32 := 15#32
  let v147 : BitVec 32 := Scalar.addi v146 c15_i32
  let c0_i32_56 : BitVec 32 := 0#32
  ![v147.toNat, 0]
def k7_off34 (v144 : BitVec 32) : Fin 2 → Nat :=
  let c0_i32_57 : BitVec 32 := 0#32
  ![v144.toNat, 0]

def k7_chk16 (v144 : BitVec 32) : Prop :=
  (∀ a, (k7_off34 v144) a + S1x64.size a ≤ S1000x64.size a)
instance k7_chk16.dec : ∀ (v144 : BitVec 32), Decidable (k7_chk16 v144) := fun v144 => decidable_of_iff' _ (Iff.of_eq (k7_chk16.eq_1 v144))
theorem k7_off34_inb : ∀ (v144 : BitVec 32) (k7_hw16 : k7_chk16 v144), ∀ a, (k7_off34 v144) a + S1x64.size a ≤ S1000x64.size a := fun v144 k7_hw16 => k7_hw16

@[reducible] def k7_t2_loop : Scf.Loop 32 :=
  let c0_i32_3 : BitVec 32 := 0#32
  let c512_i32_4 : BitVec 32 := 512#32
  let v4 : BitVec 32 := Scalar.addi c0_i32_3 c512_i32_4
  let c1_i32_5 : BitVec 32 := 1#32
  ⟨c0_i32_3, v4, c1_i32_5⟩
abbrev scKind : Fin 8 → Kind := fun | 0 => .scVector | 1 => .scVector | 2 => .scVector | 3 => .scVector | 4 => .scVector | 5 => .scVector | 6 => .scVector | 7 => .scVector | ⟨_ + 8, h⟩ => absurd h (Nat.not_lt.2 (Nat.le_add_left _ _))
abbrev scNCore : Fin 8 → Nat := fun | 0 => 2 | 1 => 2 | 2 => 2 | 3 => 2 | 4 => 2 | 5 => 2 | 6 => 2 | 7 => 2 | ⟨_ + 8, h⟩ => absurd h (Nat.not_lt.2 (Nat.le_add_left _ _))
abbrev scNSub : Fin 8 → Nat := fun | 0 => 16 | 1 => 16 | 2 => 16 | 3 => 16 | 4 => 16 | 5 => 16 | 6 => 16 | 7 => 16 | ⟨_ + 8, h⟩ => absurd h (Nat.not_lt.2 (Nat.le_add_left _ _))

class Facts₀ : Prop where
  h_S16 : 0 < S16.numel
  slices_S16_o0_S1 : S16.Slices ![0] S1
  inpos_S1_p0 : ∀ a, (![0] : Fin 1 → Nat) a < S1.size a
  squeezes_S1x64_S64 : S1x64.Squeezes S64
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S16384x64_S1x64_0_0 : ∀ a, (![0, 0] : Fin 2 → Nat) a + S1x64.size a ≤ S16384x64.size a
  inb_S100000x64_S1x64_0_0 : ∀ a, (![0, 0] : Fin 2 → Nat) a + S1x64.size a ≤ S100000x64.size a
  inb_S1000000x64_S1x64_0_0 : ∀ a, (![0, 0] : Fin 2 → Nat) a + S1x64.size a ≤ S1000000x64.size a
  inb_S10000x64_S1x64_0_0 : ∀ a, (![0, 0] : Fin 2 → Nat) a + S1x64.size a ≤ S10000x64.size a
  inb_S20000x64_S1x64_0_0 : ∀ a, (![0, 0] : Fin 2 → Nat) a + S1x64.size a ≤ S20000x64.size a
  inb_S5000x64_S1x64_0_0 : ∀ a, (![0, 0] : Fin 2 → Nat) a + S1x64.size a ≤ S5000x64.size a
  inb_S1000x64_S1x64_0_0 : ∀ a, (![0, 0] : Fin 2 → Nat) a + S1x64.size a ≤ S1000x64.size a
  hcc0_scratch1 : 0 + S_.numel ≤ 16
  hcc0_scoped0 : 1 + S_.numel ≤ 16
  hcc1_scratch1 : 2 + S_.numel ≤ 16
  hcc1_scoped0 : 3 + S_.numel ≤ 16
  hcc2_scratch1 : 4 + S_.numel ≤ 16
  hcc2_scoped0 : 5 + S_.numel ≤ 16
  hcc3_scratch1 : 6 + S_.numel ≤ 16
  hcc3_scoped0 : 7 + S_.numel ≤ 16
  hcc4_scratch1 : 8 + S_.numel ≤ 16
  hcc4_scoped0 : 9 + S_.numel ≤ 16
  hcc5_scratch1 : 10 + S_.numel ≤ 16
  hcc5_scoped0 : 11 + S_.numel ≤ 16
  hcc6_scratch1 : 12 + S_.numel ≤ 16
  hcc6_scoped0 : 13 + S_.numel ≤ 16
  hcc7_scratch1 : 14 + S_.numel ≤ 16
  hcc7_scoped0 : 15 + S_.numel ≤ 16
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off2_inb : ∀ k0_t1 : Fin k0_t1_loop.trips, ∀ a, (k0_off2 k0_t1) a + S16.size a ≤ S512.size a
  k0_off3_inb : ∀ (i : grid0.Coords) (k0_t1 : Fin k0_t1_loop.trips), ∀ a, (k0_off3 i k0_t1) a + S1x64.size a ≤ S16384x64.size a
  k0_off5_inb : ∀ (i : grid0.Coords) (k0_t1 : Fin k0_t1_loop.trips), ∀ a, (k0_off5 i k0_t1) a + S1x64.size a ≤ S16384x64.size a
  k0_off7_inb : ∀ (i : grid0.Coords) (k0_t1 : Fin k0_t1_loop.trips), ∀ a, (k0_off7 i k0_t1) a + S1x64.size a ≤ S16384x64.size a
  k0_off9_inb : ∀ (i : grid0.Coords) (k0_t1 : Fin k0_t1_loop.trips), ∀ a, (k0_off9 i k0_t1) a + S1x64.size a ≤ S16384x64.size a
  k0_off11_inb : ∀ (i : grid0.Coords) (k0_t1 : Fin k0_t1_loop.trips), ∀ a, (k0_off11 i k0_t1) a + S1x64.size a ≤ S16384x64.size a
  k0_off13_inb : ∀ (i : grid0.Coords) (k0_t1 : Fin k0_t1_loop.trips), ∀ a, (k0_off13 i k0_t1) a + S1x64.size a ≤ S16384x64.size a
  k0_off15_inb : ∀ (i : grid0.Coords) (k0_t1 : Fin k0_t1_loop.trips), ∀ a, (k0_off15 i k0_t1) a + S1x64.size a ≤ S16384x64.size a
  k0_off17_inb : ∀ (i : grid0.Coords) (k0_t1 : Fin k0_t1_loop.trips), ∀ a, (k0_off17 i k0_t1) a + S1x64.size a ≤ S16384x64.size a
  k0_off19_inb : ∀ (i : grid0.Coords) (k0_t1 : Fin k0_t1_loop.trips), ∀ a, (k0_off19 i k0_t1) a + S1x64.size a ≤ S16384x64.size a
  k0_off21_inb : ∀ (i : grid0.Coords) (k0_t1 : Fin k0_t1_loop.trips), ∀ a, (k0_off21 i k0_t1) a + S1x64.size a ≤ S16384x64.size a
  k0_off23_inb : ∀ (i : grid0.Coords) (k0_t1 : Fin k0_t1_loop.trips), ∀ a, (k0_off23 i k0_t1) a + S1x64.size a ≤ S16384x64.size a
  k0_off25_inb : ∀ (i : grid0.Coords) (k0_t1 : Fin k0_t1_loop.trips), ∀ a, (k0_off25 i k0_t1) a + S1x64.size a ≤ S16384x64.size a
  k0_off27_inb : ∀ (i : grid0.Coords) (k0_t1 : Fin k0_t1_loop.trips), ∀ a, (k0_off27 i k0_t1) a + S1x64.size a ≤ S16384x64.size a
  k0_off29_inb : ∀ (i : grid0.Coords) (k0_t1 : Fin k0_t1_loop.trips), ∀ a, (k0_off29 i k0_t1) a + S1x64.size a ≤ S16384x64.size a
  k0_off31_inb : ∀ (i : grid0.Coords) (k0_t1 : Fin k0_t1_loop.trips), ∀ a, (k0_off31 i k0_t1) a + S1x64.size a ≤ S16384x64.size a
  k0_off33_inb : ∀ (i : grid0.Coords) (k0_t1 : Fin k0_t1_loop.trips), ∀ a, (k0_off33 i k0_t1) a + S1x64.size a ≤ S16384x64.size a
  k0_t2_ok : k0_t2_loop.OK
  hcore1 : grid1.bound 0 ≤ τ.nSC
  hsub1 : grid1.bound 1 ≤ τ.nSub
  k1_off1_inb : ∀ i : grid1.Coords, ∀ a, (k1_off1 i) a + S512.size a ≤ S16384.size a
  k1_t1_ok : k1_t1_loop.OK
  k1_off2_inb : ∀ k1_t1 : Fin k1_t1_loop.trips, ∀ a, (k1_off2 k1_t1) a + S16.size a ≤ S512.size a
  k1_off3_inb : ∀ (i : grid1.Coords) (k1_t1 : Fin k1_t1_loop.trips), ∀ a, (k1_off3 i k1_t1) a + S1x64.size a ≤ S16384x64.size a
  k1_off5_inb : ∀ (i : grid1.Coords) (k1_t1 : Fin k1_t1_loop.trips), ∀ a, (k1_off5 i k1_t1) a + S1x64.size a ≤ S16384x64.size a
  k1_off7_inb : ∀ (i : grid1.Coords) (k1_t1 : Fin k1_t1_loop.trips), ∀ a, (k1_off7 i k1_t1) a + S1x64.size a ≤ S16384x64.size a
  k1_off9_inb : ∀ (i : grid1.Coords) (k1_t1 : Fin k1_t1_loop.trips), ∀ a, (k1_off9 i k1_t1) a + S1x64.size a ≤ S16384x64.size a
  k1_off11_inb : ∀ (i : grid1.Coords) (k1_t1 : Fin k1_t1_loop.trips), ∀ a, (k1_off11 i k1_t1) a + S1x64.size a ≤ S16384x64.size a
  k1_off13_inb : ∀ (i : grid1.Coords) (k1_t1 : Fin k1_t1_loop.trips), ∀ a, (k1_off13 i k1_t1) a + S1x64.size a ≤ S16384x64.size a
  k1_off15_inb : ∀ (i : grid1.Coords) (k1_t1 : Fin k1_t1_loop.trips), ∀ a, (k1_off15 i k1_t1) a + S1x64.size a ≤ S16384x64.size a
  k1_off17_inb : ∀ (i : grid1.Coords) (k1_t1 : Fin k1_t1_loop.trips), ∀ a, (k1_off17 i k1_t1) a + S1x64.size a ≤ S16384x64.size a
  k1_off19_inb : ∀ (i : grid1.Coords) (k1_t1 : Fin k1_t1_loop.trips), ∀ a, (k1_off19 i k1_t1) a + S1x64.size a ≤ S16384x64.size a
  k1_off21_inb : ∀ (i : grid1.Coords) (k1_t1 : Fin k1_t1_loop.trips), ∀ a, (k1_off21 i k1_t1) a + S1x64.size a ≤ S16384x64.size a
  k1_off23_inb : ∀ (i : grid1.Coords) (k1_t1 : Fin k1_t1_loop.trips), ∀ a, (k1_off23 i k1_t1) a + S1x64.size a ≤ S16384x64.size a
  k1_off25_inb : ∀ (i : grid1.Coords) (k1_t1 : Fin k1_t1_loop.trips), ∀ a, (k1_off25 i k1_t1) a + S1x64.size a ≤ S16384x64.size a
  k1_off27_inb : ∀ (i : grid1.Coords) (k1_t1 : Fin k1_t1_loop.trips), ∀ a, (k1_off27 i k1_t1) a + S1x64.size a ≤ S16384x64.size a
  k1_off29_inb : ∀ (i : grid1.Coords) (k1_t1 : Fin k1_t1_loop.trips), ∀ a, (k1_off29 i k1_t1) a + S1x64.size a ≤ S16384x64.size a
  k1_off31_inb : ∀ (i : grid1.Coords) (k1_t1 : Fin k1_t1_loop.trips), ∀ a, (k1_off31 i k1_t1) a + S1x64.size a ≤ S16384x64.size a
  k1_off33_inb : ∀ (i : grid1.Coords) (k1_t1 : Fin k1_t1_loop.trips), ∀ a, (k1_off33 i k1_t1) a + S1x64.size a ≤ S16384x64.size a
  k1_t2_ok : k1_t2_loop.OK
  hcore2 : grid2.bound 0 ≤ τ.nSC
  hsub2 : grid2.bound 1 ≤ τ.nSub
  k2_off1_inb : ∀ i : grid2.Coords, ∀ a, (k2_off1 i) a + S512.size a ≤ S16384.size a
  k2_t1_ok : k2_t1_loop.OK
  k2_off2_inb : ∀ k2_t1 : Fin k2_t1_loop.trips, ∀ a, (k2_off2 k2_t1) a + S16.size a ≤ S512.size a
  k2_off3_inb : ∀ (i : grid2.Coords) (k2_t1 : Fin k2_t1_loop.trips), ∀ a, (k2_off3 i k2_t1) a + S1x64.size a ≤ S16384x64.size a
  k2_off5_inb : ∀ (i : grid2.Coords) (k2_t1 : Fin k2_t1_loop.trips), ∀ a, (k2_off5 i k2_t1) a + S1x64.size a ≤ S16384x64.size a
  k2_off7_inb : ∀ (i : grid2.Coords) (k2_t1 : Fin k2_t1_loop.trips), ∀ a, (k2_off7 i k2_t1) a + S1x64.size a ≤ S16384x64.size a
  k2_off9_inb : ∀ (i : grid2.Coords) (k2_t1 : Fin k2_t1_loop.trips), ∀ a, (k2_off9 i k2_t1) a + S1x64.size a ≤ S16384x64.size a
  k2_off11_inb : ∀ (i : grid2.Coords) (k2_t1 : Fin k2_t1_loop.trips), ∀ a, (k2_off11 i k2_t1) a + S1x64.size a ≤ S16384x64.size a
  k2_off13_inb : ∀ (i : grid2.Coords) (k2_t1 : Fin k2_t1_loop.trips), ∀ a, (k2_off13 i k2_t1) a + S1x64.size a ≤ S16384x64.size a
  k2_off15_inb : ∀ (i : grid2.Coords) (k2_t1 : Fin k2_t1_loop.trips), ∀ a, (k2_off15 i k2_t1) a + S1x64.size a ≤ S16384x64.size a
  k2_off17_inb : ∀ (i : grid2.Coords) (k2_t1 : Fin k2_t1_loop.trips), ∀ a, (k2_off17 i k2_t1) a + S1x64.size a ≤ S16384x64.size a
  k2_off19_inb : ∀ (i : grid2.Coords) (k2_t1 : Fin k2_t1_loop.trips), ∀ a, (k2_off19 i k2_t1) a + S1x64.size a ≤ S16384x64.size a
  k2_off21_inb : ∀ (i : grid2.Coords) (k2_t1 : Fin k2_t1_loop.trips), ∀ a, (k2_off21 i k2_t1) a + S1x64.size a ≤ S16384x64.size a
  k2_off23_inb : ∀ (i : grid2.Coords) (k2_t1 : Fin k2_t1_loop.trips), ∀ a, (k2_off23 i k2_t1) a + S1x64.size a ≤ S16384x64.size a
  k2_off25_inb : ∀ (i : grid2.Coords) (k2_t1 : Fin k2_t1_loop.trips), ∀ a, (k2_off25 i k2_t1) a + S1x64.size a ≤ S16384x64.size a
  k2_off27_inb : ∀ (i : grid2.Coords) (k2_t1 : Fin k2_t1_loop.trips), ∀ a, (k2_off27 i k2_t1) a + S1x64.size a ≤ S16384x64.size a
  k2_off29_inb : ∀ (i : grid2.Coords) (k2_t1 : Fin k2_t1_loop.trips), ∀ a, (k2_off29 i k2_t1) a + S1x64.size a ≤ S16384x64.size a
  k2_off31_inb : ∀ (i : grid2.Coords) (k2_t1 : Fin k2_t1_loop.trips), ∀ a, (k2_off31 i k2_t1) a + S1x64.size a ≤ S16384x64.size a
  k2_off33_inb : ∀ (i : grid2.Coords) (k2_t1 : Fin k2_t1_loop.trips), ∀ a, (k2_off33 i k2_t1) a + S1x64.size a ≤ S16384x64.size a
  k2_t2_ok : k2_t2_loop.OK
  hcore3 : grid3.bound 0 ≤ τ.nSC
  hsub3 : grid3.bound 1 ≤ τ.nSub
  k3_off1_inb : ∀ i : grid3.Coords, ∀ a, (k3_off1 i) a + S512.size a ≤ S16384.size a
  k3_t1_ok : k3_t1_loop.OK
  k3_off2_inb : ∀ k3_t1 : Fin k3_t1_loop.trips, ∀ a, (k3_off2 k3_t1) a + S16.size a ≤ S512.size a
  k3_off3_inb : ∀ (i : grid3.Coords) (k3_t1 : Fin k3_t1_loop.trips), ∀ a, (k3_off3 i k3_t1) a + S1x64.size a ≤ S16384x64.size a
  k3_off5_inb : ∀ (i : grid3.Coords) (k3_t1 : Fin k3_t1_loop.trips), ∀ a, (k3_off5 i k3_t1) a + S1x64.size a ≤ S16384x64.size a
  k3_off7_inb : ∀ (i : grid3.Coords) (k3_t1 : Fin k3_t1_loop.trips), ∀ a, (k3_off7 i k3_t1) a + S1x64.size a ≤ S16384x64.size a
  k3_off9_inb : ∀ (i : grid3.Coords) (k3_t1 : Fin k3_t1_loop.trips), ∀ a, (k3_off9 i k3_t1) a + S1x64.size a ≤ S16384x64.size a
  k3_off11_inb : ∀ (i : grid3.Coords) (k3_t1 : Fin k3_t1_loop.trips), ∀ a, (k3_off11 i k3_t1) a + S1x64.size a ≤ S16384x64.size a
  k3_off13_inb : ∀ (i : grid3.Coords) (k3_t1 : Fin k3_t1_loop.trips), ∀ a, (k3_off13 i k3_t1) a + S1x64.size a ≤ S16384x64.size a
  k3_off15_inb : ∀ (i : grid3.Coords) (k3_t1 : Fin k3_t1_loop.trips), ∀ a, (k3_off15 i k3_t1) a + S1x64.size a ≤ S16384x64.size a
  k3_off17_inb : ∀ (i : grid3.Coords) (k3_t1 : Fin k3_t1_loop.trips), ∀ a, (k3_off17 i k3_t1) a + S1x64.size a ≤ S16384x64.size a
  k3_off19_inb : ∀ (i : grid3.Coords) (k3_t1 : Fin k3_t1_loop.trips), ∀ a, (k3_off19 i k3_t1) a + S1x64.size a ≤ S16384x64.size a
  k3_off21_inb : ∀ (i : grid3.Coords) (k3_t1 : Fin k3_t1_loop.trips), ∀ a, (k3_off21 i k3_t1) a + S1x64.size a ≤ S16384x64.size a
  k3_off23_inb : ∀ (i : grid3.Coords) (k3_t1 : Fin k3_t1_loop.trips), ∀ a, (k3_off23 i k3_t1) a + S1x64.size a ≤ S16384x64.size a
  k3_off25_inb : ∀ (i : grid3.Coords) (k3_t1 : Fin k3_t1_loop.trips), ∀ a, (k3_off25 i k3_t1) a + S1x64.size a ≤ S16384x64.size a
  k3_off27_inb : ∀ (i : grid3.Coords) (k3_t1 : Fin k3_t1_loop.trips), ∀ a, (k3_off27 i k3_t1) a + S1x64.size a ≤ S16384x64.size a
  k3_off29_inb : ∀ (i : grid3.Coords) (k3_t1 : Fin k3_t1_loop.trips), ∀ a, (k3_off29 i k3_t1) a + S1x64.size a ≤ S16384x64.size a
  k3_off31_inb : ∀ (i : grid3.Coords) (k3_t1 : Fin k3_t1_loop.trips), ∀ a, (k3_off31 i k3_t1) a + S1x64.size a ≤ S16384x64.size a
  k3_off33_inb : ∀ (i : grid3.Coords) (k3_t1 : Fin k3_t1_loop.trips), ∀ a, (k3_off33 i k3_t1) a + S1x64.size a ≤ S16384x64.size a
  k3_t2_ok : k3_t2_loop.OK
  hcore4 : grid4.bound 0 ≤ τ.nSC
  hsub4 : grid4.bound 1 ≤ τ.nSub
  k4_off1_inb : ∀ i : grid4.Coords, ∀ a, (k4_off1 i) a + S512.size a ≤ S16384.size a
  k4_t1_ok : k4_t1_loop.OK
  k4_off2_inb : ∀ k4_t1 : Fin k4_t1_loop.trips, ∀ a, (k4_off2 k4_t1) a + S16.size a ≤ S512.size a
  k4_off3_inb : ∀ (i : grid4.Coords) (k4_t1 : Fin k4_t1_loop.trips), ∀ a, (k4_off3 i k4_t1) a + S1x64.size a ≤ S16384x64.size a
  k4_off5_inb : ∀ (i : grid4.Coords) (k4_t1 : Fin k4_t1_loop.trips), ∀ a, (k4_off5 i k4_t1) a + S1x64.size a ≤ S16384x64.size a
  k4_off7_inb : ∀ (i : grid4.Coords) (k4_t1 : Fin k4_t1_loop.trips), ∀ a, (k4_off7 i k4_t1) a + S1x64.size a ≤ S16384x64.size a
  k4_off9_inb : ∀ (i : grid4.Coords) (k4_t1 : Fin k4_t1_loop.trips), ∀ a, (k4_off9 i k4_t1) a + S1x64.size a ≤ S16384x64.size a
  k4_off11_inb : ∀ (i : grid4.Coords) (k4_t1 : Fin k4_t1_loop.trips), ∀ a, (k4_off11 i k4_t1) a + S1x64.size a ≤ S16384x64.size a
  k4_off13_inb : ∀ (i : grid4.Coords) (k4_t1 : Fin k4_t1_loop.trips), ∀ a, (k4_off13 i k4_t1) a + S1x64.size a ≤ S16384x64.size a
  k4_off15_inb : ∀ (i : grid4.Coords) (k4_t1 : Fin k4_t1_loop.trips), ∀ a, (k4_off15 i k4_t1) a + S1x64.size a ≤ S16384x64.size a
  k4_off17_inb : ∀ (i : grid4.Coords) (k4_t1 : Fin k4_t1_loop.trips), ∀ a, (k4_off17 i k4_t1) a + S1x64.size a ≤ S16384x64.size a
  k4_off19_inb : ∀ (i : grid4.Coords) (k4_t1 : Fin k4_t1_loop.trips), ∀ a, (k4_off19 i k4_t1) a + S1x64.size a ≤ S16384x64.size a
  k4_off21_inb : ∀ (i : grid4.Coords) (k4_t1 : Fin k4_t1_loop.trips), ∀ a, (k4_off21 i k4_t1) a + S1x64.size a ≤ S16384x64.size a
  k4_off23_inb : ∀ (i : grid4.Coords) (k4_t1 : Fin k4_t1_loop.trips), ∀ a, (k4_off23 i k4_t1) a + S1x64.size a ≤ S16384x64.size a
  k4_off25_inb : ∀ (i : grid4.Coords) (k4_t1 : Fin k4_t1_loop.trips), ∀ a, (k4_off25 i k4_t1) a + S1x64.size a ≤ S16384x64.size a
  k4_off27_inb : ∀ (i : grid4.Coords) (k4_t1 : Fin k4_t1_loop.trips), ∀ a, (k4_off27 i k4_t1) a + S1x64.size a ≤ S16384x64.size a
  k4_off29_inb : ∀ (i : grid4.Coords) (k4_t1 : Fin k4_t1_loop.trips), ∀ a, (k4_off29 i k4_t1) a + S1x64.size a ≤ S16384x64.size a
  k4_off31_inb : ∀ (i : grid4.Coords) (k4_t1 : Fin k4_t1_loop.trips), ∀ a, (k4_off31 i k4_t1) a + S1x64.size a ≤ S16384x64.size a
  k4_off33_inb : ∀ (i : grid4.Coords) (k4_t1 : Fin k4_t1_loop.trips), ∀ a, (k4_off33 i k4_t1) a + S1x64.size a ≤ S16384x64.size a
  k4_t2_ok : k4_t2_loop.OK
  hcore5 : grid5.bound 0 ≤ τ.nSC
  hsub5 : grid5.bound 1 ≤ τ.nSub
  k5_off1_inb : ∀ i : grid5.Coords, ∀ a, (k5_off1 i) a + S512.size a ≤ S16384.size a
  k5_t1_ok : k5_t1_loop.OK
  k5_off2_inb : ∀ k5_t1 : Fin k5_t1_loop.trips, ∀ a, (k5_off2 k5_t1) a + S16.size a ≤ S512.size a
  k5_off3_inb : ∀ (i : grid5.Coords) (k5_t1 : Fin k5_t1_loop.trips), ∀ a, (k5_off3 i k5_t1) a + S1x64.size a ≤ S16384x64.size a
  k5_off5_inb : ∀ (i : grid5.Coords) (k5_t1 : Fin k5_t1_loop.trips), ∀ a, (k5_off5 i k5_t1) a + S1x64.size a ≤ S16384x64.size a
  k5_off7_inb : ∀ (i : grid5.Coords) (k5_t1 : Fin k5_t1_loop.trips), ∀ a, (k5_off7 i k5_t1) a + S1x64.size a ≤ S16384x64.size a
  k5_off9_inb : ∀ (i : grid5.Coords) (k5_t1 : Fin k5_t1_loop.trips), ∀ a, (k5_off9 i k5_t1) a + S1x64.size a ≤ S16384x64.size a
  k5_off11_inb : ∀ (i : grid5.Coords) (k5_t1 : Fin k5_t1_loop.trips), ∀ a, (k5_off11 i k5_t1) a + S1x64.size a ≤ S16384x64.size a
  k5_off13_inb : ∀ (i : grid5.Coords) (k5_t1 : Fin k5_t1_loop.trips), ∀ a, (k5_off13 i k5_t1) a + S1x64.size a ≤ S16384x64.size a
  k5_off15_inb : ∀ (i : grid5.Coords) (k5_t1 : Fin k5_t1_loop.trips), ∀ a, (k5_off15 i k5_t1) a + S1x64.size a ≤ S16384x64.size a
  k5_off17_inb : ∀ (i : grid5.Coords) (k5_t1 : Fin k5_t1_loop.trips), ∀ a, (k5_off17 i k5_t1) a + S1x64.size a ≤ S16384x64.size a
  k5_off19_inb : ∀ (i : grid5.Coords) (k5_t1 : Fin k5_t1_loop.trips), ∀ a, (k5_off19 i k5_t1) a + S1x64.size a ≤ S16384x64.size a
  k5_off21_inb : ∀ (i : grid5.Coords) (k5_t1 : Fin k5_t1_loop.trips), ∀ a, (k5_off21 i k5_t1) a + S1x64.size a ≤ S16384x64.size a
  k5_off23_inb : ∀ (i : grid5.Coords) (k5_t1 : Fin k5_t1_loop.trips), ∀ a, (k5_off23 i k5_t1) a + S1x64.size a ≤ S16384x64.size a
  k5_off25_inb : ∀ (i : grid5.Coords) (k5_t1 : Fin k5_t1_loop.trips), ∀ a, (k5_off25 i k5_t1) a + S1x64.size a ≤ S16384x64.size a
  k5_off27_inb : ∀ (i : grid5.Coords) (k5_t1 : Fin k5_t1_loop.trips), ∀ a, (k5_off27 i k5_t1) a + S1x64.size a ≤ S16384x64.size a
  k5_off29_inb : ∀ (i : grid5.Coords) (k5_t1 : Fin k5_t1_loop.trips), ∀ a, (k5_off29 i k5_t1) a + S1x64.size a ≤ S16384x64.size a
  k5_off31_inb : ∀ (i : grid5.Coords) (k5_t1 : Fin k5_t1_loop.trips), ∀ a, (k5_off31 i k5_t1) a + S1x64.size a ≤ S16384x64.size a
  k5_off33_inb : ∀ (i : grid5.Coords) (k5_t1 : Fin k5_t1_loop.trips), ∀ a, (k5_off33 i k5_t1) a + S1x64.size a ≤ S16384x64.size a
  k5_t2_ok : k5_t2_loop.OK
  hcore6 : grid6.bound 0 ≤ τ.nSC
  hsub6 : grid6.bound 1 ≤ τ.nSub
  k6_off1_inb : ∀ i : grid6.Coords, ∀ a, (k6_off1 i) a + S512.size a ≤ S16384.size a
  k6_t1_ok : k6_t1_loop.OK
  k6_off2_inb : ∀ k6_t1 : Fin k6_t1_loop.trips, ∀ a, (k6_off2 k6_t1) a + S16.size a ≤ S512.size a
  k6_off3_inb : ∀ (i : grid6.Coords) (k6_t1 : Fin k6_t1_loop.trips), ∀ a, (k6_off3 i k6_t1) a + S1x64.size a ≤ S16384x64.size a
  k6_off5_inb : ∀ (i : grid6.Coords) (k6_t1 : Fin k6_t1_loop.trips), ∀ a, (k6_off5 i k6_t1) a + S1x64.size a ≤ S16384x64.size a
  k6_off7_inb : ∀ (i : grid6.Coords) (k6_t1 : Fin k6_t1_loop.trips), ∀ a, (k6_off7 i k6_t1) a + S1x64.size a ≤ S16384x64.size a
  k6_off9_inb : ∀ (i : grid6.Coords) (k6_t1 : Fin k6_t1_loop.trips), ∀ a, (k6_off9 i k6_t1) a + S1x64.size a ≤ S16384x64.size a
  k6_off11_inb : ∀ (i : grid6.Coords) (k6_t1 : Fin k6_t1_loop.trips), ∀ a, (k6_off11 i k6_t1) a + S1x64.size a ≤ S16384x64.size a
  k6_off13_inb : ∀ (i : grid6.Coords) (k6_t1 : Fin k6_t1_loop.trips), ∀ a, (k6_off13 i k6_t1) a + S1x64.size a ≤ S16384x64.size a
  k6_off15_inb : ∀ (i : grid6.Coords) (k6_t1 : Fin k6_t1_loop.trips), ∀ a, (k6_off15 i k6_t1) a + S1x64.size a ≤ S16384x64.size a
  k6_off17_inb : ∀ (i : grid6.Coords) (k6_t1 : Fin k6_t1_loop.trips), ∀ a, (k6_off17 i k6_t1) a + S1x64.size a ≤ S16384x64.size a
  k6_off19_inb : ∀ (i : grid6.Coords) (k6_t1 : Fin k6_t1_loop.trips), ∀ a, (k6_off19 i k6_t1) a + S1x64.size a ≤ S16384x64.size a
  k6_off21_inb : ∀ (i : grid6.Coords) (k6_t1 : Fin k6_t1_loop.trips), ∀ a, (k6_off21 i k6_t1) a + S1x64.size a ≤ S16384x64.size a
  k6_off23_inb : ∀ (i : grid6.Coords) (k6_t1 : Fin k6_t1_loop.trips), ∀ a, (k6_off23 i k6_t1) a + S1x64.size a ≤ S16384x64.size a
  k6_off25_inb : ∀ (i : grid6.Coords) (k6_t1 : Fin k6_t1_loop.trips), ∀ a, (k6_off25 i k6_t1) a + S1x64.size a ≤ S16384x64.size a
  k6_off27_inb : ∀ (i : grid6.Coords) (k6_t1 : Fin k6_t1_loop.trips), ∀ a, (k6_off27 i k6_t1) a + S1x64.size a ≤ S16384x64.size a
  k6_off29_inb : ∀ (i : grid6.Coords) (k6_t1 : Fin k6_t1_loop.trips), ∀ a, (k6_off29 i k6_t1) a + S1x64.size a ≤ S16384x64.size a
  k6_off31_inb : ∀ (i : grid6.Coords) (k6_t1 : Fin k6_t1_loop.trips), ∀ a, (k6_off31 i k6_t1) a + S1x64.size a ≤ S16384x64.size a
  k6_off33_inb : ∀ (i : grid6.Coords) (k6_t1 : Fin k6_t1_loop.trips), ∀ a, (k6_off33 i k6_t1) a + S1x64.size a ≤ S16384x64.size a
  k6_t2_ok : k6_t2_loop.OK
  hcore7 : grid7.bound 0 ≤ τ.nSC
  hsub7 : grid7.bound 1 ≤ τ.nSub
  k7_off1_inb : ∀ i : grid7.Coords, ∀ a, (k7_off1 i) a + S512.size a ≤ S16384.size a
  k7_t1_ok : k7_t1_loop.OK
  k7_off2_inb : ∀ k7_t1 : Fin k7_t1_loop.trips, ∀ a, (k7_off2 k7_t1) a + S16.size a ≤ S512.size a
  k7_off3_inb : ∀ (i : grid7.Coords) (k7_t1 : Fin k7_t1_loop.trips), ∀ a, (k7_off3 i k7_t1) a + S1x64.size a ≤ S16384x64.size a
  k7_off5_inb : ∀ (i : grid7.Coords) (k7_t1 : Fin k7_t1_loop.trips), ∀ a, (k7_off5 i k7_t1) a + S1x64.size a ≤ S16384x64.size a
  k7_off7_inb : ∀ (i : grid7.Coords) (k7_t1 : Fin k7_t1_loop.trips), ∀ a, (k7_off7 i k7_t1) a + S1x64.size a ≤ S16384x64.size a
  k7_off9_inb : ∀ (i : grid7.Coords) (k7_t1 : Fin k7_t1_loop.trips), ∀ a, (k7_off9 i k7_t1) a + S1x64.size a ≤ S16384x64.size a
  k7_off11_inb : ∀ (i : grid7.Coords) (k7_t1 : Fin k7_t1_loop.trips), ∀ a, (k7_off11 i k7_t1) a + S1x64.size a ≤ S16384x64.size a
  k7_off13_inb : ∀ (i : grid7.Coords) (k7_t1 : Fin k7_t1_loop.trips), ∀ a, (k7_off13 i k7_t1) a + S1x64.size a ≤ S16384x64.size a
  k7_off15_inb : ∀ (i : grid7.Coords) (k7_t1 : Fin k7_t1_loop.trips), ∀ a, (k7_off15 i k7_t1) a + S1x64.size a ≤ S16384x64.size a
  k7_off17_inb : ∀ (i : grid7.Coords) (k7_t1 : Fin k7_t1_loop.trips), ∀ a, (k7_off17 i k7_t1) a + S1x64.size a ≤ S16384x64.size a
  k7_off19_inb : ∀ (i : grid7.Coords) (k7_t1 : Fin k7_t1_loop.trips), ∀ a, (k7_off19 i k7_t1) a + S1x64.size a ≤ S16384x64.size a
  k7_off21_inb : ∀ (i : grid7.Coords) (k7_t1 : Fin k7_t1_loop.trips), ∀ a, (k7_off21 i k7_t1) a + S1x64.size a ≤ S16384x64.size a
  k7_off23_inb : ∀ (i : grid7.Coords) (k7_t1 : Fin k7_t1_loop.trips), ∀ a, (k7_off23 i k7_t1) a + S1x64.size a ≤ S16384x64.size a
  k7_off25_inb : ∀ (i : grid7.Coords) (k7_t1 : Fin k7_t1_loop.trips), ∀ a, (k7_off25 i k7_t1) a + S1x64.size a ≤ S16384x64.size a
  k7_off27_inb : ∀ (i : grid7.Coords) (k7_t1 : Fin k7_t1_loop.trips), ∀ a, (k7_off27 i k7_t1) a + S1x64.size a ≤ S16384x64.size a
  k7_off29_inb : ∀ (i : grid7.Coords) (k7_t1 : Fin k7_t1_loop.trips), ∀ a, (k7_off29 i k7_t1) a + S1x64.size a ≤ S16384x64.size a
  k7_off31_inb : ∀ (i : grid7.Coords) (k7_t1 : Fin k7_t1_loop.trips), ∀ a, (k7_off31 i k7_t1) a + S1x64.size a ≤ S16384x64.size a
  k7_off33_inb : ∀ (i : grid7.Coords) (k7_t1 : Fin k7_t1_loop.trips), ∀ a, (k7_off33 i k7_t1) a + S1x64.size a ≤ S16384x64.size a
  k7_t2_ok : k7_t2_loop.OK

variable [Facts₀]

abbrev cc0_scratch1 : DmaSems sig S_ := SemArray.consecutive 0 S_ hcc0_scratch1
abbrev cc0_scoped0 : DmaSems sig S_ := SemArray.consecutive 1 S_ hcc0_scoped0
abbrev cc1_scratch1 : DmaSems sig S_ := SemArray.consecutive 2 S_ hcc1_scratch1
abbrev cc1_scoped0 : DmaSems sig S_ := SemArray.consecutive 3 S_ hcc1_scoped0
abbrev cc2_scratch1 : DmaSems sig S_ := SemArray.consecutive 4 S_ hcc2_scratch1
abbrev cc2_scoped0 : DmaSems sig S_ := SemArray.consecutive 5 S_ hcc2_scoped0
abbrev cc3_scratch1 : DmaSems sig S_ := SemArray.consecutive 6 S_ hcc3_scratch1
abbrev cc3_scoped0 : DmaSems sig S_ := SemArray.consecutive 7 S_ hcc3_scoped0
abbrev cc4_scratch1 : DmaSems sig S_ := SemArray.consecutive 8 S_ hcc4_scratch1
abbrev cc4_scoped0 : DmaSems sig S_ := SemArray.consecutive 9 S_ hcc4_scoped0
abbrev cc5_scratch1 : DmaSems sig S_ := SemArray.consecutive 10 S_ hcc5_scratch1
abbrev cc5_scoped0 : DmaSems sig S_ := SemArray.consecutive 11 S_ hcc5_scoped0
abbrev cc6_scratch1 : DmaSems sig S_ := SemArray.consecutive 12 S_ hcc6_scratch1
abbrev cc6_scoped0 : DmaSems sig S_ := SemArray.consecutive 13 S_ hcc6_scoped0
abbrev cc7_scratch1 : DmaSems sig S_ := SemArray.consecutive 14 S_ hcc7_scratch1
abbrev cc7_scoped0 : DmaSems sig S_ := SemArray.consecutive 15 S_ hcc7_scoped0

class Facts : Prop extends Facts₀ where

variable [Facts]
-- ==== ReferenceIdeal.lean ====
abbrev S100000x64 : Shape := ⟨2, ![100000, 64]⟩
abbrev S1000000x64 : Shape := ⟨2, ![1000000, 64]⟩
abbrev S10000x64 : Shape := ⟨2, ![10000, 64]⟩
abbrev S20000x64 : Shape := ⟨2, ![20000, 64]⟩
abbrev S5000x64 : Shape := ⟨2, ![5000, 64]⟩
abbrev S1000x64 : Shape := ⟨2, ![1000, 64]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 200
  | .vmem => 0
  | .smem => 0
  | _ => 0

abbrev hbmTy0_0 (i : Nat) : BufTy := match i % 128 with
  | 0 => ⟨S100000x64, .f32⟩
  | 1 => ⟨S1000000x64, .f32⟩
  | 2 => ⟨S10000x64, .f32⟩
  | 3 => ⟨S20000x64, .f32⟩
  | 4 => ⟨S20000x64, .f32⟩
  | 5 => ⟨S10000x64, .f32⟩
  | 6 => ⟨S5000x64, .f32⟩
  | 7 => ⟨S1000x64, .f32⟩
  | 8 => ⟨S16384, .i32⟩
  | 9 => ⟨S16384, .i32⟩
  | 10 => ⟨S16384, .i32⟩
  | 11 => ⟨S16384, .i32⟩
  | 12 => ⟨S16384, .i32⟩
  | 13 => ⟨S16384, .i32⟩
  | 14 => ⟨S16384, .i32⟩
  | 15 => ⟨S16384, .i32⟩
  | 16 => ⟨S_, .i32⟩
  | 17 => ⟨S16384, .i32⟩
  | 18 => ⟨S16384, .i1⟩
  | 19 => ⟨S_, .i32⟩
  | 20 => ⟨S16384, .i32⟩
  | 21 => ⟨S16384, .i32⟩
  | 22 => ⟨S16384, .i32⟩
  | 23 => ⟨S16384x1, .i32⟩
  | 24 => ⟨S1, .i32⟩
  | 25 => ⟨S_, .i32⟩
  | 26 => ⟨S16384x1, .i32⟩
  | 27 => ⟨S16384x1, .i1⟩
  | 28 => ⟨S1x1, .i32⟩
  | 29 => ⟨S16384x1, .i32⟩
  | 30 => ⟨S16384x1, .i1⟩
  | 31 => ⟨S16384x1, .i1⟩
  | 32 => ⟨S_, .i1⟩
  | 33 => ⟨S16384, .i1⟩
  | 34 => ⟨S16384x64, .f32⟩
  | 35 => ⟨S16384x64, .i1⟩
  | 36 => ⟨S_, .f32⟩
  | 37 => ⟨S16384x64, .f32⟩
  | 38 => ⟨S16384x64, .f32⟩
  | 39 => ⟨S_, .i32⟩
  | 40 => ⟨S16384, .i32⟩
  | 41 => ⟨S16384, .i1⟩
  | 42 => ⟨S_, .i32⟩
  | 43 => ⟨S16384, .i32⟩
  | 44 => ⟨S16384, .i32⟩
  | 45 => ⟨S16384, .i32⟩
  | 46 => ⟨S16384x1, .i32⟩
  | 47 => ⟨S1, .i32⟩
  | 48 => ⟨S_, .i32⟩
  | 49 => ⟨S16384x1, .i32⟩
  | 50 => ⟨S16384x1, .i1⟩
  | 51 => ⟨S1x1, .i32⟩
  | 52 => ⟨S16384x1, .i32⟩
  | 53 => ⟨S16384x1, .i1⟩
  | 54 => ⟨S16384x1, .i1⟩
  | 55 => ⟨S_, .i1⟩
  | 56 => ⟨S16384, .i1⟩
  | 57 => ⟨S16384x64, .f32⟩
  | 58 => ⟨S16384x64, .i1⟩
  | 59 => ⟨S_, .f32⟩
  | 60 => ⟨S16384x64, .f32⟩
  | 61 => ⟨S16384x64, .f32⟩
  | 62 => ⟨S_, .i32⟩
  | 63 => ⟨S16384, .i32⟩
  | 64 => ⟨S16384, .i1⟩
  | 65 => ⟨S_, .i32⟩
  | 66 => ⟨S16384, .i32⟩
  | 67 => ⟨S16384, .i32⟩
  | 68 => ⟨S16384, .i32⟩
  | 69 => ⟨S16384x1, .i32⟩
  | 70 => ⟨S1, .i32⟩
  | 71 => ⟨S_, .i32⟩
  | 72 => ⟨S16384x1, .i32⟩
  | 73 => ⟨S16384x1, .i1⟩
  | 74 => ⟨S1x1, .i32⟩
  | 75 => ⟨S16384x1, .i32⟩
  | 76 => ⟨S16384x1, .i1⟩
  | 77 => ⟨S16384x1, .i1⟩
  | 78 => ⟨S_, .i1⟩
  | 79 => ⟨S16384, .i1⟩
  | 80 => ⟨S16384x64, .f32⟩
  | 81 => ⟨S16384x64, .i1⟩
  | 82 => ⟨S_, .f32⟩
  | 83 => ⟨S16384x64, .f32⟩
  | 84 => ⟨S16384x64, .f32⟩
  | 85 => ⟨S_, .i32⟩
  | 86 => ⟨S16384, .i32⟩
  | 87 => ⟨S16384, .i1⟩
  | 88 => ⟨S_, .i32⟩
  | 89 => ⟨S16384, .i32⟩
  | 90 => ⟨S16384, .i32⟩
  | 91 => ⟨S16384, .i32⟩
  | 92 => ⟨S16384x1, .i32⟩
  | 93 => ⟨S1, .i32⟩
  | 94 => ⟨S_, .i32⟩
  | 95 => ⟨S16384x1, .i32⟩
  | 96 => ⟨S16384x1, .i1⟩
  | 97 => ⟨S1x1, .i32⟩
  | 98 => ⟨S16384x1, .i32⟩
  | 99 => ⟨S16384x1, .i1⟩
  | 100 => ⟨S16384x1, .i1⟩
  | 101 => ⟨S_, .i1⟩
  | 102 => ⟨S16384, .i1⟩
  | 103 => ⟨S16384x64, .f32⟩
  | 104 => ⟨S16384x64, .i1⟩
  | 105 => ⟨S_, .f32⟩
  | 106 => ⟨S16384x64, .f32⟩
  | 107 => ⟨S16384x64, .f32⟩
  | 108 => ⟨S_, .i32⟩
  | 109 => ⟨S16384, .i32⟩
  | 110 => ⟨S16384, .i1⟩
  | 111 => ⟨S_, .i32⟩
  | 112 => ⟨S16384, .i32⟩
  | 113 => ⟨S16384, .i32⟩
  | 114 => ⟨S16384, .i32⟩
  | 115 => ⟨S16384x1, .i32⟩
  | 116 => ⟨S1, .i32⟩
  | 117 => ⟨S_, .i32⟩
  | 118 => ⟨S16384x1, .i32⟩
  | 119 => ⟨S16384x1, .i1⟩
  | 120 => ⟨S1x1, .i32⟩
  | 121 => ⟨S16384x1, .i32⟩
  | 122 => ⟨S16384x1, .i1⟩
  | 123 => ⟨S16384x1, .i1⟩
  | 124 => ⟨S_, .i1⟩
  | 125 => ⟨S16384, .i1⟩
  | 126 => ⟨S16384x64, .f32⟩
  | 127 => ⟨S16384x64, .i1⟩
  | _ => ⟨S100000x64, .f32⟩

abbrev hbmTy0_1 (i : Nat) : BufTy := match i % 128 with
  | 0 => ⟨S_, .f32⟩
  | 1 => ⟨S16384x64, .f32⟩
  | 2 => ⟨S16384x64, .f32⟩
  | 3 => ⟨S_, .i32⟩
  | 4 => ⟨S16384, .i32⟩
  | 5 => ⟨S16384, .i1⟩
  | 6 => ⟨S_, .i32⟩
  | 7 => ⟨S16384, .i32⟩
  | 8 => ⟨S16384, .i32⟩
  | 9 => ⟨S16384, .i32⟩
  | 10 => ⟨S16384x1, .i32⟩
  | 11 => ⟨S1, .i32⟩
  | 12 => ⟨S_, .i32⟩
  | 13 => ⟨S16384x1, .i32⟩
  | 14 => ⟨S16384x1, .i1⟩
  | 15 => ⟨S1x1, .i32⟩
  | 16 => ⟨S16384x1, .i32⟩
  | 17 => ⟨S16384x1, .i1⟩
  | 18 => ⟨S16384x1, .i1⟩
  | 19 => ⟨S_, .i1⟩
  | 20 => ⟨S16384, .i1⟩
  | 21 => ⟨S16384x64, .f32⟩
  | 22 => ⟨S16384x64, .i1⟩
  | 23 => ⟨S_, .f32⟩
  | 24 => ⟨S16384x64, .f32⟩
  | 25 => ⟨S16384x64, .f32⟩
  | 26 => ⟨S_, .i32⟩
  | 27 => ⟨S16384, .i32⟩
  | 28 => ⟨S16384, .i1⟩
  | 29 => ⟨S_, .i32⟩
  | 30 => ⟨S16384, .i32⟩
  | 31 => ⟨S16384, .i32⟩
  | 32 => ⟨S16384, .i32⟩
  | 33 => ⟨S16384x1, .i32⟩
  | 34 => ⟨S1, .i32⟩
  | 35 => ⟨S_, .i32⟩
  | 36 => ⟨S16384x1, .i32⟩
  | 37 => ⟨S16384x1, .i1⟩
  | 38 => ⟨S1x1, .i32⟩
  | 39 => ⟨S16384x1, .i32⟩
  | 40 => ⟨S16384x1, .i1⟩
  | 41 => ⟨S16384x1, .i1⟩
  | 42 => ⟨S_, .i1⟩
  | 43 => ⟨S16384, .i1⟩
  | 44 => ⟨S16384x64, .f32⟩
  | 45 => ⟨S16384x64, .i1⟩
  | 46 => ⟨S_, .f32⟩
  | 47 => ⟨S16384x64, .f32⟩
  | 48 => ⟨S16384x64, .f32⟩
  | 49 => ⟨S_, .i32⟩
  | 50 => ⟨S16384, .i32⟩
  | 51 => ⟨S16384, .i1⟩
  | 52 => ⟨S_, .i32⟩
  | 53 => ⟨S16384, .i32⟩
  | 54 => ⟨S16384, .i32⟩
  | 55 => ⟨S16384, .i32⟩
  | 56 => ⟨S16384x1, .i32⟩
  | 57 => ⟨S1, .i32⟩
  | 58 => ⟨S_, .i32⟩
  | 59 => ⟨S16384x1, .i32⟩
  | 60 => ⟨S16384x1, .i1⟩
  | 61 => ⟨S1x1, .i32⟩
  | 62 => ⟨S16384x1, .i32⟩
  | 63 => ⟨S16384x1, .i1⟩
  | 64 => ⟨S16384x1, .i1⟩
  | 65 => ⟨S_, .i1⟩
  | 66 => ⟨S16384, .i1⟩
  | 67 => ⟨S16384x64, .f32⟩
  | 68 => ⟨S16384x64, .i1⟩
  | 69 => ⟨S_, .f32⟩
  | 70 => ⟨S16384x64, .f32⟩
  | 71 => ⟨S16384x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v1 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v2 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c_1 : Ref sig .tc := ⟨.hbm, 93, rfl⟩
abbrev main_call3_c_2 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_3 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_call3_cst : Ref sig .tc := ⟨.hbm, 105, rfl⟩
abbrev main_call3_v15 : Ref sig .tc := ⟨.hbm, 106, rfl⟩
abbrev main_v3 : Ref sig .tc := ⟨.hbm, 107, rfl⟩
abbrev main_call4_c : Ref sig .tc := ⟨.hbm, 108, rfl⟩
abbrev main_call4_v0 : Ref sig .tc := ⟨.hbm, 109, rfl⟩
abbrev main_call4_v1 : Ref sig .tc := ⟨.hbm, 110, rfl⟩
abbrev main_call4_c_0 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_c_1 : Ref sig .tc := ⟨.hbm, 116, rfl⟩
abbrev main_call4_c_2 : Ref sig .tc := ⟨.hbm, 117, rfl⟩
abbrev main_call4_v6 : Ref sig .tc := ⟨.hbm, 118, rfl⟩
abbrev main_call4_v7 : Ref sig .tc := ⟨.hbm, 119, rfl⟩
abbrev main_call4_v8 : Ref sig .tc := ⟨.hbm, 120, rfl⟩
abbrev main_call4_v9 : Ref sig .tc := ⟨.hbm, 121, rfl⟩
abbrev main_call4_v10 : Ref sig .tc := ⟨.hbm, 122, rfl⟩
abbrev main_call4_v11 : Ref sig .tc := ⟨.hbm, 123, rfl⟩
abbrev main_call4_c_3 : Ref sig .tc := ⟨.hbm, 124, rfl⟩
abbrev main_call4_v12 : Ref sig .tc := ⟨.hbm, 125, rfl⟩
abbrev main_call4_v13 : Ref sig .tc := ⟨.hbm, 126, rfl⟩
abbrev main_call4_v14 : Ref sig .tc := ⟨.hbm, 127, rfl⟩
abbrev main_call4_cst : Ref sig .tc := ⟨.hbm, 128, rfl⟩
abbrev main_call4_v15 : Ref sig .tc := ⟨.hbm, 129, rfl⟩
abbrev main_v4 : Ref sig .tc := ⟨.hbm, 130, rfl⟩
abbrev main_call5_c : Ref sig .tc := ⟨.hbm, 131, rfl⟩
abbrev main_call5_v0 : Ref sig .tc := ⟨.hbm, 132, rfl⟩
abbrev main_call5_v1 : Ref sig .tc := ⟨.hbm, 133, rfl⟩
abbrev main_call5_c_0 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_call5_v5 : Ref sig .tc := ⟨.hbm, 138, rfl⟩
abbrev main_call5_c_1 : Ref sig .tc := ⟨.hbm, 139, rfl⟩
abbrev main_call5_c_2 : Ref sig .tc := ⟨.hbm, 140, rfl⟩
abbrev main_call5_v6 : Ref sig .tc := ⟨.hbm, 141, rfl⟩
abbrev main_call5_v7 : Ref sig .tc := ⟨.hbm, 142, rfl⟩
abbrev main_call5_v8 : Ref sig .tc := ⟨.hbm, 143, rfl⟩
abbrev main_call5_v9 : Ref sig .tc := ⟨.hbm, 144, rfl⟩
abbrev main_call5_v10 : Ref sig .tc := ⟨.hbm, 145, rfl⟩
abbrev main_call5_v11 : Ref sig .tc := ⟨.hbm, 146, rfl⟩
abbrev main_call5_c_3 : Ref sig .tc := ⟨.hbm, 147, rfl⟩
abbrev main_call5_v12 : Ref sig .tc := ⟨.hbm, 148, rfl⟩
abbrev main_call5_v13 : Ref sig .tc := ⟨.hbm, 149, rfl⟩
abbrev main_call5_v14 : Ref sig .tc := ⟨.hbm, 150, rfl⟩
abbrev main_call5_cst : Ref sig .tc := ⟨.hbm, 151, rfl⟩
abbrev main_call5_v15 : Ref sig .tc := ⟨.hbm, 152, rfl⟩
abbrev main_v5 : Ref sig .tc := ⟨.hbm, 153, rfl⟩
abbrev main_call6_c : Ref sig .tc := ⟨.hbm, 154, rfl⟩
abbrev main_call6_v0 : Ref sig .tc := ⟨.hbm, 155, rfl⟩
abbrev main_call6_v1 : Ref sig .tc := ⟨.hbm, 156, rfl⟩
abbrev main_call6_c_0 : Ref sig .tc := ⟨.hbm, 157, rfl⟩
abbrev main_call6_v2 : Ref sig .tc := ⟨.hbm, 158, rfl⟩
abbrev main_call6_v3 : Ref sig .tc := ⟨.hbm, 159, rfl⟩
abbrev main_call6_v4 : Ref sig .tc := ⟨.hbm, 160, rfl⟩
abbrev main_call6_v5 : Ref sig .tc := ⟨.hbm, 161, rfl⟩
abbrev main_call6_c_1 : Ref sig .tc := ⟨.hbm, 162, rfl⟩
abbrev main_call6_c_2 : Ref sig .tc := ⟨.hbm, 163, rfl⟩
abbrev main_call6_v6 : Ref sig .tc := ⟨.hbm, 164, rfl⟩
abbrev main_call6_v7 : Ref sig .tc := ⟨.hbm, 165, rfl⟩
abbrev main_call6_v8 : Ref sig .tc := ⟨.hbm, 166, rfl⟩
abbrev main_call6_v9 : Ref sig .tc := ⟨.hbm, 167, rfl⟩
abbrev main_call6_v10 : Ref sig .tc := ⟨.hbm, 168, rfl⟩
abbrev main_call6_v11 : Ref sig .tc := ⟨.hbm, 169, rfl⟩
abbrev main_call6_c_3 : Ref sig .tc := ⟨.hbm, 170, rfl⟩
abbrev main_call6_v12 : Ref sig .tc := ⟨.hbm, 171, rfl⟩
abbrev main_call6_v13 : Ref sig .tc := ⟨.hbm, 172, rfl⟩
abbrev main_call6_v14 : Ref sig .tc := ⟨.hbm, 173, rfl⟩
abbrev main_call6_cst : Ref sig .tc := ⟨.hbm, 174, rfl⟩
abbrev main_call6_v15 : Ref sig .tc := ⟨.hbm, 175, rfl⟩
abbrev main_v6 : Ref sig .tc := ⟨.hbm, 176, rfl⟩
abbrev main_call7_c : Ref sig .tc := ⟨.hbm, 177, rfl⟩
abbrev main_call7_v0 : Ref sig .tc := ⟨.hbm, 178, rfl⟩
abbrev main_call7_v1 : Ref sig .tc := ⟨.hbm, 179, rfl⟩
abbrev main_call7_c_0 : Ref sig .tc := ⟨.hbm, 180, rfl⟩
abbrev main_call7_v2 : Ref sig .tc := ⟨.hbm, 181, rfl⟩
abbrev main_call7_v3 : Ref sig .tc := ⟨.hbm, 182, rfl⟩
abbrev main_call7_v4 : Ref sig .tc := ⟨.hbm, 183, rfl⟩
abbrev main_call7_v5 : Ref sig .tc := ⟨.hbm, 184, rfl⟩
abbrev main_call7_c_1 : Ref sig .tc := ⟨.hbm, 185, rfl⟩
abbrev main_call7_c_2 : Ref sig .tc := ⟨.hbm, 186, rfl⟩
abbrev main_call7_v6 : Ref sig .tc := ⟨.hbm, 187, rfl⟩
abbrev main_call7_v7 : Ref sig .tc := ⟨.hbm, 188, rfl⟩
abbrev main_call7_v8 : Ref sig .tc := ⟨.hbm, 189, rfl⟩
abbrev main_call7_v9 : Ref sig .tc := ⟨.hbm, 190, rfl⟩
abbrev main_call7_v10 : Ref sig .tc := ⟨.hbm, 191, rfl⟩
abbrev main_call7_v11 : Ref sig .tc := ⟨.hbm, 192, rfl⟩
abbrev main_call7_c_3 : Ref sig .tc := ⟨.hbm, 193, rfl⟩
abbrev main_call7_v12 : Ref sig .tc := ⟨.hbm, 194, rfl⟩
abbrev main_call7_v13 : Ref sig .tc := ⟨.hbm, 195, rfl⟩
abbrev main_call7_v14 : Ref sig .tc := ⟨.hbm, 196, rfl⟩
abbrev main_call7_cst : Ref sig .tc := ⟨.hbm, 197, rfl⟩
abbrev main_call7_v15 : Ref sig .tc := ⟨.hbm, 198, rfl⟩
abbrev main_v7 : Ref sig .tc := ⟨.hbm, 199, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  gather_S100000x64_S16384x1_S16384x64_1_0_n_n_0_1_164_wf : GatherDims.WF S100000x64 S16384x1 S16384x64 [1] [0] [] [0] [] 1 ![1, 64]
  gather_S1000000x64_S16384x1_S16384x64_1_0_n_n_0_1_164_wf : GatherDims.WF S1000000x64 S16384x1 S16384x64 [1] [0] [] [0] [] 1 ![1, 64]
  gather_S10000x64_S16384x1_S16384x64_1_0_n_n_0_1_164_wf : GatherDims.WF S10000x64 S16384x1 S16384x64 [1] [0] [] [0] [] 1 ![1, 64]
  gather_S20000x64_S16384x1_S16384x64_1_0_n_n_0_1_164_wf : GatherDims.WF S20000x64 S16384x1 S16384x64 [1] [0] [] [0] [] 1 ![1, 64]
  gather_S5000x64_S16384x1_S16384x64_1_0_n_n_0_1_164_wf : GatherDims.WF S5000x64 S16384x1 S16384x64 [1] [0] [] [0] [] 1 ![1, 64]
  gather_S1000x64_S16384x1_S16384x64_1_0_n_n_0_1_164_wf : GatherDims.WF S1000x64 S16384x1 S16384x64 [1] [0] [] [0] [] 1 ![1, 64]

variable [Facts₀]

def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S10000x64_S16384x1_S16384x64_1_0_n_n_0_1_164 : GatherDims S10000x64 S16384x1 S16384x64 where
  offsetDims := [1]
  collapsedSliceDims := [0]
  operandBatchingDims := []
  startIndicesBatchingDims := []
  startIndexMap := [0]
  indexVectorDim := 1
  sliceSizes := ![1, 64]
  wf := gather_S10000x64_S16384x1_S16384x64_1_0_n_n_0_1_164_wf
def gather_S20000x64_S16384x1_S16384x64_1_0_n_n_0_1_164 : GatherDims S20000x64 S16384x1 S16384x64 where
  offsetDims := [1]
  collapsedSliceDims := [0]
  operandBatchingDims := []
  startIndicesBatchingDims := []
  startIndexMap := [0]
  indexVectorDim := 1
  sliceSizes := ![1, 64]
  wf := gather_S20000x64_S16384x1_S16384x64_1_0_n_n_0_1_164_wf
def gather_S5000x64_S16384x1_S16384x64_1_0_n_n_0_1_164 : GatherDims S5000x64 S16384x1 S16384x64 where
  offsetDims := [1]
  collapsedSliceDims := [0]
  operandBatchingDims := []
  startIndicesBatchingDims := []
  startIndexMap := [0]
  indexVectorDim := 1
  sliceSizes := ![1, 64]
  wf := gather_S5000x64_S16384x1_S16384x64_1_0_n_n_0_1_164_wf
def gather_S1000x64_S16384x1_S16384x64_1_0_n_n_0_1_164 : GatherDims S1000x64 S16384x1 S16384x64 where
  offsetDims := [1]
  collapsedSliceDims := [0]
  operandBatchingDims := []
  startIndicesBatchingDims := []
  startIndexMap := [0]
  indexVectorDim := 1
  sliceSizes := ![1, 64]
  wf := gather_S1000x64_S16384x1_S16384x64_1_0_n_n_0_1_164_wf

class Facts : Prop extends Facts₀ where

variable [Facts]
-- ==== Proof.Spec.lean ====
/-
  What one embedding lookup computes, as ONE function of the two argument arrays: row `r` of the result is the
  row of the table that the `r`-th index word names. The word is read as a natural number; a word that names no
  row is folded back into the table by the remainder, so that the function is total — under the certificate's
  precondition every word names a row and the remainder changes nothing (`rowOf_of_lt`).
-/
import Idealize.ShloMosaic.PureOps
import Idealize.ShloMosaic.Lib.ValueIdx

namespace Cert.Proof.Spec

open Idealize.ShloMosaic Idealize.ShloMosaic.ValueIdx

/-- The row of an `n`-row table that the word `w` names (folded into range by the remainder). -/
def rowOf (n : Nat) (hn : 0 < n) (w : BitVec 32) : Fin n := ⟨w.toNat % n, Nat.mod_lt _ hn⟩

theorem rowOf_val_of_lt {n : Nat} (hn : 0 < n) {w : BitVec 32} (h : w.toNat < n) : (rowOf n hn w).val = w.toNat :=
  Nat.mod_eq_of_lt h

/-- The lookup: entry `(r, k)` of the result is entry `(idx r, k)` of the table. -/
def gatherRows {α : Type} (n : Nat) (hn : 0 < n) (T : (⟨2, ![n, 64]⟩ : Shape).Idx → α)
    (I : (⟨1, ![16384]⟩ : Shape).Idx → BitVec 32) : (⟨2, ![16384, 64]⟩ : Shape).Idx → α :=
  fun j => T (ix2 (rowOf n hn (I (ix1 (j 0)))) (j 1))

theorem gatherRows_apply {α : Type} (n : Nat) (hn : 0 < n) (T : (⟨2, ![n, 64]⟩ : Shape).Idx → α)
    (I : (⟨1, ![16384]⟩ : Shape).Idx → BitVec 32) (r : Fin 16384) (k : Fin 64) :
    gatherRows n hn T I (ix2 r k) = T (ix2 (rowOf n hn (I (ix1 r))) k) := rfl

/-- Every word of an index array, read as a SIGNED number, names a row of an `n`-row table. -/
def InRange (n : Nat) (I : (⟨1, ![16384]⟩ : Shape).Idx → BitVec 32) : Prop :=
  ∀ j, 0 ≤ (I j).toInt ∧ (I j).toInt < (n : Int)

/-- A non-negative signed word is its own unsigned value: in range as a signed number, it names a row as a natural number. -/
theorem InRange.toNat_lt {n : Nat} {I : (⟨1, ![16384]⟩ : Shape).Idx → BitVec 32} (h : InRange n I)
    (j : (⟨1, ![16384]⟩ : Shape).Idx) : (I j).toNat < n := by
  obtain ⟨h0, h1⟩ := h j
  have hlt := (I j).isLt
  rw [BitVec.toInt_eq_toNat_cond] at h0 h1
  by_cases hc : 2 * (I j).toNat < 2 ^ 32
  · rw [if_pos hc] at h0 h1; omega
  · rw [if_neg hc] at h0 h1; omega

end Cert.Proof.Spec
-- ==== Proof.PreRanges.lean ====
/-
  From the certificate's precondition to the ranges of the eight index arrays.

  The precondition is one bit: a conjunction, associated to the left, of sixteen bits. Eight of them say of a table
  that every entry is finite; the other eight say of an index array that every word w satisfies 0 ≤ w ≤ n − 1 as a
  SIGNED number, n the number of rows of the table that the array indexes. Each of the latter is the conjunction
  over all 16384 positions ("reduce by and, from 1") of the pointwise conjunction of the two comparisons of the word
  with the two bounds, each bound a constant repeated at every position.

  A conjunction of bits is 1 exactly when both bits are; a reduction by "and" over all positions that is 1 had a 1
  at every position; a signed comparison that is 1 says the signed inequality. So the precondition being 1 gives, for
  each index array and each position, 0 ≤ w ≤ n − 1, which is 0 ≤ w < n. The finiteness bits are dropped on the way.

  The printed function is a chain of 135 operations cut into six pieces, each ending in the call of the next; one
  lemma per piece peels off the conjuncts that the piece forms, from the last piece back to the first.
-/
import Idealize.ShloMosaic.PureOps
import Idealize.ShloMosaic.Lib.ValueIdx
import Idealize.ShloMosaic.Lib.ReduceAll
import proofs.«218896_g85959475462175_cont_9to1_m_647_27_alg».proof.Pre_input_domain
import proofs.«218896_g85959475462175_cont_9to1_m_647_27_alg».proof.Proof.Spec

namespace Cert.Proof.PreRanges

open Idealize.ShloMosaic Idealize.ShloMosaic.ValueIdx
open Cert.Pre_input_domain Cert.Pre_input_domain.Facts
open Cert.Proof.Spec

/-- The shape with no axes has one index. -/
instance : Subsingleton S_.Idx := ⟨fun a b => funext fun d => d.elim0⟩

variable {F : FTy → Type} [FloatOps F] [Facts]

/-- One index array's bit, read back: if "for every position, 0 ≤ w and w ≤ hi (signed)" reduces to 1, then every
    word is in [0, hi + 1). -/
theorem inRange_of_all (I : IVec S16384 32) (hi : BitVec 32) (n : Nat) (hn : hi.toInt + 1 = (n : Int))
    (e : Host.reduce IntOp.andi
          (andi (cmpi .sge I (broadcastInDim S16384 ![] bcast_S_S16384 (constantI S_ 32 0#32)))
                (cmpi .sle I (broadcastInDim S16384 ![] bcast_S_S16384 (constantI S_ 32 hi))))
          (constantI S_ 1 1#1) reducesTo_S16384_S_d0 h_S_ ix0 = 1#1) : InRange n I := by
  intro j
  have hj := Host.reduce_andi_all _ _ _ _ _ e j
  obtain ⟨h0, h1⟩ := IntOp.andi_eq_one.1 hj
  have h0' : (0#32 : BitVec 32).toInt ≤ (I j).toInt := IntOp.cmpi_sge.1 h0
  have h1' : (I j).toInt ≤ hi.toInt := IntOp.cmpi_sle.1 h1
  have z : (0#32 : BitVec 32).toInt = 0 := by decide
  omega

/-- The last piece forms the bits of the seventh array's upper bound and of the eighth array, and conjoins them to
    the bit it is handed: all three are 1. -/
theorem of_part5 (a14 a15 : IVec S16384 32) (v80 : IVec S_ 1) (v82 : IVec S16384 1) (v83 : IVec S16384 32)
    (h : fn_part5 (F := F) a14 a15 v80 v82 v83 ix0 = 1#1) :
    v80 ix0 = 1#1
      ∧ Host.reduce IntOp.andi (andi v82 (cmpi .sle a14 v83)) (constantI S_ 1 1#1) reducesTo_S16384_S_d0 h_S_ ix0 = 1#1
      ∧ InRange 1000 a15 := by
  dsimp only [fn_part5] at h
  obtain ⟨h87, h15⟩ := IntOp.andi_eq_one.1 h
  obtain ⟨h80, h14⟩ := IntOp.andi_eq_one.1 h87
  exact ⟨h80, h14, inRange_of_all a15 999#32 1000 (by decide) h15⟩

/-- The fifth piece: the fifth and sixth arrays' bits, the lower half of the seventh's; the zero it is handed is
    the fifth array's lower bound. -/
theorem of_part4 (a12 a13 a14 a15 : IVec S16384 32) (v66 : IVec S_ 1)
    (h : fn_part4 (F := F) a12 a13 a14 a15 v66 (constantI S_ 32 0#32) ix0 = 1#1) :
    v66 ix0 = 1#1 ∧ InRange 20000 a12 ∧ InRange 10000 a13 ∧ InRange 5000 a14 ∧ InRange 1000 a15 := by
  dsimp only [fn_part4] at h
  obtain ⟨h80, h14, r15⟩ := of_part5 _ _ _ _ _ h
  obtain ⟨h73, h13⟩ := IntOp.andi_eq_one.1 h80
  obtain ⟨h66, h12⟩ := IntOp.andi_eq_one.1 h73
  exact ⟨h66, inRange_of_all a12 19999#32 20000 (by decide) h12, inRange_of_all a13 9999#32 10000 (by decide) h13,
    inRange_of_all a14 4999#32 5000 (by decide) h14, r15⟩

/-- The fourth piece: it reduces the second array's pointwise bit, which it is handed, and forms the third and
    fourth arrays' bits. -/
theorem of_part3 (a10 a11 a12 a13 a14 a15 : IVec S16384 32) (v45 : IVec S_ 1) (v50 : IVec S16384 1)
    (h : fn_part3 (F := F) a10 a11 a12 a13 a14 a15 v45 v50 ix0 = 1#1) :
    v45 ix0 = 1#1
      ∧ Host.reduce IntOp.andi v50 (constantI S_ 1 1#1) reducesTo_S16384_S_d0 h_S_ ix0 = 1#1
      ∧ InRange 10000 a10 ∧ InRange 20000 a11 ∧ InRange 20000 a12 ∧ InRange 10000 a13 ∧ InRange 5000 a14 ∧ InRange 1000 a15 := by
  dsimp only [fn_part3] at h
  obtain ⟨h66, r12, r13, r14, r15⟩ := of_part4 _ _ _ _ _ h
  obtain ⟨h59, h11⟩ := IntOp.andi_eq_one.1 h66
  obtain ⟨h52, h10⟩ := IntOp.andi_eq_one.1 h59
  obtain ⟨h45, h9⟩ := IntOp.andi_eq_one.1 h52
  exact ⟨h45, h9, inRange_of_all a10 9999#32 10000 (by decide) h10, inRange_of_all a11 19999#32 20000 (by decide) h11,
    r12, r13, r14, r15⟩

/-- The third piece: the last table's finiteness bit (dropped), the first array's bit and the second array's
    pointwise bit. From here on every index array's range is known. -/
theorem of_part2 (a7 : FVec F S1000x64 .f32) (a8 a9 a10 a11 a12 a13 a14 a15 : IVec S16384 32) (v33 : IVec S_ 1)
    (h : fn_part2 (F := F) a7 a8 a9 a10 a11 a12 a13 a14 a15 v33 ix0 = 1#1) :
    InRange 100000 a8 ∧ InRange 1000000 a9 ∧ InRange 10000 a10 ∧ InRange 20000 a11
      ∧ InRange 20000 a12 ∧ InRange 10000 a13 ∧ InRange 5000 a14 ∧ InRange 1000 a15 := by
  dsimp only [fn_part2] at h
  obtain ⟨h45, h9, r10, r11, r12, r13, r14, r15⟩ := of_part3 _ _ _ _ _ _ _ _ h
  obtain ⟨-, h8⟩ := IntOp.andi_eq_one.1 h45
  exact ⟨inRange_of_all a8 99999#32 100000 (by decide) h8, inRange_of_all a9 999999#32 1000000 (by decide) h9,
    r10, r11, r12, r13, r14, r15⟩

/-- The second piece forms finiteness bits only. -/
theorem of_part1 (a4 : FVec F S20000x64 .f32) (a5 : FVec F S10000x64 .f32) (a6 : FVec F S5000x64 .f32)
    (a7 : FVec F S1000x64 .f32) (a8 a9 a10 a11 a12 a13 a14 a15 : IVec S16384 32) (v13 : IVec S_ 1) (v16 : IVec S20000x64 1)
    (h : fn_part1 (F := F) a4 a5 a6 a7 a8 a9 a10 a11 a12 a13 a14 a15 v13 v16 ix0 = 1#1) :
    InRange 100000 a8 ∧ InRange 1000000 a9 ∧ InRange 10000 a10 ∧ InRange 20000 a11
      ∧ InRange 20000 a12 ∧ InRange 10000 a13 ∧ InRange 5000 a14 ∧ InRange 1000 a15 := by
  dsimp only [fn_part1] at h
  exact of_part2 _ _ _ _ _ _ _ _ _ _ h

/-- The precondition gives every index array's range: each word, read as a signed number, names a row of the table
    that the array indexes. -/
theorem ranges
    (a0 : FVec F S100000x64 .f32) (a1 : FVec F S1000000x64 .f32) (a2 : FVec F S10000x64 .f32)
    (a3 a4 : FVec F S20000x64 .f32) (a5 : FVec F S10000x64 .f32) (a6 : FVec F S5000x64 .f32) (a7 : FVec F S1000x64 .f32)
    (a8 a9 a10 a11 a12 a13 a14 a15 : IVec S16384 32)
    (h : fn (F := F) a0 a1 a2 a3 a4 a5 a6 a7 a8 a9 a10 a11 a12 a13 a14 a15 = fun _ => 1#1) :
    InRange 100000 a8 ∧ InRange 1000000 a9 ∧ InRange 10000 a10 ∧ InRange 20000 a11
      ∧ InRange 20000 a12 ∧ InRange 10000 a13 ∧ InRange 5000 a14 ∧ InRange 1000 a15 := by
  have h0 := congrFun h ix0
  dsimp only [fn] at h0
  exact of_part1 _ _ _ _ _ _ _ _ _ _ _ _ _ _ h0

end Cert.Proof.PreRanges
-- ==== Proof.RefTerm.lean ====
/-
  The reference's six embedding lookups as pure functions of (table, indices): each is the composition, in the
  program's order, of the operations its outlined function applies — a negative index is wrapped by adding the
  row count, the wrapped index is tested against [0, rows − 1], the table's rows are gathered at the wrapped
  index, and the gathered value is kept where the test holds (a quiet NaN elsewhere).
-/
import proofs.«218896_g85959475462175_cont_9to1_m_647_27_alg».proof.ReferenceIdeal
import Idealize.ShloMosaic.PureOps
import Idealize.ShloMosaic.PureOps.Ideal

noncomputable section

namespace Cert.Proof.RefTerm

open Idealize.ShloMosaic Cert.ReferenceIdeal Cert.ReferenceIdeal.Facts₀ Cert.ReferenceIdeal.Facts

variable [Cert.ReferenceIdeal.Facts]

/-- The lookup into the 100000-row table, operation by operation: the index wrapped when negative, the in-range mask,
    the rows gathered, the gathered value kept under the mask. -/
noncomputable def take100000 (T : FVec Ideal S100000x64 .f32) (I : IVec S16384 32) : FVec Ideal S16384x64 .f32 :=
  select
    (broadcastInDim S16384x64 ![0] bcast_S16384_S16384x64_0
      (Host.reduce IntOp.andi
        (andi
          (cmpi .sge
            (broadcastInDim S16384x1 ![0] bcast_S16384_S16384x1_0
              (select (cmpi .slt I (broadcastInDim S16384 ![] bcast_S_S16384 (constantI S_ 32 0#32)))
                (addi I (broadcastInDim S16384 ![] bcast_S_S16384 (constantI S_ 32 100000#32))) I))
            (broadcastInDim S16384x1 ![] bcast_S_S16384x1 (constantI S_ 32 0#32)))
          (cmpi .sle
            (broadcastInDim S16384x1 ![0] bcast_S16384_S16384x1_0
              (select (cmpi .slt I (broadcastInDim S16384 ![] bcast_S_S16384 (constantI S_ 32 0#32)))
                (addi I (broadcastInDim S16384 ![] bcast_S_S16384 (constantI S_ 32 100000#32))) I))
            (broadcastInDim S16384x1 ![0, 1] bcast_S1x1_S16384x1_0_1
              (broadcastInDim S1x1 ![1] bcast_S1_S1x1_1 (constantI S1 32 99999#32)))))
        (constantI S_ 1 1#1) reducesTo_S16384x1_S16384_d1 h_S_))
    (Host.gather gather_S100000x64_S16384x1_S16384x64_1_0_n_n_0_1_164 T
      (broadcastInDim S16384x1 ![0] bcast_S16384_S16384x1_0
        (select (cmpi .slt I (broadcastInDim S16384 ![] bcast_S_S16384 (constantI S_ 32 0#32)))
          (addi I (broadcastInDim S16384 ![] bcast_S_S16384 (constantI S_ 32 100000#32))) I)))
    (broadcastInDim S16384x64 ![] bcast_S_S16384x64 (constant (F := Ideal) S_ .f32 0x7FC00000#32))

/-- The lookup into the 1000000-row table, operation by operation: the index wrapped when negative, the in-range mask,
    the rows gathered, the gathered value kept under the mask. -/
noncomputable def take1000000 (T : FVec Ideal S1000000x64 .f32) (I : IVec S16384 32) : FVec Ideal S16384x64 .f32 :=
  select
    (broadcastInDim S16384x64 ![0] bcast_S16384_S16384x64_0
      (Host.reduce IntOp.andi
        (andi
          (cmpi .sge
            (broadcastInDim S16384x1 ![0] bcast_S16384_S16384x1_0
              (select (cmpi .slt I (broadcastInDim S16384 ![] bcast_S_S16384 (constantI S_ 32 0#32)))
                (addi I (broadcastInDim S16384 ![] bcast_S_S16384 (constantI S_ 32 1000000#32))) I))
            (broadcastInDim S16384x1 ![] bcast_S_S16384x1 (constantI S_ 32 0#32)))
          (cmpi .sle
            (broadcastInDim S16384x1 ![0] bcast_S16384_S16384x1_0
              (select (cmpi .slt I (broadcastInDim S16384 ![] bcast_S_S16384 (constantI S_ 32 0#32)))
                (addi I (broadcastInDim S16384 ![] bcast_S_S16384 (constantI S_ 32 1000000#32))) I))
            (broadcastInDim S16384x1 ![0, 1] bcast_S1x1_S16384x1_0_1
              (broadcastInDim S1x1 ![1] bcast_S1_S1x1_1 (constantI S1 32 999999#32)))))
        (constantI S_ 1 1#1) reducesTo_S16384x1_S16384_d1 h_S_))
    (Host.gather gather_S1000000x64_S16384x1_S16384x64_1_0_n_n_0_1_164 T
      (broadcastInDim S16384x1 ![0] bcast_S16384_S16384x1_0
        (select (cmpi .slt I (broadcastInDim S16384 ![] bcast_S_S16384 (constantI S_ 32 0#32)))
          (addi I (broadcastInDim S16384 ![] bcast_S_S16384 (constantI S_ 32 1000000#32))) I)))
    (broadcastInDim S16384x64 ![] bcast_S_S16384x64 (constant (F := Ideal) S_ .f32 0x7FC00000#32))

/-- The lookup into the 10000-row table, operation by operation: the index wrapped when negative, the in-range mask,
    the rows gathered, the gathered value kept under the mask. -/
noncomputable def take10000 (T : FVec Ideal S10000x64 .f32) (I : IVec S16384 32) : FVec Ideal S16384x64 .f32 :=
  select
    (broadcastInDim S16384x64 ![0] bcast_S16384_S16384x64_0
      (Host.reduce IntOp.andi
        (andi
          (cmpi .sge
            (broadcastInDim S16384x1 ![0] bcast_S16384_S16384x1_0
              (select (cmpi .slt I (broadcastInDim S16384 ![] bcast_S_S16384 (constantI S_ 32 0#32)))
                (addi I (broadcastInDim S16384 ![] bcast_S_S16384 (constantI S_ 32 10000#32))) I))
            (broadcastInDim S16384x1 ![] bcast_S_S16384x1 (constantI S_ 32 0#32)))
          (cmpi .sle
            (broadcastInDim S16384x1 ![0] bcast_S16384_S16384x1_0
              (select (cmpi .slt I (broadcastInDim S16384 ![] bcast_S_S16384 (constantI S_ 32 0#32)))
                (addi I (broadcastInDim S16384 ![] bcast_S_S16384 (constantI S_ 32 10000#32))) I))
            (broadcastInDim S16384x1 ![0, 1] bcast_S1x1_S16384x1_0_1
              (broadcastInDim S1x1 ![1] bcast_S1_S1x1_1 (constantI S1 32 9999#32)))))
        (constantI S_ 1 1#1) reducesTo_S16384x1_S16384_d1 h_S_))
    (Host.gather gather_S10000x64_S16384x1_S16384x64_1_0_n_n_0_1_164 T
      (broadcastInDim S16384x1 ![0] bcast_S16384_S16384x1_0
        (select (cmpi .slt I (broadcastInDim S16384 ![] bcast_S_S16384 (constantI S_ 32 0#32)))
          (addi I (broadcastInDim S16384 ![] bcast_S_S16384 (constantI S_ 32 10000#32))) I)))
    (broadcastInDim S16384x64 ![] bcast_S_S16384x64 (constant (F := Ideal) S_ .f32 0x7FC00000#32))

/-- The lookup into the 20000-row table, operation by operation: the index wrapped when negative, the in-range mask,
    the rows gathered, the gathered value kept under the mask. -/
noncomputable def take20000 (T : FVec Ideal S20000x64 .f32) (I : IVec S16384 32) : FVec Ideal S16384x64 .f32 :=
  select
    (broadcastInDim S16384x64 ![0] bcast_S16384_S16384x64_0
      (Host.reduce IntOp.andi
        (andi
          (cmpi .sge
            (broadcastInDim S16384x1 ![0] bcast_S16384_S16384x1_0
              (select (cmpi .slt I (broadcastInDim S16384 ![] bcast_S_S16384 (constantI S_ 32 0#32)))
                (addi I (broadcastInDim S16384 ![] bcast_S_S16384 (constantI S_ 32 20000#32))) I))
            (broadcastInDim S16384x1 ![] bcast_S_S16384x1 (constantI S_ 32 0#32)))
          (cmpi .sle
            (broadcastInDim S16384x1 ![0] bcast_S16384_S16384x1_0
              (select (cmpi .slt I (broadcastInDim S16384 ![] bcast_S_S16384 (constantI S_ 32 0#32)))
                (addi I (broadcastInDim S16384 ![] bcast_S_S16384 (constantI S_ 32 20000#32))) I))
            (broadcastInDim S16384x1 ![0, 1] bcast_S1x1_S16384x1_0_1
              (broadcastInDim S1x1 ![1] bcast_S1_S1x1_1 (constantI S1 32 19999#32)))))
        (constantI S_ 1 1#1) reducesTo_S16384x1_S16384_d1 h_S_))
    (Host.gather gather_S20000x64_S16384x1_S16384x64_1_0_n_n_0_1_164 T
      (broadcastInDim S16384x1 ![0] bcast_S16384_S16384x1_0
        (select (cmpi .slt I (broadcastInDim S16384 ![] bcast_S_S16384 (constantI S_ 32 0#32)))
          (addi I (broadcastInDim S16384 ![] bcast_S_S16384 (constantI S_ 32 20000#32))) I)))
    (broadcastInDim S16384x64 ![] bcast_S_S16384x64 (constant (F := Ideal) S_ .f32 0x7FC00000#32))

/-- The lookup into the 5000-row table, operation by operation: the index wrapped when negative, the in-range mask,
    the rows gathered, the gathered value kept under the mask. -/
noncomputable def take5000 (T : FVec Ideal S5000x64 .f32) (I : IVec S16384 32) : FVec Ideal S16384x64 .f32 :=
  select
    (broadcastInDim S16384x64 ![0] bcast_S16384_S16384x64_0
      (Host.reduce IntOp.andi
        (andi
          (cmpi .sge
            (broadcastInDim S16384x1 ![0] bcast_S16384_S16384x1_0
              (select (cmpi .slt I (broadcastInDim S16384 ![] bcast_S_S16384 (constantI S_ 32 0#32)))
                (addi I (broadcastInDim S16384 ![] bcast_S_S16384 (constantI S_ 32 5000#32))) I))
            (broadcastInDim S16384x1 ![] bcast_S_S16384x1 (constantI S_ 32 0#32)))
          (cmpi .sle
            (broadcastInDim S16384x1 ![0] bcast_S16384_S16384x1_0
              (select (cmpi .slt I (broadcastInDim S16384 ![] bcast_S_S16384 (constantI S_ 32 0#32)))
                (addi I (broadcastInDim S16384 ![] bcast_S_S16384 (constantI S_ 32 5000#32))) I))
            (broadcastInDim S16384x1 ![0, 1] bcast_S1x1_S16384x1_0_1
              (broadcastInDim S1x1 ![1] bcast_S1_S1x1_1 (constantI S1 32 4999#32)))))
        (constantI S_ 1 1#1) reducesTo_S16384x1_S16384_d1 h_S_))
    (Host.gather gather_S5000x64_S16384x1_S16384x64_1_0_n_n_0_1_164 T
      (broadcastInDim S16384x1 ![0] bcast_S16384_S16384x1_0
        (select (cmpi .slt I (broadcastInDim S16384 ![] bcast_S_S16384 (constantI S_ 32 0#32)))
          (addi I (broadcastInDim S16384 ![] bcast_S_S16384 (constantI S_ 32 5000#32))) I)))
    (broadcastInDim S16384x64 ![] bcast_S_S16384x64 (constant (F := Ideal) S_ .f32 0x7FC00000#32))

/-- The lookup into the 1000-row table, operation by operation: the index wrapped when negative, the in-range mask,
    the rows gathered, the gathered value kept under the mask. -/
noncomputable def take1000 (T : FVec Ideal S1000x64 .f32) (I : IVec S16384 32) : FVec Ideal S16384x64 .f32 :=
  select
    (broadcastInDim S16384x64 ![0] bcast_S16384_S16384x64_0
      (Host.reduce IntOp.andi
        (andi
          (cmpi .sge
            (broadcastInDim S16384x1 ![0] bcast_S16384_S16384x1_0
              (select (cmpi .slt I (broadcastInDim S16384 ![] bcast_S_S16384 (constantI S_ 32 0#32)))
                (addi I (broadcastInDim S16384 ![] bcast_S_S16384 (constantI S_ 32 1000#32))) I))
            (broadcastInDim S16384x1 ![] bcast_S_S16384x1 (constantI S_ 32 0#32)))
          (cmpi .sle
            (broadcastInDim S16384x1 ![0] bcast_S16384_S16384x1_0
              (select (cmpi .slt I (broadcastInDim S16384 ![] bcast_S_S16384 (constantI S_ 32 0#32)))
                (addi I (broadcastInDim S16384 ![] bcast_S_S16384 (constantI S_ 32 1000#32))) I))
            (broadcastInDim S16384x1 ![0, 1] bcast_S1x1_S16384x1_0_1
              (broadcastInDim S1x1 ![1] bcast_S1_S1x1_1 (constantI S1 32 999#32)))))
        (constantI S_ 1 1#1) reducesTo_S16384x1_S16384_d1 h_S_))
    (Host.gather gather_S1000x64_S16384x1_S16384x64_1_0_n_n_0_1_164 T
      (broadcastInDim S16384x1 ![0] bcast_S16384_S16384x1_0
        (select (cmpi .slt I (broadcastInDim S16384 ![] bcast_S_S16384 (constantI S_ 32 0#32)))
          (addi I (broadcastInDim S16384 ![] bcast_S_S16384 (constantI S_ 32 1000#32))) I)))
    (broadcastInDim S16384x64 ![] bcast_S_S16384x64 (constant (F := Ideal) S_ .f32 0x7FC00000#32))

end Cert.Proof.RefTerm

end
-- ==== Proof.RefValue.lean ====
/-
  The reference's value: under the index range each of the six lookups' composed terms IS the specification's
  lookup. One lemma over the row count `n` carries the mathematics — a word that reads non-negative is not wrapped;
  every wrapped index then passes the test `0 ≤ · ≤ n − 1`, so the reduction by `and` over the unit axis is 1 and the
  select keeps the gathered value; the gather's row for result row `r` is the row the `r`-th word names, the clamp into
  `[0, n − 1]` changing nothing — and the six terms are its instances at their row counts.
-/
import proofs.«218896_g85959475462175_cont_9to1_m_647_27_alg».proof.ReferenceIdeal
import proofs.«218896_g85959475462175_cont_9to1_m_647_27_alg».proof.Proof.Spec
import proofs.«218896_g85959475462175_cont_9to1_m_647_27_alg».proof.Proof.RefTerm
import Idealize.ShloMosaic.PureOps
import Idealize.ShloMosaic.PureOps.Ideal
import Idealize.ShloMosaic.Lib.ValueIdx
import Idealize.ShloMosaic.Lib.ReduceAll

namespace Cert.Proof.RefValue

open Idealize.ShloMosaic Idealize.ShloMosaic.ValueIdx Cert.ReferenceIdeal Cert.ReferenceIdeal.Facts₀ Cert.ReferenceIdeal.Facts Cert.Proof.Spec

/-! ## Words -/

/-- A word that reads non-negative as a signed number does not test below zero. -/
theorem slt_zero_of_nonneg {w : BitVec 32} (h : 0 ≤ w.toInt) : IntOp.cmpi .slt w 0#32 = 0#1 := by
  apply eq_zero_of_ne_one
  intro h1
  rw [IntOp.cmpi_slt] at h1
  have h0 : (0#32 : BitVec 32).toInt = 0 := by decide
  omega

/-- A non-negative signed word is its unsigned value. -/
theorem toInt_eq_toNat_of_nonneg {w : BitVec 32} (h : 0 ≤ w.toInt) : w.toInt = (w.toNat : Int) := by
  have hlt := w.isLt
  rw [BitVec.toInt_eq_toNat_cond] at h ⊢
  by_cases hc : 2 * w.toNat < 2 ^ 32
  · rw [if_pos hc]
  · rw [if_neg hc] at h; omega

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a (List.mem_cons_self ..), e]
    exact foldl_andi_one f l fun n hn => h n (List.mem_cons_of_mem _ hn)

/-- A reduction by `and`, from 1, of an array whose every element is 1, is 1 everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_one x _ fun i _ => hx i

/-- A broadcast of an array that is 1 everywhere is 1 everywhere. -/
theorem broadcastInDim_of_all {s t : Shape} (dims : Fin s.rank → Fin t.rank) (h : s.BroadcastsInDim t dims) (m : s.Idx → BitVec 1)
    (hm : ∀ i, m i = 1#1) (j : t.Idx) : broadcastInDim t dims h m j = 1#1 := hm _

/-! ## The gather of rows, read at an index -/

section Gather
variable {α : Type}

/-- The lookup's dimension numbers for a table of `n` rows of 64, start indices `[16384, 1]` and a result `[16384, 64]`:
    the table's row axis is collapsed and indexed by the one component of the start index, its column axis is the
    result's offset axis. -/
abbrev rowDims (n : Nat) (wf : GatherDims.WF ⟨2, ![n, 64]⟩ S16384x1 S16384x64 [1] [0] [] [0] [] 1 ![1, 64]) :
    GatherDims ⟨2, ![n, 64]⟩ S16384x1 S16384x64 where
  offsetDims := [1]
  collapsedSliceDims := [0]
  operandBatchingDims := []
  startIndicesBatchingDims := []
  startIndexMap := [0]
  indexVectorDim := 1
  sliceSizes := ![1, 64]
  wf := wf

/-- THE GATHER READ AT `(r, k)`: column `k` of the table's row named by the start index `idx[r, 0]`, read signed and
    clamped into `[0, n − 1]`. -/
theorem gather_rows_apply {n w : Nat} (hn : 0 < n)
    (wf : GatherDims.WF ⟨2, ![n, 64]⟩ S16384x1 S16384x64 [1] [0] [] [0] [] 1 ![1, 64])
    (x : (⟨2, ![n, 64]⟩ : Shape).Idx → α) (idx : IVec S16384x1 w) (r : Fin 16384) (k : Fin 64) :
    Host.gather (rowDims n wf) x idx (ix2 r k)
      = x (ix2 ⟨min (idx (ix2 r (0 : Fin 1))).toInt.toNat (n - 1), by omega⟩ k) := by
  unfold Host.gather
  congr 1
  funext a
  refine Fin.ext ?_
  show (rowDims n wf).start (ix2 r k) idx a + (rowDims n wf).batchCoord (ix2 r k) a + (rowDims n wf).offCoord (ix2 r k) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, _⟩ : Fin 2) ∈ (rowDims n wf).startIndexMap from List.mem_singleton.mpr rfl)]
    have hsi : (rowDims n wf).siIdx (ix2 r k) ⟨List.idxOf (⟨0, by decide⟩ : Fin 2) (rowDims n wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, h1⟩ =>
    have hne : (⟨1, h1⟩ : Fin 2) ∉ [(0 : Fin 2)] := fun h =>
      absurd (congrArg Fin.val (List.mem_singleton.mp h)) Nat.one_ne_zero
    have hs : (rowDims n wf).start (ix2 r k) idx ⟨1, h1⟩ = 0 := by
      unfold GatherDims.start
      rw [dif_neg hne]
    rw [hs, Nat.zero_add]
    unfold GatherDims.offCoord
    rw [dif_pos ((GatherDims.mem_sKept _ _).mpr ⟨hne, List.not_mem_nil⟩)]
    rfl

end Gather

end Cert.Proof.RefValue

namespace Cert.Proof.RefValue

open Idealize.ShloMosaic Idealize.ShloMosaic.ValueIdx Cert.ReferenceIdeal Cert.ReferenceIdeal.Facts₀ Cert.ReferenceIdeal.Facts Cert.Proof.Spec

/-! ## The lookup's term over any row count -/

section Term
variable [Cert.ReferenceIdeal.Facts]

/-- The index wrapped when negative: `I + cn` where `I` tests below zero, `I` elsewhere. -/
def wrapped (cn : BitVec 32) (I : IVec S16384 32) : IVec S16384 32 :=
  select (cmpi .slt I (broadcastInDim S16384 ![] bcast_S_S16384 (constantI S_ 32 0#32)))
    (addi I (broadcastInDim S16384 ![] bcast_S_S16384 (constantI S_ 32 cn))) I

/-- Where every word reads non-negative the wrap changes nothing. -/
theorem wrapped_eq (cn : BitVec 32) (I : IVec S16384 32) (h : ∀ j, 0 ≤ (I j).toInt) : wrapped cn I = I := by
  funext j
  show Scalar.select (IntOp.cmpi .slt (I j) 0#32) _ _ = _
  rw [slt_zero_of_nonneg (h j)]
  exact select_zero _ _

/-- An index array as a column: `[16384]` to `[16384, 1]`. -/
def column (w : IVec S16384 32) : IVec S16384x1 32 := broadcastInDim S16384x1 ![0] bcast_S16384_S16384x1_0 w

/-- Entry `(r, c)` of the column is entry `r` of the array. -/
theorem column_apply (w : IVec S16384 32) (r : Fin 16384) (c : Fin 1) : column w (ix2 r c) = w (ix1 r) := by
  show w _ = w _
  congr 1
  funext a
  match a with
  | ⟨0, _⟩ => rfl

/-- The lookup into a table of `n` rows, operation by operation, over any row count `n`, wrap constant `cn` and upper
    bound `cm`. -/
noncomputable def takeTerm (n : Nat) (wf : GatherDims.WF ⟨2, ![n, 64]⟩ S16384x1 S16384x64 [1] [0] [] [0] [] 1 ![1, 64]) (cn cm : BitVec 32)
    (T : FVec Ideal ⟨2, ![n, 64]⟩ .f32) (I : IVec S16384 32) : FVec Ideal S16384x64 .f32 :=
  select
    (broadcastInDim S16384x64 ![0] bcast_S16384_S16384x64_0
      (Host.reduce IntOp.andi
        (andi
          (cmpi .sge (column (wrapped cn I)) (broadcastInDim S16384x1 ![] bcast_S_S16384x1 (constantI S_ 32 0#32)))
          (cmpi .sle (column (wrapped cn I))
            (broadcastInDim S16384x1 ![0, 1] bcast_S1x1_S16384x1_0_1
              (broadcastInDim S1x1 ![1] bcast_S1_S1x1_1 (constantI S1 32 cm)))))
        (constantI S_ 1 1#1) reducesTo_S16384x1_S16384_d1 h_S_))
    (Host.gather (rowDims n wf) T (column (wrapped cn I)))
    (broadcastInDim S16384x64 ![] bcast_S_S16384x64 (constant (F := Ideal) S_ .f32 0x7FC00000#32))

/-- UNDER THE INDEX RANGE THE TERM IS THE LOOKUP: the wrap leaves every index as it is, the in-range test holds
    everywhere, so the select keeps the gathered value, and the gather's row for result row `r` is row `I r`. -/
theorem takeTerm_eq (n : Nat) (hn : 0 < n) (wf : GatherDims.WF ⟨2, ![n, 64]⟩ S16384x1 S16384x64 [1] [0] [] [0] [] 1 ![1, 64])
    (cn cm : BitVec 32) (hcm : cm.toInt = (n : Int) - 1) (T : FVec Ideal ⟨2, ![n, 64]⟩ .f32) (I : IVec S16384 32)
    (h : InRange n I) : takeTerm n wf cn cm T I = gatherRows n hn T I := by
  have hw : wrapped cn I = I := wrapped_eq cn I fun j => (h j).1
  have hx : ∀ i : S16384x1.Idx,
      andi (cmpi .sge (column I) (broadcastInDim S16384x1 ![] bcast_S_S16384x1 (constantI S_ 32 0#32)))
        (cmpi .sle (column I) (broadcastInDim S16384x1 ![0, 1] bcast_S1x1_S16384x1_0_1
          (broadcastInDim S1x1 ![1] bcast_S1_S1x1_1 (constantI S1 32 cm)))) i = 1#1 := by
    intro i
    obtain ⟨r', c, rfl⟩ : ∃ (r' : Fin 16384) (c : Fin 1), i = ix2 r' c := ⟨i 0, i 1, eq_ix2 i⟩
    show IntOp.andi (IntOp.cmpi .sge (column I (ix2 r' c)) 0#32) (IntOp.cmpi .sle (column I (ix2 r' c)) cm) = 1#1
    rw [column_apply, IntOp.andi_eq_one, IntOp.cmpi_sge, IntOp.cmpi_sle, hcm]
    have h0 : (0#32 : BitVec 32).toInt = 0 := by decide
    have := h (ix1 r')
    omega
  funext j
  obtain ⟨r, k, rfl⟩ : ∃ (r : Fin 16384) (k : Fin 64), j = ix2 r k := ⟨j 0, j 1, eq_ix2 j⟩
  rw [gatherRows_apply]
  unfold takeTerm
  rw [hw, select_apply,
    broadcastInDim_of_all _ _ _ (reduce_andi_of_all _ (constantI S_ 1 1#1) reducesTo_S16384x1_S16384_d1 h_S_ hx fun _ => rfl),
    select_one, gather_rows_apply hn wf T (column I) r k]
  congr 2
  refine Fin.ext ?_
  show min (column I (ix2 r (0 : Fin 1))).toInt.toNat (n - 1) = (I (ix1 r)).toNat % n
  have hlt := h.toNat_lt (ix1 r)
  rw [column_apply, toInt_eq_toNat_of_nonneg (h (ix1 r)).1, Int.toNat_natCast, Nat.mod_eq_of_lt hlt]
  omega

end Term

end Cert.Proof.RefValue

namespace Cert.Proof.RefValue

open Idealize.ShloMosaic Idealize.ShloMosaic.ValueIdx Cert.ReferenceIdeal Cert.ReferenceIdeal.Facts₀ Cert.ReferenceIdeal.Facts Cert.Proof.Spec

/-! ## The six lookups -/

section Six
variable [Cert.ReferenceIdeal.Facts]

/-- The 100000-row lookup's term is the lookup, under the index range. -/
theorem take100000_eq (T : FVec Ideal S100000x64 .f32) (I : IVec S16384 32) (h : InRange 100000 I) :
    Cert.Proof.RefTerm.take100000 T I = gatherRows 100000 (by decide) T I :=
  (show Cert.Proof.RefTerm.take100000 T I
      = takeTerm 100000 gather_S100000x64_S16384x1_S16384x64_1_0_n_n_0_1_164_wf 100000#32 99999#32 T I from rfl).trans
    (takeTerm_eq 100000 (by decide) _ _ _ (by decide) T I h)

/-- The 1000000-row lookup's term is the lookup, under the index range. -/
theorem take1000000_eq (T : FVec Ideal S1000000x64 .f32) (I : IVec S16384 32) (h : InRange 1000000 I) :
    Cert.Proof.RefTerm.take1000000 T I = gatherRows 1000000 (by decide) T I :=
  (show Cert.Proof.RefTerm.take1000000 T I
      = takeTerm 1000000 gather_S1000000x64_S16384x1_S16384x64_1_0_n_n_0_1_164_wf 1000000#32 999999#32 T I from rfl).trans
    (takeTerm_eq 1000000 (by decide) _ _ _ (by decide) T I h)

/-- The 10000-row lookup's term is the lookup, under the index range. -/
theorem take10000_eq (T : FVec Ideal S10000x64 .f32) (I : IVec S16384 32) (h : InRange 10000 I) :
    Cert.Proof.RefTerm.take10000 T I = gatherRows 10000 (by decide) T I :=
  (show Cert.Proof.RefTerm.take10000 T I
      = takeTerm 10000 gather_S10000x64_S16384x1_S16384x64_1_0_n_n_0_1_164_wf 10000#32 9999#32 T I from rfl).trans
    (takeTerm_eq 10000 (by decide) _ _ _ (by decide) T I h)

/-- The 20000-row lookup's term is the lookup, under the index range. -/
theorem take20000_eq (T : FVec Ideal S20000x64 .f32) (I : IVec S16384 32) (h : InRange 20000 I) :
    Cert.Proof.RefTerm.take20000 T I = gatherRows 20000 (by decide) T I :=
  (show Cert.Proof.RefTerm.take20000 T I
      = takeTerm 20000 gather_S20000x64_S16384x1_S16384x64_1_0_n_n_0_1_164_wf 20000#32 19999#32 T I from rfl).trans
    (takeTerm_eq 20000 (by decide) _ _ _ (by decide) T I h)

/-- The 5000-row lookup's term is the lookup, under the index range. -/
theorem take5000_eq (T : FVec Ideal S5000x64 .f32) (I : IVec S16384 32) (h : InRange 5000 I) :
    Cert.Proof.RefTerm.take5000 T I = gatherRows 5000 (by decide) T I :=
  (show Cert.Proof.RefTerm.take5000 T I
      = takeTerm 5000 gather_S5000x64_S16384x1_S16384x64_1_0_n_n_0_1_164_wf 5000#32 4999#32 T I from rfl).trans
    (takeTerm_eq 5000 (by decide) _ _ _ (by decide) T I h)

/-- The 1000-row lookup's term is the lookup, under the index range. -/
theorem take1000_eq (T : FVec Ideal S1000x64 .f32) (I : IVec S16384 32) (h : InRange 1000 I) :
    Cert.Proof.RefTerm.take1000 T I = gatherRows 1000 (by decide) T I :=
  (show Cert.Proof.RefTerm.take1000 T I
      = takeTerm 1000 gather_S1000x64_S16384x1_S16384x64_1_0_n_n_0_1_164_wf 1000#32 999#32 T I from rfl).trans
    (takeTerm_eq 1000 (by decide) _ _ _ (by decide) T I h)

end Six

end Cert.Proof.RefValue
-- ==== Proof.RefRun0.lean ====
/-
  The first lookup of the reference program, run on its own. One call of the outlined take function is a straight
  line of twenty-three operations over that call's own buffers: the index words that are negative get the table's
  height 100000 added (a comparison with zero, an addition, a selection), the words are laid out as a column, tested
  against the bounds 0 and 99999, the table's rows gathered at them, and a row whose word failed the test replaced
  by the not-a-number constant. Here: the operations as a list; that the call's body IS that list run in order; that
  every operation touches TensorCore buffers only and determines its result; what the list leaves in the call's
  result buffer, as one composed function of the table's and the index array's contents; and that the list writes
  no buffer but its own twenty-three, so every other buffer keeps its contents through it.
-/
import proofs.«218896_g85959475462175_cont_9to1_m_647_27_alg».proof.Proof.Gen.ReferenceIdeal
import proofs.«218896_g85959475462175_cont_9to1_m_647_27_alg».proof.Proof.RefTerm
import Idealize.ShloMosaic.Lib.StableHlo.Run
import Idealize.ShloMosaic.PureOps.Ideal

noncomputable section

namespace Cert.Proof.RefRun

open Cert.ReferenceIdeal Cert.ReferenceIdeal.Facts₀ Idealize.ShloMosaic Idealize.ShloMosaic.TcCoe Idealize.SL.Sem Idealize.ShloMosaic.StableHlo

/-- The table argument of the first call, at the type the callee takes it. -/
abbrev tab0 : TRef sig ⟨S100000x64, .f32⟩ := .of main_arg0
/-- The index argument of the first call, at the type the callee takes it. -/
abbrev idx0 : TRef sig ⟨S16384, .i32⟩ := .of main_arg8

/-- The first call's twenty-three operations, in order (the nested selection function's one operation in its place, seventh). -/
abbrev ops0 : List (HloOp τ sig (Elt Ideal)) :=
  [ TRef.nullary main_call0.c (constantI S_ 32 0#32),
    TRef.unary main_call0.c main_call0.v0 (broadcastInDim S16384 ![] bcast_S_S16384),
    TRef.binary idx0 main_call0.v0 main_call0.v1 (cmpi .slt),
    TRef.nullary main_call0.c_0 (constantI S_ 32 100000#32),
    TRef.unary main_call0.c_0 main_call0.v2 (broadcastInDim S16384 ![] bcast_S_S16384),
    TRef.binary idx0 main_call0.v2 main_call0.v3 addi,
    TRef.ternary main_call0.v1 main_call0.v3 idx0 main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary tab0 main_call0.v5 main_call0.v13 (fun x i => Host.gather gather_S100000x64_S16384x1_S16384x64_1_0_n_n_0_1_164 x i),
    TRef.unary main_call0.v12 main_call0.v14 (broadcastInDim S16384x64 ![0] bcast_S16384_S16384x64_0),
    TRef.nullary main_call0.cst (constant (F := Ideal) S_ .f32 0x7FC00000#32),
    TRef.unary main_call0.cst main_call0.v15 (broadcastInDim S16384x64 ![] bcast_S_S16384x64),
    TRef.ternary main_call0.v14 main_call0.v13 main_call0.v15 main_call0.v16 select ]

/-- The call's body is that straight line: the selection function's definition unfolded at its call, both sides are one
    chain of steps once sequencing is reassociated. -/
theorem body0_eq : fn_take.body (F := Ideal) tab0 idx0 main_call0 = seq ops0 := by
  simp only [fn_take.body, fn_where.body, seq, bind_assoc, pure_bind]

theorem ops0_sub : (ops0 : List (HloOp τ sig (Elt Ideal))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Every operation of the line determines its result (none allocates a buffer of unspecified contents). -/
theorem ops0_fresh : ∀ op ∈ (ops0 : List (HloOp τ sig (Elt Ideal))), op.fresh = ∅ := by
  intro _ h; (repeat (cases h with | head => rfl | tail _ h => ?_)); exact nomatch h

-- the reduction and the gather are folds and searches over their operand's elements, which the equation never looks
-- inside: kept folded, so that the comparison opens only the chain of results; the chain is twenty-three deep and the
-- composed term repeats the wrapped index three times, hence the recursion bound
attribute [local irreducible] Host.reduce Host.gather in
set_option maxRecDepth 16384 in
/-- After the line, the call's result buffer holds the composed term of the two argument buffers' contents at its
    start: the fold unrolled, each operation's result read at its own buffer is its function's value and at any other
    buffer what was there, and the typed references' casts are the identity at these literal references — all of it by
    computation. -/
theorem after0_res (V : Valuation τ sig (Elt Ideal)) :
    after ops0 V (main_v0 : DevRef τ sig)
      = Cert.Proof.RefTerm.take100000 (V (main_arg0 : DevRef τ sig)) (V (main_arg8 : DevRef τ sig)) := by
  simp only [after_cons, after_nil]
  rfl

/-- The buffers the line writes: one per operation, in order. -/
abbrev ops0_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]

theorem ops0_writes : (ops0 : List (HloOp τ sig (Elt Ideal))).Forall fun op => op.writes ⊆ (ops0_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the line does not write keeps its contents through it. -/
theorem after0_keep (V : Valuation τ sig (Elt Ideal)) (r : Ref sig .tc) (h : r ∉ ops0_W) :
    after ops0 V (Proc.devRef .tc r) = V (Proc.devRef .tc r) :=
  after_of_writes_sub ops0 V ops0_writes h

end Cert.Proof.RefRun

end
-- ==== Proof.RefRun1.lean ====
/-
  The second lookup of the reference program, run on its own. One call of the outlined take function is a straight
  line of twenty-three operations over that call's own buffers: the index words that are negative get the table's
  height 1000000 added (a comparison with zero, an addition, a selection), the words are laid out as a column, tested
  against the bounds 0 and 999999, the table's rows gathered at them, and a row whose word failed the test replaced
  by the not-a-number constant. Here: the operations as a list; that the call's body IS that list run in order; that
  every operation touches TensorCore buffers only and determines its result; what the list leaves in the call's
  result buffer, as one composed function of the table's and the index array's contents; and that the list writes
  no buffer but its own twenty-three, so every other buffer keeps its contents through it.
-/
import proofs.«218896_g85959475462175_cont_9to1_m_647_27_alg».proof.Proof.Gen.ReferenceIdeal
import proofs.«218896_g85959475462175_cont_9to1_m_647_27_alg».proof.Proof.RefTerm
import Idealize.ShloMosaic.Lib.StableHlo.Run
import Idealize.ShloMosaic.PureOps.Ideal

noncomputable section

namespace Cert.Proof.RefRun

open Cert.ReferenceIdeal Cert.ReferenceIdeal.Facts₀ Idealize.ShloMosaic Idealize.ShloMosaic.TcCoe Idealize.SL.Sem Idealize.ShloMosaic.StableHlo

/-- The table argument of the second call, at the type the callee takes it. -/
abbrev tab1 : TRef sig ⟨S1000000x64, .f32⟩ := .of main_arg1
/-- The index argument of the second call, at the type the callee takes it. -/
abbrev idx1 : TRef sig ⟨S16384, .i32⟩ := .of main_arg9

/-- The second call's twenty-three operations, in order (the nested selection function's one operation in its place, seventh). -/
abbrev ops1 : List (HloOp τ sig (Elt Ideal)) :=
  [ TRef.nullary main_call1.c (constantI S_ 32 0#32),
    TRef.unary main_call1.c main_call1.v0 (broadcastInDim S16384 ![] bcast_S_S16384),
    TRef.binary idx1 main_call1.v0 main_call1.v1 (cmpi .slt),
    TRef.nullary main_call1.c_0 (constantI S_ 32 1000000#32),
    TRef.unary main_call1.c_0 main_call1.v2 (broadcastInDim S16384 ![] bcast_S_S16384),
    TRef.binary idx1 main_call1.v2 main_call1.v3 addi,
    TRef.ternary main_call1.v1 main_call1.v3 idx1 main_call1.call0.v0 select,
    TRef.unary main_call1.call0.v0 main_call1.v5 (broadcastInDim S16384x1 ![0] bcast_S16384_S16384x1_0),
    TRef.nullary main_call1.c_1 (constantI S1 32 999999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary tab1 main_call1.v5 main_call1.v13 (fun x i => Host.gather gather_S1000000x64_S16384x1_S16384x64_1_0_n_n_0_1_164 x i),
    TRef.unary main_call1.v12 main_call1.v14 (broadcastInDim S16384x64 ![0] bcast_S16384_S16384x64_0),
    TRef.nullary main_call1.cst (constant (F := Ideal) S_ .f32 0x7FC00000#32),
    TRef.unary main_call1.cst main_call1.v15 (broadcastInDim S16384x64 ![] bcast_S_S16384x64),
    TRef.ternary main_call1.v14 main_call1.v13 main_call1.v15 main_call1.v16 select ]

/-- The call's body is that straight line: the selection function's definition unfolded at its call, both sides are one
    chain of steps once sequencing is reassociated. -/
theorem body1_eq : fn_take_0.body (F := Ideal) tab1 idx1 main_call1 = seq ops1 := by
  simp only [fn_take_0.body, fn_where.body, seq, bind_assoc, pure_bind]

theorem ops1_sub : (ops1 : List (HloOp τ sig (Elt Ideal))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Every operation of the line determines its result (none allocates a buffer of unspecified contents). -/
theorem ops1_fresh : ∀ op ∈ (ops1 : List (HloOp τ sig (Elt Ideal))), op.fresh = ∅ := by
  intro _ h; (repeat (cases h with | head => rfl | tail _ h => ?_)); exact nomatch h

-- the reduction and the gather are folds and searches over their operand's elements, which the equation never looks
-- inside: kept folded, so that the comparison opens only the chain of results; the chain is twenty-three deep and the
-- composed term repeats the wrapped index three times, hence the recursion bound
attribute [local irreducible] Host.reduce Host.gather in
set_option maxRecDepth 16384 in
/-- After the line, the call's result buffer holds the composed term of the two argument buffers' contents at its
    start: the fold unrolled, each operation's result read at its own buffer is its function's value and at any other
    buffer what was there, and the typed references' casts are the identity at these literal references — all of it by
    computation. -/
theorem after1_res (V : Valuation τ sig (Elt Ideal)) :
    after ops1 V (main_v1 : DevRef τ sig)
      = Cert.Proof.RefTerm.take1000000 (V (main_arg1 : DevRef τ sig)) (V (main_arg9 : DevRef τ sig)) := by
  simp only [after_cons, after_nil]
  rfl

/-- The buffers the line writes: one per operation, in order. -/
abbrev ops1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1]

theorem ops1_writes : (ops1 : List (HloOp τ sig (Elt Ideal))).Forall fun op => op.writes ⊆ (ops1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the line does not write keeps its contents through it. -/
theorem after1_keep (V : Valuation τ sig (Elt Ideal)) (r : Ref sig .tc) (h : r ∉ ops1_W) :
    after ops1 V (Proc.devRef .tc r) = V (Proc.devRef .tc r) :=
  after_of_writes_sub ops1 V ops1_writes h

end Cert.Proof.RefRun

end
-- ==== Proof.RefRun2.lean ====
/-
  The third lookup of the reference program, run on its own. One call of the outlined take function is a straight
  line of twenty-three operations over that call's own buffers: the index words that are negative get the table's
  height 10000 added (a comparison with zero, an addition, a selection), the words are laid out as a column, tested
  against the bounds 0 and 9999, the table's rows gathered at them, and a row whose word failed the test replaced
  by the not-a-number constant. Here: the operations as a list; that the call's body IS that list run in order; that
  every operation touches TensorCore buffers only and determines its result; what the list leaves in the call's
  result buffer, as one composed function of the table's and the index array's contents; and that the list writes
  no buffer but its own twenty-three, so every other buffer keeps its contents through it.
-/
import proofs.«218896_g85959475462175_cont_9to1_m_647_27_alg».proof.Proof.Gen.ReferenceIdeal
import proofs.«218896_g85959475462175_cont_9to1_m_647_27_alg».proof.Proof.RefTerm
import Idealize.ShloMosaic.Lib.StableHlo.Run
import Idealize.ShloMosaic.PureOps.Ideal

noncomputable section

namespace Cert.Proof.RefRun

open Cert.ReferenceIdeal Cert.ReferenceIdeal.Facts₀ Idealize.ShloMosaic Idealize.ShloMosaic.TcCoe Idealize.SL.Sem Idealize.ShloMosaic.StableHlo

/-- The table argument of the third call, at the type the callee takes it. -/
abbrev tab2 : TRef sig ⟨S10000x64, .f32⟩ := .of main_arg2
/-- The index argument of the third call, at the type the callee takes it. -/
abbrev idx2 : TRef sig ⟨S16384, .i32⟩ := .of main_arg10

/-- The third call's twenty-three operations, in order (the nested selection function's one operation in its place, seventh). -/
abbrev ops2 : List (HloOp τ sig (Elt Ideal)) :=
  [ TRef.nullary main_call2.c (constantI S_ 32 0#32),
    TRef.unary main_call2.c main_call2.v0 (broadcastInDim S16384 ![] bcast_S_S16384),
    TRef.binary idx2 main_call2.v0 main_call2.v1 (cmpi .slt),
    TRef.nullary main_call2.c_0 (constantI S_ 32 10000#32),
    TRef.unary main_call2.c_0 main_call2.v2 (broadcastInDim S16384 ![] bcast_S_S16384),
    TRef.binary idx2 main_call2.v2 main_call2.v3 addi,
    TRef.ternary main_call2.v1 main_call2.v3 idx2 main_call2.call0.v0 select,
    TRef.unary main_call2.call0.v0 main_call2.v5 (broadcastInDim S16384x1 ![0] bcast_S16384_S16384x1_0),
    TRef.nullary main_call2.c_1 (constantI S1 32 9999#32),
    TRef.nullary main_call2.c_2 (constantI S_ 32 0#32),
    TRef.unary main_call2.c_2 main_call2.v6 (broadcastInDim S16384x1 ![] bcast_S_S16384x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16384x1 ![0, 1] bcast_S1x1_S16384x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16384x1_S16384_d1 h_S_),
    TRef.binary tab2 main_call2.v5 main_call2.v13 (fun x i => Host.gather gather_S10000x64_S16384x1_S16384x64_1_0_n_n_0_1_164 x i),
    TRef.unary main_call2.v12 main_call2.v14 (broadcastInDim S16384x64 ![0] bcast_S16384_S16384x64_0),
    TRef.nullary main_call2.cst (constant (F := Ideal) S_ .f32 0x7FC00000#32),
    TRef.unary main_call2.cst main_call2.v15 (broadcastInDim S16384x64 ![] bcast_S_S16384x64),
    TRef.ternary main_call2.v14 main_call2.v13 main_call2.v15 main_call2.v16 select ]

/-- The call's body is that straight line: the selection function's definition unfolded at its call, both sides are one
    chain of steps once sequencing is reassociated. -/
theorem body2_eq : fn_take_1.body (F := Ideal) tab2 idx2 main_call2 = seq ops2 := by
  simp only [fn_take_1.body, fn_where.body, seq, bind_assoc, pure_bind]

theorem ops2_sub : (ops2 : List (HloOp τ sig (Elt Ideal))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Every operation of the line determines its result (none allocates a buffer of unspecified contents). -/
theorem ops2_fresh : ∀ op ∈ (ops2 : List (HloOp τ sig (Elt Ideal))), op.fresh = ∅ := by
  intro _ h; (repeat (cases h with | head => rfl | tail _ h => ?_)); exact nomatch h

-- the reduction and the gather are folds and searches over their operand's elements, which the equation never looks
-- inside: kept folded, so that the comparison opens only the chain of results; the chain is twenty-three deep and the
-- composed term repeats the wrapped index three times, hence the recursion bound
attribute [local irreducible] Host.reduce Host.gather in
set_option maxRecDepth 16384 in
/-- After the line, the call's result buffer holds the composed term of the two argument buffers' contents at its
    start: the fold unrolled, each operation's result read at its own buffer is its function's value and at any other
    buffer what was there, and the typed references' casts are the identity at these literal references — all of it by
    computation. -/
theorem after2_res (V : Valuation τ sig (Elt Ideal)) :
    after ops2 V (main_v2 : DevRef τ sig)
      = Cert.Proof.RefTerm.take10000 (V (main_arg2 : DevRef τ sig)) (V (main_arg10 : DevRef τ sig)) := by
  simp only [after_cons, after_nil]
  rfl

/-- The buffers the line writes: one per operation, in order. -/
abbrev ops2_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v2]

theorem ops2_writes : (ops2 : List (HloOp τ sig (Elt Ideal))).Forall fun op => op.writes ⊆ (ops2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the line does not write keeps its contents through it. -/
theorem after2_keep (V : Valuation τ sig (Elt Ideal)) (r : Ref sig .tc) (h : r ∉ ops2_W) :
    after ops2 V (Proc.devRef .tc r) = V (Proc.devRef .tc r) :=
  after_of_writes_sub ops2 V ops2_writes h

end Cert.Proof.RefRun

end
-- ==== Proof.RefRun3.lean ====
/-
  The fourth lookup of the reference program, run on its own. One call of the outlined take function is a straight
  line of twenty-three operations over that call's own buffers: the index words that are negative get the table's
  height 20000 added (a comparison with zero, an addition, a selection), the words are laid out as a column, tested
  against the bounds 0 and 19999, the table's rows gathered at them, and a row whose word failed the test replaced
  by the not-a-number constant. Here: the operations as a list; that the call's body IS that list run in order; that
  every operation touches TensorCore buffers only and determines its result; what the list leaves in the call's
  result buffer, as one composed function of the table's and the index array's contents; and that the list writes
  no buffer but its own twenty-three, so every other buffer keeps its contents through it.
-/
import proofs.«218896_g85959475462175_cont_9to1_m_647_27_alg».proof.Proof.Gen.ReferenceIdeal
import proofs.«218896_g85959475462175_cont_9to1_m_647_27_alg».proof.Proof.RefTerm
import Idealize.ShloMosaic.Lib.StableHlo.Run
import Idealize.ShloMosaic.PureOps.Ideal

noncomputable section

namespace Cert.Proof.RefRun

open Cert.ReferenceIdeal Cert.ReferenceIdeal.Facts₀ Idealize.ShloMosaic Idealize.ShloMosaic.TcCoe Idealize.SL.Sem Idealize.ShloMosaic.StableHlo

/-- The table argument of the fourth call, at the type the callee takes it. -/
abbrev tab3 : TRef sig ⟨S20000x64, .f32⟩ := .of main_arg3
/-- The index argument of the fourth call, at the type the callee takes it. -/
abbrev idx3 : TRef sig ⟨S16384, .i32⟩ := .of main_arg11

/-- The fourth call's twenty-three operations, in order (the nested selection function's one operation in its place, seventh). -/
abbrev ops3 : List (HloOp τ sig (Elt Ideal)) :=
  [ TRef.nullary main_call3.c (constantI S_ 32 0#32),
    TRef.unary main_call3.c main_call3.v0 (broadcastInDim S16384 ![] bcast_S_S16384),
    TRef.binary idx3 main_call3.v0 main_call3.v1 (cmpi .slt),
    TRef.nullary main_call3.c_0 (constantI S_ 32 20000#32),
    TRef.unary main_call3.c_0 main_call3.v2 (broadcastInDim S16384 ![] bcast_S_S16384),
    TRef.binary idx3 main_call3.v2 main_call3.v3 addi,
    TRef.ternary main_call3.v1 main_call3.v3 idx3 main_call3.call0.v0 select,
    TRef.unary main_call3.call0.v0 main_call3.v5 (broadcastInDim S16384x1 ![0] bcast_S16384_S16384x1_0),
    TRef.nullary main_call3.c_1 (constantI S1 32 19999#32),
    TRef.nullary main_call3.c_2 (constantI S_ 32 0#32),
    TRef.unary main_call3.c_2 main_call3.v6 (broadcastInDim S16384x1 ![] bcast_S_S16384x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S16384x1 ![0, 1] bcast_S1x1_S16384x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S16384x1_S16384_d1 h_S_),
    TRef.binary tab3 main_call3.v5 main_call3.v13 (fun x i => Host.gather gather_S20000x64_S16384x1_S16384x64_1_0_n_n_0_1_164 x i),
    TRef.unary main_call3.v12 main_call3.v14 (broadcastInDim S16384x64 ![0] bcast_S16384_S16384x64_0),
    TRef.nullary main_call3.cst (constant (F := Ideal) S_ .f32 0x7FC00000#32),
    TRef.unary main_call3.cst main_call3.v15 (broadcastInDim S16384x64 ![] bcast_S_S16384x64),
    TRef.ternary main_call3.v14 main_call3.v13 main_call3.v15 main_call3.v16 select ]

/-- The call's body is that straight line: the selection function's definition unfolded at its call, both sides are one
    chain of steps once sequencing is reassociated. -/
theorem body3_eq : fn_take_2.body (F := Ideal) tab3 idx3 main_call3 = seq ops3 := by
  simp only [fn_take_2.body, fn_where.body, seq, bind_assoc, pure_bind]

theorem ops3_sub : (ops3 : List (HloOp τ sig (Elt Ideal))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Every operation of the line determines its result (none allocates a buffer of unspecified contents). -/
theorem ops3_fresh : ∀ op ∈ (ops3 : List (HloOp τ sig (Elt Ideal))), op.fresh = ∅ := by
  intro _ h; (repeat (cases h with | head => rfl | tail _ h => ?_)); exact nomatch h

-- the reduction and the gather are folds and searches over their operand's elements, which the equation never looks
-- inside: kept folded, so that the comparison opens only the chain of results; the chain is twenty-three deep and the
-- composed term repeats the wrapped index three times, hence the recursion bound
attribute [local irreducible] Host.reduce Host.gather in
set_option maxRecDepth 16384 in
/-- After the line, the call's result buffer holds the composed term of the two argument buffers' contents at its
    start: the fold unrolled, each operation's result read at its own buffer is its function's value and at any other
    buffer what was there, and the typed references' casts are the identity at these literal references — all of it by
    computation. -/
theorem after3_res (V : Valuation τ sig (Elt Ideal)) :
    after ops3 V (main_v3 : DevRef τ sig)
      = Cert.Proof.RefTerm.take20000 (V (main_arg3 : DevRef τ sig)) (V (main_arg11 : DevRef τ sig)) := by
  simp only [after_cons, after_nil]
  rfl

/-- The buffers the line writes: one per operation, in order. -/
abbrev ops3_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v3]

theorem ops3_writes : (ops3 : List (HloOp τ sig (Elt Ideal))).Forall fun op => op.writes ⊆ (ops3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the line does not write keeps its contents through it. -/
theorem after3_keep (V : Valuation τ sig (Elt Ideal)) (r : Ref sig .tc) (h : r ∉ ops3_W) :
    after ops3 V (Proc.devRef .tc r) = V (Proc.devRef .tc r) :=
  after_of_writes_sub ops3 V ops3_writes h

end Cert.Proof.RefRun

end
-- ==== Proof.RefRun4.lean ====
/-
  The fifth lookup of the reference program, run on its own. One call of the outlined take function is a straight
  line of twenty-three operations over that call's own buffers: the index words that are negative get the table's
  height 20000 added (a comparison with zero, an addition, a selection), the words are laid out as a column, tested
  against the bounds 0 and 19999, the table's rows gathered at them, and a row whose word failed the test replaced
  by the not-a-number constant. Here: the operations as a list; that the call's body IS that list run in order; that
  every operation touches TensorCore buffers only and determines its result; what the list leaves in the call's
  result buffer, as one composed function of the table's and the index array's contents; and that the list writes
  no buffer but its own twenty-three, so every other buffer keeps its contents through it.
-/
import proofs.«218896_g85959475462175_cont_9to1_m_647_27_alg».proof.Proof.Gen.ReferenceIdeal
import proofs.«218896_g85959475462175_cont_9to1_m_647_27_alg».proof.Proof.RefTerm
import Idealize.ShloMosaic.Lib.StableHlo.Run
import Idealize.ShloMosaic.PureOps.Ideal

noncomputable section

namespace Cert.Proof.RefRun

open Cert.ReferenceIdeal Cert.ReferenceIdeal.Facts₀ Idealize.ShloMosaic Idealize.ShloMosaic.TcCoe Idealize.SL.Sem Idealize.ShloMosaic.StableHlo

/-- The table argument of the fifth call, at the type the callee takes it. -/
abbrev tab4 : TRef sig ⟨S20000x64, .f32⟩ := .of main_arg4
/-- The index argument of the fifth call, at the type the callee takes it. -/
abbrev idx4 : TRef sig ⟨S16384, .i32⟩ := .of main_arg12

/-- The fifth call's twenty-three operations, in order (the nested selection function's one operation in its place, seventh). -/
abbrev ops4 : List (HloOp τ sig (Elt Ideal)) :=
  [ TRef.nullary main_call4.c (constantI S_ 32 0#32),
    TRef.unary main_call4.c main_call4.v0 (broadcastInDim S16384 ![] bcast_S_S16384),
    TRef.binary idx4 main_call4.v0 main_call4.v1 (cmpi .slt),
    TRef.nullary main_call4.c_0 (constantI S_ 32 20000#32),
    TRef.unary main_call4.c_0 main_call4.v2 (broadcastInDim S16384 ![] bcast_S_S16384),
    TRef.binary idx4 main_call4.v2 main_call4.v3 addi,
    TRef.ternary main_call4.v1 main_call4.v3 idx4 main_call4.call0.v0 select,
    TRef.unary main_call4.call0.v0 main_call4.v5 (broadcastInDim S16384x1 ![0] bcast_S16384_S16384x1_0),
    TRef.nullary main_call4.c_1 (constantI S1 32 19999#32),
    TRef.nullary main_call4.c_2 (constantI S_ 32 0#32),
    TRef.unary main_call4.c_2 main_call4.v6 (broadcastInDim S16384x1 ![] bcast_S_S16384x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S16384x1 ![0, 1] bcast_S1x1_S16384x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S16384x1_S16384_d1 h_S_),
    TRef.binary tab4 main_call4.v5 main_call4.v13 (fun x i => Host.gather gather_S20000x64_S16384x1_S16384x64_1_0_n_n_0_1_164 x i),
    TRef.unary main_call4.v12 main_call4.v14 (broadcastInDim S16384x64 ![0] bcast_S16384_S16384x64_0),
    TRef.nullary main_call4.cst (constant (F := Ideal) S_ .f32 0x7FC00000#32),
    TRef.unary main_call4.cst main_call4.v15 (broadcastInDim S16384x64 ![] bcast_S_S16384x64),
    TRef.ternary main_call4.v14 main_call4.v13 main_call4.v15 main_call4.v16 select ]

/-- The call's body is that straight line: the selection function's definition unfolded at its call, both sides are one
    chain of steps once sequencing is reassociated. -/
theorem body4_eq : fn_take_2.body (F := Ideal) tab4 idx4 main_call4 = seq ops4 := by
  simp only [fn_take_2.body, fn_where.body, seq, bind_assoc, pure_bind]

theorem ops4_sub : (ops4 : List (HloOp τ sig (Elt Ideal))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Every operation of the line determines its result (none allocates a buffer of unspecified contents). -/
theorem ops4_fresh : ∀ op ∈ (ops4 : List (HloOp τ sig (Elt Ideal))), op.fresh = ∅ := by
  intro _ h; (repeat (cases h with | head => rfl | tail _ h => ?_)); exact nomatch h

-- the reduction and the gather are folds and searches over their operand's elements, which the equation never looks
-- inside: kept folded, so that the comparison opens only the chain of results; the chain is twenty-three deep and the
-- composed term repeats the wrapped index three times, hence the recursion bound
attribute [local irreducible] Host.reduce Host.gather in
set_option maxRecDepth 16384 in
/-- After the line, the call's result buffer holds the composed term of the two argument buffers' contents at its
    start: the fold unrolled, each operation's result read at its own buffer is its function's value and at any other
    buffer what was there, and the typed references' casts are the identity at these literal references — all of it by
    computation. -/
theorem after4_res (V : Valuation τ sig (Elt Ideal)) :
    after ops4 V (main_v4 : DevRef τ sig)
      = Cert.Proof.RefTerm.take20000 (V (main_arg4 : DevRef τ sig)) (V (main_arg12 : DevRef τ sig)) := by
  simp only [after_cons, after_nil]
  rfl

/-- The buffers the line writes: one per operation, in order. -/
abbrev ops4_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v4]

theorem ops4_writes : (ops4 : List (HloOp τ sig (Elt Ideal))).Forall fun op => op.writes ⊆ (ops4_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the line does not write keeps its contents through it. -/
theorem after4_keep (V : Valuation τ sig (Elt Ideal)) (r : Ref sig .tc) (h : r ∉ ops4_W) :
    after ops4 V (Proc.devRef .tc r) = V (Proc.devRef .tc r) :=
  after_of_writes_sub ops4 V ops4_writes h

end Cert.Proof.RefRun

end
-- ==== Proof.RefRun5.lean ====
/-
  The sixth lookup of the reference program, run on its own. One call of the outlined take function is a straight
  line of twenty-three operations over that call's own buffers: the index words that are negative get the table's
  height 10000 added (a comparison with zero, an addition, a selection), the words are laid out as a column, tested
  against the bounds 0 and 9999, the table's rows gathered at them, and a row whose word failed the test replaced
  by the not-a-number constant. Here: the operations as a list; that the call's body IS that list run in order; that
  every operation touches TensorCore buffers only and determines its result; what the list leaves in the call's
  result buffer, as one composed function of the table's and the index array's contents; and that the list writes
  no buffer but its own twenty-three, so every other buffer keeps its contents through it.
-/
import proofs.«218896_g85959475462175_cont_9to1_m_647_27_alg».proof.Proof.Gen.ReferenceIdeal
import proofs.«218896_g85959475462175_cont_9to1_m_647_27_alg».proof.Proof.RefTerm
import Idealize.ShloMosaic.Lib.StableHlo.Run
import Idealize.ShloMosaic.PureOps.Ideal

noncomputable section

namespace Cert.Proof.RefRun

open Cert.ReferenceIdeal Cert.ReferenceIdeal.Facts₀ Idealize.ShloMosaic Idealize.ShloMosaic.TcCoe Idealize.SL.Sem Idealize.ShloMosaic.StableHlo

/-- The table argument of the sixth call, at the type the callee takes it. -/
abbrev tab5 : TRef sig ⟨S10000x64, .f32⟩ := .of main_arg5
/-- The index argument of the sixth call, at the type the callee takes it. -/
abbrev idx5 : TRef sig ⟨S16384, .i32⟩ := .of main_arg13

/-- The sixth call's twenty-three operations, in order (the nested selection function's one operation in its place, seventh). -/
abbrev ops5 : List (HloOp τ sig (Elt Ideal)) :=
  [ TRef.nullary main_call5.c (constantI S_ 32 0#32),
    TRef.unary main_call5.c main_call5.v0 (broadcastInDim S16384 ![] bcast_S_S16384),
    TRef.binary idx5 main_call5.v0 main_call5.v1 (cmpi .slt),
    TRef.nullary main_call5.c_0 (constantI S_ 32 10000#32),
    TRef.unary main_call5.c_0 main_call5.v2 (broadcastInDim S16384 ![] bcast_S_S16384),
    TRef.binary idx5 main_call5.v2 main_call5.v3 addi,
    TRef.ternary main_call5.v1 main_call5.v3 idx5 main_call5.call0.v0 select,
    TRef.unary main_call5.call0.v0 main_call5.v5 (broadcastInDim S16384x1 ![0] bcast_S16384_S16384x1_0),
    TRef.nullary main_call5.c_1 (constantI S1 32 9999#32),
    TRef.nullary main_call5.c_2 (constantI S_ 32 0#32),
    TRef.unary main_call5.c_2 main_call5.v6 (broadcastInDim S16384x1 ![] bcast_S_S16384x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S16384x1 ![0, 1] bcast_S1x1_S16384x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S16384x1_S16384_d1 h_S_),
    TRef.binary tab5 main_call5.v5 main_call5.v13 (fun x i => Host.gather gather_S10000x64_S16384x1_S16384x64_1_0_n_n_0_1_164 x i),
    TRef.unary main_call5.v12 main_call5.v14 (broadcastInDim S16384x64 ![0] bcast_S16384_S16384x64_0),
    TRef.nullary main_call5.cst (constant (F := Ideal) S_ .f32 0x7FC00000#32),
    TRef.unary main_call5.cst main_call5.v15 (broadcastInDim S16384x64 ![] bcast_S_S16384x64),
    TRef.ternary main_call5.v14 main_call5.v13 main_call5.v15 main_call5.v16 select ]

/-- The call's body is that straight line: the selection function's definition unfolded at its call, both sides are one
    chain of steps once sequencing is reassociated. -/
theorem body5_eq : fn_take_1.body (F := Ideal) tab5 idx5 main_call5 = seq ops5 := by
  simp only [fn_take_1.body, fn_where.body, seq, bind_assoc, pure_bind]

theorem ops5_sub : (ops5 : List (HloOp τ sig (Elt Ideal))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Every operation of the line determines its result (none allocates a buffer of unspecified contents). -/
theorem ops5_fresh : ∀ op ∈ (ops5 : List (HloOp τ sig (Elt Ideal))), op.fresh = ∅ := by
  intro _ h; (repeat (cases h with | head => rfl | tail _ h => ?_)); exact nomatch h

-- the reduction and the gather are folds and searches over their operand's elements, which the equation never looks
-- inside: kept folded, so that the comparison opens only the chain of results; the chain is twenty-three deep and the
-- composed term repeats the wrapped index three times, hence the recursion bound
attribute [local irreducible] Host.reduce Host.gather in
set_option maxRecDepth 16384 in
/-- After the line, the call's result buffer holds the composed term of the two argument buffers' contents at its
    start: the fold unrolled, each operation's result read at its own buffer is its function's value and at any other
    buffer what was there, and the typed references' casts are the identity at these literal references — all of it by
    computation. -/
theorem after5_res (V : Valuation τ sig (Elt Ideal)) :
    after ops5 V (main_v5 : DevRef τ sig)
      = Cert.Proof.RefTerm.take10000 (V (main_arg5 : DevRef τ sig)) (V (main_arg13 : DevRef τ sig)) := by
  simp only [after_cons, after_nil]
  rfl

/-- The buffers the line writes: one per operation, in order. -/
abbrev ops5_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v5]

theorem ops5_writes : (ops5 : List (HloOp τ sig (Elt Ideal))).Forall fun op => op.writes ⊆ (ops5_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the line does not write keeps its contents through it. -/
theorem after5_keep (V : Valuation τ sig (Elt Ideal)) (r : Ref sig .tc) (h : r ∉ ops5_W) :
    after ops5 V (Proc.devRef .tc r) = V (Proc.devRef .tc r) :=
  after_of_writes_sub ops5 V ops5_writes h

end Cert.Proof.RefRun

end
-- ==== Proof.RefRun6.lean ====
/-
  The seventh lookup of the reference program, run on its own. One call of the outlined take function is a straight
  line of twenty-three operations over that call's own buffers: the index words that are negative get the table's
  height 5000 added (a comparison with zero, an addition, a selection), the words are laid out as a column, tested
  against the bounds 0 and 4999, the table's rows gathered at them, and a row whose word failed the test replaced
  by the not-a-number constant. Here: the operations as a list; that the call's body IS that list run in order; that
  every operation touches TensorCore buffers only and determines its result; what the list leaves in the call's
  result buffer, as one composed function of the table's and the index array's contents; and that the list writes
  no buffer but its own twenty-three, so every other buffer keeps its contents through it.
-/
import proofs.«218896_g85959475462175_cont_9to1_m_647_27_alg».proof.Proof.Gen.ReferenceIdeal
import proofs.«218896_g85959475462175_cont_9to1_m_647_27_alg».proof.Proof.RefTerm
import Idealize.ShloMosaic.Lib.StableHlo.Run
import Idealize.ShloMosaic.PureOps.Ideal

noncomputable section

namespace Cert.Proof.RefRun

open Cert.ReferenceIdeal Cert.ReferenceIdeal.Facts₀ Idealize.ShloMosaic Idealize.ShloMosaic.TcCoe Idealize.SL.Sem Idealize.ShloMosaic.StableHlo

/-- The table argument of the seventh call, at the type the callee takes it. -/
abbrev tab6 : TRef sig ⟨S5000x64, .f32⟩ := .of main_arg6
/-- The index argument of the seventh call, at the type the callee takes it. -/
abbrev idx6 : TRef sig ⟨S16384, .i32⟩ := .of main_arg14

/-- The seventh call's twenty-three operations, in order (the nested selection function's one operation in its place, seventh). -/
abbrev ops6 : List (HloOp τ sig (Elt Ideal)) :=
  [ TRef.nullary main_call6.c (constantI S_ 32 0#32),
    TRef.unary main_call6.c main_call6.v0 (broadcastInDim S16384 ![] bcast_S_S16384),
    TRef.binary idx6 main_call6.v0 main_call6.v1 (cmpi .slt),
    TRef.nullary main_call6.c_0 (constantI S_ 32 5000#32),
    TRef.unary main_call6.c_0 main_call6.v2 (broadcastInDim S16384 ![] bcast_S_S16384),
    TRef.binary idx6 main_call6.v2 main_call6.v3 addi,
    TRef.ternary main_call6.v1 main_call6.v3 idx6 main_call6.call0.v0 select,
    TRef.unary main_call6.call0.v0 main_call6.v5 (broadcastInDim S16384x1 ![0] bcast_S16384_S16384x1_0),
    TRef.nullary main_call6.c_1 (constantI S1 32 4999#32),
    TRef.nullary main_call6.c_2 (constantI S_ 32 0#32),
    TRef.unary main_call6.c_2 main_call6.v6 (broadcastInDim S16384x1 ![] bcast_S_S16384x1),
    TRef.binary main_call6.v5 main_call6.v6 main_call6.v7 (cmpi .sge),
    TRef.unary main_call6.c_1 main_call6.v8 (broadcastInDim S1x1 ![1] bcast_S1_S1x1_1),
    TRef.unary main_call6.v8 main_call6.v9 (broadcastInDim S16384x1 ![0, 1] bcast_S1x1_S16384x1_0_1),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S16384x1_S16384_d1 h_S_),
    TRef.binary tab6 main_call6.v5 main_call6.v13 (fun x i => Host.gather gather_S5000x64_S16384x1_S16384x64_1_0_n_n_0_1_164 x i),
    TRef.unary main_call6.v12 main_call6.v14 (broadcastInDim S16384x64 ![0] bcast_S16384_S16384x64_0),
    TRef.nullary main_call6.cst (constant (F := Ideal) S_ .f32 0x7FC00000#32),
    TRef.unary main_call6.cst main_call6.v15 (broadcastInDim S16384x64 ![] bcast_S_S16384x64),
    TRef.ternary main_call6.v14 main_call6.v13 main_call6.v15 main_call6.v16 select ]

/-- The call's body is that straight line: the selection function's definition unfolded at its call, both sides are one
    chain of steps once sequencing is reassociated. -/
theorem body6_eq : fn_take_3.body (F := Ideal) tab6 idx6 main_call6 = seq ops6 := by
  simp only [fn_take_3.body, fn_where.body, seq, bind_assoc, pure_bind]

theorem ops6_sub : (ops6 : List (HloOp τ sig (Elt Ideal))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Every operation of the line determines its result (none allocates a buffer of unspecified contents). -/
theorem ops6_fresh : ∀ op ∈ (ops6 : List (HloOp τ sig (Elt Ideal))), op.fresh = ∅ := by
  intro _ h; (repeat (cases h with | head => rfl | tail _ h => ?_)); exact nomatch h

-- the reduction and the gather are folds and searches over their operand's elements, which the equation never looks
-- inside: kept folded, so that the comparison opens only the chain of results; the chain is twenty-three deep and the
-- composed term repeats the wrapped index three times, hence the recursion bound
attribute [local irreducible] Host.reduce Host.gather in
set_option maxRecDepth 16384 in
/-- After the line, the call's result buffer holds the composed term of the two argument buffers' contents at its
    start: the fold unrolled, each operation's result read at its own buffer is its function's value and at any other
    buffer what was there, and the typed references' casts are the identity at these literal references — all of it by
    computation. -/
theorem after6_res (V : Valuation τ sig (Elt Ideal)) :
    after ops6 V (main_v6 : DevRef τ sig)
      = Cert.Proof.RefTerm.take5000 (V (main_arg6 : DevRef τ sig)) (V (main_arg14 : DevRef τ sig)) := by
  simp only [after_cons, after_nil]
  rfl

/-- The buffers the line writes: one per operation, in order. -/
abbrev ops6_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v6]

theorem ops6_writes : (ops6 : List (HloOp τ sig (Elt Ideal))).Forall fun op => op.writes ⊆ (ops6_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the line does not write keeps its contents through it. -/
theorem after6_keep (V : Valuation τ sig (Elt Ideal)) (r : Ref sig .tc) (h : r ∉ ops6_W) :
    after ops6 V (Proc.devRef .tc r) = V (Proc.devRef .tc r) :=
  after_of_writes_sub ops6 V ops6_writes h

end Cert.Proof.RefRun

end
-- ==== Proof.RefRun7.lean ====
/-
  The eighth lookup of the reference program, run on its own. One call of the outlined take function is a straight
  line of twenty-three operations over that call's own buffers: the index words that are negative get the table's
  height 1000 added (a comparison with zero, an addition, a selection), the words are laid out as a column, tested
  against the bounds 0 and 999, the table's rows gathered at them, and a row whose word failed the test replaced
  by the not-a-number constant. Here: the operations as a list; that the call's body IS that list run in order; that
  every operation touches TensorCore buffers only and determines its result; what the list leaves in the call's
  result buffer, as one composed function of the table's and the index array's contents; and that the list writes
  no buffer but its own twenty-three, so every other buffer keeps its contents through it.
-/
import proofs.«218896_g85959475462175_cont_9to1_m_647_27_alg».proof.Proof.Gen.ReferenceIdeal
import proofs.«218896_g85959475462175_cont_9to1_m_647_27_alg».proof.Proof.RefTerm
import Idealize.ShloMosaic.Lib.StableHlo.Run
import Idealize.ShloMosaic.PureOps.Ideal

noncomputable section

namespace Cert.Proof.RefRun

open Cert.ReferenceIdeal Cert.ReferenceIdeal.Facts₀ Idealize.ShloMosaic Idealize.ShloMosaic.TcCoe Idealize.SL.Sem Idealize.ShloMosaic.StableHlo

/-- The table argument of the eighth call, at the type the callee takes it. -/
abbrev tab7 : TRef sig ⟨S1000x64, .f32⟩ := .of main_arg7
/-- The index argument of the eighth call, at the type the callee takes it. -/
abbrev idx7 : TRef sig ⟨S16384, .i32⟩ := .of main_arg15

/-- The eighth call's twenty-three operations, in order (the nested selection function's one operation in its place, seventh). -/
abbrev ops7 : List (HloOp τ sig (Elt Ideal)) :=
  [ TRef.nullary main_call7.c (constantI S_ 32 0#32),
    TRef.unary main_call7.c main_call7.v0 (broadcastInDim S16384 ![] bcast_S_S16384),
    TRef.binary idx7 main_call7.v0 main_call7.v1 (cmpi .slt),
    TRef.nullary main_call7.c_0 (constantI S_ 32 1000#32),
    TRef.unary main_call7.c_0 main_call7.v2 (broadcastInDim S16384 ![] bcast_S_S16384),
    TRef.binary idx7 main_call7.v2 main_call7.v3 addi,
    TRef.ternary main_call7.v1 main_call7.v3 idx7 main_call7.call0.v0 select,
    TRef.unary main_call7.call0.v0 main_call7.v5 (broadcastInDim S16384x1 ![0] bcast_S16384_S16384x1_0),
    TRef.nullary main_call7.c_1 (constantI S1 32 999#32),
    TRef.nullary main_call7.c_2 (constantI S_ 32 0#32),
    TRef.unary main_call7.c_2 main_call7.v6 (broadcastInDim S16384x1 ![] bcast_S_S16384x1),
    TRef.binary main_call7.v5 main_call7.v6 main_call7.v7 (cmpi .sge),
    TRef.unary main_call7.c_1 main_call7.v8 (broadcastInDim S1x1 ![1] bcast_S1_S1x1_1),
    TRef.unary main_call7.v8 main_call7.v9 (broadcastInDim S16384x1 ![0, 1] bcast_S1x1_S16384x1_0_1),
    TRef.binary main_call7.v5 main_call7.v9 main_call7.v10 (cmpi .sle),
    TRef.binary main_call7.v7 main_call7.v10 main_call7.v11 andi,
    TRef.nullary main_call7.c_3 (constantI S_ 1 1#1),
    TRef.binary main_call7.v11 main_call7.c_3 main_call7.v12 (fun x v => Host.reduce IntOp.andi x v reducesTo_S16384x1_S16384_d1 h_S_),
    TRef.binary tab7 main_call7.v5 main_call7.v13 (fun x i => Host.gather gather_S1000x64_S16384x1_S16384x64_1_0_n_n_0_1_164 x i),
    TRef.unary main_call7.v12 main_call7.v14 (broadcastInDim S16384x64 ![0] bcast_S16384_S16384x64_0),
    TRef.nullary main_call7.cst (constant (F := Ideal) S_ .f32 0x7FC00000#32),
    TRef.unary main_call7.cst main_call7.v15 (broadcastInDim S16384x64 ![] bcast_S_S16384x64),
    TRef.ternary main_call7.v14 main_call7.v13 main_call7.v15 main_call7.v16 select ]

/-- The call's body is that straight line: the selection function's definition unfolded at its call, both sides are one
    chain of steps once sequencing is reassociated. -/
theorem body7_eq : fn_take_4.body (F := Ideal) tab7 idx7 main_call7 = seq ops7 := by
  simp only [fn_take_4.body, fn_where.body, seq, bind_assoc, pure_bind]

theorem ops7_sub : (ops7 : List (HloOp τ sig (Elt Ideal))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Every operation of the line determines its result (none allocates a buffer of unspecified contents). -/
theorem ops7_fresh : ∀ op ∈ (ops7 : List (HloOp τ sig (Elt Ideal))), op.fresh = ∅ := by
  intro _ h; (repeat (cases h with | head => rfl | tail _ h => ?_)); exact nomatch h

-- the reduction and the gather are folds and searches over their operand's elements, which the equation never looks
-- inside: kept folded, so that the comparison opens only the chain of results; the chain is twenty-three deep and the
-- composed term repeats the wrapped index three times, hence the recursion bound
attribute [local irreducible] Host.reduce Host.gather in
set_option maxRecDepth 16384 in
/-- After the line, the call's result buffer holds the composed term of the two argument buffers' contents at its
    start: the fold unrolled, each operation's result read at its own buffer is its function's value and at any other
    buffer what was there, and the typed references' casts are the identity at these literal references — all of it by
    computation. -/
theorem after7_res (V : Valuation τ sig (Elt Ideal)) :
    after ops7 V (main_v7 : DevRef τ sig)
      = Cert.Proof.RefTerm.take1000 (V (main_arg7 : DevRef τ sig)) (V (main_arg15 : DevRef τ sig)) := by
  simp only [after_cons, after_nil]
  rfl

/-- The buffers the line writes: one per operation, in order. -/
abbrev ops7_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v7]

theorem ops7_writes : (ops7 : List (HloOp τ sig (Elt Ideal))).Forall fun op => op.writes ⊆ (ops7_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the line does not write keeps its contents through it. -/
theorem after7_keep (V : Valuation τ sig (Elt Ideal)) (r : Ref sig .tc) (h : r ∉ ops7_W) :
    after ops7 V (Proc.devRef .tc r) = V (Proc.devRef .tc r) :=
  after_of_writes_sub ops7 V ops7_writes h

end Cert.Proof.RefRun

end
-- ==== Proof.RefRun.lean ====
/-
  The reference program's run, assembled from its eight lookups. The program is eight calls in a row, each a straight
  line of twenty-three operations over buffers of its own, so the whole program is the one straight line of their
  concatenation; a straight line run from any memory terminates with every buffer at the fold of the operations'
  results over what it held at the start. Read at a result buffer, that fold is the result's own lookup — the
  composed term of its table and index array — because the lookups after it do not write it and the lookups before
  it write neither argument; read at an argument buffer it is what was there, because no lookup writes an argument.
-/
import proofs.«218896_g85959475462175_cont_9to1_m_647_27_alg».proof.Proof.RefRun0
import proofs.«218896_g85959475462175_cont_9to1_m_647_27_alg».proof.Proof.RefRun1
import proofs.«218896_g85959475462175_cont_9to1_m_647_27_alg».proof.Proof.RefRun2
import proofs.«218896_g85959475462175_cont_9to1_m_647_27_alg».proof.Proof.RefRun3
import proofs.«218896_g85959475462175_cont_9to1_m_647_27_alg».proof.Proof.RefRun4
import proofs.«218896_g85959475462175_cont_9to1_m_647_27_alg».proof.Proof.RefRun5
import proofs.«218896_g85959475462175_cont_9to1_m_647_27_alg».proof.Proof.RefRun6
import proofs.«218896_g85959475462175_cont_9to1_m_647_27_alg».proof.Proof.RefRun7
import Idealize.ShloMosaic.Lib.Pipeline.Frame

noncomputable section

namespace Cert.Proof.RefRun

open Cert.ReferenceIdeal Idealize.ShloMosaic Idealize.ShloMosaic.TcCoe Idealize.SL.Sem Idealize.ShloMosaic.StableHlo

/-- The program's operations, in order: the eight lookups' lines one after the other. -/
abbrev ops : List (HloOp τ sig (Elt Ideal)) := ops0 ++ (ops1 ++ (ops2 ++ (ops3 ++ (ops4 ++ (ops5 ++ (ops6 ++ (ops7 ++ [])))))))

/-- The program is that line: each call's body is its own line, and lines in a row are their concatenation run as one. -/
theorem main_eq (c : Dev nD) : main (F := Ideal) c = seq ops := by
  simp only [ops, seq_append, ← body0_eq, ← body1_eq, ← body2_eq, ← body3_eq, ← body4_eq, ← body5_eq, ← body6_eq, ← body7_eq]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt Ideal))).Forall fun op => op.bufs ⊆ tcRefs τ sig :=
  List.forall_iff_forall_mem.mpr fun op h => by
    simp only [ops, List.mem_append, List.not_mem_nil, or_false] at h
    rcases h with h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h]

theorem ops_fresh : ∀ op ∈ (ops : List (HloOp τ sig (Elt Ideal))), op.fresh = ∅ := fun op h => by
  simp only [ops, List.mem_append, List.not_mem_nil, or_false] at h
  rcases h with h | h | h | h | h | h | h | h
  exacts [ops0_fresh op h, ops1_fresh op h, ops2_fresh op h, ops3_fresh op h, ops4_fresh op h, ops5_fresh op h, ops6_fresh op h, ops7_fresh op h]

/-- The fold over the whole line is the eight lines' folds, one inside the other. -/
theorem after_ops (V : Valuation τ sig (Elt Ideal)) :
    after ops V = after ops7 (after ops6 (after ops5 (after ops4 (after ops3 (after ops2 (after ops1 (after ops0 (V)))))))) := by
  simp only [ops, StableHlo.after_append, after_nil]

/-- A buffer none of the eight lines writes keeps its contents through the program. -/
theorem ops_keep (V : Valuation τ sig (Elt Ideal)) (r : Ref sig .tc)
    (h0 : r ∉ ops0_W) (h1 : r ∉ ops1_W) (h2 : r ∉ ops2_W) (h3 : r ∉ ops3_W) (h4 : r ∉ ops4_W) (h5 : r ∉ ops5_W) (h6 : r ∉ ops6_W) (h7 : r ∉ ops7_W) :
    after ops V (Proc.devRef .tc r) = V (Proc.devRef .tc r) := by
  rw [after_ops, after7_keep _ r h7, after6_keep _ r h6, after5_keep _ r h5, after4_keep _ r h4, after3_keep _ r h3, after2_keep _ r h2, after1_keep _ r h1, after0_keep _ r h0]

/-- The first result: the later lookups do not write it, the first lookup leaves its composed term there, and the
    earlier lookups wrote neither of the two arguments it reads. -/
theorem res0 (V : Valuation τ sig (Elt Ideal)) :
    after ops V (main_v0 : DevRef τ sig)
      = Cert.Proof.RefTerm.take100000 (V (main_arg0 : DevRef τ sig)) (V (main_arg8 : DevRef τ sig)) := by
  rw [after_ops,
    after7_keep _ main_v0 (by decide),
    after6_keep _ main_v0 (by decide),
    after5_keep _ main_v0 (by decide),
    after4_keep _ main_v0 (by decide),
    after3_keep _ main_v0 (by decide),
    after2_keep _ main_v0 (by decide),
    after1_keep _ main_v0 (by decide),
    after0_res]

/-- The second result: the later lookups do not write it, the second lookup leaves its composed term there, and the
    earlier lookups wrote neither of the two arguments it reads. -/
theorem res1 (V : Valuation τ sig (Elt Ideal)) :
    after ops V (main_v1 : DevRef τ sig)
      = Cert.Proof.RefTerm.take1000000 (V (main_arg1 : DevRef τ sig)) (V (main_arg9 : DevRef τ sig)) := by
  rw [after_ops,
    after7_keep _ main_v1 (by decide),
    after6_keep _ main_v1 (by decide),
    after5_keep _ main_v1 (by decide),
    after4_keep _ main_v1 (by decide),
    after3_keep _ main_v1 (by decide),
    after2_keep _ main_v1 (by decide),
    after1_res,
    after0_keep _ main_arg1 (by decide),
    after0_keep _ main_arg9 (by decide)]

/-- The third result: the later lookups do not write it, the third lookup leaves its composed term there, and the
    earlier lookups wrote neither of the two arguments it reads. -/
theorem res2 (V : Valuation τ sig (Elt Ideal)) :
    after ops V (main_v2 : DevRef τ sig)
      = Cert.Proof.RefTerm.take10000 (V (main_arg2 : DevRef τ sig)) (V (main_arg10 : DevRef τ sig)) := by
  rw [after_ops,
    after7_keep _ main_v2 (by decide),
    after6_keep _ main_v2 (by decide),
    after5_keep _ main_v2 (by decide),
    after4_keep _ main_v2 (by decide),
    after3_keep _ main_v2 (by decide),
    after2_res,
    after1_keep _ main_arg2 (by decide),
    after0_keep _ main_arg2 (by decide),
    after1_keep _ main_arg10 (by decide),
    after0_keep _ main_arg10 (by decide)]

/-- The fourth result: the later lookups do not write it, the fourth lookup leaves its composed term there, and the
    earlier lookups wrote neither of the two arguments it reads. -/
theorem res3 (V : Valuation τ sig (Elt Ideal)) :
    after ops V (main_v3 : DevRef τ sig)
      = Cert.Proof.RefTerm.take20000 (V (main_arg3 : DevRef τ sig)) (V (main_arg11 : DevRef τ sig)) := by
  rw [after_ops,
    after7_keep _ main_v3 (by decide),
    after6_keep _ main_v3 (by decide),
    after5_keep _ main_v3 (by decide),
    after4_keep _ main_v3 (by decide),
    after3_res,
    after2_keep _ main_arg3 (by decide),
    after1_keep _ main_arg3 (by decide),
    after0_keep _ main_arg3 (by decide),
    after2_keep _ main_arg11 (by decide),
    after1_keep _ main_arg11 (by decide),
    after0_keep _ main_arg11 (by decide)]

/-- The fifth result: the later lookups do not write it, the fifth lookup leaves its composed term there, and the
    earlier lookups wrote neither of the two arguments it reads. -/
theorem res4 (V : Valuation τ sig (Elt Ideal)) :
    after ops V (main_v4 : DevRef τ sig)
      = Cert.Proof.RefTerm.take20000 (V (main_arg4 : DevRef τ sig)) (V (main_arg12 : DevRef τ sig)) := by
  rw [after_ops,
    after7_keep _ main_v4 (by decide),
    after6_keep _ main_v4 (by decide),
    after5_keep _ main_v4 (by decide),
    after4_res,
    after3_keep _ main_arg4 (by decide),
    after2_keep _ main_arg4 (by decide),
    after1_keep _ main_arg4 (by decide),
    after0_keep _ main_arg4 (by decide),
    after3_keep _ main_arg12 (by decide),
    after2_keep _ main_arg12 (by decide),
    after1_keep _ main_arg12 (by decide),
    after0_keep _ main_arg12 (by decide)]

/-- The sixth result: the later lookups do not write it, the sixth lookup leaves its composed term there, and the
    earlier lookups wrote neither of the two arguments it reads. -/
theorem res5 (V : Valuation τ sig (Elt Ideal)) :
    after ops V (main_v5 : DevRef τ sig)
      = Cert.Proof.RefTerm.take10000 (V (main_arg5 : DevRef τ sig)) (V (main_arg13 : DevRef τ sig)) := by
  rw [after_ops,
    after7_keep _ main_v5 (by decide),
    after6_keep _ main_v5 (by decide),
    after5_res,
    after4_keep _ main_arg5 (by decide),
    after3_keep _ main_arg5 (by decide),
    after2_keep _ main_arg5 (by decide),
    after1_keep _ main_arg5 (by decide),
    after0_keep _ main_arg5 (by decide),
    after4_keep _ main_arg13 (by decide),
    after3_keep _ main_arg13 (by decide),
    after2_keep _ main_arg13 (by decide),
    after1_keep _ main_arg13 (by decide),
    after0_keep _ main_arg13 (by decide)]

/-- The seventh result: the later lookups do not write it, the seventh lookup leaves its composed term there, and the
    earlier lookups wrote neither of the two arguments it reads. -/
theorem res6 (V : Valuation τ sig (Elt Ideal)) :
    after ops V (main_v6 : DevRef τ sig)
      = Cert.Proof.RefTerm.take5000 (V (main_arg6 : DevRef τ sig)) (V (main_arg14 : DevRef τ sig)) := by
  rw [after_ops,
    after7_keep _ main_v6 (by decide),
    after6_res,
    after5_keep _ main_arg6 (by decide),
    after4_keep _ main_arg6 (by decide),
    after3_keep _ main_arg6 (by decide),
    after2_keep _ main_arg6 (by decide),
    after1_keep _ main_arg6 (by decide),
    after0_keep _ main_arg6 (by decide),
    after5_keep _ main_arg14 (by decide),
    after4_keep _ main_arg14 (by decide),
    after3_keep _ main_arg14 (by decide),
    after2_keep _ main_arg14 (by decide),
    after1_keep _ main_arg14 (by decide),
    after0_keep _ main_arg14 (by decide)]

/-- The eighth result: the later lookups do not write it, the eighth lookup leaves its composed term there, and the
    earlier lookups wrote neither of the two arguments it reads. -/
theorem res7 (V : Valuation τ sig (Elt Ideal)) :
    after ops V (main_v7 : DevRef τ sig)
      = Cert.Proof.RefTerm.take1000 (V (main_arg7 : DevRef τ sig)) (V (main_arg15 : DevRef τ sig)) := by
  rw [after_ops,
    after7_res,
    after6_keep _ main_arg7 (by decide),
    after5_keep _ main_arg7 (by decide),
    after4_keep _ main_arg7 (by decide),
    after3_keep _ main_arg7 (by decide),
    after2_keep _ main_arg7 (by decide),
    after1_keep _ main_arg7 (by decide),
    after0_keep _ main_arg7 (by decide),
    after6_keep _ main_arg15 (by decide),
    after5_keep _ main_arg15 (by decide),
    after4_keep _ main_arg15 (by decide),
    after3_keep _ main_arg15 (by decide),
    after2_keep _ main_arg15 (by decide),
    after1_keep _ main_arg15 (by decide),
    after0_keep _ main_arg15 (by decide)]

theorem arg0_keep (V : Valuation τ sig (Elt Ideal)) : after ops V (main_arg0 : DevRef τ sig) = V (main_arg0 : DevRef τ sig) :=
  ops_keep V main_arg0 (by decide) (by decide) (by decide) (by decide) (by decide) (by decide) (by decide) (by decide)
theorem arg1_keep (V : Valuation τ sig (Elt Ideal)) : after ops V (main_arg1 : DevRef τ sig) = V (main_arg1 : DevRef τ sig) :=
  ops_keep V main_arg1 (by decide) (by decide) (by decide) (by decide) (by decide) (by decide) (by decide) (by decide)
theorem arg2_keep (V : Valuation τ sig (Elt Ideal)) : after ops V (main_arg2 : DevRef τ sig) = V (main_arg2 : DevRef τ sig) :=
  ops_keep V main_arg2 (by decide) (by decide) (by decide) (by decide) (by decide) (by decide) (by decide) (by decide)
theorem arg3_keep (V : Valuation τ sig (Elt Ideal)) : after ops V (main_arg3 : DevRef τ sig) = V (main_arg3 : DevRef τ sig) :=
  ops_keep V main_arg3 (by decide) (by decide) (by decide) (by decide) (by decide) (by decide) (by decide) (by decide)
theorem arg4_keep (V : Valuation τ sig (Elt Ideal)) : after ops V (main_arg4 : DevRef τ sig) = V (main_arg4 : DevRef τ sig) :=
  ops_keep V main_arg4 (by decide) (by decide) (by decide) (by decide) (by decide) (by decide) (by decide) (by decide)
theorem arg5_keep (V : Valuation τ sig (Elt Ideal)) : after ops V (main_arg5 : DevRef τ sig) = V (main_arg5 : DevRef τ sig) :=
  ops_keep V main_arg5 (by decide) (by decide) (by decide) (by decide) (by decide) (by decide) (by decide) (by decide)
theorem arg6_keep (V : Valuation τ sig (Elt Ideal)) : after ops V (main_arg6 : DevRef τ sig) = V (main_arg6 : DevRef τ sig) :=
  ops_keep V main_arg6 (by decide) (by decide) (by decide) (by decide) (by decide) (by decide) (by decide) (by decide)
theorem arg7_keep (V : Valuation τ sig (Elt Ideal)) : after ops V (main_arg7 : DevRef τ sig) = V (main_arg7 : DevRef τ sig) :=
  ops_keep V main_arg7 (by decide) (by decide) (by decide) (by decide) (by decide) (by decide) (by decide) (by decide)
theorem arg8_keep (V : Valuation τ sig (Elt Ideal)) : after ops V (main_arg8 : DevRef τ sig) = V (main_arg8 : DevRef τ sig) :=
  ops_keep V main_arg8 (by decide) (by decide) (by decide) (by decide) (by decide) (by decide) (by decide) (by decide)
theorem arg9_keep (V : Valuation τ sig (Elt Ideal)) : after ops V (main_arg9 : DevRef τ sig) = V (main_arg9 : DevRef τ sig) :=
  ops_keep V main_arg9 (by decide) (by decide) (by decide) (by decide) (by decide) (by decide) (by decide) (by decide)
theorem arg10_keep (V : Valuation τ sig (Elt Ideal)) : after ops V (main_arg10 : DevRef τ sig) = V (main_arg10 : DevRef τ sig) :=
  ops_keep V main_arg10 (by decide) (by decide) (by decide) (by decide) (by decide) (by decide) (by decide) (by decide)
theorem arg11_keep (V : Valuation τ sig (Elt Ideal)) : after ops V (main_arg11 : DevRef τ sig) = V (main_arg11 : DevRef τ sig) :=
  ops_keep V main_arg11 (by decide) (by decide) (by decide) (by decide) (by decide) (by decide) (by decide) (by decide)
theorem arg12_keep (V : Valuation τ sig (Elt Ideal)) : after ops V (main_arg12 : DevRef τ sig) = V (main_arg12 : DevRef τ sig) :=
  ops_keep V main_arg12 (by decide) (by decide) (by decide) (by decide) (by decide) (by decide) (by decide) (by decide)
theorem arg13_keep (V : Valuation τ sig (Elt Ideal)) : after ops V (main_arg13 : DevRef τ sig) = V (main_arg13 : DevRef τ sig) :=
  ops_keep V main_arg13 (by decide) (by decide) (by decide) (by decide) (by decide) (by decide) (by decide) (by decide)
theorem arg14_keep (V : Valuation τ sig (Elt Ideal)) : after ops V (main_arg14 : DevRef τ sig) = V (main_arg14 : DevRef τ sig) :=
  ops_keep V main_arg14 (by decide) (by decide) (by decide) (by decide) (by decide) (by decide) (by decide) (by decide)
theorem arg15_keep (V : Valuation τ sig (Elt Ideal)) : after ops V (main_arg15 : DevRef τ sig) = V (main_arg15 : DevRef τ sig) :=
  ops_keep V main_arg15 (by decide) (by decide) (by decide) (by decide) (by decide) (by decide) (by decide) (by decide)

/-- On every device, from any memory with zero counters: every weakly fair execution of the reference program
    terminates with each result buffer at its lookup's composed term of the two arguments it reads, and every
    argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = Cert.Proof.RefTerm.take100000 (m ((c.tc : Thread nD τ).loc main_arg0)) (m ((c.tc : Thread nD τ).loc main_arg8))
      ∧ r.2.mem ((c.tc : Thread nD τ).loc main_v1) = Cert.Proof.RefTerm.take1000000 (m ((c.tc : Thread nD τ).loc main_arg1)) (m ((c.tc : Thread nD τ).loc main_arg9))
      ∧ r.2.mem ((c.tc : Thread nD τ).loc main_v2) = Cert.Proof.RefTerm.take10000 (m ((c.tc : Thread nD τ).loc main_arg2)) (m ((c.tc : Thread nD τ).loc main_arg10))
      ∧ r.2.mem ((c.tc : Thread nD τ).loc main_v3) = Cert.Proof.RefTerm.take20000 (m ((c.tc : Thread nD τ).loc main_arg3)) (m ((c.tc : Thread nD τ).loc main_arg11))
      ∧ r.2.mem ((c.tc : Thread nD τ).loc main_v4) = Cert.Proof.RefTerm.take20000 (m ((c.tc : Thread nD τ).loc main_arg4)) (m ((c.tc : Thread nD τ).loc main_arg12))
      ∧ r.2.mem ((c.tc : Thread nD τ).loc main_v5) = Cert.Proof.RefTerm.take10000 (m ((c.tc : Thread nD τ).loc main_arg5)) (m ((c.tc : Thread nD τ).loc main_arg13))
      ∧ r.2.mem ((c.tc : Thread nD τ).loc main_v6) = Cert.Proof.RefTerm.take5000 (m ((c.tc : Thread nD τ).loc main_arg6)) (m ((c.tc : Thread nD τ).loc main_arg14))
      ∧ r.2.mem ((c.tc : Thread nD τ).loc main_v7) = Cert.Proof.RefTerm.take1000 (m ((c.tc : Thread nD τ).loc main_arg7)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c main_v0).trans (res0 _),
      (h c main_v1).trans (res1 _),
      (h c main_v2).trans (res2 _),
      (h c main_v3).trans (res3 _),
      (h c main_v4).trans (res4 _),
      (h c main_v5).trans (res5 _),
      (h c main_v6).trans (res6 _),
      (h c main_v7).trans (res7 _),
      (h c main_arg0).trans (arg0_keep _),
      (h c main_arg1).trans (arg1_keep _),
      (h c main_arg2).trans (arg2_keep _),
      (h c main_arg3).trans (arg3_keep _),
      (h c main_arg4).trans (arg4_keep _),
      (h c main_arg5).trans (arg5_keep _),
      (h c main_arg6).trans (arg6_keep _),
      (h c main_arg7).trans (arg7_keep _),
      (h c main_arg8).trans (arg8_keep _),
      (h c main_arg9).trans (arg9_keep _),
      (h c main_arg10).trans (arg10_keep _),
      (h c main_arg11).trans (arg11_keep _),
      (h c main_arg12).trans (arg12_keep _),
      (h c main_arg13).trans (arg13_keep _),
      (h c main_arg14).trans (arg14_keep _),
      (h c main_arg15).trans (arg15_keep _)⟩)
    (run_seq scopedRefs_eq scopedSems_eq defs main (fun _ => ops) main_eq (fun _ => ops_sub) m ρ (fun _ => ops_fresh))

end Cert.Proof.RefRun

end
-- ==== Proof.AsmRef.lean ====
/-
  The parts of the final assembly that speak of the reference and of the precondition only: the precondition read
  as the eight index ranges, on each of the three programs' memories; the reference's frame (it runs and leaves its
  arguments as they were); and the reference's results as the specification's lookups of its own arguments.
-/
import proofs.«218896_g85959475462175_cont_9to1_m_647_27_alg».proof.Defs
import proofs.«218896_g85959475462175_cont_9to1_m_647_27_alg».proof.Proof.Gen.Kernel
import proofs.«218896_g85959475462175_cont_9to1_m_647_27_alg».proof.Proof.Gen.KernelIdeal
import proofs.«218896_g85959475462175_cont_9to1_m_647_27_alg».proof.Proof.Gen.ReferenceIdeal
import proofs.«218896_g85959475462175_cont_9to1_m_647_27_alg».proof.Proof.Gen.Pre_input_domain
import proofs.«218896_g85959475462175_cont_9to1_m_647_27_alg».proof.Proof.Spec
import proofs.«218896_g85959475462175_cont_9to1_m_647_27_alg».proof.Proof.PreRanges
import proofs.«218896_g85959475462175_cont_9to1_m_647_27_alg».proof.Proof.RefValue
import proofs.«218896_g85959475462175_cont_9to1_m_647_27_alg».proof.Proof.RefRun

noncomputable section

namespace Cert.Proof.Asm

open Idealize.ShloMosaic Idealize.ShloMosaic.TcCoe Idealize.SL.Sem Cert.Proof.Spec

/-! ## The precondition as the index ranges -/

/-- Under `Kernel`'s precondition every index array of its initial memory names rows of its table, on every device. -/
theorem ranges_Kernel (m : (ℓ : Loc Cert.Kernel.nD Cert.Kernel.τ Cert.Kernel.sig) → Buf (Elt Bits) ℓ)
    (h : Cert.Pre_Kernel (hPre_input_domain := Cert.Pre_input_domain.Gen.facts) m) :
    ∀ c : Dev Cert.Kernel.nD,
      InRange 100000 (m ((c.tc : Thread Cert.Kernel.nD Cert.Kernel.τ).loc Cert.Kernel.main_arg8))
      ∧ InRange 1000000 (m ((c.tc : Thread Cert.Kernel.nD Cert.Kernel.τ).loc Cert.Kernel.main_arg9))
      ∧ InRange 10000 (m ((c.tc : Thread Cert.Kernel.nD Cert.Kernel.τ).loc Cert.Kernel.main_arg10))
      ∧ InRange 20000 (m ((c.tc : Thread Cert.Kernel.nD Cert.Kernel.τ).loc Cert.Kernel.main_arg11))
      ∧ InRange 20000 (m ((c.tc : Thread Cert.Kernel.nD Cert.Kernel.τ).loc Cert.Kernel.main_arg12))
      ∧ InRange 10000 (m ((c.tc : Thread Cert.Kernel.nD Cert.Kernel.τ).loc Cert.Kernel.main_arg13))
      ∧ InRange 5000 (m ((c.tc : Thread Cert.Kernel.nD Cert.Kernel.τ).loc Cert.Kernel.main_arg14))
      ∧ InRange 1000 (m ((c.tc : Thread Cert.Kernel.nD Cert.Kernel.τ).loc Cert.Kernel.main_arg15)) :=
  fun c => Cert.Proof.PreRanges.ranges _ _ _ _ _ _ _ _ _ _ _ _ _ _ _ _ (h c)

/-- Under `KernelIdeal`'s precondition every index array of its initial memory names rows of its table, on every device. -/
theorem ranges_KernelIdeal (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) :
    ∀ c : Dev Cert.KernelIdeal.nD,
      InRange 100000 (m ((c.tc : Thread Cert.KernelIdeal.nD Cert.KernelIdeal.τ).loc Cert.KernelIdeal.main_arg8))
      ∧ InRange 1000000 (m ((c.tc : Thread Cert.KernelIdeal.nD Cert.KernelIdeal.τ).loc Cert.KernelIdeal.main_arg9))
      ∧ InRange 10000 (m ((c.tc : Thread Cert.KernelIdeal.nD Cert.KernelIdeal.τ).loc Cert.KernelIdeal.main_arg10))
      ∧ InRange 20000 (m ((c.tc : Thread Cert.KernelIdeal.nD Cert.KernelIdeal.τ).loc Cert.KernelIdeal.main_arg11))
      ∧ InRange 20000 (m ((c.tc : Thread Cert.KernelIdeal.nD Cert.KernelIdeal.τ).loc Cert.KernelIdeal.main_arg12))
      ∧ InRange 10000 (m ((c.tc : Thread Cert.KernelIdeal.nD Cert.KernelIdeal.τ).loc Cert.KernelIdeal.main_arg13))
      ∧ InRange 5000 (m ((c.tc : Thread Cert.KernelIdeal.nD Cert.KernelIdeal.τ).loc Cert.KernelIdeal.main_arg14))
      ∧ InRange 1000 (m ((c.tc : Thread Cert.KernelIdeal.nD Cert.KernelIdeal.τ).loc Cert.KernelIdeal.main_arg15)) :=
  fun c => Cert.Proof.PreRanges.ranges _ _ _ _ _ _ _ _ _ _ _ _ _ _ _ _ (h c)

/-- Under `ReferenceIdeal`'s precondition every index array of its initial memory names rows of its table, on every device. -/
theorem ranges_ReferenceIdeal (m : (ℓ : Loc Cert.ReferenceIdeal.nD Cert.ReferenceIdeal.τ Cert.ReferenceIdeal.sig) → Buf (Elt Ideal) ℓ)
    (h : Cert.Pre_ReferenceIdeal (hPre_input_domain := Cert.Pre_input_domain.Gen.facts) m) :
    ∀ c : Dev Cert.ReferenceIdeal.nD,
      InRange 100000 (m ((c.tc : Thread Cert.ReferenceIdeal.nD Cert.ReferenceIdeal.τ).loc Cert.ReferenceIdeal.main_arg8))
      ∧ InRange 1000000 (m ((c.tc : Thread Cert.ReferenceIdeal.nD Cert.ReferenceIdeal.τ).loc Cert.ReferenceIdeal.main_arg9))
      ∧ InRange 10000 (m ((c.tc : Thread Cert.ReferenceIdeal.nD Cert.ReferenceIdeal.τ).loc Cert.ReferenceIdeal.main_arg10))
      ∧ InRange 20000 (m ((c.tc : Thread Cert.ReferenceIdeal.nD Cert.ReferenceIdeal.τ).loc Cert.ReferenceIdeal.main_arg11))
      ∧ InRange 20000 (m ((c.tc : Thread Cert.ReferenceIdeal.nD Cert.ReferenceIdeal.τ).loc Cert.ReferenceIdeal.main_arg12))
      ∧ InRange 10000 (m ((c.tc : Thread Cert.ReferenceIdeal.nD Cert.ReferenceIdeal.τ).loc Cert.ReferenceIdeal.main_arg13))
      ∧ InRange 5000 (m ((c.tc : Thread Cert.ReferenceIdeal.nD Cert.ReferenceIdeal.τ).loc Cert.ReferenceIdeal.main_arg14))
      ∧ InRange 1000 (m ((c.tc : Thread Cert.ReferenceIdeal.nD Cert.ReferenceIdeal.τ).loc Cert.ReferenceIdeal.main_arg15)) :=
  fun c => Cert.Proof.PreRanges.ranges _ _ _ _ _ _ _ _ _ _ _ _ _ _ _ _ (h c)

/-! ## The reference's frame -/

/-- The reference runs — every weakly fair execution terminates, nothing faulting — and leaves its sixteen arguments as
    they were: the argument conjuncts of its run. -/
theorem frame_ri : Cert.frame_ReferenceIdeal (hReferenceIdeal := Cert.ReferenceIdeal.Gen.facts)
    (hPre_input_domain := Cert.Pre_input_domain.Gen.facts) :=
  fun m ρ _ => (θ_run (Cert.ReferenceIdeal.defs (F := Ideal)) _ _).mono (fun _ h c => (h c).2.2.2.2.2.2.2.2)
    (Cert.Proof.RefRun.run m ρ)

/-! ## The reference's results as the specification's lookups -/

/-- From a memory whose index arrays name rows of their tables the reference ends with each result the lookup of its
    own table at its own index array, and its sixteen arguments as they were. -/
theorem ref_side (m' : (ℓ : Loc Cert.ReferenceIdeal.nD Cert.ReferenceIdeal.τ Cert.ReferenceIdeal.sig) → Buf (Elt Ideal) ℓ)
    (ρ' : Dev Cert.ReferenceIdeal.nD → PrngReg)
    (hr : ∀ c : Dev Cert.ReferenceIdeal.nD,
      InRange 100000 (m' ((c.tc : Thread Cert.ReferenceIdeal.nD Cert.ReferenceIdeal.τ).loc Cert.ReferenceIdeal.main_arg8))
      ∧ InRange 1000000 (m' ((c.tc : Thread Cert.ReferenceIdeal.nD Cert.ReferenceIdeal.τ).loc Cert.ReferenceIdeal.main_arg9))
      ∧ InRange 10000 (m' ((c.tc : Thread Cert.ReferenceIdeal.nD Cert.ReferenceIdeal.τ).loc Cert.ReferenceIdeal.main_arg10))
      ∧ InRange 20000 (m' ((c.tc : Thread Cert.ReferenceIdeal.nD Cert.ReferenceIdeal.τ).loc Cert.ReferenceIdeal.main_arg11))
      ∧ InRange 20000 (m' ((c.tc : Thread Cert.ReferenceIdeal.nD Cert.ReferenceIdeal.τ).loc Cert.ReferenceIdeal.main_arg12))
      ∧ InRange 10000 (m' ((c.tc : Thread Cert.ReferenceIdeal.nD Cert.ReferenceIdeal.τ).loc Cert.ReferenceIdeal.main_arg13))
      ∧ InRange 5000 (m' ((c.tc : Thread Cert.ReferenceIdeal.nD Cert.ReferenceIdeal.τ).loc Cert.ReferenceIdeal.main_arg14))
      ∧ InRange 1000 (m' ((c.tc : Thread Cert.ReferenceIdeal.nD Cert.ReferenceIdeal.τ).loc Cert.ReferenceIdeal.main_arg15))) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread Cert.ReferenceIdeal.nD Cert.ReferenceIdeal.τ).loc Cert.ReferenceIdeal.main_v0) = gatherRows 100000 (by decide) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_v1) = gatherRows 1000000 (by decide) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_v2) = gatherRows 10000 (by decide) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg10))
      ∧ r.2.mem ((c.tc : Thread Cert.ReferenceIdeal.nD Cert.ReferenceIdeal.τ).loc Cert.ReferenceIdeal.main_v3) = gatherRows 20000 (by decide) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_v4) = gatherRows 20000 (by decide) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg12))
      ∧ r.2.mem ((c.tc : Thread Cert.ReferenceIdeal.nD Cert.ReferenceIdeal.τ).loc Cert.ReferenceIdeal.main_v5) = gatherRows 10000 (by decide) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_v6) = gatherRows 5000 (by decide) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg14))
      ∧ r.2.mem ((c.tc : Thread Cert.ReferenceIdeal.nD Cert.ReferenceIdeal.τ).loc Cert.ReferenceIdeal.main_v7) = gatherRows 1000 (by decide) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg15))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)) :=
  (θ_run (Cert.ReferenceIdeal.defs (F := Ideal)) _ _).mono (fun _ h c => by
      obtain ⟨h0, h1, h2, h3, h4, h5, h6, h7, hargs⟩ := h c
      obtain ⟨r0, r1, r2, r3, r4, r5, r6, r7⟩ := hr c
      exact ⟨h0.trans (Cert.Proof.RefValue.take100000_eq _ _ r0),
        h1.trans (Cert.Proof.RefValue.take1000000_eq _ _ r1),
        h2.trans (Cert.Proof.RefValue.take10000_eq _ _ r2),
        h3.trans (Cert.Proof.RefValue.take20000_eq _ _ r3),
        h4.trans (Cert.Proof.RefValue.take20000_eq _ _ r4),
        h5.trans (Cert.Proof.RefValue.take10000_eq _ _ r5),
        h6.trans (Cert.Proof.RefValue.take5000_eq _ _ r6),
        h7.trans (Cert.Proof.RefValue.take1000_eq _ _ r7),
        hargs⟩)
    (Cert.Proof.RefRun.run m' ρ')

end Cert.Proof.Asm

end
-- ==== Proof.KICommon.lean ====
/-
  The idealized kernel's program as the launch theorem for SparseCore programs sees it: the body table, the
  eight calls, the handshake cells' ghost state beside the counters of the tiles' own copies. Each of the
  eight calls runs one embedding lookup on the thirty-two vector subcores of the device; nothing here is
  about a particular call.
-/
import proofs.«218896_g85959475462175_cont_9to1_m_647_27_alg».proof.KernelIdeal
import Idealize.ShloMosaic.Lib.SparseCore.Launch
import Idealize.ShloMosaic.Lib.Batch
import Idealize.ShloMosaic.Lib.StableHlo.Run
import Idealize.ShloMosaic.Lib.Pipeline.Kit
import Idealize.ShloMosaic.Lib.Tactic
import proofs.«218896_g85959475462175_cont_9to1_m_647_27_alg».proof.Proof.Gen.KernelIdeal
import proofs.«218896_g85959475462175_cont_9to1_m_647_27_alg».proof.Proof.Gen.KernelIdeal.Skeleton
import proofs.«218896_g85959475462175_cont_9to1_m_647_27_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 8 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds beside the counters of the tiles' own copies. -/
abbrev UH : Type := URounds (GSem nD τ sig) ℕ
abbrev UU : Type := UH × Counters

abbrev EH : Emb UH (MT nD τ sig (HIx 8) (Elt F) ℕ UU ℕ) := embL

/-- A tile's thread and its grid coordinates. -/
abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

/-- The first of the 512 result rows (and index words) that the tile at `L` owns: tiles are numbered subcore-major. -/
def base (L : grid0.Coords) : Nat := 1024 * (L 1).val + 512 * (L 0).val

theorem base_add_lt (L : grid0.Coords) (t : Fin 512) : base L + t.val < 16384 := by
  have h0 : (L 0).val < 2 := (L 0).isLt
  have h1 : (L 1).val < 16 := (L 1).isLt
  unfold base; omega

end Cert.Proof.KI

end
-- ==== Proof.KIRes0.lean ====
/-
  Call 0 of the eight: what the launch hands each tile and what the tile hands back. A tile reads the table and the
  index array through read tokens of the whole arrays (never handed back: the TensorCore keeps a share of each, which
  is enough to read the final memory against the launch memory), and owns the 512 rows of the result that it writes;
  it hands those rows back holding the lookup's value, each row a restriction of the ONE whole-array function `G`.
-/
import proofs.«218896_g85959475462175_cont_9to1_m_647_27_alg».proof.Proof.KICommon

noncomputable section

namespace Cert.Proof.KI.R0

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## This call's table, index array, result, scratch -/

abbrev nRows : Nat := 100000
theorem nRows_pos : 0 < nRows := by decide
abbrev TS : Shape := S100000x64
abbrev tblTc : Ref sig .tc := main_arg0
abbrev idxTc : Ref sig .tc := main_arg8
abbrev outTc : Ref sig .tc := main_v0
abbrev tblScv : Ref sig .scVector := main_arg0_scv
abbrev idxScv : Ref sig .scVector := main_arg8_scv
abbrev outScv : Ref sig .scVector := main_v0_scv
abbrev scrScv : Ref sig .scVector := cc0_scratch0

/-! ## The same for every call from here on -/

variable {F : FTy → Type}

local notation "𝕄" => MT nD τ sig (HIx 8) (Elt F) ℕ UU ℕ

variable (m : (ℓ : Loc nD τ sig) → Buf (Elt F) ℓ)

abbrev tLoc (d : Dev nD) : Loc nD τ sig := (SparseCore.T d).loc tblTc
abbrev iLoc (d : Dev nD) : Loc nD τ sig := (SparseCore.T d).loc idxTc
abbrev oLoc (d : Dev nD) : Loc nD τ sig := (SparseCore.T d).loc outTc

abbrev tW : Memref sig .scVector .hbm TS .f32 := Memref.whole tblScv
abbrev iW : Memref sig .scVector .hbm S16384 .i32 := Memref.whole idxScv
abbrev oW : Memref sig .scVector .hbm S16384x64 .f32 := Memref.whole outScv
abbrev sW : Memref sig .scVector .vmem S512 .i32 := Memref.whole scrScv

/-- The lookup's value on device `d`: the whole result array as one function of the launch memory. -/
def G (d : Dev nD) : Buf (Elt F) (oLoc d) := Spec.gatherRows nRows nRows_pos (m (tLoc d)) (m (iLoc d))

theorem hdiv : 16384 ∣ S16384x64.size 0 := ⟨1, rfl⟩
/-- Row `r` of the result, as a rectangle and as a set of indices. -/
abbrev row (r : Fin 16384) : Rect S16384x64 := Rect.part (s := S16384x64) (a₀ := 0) hdiv r
abbrev rowSet (r : Fin 16384) : Finset S16384x64.Idx := ((oW : Memref sig .scVector .hbm S16384x64 .f32).view.slice (row r)).set

/-- The number of the tile at `L` among the thirty-two. -/
def wid (L : grid0.Coords) : Fin 32 := ⟨2 * (L 1).val + (L 0).val, by
  have h0 : (L 0).val < 2 := (L 0).isLt
  have h1 : (L 1).val < 16 := (L 1).isLt
  omega⟩

/-- Row `t` of the tile's 512. -/
abbrev tileRow (L : grid0.Coords) (t : Fin 512) : Fin 16384 := ⟨base L + t.val, base_add_lt L t⟩

/-- What the tile at `L` is handed: a read token of the table, one of the index array, its 512 rows of the result. -/
def go (d : Dev nD) (L : grid0.Coords) : sProp 𝕄 :=
  iprop((tLoc d ↦{Transfers.shareTok fullShare 32 (wid L)} m (tLoc d)) ∗ (iLoc d ↦{Transfers.shareTok fullShare 32 (wid L)} m (iLoc d))
    ∗ bigSep Finset.univ fun t : Fin 512 => oLoc d ↦[rowSet (tileRow L t)]{fullShare} m (oLoc d))

/-- What it hands back: its 512 rows, holding the lookup's value. -/
def td (d : Dev nD) (L : grid0.Coords) : sProp 𝕄 :=
  bigSep Finset.univ fun t : Fin 512 => oLoc d ↦[rowSet (tileRow L t)]{fullShare} G m d

variable [FloatOps F]

/-- The tile's obligation at this call, at a symbolic tile: from what it is handed, its scoped storage and what it owes
    the launch, the printed body runs and ends with the 512 rows holding the lookup's value. -/
def TileBody : Prop :=
  ∀ (d : Dev nD) (L : grid0.Coords) (O : CellTallies nD τ sig (HIx 8)) (W : Waits sig (HIx 8)), (∀ g, O g none = 0) →
    iprop(levAts (K (F := F)).L (K (F := F)).lev ∗ emp ∗ go m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L tW (Memref.isWhole_whole _) iW (Memref.isWhole_whole _) oW (Memref.isWhole_whole _)
            sW (Memref.isWhole_whole _) cc0_scratch1 cc0_scoped0)
          fun _ => iprop(td m d L ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KI.R0

end
-- ==== Proof.KIRes1.lean ====
/-
  Call 1 of the eight: what the launch hands each tile and what the tile hands back. A tile reads the table and the
  index array through read tokens of the whole arrays (never handed back: the TensorCore keeps a share of each, which
  is enough to read the final memory against the launch memory), and owns the 512 rows of the result that it writes;
  it hands those rows back holding the lookup's value, each row a restriction of the ONE whole-array function `G`.
-/
import proofs.«218896_g85959475462175_cont_9to1_m_647_27_alg».proof.Proof.KICommon

noncomputable section

namespace Cert.Proof.KI.R1

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## This call's table, index array, result, scratch -/

abbrev nRows : Nat := 1000000
theorem nRows_pos : 0 < nRows := by decide
abbrev TS : Shape := S1000000x64
abbrev tblTc : Ref sig .tc := main_arg1
abbrev idxTc : Ref sig .tc := main_arg9
abbrev outTc : Ref sig .tc := main_v1
abbrev tblScv : Ref sig .scVector := main_arg1_scv
abbrev idxScv : Ref sig .scVector := main_arg9_scv
abbrev outScv : Ref sig .scVector := main_v1_scv
abbrev scrScv : Ref sig .scVector := cc1_scratch0

/-! ## The same for every call from here on -/

variable {F : FTy → Type}

local notation "𝕄" => MT nD τ sig (HIx 8) (Elt F) ℕ UU ℕ

variable (m : (ℓ : Loc nD τ sig) → Buf (Elt F) ℓ)

abbrev tLoc (d : Dev nD) : Loc nD τ sig := (SparseCore.T d).loc tblTc
abbrev iLoc (d : Dev nD) : Loc nD τ sig := (SparseCore.T d).loc idxTc
abbrev oLoc (d : Dev nD) : Loc nD τ sig := (SparseCore.T d).loc outTc

abbrev tW : Memref sig .scVector .hbm TS .f32 := Memref.whole tblScv
abbrev iW : Memref sig .scVector .hbm S16384 .i32 := Memref.whole idxScv
abbrev oW : Memref sig .scVector .hbm S16384x64 .f32 := Memref.whole outScv
abbrev sW : Memref sig .scVector .vmem S512 .i32 := Memref.whole scrScv

/-- The lookup's value on device `d`: the whole result array as one function of the launch memory. -/
def G (d : Dev nD) : Buf (Elt F) (oLoc d) := Spec.gatherRows nRows nRows_pos (m (tLoc d)) (m (iLoc d))

theorem hdiv : 16384 ∣ S16384x64.size 0 := ⟨1, rfl⟩
/-- Row `r` of the result, as a rectangle and as a set of indices. -/
abbrev row (r : Fin 16384) : Rect S16384x64 := Rect.part (s := S16384x64) (a₀ := 0) hdiv r
abbrev rowSet (r : Fin 16384) : Finset S16384x64.Idx := ((oW : Memref sig .scVector .hbm S16384x64 .f32).view.slice (row r)).set

/-- The number of the tile at `L` among the thirty-two. -/
def wid (L : grid0.Coords) : Fin 32 := ⟨2 * (L 1).val + (L 0).val, by
  have h0 : (L 0).val < 2 := (L 0).isLt
  have h1 : (L 1).val < 16 := (L 1).isLt
  omega⟩

/-- Row `t` of the tile's 512. -/
abbrev tileRow (L : grid0.Coords) (t : Fin 512) : Fin 16384 := ⟨base L + t.val, base_add_lt L t⟩

/-- What the tile at `L` is handed: a read token of the table, one of the index array, its 512 rows of the result. -/
def go (d : Dev nD) (L : grid0.Coords) : sProp 𝕄 :=
  iprop((tLoc d ↦{Transfers.shareTok fullShare 32 (wid L)} m (tLoc d)) ∗ (iLoc d ↦{Transfers.shareTok fullShare 32 (wid L)} m (iLoc d))
    ∗ bigSep Finset.univ fun t : Fin 512 => oLoc d ↦[rowSet (tileRow L t)]{fullShare} m (oLoc d))

/-- What it hands back: its 512 rows, holding the lookup's value. -/
def td (d : Dev nD) (L : grid0.Coords) : sProp 𝕄 :=
  bigSep Finset.univ fun t : Fin 512 => oLoc d ↦[rowSet (tileRow L t)]{fullShare} G m d

variable [FloatOps F]

/-- The tile's obligation at this call, at a symbolic tile: from what it is handed, its scoped storage and what it owes
    the launch, the printed body runs and ends with the 512 rows holding the lookup's value. -/
def TileBody : Prop :=
  ∀ (d : Dev nD) (L : grid0.Coords) (O : CellTallies nD τ sig (HIx 8)) (W : Waits sig (HIx 8)), (∀ g, O g none = 0) →
    iprop(levAts (K (F := F)).L (K (F := F)).lev ∗ emp ∗ go m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__gather_body L tW (Memref.isWhole_whole _) iW (Memref.isWhole_whole _) oW (Memref.isWhole_whole _)
            sW (Memref.isWhole_whole _) cc1_scratch1 cc1_scoped0)
          fun _ => iprop(td m d L ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KI.R1

end
-- ==== Proof.KIRes2.lean ====
/-
  Call 2 of the eight: what the launch hands each tile and what the tile hands back. A tile reads the table and the
  index array through read tokens of the whole arrays (never handed back: the TensorCore keeps a share of each, which
  is enough to read the final memory against the launch memory), and owns the 512 rows of the result that it writes;
  it hands those rows back holding the lookup's value, each row a restriction of the ONE whole-array function `G`.
-/
import proofs.«218896_g85959475462175_cont_9to1_m_647_27_alg».proof.Proof.KICommon

noncomputable section

namespace Cert.Proof.KI.R2

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## This call's table, index array, result, scratch -/

abbrev nRows : Nat := 10000
theorem nRows_pos : 0 < nRows := by decide
abbrev TS : Shape := S10000x64
abbrev tblTc : Ref sig .tc := main_arg2
abbrev idxTc : Ref sig .tc := main_arg10
abbrev outTc : Ref sig .tc := main_v2
abbrev tblScv : Ref sig .scVector := main_arg2_scv
abbrev idxScv : Ref sig .scVector := main_arg10_scv
abbrev outScv : Ref sig .scVector := main_v2_scv
abbrev scrScv : Ref sig .scVector := cc2_scratch0

/-! ## The same for every call from here on -/

variable {F : FTy → Type}

local notation "𝕄" => MT nD τ sig (HIx 8) (Elt F) ℕ UU ℕ

variable (m : (ℓ : Loc nD τ sig) → Buf (Elt F) ℓ)

abbrev tLoc (d : Dev nD) : Loc nD τ sig := (SparseCore.T d).loc tblTc
abbrev iLoc (d : Dev nD) : Loc nD τ sig := (SparseCore.T d).loc idxTc
abbrev oLoc (d : Dev nD) : Loc nD τ sig := (SparseCore.T d).loc outTc

abbrev tW : Memref sig .scVector .hbm TS .f32 := Memref.whole tblScv
abbrev iW : Memref sig .scVector .hbm S16384 .i32 := Memref.whole idxScv
abbrev oW : Memref sig .scVector .hbm S16384x64 .f32 := Memref.whole outScv
abbrev sW : Memref sig .scVector .vmem S512 .i32 := Memref.whole scrScv

/-- The lookup's value on device `d`: the whole result array as one function of the launch memory. -/
def G (d : Dev nD) : Buf (Elt F) (oLoc d) := Spec.gatherRows nRows nRows_pos (m (tLoc d)) (m (iLoc d))

theorem hdiv : 16384 ∣ S16384x64.size 0 := ⟨1, rfl⟩
/-- Row `r` of the result, as a rectangle and as a set of indices. -/
abbrev row (r : Fin 16384) : Rect S16384x64 := Rect.part (s := S16384x64) (a₀ := 0) hdiv r
abbrev rowSet (r : Fin 16384) : Finset S16384x64.Idx := ((oW : Memref sig .scVector .hbm S16384x64 .f32).view.slice (row r)).set

/-- The number of the tile at `L` among the thirty-two. -/
def wid (L : grid0.Coords) : Fin 32 := ⟨2 * (L 1).val + (L 0).val, by
  have h0 : (L 0).val < 2 := (L 0).isLt
  have h1 : (L 1).val < 16 := (L 1).isLt
  omega⟩

/-- Row `t` of the tile's 512. -/
abbrev tileRow (L : grid0.Coords) (t : Fin 512) : Fin 16384 := ⟨base L + t.val, base_add_lt L t⟩

/-- What the tile at `L` is handed: a read token of the table, one of the index array, its 512 rows of the result. -/
def go (d : Dev nD) (L : grid0.Coords) : sProp 𝕄 :=
  iprop((tLoc d ↦{Transfers.shareTok fullShare 32 (wid L)} m (tLoc d)) ∗ (iLoc d ↦{Transfers.shareTok fullShare 32 (wid L)} m (iLoc d))
    ∗ bigSep Finset.univ fun t : Fin 512 => oLoc d ↦[rowSet (tileRow L t)]{fullShare} m (oLoc d))

/-- What it hands back: its 512 rows, holding the lookup's value. -/
def td (d : Dev nD) (L : grid0.Coords) : sProp 𝕄 :=
  bigSep Finset.univ fun t : Fin 512 => oLoc d ↦[rowSet (tileRow L t)]{fullShare} G m d

variable [FloatOps F]

/-- The tile's obligation at this call, at a symbolic tile: from what it is handed, its scoped storage and what it owes
    the launch, the printed body runs and ends with the 512 rows holding the lookup's value. -/
def TileBody : Prop :=
  ∀ (d : Dev nD) (L : grid0.Coords) (O : CellTallies nD τ sig (HIx 8)) (W : Waits sig (HIx 8)), (∀ g, O g none = 0) →
    iprop(levAts (K (F := F)).L (K (F := F)).lev ∗ emp ∗ go m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__gather_body L tW (Memref.isWhole_whole _) iW (Memref.isWhole_whole _) oW (Memref.isWhole_whole _)
            sW (Memref.isWhole_whole _) cc2_scratch1 cc2_scoped0)
          fun _ => iprop(td m d L ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KI.R2

end
-- ==== Proof.KIRes3.lean ====
/-
  Call 3 of the eight: what the launch hands each tile and what the tile hands back. A tile reads the table and the
  index array through read tokens of the whole arrays (never handed back: the TensorCore keeps a share of each, which
  is enough to read the final memory against the launch memory), and owns the 512 rows of the result that it writes;
  it hands those rows back holding the lookup's value, each row a restriction of the ONE whole-array function `G`.
-/
import proofs.«218896_g85959475462175_cont_9to1_m_647_27_alg».proof.Proof.KICommon

noncomputable section

namespace Cert.Proof.KI.R3

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## This call's table, index array, result, scratch -/

abbrev nRows : Nat := 20000
theorem nRows_pos : 0 < nRows := by decide
abbrev TS : Shape := S20000x64
abbrev tblTc : Ref sig .tc := main_arg3
abbrev idxTc : Ref sig .tc := main_arg11
abbrev outTc : Ref sig .tc := main_v3
abbrev tblScv : Ref sig .scVector := main_arg3_scv
abbrev idxScv : Ref sig .scVector := main_arg11_scv
abbrev outScv : Ref sig .scVector := main_v3_scv
abbrev scrScv : Ref sig .scVector := cc3_scratch0

/-! ## The same for every call from here on -/

variable {F : FTy → Type}

local notation "𝕄" => MT nD τ sig (HIx 8) (Elt F) ℕ UU ℕ

variable (m : (ℓ : Loc nD τ sig) → Buf (Elt F) ℓ)

abbrev tLoc (d : Dev nD) : Loc nD τ sig := (SparseCore.T d).loc tblTc
abbrev iLoc (d : Dev nD) : Loc nD τ sig := (SparseCore.T d).loc idxTc
abbrev oLoc (d : Dev nD) : Loc nD τ sig := (SparseCore.T d).loc outTc

abbrev tW : Memref sig .scVector .hbm TS .f32 := Memref.whole tblScv
abbrev iW : Memref sig .scVector .hbm S16384 .i32 := Memref.whole idxScv
abbrev oW : Memref sig .scVector .hbm S16384x64 .f32 := Memref.whole outScv
abbrev sW : Memref sig .scVector .vmem S512 .i32 := Memref.whole scrScv

/-- The lookup's value on device `d`: the whole result array as one function of the launch memory. -/
def G (d : Dev nD) : Buf (Elt F) (oLoc d) := Spec.gatherRows nRows nRows_pos (m (tLoc d)) (m (iLoc d))

theorem hdiv : 16384 ∣ S16384x64.size 0 := ⟨1, rfl⟩
/-- Row `r` of the result, as a rectangle and as a set of indices. -/
abbrev row (r : Fin 16384) : Rect S16384x64 := Rect.part (s := S16384x64) (a₀ := 0) hdiv r
abbrev rowSet (r : Fin 16384) : Finset S16384x64.Idx := ((oW : Memref sig .scVector .hbm S16384x64 .f32).view.slice (row r)).set

/-- The number of the tile at `L` among the thirty-two. -/
def wid (L : grid0.Coords) : Fin 32 := ⟨2 * (L 1).val + (L 0).val, by
  have h0 : (L 0).val < 2 := (L 0).isLt
  have h1 : (L 1).val < 16 := (L 1).isLt
  omega⟩

/-- Row `t` of the tile's 512. -/
abbrev tileRow (L : grid0.Coords) (t : Fin 512) : Fin 16384 := ⟨base L + t.val, base_add_lt L t⟩

/-- What the tile at `L` is handed: a read token of the table, one of the index array, its 512 rows of the result. -/
def go (d : Dev nD) (L : grid0.Coords) : sProp 𝕄 :=
  iprop((tLoc d ↦{Transfers.shareTok fullShare 32 (wid L)} m (tLoc d)) ∗ (iLoc d ↦{Transfers.shareTok fullShare 32 (wid L)} m (iLoc d))
    ∗ bigSep Finset.univ fun t : Fin 512 => oLoc d ↦[rowSet (tileRow L t)]{fullShare} m (oLoc d))

/-- What it hands back: its 512 rows, holding the lookup's value. -/
def td (d : Dev nD) (L : grid0.Coords) : sProp 𝕄 :=
  bigSep Finset.univ fun t : Fin 512 => oLoc d ↦[rowSet (tileRow L t)]{fullShare} G m d

variable [FloatOps F]

/-- The tile's obligation at this call, at a symbolic tile: from what it is handed, its scoped storage and what it owes
    the launch, the printed body runs and ends with the 512 rows holding the lookup's value. -/
def TileBody : Prop :=
  ∀ (d : Dev nD) (L : grid0.Coords) (O : CellTallies nD τ sig (HIx 8)) (W : Waits sig (HIx 8)), (∀ g, O g none = 0) →
    iprop(levAts (K (F := F)).L (K (F := F)).lev ∗ emp ∗ go m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3__gather_body L tW (Memref.isWhole_whole _) iW (Memref.isWhole_whole _) oW (Memref.isWhole_whole _)
            sW (Memref.isWhole_whole _) cc3_scratch1 cc3_scoped0)
          fun _ => iprop(td m d L ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KI.R3

end
-- ==== Proof.KIRes4.lean ====
/-
  Call 4 of the eight: what the launch hands each tile and what the tile hands back. A tile reads the table and the
  index array through read tokens of the whole arrays (never handed back: the TensorCore keeps a share of each, which
  is enough to read the final memory against the launch memory), and owns the 512 rows of the result that it writes;
  it hands those rows back holding the lookup's value, each row a restriction of the ONE whole-array function `G`.
-/
import proofs.«218896_g85959475462175_cont_9to1_m_647_27_alg».proof.Proof.KICommon

noncomputable section

namespace Cert.Proof.KI.R4

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## This call's table, index array, result, scratch -/

abbrev nRows : Nat := 20000
theorem nRows_pos : 0 < nRows := by decide
abbrev TS : Shape := S20000x64
abbrev tblTc : Ref sig .tc := main_arg4
abbrev idxTc : Ref sig .tc := main_arg12
abbrev outTc : Ref sig .tc := main_v4
abbrev tblScv : Ref sig .scVector := main_arg4_scv
abbrev idxScv : Ref sig .scVector := main_arg12_scv
abbrev outScv : Ref sig .scVector := main_v4_scv
abbrev scrScv : Ref sig .scVector := cc4_scratch0

/-! ## The same for every call from here on -/

variable {F : FTy → Type}

local notation "𝕄" => MT nD τ sig (HIx 8) (Elt F) ℕ UU ℕ

variable (m : (ℓ : Loc nD τ sig) → Buf (Elt F) ℓ)

abbrev tLoc (d : Dev nD) : Loc nD τ sig := (SparseCore.T d).loc tblTc
abbrev iLoc (d : Dev nD) : Loc nD τ sig := (SparseCore.T d).loc idxTc
abbrev oLoc (d : Dev nD) : Loc nD τ sig := (SparseCore.T d).loc outTc

abbrev tW : Memref sig .scVector .hbm TS .f32 := Memref.whole tblScv
abbrev iW : Memref sig .scVector .hbm S16384 .i32 := Memref.whole idxScv
abbrev oW : Memref sig .scVector .hbm S16384x64 .f32 := Memref.whole outScv
abbrev sW : Memref sig .scVector .vmem S512 .i32 := Memref.whole scrScv

/-- The lookup's value on device `d`: the whole result array as one function of the launch memory. -/
def G (d : Dev nD) : Buf (Elt F) (oLoc d) := Spec.gatherRows nRows nRows_pos (m (tLoc d)) (m (iLoc d))

theorem hdiv : 16384 ∣ S16384x64.size 0 := ⟨1, rfl⟩
/-- Row `r` of the result, as a rectangle and as a set of indices. -/
abbrev row (r : Fin 16384) : Rect S16384x64 := Rect.part (s := S16384x64) (a₀ := 0) hdiv r
abbrev rowSet (r : Fin 16384) : Finset S16384x64.Idx := ((oW : Memref sig .scVector .hbm S16384x64 .f32).view.slice (row r)).set

/-- The number of the tile at `L` among the thirty-two. -/
def wid (L : grid0.Coords) : Fin 32 := ⟨2 * (L 1).val + (L 0).val, by
  have h0 : (L 0).val < 2 := (L 0).isLt
  have h1 : (L 1).val < 16 := (L 1).isLt
  omega⟩

/-- Row `t` of the tile's 512. -/
abbrev tileRow (L : grid0.Coords) (t : Fin 512) : Fin 16384 := ⟨base L + t.val, base_add_lt L t⟩

/-- What the tile at `L` is handed: a read token of the table, one of the index array, its 512 rows of the result. -/
def go (d : Dev nD) (L : grid0.Coords) : sProp 𝕄 :=
  iprop((tLoc d ↦{Transfers.shareTok fullShare 32 (wid L)} m (tLoc d)) ∗ (iLoc d ↦{Transfers.shareTok fullShare 32 (wid L)} m (iLoc d))
    ∗ bigSep Finset.univ fun t : Fin 512 => oLoc d ↦[rowSet (tileRow L t)]{fullShare} m (oLoc d))

/-- What it hands back: its 512 rows, holding the lookup's value. -/
def td (d : Dev nD) (L : grid0.Coords) : sProp 𝕄 :=
  bigSep Finset.univ fun t : Fin 512 => oLoc d ↦[rowSet (tileRow L t)]{fullShare} G m d

variable [FloatOps F]

/-- The tile's obligation at this call, at a symbolic tile: from what it is handed, its scoped storage and what it owes
    the launch, the printed body runs and ends with the 512 rows holding the lookup's value. -/
def TileBody : Prop :=
  ∀ (d : Dev nD) (L : grid0.Coords) (O : CellTallies nD τ sig (HIx 8)) (W : Waits sig (HIx 8)), (∀ g, O g none = 0) →
    iprop(levAts (K (F := F)).L (K (F := F)).lev ∗ emp ∗ go m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc4__gather_body L tW (Memref.isWhole_whole _) iW (Memref.isWhole_whole _) oW (Memref.isWhole_whole _)
            sW (Memref.isWhole_whole _) cc4_scratch1 cc4_scoped0)
          fun _ => iprop(td m d L ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KI.R4

end
-- ==== Proof.KIRes5.lean ====
/-
  Call 5 of the eight: what the launch hands each tile and what the tile hands back. A tile reads the table and the
  index array through read tokens of the whole arrays (never handed back: the TensorCore keeps a share of each, which
  is enough to read the final memory against the launch memory), and owns the 512 rows of the result that it writes;
  it hands those rows back holding the lookup's value, each row a restriction of the ONE whole-array function `G`.
-/
import proofs.«218896_g85959475462175_cont_9to1_m_647_27_alg».proof.Proof.KICommon

noncomputable section

namespace Cert.Proof.KI.R5

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## This call's table, index array, result, scratch -/

abbrev nRows : Nat := 10000
theorem nRows_pos : 0 < nRows := by decide
abbrev TS : Shape := S10000x64
abbrev tblTc : Ref sig .tc := main_arg5
abbrev idxTc : Ref sig .tc := main_arg13
abbrev outTc : Ref sig .tc := main_v5
abbrev tblScv : Ref sig .scVector := main_arg5_scv
abbrev idxScv : Ref sig .scVector := main_arg13_scv
abbrev outScv : Ref sig .scVector := main_v5_scv
abbrev scrScv : Ref sig .scVector := cc5_scratch0

/-! ## The same for every call from here on -/

variable {F : FTy → Type}

local notation "𝕄" => MT nD τ sig (HIx 8) (Elt F) ℕ UU ℕ

variable (m : (ℓ : Loc nD τ sig) → Buf (Elt F) ℓ)

abbrev tLoc (d : Dev nD) : Loc nD τ sig := (SparseCore.T d).loc tblTc
abbrev iLoc (d : Dev nD) : Loc nD τ sig := (SparseCore.T d).loc idxTc
abbrev oLoc (d : Dev nD) : Loc nD τ sig := (SparseCore.T d).loc outTc

abbrev tW : Memref sig .scVector .hbm TS .f32 := Memref.whole tblScv
abbrev iW : Memref sig .scVector .hbm S16384 .i32 := Memref.whole idxScv
abbrev oW : Memref sig .scVector .hbm S16384x64 .f32 := Memref.whole outScv
abbrev sW : Memref sig .scVector .vmem S512 .i32 := Memref.whole scrScv

/-- The lookup's value on device `d`: the whole result array as one function of the launch memory. -/
def G (d : Dev nD) : Buf (Elt F) (oLoc d) := Spec.gatherRows nRows nRows_pos (m (tLoc d)) (m (iLoc d))

theorem hdiv : 16384 ∣ S16384x64.size 0 := ⟨1, rfl⟩
/-- Row `r` of the result, as a rectangle and as a set of indices. -/
abbrev row (r : Fin 16384) : Rect S16384x64 := Rect.part (s := S16384x64) (a₀ := 0) hdiv r
abbrev rowSet (r : Fin 16384) : Finset S16384x64.Idx := ((oW : Memref sig .scVector .hbm S16384x64 .f32).view.slice (row r)).set

/-- The number of the tile at `L` among the thirty-two. -/
def wid (L : grid0.Coords) : Fin 32 := ⟨2 * (L 1).val + (L 0).val, by
  have h0 : (L 0).val < 2 := (L 0).isLt
  have h1 : (L 1).val < 16 := (L 1).isLt
  omega⟩

/-- Row `t` of the tile's 512. -/
abbrev tileRow (L : grid0.Coords) (t : Fin 512) : Fin 16384 := ⟨base L + t.val, base_add_lt L t⟩

/-- What the tile at `L` is handed: a read token of the table, one of the index array, its 512 rows of the result. -/
def go (d : Dev nD) (L : grid0.Coords) : sProp 𝕄 :=
  iprop((tLoc d ↦{Transfers.shareTok fullShare 32 (wid L)} m (tLoc d)) ∗ (iLoc d ↦{Transfers.shareTok fullShare 32 (wid L)} m (iLoc d))
    ∗ bigSep Finset.univ fun t : Fin 512 => oLoc d ↦[rowSet (tileRow L t)]{fullShare} m (oLoc d))

/-- What it hands back: its 512 rows, holding the lookup's value. -/
def td (d : Dev nD) (L : grid0.Coords) : sProp 𝕄 :=
  bigSep Finset.univ fun t : Fin 512 => oLoc d ↦[rowSet (tileRow L t)]{fullShare} G m d

variable [FloatOps F]

/-- The tile's obligation at this call, at a symbolic tile: from what it is handed, its scoped storage and what it owes
    the launch, the printed body runs and ends with the 512 rows holding the lookup's value. -/
def TileBody : Prop :=
  ∀ (d : Dev nD) (L : grid0.Coords) (O : CellTallies nD τ sig (HIx 8)) (W : Waits sig (HIx 8)), (∀ g, O g none = 0) →
    iprop(levAts (K (F := F)).L (K (F := F)).lev ∗ emp ∗ go m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc5__gather_body L tW (Memref.isWhole_whole _) iW (Memref.isWhole_whole _) oW (Memref.isWhole_whole _)
            sW (Memref.isWhole_whole _) cc5_scratch1 cc5_scoped0)
          fun _ => iprop(td m d L ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KI.R5

end
-- ==== Proof.KIRes6.lean ====
/-
  Call 6 of the eight: what the launch hands each tile and what the tile hands back. A tile reads the table and the
  index array through read tokens of the whole arrays (never handed back: the TensorCore keeps a share of each, which
  is enough to read the final memory against the launch memory), and owns the 512 rows of the result that it writes;
  it hands those rows back holding the lookup's value, each row a restriction of the ONE whole-array function `G`.
-/
import proofs.«218896_g85959475462175_cont_9to1_m_647_27_alg».proof.Proof.KICommon

noncomputable section

namespace Cert.Proof.KI.R6

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## This call's table, index array, result, scratch -/

abbrev nRows : Nat := 5000
theorem nRows_pos : 0 < nRows := by decide
abbrev TS : Shape := S5000x64
abbrev tblTc : Ref sig .tc := main_arg6
abbrev idxTc : Ref sig .tc := main_arg14
abbrev outTc : Ref sig .tc := main_v6
abbrev tblScv : Ref sig .scVector := main_arg6_scv
abbrev idxScv : Ref sig .scVector := main_arg14_scv
abbrev outScv : Ref sig .scVector := main_v6_scv
abbrev scrScv : Ref sig .scVector := cc6_scratch0

/-! ## The same for every call from here on -/

variable {F : FTy → Type}

local notation "𝕄" => MT nD τ sig (HIx 8) (Elt F) ℕ UU ℕ

variable (m : (ℓ : Loc nD τ sig) → Buf (Elt F) ℓ)

abbrev tLoc (d : Dev nD) : Loc nD τ sig := (SparseCore.T d).loc tblTc
abbrev iLoc (d : Dev nD) : Loc nD τ sig := (SparseCore.T d).loc idxTc
abbrev oLoc (d : Dev nD) : Loc nD τ sig := (SparseCore.T d).loc outTc

abbrev tW : Memref sig .scVector .hbm TS .f32 := Memref.whole tblScv
abbrev iW : Memref sig .scVector .hbm S16384 .i32 := Memref.whole idxScv
abbrev oW : Memref sig .scVector .hbm S16384x64 .f32 := Memref.whole outScv
abbrev sW : Memref sig .scVector .vmem S512 .i32 := Memref.whole scrScv

/-- The lookup's value on device `d`: the whole result array as one function of the launch memory. -/
def G (d : Dev nD) : Buf (Elt F) (oLoc d) := Spec.gatherRows nRows nRows_pos (m (tLoc d)) (m (iLoc d))

theorem hdiv : 16384 ∣ S16384x64.size 0 := ⟨1, rfl⟩
/-- Row `r` of the result, as a rectangle and as a set of indices. -/
abbrev row (r : Fin 16384) : Rect S16384x64 := Rect.part (s := S16384x64) (a₀ := 0) hdiv r
abbrev rowSet (r : Fin 16384) : Finset S16384x64.Idx := ((oW : Memref sig .scVector .hbm S16384x64 .f32).view.slice (row r)).set

/-- The number of the tile at `L` among the thirty-two. -/
def wid (L : grid0.Coords) : Fin 32 := ⟨2 * (L 1).val + (L 0).val, by
  have h0 : (L 0).val < 2 := (L 0).isLt
  have h1 : (L 1).val < 16 := (L 1).isLt
  omega⟩

/-- Row `t` of the tile's 512. -/
abbrev tileRow (L : grid0.Coords) (t : Fin 512) : Fin 16384 := ⟨base L + t.val, base_add_lt L t⟩

/-- What the tile at `L` is handed: a read token of the table, one of the index array, its 512 rows of the result. -/
def go (d : Dev nD) (L : grid0.Coords) : sProp 𝕄 :=
  iprop((tLoc d ↦{Transfers.shareTok fullShare 32 (wid L)} m (tLoc d)) ∗ (iLoc d ↦{Transfers.shareTok fullShare 32 (wid L)} m (iLoc d))
    ∗ bigSep Finset.univ fun t : Fin 512 => oLoc d ↦[rowSet (tileRow L t)]{fullShare} m (oLoc d))

/-- What it hands back: its 512 rows, holding the lookup's value. -/
def td (d : Dev nD) (L : grid0.Coords) : sProp 𝕄 :=
  bigSep Finset.univ fun t : Fin 512 => oLoc d ↦[rowSet (tileRow L t)]{fullShare} G m d

variable [FloatOps F]

/-- The tile's obligation at this call, at a symbolic tile: from what it is handed, its scoped storage and what it owes
    the launch, the printed body runs and ends with the 512 rows holding the lookup's value. -/
def TileBody : Prop :=
  ∀ (d : Dev nD) (L : grid0.Coords) (O : CellTallies nD τ sig (HIx 8)) (W : Waits sig (HIx 8)), (∀ g, O g none = 0) →
    iprop(levAts (K (F := F)).L (K (F := F)).lev ∗ emp ∗ go m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc6__gather_body L tW (Memref.isWhole_whole _) iW (Memref.isWhole_whole _) oW (Memref.isWhole_whole _)
            sW (Memref.isWhole_whole _) cc6_scratch1 cc6_scoped0)
          fun _ => iprop(td m d L ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KI.R6

end
-- ==== Proof.KIRes7.lean ====
/-
  Call 7 of the eight: what the launch hands each tile and what the tile hands back. A tile reads the table and the
  index array through read tokens of the whole arrays (never handed back: the TensorCore keeps a share of each, which
  is enough to read the final memory against the launch memory), and owns the 512 rows of the result that it writes;
  it hands those rows back holding the lookup's value, each row a restriction of the ONE whole-array function `G`.
-/
import proofs.«218896_g85959475462175_cont_9to1_m_647_27_alg».proof.Proof.KICommon

noncomputable section

namespace Cert.Proof.KI.R7

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## This call's table, index array, result, scratch -/

abbrev nRows : Nat := 1000
theorem nRows_pos : 0 < nRows := by decide
abbrev TS : Shape := S1000x64
abbrev tblTc : Ref sig .tc := main_arg7
abbrev idxTc : Ref sig .tc := main_arg15
abbrev outTc : Ref sig .tc := main_v7
abbrev tblScv : Ref sig .scVector := main_arg7_scv
abbrev idxScv : Ref sig .scVector := main_arg15_scv
abbrev outScv : Ref sig .scVector := main_v7_scv
abbrev scrScv : Ref sig .scVector := cc7_scratch0

/-! ## The same for every call from here on -/

variable {F : FTy → Type}

local notation "𝕄" => MT nD τ sig (HIx 8) (Elt F) ℕ UU ℕ

variable (m : (ℓ : Loc nD τ sig) → Buf (Elt F) ℓ)

abbrev tLoc (d : Dev nD) : Loc nD τ sig := (SparseCore.T d).loc tblTc
abbrev iLoc (d : Dev nD) : Loc nD τ sig := (SparseCore.T d).loc idxTc
abbrev oLoc (d : Dev nD) : Loc nD τ sig := (SparseCore.T d).loc outTc

abbrev tW : Memref sig .scVector .hbm TS .f32 := Memref.whole tblScv
abbrev iW : Memref sig .scVector .hbm S16384 .i32 := Memref.whole idxScv
abbrev oW : Memref sig .scVector .hbm S16384x64 .f32 := Memref.whole outScv
abbrev sW : Memref sig .scVector .vmem S512 .i32 := Memref.whole scrScv

/-- The lookup's value on device `d`: the whole result array as one function of the launch memory. -/
def G (d : Dev nD) : Buf (Elt F) (oLoc d) := Spec.gatherRows nRows nRows_pos (m (tLoc d)) (m (iLoc d))

theorem hdiv : 16384 ∣ S16384x64.size 0 := ⟨1, rfl⟩
/-- Row `r` of the result, as a rectangle and as a set of indices. -/
abbrev row (r : Fin 16384) : Rect S16384x64 := Rect.part (s := S16384x64) (a₀ := 0) hdiv r
abbrev rowSet (r : Fin 16384) : Finset S16384x64.Idx := ((oW : Memref sig .scVector .hbm S16384x64 .f32).view.slice (row r)).set

/-- The number of the tile at `L` among the thirty-two. -/
def wid (L : grid0.Coords) : Fin 32 := ⟨2 * (L 1).val + (L 0).val, by
  have h0 : (L 0).val < 2 := (L 0).isLt
  have h1 : (L 1).val < 16 := (L 1).isLt
  omega⟩

/-- Row `t` of the tile's 512. -/
abbrev tileRow (L : grid0.Coords) (t : Fin 512) : Fin 16384 := ⟨base L + t.val, base_add_lt L t⟩

/-- What the tile at `L` is handed: a read token of the table, one of the index array, its 512 rows of the result. -/
def go (d : Dev nD) (L : grid0.Coords) : sProp 𝕄 :=
  iprop((tLoc d ↦{Transfers.shareTok fullShare 32 (wid L)} m (tLoc d)) ∗ (iLoc d ↦{Transfers.shareTok fullShare 32 (wid L)} m (iLoc d))
    ∗ bigSep Finset.univ fun t : Fin 512 => oLoc d ↦[rowSet (tileRow L t)]{fullShare} m (oLoc d))

/-- What it hands back: its 512 rows, holding the lookup's value. -/
def td (d : Dev nD) (L : grid0.Coords) : sProp 𝕄 :=
  bigSep Finset.univ fun t : Fin 512 => oLoc d ↦[rowSet (tileRow L t)]{fullShare} G m d

variable [FloatOps F]

/-- The tile's obligation at this call, at a symbolic tile: from what it is handed, its scoped storage and what it owes
    the launch, the printed body runs and ends with the 512 rows holding the lookup's value. -/
def TileBody : Prop :=
  ∀ (d : Dev nD) (L : grid0.Coords) (O : CellTallies nD τ sig (HIx 8)) (W : Waits sig (HIx 8)), (∀ g, O g none = 0) →
    iprop(levAts (K (F := F)).L (K (F := F)).lev ∗ emp ∗ go m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc7__gather_body L tW (Memref.isWhole_whole _) iW (Memref.isWhole_whole _) oW (Memref.isWhole_whole _)
            sW (Memref.isWhole_whole _) cc7_scratch1 cc7_scoped0)
          fun _ => iprop(td m d L ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KI.R7

end
-- ==== Proof.KIPay.lean ====
/-
  What the launch's handshakes carry at each of the eight calls. A SparseCore of a call's grid is handed its sixteen
  tiles' operands side by side and hands their results back side by side, so the split of a SparseCore's operands
  among its tiles is the identity. Each call's tile obligation follows from the proof of that call's body at a
  symbolic tile: the body table's entry for the tile is the printed body at the tile's grid coordinates.
-/
import proofs.«218896_g85959475462175_cont_9to1_m_647_27_alg».proof.Proof.KIRes0
import proofs.«218896_g85959475462175_cont_9to1_m_647_27_alg».proof.Proof.KIRes1
import proofs.«218896_g85959475462175_cont_9to1_m_647_27_alg».proof.Proof.KIRes2
import proofs.«218896_g85959475462175_cont_9to1_m_647_27_alg».proof.Proof.KIRes3
import proofs.«218896_g85959475462175_cont_9to1_m_647_27_alg».proof.Proof.KIRes4
import proofs.«218896_g85959475462175_cont_9to1_m_647_27_alg».proof.Proof.KIRes5
import proofs.«218896_g85959475462175_cont_9to1_m_647_27_alg».proof.Proof.KIRes6
import proofs.«218896_g85959475462175_cont_9to1_m_647_27_alg».proof.Proof.KIRes7

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 8) (Elt F) ℕ UU ℕ

variable (m : (ℓ : Loc nD τ sig) → Buf (Elt F) ℓ)

/-! ## Every call's grid is two SparseCores of sixteen tiles -/

theorem nCore_eq (q : Fin 8) : (K (F := F)).nCore q = grid0.bound 0 :=
  show scNCore q = grid0.bound 0 from by revert q; decide
theorem nSub_eq (q : Fin 8) : (K (F := F)).nSub q = grid0.bound 1 :=
  show scNSub q = grid0.bound 1 from by revert q; decide

/-- Tile `i` of SparseCore `c` of call `q`'s grid, as grid coordinates. -/
abbrev LQ (q : Fin 8) (c : Fin ((K (F := F)).nCore q)) (i : Fin ((K (F := F)).nSub q)) : grid0.Coords :=
  coordsV (Fin.cast (nCore_eq q) c) (Fin.cast (nSub_eq q) i)

/-! ## What a tile is handed and hands back, by call -/

/-- What the tile at `L` is handed at call `q`. -/
def goAt (q : Fin 8) (d : Dev nD) (L : grid0.Coords) : sProp 𝕄 :=
  match q with
  | 0 => R0.go m d L
  | 1 => R1.go m d L
  | 2 => R2.go m d L
  | 3 => R3.go m d L
  | 4 => R4.go m d L
  | 5 => R5.go m d L
  | 6 => R6.go m d L
  | 7 => R7.go m d L

/-- What it hands back. -/
def tdAt (q : Fin 8) (d : Dev nD) (L : grid0.Coords) : sProp 𝕄 :=
  match q with
  | 0 => R0.td m d L
  | 1 => R1.td m d L
  | 2 => R2.td m d L
  | 3 => R3.td m d L
  | 4 => R4.td m d L
  | 5 => R5.td m d L
  | 6 => R6.td m d L
  | 7 => R7.td m d L

instance goAt_storable (q : Fin 8) (d : Dev nD) (L : grid0.Coords) : BI.Storable (upEmb : UEmb _ 𝕄) (goAt m q d L) := by
  revert q; unfold goAt R0.go R1.go R2.go R3.go R4.go R5.go R6.go R7.go
  intro q; split <;> infer_instance

instance tdAt_storable (q : Fin 8) (d : Dev nD) (L : grid0.Coords) : BI.Storable (upEmb : UEmb _ 𝕄) (tdAt m q d L) := by
  revert q; unfold tdAt R0.td R1.td R2.td R3.td R4.td R5.td R6.td R7.td
  intro q; split <;> infer_instance

/-- The payloads: a tile's task carries `goAt` out and `tdAt` back; a SparseCore's start carries its sixteen tiles'
    `goAt` side by side, its end their `tdAt`; no call's proof consumes anything of the launch's. -/
def P : (K (F := F)).Pay (nD := nD) (Val := Elt F) (Name := ℕ) (U := UU) where
  st := fun q d c => bigSep Finset.univ fun i : Fin ((K (F := F)).nSub q) => goAt m q d (LQ q c i)
  dn := fun q d c => bigSep Finset.univ fun i : Fin ((K (F := F)).nSub q) => tdAt m q d (LQ q c i)
  go := fun q d c i => goAt m q d (LQ q c i)
  td := fun q d c i => tdAt m q d (LQ q c i)
  x := fun _ _ => iprop(emp)

theorem P_st (q : Fin 8) (d : Dev nD) (c : Fin ((K (F := F)).nCore q)) :
    (P m).st q d c = bigSep Finset.univ fun i : Fin ((K (F := F)).nSub q) => (P m).go q d c i := rfl
theorem P_dn (q : Fin 8) (d : Dev nD) (c : Fin ((K (F := F)).nCore q)) :
    (P m).dn q d c = bigSep Finset.univ fun i : Fin ((K (F := F)).nSub q) => (P m).td q d c i := rfl
theorem P_go (q : Fin 8) (d : Dev nD) (c : Fin ((K (F := F)).nCore q)) (i : Fin ((K (F := F)).nSub q)) :
    (P m).go q d c i = goAt m q d (LQ q c i) := rfl
theorem P_td (q : Fin 8) (d : Dev nD) (c : Fin ((K (F := F)).nCore q)) (i : Fin ((K (F := F)).nSub q)) :
    (P m).td q d c i = tdAt m q d (LQ q c i) := rfl

instance P_storable : (P (F := F) m).IsStorable where
  st _ _ _ := by unfold P; infer_instance
  dn _ _ _ := by unfold P; infer_instance
  go _ _ _ _ := by unfold P; infer_instance
  td _ _ _ _ := by unfold P; infer_instance

/-! ## The split of a SparseCore's operands among its tiles: the identity -/

theorem vecSplit (q : Fin 8) : (K (F := F)).VecSplit' (P m) q := by
  intro d c
  rw [P_st, P_dn]
  iintro H; imodintro
  isplitl [H]; · iexact H
  iintro H; iexact H

/-! ## The tiles' obligations -/

variable [FloatOps F]

omit [FloatOps F] in
theorem obl_post {thr : Thread nD τ} {A B C : sProp 𝕄} {O : CellTallies nD τ sig (HIx 8)} {W : Waits sig (HIx 8)} {q : Fin 8} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector0 (c : Fin τ.nSC) (s : Fin τ.nSub) :
    defs₀ (F := F) (.scVector c s) 0 ()
      = SparseCore.onTile hcore0 hsub0 (fun c s => cc0__gather_body (coordsV c s)
          R0.tW (Memref.isWhole_whole _) R0.iW (Memref.isWhole_whole _) R0.oW (Memref.isWhole_whole _)
          R0.sW (Memref.isWhole_whole _) cc0_scratch1 cc0_scoped0) ⟨⟩ c s := rfl

theorem tileObl0 (hb : R0.TileBody m) : (K (F := F)).TileObl (D (F := F)) 𝒱 (P m) v₀ 0 := by
  intro d c i O W hO _ _
  -- no call owes anything for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (hb d (coordsV ⟨_, hc.1⟩ ⟨_, hc.2⟩) O W hO).trans (wp_mono frame _ _ fun _ => obl_post)

theorem defs₀_vector1 (c : Fin τ.nSC) (s : Fin τ.nSub) :
    defs₀ (F := F) (.scVector c s) 1 ()
      = SparseCore.onTile hcore1 hsub1 (fun c s => cc1__gather_body (coordsV c s)
          R1.tW (Memref.isWhole_whole _) R1.iW (Memref.isWhole_whole _) R1.oW (Memref.isWhole_whole _)
          R1.sW (Memref.isWhole_whole _) cc1_scratch1 cc1_scoped0) ⟨⟩ c s := rfl

theorem tileObl1 (hb : R1.TileBody m) : (K (F := F)).TileObl (D (F := F)) 𝒱 (P m) v₀ 1 := by
  intro d c i O W hO _ _
  -- no call owes anything for a protocol of its own
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (hb d (coordsV ⟨_, hc.1⟩ ⟨_, hc.2⟩) O W hO).trans (wp_mono frame _ _ fun _ => obl_post)

theorem defs₀_vector2 (c : Fin τ.nSC) (s : Fin τ.nSub) :
    defs₀ (F := F) (.scVector c s) 2 ()
      = SparseCore.onTile hcore2 hsub2 (fun c s => cc2__gather_body (coordsV c s)
          R2.tW (Memref.isWhole_whole _) R2.iW (Memref.isWhole_whole _) R2.oW (Memref.isWhole_whole _)
          R2.sW (Memref.isWhole_whole _) cc2_scratch1 cc2_scoped0) ⟨⟩ c s := rfl

theorem tileObl2 (hb : R2.TileBody m) : (K (F := F)).TileObl (D (F := F)) 𝒱 (P m) v₀ 2 := by
  intro d c i O W hO _ _
  -- no call owes anything for a protocol of its own
  simp only [show (P m).ox = fun _ _ => 0 from rfl, add_zero]
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs₀_vector2]; simp only [SparseCore.onTile, hc, and_self, ↓reduceDIte]
  exact (hb d (coordsV ⟨_, hc.1⟩ ⟨_, hc.2⟩) O W hO).trans (wp_mono frame _ _ fun _ => obl_post)

theorem defs₀_vector3 (c : Fin τ.nSC) (s : Fin τ.nSub) :
    defs₀ (F := F) (.scVector c s) 3 ()
      = SparseCore.onTile hcore3 hsub3 (fun c s => cc3__gather_body (coordsV c s)
          R3.tW (Memref.isWhole_whole _) R3.iW (Memref.isWhole_whole _) R3.oW (Memref.isWhole_whole _)
          R3.sW (Memref.isWhole_whole _) cc3_scratch1 cc3_scoped0) ⟨⟩ c s := rfl

theorem tileObl3 (hb : R3.TileBody m) : (K (F := F)).TileObl (D (F := F)) 𝒱 (P m) v₀ 3 := by
  intro d c i O W hO _ _
  -- no call owes anything for a protocol of its own
  simp only [show (P m).ox = fun _ _ => 0 from rfl, add_zero]
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  have hc : ((K (F := F)).core 3 c).val < grid3.bound 0 ∧ ((K (F := F)).sub 3 i).val < grid3.bound 1 := ⟨c.isLt, i.isLt⟩
  rw [defs₀_vector3]; simp only [SparseCore.onTile, hc, and_self, ↓reduceDIte]
  exact (hb d (coordsV ⟨_, hc.1⟩ ⟨_, hc.2⟩) O W hO).trans (wp_mono frame _ _ fun _ => obl_post)

theorem defs₀_vector4 (c : Fin τ.nSC) (s : Fin τ.nSub) :
    defs₀ (F := F) (.scVector c s) 4 ()
      = SparseCore.onTile hcore4 hsub4 (fun c s => cc4__gather_body (coordsV c s)
          R4.tW (Memref.isWhole_whole _) R4.iW (Memref.isWhole_whole _) R4.oW (Memref.isWhole_whole _)
          R4.sW (Memref.isWhole_whole _) cc4_scratch1 cc4_scoped0) ⟨⟩ c s := rfl

theorem tileObl4 (hb : R4.TileBody m) : (K (F := F)).TileObl (D (F := F)) 𝒱 (P m) v₀ 4 := by
  intro d c i O W hO _ _
  -- no call owes anything for a protocol of its own
  simp only [show (P m).ox = fun _ _ => 0 from rfl, add_zero]
  change _ ⊢ wp _ _ _ (Pipeline.liftProg (defs₀ (F := F) (.scVector ((K (F := F)).core 4 c) ((K (F := F)).sub 4 i)) 4 ())) _
  refine BI.Entails.trans ?_ (Pipeline.wp_liftProg (D (F := F)) (Pipeline.defs_kernel pcfgs defs₀) 𝒱₀ _ Set.univ none _ _)
  have hc : ((K (F := F)).core 4 c).val < grid4.bound 0 ∧ ((K (F := F)).sub 4 i).val < grid4.bound 1 := ⟨c.isLt, i.isLt⟩
  rw [defs₀_vector4]; simp only [SparseCore.onTile, hc, and_self, ↓reduceDIte]
  exact (hb d (coordsV ⟨_, hc.1⟩ ⟨_, hc.2⟩) O W hO).trans (wp_mono frame _ _ fun _ => obl_post)

theorem defs₀_vector5 (c : Fin τ.nSC) (s : Fin τ.nSub) :
    defs₀ (F := F) (.scVector c s) 5 ()
      = SparseCore.onTile hcore5 hsub5 (fun c s => cc5__gather_body (coordsV c s)
          R5.tW (Memref.isWhole_whole _) R5.iW (Memref.isWhole_whole _) R5.oW (Memref.isWhole_whole _)
          R5.sW (Memref.isWhole_whole _) cc5_scratch1 cc5_scoped0) ⟨⟩ c s := rfl

theorem tileObl5 (hb : R5.TileBody m) : (K (F := F)).TileObl (D (F := F)) 𝒱 (P m) v₀ 5 := by
  intro d c i O W hO _ _
  -- no call owes anything for a protocol of its own
  simp only [show (P m).ox = fun _ _ => 0 from rfl, add_zero]
  change _ ⊢ wp _ _ _ (Pipeline.liftProg (defs₀ (F := F) (.scVector ((K (F := F)).core 5 c) ((K (F := F)).sub 5 i)) 5 ())) _
  refine BI.Entails.trans ?_ (Pipeline.wp_liftProg (D (F := F)) (Pipeline.defs_kernel pcfgs defs₀) 𝒱₀ _ Set.univ none _ _)
  have hc : ((K (F := F)).core 5 c).val < grid5.bound 0 ∧ ((K (F := F)).sub 5 i).val < grid5.bound 1 := ⟨c.isLt, i.isLt⟩
  rw [defs₀_vector5]; simp only [SparseCore.onTile, hc, and_self, ↓reduceDIte]
  exact (hb d (coordsV ⟨_, hc.1⟩ ⟨_, hc.2⟩) O W hO).trans (wp_mono frame _ _ fun _ => obl_post)

theorem defs₀_vector6 (c : Fin τ.nSC) (s : Fin τ.nSub) :
    defs₀ (F := F) (.scVector c s) 6 ()
      = SparseCore.onTile hcore6 hsub6 (fun c s => cc6__gather_body (coordsV c s)
          R6.tW (Memref.isWhole_whole _) R6.iW (Memref.isWhole_whole _) R6.oW (Memref.isWhole_whole _)
          R6.sW (Memref.isWhole_whole _) cc6_scratch1 cc6_scoped0) ⟨⟩ c s := rfl

theorem tileObl6 (hb : R6.TileBody m) : (K (F := F)).TileObl (D (F := F)) 𝒱 (P m) v₀ 6 := by
  intro d c i O W hO _ _
  -- no call owes anything for a protocol of its own
  simp only [show (P m).ox = fun _ _ => 0 from rfl, add_zero]
  change _ ⊢ wp _ _ _ (Pipeline.liftProg (defs₀ (F := F) (.scVector ((K (F := F)).core 6 c) ((K (F := F)).sub 6 i)) 6 ())) _
  refine BI.Entails.trans ?_ (Pipeline.wp_liftProg (D (F := F)) (Pipeline.defs_kernel pcfgs defs₀) 𝒱₀ _ Set.univ none _ _)
  have hc : ((K (F := F)).core 6 c).val < grid6.bound 0 ∧ ((K (F := F)).sub 6 i).val < grid6.bound 1 := ⟨c.isLt, i.isLt⟩
  rw [defs₀_vector6]; simp only [SparseCore.onTile, hc, and_self, ↓reduceDIte]
  exact (hb d (coordsV ⟨_, hc.1⟩ ⟨_, hc.2⟩) O W hO).trans (wp_mono frame _ _ fun _ => obl_post)

theorem defs₀_vector7 (c : Fin τ.nSC) (s : Fin τ.nSub) :
    defs₀ (F := F) (.scVector c s) 7 ()
      = SparseCore.onTile hcore7 hsub7 (fun c s => cc7__gather_body (coordsV c s)
          R7.tW (Memref.isWhole_whole _) R7.iW (Memref.isWhole_whole _) R7.oW (Memref.isWhole_whole _)
          R7.sW (Memref.isWhole_whole _) cc7_scratch1 cc7_scoped0) ⟨⟩ c s := rfl

theorem tileObl7 (hb : R7.TileBody m) : (K (F := F)).TileObl (D (F := F)) 𝒱 (P m) v₀ 7 := by
  intro d c i O W hO _ _
  -- no call owes anything for a protocol of its own
  simp only [show (P m).ox = fun _ _ => 0 from rfl, add_zero]
  change _ ⊢ wp _ _ _ (Pipeline.liftProg (defs₀ (F := F) (.scVector ((K (F := F)).core 7 c) ((K (F := F)).sub 7 i)) 7 ())) _
  refine BI.Entails.trans ?_ (Pipeline.wp_liftProg (D (F := F)) (Pipeline.defs_kernel pcfgs defs₀) 𝒱₀ _ Set.univ none _ _)
  have hc : ((K (F := F)).core 7 c).val < grid7.bound 0 ∧ ((K (F := F)).sub 7 i).val < grid7.bound 1 := ⟨c.isLt, i.isLt⟩
  rw [defs₀_vector7]; simp only [SparseCore.onTile, hc, and_self, ↓reduceDIte]
  exact (hb d (coordsV ⟨_, hc.1⟩ ⟨_, hc.2⟩) O W hO).trans (wp_mono frame _ _ fun _ => obl_post)

end Cert.Proof.KI

end
-- ==== Proof.KIGeom0.lean ====
/-
  The geometry of the thirty-two tiles at one call. The result's 16384 rows are pairwise disjoint and cover it; the tile
  at grid coordinates (c, i) owns the rows 1024·i + 512·c + t for t < 512, and the triples (c, i, t) number the 16384
  rows exactly once (division and remainder by 1024 and 512). So the whole result is the separating conjunction, over
  the tiles, of each tile's 512 rows. Likewise the pairs (c, i) number the thirty-two read tokens of an array exactly
  once by 2·i + c, so a whole array splits into a remainder and one token per tile.
-/
import proofs.«218896_g85959475462175_cont_9to1_m_647_27_alg».proof.Proof.KIRes0

noncomputable section

namespace Cert.Proof.KI.R0

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

/-- A separating conjunction over a whole finite type may be taken along any bijection onto it. -/
theorem bigSep_univ_bij {M : Type} [URA M] {α β : Type} [Fintype α] [Fintype β] [DecidableEq α] [DecidableEq β]
    (e : α → β) (he : Function.Bijective e) (Φ : β → sProp M) :
    bigSep Finset.univ Φ = bigSep Finset.univ fun a => Φ (e a) := by
  rw [← Finset.image_univ_of_surjective he.2, SparseCore.bigSep_image_of_injOn (he.1.injOn)]

/-! ## The 16384 rows -/

theorem rowSet_eq (r : Fin 16384) : rowSet r = (row r).set := by
  show ((View.whole (outScv : Ref sig .scVector)).slice (row r)).set = _
  rw [View.set_slice]; exact Finset.map_refl

theorem rows_disjoint : ∀ r ∈ (Finset.univ : Finset (Fin 16384)), ∀ r' ∈ (Finset.univ : Finset (Fin 16384)), r ≠ r' → Disjoint (rowSet r) (rowSet r') :=
  fun r _ r' _ h => by rw [rowSet_eq, rowSet_eq]; exact Rect.part_disjoint hdiv h

theorem rows_cover : (Finset.univ : Finset (Fin 16384)).biUnion rowSet = Finset.univ :=
  (Finset.biUnion_congr rfl fun r _ => rowSet_eq r).trans (Rect.biUnion_part hdiv)

/-- The whole result is its 16384 rows. -/
theorem out_rows (d : Dev nD) (f : Buf (Elt F) (oLoc d)) :
    (oLoc d ↦{fullShare} f : sProp 𝕄) = bigSep Finset.univ fun r : Fin 16384 => oLoc d ↦[rowSet r]{fullShare} f := by
  rw [← pointsTo_biUnion Finset.univ (ℓ := oLoc d) rowSet rows_disjoint, rows_cover]; try rfl

/-! ## The tiles number the rows -/

/-- The row that the tile at (c, i) calls its `t`-th. -/
def tileRowOf (p : Fin (grid0.bound 0) × Fin (grid0.bound 1) × Fin 512) : Fin 16384 := tileRow (coordsV p.1 p.2.1) p.2.2

theorem tileRowOf_val (p : Fin (grid0.bound 0) × Fin (grid0.bound 1) × Fin 512) :
    (tileRowOf p).val = 1024 * p.2.1.val + 512 * p.1.val + p.2.2.val := rfl

theorem tileRowOf_bijective : Function.Bijective tileRowOf := by
  constructor
  · rintro ⟨c, i, t⟩ ⟨c', i', t'⟩ h
    have hv := congrArg Fin.val h
    rw [tileRowOf_val, tileRowOf_val] at hv
    have hc : c.val < 2 := c.isLt
    have hc' : c'.val < 2 := c'.isLt
    have hi : i.val < 16 := i.isLt
    have hi' : i'.val < 16 := i'.isLt
    have ht := t.isLt
    have ht' := t'.isLt
    simp only at hv
    have h1 : c.val = c'.val := by omega
    have h2 : i.val = i'.val := by omega
    have h3 : t.val = t'.val := by omega
    rw [Fin.ext h1, Fin.ext h2, Fin.ext h3]
  · intro r
    have hr := r.isLt
    refine ⟨(⟨(r.val % 1024) / 512, ?_⟩, ⟨r.val / 1024, ?_⟩, ⟨r.val % 512, ?_⟩), ?_⟩
    · show (r.val % 1024) / 512 < 2; omega
    · show r.val / 1024 < 16; omega
    · omega
    · apply Fin.ext; rw [tileRowOf_val]; simp only; omega

/-- The whole result is, tile by tile, each tile's 512 rows. -/
theorem out_tiles (d : Dev nD) (f : Buf (Elt F) (oLoc d)) :
    (oLoc d ↦{fullShare} f : sProp 𝕄) = bigSep Finset.univ fun c : Fin (grid0.bound 0) => bigSep Finset.univ fun i : Fin (grid0.bound 1) =>
      bigSep Finset.univ fun t : Fin 512 => oLoc d ↦[rowSet (tileRow (coordsV c i) t)]{fullShare} f := by
  rw [out_rows, bigSep_univ_bij tileRowOf tileRowOf_bijective, bigSep_univ_prod]
  refine bigSep_congr fun c _ => ?_
  rw [bigSep_univ_prod]
  rfl

/-! ## The tiles number the read tokens -/

/-- The token that the tile at (c, i) reads through. -/
def widOf (p : Fin (grid0.bound 0) × Fin (grid0.bound 1)) : Fin 32 := wid (coordsV p.1 p.2)

theorem widOf_val (p : Fin (grid0.bound 0) × Fin (grid0.bound 1)) : (widOf p).val = 2 * p.2.val + p.1.val := rfl

theorem widOf_bijective : Function.Bijective widOf := by
  constructor
  · rintro ⟨c, i⟩ ⟨c', i'⟩ h
    have hv := congrArg Fin.val h
    rw [widOf_val, widOf_val] at hv
    have hc : c.val < 2 := c.isLt
    have hc' : c'.val < 2 := c'.isLt
    simp only at hv
    have h1 : c.val = c'.val := by omega
    have h2 : i.val = i'.val := by omega
    rw [Fin.ext h1, Fin.ext h2]
  · intro w
    have hw := w.isLt
    refine ⟨(⟨w.val % 2, ?_⟩, ⟨w.val / 2, ?_⟩), ?_⟩
    · show w.val % 2 < 2; omega
    · show w.val / 2 < 16; omega
    · apply Fin.ext; rw [widOf_val]; simp only; omega

/-- A whole array splits into a remainder and one read token per tile. -/
theorem toks_tiles {ℓ : Loc nD τ sig} (f : Buf (Elt F) ℓ) :
    (ℓ ↦{fullShare} f : sProp 𝕄) ⊢ iprop((ℓ ↦{Transfers.shareDrop fullShare 32} f) ∗ bigSep Finset.univ fun c : Fin (grid0.bound 0) =>
      bigSep Finset.univ fun i : Fin (grid0.bound 1) => ℓ ↦{Transfers.shareTok fullShare 32 (wid (coordsV c i))} f) := by
  have hre : (bigSep Finset.univ fun c : Fin (grid0.bound 0) => bigSep Finset.univ fun i : Fin (grid0.bound 1) =>
        (ℓ ↦{Transfers.shareTok fullShare 32 (wid (coordsV c i))} f : sProp 𝕄))
      = bigSep Finset.univ fun w : Fin 32 => (ℓ ↦{Transfers.shareTok fullShare 32 w} f : sProp 𝕄) := by
    rw [bigSep_univ_bij widOf widOf_bijective, bigSep_univ_prod]
    rfl
  rw [hre]
  exact Transfers.pointsTo_toks_split fullShare 32

end Cert.Proof.KI.R0

end
-- ==== Proof.KIGeom1.lean ====
/-
  The geometry of the thirty-two tiles at one call. The result's 16384 rows are pairwise disjoint and cover it; the tile
  at grid coordinates (c, i) owns the rows 1024·i + 512·c + t for t < 512, and the triples (c, i, t) number the 16384
  rows exactly once (division and remainder by 1024 and 512). So the whole result is the separating conjunction, over
  the tiles, of each tile's 512 rows. Likewise the pairs (c, i) number the thirty-two read tokens of an array exactly
  once by 2·i + c, so a whole array splits into a remainder and one token per tile.
-/
import proofs.«218896_g85959475462175_cont_9to1_m_647_27_alg».proof.Proof.KIRes1

noncomputable section

namespace Cert.Proof.KI.R1

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

/-- A separating conjunction over a whole finite type may be taken along any bijection onto it. -/
theorem bigSep_univ_bij {M : Type} [URA M] {α β : Type} [Fintype α] [Fintype β] [DecidableEq α] [DecidableEq β]
    (e : α → β) (he : Function.Bijective e) (Φ : β → sProp M) :
    bigSep Finset.univ Φ = bigSep Finset.univ fun a => Φ (e a) := by
  rw [← Finset.image_univ_of_surjective he.2, SparseCore.bigSep_image_of_injOn (he.1.injOn)]

/-! ## The 16384 rows -/

theorem rowSet_eq (r : Fin 16384) : rowSet r = (row r).set := by
  show ((View.whole (outScv : Ref sig .scVector)).slice (row r)).set = _
  rw [View.set_slice]; exact Finset.map_refl

theorem rows_disjoint : ∀ r ∈ (Finset.univ : Finset (Fin 16384)), ∀ r' ∈ (Finset.univ : Finset (Fin 16384)), r ≠ r' → Disjoint (rowSet r) (rowSet r') :=
  fun r _ r' _ h => by rw [rowSet_eq, rowSet_eq]; exact Rect.part_disjoint hdiv h

theorem rows_cover : (Finset.univ : Finset (Fin 16384)).biUnion rowSet = Finset.univ :=
  (Finset.biUnion_congr rfl fun r _ => rowSet_eq r).trans (Rect.biUnion_part hdiv)

/-- The whole result is its 16384 rows. -/
theorem out_rows (d : Dev nD) (f : Buf (Elt F) (oLoc d)) :
    (oLoc d ↦{fullShare} f : sProp 𝕄) = bigSep Finset.univ fun r : Fin 16384 => oLoc d ↦[rowSet r]{fullShare} f := by
  rw [← pointsTo_biUnion Finset.univ (ℓ := oLoc d) rowSet rows_disjoint, rows_cover]; try rfl

/-! ## The tiles number the rows -/

/-- The row that the tile at (c, i) calls its `t`-th. -/
def tileRowOf (p : Fin (grid0.bound 0) × Fin (grid0.bound 1) × Fin 512) : Fin 16384 := tileRow (coordsV p.1 p.2.1) p.2.2

theorem tileRowOf_val (p : Fin (grid0.bound 0) × Fin (grid0.bound 1) × Fin 512) :
    (tileRowOf p).val = 1024 * p.2.1.val + 512 * p.1.val + p.2.2.val := rfl

theorem tileRowOf_bijective : Function.Bijective tileRowOf := by
  constructor
  · rintro ⟨c, i, t⟩ ⟨c', i', t'⟩ h
    have hv := congrArg Fin.val h
    rw [tileRowOf_val, tileRowOf_val] at hv
    have hc : c.val < 2 := c.isLt
    have hc' : c'.val < 2 := c'.isLt
    have hi : i.val < 16 := i.isLt
    have hi' : i'.val < 16 := i'.isLt
    have ht := t.isLt
    have ht' := t'.isLt
    simp only at hv
    have h1 : c.val = c'.val := by omega
    have h2 : i.val = i'.val := by omega
    have h3 : t.val = t'.val := by omega
    rw [Fin.ext h1, Fin.ext h2, Fin.ext h3]
  · intro r
    have hr := r.isLt
    refine ⟨(⟨(r.val % 1024) / 512, ?_⟩, ⟨r.val / 1024, ?_⟩, ⟨r.val % 512, ?_⟩), ?_⟩
    · show (r.val % 1024) / 512 < 2; omega
    · show r.val / 1024 < 16; omega
    · omega
    · apply Fin.ext; rw [tileRowOf_val]; simp only; omega

/-- The whole result is, tile by tile, each tile's 512 rows. -/
theorem out_tiles (d : Dev nD) (f : Buf (Elt F) (oLoc d)) :
    (oLoc d ↦{fullShare} f : sProp 𝕄) = bigSep Finset.univ fun c : Fin (grid0.bound 0) => bigSep Finset.univ fun i : Fin (grid0.bound 1) =>
      bigSep Finset.univ fun t : Fin 512 => oLoc d ↦[rowSet (tileRow (coordsV c i) t)]{fullShare} f := by
  rw [out_rows, bigSep_univ_bij tileRowOf tileRowOf_bijective, bigSep_univ_prod]
  refine bigSep_congr fun c _ => ?_
  rw [bigSep_univ_prod]
  rfl

/-! ## The tiles number the read tokens -/

/-- The token that the tile at (c, i) reads through. -/
def widOf (p : Fin (grid0.bound 0) × Fin (grid0.bound 1)) : Fin 32 := wid (coordsV p.1 p.2)

theorem widOf_val (p : Fin (grid0.bound 0) × Fin (grid0.bound 1)) : (widOf p).val = 2 * p.2.val + p.1.val := rfl

theorem widOf_bijective : Function.Bijective widOf := by
  constructor
  · rintro ⟨c, i⟩ ⟨c', i'⟩ h
    have hv := congrArg Fin.val h
    rw [widOf_val, widOf_val] at hv
    have hc : c.val < 2 := c.isLt
    have hc' : c'.val < 2 := c'.isLt
    simp only at hv
    have h1 : c.val = c'.val := by omega
    have h2 : i.val = i'.val := by omega
    rw [Fin.ext h1, Fin.ext h2]
  · intro w
    have hw := w.isLt
    refine ⟨(⟨w.val % 2, ?_⟩, ⟨w.val / 2, ?_⟩), ?_⟩
    · show w.val % 2 < 2; omega
    · show w.val / 2 < 16; omega
    · apply Fin.ext; rw [widOf_val]; simp only; omega

/-- A whole array splits into a remainder and one read token per tile. -/
theorem toks_tiles {ℓ : Loc nD τ sig} (f : Buf (Elt F) ℓ) :
    (ℓ ↦{fullShare} f : sProp 𝕄) ⊢ iprop((ℓ ↦{Transfers.shareDrop fullShare 32} f) ∗ bigSep Finset.univ fun c : Fin (grid0.bound 0) =>
      bigSep Finset.univ fun i : Fin (grid0.bound 1) => ℓ ↦{Transfers.shareTok fullShare 32 (wid (coordsV c i))} f) := by
  have hre : (bigSep Finset.univ fun c : Fin (grid0.bound 0) => bigSep Finset.univ fun i : Fin (grid0.bound 1) =>
        (ℓ ↦{Transfers.shareTok fullShare 32 (wid (coordsV c i))} f : sProp 𝕄))
      = bigSep Finset.univ fun w : Fin 32 => (ℓ ↦{Transfers.shareTok fullShare 32 w} f : sProp 𝕄) := by
    rw [bigSep_univ_bij widOf widOf_bijective, bigSep_univ_prod]
    rfl
  rw [hre]
  exact Transfers.pointsTo_toks_split fullShare 32

end Cert.Proof.KI.R1

end
-- ==== Proof.KIGeom2.lean ====
/-
  The geometry of the thirty-two tiles at one call. The result's 16384 rows are pairwise disjoint and cover it; the tile
  at grid coordinates (c, i) owns the rows 1024·i + 512·c + t for t < 512, and the triples (c, i, t) number the 16384
  rows exactly once (division and remainder by 1024 and 512). So the whole result is the separating conjunction, over
  the tiles, of each tile's 512 rows. Likewise the pairs (c, i) number the thirty-two read tokens of an array exactly
  once by 2·i + c, so a whole array splits into a remainder and one token per tile.
-/
import proofs.«218896_g85959475462175_cont_9to1_m_647_27_alg».proof.Proof.KIRes2

noncomputable section

namespace Cert.Proof.KI.R2

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

/-- A separating conjunction over a whole finite type may be taken along any bijection onto it. -/
theorem bigSep_univ_bij {M : Type} [URA M] {α β : Type} [Fintype α] [Fintype β] [DecidableEq α] [DecidableEq β]
    (e : α → β) (he : Function.Bijective e) (Φ : β → sProp M) :
    bigSep Finset.univ Φ = bigSep Finset.univ fun a => Φ (e a) := by
  rw [← Finset.image_univ_of_surjective he.2, SparseCore.bigSep_image_of_injOn (he.1.injOn)]

/-! ## The 16384 rows -/

theorem rowSet_eq (r : Fin 16384) : rowSet r = (row r).set := by
  show ((View.whole (outScv : Ref sig .scVector)).slice (row r)).set = _
  rw [View.set_slice]; exact Finset.map_refl

theorem rows_disjoint : ∀ r ∈ (Finset.univ : Finset (Fin 16384)), ∀ r' ∈ (Finset.univ : Finset (Fin 16384)), r ≠ r' → Disjoint (rowSet r) (rowSet r') :=
  fun r _ r' _ h => by rw [rowSet_eq, rowSet_eq]; exact Rect.part_disjoint hdiv h

theorem rows_cover : (Finset.univ : Finset (Fin 16384)).biUnion rowSet = Finset.univ :=
  (Finset.biUnion_congr rfl fun r _ => rowSet_eq r).trans (Rect.biUnion_part hdiv)

/-- The whole result is its 16384 rows. -/
theorem out_rows (d : Dev nD) (f : Buf (Elt F) (oLoc d)) :
    (oLoc d ↦{fullShare} f : sProp 𝕄) = bigSep Finset.univ fun r : Fin 16384 => oLoc d ↦[rowSet r]{fullShare} f := by
  rw [← pointsTo_biUnion Finset.univ (ℓ := oLoc d) rowSet rows_disjoint, rows_cover]; try rfl

/-! ## The tiles number the rows -/

/-- The row that the tile at (c, i) calls its `t`-th. -/
def tileRowOf (p : Fin (grid0.bound 0) × Fin (grid0.bound 1) × Fin 512) : Fin 16384 := tileRow (coordsV p.1 p.2.1) p.2.2

theorem tileRowOf_val (p : Fin (grid0.bound 0) × Fin (grid0.bound 1) × Fin 512) :
    (tileRowOf p).val = 1024 * p.2.1.val + 512 * p.1.val + p.2.2.val := rfl

theorem tileRowOf_bijective : Function.Bijective tileRowOf := by
  constructor
  · rintro ⟨c, i, t⟩ ⟨c', i', t'⟩ h
    have hv := congrArg Fin.val h
    rw [tileRowOf_val, tileRowOf_val] at hv
    have hc : c.val < 2 := c.isLt
    have hc' : c'.val < 2 := c'.isLt
    have hi : i.val < 16 := i.isLt
    have hi' : i'.val < 16 := i'.isLt
    have ht := t.isLt
    have ht' := t'.isLt
    simp only at hv
    have h1 : c.val = c'.val := by omega
    have h2 : i.val = i'.val := by omega
    have h3 : t.val = t'.val := by omega
    rw [Fin.ext h1, Fin.ext h2, Fin.ext h3]
  · intro r
    have hr := r.isLt
    refine ⟨(⟨(r.val % 1024) / 512, ?_⟩, ⟨r.val / 1024, ?_⟩, ⟨r.val % 512, ?_⟩), ?_⟩
    · show (r.val % 1024) / 512 < 2; omega
    · show r.val / 1024 < 16; omega
    · omega
    · apply Fin.ext; rw [tileRowOf_val]; simp only; omega

/-- The whole result is, tile by tile, each tile's 512 rows. -/
theorem out_tiles (d : Dev nD) (f : Buf (Elt F) (oLoc d)) :
    (oLoc d ↦{fullShare} f : sProp 𝕄) = bigSep Finset.univ fun c : Fin (grid0.bound 0) => bigSep Finset.univ fun i : Fin (grid0.bound 1) =>
      bigSep Finset.univ fun t : Fin 512 => oLoc d ↦[rowSet (tileRow (coordsV c i) t)]{fullShare} f := by
  rw [out_rows, bigSep_univ_bij tileRowOf tileRowOf_bijective, bigSep_univ_prod]
  refine bigSep_congr fun c _ => ?_
  rw [bigSep_univ_prod]
  rfl

/-! ## The tiles number the read tokens -/

/-- The token that the tile at (c, i) reads through. -/
def widOf (p : Fin (grid0.bound 0) × Fin (grid0.bound 1)) : Fin 32 := wid (coordsV p.1 p.2)

theorem widOf_val (p : Fin (grid0.bound 0) × Fin (grid0.bound 1)) : (widOf p).val = 2 * p.2.val + p.1.val := rfl

theorem widOf_bijective : Function.Bijective widOf := by
  constructor
  · rintro ⟨c, i⟩ ⟨c', i'⟩ h
    have hv := congrArg Fin.val h
    rw [widOf_val, widOf_val] at hv
    have hc : c.val < 2 := c.isLt
    have hc' : c'.val < 2 := c'.isLt
    simp only at hv
    have h1 : c.val = c'.val := by omega
    have h2 : i.val = i'.val := by omega
    rw [Fin.ext h1, Fin.ext h2]
  · intro w
    have hw := w.isLt
    refine ⟨(⟨w.val % 2, ?_⟩, ⟨w.val / 2, ?_⟩), ?_⟩
    · show w.val % 2 < 2; omega
    · show w.val / 2 < 16; omega
    · apply Fin.ext; rw [widOf_val]; simp only; omega

/-- A whole array splits into a remainder and one read token per tile. -/
theorem toks_tiles {ℓ : Loc nD τ sig} (f : Buf (Elt F) ℓ) :
    (ℓ ↦{fullShare} f : sProp 𝕄) ⊢ iprop((ℓ ↦{Transfers.shareDrop fullShare 32} f) ∗ bigSep Finset.univ fun c : Fin (grid0.bound 0) =>
      bigSep Finset.univ fun i : Fin (grid0.bound 1) => ℓ ↦{Transfers.shareTok fullShare 32 (wid (coordsV c i))} f) := by
  have hre : (bigSep Finset.univ fun c : Fin (grid0.bound 0) => bigSep Finset.univ fun i : Fin (grid0.bound 1) =>
        (ℓ ↦{Transfers.shareTok fullShare 32 (wid (coordsV c i))} f : sProp 𝕄))
      = bigSep Finset.univ fun w : Fin 32 => (ℓ ↦{Transfers.shareTok fullShare 32 w} f : sProp 𝕄) := by
    rw [bigSep_univ_bij widOf widOf_bijective, bigSep_univ_prod]
    rfl
  rw [hre]
  exact Transfers.pointsTo_toks_split fullShare 32

end Cert.Proof.KI.R2

end
-- ==== Proof.KIGeom3.lean ====
/-
  The geometry of the thirty-two tiles at one call. The result's 16384 rows are pairwise disjoint and cover it; the tile
  at grid coordinates (c, i) owns the rows 1024·i + 512·c + t for t < 512, and the triples (c, i, t) number the 16384
  rows exactly once (division and remainder by 1024 and 512). So the whole result is the separating conjunction, over
  the tiles, of each tile's 512 rows. Likewise the pairs (c, i) number the thirty-two read tokens of an array exactly
  once by 2·i + c, so a whole array splits into a remainder and one token per tile.
-/
import proofs.«218896_g85959475462175_cont_9to1_m_647_27_alg».proof.Proof.KIRes3

noncomputable section

namespace Cert.Proof.KI.R3

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

/-- A separating conjunction over a whole finite type may be taken along any bijection onto it. -/
theorem bigSep_univ_bij {M : Type} [URA M] {α β : Type} [Fintype α] [Fintype β] [DecidableEq α] [DecidableEq β]
    (e : α → β) (he : Function.Bijective e) (Φ : β → sProp M) :
    bigSep Finset.univ Φ = bigSep Finset.univ fun a => Φ (e a) := by
  rw [← Finset.image_univ_of_surjective he.2, SparseCore.bigSep_image_of_injOn (he.1.injOn)]

/-! ## The 16384 rows -/

theorem rowSet_eq (r : Fin 16384) : rowSet r = (row r).set := by
  show ((View.whole (outScv : Ref sig .scVector)).slice (row r)).set = _
  rw [View.set_slice]; exact Finset.map_refl

theorem rows_disjoint : ∀ r ∈ (Finset.univ : Finset (Fin 16384)), ∀ r' ∈ (Finset.univ : Finset (Fin 16384)), r ≠ r' → Disjoint (rowSet r) (rowSet r') :=
  fun r _ r' _ h => by rw [rowSet_eq, rowSet_eq]; exact Rect.part_disjoint hdiv h

theorem rows_cover : (Finset.univ : Finset (Fin 16384)).biUnion rowSet = Finset.univ :=
  (Finset.biUnion_congr rfl fun r _ => rowSet_eq r).trans (Rect.biUnion_part hdiv)

/-- The whole result is its 16384 rows. -/
theorem out_rows (d : Dev nD) (f : Buf (Elt F) (oLoc d)) :
    (oLoc d ↦{fullShare} f : sProp 𝕄) = bigSep Finset.univ fun r : Fin 16384 => oLoc d ↦[rowSet r]{fullShare} f := by
  rw [← pointsTo_biUnion Finset.univ (ℓ := oLoc d) rowSet rows_disjoint, rows_cover]; try rfl

/-! ## The tiles number the rows -/

/-- The row that the tile at (c, i) calls its `t`-th. -/
def tileRowOf (p : Fin (grid0.bound 0) × Fin (grid0.bound 1) × Fin 512) : Fin 16384 := tileRow (coordsV p.1 p.2.1) p.2.2

theorem tileRowOf_val (p : Fin (grid0.bound 0) × Fin (grid0.bound 1) × Fin 512) :
    (tileRowOf p).val = 1024 * p.2.1.val + 512 * p.1.val + p.2.2.val := rfl

theorem tileRowOf_bijective : Function.Bijective tileRowOf := by
  constructor
  · rintro ⟨c, i, t⟩ ⟨c', i', t'⟩ h
    have hv := congrArg Fin.val h
    rw [tileRowOf_val, tileRowOf_val] at hv
    have hc : c.val < 2 := c.isLt
    have hc' : c'.val < 2 := c'.isLt
    have hi : i.val < 16 := i.isLt
    have hi' : i'.val < 16 := i'.isLt
    have ht := t.isLt
    have ht' := t'.isLt
    simp only at hv
    have h1 : c.val = c'.val := by omega
    have h2 : i.val = i'.val := by omega
    have h3 : t.val = t'.val := by omega
    rw [Fin.ext h1, Fin.ext h2, Fin.ext h3]
  · intro r
    have hr := r.isLt
    refine ⟨(⟨(r.val % 1024) / 512, ?_⟩, ⟨r.val / 1024, ?_⟩, ⟨r.val % 512, ?_⟩), ?_⟩
    · show (r.val % 1024) / 512 < 2; omega
    · show r.val / 1024 < 16; omega
    · omega
    · apply Fin.ext; rw [tileRowOf_val]; simp only; omega

/-- The whole result is, tile by tile, each tile's 512 rows. -/
theorem out_tiles (d : Dev nD) (f : Buf (Elt F) (oLoc d)) :
    (oLoc d ↦{fullShare} f : sProp 𝕄) = bigSep Finset.univ fun c : Fin (grid0.bound 0) => bigSep Finset.univ fun i : Fin (grid0.bound 1) =>
      bigSep Finset.univ fun t : Fin 512 => oLoc d ↦[rowSet (tileRow (coordsV c i) t)]{fullShare} f := by
  rw [out_rows, bigSep_univ_bij tileRowOf tileRowOf_bijective, bigSep_univ_prod]
  refine bigSep_congr fun c _ => ?_
  rw [bigSep_univ_prod]
  rfl

/-! ## The tiles number the read tokens -/

/-- The token that the tile at (c, i) reads through. -/
def widOf (p : Fin (grid0.bound 0) × Fin (grid0.bound 1)) : Fin 32 := wid (coordsV p.1 p.2)

theorem widOf_val (p : Fin (grid0.bound 0) × Fin (grid0.bound 1)) : (widOf p).val = 2 * p.2.val + p.1.val := rfl

theorem widOf_bijective : Function.Bijective widOf := by
  constructor
  · rintro ⟨c, i⟩ ⟨c', i'⟩ h
    have hv := congrArg Fin.val h
    rw [widOf_val, widOf_val] at hv
    have hc : c.val < 2 := c.isLt
    have hc' : c'.val < 2 := c'.isLt
    simp only at hv
    have h1 : c.val = c'.val := by omega
    have h2 : i.val = i'.val := by omega
    rw [Fin.ext h1, Fin.ext h2]
  · intro w
    have hw := w.isLt
    refine ⟨(⟨w.val % 2, ?_⟩, ⟨w.val / 2, ?_⟩), ?_⟩
    · show w.val % 2 < 2; omega
    · show w.val / 2 < 16; omega
    · apply Fin.ext; rw [widOf_val]; simp only; omega

/-- A whole array splits into a remainder and one read token per tile. -/
theorem toks_tiles {ℓ : Loc nD τ sig} (f : Buf (Elt F) ℓ) :
    (ℓ ↦{fullShare} f : sProp 𝕄) ⊢ iprop((ℓ ↦{Transfers.shareDrop fullShare 32} f) ∗ bigSep Finset.univ fun c : Fin (grid0.bound 0) =>
      bigSep Finset.univ fun i : Fin (grid0.bound 1) => ℓ ↦{Transfers.shareTok fullShare 32 (wid (coordsV c i))} f) := by
  have hre : (bigSep Finset.univ fun c : Fin (grid0.bound 0) => bigSep Finset.univ fun i : Fin (grid0.bound 1) =>
        (ℓ ↦{Transfers.shareTok fullShare 32 (wid (coordsV c i))} f : sProp 𝕄))
      = bigSep Finset.univ fun w : Fin 32 => (ℓ ↦{Transfers.shareTok fullShare 32 w} f : sProp 𝕄) := by
    rw [bigSep_univ_bij widOf widOf_bijective, bigSep_univ_prod]
    rfl
  rw [hre]
  exact Transfers.pointsTo_toks_split fullShare 32

end Cert.Proof.KI.R3

end
-- ==== Proof.KIGeom4.lean ====
/-
  The geometry of the thirty-two tiles at one call. The result's 16384 rows are pairwise disjoint and cover it; the tile
  at grid coordinates (c, i) owns the rows 1024·i + 512·c + t for t < 512, and the triples (c, i, t) number the 16384
  rows exactly once (division and remainder by 1024 and 512). So the whole result is the separating conjunction, over
  the tiles, of each tile's 512 rows. Likewise the pairs (c, i) number the thirty-two read tokens of an array exactly
  once by 2·i + c, so a whole array splits into a remainder and one token per tile.
-/
import proofs.«218896_g85959475462175_cont_9to1_m_647_27_alg».proof.Proof.KIRes4

noncomputable section

namespace Cert.Proof.KI.R4

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

/-- A separating conjunction over a whole finite type may be taken along any bijection onto it. -/
theorem bigSep_univ_bij {M : Type} [URA M] {α β : Type} [Fintype α] [Fintype β] [DecidableEq α] [DecidableEq β]
    (e : α → β) (he : Function.Bijective e) (Φ : β → sProp M) :
    bigSep Finset.univ Φ = bigSep Finset.univ fun a => Φ (e a) := by
  rw [← Finset.image_univ_of_surjective he.2, SparseCore.bigSep_image_of_injOn (he.1.injOn)]

/-! ## The 16384 rows -/

theorem rowSet_eq (r : Fin 16384) : rowSet r = (row r).set := by
  show ((View.whole (outScv : Ref sig .scVector)).slice (row r)).set = _
  rw [View.set_slice]; exact Finset.map_refl

theorem rows_disjoint : ∀ r ∈ (Finset.univ : Finset (Fin 16384)), ∀ r' ∈ (Finset.univ : Finset (Fin 16384)), r ≠ r' → Disjoint (rowSet r) (rowSet r') :=
  fun r _ r' _ h => by rw [rowSet_eq, rowSet_eq]; exact Rect.part_disjoint hdiv h

theorem rows_cover : (Finset.univ : Finset (Fin 16384)).biUnion rowSet = Finset.univ :=
  (Finset.biUnion_congr rfl fun r _ => rowSet_eq r).trans (Rect.biUnion_part hdiv)

/-- The whole result is its 16384 rows. -/
theorem out_rows (d : Dev nD) (f : Buf (Elt F) (oLoc d)) :
    (oLoc d ↦{fullShare} f : sProp 𝕄) = bigSep Finset.univ fun r : Fin 16384 => oLoc d ↦[rowSet r]{fullShare} f := by
  rw [← pointsTo_biUnion Finset.univ (ℓ := oLoc d) rowSet rows_disjoint, rows_cover]; try rfl

/-! ## The tiles number the rows -/

/-- The row that the tile at (c, i) calls its `t`-th. -/
def tileRowOf (p : Fin (grid0.bound 0) × Fin (grid0.bound 1) × Fin 512) : Fin 16384 := tileRow (coordsV p.1 p.2.1) p.2.2

theorem tileRowOf_val (p : Fin (grid0.bound 0) × Fin (grid0.bound 1) × Fin 512) :
    (tileRowOf p).val = 1024 * p.2.1.val + 512 * p.1.val + p.2.2.val := rfl

theorem tileRowOf_bijective : Function.Bijective tileRowOf := by
  constructor
  · rintro ⟨c, i, t⟩ ⟨c', i', t'⟩ h
    have hv := congrArg Fin.val h
    rw [tileRowOf_val, tileRowOf_val] at hv
    have hc : c.val < 2 := c.isLt
    have hc' : c'.val < 2 := c'.isLt
    have hi : i.val < 16 := i.isLt
    have hi' : i'.val < 16 := i'.isLt
    have ht := t.isLt
    have ht' := t'.isLt
    simp only at hv
    have h1 : c.val = c'.val := by omega
    have h2 : i.val = i'.val := by omega
    have h3 : t.val = t'.val := by omega
    rw [Fin.ext h1, Fin.ext h2, Fin.ext h3]
  · intro r
    have hr := r.isLt
    refine ⟨(⟨(r.val % 1024) / 512, ?_⟩, ⟨r.val / 1024, ?_⟩, ⟨r.val % 512, ?_⟩), ?_⟩
    · show (r.val % 1024) / 512 < 2; omega
    · show r.val / 1024 < 16; omega
    · omega
    · apply Fin.ext; rw [tileRowOf_val]; simp only; omega

/-- The whole result is, tile by tile, each tile's 512 rows. -/
theorem out_tiles (d : Dev nD) (f : Buf (Elt F) (oLoc d)) :
    (oLoc d ↦{fullShare} f : sProp 𝕄) = bigSep Finset.univ fun c : Fin (grid0.bound 0) => bigSep Finset.univ fun i : Fin (grid0.bound 1) =>
      bigSep Finset.univ fun t : Fin 512 => oLoc d ↦[rowSet (tileRow (coordsV c i) t)]{fullShare} f := by
  rw [out_rows, bigSep_univ_bij tileRowOf tileRowOf_bijective, bigSep_univ_prod]
  refine bigSep_congr fun c _ => ?_
  rw [bigSep_univ_prod]
  rfl

/-! ## The tiles number the read tokens -/

/-- The token that the tile at (c, i) reads through. -/
def widOf (p : Fin (grid0.bound 0) × Fin (grid0.bound 1)) : Fin 32 := wid (coordsV p.1 p.2)

theorem widOf_val (p : Fin (grid0.bound 0) × Fin (grid0.bound 1)) : (widOf p).val = 2 * p.2.val + p.1.val := rfl

theorem widOf_bijective : Function.Bijective widOf := by
  constructor
  · rintro ⟨c, i⟩ ⟨c', i'⟩ h
    have hv := congrArg Fin.val h
    rw [widOf_val, widOf_val] at hv
    have hc : c.val < 2 := c.isLt
    have hc' : c'.val < 2 := c'.isLt
    simp only at hv
    have h1 : c.val = c'.val := by omega
    have h2 : i.val = i'.val := by omega
    rw [Fin.ext h1, Fin.ext h2]
  · intro w
    have hw := w.isLt
    refine ⟨(⟨w.val % 2, ?_⟩, ⟨w.val / 2, ?_⟩), ?_⟩
    · show w.val % 2 < 2; omega
    · show w.val / 2 < 16; omega
    · apply Fin.ext; rw [widOf_val]; simp only; omega

/-- A whole array splits into a remainder and one read token per tile. -/
theorem toks_tiles {ℓ : Loc nD τ sig} (f : Buf (Elt F) ℓ) :
    (ℓ ↦{fullShare} f : sProp 𝕄) ⊢ iprop((ℓ ↦{Transfers.shareDrop fullShare 32} f) ∗ bigSep Finset.univ fun c : Fin (grid0.bound 0) =>
      bigSep Finset.univ fun i : Fin (grid0.bound 1) => ℓ ↦{Transfers.shareTok fullShare 32 (wid (coordsV c i))} f) := by
  have hre : (bigSep Finset.univ fun c : Fin (grid0.bound 0) => bigSep Finset.univ fun i : Fin (grid0.bound 1) =>
        (ℓ ↦{Transfers.shareTok fullShare 32 (wid (coordsV c i))} f : sProp 𝕄))
      = bigSep Finset.univ fun w : Fin 32 => (ℓ ↦{Transfers.shareTok fullShare 32 w} f : sProp 𝕄) := by
    rw [bigSep_univ_bij widOf widOf_bijective, bigSep_univ_prod]
    rfl
  rw [hre]
  exact Transfers.pointsTo_toks_split fullShare 32

end Cert.Proof.KI.R4

end
-- ==== Proof.KIGeom5.lean ====
/-
  The geometry of the thirty-two tiles at one call. The result's 16384 rows are pairwise disjoint and cover it; the tile
  at grid coordinates (c, i) owns the rows 1024·i + 512·c + t for t < 512, and the triples (c, i, t) number the 16384
  rows exactly once (division and remainder by 1024 and 512). So the whole result is the separating conjunction, over
  the tiles, of each tile's 512 rows. Likewise the pairs (c, i) number the thirty-two read tokens of an array exactly
  once by 2·i + c, so a whole array splits into a remainder and one token per tile.
-/
import proofs.«218896_g85959475462175_cont_9to1_m_647_27_alg».proof.Proof.KIRes5

noncomputable section

namespace Cert.Proof.KI.R5

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

/-- A separating conjunction over a whole finite type may be taken along any bijection onto it. -/
theorem bigSep_univ_bij {M : Type} [URA M] {α β : Type} [Fintype α] [Fintype β] [DecidableEq α] [DecidableEq β]
    (e : α → β) (he : Function.Bijective e) (Φ : β → sProp M) :
    bigSep Finset.univ Φ = bigSep Finset.univ fun a => Φ (e a) := by
  rw [← Finset.image_univ_of_surjective he.2, SparseCore.bigSep_image_of_injOn (he.1.injOn)]

/-! ## The 16384 rows -/

theorem rowSet_eq (r : Fin 16384) : rowSet r = (row r).set := by
  show ((View.whole (outScv : Ref sig .scVector)).slice (row r)).set = _
  rw [View.set_slice]; exact Finset.map_refl

theorem rows_disjoint : ∀ r ∈ (Finset.univ : Finset (Fin 16384)), ∀ r' ∈ (Finset.univ : Finset (Fin 16384)), r ≠ r' → Disjoint (rowSet r) (rowSet r') :=
  fun r _ r' _ h => by rw [rowSet_eq, rowSet_eq]; exact Rect.part_disjoint hdiv h

theorem rows_cover : (Finset.univ : Finset (Fin 16384)).biUnion rowSet = Finset.univ :=
  (Finset.biUnion_congr rfl fun r _ => rowSet_eq r).trans (Rect.biUnion_part hdiv)

/-- The whole result is its 16384 rows. -/
theorem out_rows (d : Dev nD) (f : Buf (Elt F) (oLoc d)) :
    (oLoc d ↦{fullShare} f : sProp 𝕄) = bigSep Finset.univ fun r : Fin 16384 => oLoc d ↦[rowSet r]{fullShare} f := by
  rw [← pointsTo_biUnion Finset.univ (ℓ := oLoc d) rowSet rows_disjoint, rows_cover]; try rfl

/-! ## The tiles number the rows -/

/-- The row that the tile at (c, i) calls its `t`-th. -/
def tileRowOf (p : Fin (grid0.bound 0) × Fin (grid0.bound 1) × Fin 512) : Fin 16384 := tileRow (coordsV p.1 p.2.1) p.2.2

theorem tileRowOf_val (p : Fin (grid0.bound 0) × Fin (grid0.bound 1) × Fin 512) :
    (tileRowOf p).val = 1024 * p.2.1.val + 512 * p.1.val + p.2.2.val := rfl

theorem tileRowOf_bijective : Function.Bijective tileRowOf := by
  constructor
  · rintro ⟨c, i, t⟩ ⟨c', i', t'⟩ h
    have hv := congrArg Fin.val h
    rw [tileRowOf_val, tileRowOf_val] at hv
    have hc : c.val < 2 := c.isLt
    have hc' : c'.val < 2 := c'.isLt
    have hi : i.val < 16 := i.isLt
    have hi' : i'.val < 16 := i'.isLt
    have ht := t.isLt
    have ht' := t'.isLt
    simp only at hv
    have h1 : c.val = c'.val := by omega
    have h2 : i.val = i'.val := by omega
    have h3 : t.val = t'.val := by omega
    rw [Fin.ext h1, Fin.ext h2, Fin.ext h3]
  · intro r
    have hr := r.isLt
    refine ⟨(⟨(r.val % 1024) / 512, ?_⟩, ⟨r.val / 1024, ?_⟩, ⟨r.val % 512, ?_⟩), ?_⟩
    · show (r.val % 1024) / 512 < 2; omega
    · show r.val / 1024 < 16; omega
    · omega
    · apply Fin.ext; rw [tileRowOf_val]; simp only; omega

/-- The whole result is, tile by tile, each tile's 512 rows. -/
theorem out_tiles (d : Dev nD) (f : Buf (Elt F) (oLoc d)) :
    (oLoc d ↦{fullShare} f : sProp 𝕄) = bigSep Finset.univ fun c : Fin (grid0.bound 0) => bigSep Finset.univ fun i : Fin (grid0.bound 1) =>
      bigSep Finset.univ fun t : Fin 512 => oLoc d ↦[rowSet (tileRow (coordsV c i) t)]{fullShare} f := by
  rw [out_rows, bigSep_univ_bij tileRowOf tileRowOf_bijective, bigSep_univ_prod]
  refine bigSep_congr fun c _ => ?_
  rw [bigSep_univ_prod]
  rfl

/-! ## The tiles number the read tokens -/

/-- The token that the tile at (c, i) reads through. -/
def widOf (p : Fin (grid0.bound 0) × Fin (grid0.bound 1)) : Fin 32 := wid (coordsV p.1 p.2)

theorem widOf_val (p : Fin (grid0.bound 0) × Fin (grid0.bound 1)) : (widOf p).val = 2 * p.2.val + p.1.val := rfl

theorem widOf_bijective : Function.Bijective widOf := by
  constructor
  · rintro ⟨c, i⟩ ⟨c', i'⟩ h
    have hv := congrArg Fin.val h
    rw [widOf_val, widOf_val] at hv
    have hc : c.val < 2 := c.isLt
    have hc' : c'.val < 2 := c'.isLt
    simp only at hv
    have h1 : c.val = c'.val := by omega
    have h2 : i.val = i'.val := by omega
    rw [Fin.ext h1, Fin.ext h2]
  · intro w
    have hw := w.isLt
    refine ⟨(⟨w.val % 2, ?_⟩, ⟨w.val / 2, ?_⟩), ?_⟩
    · show w.val % 2 < 2; omega
    · show w.val / 2 < 16; omega
    · apply Fin.ext; rw [widOf_val]; simp only; omega

/-- A whole array splits into a remainder and one read token per tile. -/
theorem toks_tiles {ℓ : Loc nD τ sig} (f : Buf (Elt F) ℓ) :
    (ℓ ↦{fullShare} f : sProp 𝕄) ⊢ iprop((ℓ ↦{Transfers.shareDrop fullShare 32} f) ∗ bigSep Finset.univ fun c : Fin (grid0.bound 0) =>
      bigSep Finset.univ fun i : Fin (grid0.bound 1) => ℓ ↦{Transfers.shareTok fullShare 32 (wid (coordsV c i))} f) := by
  have hre : (bigSep Finset.univ fun c : Fin (grid0.bound 0) => bigSep Finset.univ fun i : Fin (grid0.bound 1) =>
        (ℓ ↦{Transfers.shareTok fullShare 32 (wid (coordsV c i))} f : sProp 𝕄))
      = bigSep Finset.univ fun w : Fin 32 => (ℓ ↦{Transfers.shareTok fullShare 32 w} f : sProp 𝕄) := by
    rw [bigSep_univ_bij widOf widOf_bijective, bigSep_univ_prod]
    rfl
  rw [hre]
  exact Transfers.pointsTo_toks_split fullShare 32

end Cert.Proof.KI.R5

end
-- ==== Proof.KIGeom6.lean ====
/-
  The geometry of the thirty-two tiles at one call. The result's 16384 rows are pairwise disjoint and cover it; the tile
  at grid coordinates (c, i) owns the rows 1024·i + 512·c + t for t < 512, and the triples (c, i, t) number the 16384
  rows exactly once (division and remainder by 1024 and 512). So the whole result is the separating conjunction, over
  the tiles, of each tile's 512 rows. Likewise the pairs (c, i) number the thirty-two read tokens of an array exactly
  once by 2·i + c, so a whole array splits into a remainder and one token per tile.
-/
import proofs.«218896_g85959475462175_cont_9to1_m_647_27_alg».proof.Proof.KIRes6

noncomputable section

namespace Cert.Proof.KI.R6

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

/-- A separating conjunction over a whole finite type may be taken along any bijection onto it. -/
theorem bigSep_univ_bij {M : Type} [URA M] {α β : Type} [Fintype α] [Fintype β] [DecidableEq α] [DecidableEq β]
    (e : α → β) (he : Function.Bijective e) (Φ : β → sProp M) :
    bigSep Finset.univ Φ = bigSep Finset.univ fun a => Φ (e a) := by
  rw [← Finset.image_univ_of_surjective he.2, SparseCore.bigSep_image_of_injOn (he.1.injOn)]

/-! ## The 16384 rows -/

theorem rowSet_eq (r : Fin 16384) : rowSet r = (row r).set := by
  show ((View.whole (outScv : Ref sig .scVector)).slice (row r)).set = _
  rw [View.set_slice]; exact Finset.map_refl

theorem rows_disjoint : ∀ r ∈ (Finset.univ : Finset (Fin 16384)), ∀ r' ∈ (Finset.univ : Finset (Fin 16384)), r ≠ r' → Disjoint (rowSet r) (rowSet r') :=
  fun r _ r' _ h => by rw [rowSet_eq, rowSet_eq]; exact Rect.part_disjoint hdiv h

theorem rows_cover : (Finset.univ : Finset (Fin 16384)).biUnion rowSet = Finset.univ :=
  (Finset.biUnion_congr rfl fun r _ => rowSet_eq r).trans (Rect.biUnion_part hdiv)

/-- The whole result is its 16384 rows. -/
theorem out_rows (d : Dev nD) (f : Buf (Elt F) (oLoc d)) :
    (oLoc d ↦{fullShare} f : sProp 𝕄) = bigSep Finset.univ fun r : Fin 16384 => oLoc d ↦[rowSet r]{fullShare} f := by
  rw [← pointsTo_biUnion Finset.univ (ℓ := oLoc d) rowSet rows_disjoint, rows_cover]; try rfl

/-! ## The tiles number the rows -/

/-- The row that the tile at (c, i) calls its `t`-th. -/
def tileRowOf (p : Fin (grid0.bound 0) × Fin (grid0.bound 1) × Fin 512) : Fin 16384 := tileRow (coordsV p.1 p.2.1) p.2.2

theorem tileRowOf_val (p : Fin (grid0.bound 0) × Fin (grid0.bound 1) × Fin 512) :
    (tileRowOf p).val = 1024 * p.2.1.val + 512 * p.1.val + p.2.2.val := rfl

theorem tileRowOf_bijective : Function.Bijective tileRowOf := by
  constructor
  · rintro ⟨c, i, t⟩ ⟨c', i', t'⟩ h
    have hv := congrArg Fin.val h
    rw [tileRowOf_val, tileRowOf_val] at hv
    have hc : c.val < 2 := c.isLt
    have hc' : c'.val < 2 := c'.isLt
    have hi : i.val < 16 := i.isLt
    have hi' : i'.val < 16 := i'.isLt
    have ht := t.isLt
    have ht' := t'.isLt
    simp only at hv
    have h1 : c.val = c'.val := by omega
    have h2 : i.val = i'.val := by omega
    have h3 : t.val = t'.val := by omega
    rw [Fin.ext h1, Fin.ext h2, Fin.ext h3]
  · intro r
    have hr := r.isLt
    refine ⟨(⟨(r.val % 1024) / 512, ?_⟩, ⟨r.val / 1024, ?_⟩, ⟨r.val % 512, ?_⟩), ?_⟩
    · show (r.val % 1024) / 512 < 2; omega
    · show r.val / 1024 < 16; omega
    · omega
    · apply Fin.ext; rw [tileRowOf_val]; simp only; omega

/-- The whole result is, tile by tile, each tile's 512 rows. -/
theorem out_tiles (d : Dev nD) (f : Buf (Elt F) (oLoc d)) :
    (oLoc d ↦{fullShare} f : sProp 𝕄) = bigSep Finset.univ fun c : Fin (grid0.bound 0) => bigSep Finset.univ fun i : Fin (grid0.bound 1) =>
      bigSep Finset.univ fun t : Fin 512 => oLoc d ↦[rowSet (tileRow (coordsV c i) t)]{fullShare} f := by
  rw [out_rows, bigSep_univ_bij tileRowOf tileRowOf_bijective, bigSep_univ_prod]
  refine bigSep_congr fun c _ => ?_
  rw [bigSep_univ_prod]
  rfl

/-! ## The tiles number the read tokens -/

/-- The token that the tile at (c, i) reads through. -/
def widOf (p : Fin (grid0.bound 0) × Fin (grid0.bound 1)) : Fin 32 := wid (coordsV p.1 p.2)

theorem widOf_val (p : Fin (grid0.bound 0) × Fin (grid0.bound 1)) : (widOf p).val = 2 * p.2.val + p.1.val := rfl

theorem widOf_bijective : Function.Bijective widOf := by
  constructor
  · rintro ⟨c, i⟩ ⟨c', i'⟩ h
    have hv := congrArg Fin.val h
    rw [widOf_val, widOf_val] at hv
    have hc : c.val < 2 := c.isLt
    have hc' : c'.val < 2 := c'.isLt
    simp only at hv
    have h1 : c.val = c'.val := by omega
    have h2 : i.val = i'.val := by omega
    rw [Fin.ext h1, Fin.ext h2]
  · intro w
    have hw := w.isLt
    refine ⟨(⟨w.val % 2, ?_⟩, ⟨w.val / 2, ?_⟩), ?_⟩
    · show w.val % 2 < 2; omega
    · show w.val / 2 < 16; omega
    · apply Fin.ext; rw [widOf_val]; simp only; omega

/-- A whole array splits into a remainder and one read token per tile. -/
theorem toks_tiles {ℓ : Loc nD τ sig} (f : Buf (Elt F) ℓ) :
    (ℓ ↦{fullShare} f : sProp 𝕄) ⊢ iprop((ℓ ↦{Transfers.shareDrop fullShare 32} f) ∗ bigSep Finset.univ fun c : Fin (grid0.bound 0) =>
      bigSep Finset.univ fun i : Fin (grid0.bound 1) => ℓ ↦{Transfers.shareTok fullShare 32 (wid (coordsV c i))} f) := by
  have hre : (bigSep Finset.univ fun c : Fin (grid0.bound 0) => bigSep Finset.univ fun i : Fin (grid0.bound 1) =>
        (ℓ ↦{Transfers.shareTok fullShare 32 (wid (coordsV c i))} f : sProp 𝕄))
      = bigSep Finset.univ fun w : Fin 32 => (ℓ ↦{Transfers.shareTok fullShare 32 w} f : sProp 𝕄) := by
    rw [bigSep_univ_bij widOf widOf_bijective, bigSep_univ_prod]
    rfl
  rw [hre]
  exact Transfers.pointsTo_toks_split fullShare 32

end Cert.Proof.KI.R6

end
-- ==== Proof.KIGeom7.lean ====
/-
  The geometry of the thirty-two tiles at one call. The result's 16384 rows are pairwise disjoint and cover it; the tile
  at grid coordinates (c, i) owns the rows 1024·i + 512·c + t for t < 512, and the triples (c, i, t) number the 16384
  rows exactly once (division and remainder by 1024 and 512). So the whole result is the separating conjunction, over
  the tiles, of each tile's 512 rows. Likewise the pairs (c, i) number the thirty-two read tokens of an array exactly
  once by 2·i + c, so a whole array splits into a remainder and one token per tile.
-/
import proofs.«218896_g85959475462175_cont_9to1_m_647_27_alg».proof.Proof.KIRes7

noncomputable section

namespace Cert.Proof.KI.R7

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

/-- A separating conjunction over a whole finite type may be taken along any bijection onto it. -/
theorem bigSep_univ_bij {M : Type} [URA M] {α β : Type} [Fintype α] [Fintype β] [DecidableEq α] [DecidableEq β]
    (e : α → β) (he : Function.Bijective e) (Φ : β → sProp M) :
    bigSep Finset.univ Φ = bigSep Finset.univ fun a => Φ (e a) := by
  rw [← Finset.image_univ_of_surjective he.2, SparseCore.bigSep_image_of_injOn (he.1.injOn)]

/-! ## The 16384 rows -/

theorem rowSet_eq (r : Fin 16384) : rowSet r = (row r).set := by
  show ((View.whole (outScv : Ref sig .scVector)).slice (row r)).set = _
  rw [View.set_slice]; exact Finset.map_refl

theorem rows_disjoint : ∀ r ∈ (Finset.univ : Finset (Fin 16384)), ∀ r' ∈ (Finset.univ : Finset (Fin 16384)), r ≠ r' → Disjoint (rowSet r) (rowSet r') :=
  fun r _ r' _ h => by rw [rowSet_eq, rowSet_eq]; exact Rect.part_disjoint hdiv h

theorem rows_cover : (Finset.univ : Finset (Fin 16384)).biUnion rowSet = Finset.univ :=
  (Finset.biUnion_congr rfl fun r _ => rowSet_eq r).trans (Rect.biUnion_part hdiv)

/-- The whole result is its 16384 rows. -/
theorem out_rows (d : Dev nD) (f : Buf (Elt F) (oLoc d)) :
    (oLoc d ↦{fullShare} f : sProp 𝕄) = bigSep Finset.univ fun r : Fin 16384 => oLoc d ↦[rowSet r]{fullShare} f := by
  rw [← pointsTo_biUnion Finset.univ (ℓ := oLoc d) rowSet rows_disjoint, rows_cover]; try rfl

/-! ## The tiles number the rows -/

/-- The row that the tile at (c, i) calls its `t`-th. -/
def tileRowOf (p : Fin (grid0.bound 0) × Fin (grid0.bound 1) × Fin 512) : Fin 16384 := tileRow (coordsV p.1 p.2.1) p.2.2

theorem tileRowOf_val (p : Fin (grid0.bound 0) × Fin (grid0.bound 1) × Fin 512) :
    (tileRowOf p).val = 1024 * p.2.1.val + 512 * p.1.val + p.2.2.val := rfl

theorem tileRowOf_bijective : Function.Bijective tileRowOf := by
  constructor
  · rintro ⟨c, i, t⟩ ⟨c', i', t'⟩ h
    have hv := congrArg Fin.val h
    rw [tileRowOf_val, tileRowOf_val] at hv
    have hc : c.val < 2 := c.isLt
    have hc' : c'.val < 2 := c'.isLt
    have hi : i.val < 16 := i.isLt
    have hi' : i'.val < 16 := i'.isLt
    have ht := t.isLt
    have ht' := t'.isLt
    simp only at hv
    have h1 : c.val = c'.val := by omega
    have h2 : i.val = i'.val := by omega
    have h3 : t.val = t'.val := by omega
    rw [Fin.ext h1, Fin.ext h2, Fin.ext h3]
  · intro r
    have hr := r.isLt
    refine ⟨(⟨(r.val % 1024) / 512, ?_⟩, ⟨r.val / 1024, ?_⟩, ⟨r.val % 512, ?_⟩), ?_⟩
    · show (r.val % 1024) / 512 < 2; omega
    · show r.val / 1024 < 16; omega
    · omega
    · apply Fin.ext; rw [tileRowOf_val]; simp only; omega

/-- The whole result is, tile by tile, each tile's 512 rows. -/
theorem out_tiles (d : Dev nD) (f : Buf (Elt F) (oLoc d)) :
    (oLoc d ↦{fullShare} f : sProp 𝕄) = bigSep Finset.univ fun c : Fin (grid0.bound 0) => bigSep Finset.univ fun i : Fin (grid0.bound 1) =>
      bigSep Finset.univ fun t : Fin 512 => oLoc d ↦[rowSet (tileRow (coordsV c i) t)]{fullShare} f := by
  rw [out_rows, bigSep_univ_bij tileRowOf tileRowOf_bijective, bigSep_univ_prod]
  refine bigSep_congr fun c _ => ?_
  rw [bigSep_univ_prod]
  rfl

/-! ## The tiles number the read tokens -/

/-- The token that the tile at (c, i) reads through. -/
def widOf (p : Fin (grid0.bound 0) × Fin (grid0.bound 1)) : Fin 32 := wid (coordsV p.1 p.2)

theorem widOf_val (p : Fin (grid0.bound 0) × Fin (grid0.bound 1)) : (widOf p).val = 2 * p.2.val + p.1.val := rfl

theorem widOf_bijective : Function.Bijective widOf := by
  constructor
  · rintro ⟨c, i⟩ ⟨c', i'⟩ h
    have hv := congrArg Fin.val h
    rw [widOf_val, widOf_val] at hv
    have hc : c.val < 2 := c.isLt
    have hc' : c'.val < 2 := c'.isLt
    simp only at hv
    have h1 : c.val = c'.val := by omega
    have h2 : i.val = i'.val := by omega
    rw [Fin.ext h1, Fin.ext h2]
  · intro w
    have hw := w.isLt
    refine ⟨(⟨w.val % 2, ?_⟩, ⟨w.val / 2, ?_⟩), ?_⟩
    · show w.val % 2 < 2; omega
    · show w.val / 2 < 16; omega
    · apply Fin.ext; rw [widOf_val]; simp only; omega

/-- A whole array splits into a remainder and one read token per tile. -/
theorem toks_tiles {ℓ : Loc nD τ sig} (f : Buf (Elt F) ℓ) :
    (ℓ ↦{fullShare} f : sProp 𝕄) ⊢ iprop((ℓ ↦{Transfers.shareDrop fullShare 32} f) ∗ bigSep Finset.univ fun c : Fin (grid0.bound 0) =>
      bigSep Finset.univ fun i : Fin (grid0.bound 1) => ℓ ↦{Transfers.shareTok fullShare 32 (wid (coordsV c i))} f) := by
  have hre : (bigSep Finset.univ fun c : Fin (grid0.bound 0) => bigSep Finset.univ fun i : Fin (grid0.bound 1) =>
        (ℓ ↦{Transfers.shareTok fullShare 32 (wid (coordsV c i))} f : sProp 𝕄))
      = bigSep Finset.univ fun w : Fin 32 => (ℓ ↦{Transfers.shareTok fullShare 32 w} f : sProp 𝕄) := by
    rw [bigSep_univ_bij widOf widOf_bijective, bigSep_univ_prod]
    rfl
  rw [hre]
  exact Transfers.pointsTo_toks_split fullShare 32

end Cert.Proof.KI.R7

end
-- ==== Proof.KILaunch.lean ====
/-
  The launch of the idealized kernel's program: @main on the TensorCore is the eight calls in turn. Before a call the
  TensorCore splits the call's table and index array into a kept remainder and one read token per tile, and the call's
  result into the tiles' rows; after it the tiles' rows, each holding a restriction of the one whole-array lookup, join
  into the result whole at the lookup's value (the tiles' read tokens are not handed back: the kept remainders are
  enough to read the arguments in the final memory against the launch memory). The handshakes' ghost state stands
  beside the counters of the tiles' own copies, which the launch element leaves untouched.
-/
import proofs.«218896_g85959475462175_cont_9to1_m_647_27_alg».proof.Proof.KIPay
import proofs.«218896_g85959475462175_cont_9to1_m_647_27_alg».proof.Proof.KIGeom0
import proofs.«218896_g85959475462175_cont_9to1_m_647_27_alg».proof.Proof.KIGeom1
import proofs.«218896_g85959475462175_cont_9to1_m_647_27_alg».proof.Proof.KIGeom2
import proofs.«218896_g85959475462175_cont_9to1_m_647_27_alg».proof.Proof.KIGeom3
import proofs.«218896_g85959475462175_cont_9to1_m_647_27_alg».proof.Proof.KIGeom4
import proofs.«218896_g85959475462175_cont_9to1_m_647_27_alg».proof.Proof.KIGeom5
import proofs.«218896_g85959475462175_cont_9to1_m_647_27_alg».proof.Proof.KIGeom6
import proofs.«218896_g85959475462175_cont_9to1_m_647_27_alg».proof.Proof.KIGeom7

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 8) (Elt F) ℕ UU ℕ

variable (m : (ℓ : Loc nD τ sig) → Buf (Elt F) ℓ) (ρ : Dev nD → PrngReg)

/-! ## The launch element: the handshakes' rounds; nothing of the calls' own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 8 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 8 => (iprop(emp) : sProp 𝕄)) = iprop(emp) from by
    rw [bigSep_congr fun _ _ => bigSep_emp' _, bigSep_emp']]
  iempintro

/-! ## Regrouping, and reading a whole array off the final memory -/

/-- A doubly indexed separating conjunction of triples is the three doubly indexed conjunctions. -/
theorem regroup3 {M : Type} [URA M] {α β : Type} (s : Finset α) (t : Finset β) (A B C : α → β → sProp M) :
    (bigSep s fun a => bigSep t fun b => iprop(A a b ∗ B a b ∗ C a b))
      = iprop((bigSep s fun a => bigSep t fun b => A a b) ∗ (bigSep s fun a => bigSep t fun b => B a b) ∗ (bigSep s fun a => bigSep t fun b => C a b)) := by
  rw [bigSep_congr (fun a _ => (by rw [bigSep_sep', bigSep_sep'] :
      (bigSep t fun b => iprop(A a b ∗ B a b ∗ C a b)) = iprop((bigSep t fun b => A a b) ∗ (bigSep t fun b => B a b) ∗ (bigSep t fun b => C a b)))),
    bigSep_sep', bigSep_sep']

/-- Under the state interpretation a whole array held at any share pins the array in the memory. -/
theorem agree_whole {ℓ : Loc nD τ sig} {q : PosShare TreeShare} {f : Buf (Elt F) ℓ} (s' : Phys nD τ sig (Elt F)) :
    iprop(SI s' ∗ ℓ ↦{q} f) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := q) (f := f))) $$ [HSI Hp]
  · isplitl [HSI] <;> iassumption
  icases H with ⟨%h, HSI, -⟩
  isplitr
  · ipureintro; exact funext fun i => h i (Finset.mem_univ i)
  · iexact HSI

/-! ## The tiles of a call's grid, as grid coordinates -/

/-- A separating conjunction over `Fin n` may be taken over `Fin n'` when `n = n'`. -/
theorem bigSep_fin_cast {M : Type} [URA M] {n n' : ℕ} (h : n = n') (Φ : Fin n → sProp M) :
    bigSep Finset.univ Φ = bigSep Finset.univ fun c : Fin n' => Φ (Fin.cast h.symm c) := by
  subst h; rfl

/-- Over the tiles of call `q`'s grid, a family of the tile's grid coordinates is the family over the two SparseCores
    and their sixteen tiles. -/
theorem bigSep_tiles (q : Fin 8) (Φ : grid0.Coords → sProp 𝕄) :
    (bigSep Finset.univ fun c : Fin ((K (F := F)).nCore q) => bigSep Finset.univ fun i : Fin ((K (F := F)).nSub q) => Φ (LQ q c i))
      = bigSep Finset.univ fun c : Fin (grid0.bound 0) => bigSep Finset.univ fun i : Fin (grid0.bound 1) => Φ (coordsV c i) := by
  rw [bigSep_fin_cast (nCore_eq (F := F) q)]
  refine bigSep_congr fun c _ => ?_
  rw [bigSep_fin_cast (nSub_eq (F := F) q)]
  rfl

/-! ## The eight calls -/

/-! ### Call 0 -/

/-- What call 0 leaves the claim: the kept remainders of its table and index array, its result whole at the lookup's value. -/
def fin0 (d : Dev nD) : sProp 𝕄 :=
  iprop((R0.tLoc d ↦{Transfers.shareDrop fullShare 32} m (R0.tLoc d)) ∗ (R0.iLoc d ↦{Transfers.shareDrop fullShare 32} m (R0.iLoc d))
    ∗ (R0.oLoc d ↦{fullShare} R0.G m d))

theorem goAt_0 (d : Dev nD) (L : grid0.Coords) : goAt m 0 d L = R0.go m d L := rfl
theorem tdAt_0 (d : Dev nD) (L : grid0.Coords) : tdAt m 0 d L = R0.td m d L := rfl

theorem st0_eq (d : Dev nD) :
    (bigSep Finset.univ fun c : Fin ((K (F := F)).nCore 0) => (P m).st 0 d c)
      = bigSep Finset.univ fun c : Fin (grid0.bound 0) => bigSep Finset.univ fun i : Fin (grid0.bound 1) => R0.go m d (coordsV c i) := by
  simp only [P_st, P_go, goAt_0]
  exact bigSep_tiles 0 (fun L => R0.go m d L)

theorem dn0_eq (d : Dev nD) :
    (bigSep Finset.univ fun c : Fin ((K (F := F)).nCore 0) => (P m).dn 0 d c)
      = bigSep Finset.univ fun c : Fin (grid0.bound 0) => bigSep Finset.univ fun i : Fin (grid0.bound 1) => R0.td m d (coordsV c i) := by
  simp only [P_dn, P_td, tdAt_0]
  exact bigSep_tiles 0 (fun L => R0.td m d L)

/-- Before the call: the table and the index array each split into a kept remainder and the tiles' read tokens, the
    result into the tiles' rows; regrouped tile by tile, that is what the call's SparseCores are handed. -/
theorem st0_intro (d : Dev nD) :
    iprop((R0.tLoc d ↦{fullShare} m (R0.tLoc d)) ∗ (R0.iLoc d ↦{fullShare} m (R0.iLoc d)) ∗ (R0.oLoc d ↦{fullShare} m (R0.oLoc d)))
      ⊢ iprop(((R0.tLoc d ↦{Transfers.shareDrop fullShare 32} m (R0.tLoc d)) ∗ (R0.iLoc d ↦{Transfers.shareDrop fullShare 32} m (R0.iLoc d)))
          ∗ bigSep Finset.univ fun c : Fin ((K (F := F)).nCore 0) => (P m).st 0 d c) := by
  rw [st0_eq]; unfold R0.go
  rw [regroup3, ← R0.out_tiles]
  iintro ⟨Ht, Hi, Ho⟩
  ihave Ht' := (R0.toks_tiles (m (R0.tLoc d))) $$ Ht
  icases Ht' with ⟨Htd, Htt⟩
  ihave Hi' := (R0.toks_tiles (m (R0.iLoc d))) $$ Hi
  icases Hi' with ⟨Hid, Hit⟩
  isplitl [Htd Hid]
  · isplitl [Htd] <;> iassumption
  isplitl [Htt]; · iexact Htt
  isplitl [Hit]; · iexact Hit
  iexact Ho

/-- After it: the tiles' rows, each a restriction of the one whole-array function, are the result whole at that function. -/
theorem dn0_elim (d : Dev nD) :
    (bigSep Finset.univ fun c : Fin ((K (F := F)).nCore 0) => (P m).dn 0 d c) ⊢ (R0.oLoc d ↦{fullShare} R0.G m d : sProp 𝕄) := by
  rw [dn0_eq]; unfold R0.td
  rw [← R0.out_tiles]

variable [FloatOps F] in
/-- The TensorCore at call 0: from the call's three arrays whole at the launch memory to `fin0`. -/
theorem call0 (κ : GSem nD τ sig → ℕ) (d : Dev nD) (Φ : PUnit → sProp 𝕄) :
    iprop((K (F := F)).ctx EH (P m) κ ∗ (K (F := F)).tcSt EH d 0
        ∗ ((R0.tLoc d ↦{fullShare} m (R0.tLoc d)) ∗ (R0.iLoc d ↦{fullShare} m (R0.iLoc d)) ∗ (R0.oLoc d ↦{fullShare} m (R0.oLoc d)))
        ∗ (((K (F := F)).tcSt EH d 1 ∗ fin0 m d) -∗ Φ ⟨⟩))
      ⊢ wp frame (wpE ((K (F := F)).defs (D (F := F))) 𝒱 (SparseCore.T d) none) Set.univ ((K (F := F)).run d 0) Φ := by
  iintro ⟨#Hctx, Hst, Hb, Hk⟩
  ihave Hb' := (st0_intro m d) $$ Hb
  icases Hb' with ⟨⟨Htd, Hid⟩, Hgo⟩
  iapply ((K (F := F)).wp_run (D (F := F)) 𝒱 (EH := EH) (P := P m) κ d 0) $$ [Hst Hgo Hk Htd Hid]
  isplitr; · iexact Hctx
  isplitl [Hst]; · iexact Hst
  isplitl [Hgo]; · iexact Hgo
  iintro ⟨Hst, Hdn⟩
  iapply Hk
  isplitl [Hst]; · iexact Hst
  unfold fin0
  isplitl [Htd]; · iexact Htd
  isplitl [Hid]; · iexact Hid
  iapply (dn0_elim m d); iexact Hdn

/-- Under the state interpretation, what call 0 leaves pins its result, its table and its index array in the final memory. -/
theorem fin0_agree (d : Dev nD) (s' : Phys nD τ sig (Elt F)) :
    iprop(fin0 m d ∗ SI s') ⊢ (iprop(⌜s'.mem.mem (R0.oLoc d) = R0.G m d ∧ s'.mem.mem (R0.tLoc d) = m (R0.tLoc d) ∧ s'.mem.mem (R0.iLoc d) = m (R0.iLoc d)⌝ ∗ SI s') : sProp 𝕄) := by
  unfold fin0
  iintro ⟨⟨Ht, Hi, Ho⟩, HSI⟩
  ihave H := (agree_whole s') $$ [HSI Ht]
  · isplitl [HSI] <;> iassumption
  icases H with ⟨%ht, HSI⟩
  ihave H := (agree_whole s') $$ [HSI Hi]
  · isplitl [HSI] <;> iassumption
  icases H with ⟨%hi, HSI⟩
  ihave H := (agree_whole s') $$ [HSI Ho]
  · isplitl [HSI] <;> iassumption
  icases H with ⟨%ho, HSI⟩
  isplitr
  · ipureintro; exact ⟨ho, ht, hi⟩
  · iexact HSI

/-! ### Call 1 -/

/-- What call 1 leaves the claim: the kept remainders of its table and index array, its result whole at the lookup's value. -/
def fin1 (d : Dev nD) : sProp 𝕄 :=
  iprop((R1.tLoc d ↦{Transfers.shareDrop fullShare 32} m (R1.tLoc d)) ∗ (R1.iLoc d ↦{Transfers.shareDrop fullShare 32} m (R1.iLoc d))
    ∗ (R1.oLoc d ↦{fullShare} R1.G m d))

theorem goAt_1 (d : Dev nD) (L : grid0.Coords) : goAt m 1 d L = R1.go m d L := rfl
theorem tdAt_1 (d : Dev nD) (L : grid0.Coords) : tdAt m 1 d L = R1.td m d L := rfl

theorem st1_eq (d : Dev nD) :
    (bigSep Finset.univ fun c : Fin ((K (F := F)).nCore 1) => (P m).st 1 d c)
      = bigSep Finset.univ fun c : Fin (grid0.bound 0) => bigSep Finset.univ fun i : Fin (grid0.bound 1) => R1.go m d (coordsV c i) := by
  simp only [P_st, P_go, goAt_1]
  exact bigSep_tiles 1 (fun L => R1.go m d L)

theorem dn1_eq (d : Dev nD) :
    (bigSep Finset.univ fun c : Fin ((K (F := F)).nCore 1) => (P m).dn 1 d c)
      = bigSep Finset.univ fun c : Fin (grid0.bound 0) => bigSep Finset.univ fun i : Fin (grid0.bound 1) => R1.td m d (coordsV c i) := by
  simp only [P_dn, P_td, tdAt_1]
  exact bigSep_tiles 1 (fun L => R1.td m d L)

/-- Before the call: the table and the index array each split into a kept remainder and the tiles' read tokens, the
    result into the tiles' rows; regrouped tile by tile, that is what the call's SparseCores are handed. -/
theorem st1_intro (d : Dev nD) :
    iprop((R1.tLoc d ↦{fullShare} m (R1.tLoc d)) ∗ (R1.iLoc d ↦{fullShare} m (R1.iLoc d)) ∗ (R1.oLoc d ↦{fullShare} m (R1.oLoc d)))
      ⊢ iprop(((R1.tLoc d ↦{Transfers.shareDrop fullShare 32} m (R1.tLoc d)) ∗ (R1.iLoc d ↦{Transfers.shareDrop fullShare 32} m (R1.iLoc d)))
          ∗ bigSep Finset.univ fun c : Fin ((K (F := F)).nCore 1) => (P m).st 1 d c) := by
  rw [st1_eq]; unfold R1.go
  rw [regroup3, ← R1.out_tiles]
  iintro ⟨Ht, Hi, Ho⟩
  ihave Ht' := (R1.toks_tiles (m (R1.tLoc d))) $$ Ht
  icases Ht' with ⟨Htd, Htt⟩
  ihave Hi' := (R1.toks_tiles (m (R1.iLoc d))) $$ Hi
  icases Hi' with ⟨Hid, Hit⟩
  isplitl [Htd Hid]
  · isplitl [Htd] <;> iassumption
  isplitl [Htt]; · iexact Htt
  isplitl [Hit]; · iexact Hit
  iexact Ho

/-- After it: the tiles' rows, each a restriction of the one whole-array function, are the result whole at that function. -/
theorem dn1_elim (d : Dev nD) :
    (bigSep Finset.univ fun c : Fin ((K (F := F)).nCore 1) => (P m).dn 1 d c) ⊢ (R1.oLoc d ↦{fullShare} R1.G m d : sProp 𝕄) := by
  rw [dn1_eq]; unfold R1.td
  rw [← R1.out_tiles]

variable [FloatOps F] in
/-- The TensorCore at call 1: from the call's three arrays whole at the launch memory to `fin1`. -/
theorem call1 (κ : GSem nD τ sig → ℕ) (d : Dev nD) (Φ : PUnit → sProp 𝕄) :
    iprop((K (F := F)).ctx EH (P m) κ ∗ (K (F := F)).tcSt EH d 1
        ∗ ((R1.tLoc d ↦{fullShare} m (R1.tLoc d)) ∗ (R1.iLoc d ↦{fullShare} m (R1.iLoc d)) ∗ (R1.oLoc d ↦{fullShare} m (R1.oLoc d)))
        ∗ (((K (F := F)).tcSt EH d 2 ∗ fin1 m d) -∗ Φ ⟨⟩))
      ⊢ wp frame (wpE ((K (F := F)).defs (D (F := F))) 𝒱 (SparseCore.T d) none) Set.univ ((K (F := F)).run d 1) Φ := by
  iintro ⟨#Hctx, Hst, Hb, Hk⟩
  ihave Hb' := (st1_intro m d) $$ Hb
  icases Hb' with ⟨⟨Htd, Hid⟩, Hgo⟩
  iapply ((K (F := F)).wp_run (D (F := F)) 𝒱 (EH := EH) (P := P m) κ d 1) $$ [Hst Hgo Hk Htd Hid]
  isplitr; · iexact Hctx
  isplitl [Hst]; · iexact Hst
  isplitl [Hgo]; · iexact Hgo
  iintro ⟨Hst, Hdn⟩
  iapply Hk
  isplitl [Hst]; · iexact Hst
  unfold fin1
  isplitl [Htd]; · iexact Htd
  isplitl [Hid]; · iexact Hid
  iapply (dn1_elim m d); iexact Hdn

/-- Under the state interpretation, what call 1 leaves pins its result, its table and its index array in the final memory. -/
theorem fin1_agree (d : Dev nD) (s' : Phys nD τ sig (Elt F)) :
    iprop(fin1 m d ∗ SI s') ⊢ (iprop(⌜s'.mem.mem (R1.oLoc d) = R1.G m d ∧ s'.mem.mem (R1.tLoc d) = m (R1.tLoc d) ∧ s'.mem.mem (R1.iLoc d) = m (R1.iLoc d)⌝ ∗ SI s') : sProp 𝕄) := by
  unfold fin1
  iintro ⟨⟨Ht, Hi, Ho⟩, HSI⟩
  ihave H := (agree_whole s') $$ [HSI Ht]
  · isplitl [HSI] <;> iassumption
  icases H with ⟨%ht, HSI⟩
  ihave H := (agree_whole s') $$ [HSI Hi]
  · isplitl [HSI] <;> iassumption
  icases H with ⟨%hi, HSI⟩
  ihave H := (agree_whole s') $$ [HSI Ho]
  · isplitl [HSI] <;> iassumption
  icases H with ⟨%ho, HSI⟩
  isplitr
  · ipureintro; exact ⟨ho, ht, hi⟩
  · iexact HSI

/-! ### Call 2 -/

/-- What call 2 leaves the claim: the kept remainders of its table and index array, its result whole at the lookup's value. -/
def fin2 (d : Dev nD) : sProp 𝕄 :=
  iprop((R2.tLoc d ↦{Transfers.shareDrop fullShare 32} m (R2.tLoc d)) ∗ (R2.iLoc d ↦{Transfers.shareDrop fullShare 32} m (R2.iLoc d))
    ∗ (R2.oLoc d ↦{fullShare} R2.G m d))

theorem goAt_2 (d : Dev nD) (L : grid0.Coords) : goAt m 2 d L = R2.go m d L := rfl
theorem tdAt_2 (d : Dev nD) (L : grid0.Coords) : tdAt m 2 d L = R2.td m d L := rfl

theorem st2_eq (d : Dev nD) :
    (bigSep Finset.univ fun c : Fin ((K (F := F)).nCore 2) => (P m).st 2 d c)
      = bigSep Finset.univ fun c : Fin (grid0.bound 0) => bigSep Finset.univ fun i : Fin (grid0.bound 1) => R2.go m d (coordsV c i) := by
  simp only [P_st, P_go, goAt_2]
  exact bigSep_tiles 2 (fun L => R2.go m d L)

theorem dn2_eq (d : Dev nD) :
    (bigSep Finset.univ fun c : Fin ((K (F := F)).nCore 2) => (P m).dn 2 d c)
      = bigSep Finset.univ fun c : Fin (grid0.bound 0) => bigSep Finset.univ fun i : Fin (grid0.bound 1) => R2.td m d (coordsV c i) := by
  simp only [P_dn, P_td, tdAt_2]
  exact bigSep_tiles 2 (fun L => R2.td m d L)

/-- Before the call: the table and the index array each split into a kept remainder and the tiles' read tokens, the
    result into the tiles' rows; regrouped tile by tile, that is what the call's SparseCores are handed. -/
theorem st2_intro (d : Dev nD) :
    iprop((R2.tLoc d ↦{fullShare} m (R2.tLoc d)) ∗ (R2.iLoc d ↦{fullShare} m (R2.iLoc d)) ∗ (R2.oLoc d ↦{fullShare} m (R2.oLoc d)))
      ⊢ iprop(((R2.tLoc d ↦{Transfers.shareDrop fullShare 32} m (R2.tLoc d)) ∗ (R2.iLoc d ↦{Transfers.shareDrop fullShare 32} m (R2.iLoc d)))
          ∗ bigSep Finset.univ fun c : Fin ((K (F := F)).nCore 2) => (P m).st 2 d c) := by
  rw [st2_eq]; unfold R2.go
  rw [regroup3, ← R2.out_tiles]
  iintro ⟨Ht, Hi, Ho⟩
  ihave Ht' := (R2.toks_tiles (m (R2.tLoc d))) $$ Ht
  icases Ht' with ⟨Htd, Htt⟩
  ihave Hi' := (R2.toks_tiles (m (R2.iLoc d))) $$ Hi
  icases Hi' with ⟨Hid, Hit⟩
  isplitl [Htd Hid]
  · isplitl [Htd] <;> iassumption
  isplitl [Htt]; · iexact Htt
  isplitl [Hit]; · iexact Hit
  iexact Ho

/-- After it: the tiles' rows, each a restriction of the one whole-array function, are the result whole at that function. -/
theorem dn2_elim (d : Dev nD) :
    (bigSep Finset.univ fun c : Fin ((K (F := F)).nCore 2) => (P m).dn 2 d c) ⊢ (R2.oLoc d ↦{fullShare} R2.G m d : sProp 𝕄) := by
  rw [dn2_eq]; unfold R2.td
  rw [← R2.out_tiles]

variable [FloatOps F] in
/-- The TensorCore at call 2: from the call's three arrays whole at the launch memory to `fin2`. -/
theorem call2 (κ : GSem nD τ sig → ℕ) (d : Dev nD) (Φ : PUnit → sProp 𝕄) :
    iprop((K (F := F)).ctx EH (P m) κ ∗ (K (F := F)).tcSt EH d 2
        ∗ ((R2.tLoc d ↦{fullShare} m (R2.tLoc d)) ∗ (R2.iLoc d ↦{fullShare} m (R2.iLoc d)) ∗ (R2.oLoc d ↦{fullShare} m (R2.oLoc d)))
        ∗ (((K (F := F)).tcSt EH d 3 ∗ fin2 m d) -∗ Φ ⟨⟩))
      ⊢ wp frame (wpE ((K (F := F)).defs (D (F := F))) 𝒱 (SparseCore.T d) none) Set.univ ((K (F := F)).run d 2) Φ := by
  iintro ⟨#Hctx, Hst, Hb, Hk⟩
  ihave Hb' := (st2_intro m d) $$ Hb
  icases Hb' with ⟨⟨Htd, Hid⟩, Hgo⟩
  iapply ((K (F := F)).wp_run (D (F := F)) 𝒱 (EH := EH) (P := P m) κ d 2) $$ [Hst Hgo Hk Htd Hid]
  isplitr; · iexact Hctx
  isplitl [Hst]; · iexact Hst
  isplitl [Hgo]; · iexact Hgo
  iintro ⟨Hst, Hdn⟩
  iapply Hk
  isplitl [Hst]; · iexact Hst
  unfold fin2
  isplitl [Htd]; · iexact Htd
  isplitl [Hid]; · iexact Hid
  iapply (dn2_elim m d); iexact Hdn

/-- Under the state interpretation, what call 2 leaves pins its result, its table and its index array in the final memory. -/
theorem fin2_agree (d : Dev nD) (s' : Phys nD τ sig (Elt F)) :
    iprop(fin2 m d ∗ SI s') ⊢ (iprop(⌜s'.mem.mem (R2.oLoc d) = R2.G m d ∧ s'.mem.mem (R2.tLoc d) = m (R2.tLoc d) ∧ s'.mem.mem (R2.iLoc d) = m (R2.iLoc d)⌝ ∗ SI s') : sProp 𝕄) := by
  unfold fin2
  iintro ⟨⟨Ht, Hi, Ho⟩, HSI⟩
  ihave H := (agree_whole s') $$ [HSI Ht]
  · isplitl [HSI] <;> iassumption
  icases H with ⟨%ht, HSI⟩
  ihave H := (agree_whole s') $$ [HSI Hi]
  · isplitl [HSI] <;> iassumption
  icases H with ⟨%hi, HSI⟩
  ihave H := (agree_whole s') $$ [HSI Ho]
  · isplitl [HSI] <;> iassumption
  icases H with ⟨%ho, HSI⟩
  isplitr
  · ipureintro; exact ⟨ho, ht, hi⟩
  · iexact HSI

/-! ### Call 3 -/

/-- What call 3 leaves the claim: the kept remainders of its table and index array, its result whole at the lookup's value. -/
def fin3 (d : Dev nD) : sProp 𝕄 :=
  iprop((R3.tLoc d ↦{Transfers.shareDrop fullShare 32} m (R3.tLoc d)) ∗ (R3.iLoc d ↦{Transfers.shareDrop fullShare 32} m (R3.iLoc d))
    ∗ (R3.oLoc d ↦{fullShare} R3.G m d))

theorem goAt_3 (d : Dev nD) (L : grid0.Coords) : goAt m 3 d L = R3.go m d L := rfl
theorem tdAt_3 (d : Dev nD) (L : grid0.Coords) : tdAt m 3 d L = R3.td m d L := rfl

theorem st3_eq (d : Dev nD) :
    (bigSep Finset.univ fun c : Fin ((K (F := F)).nCore 3) => (P m).st 3 d c)
      = bigSep Finset.univ fun c : Fin (grid0.bound 0) => bigSep Finset.univ fun i : Fin (grid0.bound 1) => R3.go m d (coordsV c i) := by
  simp only [P_st, P_go, goAt_3]
  exact bigSep_tiles 3 (fun L => R3.go m d L)

theorem dn3_eq (d : Dev nD) :
    (bigSep Finset.univ fun c : Fin ((K (F := F)).nCore 3) => (P m).dn 3 d c)
      = bigSep Finset.univ fun c : Fin (grid0.bound 0) => bigSep Finset.univ fun i : Fin (grid0.bound 1) => R3.td m d (coordsV c i) := by
  simp only [P_dn, P_td, tdAt_3]
  exact bigSep_tiles 3 (fun L => R3.td m d L)

/-- Before the call: the table and the index array each split into a kept remainder and the tiles' read tokens, the
    result into the tiles' rows; regrouped tile by tile, that is what the call's SparseCores are handed. -/
theorem st3_intro (d : Dev nD) :
    iprop((R3.tLoc d ↦{fullShare} m (R3.tLoc d)) ∗ (R3.iLoc d ↦{fullShare} m (R3.iLoc d)) ∗ (R3.oLoc d ↦{fullShare} m (R3.oLoc d)))
      ⊢ iprop(((R3.tLoc d ↦{Transfers.shareDrop fullShare 32} m (R3.tLoc d)) ∗ (R3.iLoc d ↦{Transfers.shareDrop fullShare 32} m (R3.iLoc d)))
          ∗ bigSep Finset.univ fun c : Fin ((K (F := F)).nCore 3) => (P m).st 3 d c) := by
  rw [st3_eq]; unfold R3.go
  rw [regroup3, ← R3.out_tiles]
  iintro ⟨Ht, Hi, Ho⟩
  ihave Ht' := (R3.toks_tiles (m (R3.tLoc d))) $$ Ht
  icases Ht' with ⟨Htd, Htt⟩
  ihave Hi' := (R3.toks_tiles (m (R3.iLoc d))) $$ Hi
  icases Hi' with ⟨Hid, Hit⟩
  isplitl [Htd Hid]
  · isplitl [Htd] <;> iassumption
  isplitl [Htt]; · iexact Htt
  isplitl [Hit]; · iexact Hit
  iexact Ho

/-- After it: the tiles' rows, each a restriction of the one whole-array function, are the result whole at that function. -/
theorem dn3_elim (d : Dev nD) :
    (bigSep Finset.univ fun c : Fin ((K (F := F)).nCore 3) => (P m).dn 3 d c) ⊢ (R3.oLoc d ↦{fullShare} R3.G m d : sProp 𝕄) := by
  rw [dn3_eq]; unfold R3.td
  rw [← R3.out_tiles]

variable [FloatOps F] in
/-- The TensorCore at call 3: from the call's three arrays whole at the launch memory to `fin3`. -/
theorem call3 (κ : GSem nD τ sig → ℕ) (d : Dev nD) (Φ : PUnit → sProp 𝕄) :
    iprop((K (F := F)).ctx EH (P m) κ ∗ (K (F := F)).tcSt EH d 3
        ∗ ((R3.tLoc d ↦{fullShare} m (R3.tLoc d)) ∗ (R3.iLoc d ↦{fullShare} m (R3.iLoc d)) ∗ (R3.oLoc d ↦{fullShare} m (R3.oLoc d)))
        ∗ (((K (F := F)).tcSt EH d 4 ∗ fin3 m d) -∗ Φ ⟨⟩))
      ⊢ wp frame (wpE ((K (F := F)).defs (D (F := F))) 𝒱 (SparseCore.T d) none) Set.univ ((K (F := F)).run d 3) Φ := by
  iintro ⟨#Hctx, Hst, Hb, Hk⟩
  ihave Hb' := (st3_intro m d) $$ Hb
  icases Hb' with ⟨⟨Htd, Hid⟩, Hgo⟩
  iapply ((K (F := F)).wp_run (D (F := F)) 𝒱 (EH := EH) (P := P m) κ d 3) $$ [Hst Hgo Hk Htd Hid]
  isplitr; · iexact Hctx
  isplitl [Hst]; · iexact Hst
  isplitl [Hgo]; · iexact Hgo
  iintro ⟨Hst, Hdn⟩
  iapply Hk
  isplitl [Hst]; · iexact Hst
  unfold fin3
  isplitl [Htd]; · iexact Htd
  isplitl [Hid]; · iexact Hid
  iapply (dn3_elim m d); iexact Hdn

/-- Under the state interpretation, what call 3 leaves pins its result, its table and its index array in the final memory. -/
theorem fin3_agree (d : Dev nD) (s' : Phys nD τ sig (Elt F)) :
    iprop(fin3 m d ∗ SI s') ⊢ (iprop(⌜s'.mem.mem (R3.oLoc d) = R3.G m d ∧ s'.mem.mem (R3.tLoc d) = m (R3.tLoc d) ∧ s'.mem.mem (R3.iLoc d) = m (R3.iLoc d)⌝ ∗ SI s') : sProp 𝕄) := by
  unfold fin3
  iintro ⟨⟨Ht, Hi, Ho⟩, HSI⟩
  ihave H := (agree_whole s') $$ [HSI Ht]
  · isplitl [HSI] <;> iassumption
  icases H with ⟨%ht, HSI⟩
  ihave H := (agree_whole s') $$ [HSI Hi]
  · isplitl [HSI] <;> iassumption
  icases H with ⟨%hi, HSI⟩
  ihave H := (agree_whole s') $$ [HSI Ho]
  · isplitl [HSI] <;> iassumption
  icases H with ⟨%ho, HSI⟩
  isplitr
  · ipureintro; exact ⟨ho, ht, hi⟩
  · iexact HSI

/-! ### Call 4 -/

/-- What call 4 leaves the claim: the kept remainders of its table and index array, its result whole at the lookup's value. -/
def fin4 (d : Dev nD) : sProp 𝕄 :=
  iprop((R4.tLoc d ↦{Transfers.shareDrop fullShare 32} m (R4.tLoc d)) ∗ (R4.iLoc d ↦{Transfers.shareDrop fullShare 32} m (R4.iLoc d))
    ∗ (R4.oLoc d ↦{fullShare} R4.G m d))

theorem goAt_4 (d : Dev nD) (L : grid0.Coords) : goAt m 4 d L = R4.go m d L := rfl
theorem tdAt_4 (d : Dev nD) (L : grid0.Coords) : tdAt m 4 d L = R4.td m d L := rfl

theorem st4_eq (d : Dev nD) :
    (bigSep Finset.univ fun c : Fin ((K (F := F)).nCore 4) => (P m).st 4 d c)
      = bigSep Finset.univ fun c : Fin (grid0.bound 0) => bigSep Finset.univ fun i : Fin (grid0.bound 1) => R4.go m d (coordsV c i) := by
  simp only [P_st, P_go, goAt_4]
  exact bigSep_tiles 4 (fun L => R4.go m d L)

theorem dn4_eq (d : Dev nD) :
    (bigSep Finset.univ fun c : Fin ((K (F := F)).nCore 4) => (P m).dn 4 d c)
      = bigSep Finset.univ fun c : Fin (grid0.bound 0) => bigSep Finset.univ fun i : Fin (grid0.bound 1) => R4.td m d (coordsV c i) := by
  simp only [P_dn, P_td, tdAt_4]
  exact bigSep_tiles 4 (fun L => R4.td m d L)

/-- Before the call: the table and the index array each split into a kept remainder and the tiles' read tokens, the
    result into the tiles' rows; regrouped tile by tile, that is what the call's SparseCores are handed. -/
theorem st4_intro (d : Dev nD) :
    iprop((R4.tLoc d ↦{fullShare} m (R4.tLoc d)) ∗ (R4.iLoc d ↦{fullShare} m (R4.iLoc d)) ∗ (R4.oLoc d ↦{fullShare} m (R4.oLoc d)))
      ⊢ iprop(((R4.tLoc d ↦{Transfers.shareDrop fullShare 32} m (R4.tLoc d)) ∗ (R4.iLoc d ↦{Transfers.shareDrop fullShare 32} m (R4.iLoc d)))
          ∗ bigSep Finset.univ fun c : Fin ((K (F := F)).nCore 4) => (P m).st 4 d c) := by
  rw [st4_eq]; unfold R4.go
  rw [regroup3, ← R4.out_tiles]
  iintro ⟨Ht, Hi, Ho⟩
  ihave Ht' := (R4.toks_tiles (m (R4.tLoc d))) $$ Ht
  icases Ht' with ⟨Htd, Htt⟩
  ihave Hi' := (R4.toks_tiles (m (R4.iLoc d))) $$ Hi
  icases Hi' with ⟨Hid, Hit⟩
  isplitl [Htd Hid]
  · isplitl [Htd] <;> iassumption
  isplitl [Htt]; · iexact Htt
  isplitl [Hit]; · iexact Hit
  iexact Ho

/-- After it: the tiles' rows, each a restriction of the one whole-array function, are the result whole at that function. -/
theorem dn4_elim (d : Dev nD) :
    (bigSep Finset.univ fun c : Fin ((K (F := F)).nCore 4) => (P m).dn 4 d c) ⊢ (R4.oLoc d ↦{fullShare} R4.G m d : sProp 𝕄) := by
  rw [dn4_eq]; unfold R4.td
  rw [← R4.out_tiles]

variable [FloatOps F] in
/-- The TensorCore at call 4: from the call's three arrays whole at the launch memory to `fin4`. -/
theorem call4 (κ : GSem nD τ sig → ℕ) (d : Dev nD) (Φ : PUnit → sProp 𝕄) :
    iprop((K (F := F)).ctx EH (P m) κ ∗ (K (F := F)).tcSt EH d 4
        ∗ ((R4.tLoc d ↦{fullShare} m (R4.tLoc d)) ∗ (R4.iLoc d ↦{fullShare} m (R4.iLoc d)) ∗ (R4.oLoc d ↦{fullShare} m (R4.oLoc d)))
        ∗ (((K (F := F)).tcSt EH d 5 ∗ fin4 m d) -∗ Φ ⟨⟩))
      ⊢ wp frame (wpE ((K (F := F)).defs (D (F := F))) 𝒱 (SparseCore.T d) none) Set.univ ((K (F := F)).run d 4) Φ := by
  iintro ⟨#Hctx, Hst, Hb, Hk⟩
  ihave Hb' := (st4_intro m d) $$ Hb
  icases Hb' with ⟨⟨Htd, Hid⟩, Hgo⟩
  iapply ((K (F := F)).wp_run (D (F := F)) 𝒱 (EH := EH) (P := P m) κ d 4) $$ [Hst Hgo Hk Htd Hid]
  isplitr; · iexact Hctx
  isplitl [Hst]; · iexact Hst
  isplitl [Hgo]; · iexact Hgo
  iintro ⟨Hst, Hdn⟩
  iapply Hk
  isplitl [Hst]; · iexact Hst
  unfold fin4
  isplitl [Htd]; · iexact Htd
  isplitl [Hid]; · iexact Hid
  iapply (dn4_elim m d); iexact Hdn

/-- Under the state interpretation, what call 4 leaves pins its result, its table and its index array in the final memory. -/
theorem fin4_agree (d : Dev nD) (s' : Phys nD τ sig (Elt F)) :
    iprop(fin4 m d ∗ SI s') ⊢ (iprop(⌜s'.mem.mem (R4.oLoc d) = R4.G m d ∧ s'.mem.mem (R4.tLoc d) = m (R4.tLoc d) ∧ s'.mem.mem (R4.iLoc d) = m (R4.iLoc d)⌝ ∗ SI s') : sProp 𝕄) := by
  unfold fin4
  iintro ⟨⟨Ht, Hi, Ho⟩, HSI⟩
  ihave H := (agree_whole s') $$ [HSI Ht]
  · isplitl [HSI] <;> iassumption
  icases H with ⟨%ht, HSI⟩
  ihave H := (agree_whole s') $$ [HSI Hi]
  · isplitl [HSI] <;> iassumption
  icases H with ⟨%hi, HSI⟩
  ihave H := (agree_whole s') $$ [HSI Ho]
  · isplitl [HSI] <;> iassumption
  icases H with ⟨%ho, HSI⟩
  isplitr
  · ipureintro; exact ⟨ho, ht, hi⟩
  · iexact HSI

/-! ### Call 5 -/

/-- What call 5 leaves the claim: the kept remainders of its table and index array, its result whole at the lookup's value. -/
def fin5 (d : Dev nD) : sProp 𝕄 :=
  iprop((R5.tLoc d ↦{Transfers.shareDrop fullShare 32} m (R5.tLoc d)) ∗ (R5.iLoc d ↦{Transfers.shareDrop fullShare 32} m (R5.iLoc d))
    ∗ (R5.oLoc d ↦{fullShare} R5.G m d))

theorem goAt_5 (d : Dev nD) (L : grid0.Coords) : goAt m 5 d L = R5.go m d L := rfl
theorem tdAt_5 (d : Dev nD) (L : grid0.Coords) : tdAt m 5 d L = R5.td m d L := rfl

theorem st5_eq (d : Dev nD) :
    (bigSep Finset.univ fun c : Fin ((K (F := F)).nCore 5) => (P m).st 5 d c)
      = bigSep Finset.univ fun c : Fin (grid0.bound 0) => bigSep Finset.univ fun i : Fin (grid0.bound 1) => R5.go m d (coordsV c i) := by
  simp only [P_st, P_go, goAt_5]
  exact bigSep_tiles 5 (fun L => R5.go m d L)

theorem dn5_eq (d : Dev nD) :
    (bigSep Finset.univ fun c : Fin ((K (F := F)).nCore 5) => (P m).dn 5 d c)
      = bigSep Finset.univ fun c : Fin (grid0.bound 0) => bigSep Finset.univ fun i : Fin (grid0.bound 1) => R5.td m d (coordsV c i) := by
  simp only [P_dn, P_td, tdAt_5]
  exact bigSep_tiles 5 (fun L => R5.td m d L)

/-- Before the call: the table and the index array each split into a kept remainder and the tiles' read tokens, the
    result into the tiles' rows; regrouped tile by tile, that is what the call's SparseCores are handed. -/
theorem st5_intro (d : Dev nD) :
    iprop((R5.tLoc d ↦{fullShare} m (R5.tLoc d)) ∗ (R5.iLoc d ↦{fullShare} m (R5.iLoc d)) ∗ (R5.oLoc d ↦{fullShare} m (R5.oLoc d)))
      ⊢ iprop(((R5.tLoc d ↦{Transfers.shareDrop fullShare 32} m (R5.tLoc d)) ∗ (R5.iLoc d ↦{Transfers.shareDrop fullShare 32} m (R5.iLoc d)))
          ∗ bigSep Finset.univ fun c : Fin ((K (F := F)).nCore 5) => (P m).st 5 d c) := by
  rw [st5_eq]; unfold R5.go
  rw [regroup3, ← R5.out_tiles]
  iintro ⟨Ht, Hi, Ho⟩
  ihave Ht' := (R5.toks_tiles (m (R5.tLoc d))) $$ Ht
  icases Ht' with ⟨Htd, Htt⟩
  ihave Hi' := (R5.toks_tiles (m (R5.iLoc d))) $$ Hi
  icases Hi' with ⟨Hid, Hit⟩
  isplitl [Htd Hid]
  · isplitl [Htd] <;> iassumption
  isplitl [Htt]; · iexact Htt
  isplitl [Hit]; · iexact Hit
  iexact Ho

/-- After it: the tiles' rows, each a restriction of the one whole-array function, are the result whole at that function. -/
theorem dn5_elim (d : Dev nD) :
    (bigSep Finset.univ fun c : Fin ((K (F := F)).nCore 5) => (P m).dn 5 d c) ⊢ (R5.oLoc d ↦{fullShare} R5.G m d : sProp 𝕄) := by
  rw [dn5_eq]; unfold R5.td
  rw [← R5.out_tiles]

variable [FloatOps F] in
/-- The TensorCore at call 5: from the call's three arrays whole at the launch memory to `fin5`. -/
theorem call5 (κ : GSem nD τ sig → ℕ) (d : Dev nD) (Φ : PUnit → sProp 𝕄) :
    iprop((K (F := F)).ctx EH (P m) κ ∗ (K (F := F)).tcSt EH d 5
        ∗ ((R5.tLoc d ↦{fullShare} m (R5.tLoc d)) ∗ (R5.iLoc d ↦{fullShare} m (R5.iLoc d)) ∗ (R5.oLoc d ↦{fullShare} m (R5.oLoc d)))
        ∗ (((K (F := F)).tcSt EH d 6 ∗ fin5 m d) -∗ Φ ⟨⟩))
      ⊢ wp frame (wpE ((K (F := F)).defs (D (F := F))) 𝒱 (SparseCore.T d) none) Set.univ ((K (F := F)).run d 5) Φ := by
  iintro ⟨#Hctx, Hst, Hb, Hk⟩
  ihave Hb' := (st5_intro m d) $$ Hb
  icases Hb' with ⟨⟨Htd, Hid⟩, Hgo⟩
  iapply ((K (F := F)).wp_run (D (F := F)) 𝒱 (EH := EH) (P := P m) κ d 5) $$ [Hst Hgo Hk Htd Hid]
  isplitr; · iexact Hctx
  isplitl [Hst]; · iexact Hst
  isplitl [Hgo]; · iexact Hgo
  iintro ⟨Hst, Hdn⟩
  iapply Hk
  isplitl [Hst]; · iexact Hst
  unfold fin5
  isplitl [Htd]; · iexact Htd
  isplitl [Hid]; · iexact Hid
  iapply (dn5_elim m d); iexact Hdn

/-- Under the state interpretation, what call 5 leaves pins its result, its table and its index array in the final memory. -/
theorem fin5_agree (d : Dev nD) (s' : Phys nD τ sig (Elt F)) :
    iprop(fin5 m d ∗ SI s') ⊢ (iprop(⌜s'.mem.mem (R5.oLoc d) = R5.G m d ∧ s'.mem.mem (R5.tLoc d) = m (R5.tLoc d) ∧ s'.mem.mem (R5.iLoc d) = m (R5.iLoc d)⌝ ∗ SI s') : sProp 𝕄) := by
  unfold fin5
  iintro ⟨⟨Ht, Hi, Ho⟩, HSI⟩
  ihave H := (agree_whole s') $$ [HSI Ht]
  · isplitl [HSI] <;> iassumption
  icases H with ⟨%ht, HSI⟩
  ihave H := (agree_whole s') $$ [HSI Hi]
  · isplitl [HSI] <;> iassumption
  icases H with ⟨%hi, HSI⟩
  ihave H := (agree_whole s') $$ [HSI Ho]
  · isplitl [HSI] <;> iassumption
  icases H with ⟨%ho, HSI⟩
  isplitr
  · ipureintro; exact ⟨ho, ht, hi⟩
  · iexact HSI

/-! ### Call 6 -/

/-- What call 6 leaves the claim: the kept remainders of its table and index array, its result whole at the lookup's value. -/
def fin6 (d : Dev nD) : sProp 𝕄 :=
  iprop((R6.tLoc d ↦{Transfers.shareDrop fullShare 32} m (R6.tLoc d)) ∗ (R6.iLoc d ↦{Transfers.shareDrop fullShare 32} m (R6.iLoc d))
    ∗ (R6.oLoc d ↦{fullShare} R6.G m d))

theorem goAt_6 (d : Dev nD) (L : grid0.Coords) : goAt m 6 d L = R6.go m d L := rfl
theorem tdAt_6 (d : Dev nD) (L : grid0.Coords) : tdAt m 6 d L = R6.td m d L := rfl

theorem st6_eq (d : Dev nD) :
    (bigSep Finset.univ fun c : Fin ((K (F := F)).nCore 6) => (P m).st 6 d c)
      = bigSep Finset.univ fun c : Fin (grid0.bound 0) => bigSep Finset.univ fun i : Fin (grid0.bound 1) => R6.go m d (coordsV c i) := by
  simp only [P_st, P_go, goAt_6]
  exact bigSep_tiles 6 (fun L => R6.go m d L)

theorem dn6_eq (d : Dev nD) :
    (bigSep Finset.univ fun c : Fin ((K (F := F)).nCore 6) => (P m).dn 6 d c)
      = bigSep Finset.univ fun c : Fin (grid0.bound 0) => bigSep Finset.univ fun i : Fin (grid0.bound 1) => R6.td m d (coordsV c i) := by
  simp only [P_dn, P_td, tdAt_6]
  exact bigSep_tiles 6 (fun L => R6.td m d L)

/-- Before the call: the table and the index array each split into a kept remainder and the tiles' read tokens, the
    result into the tiles' rows; regrouped tile by tile, that is what the call's SparseCores are handed. -/
theorem st6_intro (d : Dev nD) :
    iprop((R6.tLoc d ↦{fullShare} m (R6.tLoc d)) ∗ (R6.iLoc d ↦{fullShare} m (R6.iLoc d)) ∗ (R6.oLoc d ↦{fullShare} m (R6.oLoc d)))
      ⊢ iprop(((R6.tLoc d ↦{Transfers.shareDrop fullShare 32} m (R6.tLoc d)) ∗ (R6.iLoc d ↦{Transfers.shareDrop fullShare 32} m (R6.iLoc d)))
          ∗ bigSep Finset.univ fun c : Fin ((K (F := F)).nCore 6) => (P m).st 6 d c) := by
  rw [st6_eq]; unfold R6.go
  rw [regroup3, ← R6.out_tiles]
  iintro ⟨Ht, Hi, Ho⟩
  ihave Ht' := (R6.toks_tiles (m (R6.tLoc d))) $$ Ht
  icases Ht' with ⟨Htd, Htt⟩
  ihave Hi' := (R6.toks_tiles (m (R6.iLoc d))) $$ Hi
  icases Hi' with ⟨Hid, Hit⟩
  isplitl [Htd Hid]
  · isplitl [Htd] <;> iassumption
  isplitl [Htt]; · iexact Htt
  isplitl [Hit]; · iexact Hit
  iexact Ho

/-- After it: the tiles' rows, each a restriction of the one whole-array function, are the result whole at that function. -/
theorem dn6_elim (d : Dev nD) :
    (bigSep Finset.univ fun c : Fin ((K (F := F)).nCore 6) => (P m).dn 6 d c) ⊢ (R6.oLoc d ↦{fullShare} R6.G m d : sProp 𝕄) := by
  rw [dn6_eq]; unfold R6.td
  rw [← R6.out_tiles]

variable [FloatOps F] in
/-- The TensorCore at call 6: from the call's three arrays whole at the launch memory to `fin6`. -/
theorem call6 (κ : GSem nD τ sig → ℕ) (d : Dev nD) (Φ : PUnit → sProp 𝕄) :
    iprop((K (F := F)).ctx EH (P m) κ ∗ (K (F := F)).tcSt EH d 6
        ∗ ((R6.tLoc d ↦{fullShare} m (R6.tLoc d)) ∗ (R6.iLoc d ↦{fullShare} m (R6.iLoc d)) ∗ (R6.oLoc d ↦{fullShare} m (R6.oLoc d)))
        ∗ (((K (F := F)).tcSt EH d 7 ∗ fin6 m d) -∗ Φ ⟨⟩))
      ⊢ wp frame (wpE ((K (F := F)).defs (D (F := F))) 𝒱 (SparseCore.T d) none) Set.univ ((K (F := F)).run d 6) Φ := by
  iintro ⟨#Hctx, Hst, Hb, Hk⟩
  ihave Hb' := (st6_intro m d) $$ Hb
  icases Hb' with ⟨⟨Htd, Hid⟩, Hgo⟩
  iapply ((K (F := F)).wp_run (D (F := F)) 𝒱 (EH := EH) (P := P m) κ d 6) $$ [Hst Hgo Hk Htd Hid]
  isplitr; · iexact Hctx
  isplitl [Hst]; · iexact Hst
  isplitl [Hgo]; · iexact Hgo
  iintro ⟨Hst, Hdn⟩
  iapply Hk
  isplitl [Hst]; · iexact Hst
  unfold fin6
  isplitl [Htd]; · iexact Htd
  isplitl [Hid]; · iexact Hid
  iapply (dn6_elim m d); iexact Hdn

/-- Under the state interpretation, what call 6 leaves pins its result, its table and its index array in the final memory. -/
theorem fin6_agree (d : Dev nD) (s' : Phys nD τ sig (Elt F)) :
    iprop(fin6 m d ∗ SI s') ⊢ (iprop(⌜s'.mem.mem (R6.oLoc d) = R6.G m d ∧ s'.mem.mem (R6.tLoc d) = m (R6.tLoc d) ∧ s'.mem.mem (R6.iLoc d) = m (R6.iLoc d)⌝ ∗ SI s') : sProp 𝕄) := by
  unfold fin6
  iintro ⟨⟨Ht, Hi, Ho⟩, HSI⟩
  ihave H := (agree_whole s') $$ [HSI Ht]
  · isplitl [HSI] <;> iassumption
  icases H with ⟨%ht, HSI⟩
  ihave H := (agree_whole s') $$ [HSI Hi]
  · isplitl [HSI] <;> iassumption
  icases H with ⟨%hi, HSI⟩
  ihave H := (agree_whole s') $$ [HSI Ho]
  · isplitl [HSI] <;> iassumption
  icases H with ⟨%ho, HSI⟩
  isplitr
  · ipureintro; exact ⟨ho, ht, hi⟩
  · iexact HSI

/-! ### Call 7 -/

/-- What call 7 leaves the claim: the kept remainders of its table and index array, its result whole at the lookup's value. -/
def fin7 (d : Dev nD) : sProp 𝕄 :=
  iprop((R7.tLoc d ↦{Transfers.shareDrop fullShare 32} m (R7.tLoc d)) ∗ (R7.iLoc d ↦{Transfers.shareDrop fullShare 32} m (R7.iLoc d))
    ∗ (R7.oLoc d ↦{fullShare} R7.G m d))

theorem goAt_7 (d : Dev nD) (L : grid0.Coords) : goAt m 7 d L = R7.go m d L := rfl
theorem tdAt_7 (d : Dev nD) (L : grid0.Coords) : tdAt m 7 d L = R7.td m d L := rfl

theorem st7_eq (d : Dev nD) :
    (bigSep Finset.univ fun c : Fin ((K (F := F)).nCore 7) => (P m).st 7 d c)
      = bigSep Finset.univ fun c : Fin (grid0.bound 0) => bigSep Finset.univ fun i : Fin (grid0.bound 1) => R7.go m d (coordsV c i) := by
  simp only [P_st, P_go, goAt_7]
  exact bigSep_tiles 7 (fun L => R7.go m d L)

theorem dn7_eq (d : Dev nD) :
    (bigSep Finset.univ fun c : Fin ((K (F := F)).nCore 7) => (P m).dn 7 d c)
      = bigSep Finset.univ fun c : Fin (grid0.bound 0) => bigSep Finset.univ fun i : Fin (grid0.bound 1) => R7.td m d (coordsV c i) := by
  simp only [P_dn, P_td, tdAt_7]
  exact bigSep_tiles 7 (fun L => R7.td m d L)

/-- Before the call: the table and the index array each split into a kept remainder and the tiles' read tokens, the
    result into the tiles' rows; regrouped tile by tile, that is what the call's SparseCores are handed. -/
theorem st7_intro (d : Dev nD) :
    iprop((R7.tLoc d ↦{fullShare} m (R7.tLoc d)) ∗ (R7.iLoc d ↦{fullShare} m (R7.iLoc d)) ∗ (R7.oLoc d ↦{fullShare} m (R7.oLoc d)))
      ⊢ iprop(((R7.tLoc d ↦{Transfers.shareDrop fullShare 32} m (R7.tLoc d)) ∗ (R7.iLoc d ↦{Transfers.shareDrop fullShare 32} m (R7.iLoc d)))
          ∗ bigSep Finset.univ fun c : Fin ((K (F := F)).nCore 7) => (P m).st 7 d c) := by
  rw [st7_eq]; unfold R7.go
  rw [regroup3, ← R7.out_tiles]
  iintro ⟨Ht, Hi, Ho⟩
  ihave Ht' := (R7.toks_tiles (m (R7.tLoc d))) $$ Ht
  icases Ht' with ⟨Htd, Htt⟩
  ihave Hi' := (R7.toks_tiles (m (R7.iLoc d))) $$ Hi
  icases Hi' with ⟨Hid, Hit⟩
  isplitl [Htd Hid]
  · isplitl [Htd] <;> iassumption
  isplitl [Htt]; · iexact Htt
  isplitl [Hit]; · iexact Hit
  iexact Ho

/-- After it: the tiles' rows, each a restriction of the one whole-array function, are the result whole at that function. -/
theorem dn7_elim (d : Dev nD) :
    (bigSep Finset.univ fun c : Fin ((K (F := F)).nCore 7) => (P m).dn 7 d c) ⊢ (R7.oLoc d ↦{fullShare} R7.G m d : sProp 𝕄) := by
  rw [dn7_eq]; unfold R7.td
  rw [← R7.out_tiles]

variable [FloatOps F] in
/-- The TensorCore at call 7: from the call's three arrays whole at the launch memory to `fin7`. -/
theorem call7 (κ : GSem nD τ sig → ℕ) (d : Dev nD) (Φ : PUnit → sProp 𝕄) :
    iprop((K (F := F)).ctx EH (P m) κ ∗ (K (F := F)).tcSt EH d 7
        ∗ ((R7.tLoc d ↦{fullShare} m (R7.tLoc d)) ∗ (R7.iLoc d ↦{fullShare} m (R7.iLoc d)) ∗ (R7.oLoc d ↦{fullShare} m (R7.oLoc d)))
        ∗ (((K (F := F)).tcSt EH d 8 ∗ fin7 m d) -∗ Φ ⟨⟩))
      ⊢ wp frame (wpE ((K (F := F)).defs (D (F := F))) 𝒱 (SparseCore.T d) none) Set.univ ((K (F := F)).run d 7) Φ := by
  iintro ⟨#Hctx, Hst, Hb, Hk⟩
  ihave Hb' := (st7_intro m d) $$ Hb
  icases Hb' with ⟨⟨Htd, Hid⟩, Hgo⟩
  iapply ((K (F := F)).wp_run (D (F := F)) 𝒱 (EH := EH) (P := P m) κ d 7) $$ [Hst Hgo Hk Htd Hid]
  isplitr; · iexact Hctx
  isplitl [Hst]; · iexact Hst
  isplitl [Hgo]; · iexact Hgo
  iintro ⟨Hst, Hdn⟩
  iapply Hk
  isplitl [Hst]; · iexact Hst
  unfold fin7
  isplitl [Htd]; · iexact Htd
  isplitl [Hid]; · iexact Hid
  iapply (dn7_elim m d); iexact Hdn

/-- Under the state interpretation, what call 7 leaves pins its result, its table and its index array in the final memory. -/
theorem fin7_agree (d : Dev nD) (s' : Phys nD τ sig (Elt F)) :
    iprop(fin7 m d ∗ SI s') ⊢ (iprop(⌜s'.mem.mem (R7.oLoc d) = R7.G m d ∧ s'.mem.mem (R7.tLoc d) = m (R7.tLoc d) ∧ s'.mem.mem (R7.iLoc d) = m (R7.iLoc d)⌝ ∗ SI s') : sProp 𝕄) := by
  unfold fin7
  iintro ⟨⟨Ht, Hi, Ho⟩, HSI⟩
  ihave H := (agree_whole s') $$ [HSI Ht]
  · isplitl [HSI] <;> iassumption
  icases H with ⟨%ht, HSI⟩
  ihave H := (agree_whole s') $$ [HSI Hi]
  · isplitl [HSI] <;> iassumption
  icases H with ⟨%hi, HSI⟩
  ihave H := (agree_whole s') $$ [HSI Ho]
  · isplitl [HSI] <;> iassumption
  icases H with ⟨%ho, HSI⟩
  isplitr
  · ipureintro; exact ⟨ho, ht, hi⟩
  · iexact HSI

/-! ## @main on the TensorCore -/

set_option maxHeartbeats 2000000 in
/-- The TensorCore's arrays, all unscoped: the sixteen arguments and the eight results. -/
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0)
      ∗ ((SparseCore.T d).loc main_arg1 ↦{fullShare} W main_arg1)
      ∗ ((SparseCore.T d).loc main_arg2 ↦{fullShare} W main_arg2)
      ∗ ((SparseCore.T d).loc main_arg3 ↦{fullShare} W main_arg3)
      ∗ ((SparseCore.T d).loc main_arg4 ↦{fullShare} W main_arg4)
      ∗ ((SparseCore.T d).loc main_arg5 ↦{fullShare} W main_arg5)
      ∗ ((SparseCore.T d).loc main_arg6 ↦{fullShare} W main_arg6)
      ∗ ((SparseCore.T d).loc main_arg7 ↦{fullShare} W main_arg7)
      ∗ ((SparseCore.T d).loc main_arg8 ↦{fullShare} W main_arg8)
      ∗ ((SparseCore.T d).loc main_arg9 ↦{fullShare} W main_arg9)
      ∗ ((SparseCore.T d).loc main_arg10 ↦{fullShare} W main_arg10)
      ∗ ((SparseCore.T d).loc main_arg11 ↦{fullShare} W main_arg11)
      ∗ ((SparseCore.T d).loc main_arg12 ↦{fullShare} W main_arg12)
      ∗ ((SparseCore.T d).loc main_arg13 ↦{fullShare} W main_arg13)
      ∗ ((SparseCore.T d).loc main_arg14 ↦{fullShare} W main_arg14)
      ∗ ((SparseCore.T d).loc main_arg15 ↦{fullShare} W main_arg15)
      ∗ ((SparseCore.T d).loc main_v0 ↦{fullShare} W main_v0)
      ∗ ((SparseCore.T d).loc main_v1 ↦{fullShare} W main_v1)
      ∗ ((SparseCore.T d).loc main_v2 ↦{fullShare} W main_v2)
      ∗ ((SparseCore.T d).loc main_v3 ↦{fullShare} W main_v3)
      ∗ ((SparseCore.T d).loc main_v4 ↦{fullShare} W main_v4)
      ∗ ((SparseCore.T d).loc main_v5 ↦{fullShare} W main_v5)
      ∗ ((SparseCore.T d).loc main_v6 ↦{fullShare} W main_v6)
      ∗ ((SparseCore.T d).loc main_v7 ↦{fullShare} W main_v7)) := by
  unfold unscopedBufs
  rw [show (Finset.univ.filter fun b : Ref sig .tc => ¬ b.isScoped) = {main_arg0, main_arg1, main_arg2, main_arg3, main_arg4, main_arg5, main_arg6, main_arg7, main_arg8, main_arg9, main_arg10, main_arg11, main_arg12, main_arg13, main_arg14, main_arg15, main_v0, main_v1, main_v2, main_v3, main_v4, main_v5, main_v6, main_v7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- What @main leaves the claim. -/
def FIN (d : Dev nD) : sProp 𝕄 :=
  iprop(fin0 m d ∗ fin1 m d ∗ fin2 m d ∗ fin3 m d ∗ fin4 m d ∗ fin5 m d ∗ fin6 m d ∗ fin7 m d)

variable [FloatOps F] in
/-- @main on device `d`'s TensorCore: the eight calls in turn, each from its three arrays whole at the launch memory. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 8 ∗ FIN m d) := by
  unfold SparseCore.Cfg.tcRes
  rw [unscopedBufs_eq]
  simp only [main, wp_bind, wp_pure]
  iintro ⟨#Hctx, Hst, ⟨-, ⟨Ha0, Ha1, Ha2, Ha3, Ha4, Ha5, Ha6, Ha7, Ha8, Ha9, Ha10, Ha11, Ha12, Ha13, Ha14, Ha15, Hv0, Hv1, Hv2, Hv3, Hv4, Hv5, Hv6, Hv7⟩, -, -⟩, -⟩
  -- call 0
  iapply (call0 m κ d _)
  isplitr; · iexact Hctx
  isplitl [Hst]; · iexact Hst
  isplitl [Ha0 Ha8 Hv0]
  · isplitl [Ha0]; · iexact Ha0
    isplitl [Ha8]; · iexact Ha8
    iexact Hv0
  iintro ⟨Hst, Hf0⟩
  -- call 1
  iapply (call1 m κ d _)
  isplitr; · iexact Hctx
  isplitl [Hst]; · iexact Hst
  isplitl [Ha1 Ha9 Hv1]
  · isplitl [Ha1]; · iexact Ha1
    isplitl [Ha9]; · iexact Ha9
    iexact Hv1
  iintro ⟨Hst, Hf1⟩
  -- call 2
  iapply (call2 m κ d _)
  isplitr; · iexact Hctx
  isplitl [Hst]; · iexact Hst
  isplitl [Ha2 Ha10 Hv2]
  · isplitl [Ha2]; · iexact Ha2
    isplitl [Ha10]; · iexact Ha10
    iexact Hv2
  iintro ⟨Hst, Hf2⟩
  -- call 3
  iapply (call3 m κ d _)
  isplitr; · iexact Hctx
  isplitl [Hst]; · iexact Hst
  isplitl [Ha3 Ha11 Hv3]
  · isplitl [Ha3]; · iexact Ha3
    isplitl [Ha11]; · iexact Ha11
    iexact Hv3
  iintro ⟨Hst, Hf3⟩
  -- call 4
  iapply (call4 m κ d _)
  isplitr; · iexact Hctx
  isplitl [Hst]; · iexact Hst
  isplitl [Ha4 Ha12 Hv4]
  · isplitl [Ha4]; · iexact Ha4
    isplitl [Ha12]; · iexact Ha12
    iexact Hv4
  iintro ⟨Hst, Hf4⟩
  -- call 5
  iapply (call5 m κ d _)
  isplitr; · iexact Hctx
  isplitl [Hst]; · iexact Hst
  isplitl [Ha5 Ha13 Hv5]
  · isplitl [Ha5]; · iexact Ha5
    isplitl [Ha13]; · iexact Ha13
    iexact Hv5
  iintro ⟨Hst, Hf5⟩
  -- call 6
  iapply (call6 m κ d _)
  isplitr; · iexact Hctx
  isplitl [Hst]; · iexact Hst
  isplitl [Ha6 Ha14 Hv6]
  · isplitl [Ha6]; · iexact Ha6
    isplitl [Ha14]; · iexact Ha14
    iexact Hv6
  iintro ⟨Hst, Hf6⟩
  -- call 7
  iapply (call7 m κ d _)
  isplitr; · iexact Hctx
  isplitl [Hst]; · iexact Hst
  isplitl [Ha7 Ha15 Hv7]
  · isplitl [Ha7]; · iexact Ha7
    isplitl [Ha15]; · iexact Ha15
    iexact Hv7
  iintro ⟨Hst, Hf7⟩
  imodintro
  isplitl [Hst]; · iexact Hst
  unfold FIN
  isplitl [Hf0]; · iexact Hf0
  isplitl [Hf1]; · iexact Hf1
  isplitl [Hf2]; · iexact Hf2
  isplitl [Hf3]; · iexact Hf3
  isplitl [Hf4]; · iexact Hf4
  isplitl [Hf5]; · iexact Hf5
  isplitl [Hf6]; · iexact Hf6
  iexact Hf7

/-! ## Reading the claim off the final memory -/

def fq (d : Dev nD) (s' : Phys nD τ sig (Elt F)) : Prop :=
  s'.mem.mem (R0.oLoc d) = R0.G m d
    ∧ s'.mem.mem (R1.oLoc d) = R1.G m d
    ∧ s'.mem.mem (R2.oLoc d) = R2.G m d
    ∧ s'.mem.mem (R3.oLoc d) = R3.G m d
    ∧ s'.mem.mem (R4.oLoc d) = R4.G m d
    ∧ s'.mem.mem (R5.oLoc d) = R5.G m d
    ∧ s'.mem.mem (R6.oLoc d) = R6.G m d
    ∧ s'.mem.mem (R7.oLoc d) = R7.G m d
    ∧ s'.mem.mem (R0.tLoc d) = m (R0.tLoc d)
    ∧ s'.mem.mem (R1.tLoc d) = m (R1.tLoc d)
    ∧ s'.mem.mem (R2.tLoc d) = m (R2.tLoc d)
    ∧ s'.mem.mem (R3.tLoc d) = m (R3.tLoc d)
    ∧ s'.mem.mem (R4.tLoc d) = m (R4.tLoc d)
    ∧ s'.mem.mem (R5.tLoc d) = m (R5.tLoc d)
    ∧ s'.mem.mem (R6.tLoc d) = m (R6.tLoc d)
    ∧ s'.mem.mem (R7.tLoc d) = m (R7.tLoc d)
    ∧ s'.mem.mem (R0.iLoc d) = m (R0.iLoc d)
    ∧ s'.mem.mem (R1.iLoc d) = m (R1.iLoc d)
    ∧ s'.mem.mem (R2.iLoc d) = m (R2.iLoc d)
    ∧ s'.mem.mem (R3.iLoc d) = m (R3.iLoc d)
    ∧ s'.mem.mem (R4.iLoc d) = m (R4.iLoc d)
    ∧ s'.mem.mem (R5.iLoc d) = m (R5.iLoc d)
    ∧ s'.mem.mem (R6.iLoc d) = m (R6.iLoc d)
    ∧ s'.mem.mem (R7.iLoc d) = m (R7.iLoc d)

theorem hfin (d : Dev nD) (s' : Phys nD τ sig (Elt F)) : iprop(FIN m d ∗ SI s') ⊢ (⌜fq m d s'⌝ : sProp 𝕄) := by
  unfold FIN
  iintro ⟨⟨H0, H1, H2, H3, H4, H5, H6, H7⟩, HSI⟩
  ihave H := (fin0_agree m d s') $$ [H0 HSI]
  · isplitl [H0] <;> iassumption
  icases H with ⟨%h0, HSI⟩
  ihave H := (fin1_agree m d s') $$ [H1 HSI]
  · isplitl [H1] <;> iassumption
  icases H with ⟨%h1, HSI⟩
  ihave H := (fin2_agree m d s') $$ [H2 HSI]
  · isplitl [H2] <;> iassumption
  icases H with ⟨%h2, HSI⟩
  ihave H := (fin3_agree m d s') $$ [H3 HSI]
  · isplitl [H3] <;> iassumption
  icases H with ⟨%h3, HSI⟩
  ihave H := (fin4_agree m d s') $$ [H4 HSI]
  · isplitl [H4] <;> iassumption
  icases H with ⟨%h4, HSI⟩
  ihave H := (fin5_agree m d s') $$ [H5 HSI]
  · isplitl [H5] <;> iassumption
  icases H with ⟨%h5, HSI⟩
  ihave H := (fin6_agree m d s') $$ [H6 HSI]
  · isplitl [H6] <;> iassumption
  icases H with ⟨%h6, HSI⟩
  ihave H := (fin7_agree m d s') $$ [H7 HSI]
  · isplitl [H7] <;> iassumption
  icases H with ⟨%h7, HSI⟩
  ipureintro
  exact ⟨h0.1, h1.1, h2.1, h3.1, h4.1, h5.1, h6.1, h7.1, h0.2.1, h1.2.1, h2.2.1, h3.2.1, h4.2.1, h5.2.1, h6.2.1, h7.2.1, h0.2.2, h1.2.2, h2.2.2, h3.2.2, h4.2.2, h5.2.2, h6.2.2, h7.2.2⟩

/-! ## The program's run -/

theorem kind_ne (q : Fin 8) : (K (F := F)).kind q ≠ .scScalar :=
  show scKind q ≠ .scScalar from by revert q; decide

/-- The idealized kernel's program runs to completion from the launch memory `m`, ending with each result the lookup's
    value on its table and index array, and every argument as the launch left it. -/
theorem run [FloatOps F] [∀ e, Nonempty (Elt F e)] (m : (ℓ : Loc nD τ sig) → Buf (Elt F) ℓ) (ρ : Dev nD → PrngReg)
    (hb0 : R0.TileBody m) (hb1 : R1.TileBody m) (hb2 : R2.TileBody m) (hb3 : R3.TileBody m) (hb4 : R4.TileBody m) (hb5 : R5.TileBody m) (hb6 : R6.TileBody m) (hb7 : R7.TileBody m) :
    θ_run (Cert.KernelIdeal.defs (F := F)) (Cert.KernelIdeal.threads (F := F)) ⟨m, fun _ => 0, ρ⟩
      (fun r => ∀ c : Dev nD,
          r.2.mem ((c.tc : Thread nD τ).loc main_v0) = R0.G m c
          ∧ r.2.mem ((c.tc : Thread nD τ).loc main_v1) = R1.G m c
          ∧ r.2.mem ((c.tc : Thread nD τ).loc main_v2) = R2.G m c
          ∧ r.2.mem ((c.tc : Thread nD τ).loc main_v3) = R3.G m c
          ∧ r.2.mem ((c.tc : Thread nD τ).loc main_v4) = R4.G m c
          ∧ r.2.mem ((c.tc : Thread nD τ).loc main_v5) = R5.G m c
          ∧ r.2.mem ((c.tc : Thread nD τ).loc main_v6) = R6.G m c
          ∧ r.2.mem ((c.tc : Thread nD τ).loc main_v7) = R7.G m c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)
          ∧ r.2.mem ((c.tc : Thread nD τ).loc main_arg8) = m ((c.tc : Thread nD τ).loc main_arg8)
          ∧ r.2.mem ((c.tc : Thread nD τ).loc main_arg9) = m ((c.tc : Thread nD τ).loc main_arg9)
          ∧ r.2.mem ((c.tc : Thread nD τ).loc main_arg10) = m ((c.tc : Thread nD τ).loc main_arg10)
          ∧ r.2.mem ((c.tc : Thread nD τ).loc main_arg11) = m ((c.tc : Thread nD τ).loc main_arg11)
          ∧ r.2.mem ((c.tc : Thread nD τ).loc main_arg12) = m ((c.tc : Thread nD τ).loc main_arg12)
          ∧ r.2.mem ((c.tc : Thread nD τ).loc main_arg13) = m ((c.tc : Thread nD τ).loc main_arg13)
          ∧ r.2.mem ((c.tc : Thread nD τ).loc main_arg14) = m ((c.tc : Thread nD τ).loc main_arg14)
          ∧ r.2.mem ((c.tc : Thread nD τ).loc main_arg15) = m ((c.tc : Thread nD τ).loc main_arg15)) :=
  SparseCore.Cfg.θ_run_sc (K := K (F := F)) (D := D (F := F)) (𝒱 := 𝒱) (EH := EH) (P := P m) facts v₀
    (fun q hq => absurd hq (kind_ne q))
    (fun q _ => match q with
      | 0 => tileObl0 m hb0
      | 1 => tileObl1 m hb1
      | 2 => tileObl2 m hb2
      | 3 => tileObl3 m hb3
      | 4 => tileObl4 m hb4
      | 5 => tileObl5 m hb5
      | 6 => tileObl6 m hb6
      | 7 => tileObl7 m hb7)
    (fun q _ => SparseCore.Cfg.VecSplit.of_plain (vecSplit m q))
    m ρ main (fun _ => iprop(emp)) (FIN m) (u₀ (F := F)) (sep_elim_left.trans (hu₀ m)) (hmain m ρ) (fq m) (hfin m) _ (fun _ h => h)

end Cert.Proof.KI

end
-- ==== Proof.KITileDefs0.lean ====
/-
  The tile's own names for call 0's body: its thread, its two DMA semaphores' cells, its scoped storage opened to
  the scratch and those two cells, the batch of the 512 row copies (each copy's delivery: its row of the result at
  the lookup's value), and what a copy needs before it is started.
-/
import proofs.«218896_g85959475462175_cont_9to1_m_647_27_alg».proof.Proof.KIRes0

noncomputable section

namespace Cert.Proof.KI.R0

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

abbrev thr : Thread nD τ := V d (cV L) (jV L)
abbrev cS : GSem nD τ sig := (thr d L, .dma cc0_scoped0.sem)
abbrev cB : GSem nD τ sig := (thr d L, .dma cc0_scratch1.sem)

theorem ownSems0_V :
    (ownSems0 (thr d L) : sProp 𝕄)
      = iprop(semVal (cS d L) 0 ∗ semVal (cB d L) 0 ∗ bigSep (((ownCells (thr d L)).erase (cS d L)).erase (cB d L)) fun g => semVal g 0) := by
  unfold SparseCore.Cfg.ownSems0
  rw [SparseCore.bigSep_erase' ((mem_ownCells (g := cS d L)).mpr ⟨rfl, by
      show (SemLoc.dma cc0_scoped0.sem : SemLoc sig).isScoped .scVector = true; decide⟩),
    SparseCore.bigSep_erase' (Finset.mem_erase.mpr ⟨by simp [cS, cB]; decide, (mem_ownCells (g := cB d L)).mpr ⟨rfl, by
      show (SemLoc.dma cc0_scratch1.sem : SemLoc sig).isScoped .scVector = true; decide⟩⟩)]

theorem ownBufs_V :
    (ownBufs (thr d L) : sProp 𝕄)
      = iprop((∃ f, (thr d L).loc scrScv ↦{fullShare} f)
          ∗ bigSep ((ownRefs (τ := τ) (.scVector (cV L) (jV L))).erase ((Proc.scVector (cV L) (jV L)).devRef scrScv))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef scrScv) rfl)

omit m in
theorem pts_i (q : PosShare TreeShare) (f : Buf (Elt F) (iLoc d)) :
    ((iW : Memref sig .scVector .hbm S16384 .i32).view.loc (thr d L) ↦{q} f : sProp 𝕄) = iLoc d ↦{q} f := rfl
omit m in
theorem pts_t (q : PosShare TreeShare) (f : Buf (Elt F) (tLoc d)) :
    ((tW : Memref sig .scVector .hbm TS .f32).view.loc (thr d L) ↦{q} f : sProp 𝕄) = tLoc d ↦{q} f := rfl
omit m in
theorem pts_s (f : Buf (Elt F) ((thr d L).loc scrScv)) :
    ((sW : Memref sig .scVector .vmem S512 .i32).view.loc (thr d L) ↦{fullShare} f : sProp 𝕄) = (thr d L).loc scrScv ↦{fullShare} f := rfl

/-- The counters of the tile's own copies. -/
abbrev EC : UEmb Counters (MT nD τ sig (HIx 8) (Elt F) ℕ UU ℕ) := countersEmb (U := UU)

/-- Row 0 of the result as the waits name it: any row's credit. -/
abbrev row0 : Memref sig .scVector .hbm S64 .f32 :=
  ((oW : Memref sig .scVector .hbm S16384x64 .f32).slice (Rect.unit (s := S16384x64) ![0, 0] S1x64.size inb_S16384x64_S1x64_0_0) (fun _ => rfl)).squeeze S64 squeezes_S1x64_S64
abbrev N : ℕ := (row0).view.dmaCredit

/-- The tile's read token of the table. -/
abbrev tsh : PosShare TreeShare := Transfers.shareTok fullShare 32 (wid L)

/-- Copy `t` of the 512 delivers row `t` of the tile's rows holding the lookup's value. -/
def Dl (t : Fin 512) : sProp 𝕄 := oLoc d ↦[rowSet (tileRow L t)]{fullShare} G m d

instance Dl_storable (t : Fin 512) : BI.Storable (upEmb : UEmb _ 𝕄) (Dl m d L t) := by unfold Dl; infer_instance

/-- What copy `t` needs before it is started: its own read token of the table, and its row of the result. -/
def Rk (t : Fin 512) : sProp 𝕄 :=
  iprop((tLoc d ↦{Transfers.shareTok (tsh L) 512 t} m (tLoc d)) ∗ (oLoc d ↦[rowSet (tileRow L t)]{fullShare} m (oLoc d)))

/-- The scratch holds the tile's 512 index words. -/
def Holds (sc : Buf (Elt F) ((sW : Memref sig .scVector .vmem S512 .i32).view.loc (thr d L))) : Prop :=
  ∀ t : Fin 512, sc (ValueIdx.ix1 t) = m (iLoc d) (ValueIdx.ix1 (tileRow L t))

end Cert.Proof.KI.R0

end
-- ==== Proof.KIView0.lean ====
/-
  Call 0 of the eight: what the tile's memory accesses address and read, as plain facts about index sets and
  contents, with no program logic in them.

  The tile at grid coordinates L owns result rows base L … base L + 511. It copies index words base L … base L + 511
  into its 512-word scratch (scratch_holds: word t of the scratch is then word base L + t of the index array);
  in trip g it loads the sixteen scratch words 16g … 16g + 15 (loaded_word) and takes them apart one at a time
  (word_0 … word_15); for each word w it copies table row w, when w names a row (chk_of_lt_N), onto one result row
  (set_dstRow: the destination is exactly that row's set of indices; write_row: after the copy the row holds table row w,
  column by column). G_row is the lookup's value at one index, and mem_rowSet_fst says that an index of row r's set has
  first coordinate r.
-/
import proofs.«218896_g85959475462175_cont_9to1_m_647_27_alg».proof.Proof.KIRes0

noncomputable section

namespace Cert.Proof.KI.R0

open Cert.KernelIdeal Cert.KernelIdeal.Gen Cert.Proof.KI

open Idealize.ShloMosaic
open Idealize.ShloMosaic.SparseCore (S V T)

variable {F : FTy → Type}

/-! ## A word that names a row passes the copy's side condition -/

theorem chk_of_lt_1 {w : BitVec 32} (h : w.toNat < nRows) : k0_chk1 w := fun a =>
  match a with
  | 0 => show w.toNat + 1 ≤ nRows from h
  | 1 => show 0 + 64 ≤ 64 from Nat.le_refl _
theorem chk_of_lt_2 {w : BitVec 32} (h : w.toNat < nRows) : k0_chk2 w := fun a =>
  match a with
  | 0 => show w.toNat + 1 ≤ nRows from h
  | 1 => show 0 + 64 ≤ 64 from Nat.le_refl _
theorem chk_of_lt_3 {w : BitVec 32} (h : w.toNat < nRows) : k0_chk3 w := fun a =>
  match a with
  | 0 => show w.toNat + 1 ≤ nRows from h
  | 1 => show 0 + 64 ≤ 64 from Nat.le_refl _
theorem chk_of_lt_4 {w : BitVec 32} (h : w.toNat < nRows) : k0_chk4 w := fun a =>
  match a with
  | 0 => show w.toNat + 1 ≤ nRows from h
  | 1 => show 0 + 64 ≤ 64 from Nat.le_refl _
theorem chk_of_lt_5 {w : BitVec 32} (h : w.toNat < nRows) : k0_chk5 w := fun a =>
  match a with
  | 0 => show w.toNat + 1 ≤ nRows from h
  | 1 => show 0 + 64 ≤ 64 from Nat.le_refl _
theorem chk_of_lt_6 {w : BitVec 32} (h : w.toNat < nRows) : k0_chk6 w := fun a =>
  match a with
  | 0 => show w.toNat + 1 ≤ nRows from h
  | 1 => show 0 + 64 ≤ 64 from Nat.le_refl _
theorem chk_of_lt_7 {w : BitVec 32} (h : w.toNat < nRows) : k0_chk7 w := fun a =>
  match a with
  | 0 => show w.toNat + 1 ≤ nRows from h
  | 1 => show 0 + 64 ≤ 64 from Nat.le_refl _
theorem chk_of_lt_8 {w : BitVec 32} (h : w.toNat < nRows) : k0_chk8 w := fun a =>
  match a with
  | 0 => show w.toNat + 1 ≤ nRows from h
  | 1 => show 0 + 64 ≤ 64 from Nat.le_refl _
theorem chk_of_lt_9 {w : BitVec 32} (h : w.toNat < nRows) : k0_chk9 w := fun a =>
  match a with
  | 0 => show w.toNat + 1 ≤ nRows from h
  | 1 => show 0 + 64 ≤ 64 from Nat.le_refl _
theorem chk_of_lt_10 {w : BitVec 32} (h : w.toNat < nRows) : k0_chk10 w := fun a =>
  match a with
  | 0 => show w.toNat + 1 ≤ nRows from h
  | 1 => show 0 + 64 ≤ 64 from Nat.le_refl _
theorem chk_of_lt_11 {w : BitVec 32} (h : w.toNat < nRows) : k0_chk11 w := fun a =>
  match a with
  | 0 => show w.toNat + 1 ≤ nRows from h
  | 1 => show 0 + 64 ≤ 64 from Nat.le_refl _
theorem chk_of_lt_12 {w : BitVec 32} (h : w.toNat < nRows) : k0_chk12 w := fun a =>
  match a with
  | 0 => show w.toNat + 1 ≤ nRows from h
  | 1 => show 0 + 64 ≤ 64 from Nat.le_refl _
theorem chk_of_lt_13 {w : BitVec 32} (h : w.toNat < nRows) : k0_chk13 w := fun a =>
  match a with
  | 0 => show w.toNat + 1 ≤ nRows from h
  | 1 => show 0 + 64 ≤ 64 from Nat.le_refl _
theorem chk_of_lt_14 {w : BitVec 32} (h : w.toNat < nRows) : k0_chk14 w := fun a =>
  match a with
  | 0 => show w.toNat + 1 ≤ nRows from h
  | 1 => show 0 + 64 ≤ 64 from Nat.le_refl _
theorem chk_of_lt_15 {w : BitVec 32} (h : w.toNat < nRows) : k0_chk15 w := fun a =>
  match a with
  | 0 => show w.toNat + 1 ≤ nRows from h
  | 1 => show 0 + 64 ≤ 64 from Nat.le_refl _
theorem chk_of_lt_16 {w : BitVec 32} (h : w.toNat < nRows) : k0_chk16 w := fun a =>
  match a with
  | 0 => show w.toNat + 1 ≤ nRows from h
  | 1 => show 0 + 64 ≤ 64 from Nat.le_refl _

/-! ## The sixteen words of a load, one at a time -/

theorem word_0 (v7 : Vec F S16 .i32) : extractAt ![0] (k0_pay1 v7) inpos_S1_p0 = v7 (ValueIdx.ix1 ⟨0, by decide⟩) := by
  unfold k0_pay1 extractAt extractStridedSlice
  exact congrArg v7 (funext fun a => by obtain rfl : a = 0 := Subsingleton.elim _ _; rfl)
theorem word_1 (v7 : Vec F S16 .i32) : extractAt ![0] (k0_pay2 v7) inpos_S1_p0 = v7 (ValueIdx.ix1 ⟨1, by decide⟩) := by
  unfold k0_pay2 extractAt extractStridedSlice
  exact congrArg v7 (funext fun a => by obtain rfl : a = 0 := Subsingleton.elim _ _; rfl)
theorem word_2 (v7 : Vec F S16 .i32) : extractAt ![0] (k0_pay3 v7) inpos_S1_p0 = v7 (ValueIdx.ix1 ⟨2, by decide⟩) := by
  unfold k0_pay3 extractAt extractStridedSlice
  exact congrArg v7 (funext fun a => by obtain rfl : a = 0 := Subsingleton.elim _ _; rfl)
theorem word_3 (v7 : Vec F S16 .i32) : extractAt ![0] (k0_pay4 v7) inpos_S1_p0 = v7 (ValueIdx.ix1 ⟨3, by decide⟩) := by
  unfold k0_pay4 extractAt extractStridedSlice
  exact congrArg v7 (funext fun a => by obtain rfl : a = 0 := Subsingleton.elim _ _; rfl)
theorem word_4 (v7 : Vec F S16 .i32) : extractAt ![0] (k0_pay5 v7) inpos_S1_p0 = v7 (ValueIdx.ix1 ⟨4, by decide⟩) := by
  unfold k0_pay5 extractAt extractStridedSlice
  exact congrArg v7 (funext fun a => by obtain rfl : a = 0 := Subsingleton.elim _ _; rfl)
theorem word_5 (v7 : Vec F S16 .i32) : extractAt ![0] (k0_pay6 v7) inpos_S1_p0 = v7 (ValueIdx.ix1 ⟨5, by decide⟩) := by
  unfold k0_pay6 extractAt extractStridedSlice
  exact congrArg v7 (funext fun a => by obtain rfl : a = 0 := Subsingleton.elim _ _; rfl)
theorem word_6 (v7 : Vec F S16 .i32) : extractAt ![0] (k0_pay7 v7) inpos_S1_p0 = v7 (ValueIdx.ix1 ⟨6, by decide⟩) := by
  unfold k0_pay7 extractAt extractStridedSlice
  exact congrArg v7 (funext fun a => by obtain rfl : a = 0 := Subsingleton.elim _ _; rfl)
theorem word_7 (v7 : Vec F S16 .i32) : extractAt ![0] (k0_pay8 v7) inpos_S1_p0 = v7 (ValueIdx.ix1 ⟨7, by decide⟩) := by
  unfold k0_pay8 extractAt extractStridedSlice
  exact congrArg v7 (funext fun a => by obtain rfl : a = 0 := Subsingleton.elim _ _; rfl)
theorem word_8 (v7 : Vec F S16 .i32) : extractAt ![0] (k0_pay9 v7) inpos_S1_p0 = v7 (ValueIdx.ix1 ⟨8, by decide⟩) := by
  unfold k0_pay9 extractAt extractStridedSlice
  exact congrArg v7 (funext fun a => by obtain rfl : a = 0 := Subsingleton.elim _ _; rfl)
theorem word_9 (v7 : Vec F S16 .i32) : extractAt ![0] (k0_pay10 v7) inpos_S1_p0 = v7 (ValueIdx.ix1 ⟨9, by decide⟩) := by
  unfold k0_pay10 extractAt extractStridedSlice
  exact congrArg v7 (funext fun a => by obtain rfl : a = 0 := Subsingleton.elim _ _; rfl)
theorem word_10 (v7 : Vec F S16 .i32) : extractAt ![0] (k0_pay11 v7) inpos_S1_p0 = v7 (ValueIdx.ix1 ⟨10, by decide⟩) := by
  unfold k0_pay11 extractAt extractStridedSlice
  exact congrArg v7 (funext fun a => by obtain rfl : a = 0 := Subsingleton.elim _ _; rfl)
theorem word_11 (v7 : Vec F S16 .i32) : extractAt ![0] (k0_pay12 v7) inpos_S1_p0 = v7 (ValueIdx.ix1 ⟨11, by decide⟩) := by
  unfold k0_pay12 extractAt extractStridedSlice
  exact congrArg v7 (funext fun a => by obtain rfl : a = 0 := Subsingleton.elim _ _; rfl)
theorem word_12 (v7 : Vec F S16 .i32) : extractAt ![0] (k0_pay13 v7) inpos_S1_p0 = v7 (ValueIdx.ix1 ⟨12, by decide⟩) := by
  unfold k0_pay13 extractAt extractStridedSlice
  exact congrArg v7 (funext fun a => by obtain rfl : a = 0 := Subsingleton.elim _ _; rfl)
theorem word_13 (v7 : Vec F S16 .i32) : extractAt ![0] (k0_pay14 v7) inpos_S1_p0 = v7 (ValueIdx.ix1 ⟨13, by decide⟩) := by
  unfold k0_pay14 extractAt extractStridedSlice
  exact congrArg v7 (funext fun a => by obtain rfl : a = 0 := Subsingleton.elim _ _; rfl)
theorem word_14 (v7 : Vec F S16 .i32) : extractAt ![0] (k0_pay15 v7) inpos_S1_p0 = v7 (ValueIdx.ix1 ⟨14, by decide⟩) := by
  unfold k0_pay15 extractAt extractStridedSlice
  exact congrArg v7 (funext fun a => by obtain rfl : a = 0 := Subsingleton.elim _ _; rfl)
theorem word_15 (v7 : Vec F S16 .i32) : extractAt ![0] (k0_pay16 v7) inpos_S1_p0 = v7 (ValueIdx.ix1 ⟨15, by decide⟩) := by
  unfold k0_pay16 extractAt extractStridedSlice
  exact congrArg v7 (funext fun a => by obtain rfl : a = 0 := Subsingleton.elim _ _; rfl)

/-! ## The lookup's value at an index; the indices of a row -/

variable (m : (ℓ : Loc nD τ sig) → Buf (Elt F) ℓ)

theorem G_row (d : Dev nD) (r : Fin 16384) (k : Fin 64) :
    G m d (ValueIdx.ix2 r k) = m (tLoc d) (ValueIdx.ix2 (Spec.rowOf nRows nRows_pos (m (iLoc d) (ValueIdx.ix1 r))) k) := by
  unfold G
  exact Spec.gatherRows_apply nRows nRows_pos (m (tLoc d)) (m (iLoc d)) r k

theorem mem_rowSet_fst {r : Fin 16384} {i : S16384x64.Idx} (h : i ∈ rowSet r) : i 0 = r := by
  have h' : i ∈ (row r).set := by rw [← View.set_slice_whole outScv (row r)]; exact h
  rw [Rect.mem_set_unit] at h'
  have h0 := h' 0
  apply Fin.ext
  simp only [Shape.partIx, Shape.partSize] at h0
  have e : S16384x64.size 0 / 16384 = 1 := by decide
  simp only [↓reduceIte, e] at h0
  omega

/-! ## The destination of one row's copy -/

/-- The one-row rectangle at row r is the r-th of the 16384 parts of the result along its first axis. -/
theorem unitRow_eq (r : Fin 16384) (inb : ∀ a, (![r.val, 0] : Fin 2 → Nat) a + S1x64.size a ≤ S16384x64.size a) :
    Rect.unit (s := S16384x64) ![r.val, 0] S1x64.size inb = row r := by
  unfold row Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem set_dstRow (off : Fin 2 → Nat) (inb : ∀ a, off a + S1x64.size a ≤ S16384x64.size a) (r : Fin 16384)
    (hoff : off = ![r.val, 0]) :
    (((oW : Memref sig .scVector .hbm S16384x64 .f32).slice (Rect.unit (s := S16384x64) off S1x64.size inb) (fun _ => rfl)).squeeze S64
        squeezes_S1x64_S64).view.set = rowSet r := by
  subst hoff
  show (((oW : Memref sig .scVector .hbm S16384x64 .f32).view.slice (Rect.unit (s := S16384x64) ![r.val, 0] S1x64.size inb)).reshape S64
      squeezes_S1x64_S64.numel_eq).set = ((oW : Memref sig .scVector .hbm S16384x64 .f32).view.slice (row r)).set
  rw [View.set_reshape]
  exact unitRow_eq r inb ▸ rfl

/-! ## What the scratch holds after the first copy, and what a trip loads from it -/

theorem trips1 : k0_t1_loop.trips = 32 := by decide

theorem word_lt (g : Fin k0_t1_loop.trips) (j : Fin 16) : 16 * g.val + j.val < 512 := by
  have hg : g.val < 32 := Nat.lt_of_lt_of_eq g.isLt trips1
  have hj := j.isLt
  omega

/-- Word j of the sixteen that trip g loads is word 16g + j of the scratch. -/
theorem loaded_word (d : Dev nD) (L : grid0.Coords) (g : Fin k0_t1_loop.trips)
    (s : Buf (Elt F) ((sW : Memref sig .scVector .vmem S512 .i32).view.loc (V d (cV L) (jV L)))) (j : Fin 16) :
    ((sW : Memref sig .scVector .vmem S512 .i32).view.readAt (Elt F)
        (Rect.unit (s := S512) (k0_off2 g) S16.size (k0_off2_inb g)).toLoadRect s) (ValueIdx.ix1 j)
      = s (ValueIdx.ix1 ⟨16 * g.val + j.val, word_lt g j⟩) := by
  rw [View.readAt_apply]
  show s ((Rect.unit (s := S512) (k0_off2 g) S16.size (k0_off2_inb g)).toLoadRect.idx (ValueIdx.ix1 j)) = _
  refine congrArg s (funext fun (a : Fin 1) => Fin.ext ?_)
  obtain rfl : a = 0 := Subsingleton.elim _ _
  rw [LoadRect.idx_apply]
  show (k0_off2 g) 0 + 1 * j.val = 16 * g.val + j.val
  rw [k0_off2_eq]
  simp

/-- Once the first copy has landed, word t of the scratch is word base L + t of the index array. -/
theorem scratch_holds (d : Dev nD) (L : grid0.Coords)
    (fs : Buf (Elt F) ((sW : Memref sig .scVector .vmem S512 .i32).view.loc (V d (cV L) (jV L))))
    (mI : Buf (Elt F) (iLoc d)) (t : Fin 512) :
    ((sW : Memref sig .scVector .vmem S512 .i32).view.write (Elt F) fs
        ((ReadAs.same : ReadAs (Elt F) S512 .i32 S512 .i32).apply
          (((iW : Memref sig .scVector .hbm S16384 .i32).slice (Rect.unit (s := S16384) (k0_off1 L) S512.size (k0_off1_inb L))
              (fun _ => rfl)).view.read (Elt F) mI)) Finset.univ) (ValueIdx.ix1 t)
      = mI (ValueIdx.ix1 (⟨base L + t.val, base_add_lt L t⟩ : Fin 16384)) := by
  show ((View.whole scrScv).write (Elt F) fs
      (((iW : Memref sig .scVector .hbm S16384 .i32).view.slice (Rect.unit (s := S16384) (k0_off1 L) S512.size (k0_off1_inb L))).read (Elt F) mI)
      Finset.univ) (ValueIdx.ix1 t) = _
  rw [View.write_whole_univ, View.read_apply]
  refine (cast_eq _ _).trans ?_
  refine congrArg mI (funext fun (a : Fin 1) => Fin.ext ?_)
  obtain rfl : a = 0 := Subsingleton.elim _ _
  show (k0_off1 L) 0 + 1 * t.val = base L + t.val
  rw [k0_off1_eq]
  unfold base
  simp

/-! ## What one row's copy leaves -/

/-- A word that passes the copy's side condition names a row. -/
theorem lt_of_inb {w : BitVec 32} (hw : ∀ a, (k0_off4 w) a + S1x64.size a ≤ TS.size a) : w.toNat < nRows :=
  show w.toNat + 1 ≤ nRows from hw 0

/-- Column c of the destination row's own indices sits at (r, c) of the result. -/
theorem dst_emb (r : Fin 16384) (inb : ∀ a, (![r.val, 0] : Fin 2 → Nat) a + S1x64.size a ≤ S16384x64.size a) (x : S64.Idx) :
    (((oW : Memref sig .scVector .hbm S16384x64 .f32).slice (Rect.unit (s := S16384x64) ![r.val, 0] S1x64.size inb) (fun _ => rfl)).squeeze S64
        squeezes_S1x64_S64).view.emb x = ValueIdx.ix2 r (x 0) := by
  show (Rect.unit (s := S16384x64) ![r.val, 0] S1x64.size inb).emb (Shape.reshapeEquiv squeezes_S1x64_S64.numel_eq x) = _
  rw [Shape.reshapeEquiv_cons_one]
  funext a
  apply Fin.ext
  match a with
  | 0 => show r.val + 1 * 0 = r.val; omega
  | 1 => show 0 + 1 * (x 0).val = (x 0).val; omega

/-- Column c of the source row's own indices sits at (w, c) of the table. -/
theorem src_emb (w : BitVec 32) (hw : ∀ a, (k0_off4 w) a + S1x64.size a ≤ TS.size a) (x : S64.Idx) :
    (((tW : Memref sig .scVector .hbm TS .f32).slice (Rect.unit (s := TS) (k0_off4 w) S1x64.size hw) (fun _ => rfl)).squeeze S64
        squeezes_S1x64_S64).view.emb x = ValueIdx.ix2 (⟨w.toNat, lt_of_inb hw⟩ : Fin nRows) (x 0) := by
  show (Rect.unit (s := TS) (k0_off4 w) S1x64.size hw).emb (Shape.reshapeEquiv squeezes_S1x64_S64.numel_eq x) = _
  rw [Shape.reshapeEquiv_cons_one]
  funext a
  apply Fin.ext
  match a with
  | 0 => show w.toNat + 1 * 0 = w.toNat; omega
  | 1 => show 0 + 1 * (x 0).val = (x 0).val; omega

/-- After table row w has been copied onto result row r, every index of row r holds the table's entry at row w and the
    index's own column. -/
theorem write_row (d : Dev nD) (L : grid0.Coords) (off : Fin 2 → Nat) (inb : ∀ a, off a + S1x64.size a ≤ S16384x64.size a)
    (r : Fin 16384) (hoff : off = ![r.val, 0]) (w : BitVec 32) (hw : ∀ a, (k0_off4 w) a + S1x64.size a ≤ TS.size a)
    (fT : Buf (Elt F) (tLoc d)) (fO : Buf (Elt F) (oLoc d)) (i : S16384x64.Idx) (hi : i ∈ rowSet r) :
      ((((oW : Memref sig .scVector .hbm S16384x64 .f32).slice (Rect.unit (s := S16384x64) off S1x64.size inb) (fun _ => rfl)).squeeze S64
          squeezes_S1x64_S64).view.write (Elt F) fO
        ((ReadAs.same : ReadAs (Elt F) S64 .f32 S64 .f32).apply
          ((((tW : Memref sig .scVector .hbm TS .f32).slice (Rect.unit (s := TS) (k0_off4 w) S1x64.size hw) (fun _ => rfl)).squeeze S64
            squeezes_S1x64_S64).view.read (Elt F) fT)) Finset.univ) i
        = fT (ValueIdx.ix2 (⟨w.toNat, lt_of_inb hw⟩ : Fin nRows) (i 1)) := by
  subst hoff
  rw [← set_dstRow ![r.val, 0] inb r rfl] at hi
  obtain ⟨x, -, rfl⟩ := Finset.mem_map.mp hi
  rw [View.write_emb_of_mem _ _ (Finset.mem_univ x)]
  refine (cast_eq _ _).trans ?_
  show (((tW : Memref sig .scVector .hbm TS .f32).slice (Rect.unit (s := TS) (k0_off4 w) S1x64.size hw) (fun _ => rfl)).squeeze S64
      squeezes_S1x64_S64).view.read (Elt F) fT x = _
  rw [View.read_apply]
  refine (cast_eq _ _).trans ?_
  rw [src_emb w hw x, dst_emb r inb x]
  rfl

end Cert.Proof.KI.R0

end
-- ==== Proof.KIIssue0.lean ====
/-
  One of the tile's 512 row copies, started as the batch's next transfer. The copy reads the table row that the
  tile's `t`-th index word names and writes the tile's `t`-th row of the result; once it has landed, that row holds
  the lookup's value there: entry `(r, k)` of the result is entry `(idx r, k)` of the table.
-/
import proofs.«218896_g85959475462175_cont_9to1_m_647_27_alg».proof.Proof.KITileDefs0
import proofs.«218896_g85959475462175_cont_9to1_m_647_27_alg».proof.Proof.KIView0

noncomputable section

namespace Cert.Proof.KI.R0

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

variable (m : (ℓ : Loc nD τ sig) → Buf (Elt F) ℓ) (d : Dev nD) (L : grid0.Coords)

/-- A row of the result and a row of the table, as the body slices them. -/
abbrev dstRow (off : Fin 2 → Nat) (inb : ∀ a, off a + S1x64.size a ≤ S16384x64.size a) : Memref sig .scVector .hbm S64 .f32 :=
  ((oW : Memref sig .scVector .hbm S16384x64 .f32).slice (Rect.unit (s := S16384x64) off S1x64.size inb) (fun _ => rfl)).squeeze S64 squeezes_S1x64_S64
abbrev srcRow (w : BitVec 32) (hw : ∀ a, (k0_off4 w) a + S1x64.size a ≤ TS.size a) : Memref sig .scVector .hbm S64 .f32 :=
  ((tW : Memref sig .scVector .hbm TS .f32).slice (Rect.unit (s := TS) (k0_off4 w) S1x64.size hw) (fun _ => rfl)).squeeze S64 squeezes_S1x64_S64

variable [FloatOps F]

/-- What the landed copy leaves in its row is the lookup's value there. -/
theorem landed_eq (t : Fin 512) (off : Fin 2 → Nat) (inb : ∀ a, off a + S1x64.size a ≤ S16384x64.size a)
    (hoff : off = ![(tileRow L t).val, 0]) (w : BitVec 32) (hw : ∀ a, (k0_off4 w) a + S1x64.size a ≤ TS.size a)
    (hwv : w = m (iLoc d) (ValueIdx.ix1 (tileRow L t))) (hlt : w.toNat < nRows)
    (i : S16384x64.Idx) (hi : i ∈ rowSet (tileRow L t)) :
    ((dstRow off inb).view.write (Elt F) (m (oLoc d)) ((ReadAs.same : ReadAs (Elt F) S64 .f32 S64 .f32).apply ((srcRow w hw).view.read (Elt F) (m (tLoc d)))) Finset.univ) i
      = G m d i := by
  rw [write_row d L off inb (tileRow L t) hoff w hw (m (tLoc d)) (m (oLoc d)) i hi]
  obtain ⟨r, k, rfl⟩ : ∃ (r : Fin 16384) (k : Fin 64), i = ValueIdx.ix2 r k := ⟨i 0, i 1, ValueIdx.eq_ix2 i⟩
  have hr : r = tileRow L t := mem_rowSet_fst hi
  subst hr
  show m (tLoc d) (ValueIdx.ix2 _ k) = _
  rw [G_row]
  congr 2
  apply Fin.ext
  show w.toNat = (Spec.rowOf nRows nRows_pos (m (iLoc d) (ValueIdx.ix1 (tileRow L t)))).val
  rw [← hwv, Spec.rowOf_val_of_lt nRows_pos hlt]

/-- The batch's transfer `t`, started: from the copy's own token of the table and its row of the result. -/
theorem wp_issue (t : Fin 512) (off : Fin 2 → Nat) (inb : ∀ a, off a + S1x64.size a ≤ S16384x64.size a)
    (hoff : off = ![(tileRow L t).val, 0]) (w : BitVec 32) (hw : ∀ a, (k0_off4 w) a + S1x64.size a ≤ TS.size a)
    (hwv : w = m (iLoc d) (ValueIdx.ix1 (tileRow L t))) (hlt : w.toNat < nRows)
    {α : Type} {k : PUnit → Prog (TpuEff nD τ sig (Elt F) Λ₀ (thr d L).2) α} {Q : α → sProp 𝕄}
    {hs : (srcRow w hw).view.WordExact} {hd : (dstRow off inb).view.WordExact}
    {hsem : DmaTarget.Typed (nD := nD) Space.hbm (SemLoc.dma cc0_scratch1.sem) (DmaTarget.here (p := (thr d L).2) (dstRow off inb))} :
    iprop(Rk m d L t ∗ Transfers.Batch (EC (F := F)) (thr d L) (.dma cc0_scratch1.sem) (none : HIx 8) N (Dl m d L) t.val 0)
      ⊢ iprop((Transfers.Batch (EC (F := F)) (thr d L) (.dma cc0_scratch1.sem) (none : HIx 8) N (Dl m d L) (t.val + 1) 0
            -∗ wp frame (wpE (defs₀ (F := F)) 𝒱₀ (thr d L) none) Set.univ (k ⟨⟩) Q)
          -∗ wp frame (wpE (defs₀ (F := F)) 𝒱₀ (thr d L) none) Set.univ
              (.op (TpuEff.enqueueDma (srcRow w hw) (DmaTarget.here (p := (thr d L).2) (dstRow off inb)) (.dma cc0_scratch1.sem) hs hd hsem) k) Q) := by
  unfold Rk
  iintro ⟨⟨Htok, Hrow⟩, HB⟩ Hk
  ihave Htok' := ((pointsTo_split_subset (ℓ := tLoc d) (I := (srcRow w hw).view.set) (S := Finset.univ) (Finset.subset_univ _)).1) $$ Htok
  icases Htok' with ⟨Hsrc, -⟩
  iapply (Transfers.wp_dmaBatch (EC (F := F)) 𝒱₀ (thr d L) none (src := srcRow w hw) (dst := dstRow off inb)
      (q := Transfers.shareTok (tsh L) 512 t) (fs := m (tLoc d)) (Sd := rowSet (tileRow L t)) (fd := m (oLoc d)) (D := Dl m d L) (j := t.val) (u := 0)
      (none : HIx 8) N rfl (set_dstRow off inb (tileRow L t) hoff).le t.isLt (Nat.zero_le _) ?hD) $$ [Hsrc Hrow HB]
  case hD =>
    iintro ⟨H, -⟩
    unfold Dl
    iapply (Entails.of_eq (pointsTo_congr (fun i hi => landed_eq m d L t off inb hoff w hw hwv hlt i hi)))
    iexact H
  · isplitl [Hsrc]; · iexact Hsrc
    isplitl [Hrow]; · iexact Hrow
    iexact HB
  iexact Hk

end Cert.Proof.KI.R0

end
-- ==== Proof.KIDrain0.lean ====
/-
  The tile's second loop: 512 waits on the one semaphore that the 512 row copies complete on. Each wait takes one
  copy's units off the counter; copies land in any order, so a wait that is not the last proves nothing about any
  row, and only the last — when all 512 copies' units have been taken — hands back every row holding its value and
  the counter at zero. The invariant before wait k says exactly that: k copies' units consumed and the batch still
  open, or (after the last) every delivery in hand.
-/
import proofs.«218896_g85959475462175_cont_9to1_m_647_27_alg».proof.Proof.KITileDefs0

noncomputable section

namespace Cert.Proof.KI.R0

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- The loop makes 512 trips. -/
theorem trips2 : Scf.trips k0_t2_loop.lb k0_t2_loop.ub k0_t2_loop.st = 512 := by decide

/-- A row's credit is positive. -/
theorem N_pos : 0 < N := View.dmaCredit_pos _ (by decide)

/-- Before wait `k` of the 512: the batch with `k` transfers' units consumed; after the last, every delivery. -/
def inv2 (O : CellTallies nD τ sig (HIx 8)) (W : Waits sig (HIx 8)) (k : ℕ) (_ : Unit) : sProp 𝕄 :=
  iprop(Transfers.MayWaits (thr d L) (none : HIx 8) O
    ∗ ((⌜k < 512⌝ ∗ Transfers.Batch (EC (F := F)) (thr d L) (.dma cc0_scratch1.sem) (none : HIx 8) N (Dl m d L) 512 (k * N)
          ∗ ∃ W', ⌜∀ p ∈ W', p ∈ W ∨ p.2 = none⌝ ∗ owes (thr d L) O W')
      ∨ (⌜k = 512⌝ ∗ bigSep Finset.univ (Dl m d L) ∗ semVal (cB d L) 0 ∗ ∃ W', ⌜∀ p ∈ W', p ∈ W ∨ p.2 = none⌝ ∗ owes (thr d L) O W')))

variable [FloatOps F]

/-- The 512 waits: from the batch with every copy started and nothing consumed, to every row delivered and the counter at
    zero; each wait is recorded at the index of the tile's own copies. -/
theorem drain (O : CellTallies nD τ sig (HIx 8)) (W : Waits sig (HIx 8)) :
    iprop(Transfers.MayWaits (thr d L) (none : HIx 8) O
        ∗ Transfers.Batch (EC (F := F)) (thr d L) (.dma cc0_scratch1.sem) (none : HIx 8) N (Dl m d L) 512 0
        ∗ owes (thr d L) O W)
      ⊢ wp frame (wpE (defs₀ (F := F)) 𝒱₀ (thr d L) none) Set.univ
          (Scf.Loop.for k0_t2_loop k0_t2_ok ⟨⟩ (k0_t2_body L tW (Memref.isWhole_whole _) iW (Memref.isWhole_whole _) oW (Memref.isWhole_whole _) sW (Memref.isWhole_whole _) cc0_scratch1 cc0_scoped0))
          (fun _ => iprop(bigSep Finset.univ (Dl m d L) ∗ semVal (cB d L) 0 ∗ ∃ W', ⌜∀ p ∈ W', p ∈ W ∨ p.2 = none⌝ ∗ owes (thr d L) O W')) := by
  iintro ⟨#Hmw, HB, HO⟩
  sl_for (inv2 m d L O W) $$ [HB HO]
  case region =>
    intro k acc
    have hk : k.val < 512 := Nat.lt_of_lt_of_eq k.isLt trips2
    have e : (k.val + 1) * N = k.val * N + N := by rw [Nat.add_mul, Nat.one_mul]
    unfold inv2
    iintro ⟨#Hmw, H⟩
    sl_exec
    icases H with (⟨-, HB, %W', %hW', HO⟩ | ⟨%hk', -⟩)
    rotate_left
    · exfalso; omega
    ihave Hmw1 := (Transfers.MayWaits.elim (SemLoc.dma cc0_scratch1.sem)) $$ Hmw
    have hW'' : ∀ p ∈ insert (SemLoc.dma cc0_scratch1.sem, (none : HIx 8)) W', p ∈ W ∨ p.2 = none := by
      intro p hp
      rcases Finset.mem_insert.mp hp with hp | hp
      · exact .inr (hp ▸ rfl)
      · exact hW' p hp
    by_cases hlast : k.val + 1 < 512
    · have hu : k.val * N + N < N * 512 := by
        have h1 : (k.val + 1) * N < 512 * N := Nat.mul_lt_mul_of_pos_right hlast N_pos
        rw [e] at h1; rw [Nat.mul_comm N 512]; exact h1
      iapply (Transfers.wp_waitBatchO (EC (F := F)) 𝒱₀ (thr d L) none (none : HIx 8) (N := N) rfl hu) $$ [HB HO Hmw1]
      · isplitl [HB]; · iexact HB
        isplitl [HO]; · iexact HO
        iexact Hmw1
      iintro ⟨HB, HO⟩
      sl_step
      isplitr; · iexact Hmw
      ileft
      isplitr; · ipureintro; exact hlast
      rw [e]
      isplitl [HB]; · iexact HB
      iexists _; isplitr
      · ipureintro; exact hW''
      · iexact HO
    · have hu : k.val * N + N = N * 512 := by
        have h1 : k.val = 511 := by omega
        rw [h1]; omega
      iapply (Transfers.wp_waitBatchLastO (EC (F := F)) 𝒱₀ (thr d L) none (none : HIx 8) (N := N) rfl N_pos hu) $$ [HB HO Hmw1]
      · isplitl [HB]; · iexact HB
        isplitl [HO]; · iexact HO
        iexact Hmw1
      iintro ⟨HD, Hv, HO⟩
      sl_step
      isplitr; · iexact Hmw
      iright
      isplitr; · ipureintro; omega
      isplitl [HD]; · iexact HD
      isplitl [Hv]; · iexact Hv
      iexists _; isplitr
      · ipureintro; exact hW''
      · iexact HO
  rw [trips2]
  isplitl [HB HO]
  · unfold inv2
    isplitr; · iexact Hmw
    ileft
    isplitr; · ipureintro; omega
    rw [Nat.zero_mul]
    isplitl [HB]; · iexact HB
    iexists W; isplitr
    · ipureintro; exact fun p hp => .inl hp
    · iexact HO
  · iintro %acc HI
    unfold inv2
    icases HI with ⟨-, (⟨%h, -⟩ | ⟨-, HD, Hv, HW⟩)⟩
    · exfalso; omega
    isplitl [HD]; · iexact HD
    isplitl [Hv]; · iexact Hv
    iexact HW

end Cert.Proof.KI.R0

end
-- ==== Proof.KITile0.lean ====
/-
  The tile's obligation at call 0: the index words fetched into the scratch, the 512 row copies started sixteen to a
  trip on one semaphore as ONE batch (no copy's source or destination is touched between the first start and the
  last wait), the batch drained by 512 waits, and the rows handed back holding the lookup's value.
-/
import proofs.«218896_g85959475462175_cont_9to1_m_647_27_alg».proof.Proof.KITileDefs0
import proofs.«218896_g85959475462175_cont_9to1_m_647_27_alg».proof.Proof.KIView0
import proofs.«218896_g85959475462175_cont_9to1_m_647_27_alg».proof.Proof.KIIssue0
import proofs.«218896_g85959475462175_cont_9to1_m_647_27_alg».proof.Proof.KIDrain0

noncomputable section

namespace Cert.Proof.KI.R0

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- Before trip `k` of the first loop: the scratch at the landed index words, the first `16 k` copies started and none
    waited for, the later copies' tokens and rows still in hand. -/
def inv1 (k : Nat) (_ : PUnit) : sProp 𝕄 :=
  iprop(∃ sc, ⌜Holds m d L sc⌝ ∗ ((sW : Memref sig .scVector .vmem S512 .i32).view.loc (thr d L) ↦{fullShare} sc)
    ∗ Transfers.Batch (EC (F := F)) (thr d L) (.dma cc0_scratch1.sem) (none : HIx 8) N (Dl m d L) (16 * k) 0
    ∗ bigSep (Transfers.pending (n := 512) (16 * k)) (Rk m d L))

/-- The sixteen words a trip loads. -/
abbrev loaded (k : Fin k0_t1_loop.trips) (sc : Buf (Elt F) ((sW : Memref sig .scVector .vmem S512 .i32).view.loc (thr d L))) : Vec F S16 .i32 :=
  (sW : Memref sig .scVector .vmem S512 .i32).view.readAt (Elt F) (Rect.unit (s := S512) (k0_off2 k) S16.size (k0_off2_inb k)).toLoadRect sc

theorem off_eq {x y : Nat} (h : x = y) : (![x, 0] : Fin 2 → Nat) = ![y, 0] := by rw [h]

variable [FloatOps F]

/- Copy `j` of a trip: its index word names a row of the table (the check passes), and the copy is the batch's
   transfer `16 k + j`, started from that transfer's token and row. -/
set_option hygiene false in
local macro "issue_copy " j:num " with " chk:ident ", " wj:ident ", " offeq:ident : tactic => `(tactic| (
  iapply (wp_assume 𝒱₀ (thr d L) none Set.univ ($chk:ident ((congrArg BitVec.toNat ($wj:ident (loaded d L k sc))).trans_lt (hwlt ⟨$j, by decide⟩))))
  sl_exec
  ihave Hp := (Entails.of_eq (Transfers.bigSep_pending_step (Rk m d L) (16 * k.val + $j) (hidx ⟨$j, by decide⟩))) $$ Hpend
  icases Hp with ⟨HR, Hpend⟩
  iapply (wp_issue m d L ⟨16 * k.val + $j, hidx ⟨$j, by decide⟩⟩ _ _
      (($offeq:ident L k).trans (off_eq (by show _ = base L + (16 * k.val + $j); unfold base; omega))) _ _
      (($wj:ident (loaded d L k sc)).trans (hwv ⟨$j, by decide⟩)) ((congrArg BitVec.toNat ($wj:ident (loaded d L k sc))).trans_lt (hwlt ⟨$j, by decide⟩))) $$ [HR HB]
  · isplitl [HR]
    · iexact HR
    iexact HB
  iintro HB
  sl_exec))

theorem tile_body (hF : (K (F := F)).Facts) (hpre : ∀ d, Spec.InRange nRows (m (iLoc d))) : TileBody m := by
  intro d L O W hO
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  unfold go
  iintro ⟨#Hlv, -, ⟨Ht, Hi, Hrows⟩, ⟨⟨%fs, Hs⟩, Hbufs⟩, ⟨HsemS, HsemB, Hsems⟩, HO⟩
  ihave Hmw := ((K (F := F)).mayWaits_none (thr := thr d L) hO) $$ Hlv
  ihave Hi' := (Entails.of_eq (pts_i (F := F) d L _ _).symm) $$ Hi
  ihave Hs' := (Entails.of_eq (pts_s (F := F) d L _).symm) $$ Hs
  -- the index words fetched into the scratch, and the fetch waited for
  sl_exec
  -- the 512 copies' batch on the shared semaphore, allocated before the first is started
  imod (Transfers.batch_alloc' (Lvl := ℕ) (EC (F := F)) (thr d L) (none : HIx 8) N (Dl m d L) (sm := .dma cc0_scratch1.sem) (E := Set.univ)) $$ HsemB with HB
  -- the table's token dealt into one per copy
  ihave Ht' := (Transfers.pointsTo_toks_split (tsh L) 512) $$ Ht
  icases Ht' with ⟨-, Htoks⟩
  sl_for (inv1 m d L) $$ [Hs' HB Htoks Hrows]
  case region =>
    intro k hk
    unfold inv1
    iintro ⟨%sc, %hsc, Hs, HB, Hpend⟩
    have hk32 : k.val < 32 := lt_of_lt_of_eq k.isLt trips1
    have hidx : ∀ j : Fin 16, 16 * k.val + j.val < 512 := fun j => by have := j.isLt; omega
    -- the sixteen words the trip loads are the tile's index words 16 k … 16 k + 15; each names a row of the table
    have hwv : ∀ j : Fin 16, loaded d L k sc (ValueIdx.ix1 j) = m (iLoc d) (ValueIdx.ix1 (tileRow L ⟨16 * k.val + j.val, hidx j⟩)) :=
      fun j => (loaded_word d L k sc j).trans (hsc _)
    have hwlt : ∀ j : Fin 16, (loaded d L k sc (ValueIdx.ix1 j)).toNat < nRows := fun j => by rw [hwv j]; exact (hpre d).toNat_lt _
    sl_exec
    issue_copy 0 with chk_of_lt_1, word_0, k0_off3_eq
    issue_copy 1 with chk_of_lt_2, word_1, k0_off5_eq
    issue_copy 2 with chk_of_lt_3, word_2, k0_off7_eq
    issue_copy 3 with chk_of_lt_4, word_3, k0_off9_eq
    issue_copy 4 with chk_of_lt_5, word_4, k0_off11_eq
    issue_copy 5 with chk_of_lt_6, word_5, k0_off13_eq
    issue_copy 6 with chk_of_lt_7, word_6, k0_off15_eq
    issue_copy 7 with chk_of_lt_8, word_7, k0_off17_eq
    issue_copy 8 with chk_of_lt_9, word_8, k0_off19_eq
    issue_copy 9 with chk_of_lt_10, word_9, k0_off21_eq
    issue_copy 10 with chk_of_lt_11, word_10, k0_off23_eq
    issue_copy 11 with chk_of_lt_12, word_11, k0_off25_eq
    issue_copy 12 with chk_of_lt_13, word_12, k0_off27_eq
    issue_copy 13 with chk_of_lt_14, word_13, k0_off29_eq
    issue_copy 14 with chk_of_lt_15, word_14, k0_off31_eq
    issue_copy 15 with chk_of_lt_16, word_15, k0_off33_eq
    -- the trip's return: the invariant at `k + 1`
    rw [show 16 * (k.val + 1) = 16 * k.val + 15 + 1 by omega]
    sl_step
    iexists sc
    isplitr; · ipureintro; exact hsc
    isplitl [Hs]; · iexact Hs
    isplitl [HB]; · iexact HB
    iexact Hpend
  · -- the loop's entry: nothing started, every copy's token and row in hand
    unfold inv1
    iexists _
    isplitr; · ipureintro; exact fun t => scratch_holds d L fs (m (iLoc d)) t
    isplitl [Hs']; · iexact Hs'
    isplitl [HB]; · iexact HB
    rw [show 16 * 0 = 0 from rfl, ← Transfers.bigSep_pending_zero]
    unfold Rk
    rw [bigSep_sep']
    isplitl [Htoks]; · iexact Htoks
    iexact Hrows
  -- after the first loop: all 512 started, none waited for
  iintro %_ HI
  unfold inv1
  icases HI with ⟨%sc, -, Hs, HB, -⟩
  sl_exec
  have h512 : 16 * Scf.trips k0_t1_loop.lb k0_t1_loop.ub k0_t1_loop.st = 512 := by decide
  rw [h512]
  -- the second loop drains the batch: every row comes back holding the lookup's value
  simp only [wp_bind]
  ihave Hd := (drain m d L O _) $$ [HB HO]
  · isplitr; · iexact Hmw
    isplitl [HB]; · iexact HB
    iexact HO
  iapply (wp_wand frame _ Set.univ) $$ Hd
  iintro %_ ⟨HD, HsemB, %W', %hW', HO⟩
  sl_step
  isplitl [HD]
  · unfold td; iexact HD
  isplitl [Hs Hbufs]
  · isplitl [Hs]
    · iexists _; iapply (Entails.of_eq (pts_s (F := F) d L _)); iexact Hs
    iexact Hbufs
  isplitl [HsemS HsemB Hsems]
  · isplitl [HsemS]; · iexact HsemS
    isplitl [HsemB]; · iexact HsemB
    iexact Hsems
  iexists W'; isplitr
  · ipureintro; intro p hp
    rcases hW' p hp with h | h
    · rcases Finset.mem_insert.mp h with rfl | h
      · exact .inr rfl
      · exact .inl h
    · exact .inr h
  iexact HO

end Cert.Proof.KI.R0

end
-- ==== Proof.KITileDefs1.lean ====
/-
  The tile's own names for call 1's body: its thread, its two DMA semaphores' cells, its scoped storage opened to
  the scratch and those two cells, the batch of the 512 row copies (each copy's delivery: its row of the result at
  the lookup's value), and what a copy needs before it is started.
-/
import proofs.«218896_g85959475462175_cont_9to1_m_647_27_alg».proof.Proof.KIRes1

noncomputable section

namespace Cert.Proof.KI.R1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

abbrev thr : Thread nD τ := V d (cV L) (jV L)
abbrev cS : GSem nD τ sig := (thr d L, .dma cc1_scoped0.sem)
abbrev cB : GSem nD τ sig := (thr d L, .dma cc1_scratch1.sem)

theorem ownSems0_V :
    (ownSems0 (thr d L) : sProp 𝕄)
      = iprop(semVal (cS d L) 0 ∗ semVal (cB d L) 0 ∗ bigSep (((ownCells (thr d L)).erase (cS d L)).erase (cB d L)) fun g => semVal g 0) := by
  unfold SparseCore.Cfg.ownSems0
  rw [SparseCore.bigSep_erase' ((mem_ownCells (g := cS d L)).mpr ⟨rfl, by
      show (SemLoc.dma cc1_scoped0.sem : SemLoc sig).isScoped .scVector = true; decide⟩),
    SparseCore.bigSep_erase' (Finset.mem_erase.mpr ⟨by simp [cS, cB]; decide, (mem_ownCells (g := cB d L)).mpr ⟨rfl, by
      show (SemLoc.dma cc1_scratch1.sem : SemLoc sig).isScoped .scVector = true; decide⟩⟩)]

theorem ownBufs_V :
    (ownBufs (thr d L) : sProp 𝕄)
      = iprop((∃ f, (thr d L).loc scrScv ↦{fullShare} f)
          ∗ bigSep ((ownRefs (τ := τ) (.scVector (cV L) (jV L))).erase ((Proc.scVector (cV L) (jV L)).devRef scrScv))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef scrScv) rfl)

omit m in
theorem pts_i (q : PosShare TreeShare) (f : Buf (Elt F) (iLoc d)) :
    ((iW : Memref sig .scVector .hbm S16384 .i32).view.loc (thr d L) ↦{q} f : sProp 𝕄) = iLoc d ↦{q} f := rfl
omit m in
theorem pts_t (q : PosShare TreeShare) (f : Buf (Elt F) (tLoc d)) :
    ((tW : Memref sig .scVector .hbm TS .f32).view.loc (thr d L) ↦{q} f : sProp 𝕄) = tLoc d ↦{q} f := rfl
omit m in
theorem pts_s (f : Buf (Elt F) ((thr d L).loc scrScv)) :
    ((sW : Memref sig .scVector .vmem S512 .i32).view.loc (thr d L) ↦{fullShare} f : sProp 𝕄) = (thr d L).loc scrScv ↦{fullShare} f := rfl

/-- The counters of the tile's own copies. -/
abbrev EC : UEmb Counters (MT nD τ sig (HIx 8) (Elt F) ℕ UU ℕ) := countersEmb (U := UU)

/-- Row 0 of the result as the waits name it: any row's credit. -/
abbrev row0 : Memref sig .scVector .hbm S64 .f32 :=
  ((oW : Memref sig .scVector .hbm S16384x64 .f32).slice (Rect.unit (s := S16384x64) ![0, 0] S1x64.size inb_S16384x64_S1x64_0_0) (fun _ => rfl)).squeeze S64 squeezes_S1x64_S64
abbrev N : ℕ := (row0).view.dmaCredit

/-- The tile's read token of the table. -/
abbrev tsh : PosShare TreeShare := Transfers.shareTok fullShare 32 (wid L)

/-- Copy `t` of the 512 delivers row `t` of the tile's rows holding the lookup's value. -/
def Dl (t : Fin 512) : sProp 𝕄 := oLoc d ↦[rowSet (tileRow L t)]{fullShare} G m d

instance Dl_storable (t : Fin 512) : BI.Storable (upEmb : UEmb _ 𝕄) (Dl m d L t) := by unfold Dl; infer_instance

/-- What copy `t` needs before it is started: its own read token of the table, and its row of the result. -/
def Rk (t : Fin 512) : sProp 𝕄 :=
  iprop((tLoc d ↦{Transfers.shareTok (tsh L) 512 t} m (tLoc d)) ∗ (oLoc d ↦[rowSet (tileRow L t)]{fullShare} m (oLoc d)))

/-- The scratch holds the tile's 512 index words. -/
def Holds (sc : Buf (Elt F) ((sW : Memref sig .scVector .vmem S512 .i32).view.loc (thr d L))) : Prop :=
  ∀ t : Fin 512, sc (ValueIdx.ix1 t) = m (iLoc d) (ValueIdx.ix1 (tileRow L t))

end Cert.Proof.KI.R1

end
-- ==== Proof.KIView1.lean ====
/-
  Call 1 of the eight: what the tile's memory accesses address and read, as plain facts about index sets and
  contents, with no program logic in them.

  The tile at grid coordinates L owns result rows base L … base L + 511. It copies index words base L … base L + 511
  into its 512-word scratch (scratch_holds: word t of the scratch is then word base L + t of the index array);
  in trip g it loads the sixteen scratch words 16g … 16g + 15 (loaded_word) and takes them apart one at a time
  (word_0 … word_15); for each word w it copies table row w, when w names a row (chk_of_lt_N), onto one result row
  (set_dstRow: the destination is exactly that row's set of indices; write_row: after the copy the row holds table row w,
  column by column). G_row is the lookup's value at one index, and mem_rowSet_fst says that an index of row r's set has
  first coordinate r.
-/
import proofs.«218896_g85959475462175_cont_9to1_m_647_27_alg».proof.Proof.KIRes1

noncomputable section

namespace Cert.Proof.KI.R1

open Cert.KernelIdeal Cert.KernelIdeal.Gen Cert.Proof.KI

open Idealize.ShloMosaic
open Idealize.ShloMosaic.SparseCore (S V T)

variable {F : FTy → Type}

/-! ## A word that names a row passes the copy's side condition -/

theorem chk_of_lt_1 {w : BitVec 32} (h : w.toNat < nRows) : k1_chk1 w := fun a =>
  match a with
  | 0 => show w.toNat + 1 ≤ nRows from h
  | 1 => show 0 + 64 ≤ 64 from Nat.le_refl _
theorem chk_of_lt_2 {w : BitVec 32} (h : w.toNat < nRows) : k1_chk2 w := fun a =>
  match a with
  | 0 => show w.toNat + 1 ≤ nRows from h
  | 1 => show 0 + 64 ≤ 64 from Nat.le_refl _
theorem chk_of_lt_3 {w : BitVec 32} (h : w.toNat < nRows) : k1_chk3 w := fun a =>
  match a with
  | 0 => show w.toNat + 1 ≤ nRows from h
  | 1 => show 0 + 64 ≤ 64 from Nat.le_refl _
theorem chk_of_lt_4 {w : BitVec 32} (h : w.toNat < nRows) : k1_chk4 w := fun a =>
  match a with
  | 0 => show w.toNat + 1 ≤ nRows from h
  | 1 => show 0 + 64 ≤ 64 from Nat.le_refl _
theorem chk_of_lt_5 {w : BitVec 32} (h : w.toNat < nRows) : k1_chk5 w := fun a =>
  match a with
  | 0 => show w.toNat + 1 ≤ nRows from h
  | 1 => show 0 + 64 ≤ 64 from Nat.le_refl _
theorem chk_of_lt_6 {w : BitVec 32} (h : w.toNat < nRows) : k1_chk6 w := fun a =>
  match a with
  | 0 => show w.toNat + 1 ≤ nRows from h
  | 1 => show 0 + 64 ≤ 64 from Nat.le_refl _
theorem chk_of_lt_7 {w : BitVec 32} (h : w.toNat < nRows) : k1_chk7 w := fun a =>
  match a with
  | 0 => show w.toNat + 1 ≤ nRows from h
  | 1 => show 0 + 64 ≤ 64 from Nat.le_refl _
theorem chk_of_lt_8 {w : BitVec 32} (h : w.toNat < nRows) : k1_chk8 w := fun a =>
  match a with
  | 0 => show w.toNat + 1 ≤ nRows from h
  | 1 => show 0 + 64 ≤ 64 from Nat.le_refl _
theorem chk_of_lt_9 {w : BitVec 32} (h : w.toNat < nRows) : k1_chk9 w := fun a =>
  match a with
  | 0 => show w.toNat + 1 ≤ nRows from h
  | 1 => show 0 + 64 ≤ 64 from Nat.le_refl _
theorem chk_of_lt_10 {w : BitVec 32} (h : w.toNat < nRows) : k1_chk10 w := fun a =>
  match a with
  | 0 => show w.toNat + 1 ≤ nRows from h
  | 1 => show 0 + 64 ≤ 64 from Nat.le_refl _
theorem chk_of_lt_11 {w : BitVec 32} (h : w.toNat < nRows) : k1_chk11 w := fun a =>
  match a with
  | 0 => show w.toNat + 1 ≤ nRows from h
  | 1 => show 0 + 64 ≤ 64 from Nat.le_refl _
theorem chk_of_lt_12 {w : BitVec 32} (h : w.toNat < nRows) : k1_chk12 w := fun a =>
  match a with
  | 0 => show w.toNat + 1 ≤ nRows from h
  | 1 => show 0 + 64 ≤ 64 from Nat.le_refl _
theorem chk_of_lt_13 {w : BitVec 32} (h : w.toNat < nRows) : k1_chk13 w := fun a =>
  match a with
  | 0 => show w.toNat + 1 ≤ nRows from h
  | 1 => show 0 + 64 ≤ 64 from Nat.le_refl _
theorem chk_of_lt_14 {w : BitVec 32} (h : w.toNat < nRows) : k1_chk14 w := fun a =>
  match a with
  | 0 => show w.toNat + 1 ≤ nRows from h
  | 1 => show 0 + 64 ≤ 64 from Nat.le_refl _
theorem chk_of_lt_15 {w : BitVec 32} (h : w.toNat < nRows) : k1_chk15 w := fun a =>
  match a with
  | 0 => show w.toNat + 1 ≤ nRows from h
  | 1 => show 0 + 64 ≤ 64 from Nat.le_refl _
theorem chk_of_lt_16 {w : BitVec 32} (h : w.toNat < nRows) : k1_chk16 w := fun a =>
  match a with
  | 0 => show w.toNat + 1 ≤ nRows from h
  | 1 => show 0 + 64 ≤ 64 from Nat.le_refl _

/-! ## The sixteen words of a load, one at a time -/

theorem word_0 (v7 : Vec F S16 .i32) : extractAt ![0] (k1_pay1 v7) inpos_S1_p0 = v7 (ValueIdx.ix1 ⟨0, by decide⟩) := by
  unfold k1_pay1 extractAt extractStridedSlice
  exact congrArg v7 (funext fun a => by obtain rfl : a = 0 := Subsingleton.elim _ _; rfl)
theorem word_1 (v7 : Vec F S16 .i32) : extractAt ![0] (k1_pay2 v7) inpos_S1_p0 = v7 (ValueIdx.ix1 ⟨1, by decide⟩) := by
  unfold k1_pay2 extractAt extractStridedSlice
  exact congrArg v7 (funext fun a => by obtain rfl : a = 0 := Subsingleton.elim _ _; rfl)
theorem word_2 (v7 : Vec F S16 .i32) : extractAt ![0] (k1_pay3 v7) inpos_S1_p0 = v7 (ValueIdx.ix1 ⟨2, by decide⟩) := by
  unfold k1_pay3 extractAt extractStridedSlice
  exact congrArg v7 (funext fun a => by obtain rfl : a = 0 := Subsingleton.elim _ _; rfl)
theorem word_3 (v7 : Vec F S16 .i32) : extractAt ![0] (k1_pay4 v7) inpos_S1_p0 = v7 (ValueIdx.ix1 ⟨3, by decide⟩) := by
  unfold k1_pay4 extractAt extractStridedSlice
  exact congrArg v7 (funext fun a => by obtain rfl : a = 0 := Subsingleton.elim _ _; rfl)
theorem word_4 (v7 : Vec F S16 .i32) : extractAt ![0] (k1_pay5 v7) inpos_S1_p0 = v7 (ValueIdx.ix1 ⟨4, by decide⟩) := by
  unfold k1_pay5 extractAt extractStridedSlice
  exact congrArg v7 (funext fun a => by obtain rfl : a = 0 := Subsingleton.elim _ _; rfl)
theorem word_5 (v7 : Vec F S16 .i32) : extractAt ![0] (k1_pay6 v7) inpos_S1_p0 = v7 (ValueIdx.ix1 ⟨5, by decide⟩) := by
  unfold k1_pay6 extractAt extractStridedSlice
  exact congrArg v7 (funext fun a => by obtain rfl : a = 0 := Subsingleton.elim _ _; rfl)
theorem word_6 (v7 : Vec F S16 .i32) : extractAt ![0] (k1_pay7 v7) inpos_S1_p0 = v7 (ValueIdx.ix1 ⟨6, by decide⟩) := by
  unfold k1_pay7 extractAt extractStridedSlice
  exact congrArg v7 (funext fun a => by obtain rfl : a = 0 := Subsingleton.elim _ _; rfl)
theorem word_7 (v7 : Vec F S16 .i32) : extractAt ![0] (k1_pay8 v7) inpos_S1_p0 = v7 (ValueIdx.ix1 ⟨7, by decide⟩) := by
  unfold k1_pay8 extractAt extractStridedSlice
  exact congrArg v7 (funext fun a => by obtain rfl : a = 0 := Subsingleton.elim _ _; rfl)
theorem word_8 (v7 : Vec F S16 .i32) : extractAt ![0] (k1_pay9 v7) inpos_S1_p0 = v7 (ValueIdx.ix1 ⟨8, by decide⟩) := by
  unfold k1_pay9 extractAt extractStridedSlice
  exact congrArg v7 (funext fun a => by obtain rfl : a = 0 := Subsingleton.elim _ _; rfl)
theorem word_9 (v7 : Vec F S16 .i32) : extractAt ![0] (k1_pay10 v7) inpos_S1_p0 = v7 (ValueIdx.ix1 ⟨9, by decide⟩) := by
  unfold k1_pay10 extractAt extractStridedSlice
  exact congrArg v7 (funext fun a => by obtain rfl : a = 0 := Subsingleton.elim _ _; rfl)
theorem word_10 (v7 : Vec F S16 .i32) : extractAt ![0] (k1_pay11 v7) inpos_S1_p0 = v7 (ValueIdx.ix1 ⟨10, by decide⟩) := by
  unfold k1_pay11 extractAt extractStridedSlice
  exact congrArg v7 (funext fun a => by obtain rfl : a = 0 := Subsingleton.elim _ _; rfl)
theorem word_11 (v7 : Vec F S16 .i32) : extractAt ![0] (k1_pay12 v7) inpos_S1_p0 = v7 (ValueIdx.ix1 ⟨11, by decide⟩) := by
  unfold k1_pay12 extractAt extractStridedSlice
  exact congrArg v7 (funext fun a => by obtain rfl : a = 0 := Subsingleton.elim _ _; rfl)
theorem word_12 (v7 : Vec F S16 .i32) : extractAt ![0] (k1_pay13 v7) inpos_S1_p0 = v7 (ValueIdx.ix1 ⟨12, by decide⟩) := by
  unfold k1_pay13 extractAt extractStridedSlice
  exact congrArg v7 (funext fun a => by obtain rfl : a = 0 := Subsingleton.elim _ _; rfl)
theorem word_13 (v7 : Vec F S16 .i32) : extractAt ![0] (k1_pay14 v7) inpos_S1_p0 = v7 (ValueIdx.ix1 ⟨13, by decide⟩) := by
  unfold k1_pay14 extractAt extractStridedSlice
  exact congrArg v7 (funext fun a => by obtain rfl : a = 0 := Subsingleton.elim _ _; rfl)
theorem word_14 (v7 : Vec F S16 .i32) : extractAt ![0] (k1_pay15 v7) inpos_S1_p0 = v7 (ValueIdx.ix1 ⟨14, by decide⟩) := by
  unfold k1_pay15 extractAt extractStridedSlice
  exact congrArg v7 (funext fun a => by obtain rfl : a = 0 := Subsingleton.elim _ _; rfl)
theorem word_15 (v7 : Vec F S16 .i32) : extractAt ![0] (k1_pay16 v7) inpos_S1_p0 = v7 (ValueIdx.ix1 ⟨15, by decide⟩) := by
  unfold k1_pay16 extractAt extractStridedSlice
  exact congrArg v7 (funext fun a => by obtain rfl : a = 0 := Subsingleton.elim _ _; rfl)

/-! ## The lookup's value at an index; the indices of a row -/

variable (m : (ℓ : Loc nD τ sig) → Buf (Elt F) ℓ)

theorem G_row (d : Dev nD) (r : Fin 16384) (k : Fin 64) :
    G m d (ValueIdx.ix2 r k) = m (tLoc d) (ValueIdx.ix2 (Spec.rowOf nRows nRows_pos (m (iLoc d) (ValueIdx.ix1 r))) k) := by
  unfold G
  exact Spec.gatherRows_apply nRows nRows_pos (m (tLoc d)) (m (iLoc d)) r k

theorem mem_rowSet_fst {r : Fin 16384} {i : S16384x64.Idx} (h : i ∈ rowSet r) : i 0 = r := by
  have h' : i ∈ (row r).set := by rw [← View.set_slice_whole outScv (row r)]; exact h
  rw [Rect.mem_set_unit] at h'
  have h0 := h' 0
  apply Fin.ext
  simp only [Shape.partIx, Shape.partSize] at h0
  have e : S16384x64.size 0 / 16384 = 1 := by decide
  simp only [↓reduceIte, e] at h0
  omega

/-! ## The destination of one row's copy -/

/-- The one-row rectangle at row r is the r-th of the 16384 parts of the result along its first axis. -/
theorem unitRow_eq (r : Fin 16384) (inb : ∀ a, (![r.val, 0] : Fin 2 → Nat) a + S1x64.size a ≤ S16384x64.size a) :
    Rect.unit (s := S16384x64) ![r.val, 0] S1x64.size inb = row r := by
  unfold row Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem set_dstRow (off : Fin 2 → Nat) (inb : ∀ a, off a + S1x64.size a ≤ S16384x64.size a) (r : Fin 16384)
    (hoff : off = ![r.val, 0]) :
    (((oW : Memref sig .scVector .hbm S16384x64 .f32).slice (Rect.unit (s := S16384x64) off S1x64.size inb) (fun _ => rfl)).squeeze S64
        squeezes_S1x64_S64).view.set = rowSet r := by
  subst hoff
  show (((oW : Memref sig .scVector .hbm S16384x64 .f32).view.slice (Rect.unit (s := S16384x64) ![r.val, 0] S1x64.size inb)).reshape S64
      squeezes_S1x64_S64.numel_eq).set = ((oW : Memref sig .scVector .hbm S16384x64 .f32).view.slice (row r)).set
  rw [View.set_reshape]
  exact unitRow_eq r inb ▸ rfl

/-! ## What the scratch holds after the first copy, and what a trip loads from it -/

theorem trips1 : k1_t1_loop.trips = 32 := by decide

theorem word_lt (g : Fin k1_t1_loop.trips) (j : Fin 16) : 16 * g.val + j.val < 512 := by
  have hg : g.val < 32 := Nat.lt_of_lt_of_eq g.isLt trips1
  have hj := j.isLt
  omega

/-- Word j of the sixteen that trip g loads is word 16g + j of the scratch. -/
theorem loaded_word (d : Dev nD) (L : grid0.Coords) (g : Fin k1_t1_loop.trips)
    (s : Buf (Elt F) ((sW : Memref sig .scVector .vmem S512 .i32).view.loc (V d (cV L) (jV L)))) (j : Fin 16) :
    ((sW : Memref sig .scVector .vmem S512 .i32).view.readAt (Elt F)
        (Rect.unit (s := S512) (k1_off2 g) S16.size (k1_off2_inb g)).toLoadRect s) (ValueIdx.ix1 j)
      = s (ValueIdx.ix1 ⟨16 * g.val + j.val, word_lt g j⟩) := by
  rw [View.readAt_apply]
  show s ((Rect.unit (s := S512) (k1_off2 g) S16.size (k1_off2_inb g)).toLoadRect.idx (ValueIdx.ix1 j)) = _
  refine congrArg s (funext fun (a : Fin 1) => Fin.ext ?_)
  obtain rfl : a = 0 := Subsingleton.elim _ _
  rw [LoadRect.idx_apply]
  show (k1_off2 g) 0 + 1 * j.val = 16 * g.val + j.val
  rw [k1_off2_eq]
  simp

/-- Once the first copy has landed, word t of the scratch is word base L + t of the index array. -/
theorem scratch_holds (d : Dev nD) (L : grid0.Coords)
    (fs : Buf (Elt F) ((sW : Memref sig .scVector .vmem S512 .i32).view.loc (V d (cV L) (jV L))))
    (mI : Buf (Elt F) (iLoc d)) (t : Fin 512) :
    ((sW : Memref sig .scVector .vmem S512 .i32).view.write (Elt F) fs
        ((ReadAs.same : ReadAs (Elt F) S512 .i32 S512 .i32).apply
          (((iW : Memref sig .scVector .hbm S16384 .i32).slice (Rect.unit (s := S16384) (k1_off1 L) S512.size (k1_off1_inb L))
              (fun _ => rfl)).view.read (Elt F) mI)) Finset.univ) (ValueIdx.ix1 t)
      = mI (ValueIdx.ix1 (⟨base L + t.val, base_add_lt L t⟩ : Fin 16384)) := by
  show ((View.whole scrScv).write (Elt F) fs
      (((iW : Memref sig .scVector .hbm S16384 .i32).view.slice (Rect.unit (s := S16384) (k1_off1 L) S512.size (k1_off1_inb L))).read (Elt F) mI)
      Finset.univ) (ValueIdx.ix1 t) = _
  rw [View.write_whole_univ, View.read_apply]
  refine (cast_eq _ _).trans ?_
  refine congrArg mI (funext fun (a : Fin 1) => Fin.ext ?_)
  obtain rfl : a = 0 := Subsingleton.elim _ _
  show (k1_off1 L) 0 + 1 * t.val = base L + t.val
  rw [k1_off1_eq]
  unfold base
  simp

/-! ## What one row's copy leaves -/

/-- A word that passes the copy's side condition names a row. -/
theorem lt_of_inb {w : BitVec 32} (hw : ∀ a, (k1_off4 w) a + S1x64.size a ≤ TS.size a) : w.toNat < nRows :=
  show w.toNat + 1 ≤ nRows from hw 0

/-- Column c of the destination row's own indices sits at (r, c) of the result. -/
theorem dst_emb (r : Fin 16384) (inb : ∀ a, (![r.val, 0] : Fin 2 → Nat) a + S1x64.size a ≤ S16384x64.size a) (x : S64.Idx) :
    (((oW : Memref sig .scVector .hbm S16384x64 .f32).slice (Rect.unit (s := S16384x64) ![r.val, 0] S1x64.size inb) (fun _ => rfl)).squeeze S64
        squeezes_S1x64_S64).view.emb x = ValueIdx.ix2 r (x 0) := by
  show (Rect.unit (s := S16384x64) ![r.val, 0] S1x64.size inb).emb (Shape.reshapeEquiv squeezes_S1x64_S64.numel_eq x) = _
  rw [Shape.reshapeEquiv_cons_one]
  funext a
  apply Fin.ext
  match a with
  | 0 => show r.val + 1 * 0 = r.val; omega
  | 1 => show 0 + 1 * (x 0).val = (x 0).val; omega

/-- Column c of the source row's own indices sits at (w, c) of the table. -/
theorem src_emb (w : BitVec 32) (hw : ∀ a, (k1_off4 w) a + S1x64.size a ≤ TS.size a) (x : S64.Idx) :
    (((tW : Memref sig .scVector .hbm TS .f32).slice (Rect.unit (s := TS) (k1_off4 w) S1x64.size hw) (fun _ => rfl)).squeeze S64
        squeezes_S1x64_S64).view.emb x = ValueIdx.ix2 (⟨w.toNat, lt_of_inb hw⟩ : Fin nRows) (x 0) := by
  show (Rect.unit (s := TS) (k1_off4 w) S1x64.size hw).emb (Shape.reshapeEquiv squeezes_S1x64_S64.numel_eq x) = _
  rw [Shape.reshapeEquiv_cons_one]
  funext a
  apply Fin.ext
  match a with
  | 0 => show w.toNat + 1 * 0 = w.toNat; omega
  | 1 => show 0 + 1 * (x 0).val = (x 0).val; omega

/-- After table row w has been copied onto result row r, every index of row r holds the table's entry at row w and the
    index's own column. -/
theorem write_row (d : Dev nD) (L : grid0.Coords) (off : Fin 2 → Nat) (inb : ∀ a, off a + S1x64.size a ≤ S16384x64.size a)
    (r : Fin 16384) (hoff : off = ![r.val, 0]) (w : BitVec 32) (hw : ∀ a, (k1_off4 w) a + S1x64.size a ≤ TS.size a)
    (fT : Buf (Elt F) (tLoc d)) (fO : Buf (Elt F) (oLoc d)) (i : S16384x64.Idx) (hi : i ∈ rowSet r) :
      ((((oW : Memref sig .scVector .hbm S16384x64 .f32).slice (Rect.unit (s := S16384x64) off S1x64.size inb) (fun _ => rfl)).squeeze S64
          squeezes_S1x64_S64).view.write (Elt F) fO
        ((ReadAs.same : ReadAs (Elt F) S64 .f32 S64 .f32).apply
          ((((tW : Memref sig .scVector .hbm TS .f32).slice (Rect.unit (s := TS) (k1_off4 w) S1x64.size hw) (fun _ => rfl)).squeeze S64
            squeezes_S1x64_S64).view.read (Elt F) fT)) Finset.univ) i
        = fT (ValueIdx.ix2 (⟨w.toNat, lt_of_inb hw⟩ : Fin nRows) (i 1)) := by
  subst hoff
  rw [← set_dstRow ![r.val, 0] inb r rfl] at hi
  obtain ⟨x, -, rfl⟩ := Finset.mem_map.mp hi
  rw [View.write_emb_of_mem _ _ (Finset.mem_univ x)]
  refine (cast_eq _ _).trans ?_
  show (((tW : Memref sig .scVector .hbm TS .f32).slice (Rect.unit (s := TS) (k1_off4 w) S1x64.size hw) (fun _ => rfl)).squeeze S64
      squeezes_S1x64_S64).view.read (Elt F) fT x = _
  rw [View.read_apply]
  refine (cast_eq _ _).trans ?_
  rw [src_emb w hw x, dst_emb r inb x]
  rfl

end Cert.Proof.KI.R1

end
-- ==== Proof.KIIssue1.lean ====
/-
  One of the tile's 512 row copies, started as the batch's next transfer. The copy reads the table row that the
  tile's `t`-th index word names and writes the tile's `t`-th row of the result; once it has landed, that row holds
  the lookup's value there: entry `(r, k)` of the result is entry `(idx r, k)` of the table.
-/
import proofs.«218896_g85959475462175_cont_9to1_m_647_27_alg».proof.Proof.KITileDefs1
import proofs.«218896_g85959475462175_cont_9to1_m_647_27_alg».proof.Proof.KIView1

noncomputable section

namespace Cert.Proof.KI.R1

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

variable (m : (ℓ : Loc nD τ sig) → Buf (Elt F) ℓ) (d : Dev nD) (L : grid0.Coords)

/-- A row of the result and a row of the table, as the body slices them. -/
abbrev dstRow (off : Fin 2 → Nat) (inb : ∀ a, off a + S1x64.size a ≤ S16384x64.size a) : Memref sig .scVector .hbm S64 .f32 :=
  ((oW : Memref sig .scVector .hbm S16384x64 .f32).slice (Rect.unit (s := S16384x64) off S1x64.size inb) (fun _ => rfl)).squeeze S64 squeezes_S1x64_S64
abbrev srcRow (w : BitVec 32) (hw : ∀ a, (k1_off4 w) a + S1x64.size a ≤ TS.size a) : Memref sig .scVector .hbm S64 .f32 :=
  ((tW : Memref sig .scVector .hbm TS .f32).slice (Rect.unit (s := TS) (k1_off4 w) S1x64.size hw) (fun _ => rfl)).squeeze S64 squeezes_S1x64_S64

variable [FloatOps F]

/-- What the landed copy leaves in its row is the lookup's value there. -/
theorem landed_eq (t : Fin 512) (off : Fin 2 → Nat) (inb : ∀ a, off a + S1x64.size a ≤ S16384x64.size a)
    (hoff : off = ![(tileRow L t).val, 0]) (w : BitVec 32) (hw : ∀ a, (k1_off4 w) a + S1x64.size a ≤ TS.size a)
    (hwv : w = m (iLoc d) (ValueIdx.ix1 (tileRow L t))) (hlt : w.toNat < nRows)
    (i : S16384x64.Idx) (hi : i ∈ rowSet (tileRow L t)) :
    ((dstRow off inb).view.write (Elt F) (m (oLoc d)) ((ReadAs.same : ReadAs (Elt F) S64 .f32 S64 .f32).apply ((srcRow w hw).view.read (Elt F) (m (tLoc d)))) Finset.univ) i
      = G m d i := by
  rw [write_row d L off inb (tileRow L t) hoff w hw (m (tLoc d)) (m (oLoc d)) i hi]
  obtain ⟨r, k, rfl⟩ : ∃ (r : Fin 16384) (k : Fin 64), i = ValueIdx.ix2 r k := ⟨i 0, i 1, ValueIdx.eq_ix2 i⟩
  have hr : r = tileRow L t := mem_rowSet_fst hi
  subst hr
  show m (tLoc d) (ValueIdx.ix2 _ k) = _
  rw [G_row]
  congr 2
  apply Fin.ext
  show w.toNat = (Spec.rowOf nRows nRows_pos (m (iLoc d) (ValueIdx.ix1 (tileRow L t)))).val
  rw [← hwv, Spec.rowOf_val_of_lt nRows_pos hlt]

/-- The batch's transfer `t`, started: from the copy's own token of the table and its row of the result. -/
theorem wp_issue (t : Fin 512) (off : Fin 2 → Nat) (inb : ∀ a, off a + S1x64.size a ≤ S16384x64.size a)
    (hoff : off = ![(tileRow L t).val, 0]) (w : BitVec 32) (hw : ∀ a, (k1_off4 w) a + S1x64.size a ≤ TS.size a)
    (hwv : w = m (iLoc d) (ValueIdx.ix1 (tileRow L t))) (hlt : w.toNat < nRows)
    {α : Type} {k : PUnit → Prog (TpuEff nD τ sig (Elt F) Λ₀ (thr d L).2) α} {Q : α → sProp 𝕄}
    {hs : (srcRow w hw).view.WordExact} {hd : (dstRow off inb).view.WordExact}
    {hsem : DmaTarget.Typed (nD := nD) Space.hbm (SemLoc.dma cc1_scratch1.sem) (DmaTarget.here (p := (thr d L).2) (dstRow off inb))} :
    iprop(Rk m d L t ∗ Transfers.Batch (EC (F := F)) (thr d L) (.dma cc1_scratch1.sem) (none : HIx 8) N (Dl m d L) t.val 0)
      ⊢ iprop((Transfers.Batch (EC (F := F)) (thr d L) (.dma cc1_scratch1.sem) (none : HIx 8) N (Dl m d L) (t.val + 1) 0
            -∗ wp frame (wpE (defs₀ (F := F)) 𝒱₀ (thr d L) none) Set.univ (k ⟨⟩) Q)
          -∗ wp frame (wpE (defs₀ (F := F)) 𝒱₀ (thr d L) none) Set.univ
              (.op (TpuEff.enqueueDma (srcRow w hw) (DmaTarget.here (p := (thr d L).2) (dstRow off inb)) (.dma cc1_scratch1.sem) hs hd hsem) k) Q) := by
  unfold Rk
  iintro ⟨⟨Htok, Hrow⟩, HB⟩ Hk
  ihave Htok' := ((pointsTo_split_subset (ℓ := tLoc d) (I := (srcRow w hw).view.set) (S := Finset.univ) (Finset.subset_univ _)).1) $$ Htok
  icases Htok' with ⟨Hsrc, -⟩
  iapply (Transfers.wp_dmaBatch (EC (F := F)) 𝒱₀ (thr d L) none (src := srcRow w hw) (dst := dstRow off inb)
      (q := Transfers.shareTok (tsh L) 512 t) (fs := m (tLoc d)) (Sd := rowSet (tileRow L t)) (fd := m (oLoc d)) (D := Dl m d L) (j := t.val) (u := 0)
      (none : HIx 8) N rfl (set_dstRow off inb (tileRow L t) hoff).le t.isLt (Nat.zero_le _) ?hD) $$ [Hsrc Hrow HB]
  case hD =>
    iintro ⟨H, -⟩
    unfold Dl
    iapply (Entails.of_eq (pointsTo_congr (fun i hi => landed_eq m d L t off inb hoff w hw hwv hlt i hi)))
    iexact H
  · isplitl [Hsrc]; · iexact Hsrc
    isplitl [Hrow]; · iexact Hrow
    iexact HB
  iexact Hk

end Cert.Proof.KI.R1

end
-- ==== Proof.KIDrain1.lean ====
/-
  The tile's second loop: 512 waits on the one semaphore that the 512 row copies complete on. Each wait takes one
  copy's units off the counter; copies land in any order, so a wait that is not the last proves nothing about any
  row, and only the last — when all 512 copies' units have been taken — hands back every row holding its value and
  the counter at zero. The invariant before wait k says exactly that: k copies' units consumed and the batch still
  open, or (after the last) every delivery in hand.
-/
import proofs.«218896_g85959475462175_cont_9to1_m_647_27_alg».proof.Proof.KITileDefs1

noncomputable section

namespace Cert.Proof.KI.R1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- The loop makes 512 trips. -/
theorem trips2 : Scf.trips k1_t2_loop.lb k1_t2_loop.ub k1_t2_loop.st = 512 := by decide

/-- A row's credit is positive. -/
theorem N_pos : 0 < N := View.dmaCredit_pos _ (by decide)

/-- Before wait `k` of the 512: the batch with `k` transfers' units consumed; after the last, every delivery. -/
def inv2 (O : CellTallies nD τ sig (HIx 8)) (W : Waits sig (HIx 8)) (k : ℕ) (_ : Unit) : sProp 𝕄 :=
  iprop(Transfers.MayWaits (thr d L) (none : HIx 8) O
    ∗ ((⌜k < 512⌝ ∗ Transfers.Batch (EC (F := F)) (thr d L) (.dma cc1_scratch1.sem) (none : HIx 8) N (Dl m d L) 512 (k * N)
          ∗ ∃ W', ⌜∀ p ∈ W', p ∈ W ∨ p.2 = none⌝ ∗ owes (thr d L) O W')
      ∨ (⌜k = 512⌝ ∗ bigSep Finset.univ (Dl m d L) ∗ semVal (cB d L) 0 ∗ ∃ W', ⌜∀ p ∈ W', p ∈ W ∨ p.2 = none⌝ ∗ owes (thr d L) O W')))

variable [FloatOps F]

/-- The 512 waits: from the batch with every copy started and nothing consumed, to every row delivered and the counter at
    zero; each wait is recorded at the index of the tile's own copies. -/
theorem drain (O : CellTallies nD τ sig (HIx 8)) (W : Waits sig (HIx 8)) :
    iprop(Transfers.MayWaits (thr d L) (none : HIx 8) O
        ∗ Transfers.Batch (EC (F := F)) (thr d L) (.dma cc1_scratch1.sem) (none : HIx 8) N (Dl m d L) 512 0
        ∗ owes (thr d L) O W)
      ⊢ wp frame (wpE (defs₀ (F := F)) 𝒱₀ (thr d L) none) Set.univ
          (Scf.Loop.for k1_t2_loop k1_t2_ok ⟨⟩ (k1_t2_body L tW (Memref.isWhole_whole _) iW (Memref.isWhole_whole _) oW (Memref.isWhole_whole _) sW (Memref.isWhole_whole _) cc1_scratch1 cc1_scoped0))
          (fun _ => iprop(bigSep Finset.univ (Dl m d L) ∗ semVal (cB d L) 0 ∗ ∃ W', ⌜∀ p ∈ W', p ∈ W ∨ p.2 = none⌝ ∗ owes (thr d L) O W')) := by
  iintro ⟨#Hmw, HB, HO⟩
  sl_for (inv2 m d L O W) $$ [HB HO]
  case region =>
    intro k acc
    have hk : k.val < 512 := Nat.lt_of_lt_of_eq k.isLt trips2
    have e : (k.val + 1) * N = k.val * N + N := by rw [Nat.add_mul, Nat.one_mul]
    unfold inv2
    iintro ⟨#Hmw, H⟩
    sl_exec
    icases H with (⟨-, HB, %W', %hW', HO⟩ | ⟨%hk', -⟩)
    rotate_left
    · exfalso; omega
    ihave Hmw1 := (Transfers.MayWaits.elim (SemLoc.dma cc1_scratch1.sem)) $$ Hmw
    have hW'' : ∀ p ∈ insert (SemLoc.dma cc1_scratch1.sem, (none : HIx 8)) W', p ∈ W ∨ p.2 = none := by
      intro p hp
      rcases Finset.mem_insert.mp hp with hp | hp
      · exact .inr (hp ▸ rfl)
      · exact hW' p hp
    by_cases hlast : k.val + 1 < 512
    · have hu : k.val * N + N < N * 512 := by
        have h1 : (k.val + 1) * N < 512 * N := Nat.mul_lt_mul_of_pos_right hlast N_pos
        rw [e] at h1; rw [Nat.mul_comm N 512]; exact h1
      iapply (Transfers.wp_waitBatchO (EC (F := F)) 𝒱₀ (thr d L) none (none : HIx 8) (N := N) rfl hu) $$ [HB HO Hmw1]
      · isplitl [HB]; · iexact HB
        isplitl [HO]; · iexact HO
        iexact Hmw1
      iintro ⟨HB, HO⟩
      sl_step
      isplitr; · iexact Hmw
      ileft
      isplitr; · ipureintro; exact hlast
      rw [e]
      isplitl [HB]; · iexact HB
      iexists _; isplitr
      · ipureintro; exact hW''
      · iexact HO
    · have hu : k.val * N + N = N * 512 := by
        have h1 : k.val = 511 := by omega
        rw [h1]; omega
      iapply (Transfers.wp_waitBatchLastO (EC (F := F)) 𝒱₀ (thr d L) none (none : HIx 8) (N := N) rfl N_pos hu) $$ [HB HO Hmw1]
      · isplitl [HB]; · iexact HB
        isplitl [HO]; · iexact HO
        iexact Hmw1
      iintro ⟨HD, Hv, HO⟩
      sl_step
      isplitr; · iexact Hmw
      iright
      isplitr; · ipureintro; omega
      isplitl [HD]; · iexact HD
      isplitl [Hv]; · iexact Hv
      iexists _; isplitr
      · ipureintro; exact hW''
      · iexact HO
  rw [trips2]
  isplitl [HB HO]
  · unfold inv2
    isplitr; · iexact Hmw
    ileft
    isplitr; · ipureintro; omega
    rw [Nat.zero_mul]
    isplitl [HB]; · iexact HB
    iexists W; isplitr
    · ipureintro; exact fun p hp => .inl hp
    · iexact HO
  · iintro %acc HI
    unfold inv2
    icases HI with ⟨-, (⟨%h, -⟩ | ⟨-, HD, Hv, HW⟩)⟩
    · exfalso; omega
    isplitl [HD]; · iexact HD
    isplitl [Hv]; · iexact Hv
    iexact HW

end Cert.Proof.KI.R1

end
-- ==== Proof.KITile1.lean ====
/-
  The tile's obligation at call 1: the index words fetched into the scratch, the 512 row copies started sixteen to a
  trip on one semaphore as ONE batch (no copy's source or destination is touched between the first start and the
  last wait), the batch drained by 512 waits, and the rows handed back holding the lookup's value.
-/
import proofs.«218896_g85959475462175_cont_9to1_m_647_27_alg».proof.Proof.KITileDefs1
import proofs.«218896_g85959475462175_cont_9to1_m_647_27_alg».proof.Proof.KIView1
import proofs.«218896_g85959475462175_cont_9to1_m_647_27_alg».proof.Proof.KIIssue1
import proofs.«218896_g85959475462175_cont_9to1_m_647_27_alg».proof.Proof.KIDrain1

noncomputable section

namespace Cert.Proof.KI.R1

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- Before trip `k` of the first loop: the scratch at the landed index words, the first `16 k` copies started and none
    waited for, the later copies' tokens and rows still in hand. -/
def inv1 (k : Nat) (_ : PUnit) : sProp 𝕄 :=
  iprop(∃ sc, ⌜Holds m d L sc⌝ ∗ ((sW : Memref sig .scVector .vmem S512 .i32).view.loc (thr d L) ↦{fullShare} sc)
    ∗ Transfers.Batch (EC (F := F)) (thr d L) (.dma cc1_scratch1.sem) (none : HIx 8) N (Dl m d L) (16 * k) 0
    ∗ bigSep (Transfers.pending (n := 512) (16 * k)) (Rk m d L))

/-- The sixteen words a trip loads. -/
abbrev loaded (k : Fin k1_t1_loop.trips) (sc : Buf (Elt F) ((sW : Memref sig .scVector .vmem S512 .i32).view.loc (thr d L))) : Vec F S16 .i32 :=
  (sW : Memref sig .scVector .vmem S512 .i32).view.readAt (Elt F) (Rect.unit (s := S512) (k1_off2 k) S16.size (k1_off2_inb k)).toLoadRect sc

theorem off_eq {x y : Nat} (h : x = y) : (![x, 0] : Fin 2 → Nat) = ![y, 0] := by rw [h]

variable [FloatOps F]

/- Copy `j` of a trip: its index word names a row of the table (the check passes), and the copy is the batch's
   transfer `16 k + j`, started from that transfer's token and row. -/
set_option hygiene false in
local macro "issue_copy " j:num " with " chk:ident ", " wj:ident ", " offeq:ident : tactic => `(tactic| (
  iapply (wp_assume 𝒱₀ (thr d L) none Set.univ ($chk:ident ((congrArg BitVec.toNat ($wj:ident (loaded d L k sc))).trans_lt (hwlt ⟨$j, by decide⟩))))
  sl_exec
  ihave Hp := (Entails.of_eq (Transfers.bigSep_pending_step (Rk m d L) (16 * k.val + $j) (hidx ⟨$j, by decide⟩))) $$ Hpend
  icases Hp with ⟨HR, Hpend⟩
  iapply (wp_issue m d L ⟨16 * k.val + $j, hidx ⟨$j, by decide⟩⟩ _ _
      (($offeq:ident L k).trans (off_eq (by show _ = base L + (16 * k.val + $j); unfold base; omega))) _ _
      (($wj:ident (loaded d L k sc)).trans (hwv ⟨$j, by decide⟩)) ((congrArg BitVec.toNat ($wj:ident (loaded d L k sc))).trans_lt (hwlt ⟨$j, by decide⟩))) $$ [HR HB]
  · isplitl [HR]
    · iexact HR
    iexact HB
  iintro HB
  sl_exec))

theorem tile_body (hF : (K (F := F)).Facts) (hpre : ∀ d, Spec.InRange nRows (m (iLoc d))) : TileBody m := by
  intro d L O W hO
  simp only [cc1__gather_body_eq_skeleton]; unfold cc1__gather_body_skel
  rw [(K (F := F)).scopedBufs_V hF d (cV L) (jV L), SparseCore.Cfg.scopedSems0_V (Val := Elt F) d (cV L) (jV L), ownSems0_V, ownBufs_V]
  unfold go
  iintro ⟨#Hlv, -, ⟨Ht, Hi, Hrows⟩, ⟨⟨%fs, Hs⟩, Hbufs⟩, ⟨HsemS, HsemB, Hsems⟩, HO⟩
  ihave Hmw := ((K (F := F)).mayWaits_none (thr := thr d L) hO) $$ Hlv
  ihave Hi' := (Entails.of_eq (pts_i (F := F) d L _ _).symm) $$ Hi
  ihave Hs' := (Entails.of_eq (pts_s (F := F) d L _).symm) $$ Hs
  -- the index words fetched into the scratch, and the fetch waited for
  sl_exec
  -- the 512 copies' batch on the shared semaphore, allocated before the first is started
  imod (Transfers.batch_alloc' (Lvl := ℕ) (EC (F := F)) (thr d L) (none : HIx 8) N (Dl m d L) (sm := .dma cc1_scratch1.sem) (E := Set.univ)) $$ HsemB with HB
  -- the table's token dealt into one per copy
  ihave Ht' := (Transfers.pointsTo_toks_split (tsh L) 512) $$ Ht
  icases Ht' with ⟨-, Htoks⟩
  sl_for (inv1 m d L) $$ [Hs' HB Htoks Hrows]
  case region =>
    intro k hk
    unfold inv1
    iintro ⟨%sc, %hsc, Hs, HB, Hpend⟩
    have hk32 : k.val < 32 := lt_of_lt_of_eq k.isLt trips1
    have hidx : ∀ j : Fin 16, 16 * k.val + j.val < 512 := fun j => by have := j.isLt; omega
    -- the sixteen words the trip loads are the tile's index words 16 k … 16 k + 15; each names a row of the table
    have hwv : ∀ j : Fin 16, loaded d L k sc (ValueIdx.ix1 j) = m (iLoc d) (ValueIdx.ix1 (tileRow L ⟨16 * k.val + j.val, hidx j⟩)) :=
      fun j => (loaded_word d L k sc j).trans (hsc _)
    have hwlt : ∀ j : Fin 16, (loaded d L k sc (ValueIdx.ix1 j)).toNat < nRows := fun j => by rw [hwv j]; exact (hpre d).toNat_lt _
    sl_exec
    issue_copy 0 with chk_of_lt_1, word_0, k1_off3_eq
    issue_copy 1 with chk_of_lt_2, word_1, k1_off5_eq
    issue_copy 2 with chk_of_lt_3, word_2, k1_off7_eq
    issue_copy 3 with chk_of_lt_4, word_3, k1_off9_eq
    issue_copy 4 with chk_of_lt_5, word_4, k1_off11_eq
    issue_copy 5 with chk_of_lt_6, word_5, k1_off13_eq
    issue_copy 6 with chk_of_lt_7, word_6, k1_off15_eq
    issue_copy 7 with chk_of_lt_8, word_7, k1_off17_eq
    issue_copy 8 with chk_of_lt_9, word_8, k1_off19_eq
    issue_copy 9 with chk_of_lt_10, word_9, k1_off21_eq
    issue_copy 10 with chk_of_lt_11, word_10, k1_off23_eq
    issue_copy 11 with chk_of_lt_12, word_11, k1_off25_eq
    issue_copy 12 with chk_of_lt_13, word_12, k1_off27_eq
    issue_copy 13 with chk_of_lt_14, word_13, k1_off29_eq
    issue_copy 14 with chk_of_lt_15, word_14, k1_off31_eq
    issue_copy 15 with chk_of_lt_16, word_15, k1_off33_eq
    -- the trip's return: the invariant at `k + 1`
    rw [show 16 * (k.val + 1) = 16 * k.val + 15 + 1 by omega]
    sl_step
    iexists sc
    isplitr; · ipureintro; exact hsc
    isplitl [Hs]; · iexact Hs
    isplitl [HB]; · iexact HB
    iexact Hpend
  · -- the loop's entry: nothing started, every copy's token and row in hand
    unfold inv1
    iexists _
    isplitr; · ipureintro; exact fun t => scratch_holds d L fs (m (iLoc d)) t
    isplitl [Hs']; · iexact Hs'
    isplitl [HB]; · iexact HB
    rw [show 16 * 0 = 0 from rfl, ← Transfers.bigSep_pending_zero]
    unfold Rk
    rw [bigSep_sep']
    isplitl [Htoks]; · iexact Htoks
    iexact Hrows
  -- after the first loop: all 512 started, none waited for
  iintro %_ HI
  unfold inv1
  icases HI with ⟨%sc, -, Hs, HB, -⟩
  sl_exec
  have h512 : 16 * Scf.trips k1_t1_loop.lb k1_t1_loop.ub k1_t1_loop.st = 512 := by decide
  rw [h512]
  -- the second loop drains the batch: every row comes back holding the lookup's value
  simp only [wp_bind]
  ihave Hd := (drain m d L O _) $$ [HB HO]
  · isplitr; · iexact Hmw
    isplitl [HB]; · iexact HB
    iexact HO
  iapply (wp_wand frame _ Set.univ) $$ Hd
  iintro %_ ⟨HD, HsemB, %W', %hW', HO⟩
  sl_step
  isplitl [HD]
  · unfold td; iexact HD
  isplitl [Hs Hbufs]
  · isplitl [Hs]
    · iexists _; iapply (Entails.of_eq (pts_s (F := F) d L _)); iexact Hs
    iexact Hbufs
  isplitl [HsemS HsemB Hsems]
  · isplitl [HsemS]; · iexact HsemS
    isplitl [HsemB]; · iexact HsemB
    iexact Hsems
  iexists W'; isplitr
  · ipureintro; intro p hp
    rcases hW' p hp with h | h
    · rcases Finset.mem_insert.mp h with rfl | h
      · exact .inr rfl
      · exact .inl h
    · exact .inr h
  iexact HO

end Cert.Proof.KI.R1

end
-- ==== Proof.KITileDefs2.lean ====
/-
  The tile's own names for call 2's body: its thread, its two DMA semaphores' cells, its scoped storage opened to
  the scratch and those two cells, the batch of the 512 row copies (each copy's delivery: its row of the result at
  the lookup's value), and what a copy needs before it is started.
-/
import proofs.«218896_g85959475462175_cont_9to1_m_647_27_alg».proof.Proof.KIRes2

noncomputable section

namespace Cert.Proof.KI.R2

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

abbrev thr : Thread nD τ := V d (cV L) (jV L)
abbrev cS : GSem nD τ sig := (thr d L, .dma cc2_scoped0.sem)
abbrev cB : GSem nD τ sig := (thr d L, .dma cc2_scratch1.sem)

theorem ownSems0_V :
    (ownSems0 (thr d L) : sProp 𝕄)
      = iprop(semVal (cS d L) 0 ∗ semVal (cB d L) 0 ∗ bigSep (((ownCells (thr d L)).erase (cS d L)).erase (cB d L)) fun g => semVal g 0) := by
  unfold SparseCore.Cfg.ownSems0
  rw [SparseCore.bigSep_erase' ((mem_ownCells (g := cS d L)).mpr ⟨rfl, by
      show (SemLoc.dma cc2_scoped0.sem : SemLoc sig).isScoped .scVector = true; decide⟩),
    SparseCore.bigSep_erase' (Finset.mem_erase.mpr ⟨by simp [cS, cB]; decide, (mem_ownCells (g := cB d L)).mpr ⟨rfl, by
      show (SemLoc.dma cc2_scratch1.sem : SemLoc sig).isScoped .scVector = true; decide⟩⟩)]

theorem ownBufs_V :
    (ownBufs (thr d L) : sProp 𝕄)
      = iprop((∃ f, (thr d L).loc scrScv ↦{fullShare} f)
          ∗ bigSep ((ownRefs (τ := τ) (.scVector (cV L) (jV L))).erase ((Proc.scVector (cV L) (jV L)).devRef scrScv))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef scrScv) rfl)

omit m in
theorem pts_i (q : PosShare TreeShare) (f : Buf (Elt F) (iLoc d)) :
    ((iW : Memref sig .scVector .hbm S16384 .i32).view.loc (thr d L) ↦{q} f : sProp 𝕄) = iLoc d ↦{q} f := rfl
omit m in
theorem pts_t (q : PosShare TreeShare) (f : Buf (Elt F) (tLoc d)) :
    ((tW : Memref sig .scVector .hbm TS .f32).view.loc (thr d L) ↦{q} f : sProp 𝕄) = tLoc d ↦{q} f := rfl
omit m in
theorem pts_s (f : Buf (Elt F) ((thr d L).loc scrScv)) :
    ((sW : Memref sig .scVector .vmem S512 .i32).view.loc (thr d L) ↦{fullShare} f : sProp 𝕄) = (thr d L).loc scrScv ↦{fullShare} f := rfl

/-- The counters of the tile's own copies. -/
abbrev EC : UEmb Counters (MT nD τ sig (HIx 8) (Elt F) ℕ UU ℕ) := countersEmb (U := UU)

/-- Row 0 of the result as the waits name it: any row's credit. -/
abbrev row0 : Memref sig .scVector .hbm S64 .f32 :=
  ((oW : Memref sig .scVector .hbm S16384x64 .f32).slice (Rect.unit (s := S16384x64) ![0, 0] S1x64.size inb_S16384x64_S1x64_0_0) (fun _ => rfl)).squeeze S64 squeezes_S1x64_S64
abbrev N : ℕ := (row0).view.dmaCredit

/-- The tile's read token of the table. -/
abbrev tsh : PosShare TreeShare := Transfers.shareTok fullShare 32 (wid L)

/-- Copy `t` of the 512 delivers row `t` of the tile's rows holding the lookup's value. -/
def Dl (t : Fin 512) : sProp 𝕄 := oLoc d ↦[rowSet (tileRow L t)]{fullShare} G m d

instance Dl_storable (t : Fin 512) : BI.Storable (upEmb : UEmb _ 𝕄) (Dl m d L t) := by unfold Dl; infer_instance

/-- What copy `t` needs before it is started: its own read token of the table, and its row of the result. -/
def Rk (t : Fin 512) : sProp 𝕄 :=
  iprop((tLoc d ↦{Transfers.shareTok (tsh L) 512 t} m (tLoc d)) ∗ (oLoc d ↦[rowSet (tileRow L t)]{fullShare} m (oLoc d)))

/-- The scratch holds the tile's 512 index words. -/
def Holds (sc : Buf (Elt F) ((sW : Memref sig .scVector .vmem S512 .i32).view.loc (thr d L))) : Prop :=
  ∀ t : Fin 512, sc (ValueIdx.ix1 t) = m (iLoc d) (ValueIdx.ix1 (tileRow L t))

end Cert.Proof.KI.R2

end
-- ==== Proof.KIView2.lean ====
/-
  Call 2 of the eight: what the tile's memory accesses address and read, as plain facts about index sets and
  contents, with no program logic in them.

  The tile at grid coordinates L owns result rows base L … base L + 511. It copies index words base L … base L + 511
  into its 512-word scratch (scratch_holds: word t of the scratch is then word base L + t of the index array);
  in trip g it loads the sixteen scratch words 16g … 16g + 15 (loaded_word) and takes them apart one at a time
  (word_0 … word_15); for each word w it copies table row w, when w names a row (chk_of_lt_N), onto one result row
  (set_dstRow: the destination is exactly that row's set of indices; write_row: after the copy the row holds table row w,
  column by column). G_row is the lookup's value at one index, and mem_rowSet_fst says that an index of row r's set has
  first coordinate r.
-/
import proofs.«218896_g85959475462175_cont_9to1_m_647_27_alg».proof.Proof.KIRes2

noncomputable section

namespace Cert.Proof.KI.R2

open Cert.KernelIdeal Cert.KernelIdeal.Gen Cert.Proof.KI

open Idealize.ShloMosaic
open Idealize.ShloMosaic.SparseCore (S V T)

variable {F : FTy → Type}

/-! ## A word that names a row passes the copy's side condition -/

theorem chk_of_lt_1 {w : BitVec 32} (h : w.toNat < nRows) : k2_chk1 w := fun a =>
  match a with
  | 0 => show w.toNat + 1 ≤ nRows from h
  | 1 => show 0 + 64 ≤ 64 from Nat.le_refl _
theorem chk_of_lt_2 {w : BitVec 32} (h : w.toNat < nRows) : k2_chk2 w := fun a =>
  match a with
  | 0 => show w.toNat + 1 ≤ nRows from h
  | 1 => show 0 + 64 ≤ 64 from Nat.le_refl _
theorem chk_of_lt_3 {w : BitVec 32} (h : w.toNat < nRows) : k2_chk3 w := fun a =>
  match a with
  | 0 => show w.toNat + 1 ≤ nRows from h
  | 1 => show 0 + 64 ≤ 64 from Nat.le_refl _
theorem chk_of_lt_4 {w : BitVec 32} (h : w.toNat < nRows) : k2_chk4 w := fun a =>
  match a with
  | 0 => show w.toNat + 1 ≤ nRows from h
  | 1 => show 0 + 64 ≤ 64 from Nat.le_refl _
theorem chk_of_lt_5 {w : BitVec 32} (h : w.toNat < nRows) : k2_chk5 w := fun a =>
  match a with
  | 0 => show w.toNat + 1 ≤ nRows from h
  | 1 => show 0 + 64 ≤ 64 from Nat.le_refl _
theorem chk_of_lt_6 {w : BitVec 32} (h : w.toNat < nRows) : k2_chk6 w := fun a =>
  match a with
  | 0 => show w.toNat + 1 ≤ nRows from h
  | 1 => show 0 + 64 ≤ 64 from Nat.le_refl _
theorem chk_of_lt_7 {w : BitVec 32} (h : w.toNat < nRows) : k2_chk7 w := fun a =>
  match a with
  | 0 => show w.toNat + 1 ≤ nRows from h
  | 1 => show 0 + 64 ≤ 64 from Nat.le_refl _
theorem chk_of_lt_8 {w : BitVec 32} (h : w.toNat < nRows) : k2_chk8 w := fun a =>
  match a with
  | 0 => show w.toNat + 1 ≤ nRows from h
  | 1 => show 0 + 64 ≤ 64 from Nat.le_refl _
theorem chk_of_lt_9 {w : BitVec 32} (h : w.toNat < nRows) : k2_chk9 w := fun a =>
  match a with
  | 0 => show w.toNat + 1 ≤ nRows from h
  | 1 => show 0 + 64 ≤ 64 from Nat.le_refl _
theorem chk_of_lt_10 {w : BitVec 32} (h : w.toNat < nRows) : k2_chk10 w := fun a =>
  match a with
  | 0 => show w.toNat + 1 ≤ nRows from h
  | 1 => show 0 + 64 ≤ 64 from Nat.le_refl _
theorem chk_of_lt_11 {w : BitVec 32} (h : w.toNat < nRows) : k2_chk11 w := fun a =>
  match a with
  | 0 => show w.toNat + 1 ≤ nRows from h
  | 1 => show 0 + 64 ≤ 64 from Nat.le_refl _
theorem chk_of_lt_12 {w : BitVec 32} (h : w.toNat < nRows) : k2_chk12 w := fun a =>
  match a with
  | 0 => show w.toNat + 1 ≤ nRows from h
  | 1 => show 0 + 64 ≤ 64 from Nat.le_refl _
theorem chk_of_lt_13 {w : BitVec 32} (h : w.toNat < nRows) : k2_chk13 w := fun a =>
  match a with
  | 0 => show w.toNat + 1 ≤ nRows from h
  | 1 => show 0 + 64 ≤ 64 from Nat.le_refl _
theorem chk_of_lt_14 {w : BitVec 32} (h : w.toNat < nRows) : k2_chk14 w := fun a =>
  match a with
  | 0 => show w.toNat + 1 ≤ nRows from h
  | 1 => show 0 + 64 ≤ 64 from Nat.le_refl _
theorem chk_of_lt_15 {w : BitVec 32} (h : w.toNat < nRows) : k2_chk15 w := fun a =>
  match a with
  | 0 => show w.toNat + 1 ≤ nRows from h
  | 1 => show 0 + 64 ≤ 64 from Nat.le_refl _
theorem chk_of_lt_16 {w : BitVec 32} (h : w.toNat < nRows) : k2_chk16 w := fun a =>
  match a with
  | 0 => show w.toNat + 1 ≤ nRows from h
  | 1 => show 0 + 64 ≤ 64 from Nat.le_refl _

/-! ## The sixteen words of a load, one at a time -/

theorem word_0 (v7 : Vec F S16 .i32) : extractAt ![0] (k2_pay1 v7) inpos_S1_p0 = v7 (ValueIdx.ix1 ⟨0, by decide⟩) := by
  unfold k2_pay1 extractAt extractStridedSlice
  exact congrArg v7 (funext fun a => by obtain rfl : a = 0 := Subsingleton.elim _ _; rfl)
theorem word_1 (v7 : Vec F S16 .i32) : extractAt ![0] (k2_pay2 v7) inpos_S1_p0 = v7 (ValueIdx.ix1 ⟨1, by decide⟩) := by
  unfold k2_pay2 extractAt extractStridedSlice
  exact congrArg v7 (funext fun a => by obtain rfl : a = 0 := Subsingleton.elim _ _; rfl)
theorem word_2 (v7 : Vec F S16 .i32) : extractAt ![0] (k2_pay3 v7) inpos_S1_p0 = v7 (ValueIdx.ix1 ⟨2, by decide⟩) := by
  unfold k2_pay3 extractAt extractStridedSlice
  exact congrArg v7 (funext fun a => by obtain rfl : a = 0 := Subsingleton.elim _ _; rfl)
theorem word_3 (v7 : Vec F S16 .i32) : extractAt ![0] (k2_pay4 v7) inpos_S1_p0 = v7 (ValueIdx.ix1 ⟨3, by decide⟩) := by
  unfold k2_pay4 extractAt extractStridedSlice
  exact congrArg v7 (funext fun a => by obtain rfl : a = 0 := Subsingleton.elim _ _; rfl)
theorem word_4 (v7 : Vec F S16 .i32) : extractAt ![0] (k2_pay5 v7) inpos_S1_p0 = v7 (ValueIdx.ix1 ⟨4, by decide⟩) := by
  unfold k2_pay5 extractAt extractStridedSlice
  exact congrArg v7 (funext fun a => by obtain rfl : a = 0 := Subsingleton.elim _ _; rfl)
theorem word_5 (v7 : Vec F S16 .i32) : extractAt ![0] (k2_pay6 v7) inpos_S1_p0 = v7 (ValueIdx.ix1 ⟨5, by decide⟩) := by
  unfold k2_pay6 extractAt extractStridedSlice
  exact congrArg v7 (funext fun a => by obtain rfl : a = 0 := Subsingleton.elim _ _; rfl)
theorem word_6 (v7 : Vec F S16 .i32) : extractAt ![0] (k2_pay7 v7) inpos_S1_p0 = v7 (ValueIdx.ix1 ⟨6, by decide⟩) := by
  unfold k2_pay7 extractAt extractStridedSlice
  exact congrArg v7 (funext fun a => by obtain rfl : a = 0 := Subsingleton.elim _ _; rfl)
theorem word_7 (v7 : Vec F S16 .i32) : extractAt ![0] (k2_pay8 v7) inpos_S1_p0 = v7 (ValueIdx.ix1 ⟨7, by decide⟩) := by
  unfold k2_pay8 extractAt extractStridedSlice
  exact congrArg v7 (funext fun a => by obtain rfl : a = 0 := Subsingleton.elim _ _; rfl)
theorem word_8 (v7 : Vec F S16 .i32) : extractAt ![0] (k2_pay9 v7) inpos_S1_p0 = v7 (ValueIdx.ix1 ⟨8, by decide⟩) := by
  unfold k2_pay9 extractAt extractStridedSlice
  exact congrArg v7 (funext fun a => by obtain rfl : a = 0 := Subsingleton.elim _ _; rfl)
theorem word_9 (v7 : Vec F S16 .i32) : extractAt ![0] (k2_pay10 v7) inpos_S1_p0 = v7 (ValueIdx.ix1 ⟨9, by decide⟩) := by
  unfold k2_pay10 extractAt extractStridedSlice
  exact congrArg v7 (funext fun a => by obtain rfl : a = 0 := Subsingleton.elim _ _; rfl)
theorem word_10 (v7 : Vec F S16 .i32) : extractAt ![0] (k2_pay11 v7) inpos_S1_p0 = v7 (ValueIdx.ix1 ⟨10, by decide⟩) := by
  unfold k2_pay11 extractAt extractStridedSlice
  exact congrArg v7 (funext fun a => by obtain rfl : a = 0 := Subsingleton.elim _ _; rfl)
theorem word_11 (v7 : Vec F S16 .i32) : extractAt ![0] (k2_pay12 v7) inpos_S1_p0 = v7 (ValueIdx.ix1 ⟨11, by decide⟩) := by
  unfold k2_pay12 extractAt extractStridedSlice
  exact congrArg v7 (funext fun a => by obtain rfl : a = 0 := Subsingleton.elim _ _; rfl)
theorem word_12 (v7 : Vec F S16 .i32) : extractAt ![0] (k2_pay13 v7) inpos_S1_p0 = v7 (ValueIdx.ix1 ⟨12, by decide⟩) := by
  unfold k2_pay13 extractAt extractStridedSlice
  exact congrArg v7 (funext fun a => by obtain rfl : a = 0 := Subsingleton.elim _ _; rfl)
theorem word_13 (v7 : Vec F S16 .i32) : extractAt ![0] (k2_pay14 v7) inpos_S1_p0 = v7 (ValueIdx.ix1 ⟨13, by decide⟩) := by
  unfold k2_pay14 extractAt extractStridedSlice
  exact congrArg v7 (funext fun a => by obtain rfl : a = 0 := Subsingleton.elim _ _; rfl)
theorem word_14 (v7 : Vec F S16 .i32) : extractAt ![0] (k2_pay15 v7) inpos_S1_p0 = v7 (ValueIdx.ix1 ⟨14, by decide⟩) := by
  unfold k2_pay15 extractAt extractStridedSlice
  exact congrArg v7 (funext fun a => by obtain rfl : a = 0 := Subsingleton.elim _ _; rfl)
theorem word_15 (v7 : Vec F S16 .i32) : extractAt ![0] (k2_pay16 v7) inpos_S1_p0 = v7 (ValueIdx.ix1 ⟨15, by decide⟩) := by
  unfold k2_pay16 extractAt extractStridedSlice
  exact congrArg v7 (funext fun a => by obtain rfl : a = 0 := Subsingleton.elim _ _; rfl)

/-! ## The lookup's value at an index; the indices of a row -/

variable (m : (ℓ : Loc nD τ sig) → Buf (Elt F) ℓ)

theorem G_row (d : Dev nD) (r : Fin 16384) (k : Fin 64) :
    G m d (ValueIdx.ix2 r k) = m (tLoc d) (ValueIdx.ix2 (Spec.rowOf nRows nRows_pos (m (iLoc d) (ValueIdx.ix1 r))) k) := by
  unfold G
  exact Spec.gatherRows_apply nRows nRows_pos (m (tLoc d)) (m (iLoc d)) r k

theorem mem_rowSet_fst {r : Fin 16384} {i : S16384x64.Idx} (h : i ∈ rowSet r) : i 0 = r := by
  have h' : i ∈ (row r).set := by rw [← View.set_slice_whole outScv (row r)]; exact h
  rw [Rect.mem_set_unit] at h'
  have h0 := h' 0
  apply Fin.ext
  simp only [Shape.partIx, Shape.partSize] at h0
  have e : S16384x64.size 0 / 16384 = 1 := by decide
  simp only [↓reduceIte, e] at h0
  omega

/-! ## The destination of one row's copy -/

/-- The one-row rectangle at row r is the r-th of the 16384 parts of the result along its first axis. -/
theorem unitRow_eq (r : Fin 16384) (inb : ∀ a, (![r.val, 0] : Fin 2 → Nat) a + S1x64.size a ≤ S16384x64.size a) :
    Rect.unit (s := S16384x64) ![r.val, 0] S1x64.size inb = row r := by
  unfold row Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem set_dstRow (off : Fin 2 → Nat) (inb : ∀ a, off a + S1x64.size a ≤ S16384x64.size a) (r : Fin 16384)
    (hoff : off = ![r.val, 0]) :
    (((oW : Memref sig .scVector .hbm S16384x64 .f32).slice (Rect.unit (s := S16384x64) off S1x64.size inb) (fun _ => rfl)).squeeze S64
        squeezes_S1x64_S64).view.set = rowSet r := by
  subst hoff
  show (((oW : Memref sig .scVector .hbm S16384x64 .f32).view.slice (Rect.unit (s := S16384x64) ![r.val, 0] S1x64.size inb)).reshape S64
      squeezes_S1x64_S64.numel_eq).set = ((oW : Memref sig .scVector .hbm S16384x64 .f32).view.slice (row r)).set
  rw [View.set_reshape]
  exact unitRow_eq r inb ▸ rfl

/-! ## What the scratch holds after the first copy, and what a trip loads from it -/

theorem trips1 : k2_t1_loop.trips = 32 := by decide

theorem word_lt (g : Fin k2_t1_loop.trips) (j : Fin 16) : 16 * g.val + j.val < 512 := by
  have hg : g.val < 32 := Nat.lt_of_lt_of_eq g.isLt trips1
  have hj := j.isLt
  omega

/-- Word j of the sixteen that trip g loads is word 16g + j of the scratch. -/
theorem loaded_word (d : Dev nD) (L : grid0.Coords) (g : Fin k2_t1_loop.trips)
    (s : Buf (Elt F) ((sW : Memref sig .scVector .vmem S512 .i32).view.loc (V d (cV L) (jV L)))) (j : Fin 16) :
    ((sW : Memref sig .scVector .vmem S512 .i32).view.readAt (Elt F)
        (Rect.unit (s := S512) (k2_off2 g) S16.size (k2_off2_inb g)).toLoadRect s) (ValueIdx.ix1 j)
      = s (ValueIdx.ix1 ⟨16 * g.val + j.val, word_lt g j⟩) := by
  rw [View.readAt_apply]
  show s ((Rect.unit (s := S512) (k2_off2 g) S16.size (k2_off2_inb g)).toLoadRect.idx (ValueIdx.ix1 j)) = _
  refine congrArg s (funext fun (a : Fin 1) => Fin.ext ?_)
  obtain rfl : a = 0 := Subsingleton.elim _ _
  rw [LoadRect.idx_apply]
  show (k2_off2 g) 0 + 1 * j.val = 16 * g.val + j.val
  rw [k2_off2_eq]
  simp

/-- Once the first copy has landed, word t of the scratch is word base L + t of the index array. -/
theorem scratch_holds (d : Dev nD) (L : grid0.Coords)
    (fs : Buf (Elt F) ((sW : Memref sig .scVector .vmem S512 .i32).view.loc (V d (cV L) (jV L))))
    (mI : Buf (Elt F) (iLoc d)) (t : Fin 512) :
    ((sW : Memref sig .scVector .vmem S512 .i32).view.write (Elt F) fs
        ((ReadAs.same : ReadAs (Elt F) S512 .i32 S512 .i32).apply
          (((iW : Memref sig .scVector .hbm S16384 .i32).slice (Rect.unit (s := S16384) (k2_off1 L) S512.size (k2_off1_inb L))
              (fun _ => rfl)).view.read (Elt F) mI)) Finset.univ) (ValueIdx.ix1 t)
      = mI (ValueIdx.ix1 (⟨base L + t.val, base_add_lt L t⟩ : Fin 16384)) := by
  show ((View.whole scrScv).write (Elt F) fs
      (((iW : Memref sig .scVector .hbm S16384 .i32).view.slice (Rect.unit (s := S16384) (k2_off1 L) S512.size (k2_off1_inb L))).read (Elt F) mI)
      Finset.univ) (ValueIdx.ix1 t) = _
  rw [View.write_whole_univ, View.read_apply]
  refine (cast_eq _ _).trans ?_
  refine congrArg mI (funext fun (a : Fin 1) => Fin.ext ?_)
  obtain rfl : a = 0 := Subsingleton.elim _ _
  show (k2_off1 L) 0 + 1 * t.val = base L + t.val
  rw [k2_off1_eq]
  unfold base
  simp

/-! ## What one row's copy leaves -/

/-- A word that passes the copy's side condition names a row. -/
theorem lt_of_inb {w : BitVec 32} (hw : ∀ a, (k2_off4 w) a + S1x64.size a ≤ TS.size a) : w.toNat < nRows :=
  show w.toNat + 1 ≤ nRows from hw 0

/-- Column c of the destination row's own indices sits at (r, c) of the result. -/
theorem dst_emb (r : Fin 16384) (inb : ∀ a, (![r.val, 0] : Fin 2 → Nat) a + S1x64.size a ≤ S16384x64.size a) (x : S64.Idx) :
    (((oW : Memref sig .scVector .hbm S16384x64 .f32).slice (Rect.unit (s := S16384x64) ![r.val, 0] S1x64.size inb) (fun _ => rfl)).squeeze S64
        squeezes_S1x64_S64).view.emb x = ValueIdx.ix2 r (x 0) := by
  show (Rect.unit (s := S16384x64) ![r.val, 0] S1x64.size inb).emb (Shape.reshapeEquiv squeezes_S1x64_S64.numel_eq x) = _
  rw [Shape.reshapeEquiv_cons_one]
  funext a
  apply Fin.ext
  match a with
  | 0 => show r.val + 1 * 0 = r.val; omega
  | 1 => show 0 + 1 * (x 0).val = (x 0).val; omega

/-- Column c of the source row's own indices sits at (w, c) of the table. -/
theorem src_emb (w : BitVec 32) (hw : ∀ a, (k2_off4 w) a + S1x64.size a ≤ TS.size a) (x : S64.Idx) :
    (((tW : Memref sig .scVector .hbm TS .f32).slice (Rect.unit (s := TS) (k2_off4 w) S1x64.size hw) (fun _ => rfl)).squeeze S64
        squeezes_S1x64_S64).view.emb x = ValueIdx.ix2 (⟨w.toNat, lt_of_inb hw⟩ : Fin nRows) (x 0) := by
  show (Rect.unit (s := TS) (k2_off4 w) S1x64.size hw).emb (Shape.reshapeEquiv squeezes_S1x64_S64.numel_eq x) = _
  rw [Shape.reshapeEquiv_cons_one]
  funext a
  apply Fin.ext
  match a with
  | 0 => show w.toNat + 1 * 0 = w.toNat; omega
  | 1 => show 0 + 1 * (x 0).val = (x 0).val; omega

/-- After table row w has been copied onto result row r, every index of row r holds the table's entry at row w and the
    index's own column. -/
theorem write_row (d : Dev nD) (L : grid0.Coords) (off : Fin 2 → Nat) (inb : ∀ a, off a + S1x64.size a ≤ S16384x64.size a)
    (r : Fin 16384) (hoff : off = ![r.val, 0]) (w : BitVec 32) (hw : ∀ a, (k2_off4 w) a + S1x64.size a ≤ TS.size a)
    (fT : Buf (Elt F) (tLoc d)) (fO : Buf (Elt F) (oLoc d)) (i : S16384x64.Idx) (hi : i ∈ rowSet r) :
      ((((oW : Memref sig .scVector .hbm S16384x64 .f32).slice (Rect.unit (s := S16384x64) off S1x64.size inb) (fun _ => rfl)).squeeze S64
          squeezes_S1x64_S64).view.write (Elt F) fO
        ((ReadAs.same : ReadAs (Elt F) S64 .f32 S64 .f32).apply
          ((((tW : Memref sig .scVector .hbm TS .f32).slice (Rect.unit (s := TS) (k2_off4 w) S1x64.size hw) (fun _ => rfl)).squeeze S64
            squeezes_S1x64_S64).view.read (Elt F) fT)) Finset.univ) i
        = fT (ValueIdx.ix2 (⟨w.toNat, lt_of_inb hw⟩ : Fin nRows) (i 1)) := by
  subst hoff
  rw [← set_dstRow ![r.val, 0] inb r rfl] at hi
  obtain ⟨x, -, rfl⟩ := Finset.mem_map.mp hi
  rw [View.write_emb_of_mem _ _ (Finset.mem_univ x)]
  refine (cast_eq _ _).trans ?_
  show (((tW : Memref sig .scVector .hbm TS .f32).slice (Rect.unit (s := TS) (k2_off4 w) S1x64.size hw) (fun _ => rfl)).squeeze S64
      squeezes_S1x64_S64).view.read (Elt F) fT x = _
  rw [View.read_apply]
  refine (cast_eq _ _).trans ?_
  rw [src_emb w hw x, dst_emb r inb x]
  rfl

end Cert.Proof.KI.R2

end
-- ==== Proof.KIIssue2.lean ====
/-
  One of the tile's 512 row copies, started as the batch's next transfer. The copy reads the table row that the
  tile's `t`-th index word names and writes the tile's `t`-th row of the result; once it has landed, that row holds
  the lookup's value there: entry `(r, k)` of the result is entry `(idx r, k)` of the table.
-/
import proofs.«218896_g85959475462175_cont_9to1_m_647_27_alg».proof.Proof.KITileDefs2
import proofs.«218896_g85959475462175_cont_9to1_m_647_27_alg».proof.Proof.KIView2

noncomputable section

namespace Cert.Proof.KI.R2

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

variable (m : (ℓ : Loc nD τ sig) → Buf (Elt F) ℓ) (d : Dev nD) (L : grid0.Coords)

/-- A row of the result and a row of the table, as the body slices them. -/
abbrev dstRow (off : Fin 2 → Nat) (inb : ∀ a, off a + S1x64.size a ≤ S16384x64.size a) : Memref sig .scVector .hbm S64 .f32 :=
  ((oW : Memref sig .scVector .hbm S16384x64 .f32).slice (Rect.unit (s := S16384x64) off S1x64.size inb) (fun _ => rfl)).squeeze S64 squeezes_S1x64_S64
abbrev srcRow (w : BitVec 32) (hw : ∀ a, (k2_off4 w) a + S1x64.size a ≤ TS.size a) : Memref sig .scVector .hbm S64 .f32 :=
  ((tW : Memref sig .scVector .hbm TS .f32).slice (Rect.unit (s := TS) (k2_off4 w) S1x64.size hw) (fun _ => rfl)).squeeze S64 squeezes_S1x64_S64

variable [FloatOps F]

/-- What the landed copy leaves in its row is the lookup's value there. -/
theorem landed_eq (t : Fin 512) (off : Fin 2 → Nat) (inb : ∀ a, off a + S1x64.size a ≤ S16384x64.size a)
    (hoff : off = ![(tileRow L t).val, 0]) (w : BitVec 32) (hw : ∀ a, (k2_off4 w) a + S1x64.size a ≤ TS.size a)
    (hwv : w = m (iLoc d) (ValueIdx.ix1 (tileRow L t))) (hlt : w.toNat < nRows)
    (i : S16384x64.Idx) (hi : i ∈ rowSet (tileRow L t)) :
    ((dstRow off inb).view.write (Elt F) (m (oLoc d)) ((ReadAs.same : ReadAs (Elt F) S64 .f32 S64 .f32).apply ((srcRow w hw).view.read (Elt F) (m (tLoc d)))) Finset.univ) i
      = G m d i := by
  rw [write_row d L off inb (tileRow L t) hoff w hw (m (tLoc d)) (m (oLoc d)) i hi]
  obtain ⟨r, k, rfl⟩ : ∃ (r : Fin 16384) (k : Fin 64), i = ValueIdx.ix2 r k := ⟨i 0, i 1, ValueIdx.eq_ix2 i⟩
  have hr : r = tileRow L t := mem_rowSet_fst hi
  subst hr
  show m (tLoc d) (ValueIdx.ix2 _ k) = _
  rw [G_row]
  congr 2
  apply Fin.ext
  show w.toNat = (Spec.rowOf nRows nRows_pos (m (iLoc d) (ValueIdx.ix1 (tileRow L t)))).val
  rw [← hwv, Spec.rowOf_val_of_lt nRows_pos hlt]

/-- The batch's transfer `t`, started: from the copy's own token of the table and its row of the result. -/
theorem wp_issue (t : Fin 512) (off : Fin 2 → Nat) (inb : ∀ a, off a + S1x64.size a ≤ S16384x64.size a)
    (hoff : off = ![(tileRow L t).val, 0]) (w : BitVec 32) (hw : ∀ a, (k2_off4 w) a + S1x64.size a ≤ TS.size a)
    (hwv : w = m (iLoc d) (ValueIdx.ix1 (tileRow L t))) (hlt : w.toNat < nRows)
    {α : Type} {k : PUnit → Prog (TpuEff nD τ sig (Elt F) Λ₀ (thr d L).2) α} {Q : α → sProp 𝕄}
    {hs : (srcRow w hw).view.WordExact} {hd : (dstRow off inb).view.WordExact}
    {hsem : DmaTarget.Typed (nD := nD) Space.hbm (SemLoc.dma cc2_scratch1.sem) (DmaTarget.here (p := (thr d L).2) (dstRow off inb))} :
    iprop(Rk m d L t ∗ Transfers.Batch (EC (F := F)) (thr d L) (.dma cc2_scratch1.sem) (none : HIx 8) N (Dl m d L) t.val 0)
      ⊢ iprop((Transfers.Batch (EC (F := F)) (thr d L) (.dma cc2_scratch1.sem) (none : HIx 8) N (Dl m d L) (t.val + 1) 0
            -∗ wp frame (wpE (defs₀ (F := F)) 𝒱₀ (thr d L) none) Set.univ (k ⟨⟩) Q)
          -∗ wp frame (wpE (defs₀ (F := F)) 𝒱₀ (thr d L) none) Set.univ
              (.op (TpuEff.enqueueDma (srcRow w hw) (DmaTarget.here (p := (thr d L).2) (dstRow off inb)) (.dma cc2_scratch1.sem) hs hd hsem) k) Q) := by
  unfold Rk
  iintro ⟨⟨Htok, Hrow⟩, HB⟩ Hk
  ihave Htok' := ((pointsTo_split_subset (ℓ := tLoc d) (I := (srcRow w hw).view.set) (S := Finset.univ) (Finset.subset_univ _)).1) $$ Htok
  icases Htok' with ⟨Hsrc, -⟩
  iapply (Transfers.wp_dmaBatch (EC (F := F)) 𝒱₀ (thr d L) none (src := srcRow w hw) (dst := dstRow off inb)
      (q := Transfers.shareTok (tsh L) 512 t) (fs := m (tLoc d)) (Sd := rowSet (tileRow L t)) (fd := m (oLoc d)) (D := Dl m d L) (j := t.val) (u := 0)
      (none : HIx 8) N rfl (set_dstRow off inb (tileRow L t) hoff).le t.isLt (Nat.zero_le _) ?hD) $$ [Hsrc Hrow HB]
  case hD =>
    iintro ⟨H, -⟩
    unfold Dl
    iapply (Entails.of_eq (pointsTo_congr (fun i hi => landed_eq m d L t off inb hoff w hw hwv hlt i hi)))
    iexact H
  · isplitl [Hsrc]; · iexact Hsrc
    isplitl [Hrow]; · iexact Hrow
    iexact HB
  iexact Hk

end Cert.Proof.KI.R2

end
-- ==== Proof.KIDrain2.lean ====
/-
  The tile's second loop: 512 waits on the one semaphore that the 512 row copies complete on. Each wait takes one
  copy's units off the counter; copies land in any order, so a wait that is not the last proves nothing about any
  row, and only the last — when all 512 copies' units have been taken — hands back every row holding its value and
  the counter at zero. The invariant before wait k says exactly that: k copies' units consumed and the batch still
  open, or (after the last) every delivery in hand.
-/
import proofs.«218896_g85959475462175_cont_9to1_m_647_27_alg».proof.Proof.KITileDefs2

noncomputable section

namespace Cert.Proof.KI.R2

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- The loop makes 512 trips. -/
theorem trips2 : Scf.trips k2_t2_loop.lb k2_t2_loop.ub k2_t2_loop.st = 512 := by decide

/-- A row's credit is positive. -/
theorem N_pos : 0 < N := View.dmaCredit_pos _ (by decide)

/-- Before wait `k` of the 512: the batch with `k` transfers' units consumed; after the last, every delivery. -/
def inv2 (O : CellTallies nD τ sig (HIx 8)) (W : Waits sig (HIx 8)) (k : ℕ) (_ : Unit) : sProp 𝕄 :=
  iprop(Transfers.MayWaits (thr d L) (none : HIx 8) O
    ∗ ((⌜k < 512⌝ ∗ Transfers.Batch (EC (F := F)) (thr d L) (.dma cc2_scratch1.sem) (none : HIx 8) N (Dl m d L) 512 (k * N)
          ∗ ∃ W', ⌜∀ p ∈ W', p ∈ W ∨ p.2 = none⌝ ∗ owes (thr d L) O W')
      ∨ (⌜k = 512⌝ ∗ bigSep Finset.univ (Dl m d L) ∗ semVal (cB d L) 0 ∗ ∃ W', ⌜∀ p ∈ W', p ∈ W ∨ p.2 = none⌝ ∗ owes (thr d L) O W')))

variable [FloatOps F]

/-- The 512 waits: from the batch with every copy started and nothing consumed, to every row delivered and the counter at
    zero; each wait is recorded at the index of the tile's own copies. -/
theorem drain (O : CellTallies nD τ sig (HIx 8)) (W : Waits sig (HIx 8)) :
    iprop(Transfers.MayWaits (thr d L) (none : HIx 8) O
        ∗ Transfers.Batch (EC (F := F)) (thr d L) (.dma cc2_scratch1.sem) (none : HIx 8) N (Dl m d L) 512 0
        ∗ owes (thr d L) O W)
      ⊢ wp frame (wpE (defs₀ (F := F)) 𝒱₀ (thr d L) none) Set.univ
          (Scf.Loop.for k2_t2_loop k2_t2_ok ⟨⟩ (k2_t2_body L tW (Memref.isWhole_whole _) iW (Memref.isWhole_whole _) oW (Memref.isWhole_whole _) sW (Memref.isWhole_whole _) cc2_scratch1 cc2_scoped0))
          (fun _ => iprop(bigSep Finset.univ (Dl m d L) ∗ semVal (cB d L) 0 ∗ ∃ W', ⌜∀ p ∈ W', p ∈ W ∨ p.2 = none⌝ ∗ owes (thr d L) O W')) := by
  iintro ⟨#Hmw, HB, HO⟩
  sl_for (inv2 m d L O W) $$ [HB HO]
  case region =>
    intro k acc
    have hk : k.val < 512 := Nat.lt_of_lt_of_eq k.isLt trips2
    have e : (k.val + 1) * N = k.val * N + N := by rw [Nat.add_mul, Nat.one_mul]
    unfold inv2
    iintro ⟨#Hmw, H⟩
    sl_exec
    icases H with (⟨-, HB, %W', %hW', HO⟩ | ⟨%hk', -⟩)
    rotate_left
    · exfalso; omega
    ihave Hmw1 := (Transfers.MayWaits.elim (SemLoc.dma cc2_scratch1.sem)) $$ Hmw
    have hW'' : ∀ p ∈ insert (SemLoc.dma cc2_scratch1.sem, (none : HIx 8)) W', p ∈ W ∨ p.2 = none := by
      intro p hp
      rcases Finset.mem_insert.mp hp with hp | hp
      · exact .inr (hp ▸ rfl)
      · exact hW' p hp
    by_cases hlast : k.val + 1 < 512
    · have hu : k.val * N + N < N * 512 := by
        have h1 : (k.val + 1) * N < 512 * N := Nat.mul_lt_mul_of_pos_right hlast N_pos
        rw [e] at h1; rw [Nat.mul_comm N 512]; exact h1
      iapply (Transfers.wp_waitBatchO (EC (F := F)) 𝒱₀ (thr d L) none (none : HIx 8) (N := N) rfl hu) $$ [HB HO Hmw1]
      · isplitl [HB]; · iexact HB
        isplitl [HO]; · iexact HO
        iexact Hmw1
      iintro ⟨HB, HO⟩
      sl_step
      isplitr; · iexact Hmw
      ileft
      isplitr; · ipureintro; exact hlast
      rw [e]
      isplitl [HB]; · iexact HB
      iexists _; isplitr
      · ipureintro; exact hW''
      · iexact HO
    · have hu : k.val * N + N = N * 512 := by
        have h1 : k.val = 511 := by omega
        rw [h1]; omega
      iapply (Transfers.wp_waitBatchLastO (EC (F := F)) 𝒱₀ (thr d L) none (none : HIx 8) (N := N) rfl N_pos hu) $$ [HB HO Hmw1]
      · isplitl [HB]; · iexact HB
        isplitl [HO]; · iexact HO
        iexact Hmw1
      iintro ⟨HD, Hv, HO⟩
      sl_step
      isplitr; · iexact Hmw
      iright
      isplitr; · ipureintro; omega
      isplitl [HD]; · iexact HD
      isplitl [Hv]; · iexact Hv
      iexists _; isplitr
      · ipureintro; exact hW''
      · iexact HO
  rw [trips2]
  isplitl [HB HO]
  · unfold inv2
    isplitr; · iexact Hmw
    ileft
    isplitr; · ipureintro; omega
    rw [Nat.zero_mul]
    isplitl [HB]; · iexact HB
    iexists W; isplitr
    · ipureintro; exact fun p hp => .inl hp
    · iexact HO
  · iintro %acc HI
    unfold inv2
    icases HI with ⟨-, (⟨%h, -⟩ | ⟨-, HD, Hv, HW⟩)⟩
    · exfalso; omega
    isplitl [HD]; · iexact HD
    isplitl [Hv]; · iexact Hv
    iexact HW

end Cert.Proof.KI.R2

end
-- ==== Proof.KITile2.lean ====
/-
  The tile's obligation at call 2: the index words fetched into the scratch, the 512 row copies started sixteen to a
  trip on one semaphore as ONE batch (no copy's source or destination is touched between the first start and the
  last wait), the batch drained by 512 waits, and the rows handed back holding the lookup's value.
-/
import proofs.«218896_g85959475462175_cont_9to1_m_647_27_alg».proof.Proof.KITileDefs2
import proofs.«218896_g85959475462175_cont_9to1_m_647_27_alg».proof.Proof.KIView2
import proofs.«218896_g85959475462175_cont_9to1_m_647_27_alg».proof.Proof.KIIssue2
import proofs.«218896_g85959475462175_cont_9to1_m_647_27_alg».proof.Proof.KIDrain2

noncomputable section

namespace Cert.Proof.KI.R2

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- Before trip `k` of the first loop: the scratch at the landed index words, the first `16 k` copies started and none
    waited for, the later copies' tokens and rows still in hand. -/
def inv1 (k : Nat) (_ : PUnit) : sProp 𝕄 :=
  iprop(∃ sc, ⌜Holds m d L sc⌝ ∗ ((sW : Memref sig .scVector .vmem S512 .i32).view.loc (thr d L) ↦{fullShare} sc)
    ∗ Transfers.Batch (EC (F := F)) (thr d L) (.dma cc2_scratch1.sem) (none : HIx 8) N (Dl m d L) (16 * k) 0
    ∗ bigSep (Transfers.pending (n := 512) (16 * k)) (Rk m d L))

/-- The sixteen words a trip loads. -/
abbrev loaded (k : Fin k2_t1_loop.trips) (sc : Buf (Elt F) ((sW : Memref sig .scVector .vmem S512 .i32).view.loc (thr d L))) : Vec F S16 .i32 :=
  (sW : Memref sig .scVector .vmem S512 .i32).view.readAt (Elt F) (Rect.unit (s := S512) (k2_off2 k) S16.size (k2_off2_inb k)).toLoadRect sc

theorem off_eq {x y : Nat} (h : x = y) : (![x, 0] : Fin 2 → Nat) = ![y, 0] := by rw [h]

variable [FloatOps F]

/- Copy `j` of a trip: its index word names a row of the table (the check passes), and the copy is the batch's
   transfer `16 k + j`, started from that transfer's token and row. -/
set_option hygiene false in
local macro "issue_copy " j:num " with " chk:ident ", " wj:ident ", " offeq:ident : tactic => `(tactic| (
  iapply (wp_assume 𝒱₀ (thr d L) none Set.univ ($chk:ident ((congrArg BitVec.toNat ($wj:ident (loaded d L k sc))).trans_lt (hwlt ⟨$j, by decide⟩))))
  sl_exec
  ihave Hp := (Entails.of_eq (Transfers.bigSep_pending_step (Rk m d L) (16 * k.val + $j) (hidx ⟨$j, by decide⟩))) $$ Hpend
  icases Hp with ⟨HR, Hpend⟩
  iapply (wp_issue m d L ⟨16 * k.val + $j, hidx ⟨$j, by decide⟩⟩ _ _
      (($offeq:ident L k).trans (off_eq (by show _ = base L + (16 * k.val + $j); unfold base; omega))) _ _
      (($wj:ident (loaded d L k sc)).trans (hwv ⟨$j, by decide⟩)) ((congrArg BitVec.toNat ($wj:ident (loaded d L k sc))).trans_lt (hwlt ⟨$j, by decide⟩))) $$ [HR HB]
  · isplitl [HR]
    · iexact HR
    iexact HB
  iintro HB
  sl_exec))

theorem tile_body (hF : (K (F := F)).Facts) (hpre : ∀ d, Spec.InRange nRows (m (iLoc d))) : TileBody m := by
  intro d L O W hO
  simp only [cc2__gather_body_eq_skeleton]; unfold cc2__gather_body_skel
  rw [(K (F := F)).scopedBufs_V hF d (cV L) (jV L), SparseCore.Cfg.scopedSems0_V (Val := Elt F) d (cV L) (jV L), ownSems0_V, ownBufs_V]
  unfold go
  iintro ⟨#Hlv, -, ⟨Ht, Hi, Hrows⟩, ⟨⟨%fs, Hs⟩, Hbufs⟩, ⟨HsemS, HsemB, Hsems⟩, HO⟩
  ihave Hmw := ((K (F := F)).mayWaits_none (thr := thr d L) hO) $$ Hlv
  ihave Hi' := (Entails.of_eq (pts_i (F := F) d L _ _).symm) $$ Hi
  ihave Hs' := (Entails.of_eq (pts_s (F := F) d L _).symm) $$ Hs
  -- the index words fetched into the scratch, and the fetch waited for
  sl_exec
  -- the 512 copies' batch on the shared semaphore, allocated before the first is started
  imod (Transfers.batch_alloc' (Lvl := ℕ) (EC (F := F)) (thr d L) (none : HIx 8) N (Dl m d L) (sm := .dma cc2_scratch1.sem) (E := Set.univ)) $$ HsemB with HB
  -- the table's token dealt into one per copy
  ihave Ht' := (Transfers.pointsTo_toks_split (tsh L) 512) $$ Ht
  icases Ht' with ⟨-, Htoks⟩
  sl_for (inv1 m d L) $$ [Hs' HB Htoks Hrows]
  case region =>
    intro k hk
    unfold inv1
    iintro ⟨%sc, %hsc, Hs, HB, Hpend⟩
    have hk32 : k.val < 32 := lt_of_lt_of_eq k.isLt trips1
    have hidx : ∀ j : Fin 16, 16 * k.val + j.val < 512 := fun j => by have := j.isLt; omega
    -- the sixteen words the trip loads are the tile's index words 16 k … 16 k + 15; each names a row of the table
    have hwv : ∀ j : Fin 16, loaded d L k sc (ValueIdx.ix1 j) = m (iLoc d) (ValueIdx.ix1 (tileRow L ⟨16 * k.val + j.val, hidx j⟩)) :=
      fun j => (loaded_word d L k sc j).trans (hsc _)
    have hwlt : ∀ j : Fin 16, (loaded d L k sc (ValueIdx.ix1 j)).toNat < nRows := fun j => by rw [hwv j]; exact (hpre d).toNat_lt _
    sl_exec
    issue_copy 0 with chk_of_lt_1, word_0, k2_off3_eq
    issue_copy 1 with chk_of_lt_2, word_1, k2_off5_eq
    issue_copy 2 with chk_of_lt_3, word_2, k2_off7_eq
    issue_copy 3 with chk_of_lt_4, word_3, k2_off9_eq
    issue_copy 4 with chk_of_lt_5, word_4, k2_off11_eq
    issue_copy 5 with chk_of_lt_6, word_5, k2_off13_eq
    issue_copy 6 with chk_of_lt_7, word_6, k2_off15_eq
    issue_copy 7 with chk_of_lt_8, word_7, k2_off17_eq
    issue_copy 8 with chk_of_lt_9, word_8, k2_off19_eq
    issue_copy 9 with chk_of_lt_10, word_9, k2_off21_eq
    issue_copy 10 with chk_of_lt_11, word_10, k2_off23_eq
    issue_copy 11 with chk_of_lt_12, word_11, k2_off25_eq
    issue_copy 12 with chk_of_lt_13, word_12, k2_off27_eq
    issue_copy 13 with chk_of_lt_14, word_13, k2_off29_eq
    issue_copy 14 with chk_of_lt_15, word_14, k2_off31_eq
    issue_copy 15 with chk_of_lt_16, word_15, k2_off33_eq
    -- the trip's return: the invariant at `k + 1`
    rw [show 16 * (k.val + 1) = 16 * k.val + 15 + 1 by omega]
    sl_step
    iexists sc
    isplitr; · ipureintro; exact hsc
    isplitl [Hs]; · iexact Hs
    isplitl [HB]; · iexact HB
    iexact Hpend
  · -- the loop's entry: nothing started, every copy's token and row in hand
    unfold inv1
    iexists _
    isplitr; · ipureintro; exact fun t => scratch_holds d L fs (m (iLoc d)) t
    isplitl [Hs']; · iexact Hs'
    isplitl [HB]; · iexact HB
    rw [show 16 * 0 = 0 from rfl, ← Transfers.bigSep_pending_zero]
    unfold Rk
    rw [bigSep_sep']
    isplitl [Htoks]; · iexact Htoks
    iexact Hrows
  -- after the first loop: all 512 started, none waited for
  iintro %_ HI
  unfold inv1
  icases HI with ⟨%sc, -, Hs, HB, -⟩
  sl_exec
  have h512 : 16 * Scf.trips k2_t1_loop.lb k2_t1_loop.ub k2_t1_loop.st = 512 := by decide
  rw [h512]
  -- the second loop drains the batch: every row comes back holding the lookup's value
  simp only [wp_bind]
  ihave Hd := (drain m d L O _) $$ [HB HO]
  · isplitr; · iexact Hmw
    isplitl [HB]; · iexact HB
    iexact HO
  iapply (wp_wand frame _ Set.univ) $$ Hd
  iintro %_ ⟨HD, HsemB, %W', %hW', HO⟩
  sl_step
  isplitl [HD]
  · unfold td; iexact HD
  isplitl [Hs Hbufs]
  · isplitl [Hs]
    · iexists _; iapply (Entails.of_eq (pts_s (F := F) d L _)); iexact Hs
    iexact Hbufs
  isplitl [HsemS HsemB Hsems]
  · isplitl [HsemS]; · iexact HsemS
    isplitl [HsemB]; · iexact HsemB
    iexact Hsems
  iexists W'; isplitr
  · ipureintro; intro p hp
    rcases hW' p hp with h | h
    · rcases Finset.mem_insert.mp h with rfl | h
      · exact .inr rfl
      · exact .inl h
    · exact .inr h
  iexact HO

end Cert.Proof.KI.R2

end
-- ==== Proof.KITileDefs3.lean ====
/-
  The tile's own names for call 3's body: its thread, its two DMA semaphores' cells, its scoped storage opened to
  the scratch and those two cells, the batch of the 512 row copies (each copy's delivery: its row of the result at
  the lookup's value), and what a copy needs before it is started.
-/
import proofs.«218896_g85959475462175_cont_9to1_m_647_27_alg».proof.Proof.KIRes3

noncomputable section

namespace Cert.Proof.KI.R3

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

abbrev thr : Thread nD τ := V d (cV L) (jV L)
abbrev cS : GSem nD τ sig := (thr d L, .dma cc3_scoped0.sem)
abbrev cB : GSem nD τ sig := (thr d L, .dma cc3_scratch1.sem)

theorem ownSems0_V :
    (ownSems0 (thr d L) : sProp 𝕄)
      = iprop(semVal (cS d L) 0 ∗ semVal (cB d L) 0 ∗ bigSep (((ownCells (thr d L)).erase (cS d L)).erase (cB d L)) fun g => semVal g 0) := by
  unfold SparseCore.Cfg.ownSems0
  rw [SparseCore.bigSep_erase' ((mem_ownCells (g := cS d L)).mpr ⟨rfl, by
      show (SemLoc.dma cc3_scoped0.sem : SemLoc sig).isScoped .scVector = true; decide⟩),
    SparseCore.bigSep_erase' (Finset.mem_erase.mpr ⟨by simp [cS, cB]; decide, (mem_ownCells (g := cB d L)).mpr ⟨rfl, by
      show (SemLoc.dma cc3_scratch1.sem : SemLoc sig).isScoped .scVector = true; decide⟩⟩)]

theorem ownBufs_V :
    (ownBufs (thr d L) : sProp 𝕄)
      = iprop((∃ f, (thr d L).loc scrScv ↦{fullShare} f)
          ∗ bigSep ((ownRefs (τ := τ) (.scVector (cV L) (jV L))).erase ((Proc.scVector (cV L) (jV L)).devRef scrScv))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef scrScv) rfl)

omit m in
theorem pts_i (q : PosShare TreeShare) (f : Buf (Elt F) (iLoc d)) :
    ((iW : Memref sig .scVector .hbm S16384 .i32).view.loc (thr d L) ↦{q} f : sProp 𝕄) = iLoc d ↦{q} f := rfl
omit m in
theorem pts_t (q : PosShare TreeShare) (f : Buf (Elt F) (tLoc d)) :
    ((tW : Memref sig .scVector .hbm TS .f32).view.loc (thr d L) ↦{q} f : sProp 𝕄) = tLoc d ↦{q} f := rfl
omit m in
theorem pts_s (f : Buf (Elt F) ((thr d L).loc scrScv)) :
    ((sW : Memref sig .scVector .vmem S512 .i32).view.loc (thr d L) ↦{fullShare} f : sProp 𝕄) = (thr d L).loc scrScv ↦{fullShare} f := rfl

/-- The counters of the tile's own copies. -/
abbrev EC : UEmb Counters (MT nD τ sig (HIx 8) (Elt F) ℕ UU ℕ) := countersEmb (U := UU)

/-- Row 0 of the result as the waits name it: any row's credit. -/
abbrev row0 : Memref sig .scVector .hbm S64 .f32 :=
  ((oW : Memref sig .scVector .hbm S16384x64 .f32).slice (Rect.unit (s := S16384x64) ![0, 0] S1x64.size inb_S16384x64_S1x64_0_0) (fun _ => rfl)).squeeze S64 squeezes_S1x64_S64
abbrev N : ℕ := (row0).view.dmaCredit

/-- The tile's read token of the table. -/
abbrev tsh : PosShare TreeShare := Transfers.shareTok fullShare 32 (wid L)

/-- Copy `t` of the 512 delivers row `t` of the tile's rows holding the lookup's value. -/
def Dl (t : Fin 512) : sProp 𝕄 := oLoc d ↦[rowSet (tileRow L t)]{fullShare} G m d

instance Dl_storable (t : Fin 512) : BI.Storable (upEmb : UEmb _ 𝕄) (Dl m d L t) := by unfold Dl; infer_instance

/-- What copy `t` needs before it is started: its own read token of the table, and its row of the result. -/
def Rk (t : Fin 512) : sProp 𝕄 :=
  iprop((tLoc d ↦{Transfers.shareTok (tsh L) 512 t} m (tLoc d)) ∗ (oLoc d ↦[rowSet (tileRow L t)]{fullShare} m (oLoc d)))

/-- The scratch holds the tile's 512 index words. -/
def Holds (sc : Buf (Elt F) ((sW : Memref sig .scVector .vmem S512 .i32).view.loc (thr d L))) : Prop :=
  ∀ t : Fin 512, sc (ValueIdx.ix1 t) = m (iLoc d) (ValueIdx.ix1 (tileRow L t))

end Cert.Proof.KI.R3

end
-- ==== Proof.KIView3.lean ====
/-
  Call 3 of the eight: what the tile's memory accesses address and read, as plain facts about index sets and
  contents, with no program logic in them.

  The tile at grid coordinates L owns result rows base L … base L + 511. It copies index words base L … base L + 511
  into its 512-word scratch (scratch_holds: word t of the scratch is then word base L + t of the index array);
  in trip g it loads the sixteen scratch words 16g … 16g + 15 (loaded_word) and takes them apart one at a time
  (word_0 … word_15); for each word w it copies table row w, when w names a row (chk_of_lt_N), onto one result row
  (set_dstRow: the destination is exactly that row's set of indices; write_row: after the copy the row holds table row w,
  column by column). G_row is the lookup's value at one index, and mem_rowSet_fst says that an index of row r's set has
  first coordinate r.
-/
import proofs.«218896_g85959475462175_cont_9to1_m_647_27_alg».proof.Proof.KIRes3

noncomputable section

namespace Cert.Proof.KI.R3

open Cert.KernelIdeal Cert.KernelIdeal.Gen Cert.Proof.KI

open Idealize.ShloMosaic
open Idealize.ShloMosaic.SparseCore (S V T)

variable {F : FTy → Type}

/-! ## A word that names a row passes the copy's side condition -/

theorem chk_of_lt_1 {w : BitVec 32} (h : w.toNat < nRows) : k3_chk1 w := fun a =>
  match a with
  | 0 => show w.toNat + 1 ≤ nRows from h
  | 1 => show 0 + 64 ≤ 64 from Nat.le_refl _
theorem chk_of_lt_2 {w : BitVec 32} (h : w.toNat < nRows) : k3_chk2 w := fun a =>
  match a with
  | 0 => show w.toNat + 1 ≤ nRows from h
  | 1 => show 0 + 64 ≤ 64 from Nat.le_refl _
theorem chk_of_lt_3 {w : BitVec 32} (h : w.toNat < nRows) : k3_chk3 w := fun a =>
  match a with
  | 0 => show w.toNat + 1 ≤ nRows from h
  | 1 => show 0 + 64 ≤ 64 from Nat.le_refl _
theorem chk_of_lt_4 {w : BitVec 32} (h : w.toNat < nRows) : k3_chk4 w := fun a =>
  match a with
  | 0 => show w.toNat + 1 ≤ nRows from h
  | 1 => show 0 + 64 ≤ 64 from Nat.le_refl _
theorem chk_of_lt_5 {w : BitVec 32} (h : w.toNat < nRows) : k3_chk5 w := fun a =>
  match a with
  | 0 => show w.toNat + 1 ≤ nRows from h
  | 1 => show 0 + 64 ≤ 64 from Nat.le_refl _
theorem chk_of_lt_6 {w : BitVec 32} (h : w.toNat < nRows) : k3_chk6 w := fun a =>
  match a with
  | 0 => show w.toNat + 1 ≤ nRows from h
  | 1 => show 0 + 64 ≤ 64 from Nat.le_refl _
theorem chk_of_lt_7 {w : BitVec 32} (h : w.toNat < nRows) : k3_chk7 w := fun a =>
  match a with
  | 0 => show w.toNat + 1 ≤ nRows from h
  | 1 => show 0 + 64 ≤ 64 from Nat.le_refl _
theorem chk_of_lt_8 {w : BitVec 32} (h : w.toNat < nRows) : k3_chk8 w := fun a =>
  match a with
  | 0 => show w.toNat + 1 ≤ nRows from h
  | 1 => show 0 + 64 ≤ 64 from Nat.le_refl _
theorem chk_of_lt_9 {w : BitVec 32} (h : w.toNat < nRows) : k3_chk9 w := fun a =>
  match a with
  | 0 => show w.toNat + 1 ≤ nRows from h
  | 1 => show 0 + 64 ≤ 64 from Nat.le_refl _
theorem chk_of_lt_10 {w : BitVec 32} (h : w.toNat < nRows) : k3_chk10 w := fun a =>
  match a with
  | 0 => show w.toNat + 1 ≤ nRows from h
  | 1 => show 0 + 64 ≤ 64 from Nat.le_refl _
theorem chk_of_lt_11 {w : BitVec 32} (h : w.toNat < nRows) : k3_chk11 w := fun a =>
  match a with
  | 0 => show w.toNat + 1 ≤ nRows from h
  | 1 => show 0 + 64 ≤ 64 from Nat.le_refl _
theorem chk_of_lt_12 {w : BitVec 32} (h : w.toNat < nRows) : k3_chk12 w := fun a =>
  match a with
  | 0 => show w.toNat + 1 ≤ nRows from h
  | 1 => show 0 + 64 ≤ 64 from Nat.le_refl _
theorem chk_of_lt_13 {w : BitVec 32} (h : w.toNat < nRows) : k3_chk13 w := fun a =>
  match a with
  | 0 => show w.toNat + 1 ≤ nRows from h
  | 1 => show 0 + 64 ≤ 64 from Nat.le_refl _
theorem chk_of_lt_14 {w : BitVec 32} (h : w.toNat < nRows) : k3_chk14 w := fun a =>
  match a with
  | 0 => show w.toNat + 1 ≤ nRows from h
  | 1 => show 0 + 64 ≤ 64 from Nat.le_refl _
theorem chk_of_lt_15 {w : BitVec 32} (h : w.toNat < nRows) : k3_chk15 w := fun a =>
  match a with
  | 0 => show w.toNat + 1 ≤ nRows from h
  | 1 => show 0 + 64 ≤ 64 from Nat.le_refl _
theorem chk_of_lt_16 {w : BitVec 32} (h : w.toNat < nRows) : k3_chk16 w := fun a =>
  match a with
  | 0 => show w.toNat + 1 ≤ nRows from h
  | 1 => show 0 + 64 ≤ 64 from Nat.le_refl _

/-! ## The sixteen words of a load, one at a time -/

theorem word_0 (v7 : Vec F S16 .i32) : extractAt ![0] (k3_pay1 v7) inpos_S1_p0 = v7 (ValueIdx.ix1 ⟨0, by decide⟩) := by
  unfold k3_pay1 extractAt extractStridedSlice
  exact congrArg v7 (funext fun a => by obtain rfl : a = 0 := Subsingleton.elim _ _; rfl)
theorem word_1 (v7 : Vec F S16 .i32) : extractAt ![0] (k3_pay2 v7) inpos_S1_p0 = v7 (ValueIdx.ix1 ⟨1, by decide⟩) := by
  unfold k3_pay2 extractAt extractStridedSlice
  exact congrArg v7 (funext fun a => by obtain rfl : a = 0 := Subsingleton.elim _ _; rfl)
theorem word_2 (v7 : Vec F S16 .i32) : extractAt ![0] (k3_pay3 v7) inpos_S1_p0 = v7 (ValueIdx.ix1 ⟨2, by decide⟩) := by
  unfold k3_pay3 extractAt extractStridedSlice
  exact congrArg v7 (funext fun a => by obtain rfl : a = 0 := Subsingleton.elim _ _; rfl)
theorem word_3 (v7 : Vec F S16 .i32) : extractAt ![0] (k3_pay4 v7) inpos_S1_p0 = v7 (ValueIdx.ix1 ⟨3, by decide⟩) := by
  unfold k3_pay4 extractAt extractStridedSlice
  exact congrArg v7 (funext fun a => by obtain rfl : a = 0 := Subsingleton.elim _ _; rfl)
theorem word_4 (v7 : Vec F S16 .i32) : extractAt ![0] (k3_pay5 v7) inpos_S1_p0 = v7 (ValueIdx.ix1 ⟨4, by decide⟩) := by
  unfold k3_pay5 extractAt extractStridedSlice
  exact congrArg v7 (funext fun a => by obtain rfl : a = 0 := Subsingleton.elim _ _; rfl)
theorem word_5 (v7 : Vec F S16 .i32) : extractAt ![0] (k3_pay6 v7) inpos_S1_p0 = v7 (ValueIdx.ix1 ⟨5, by decide⟩) := by
  unfold k3_pay6 extractAt extractStridedSlice
  exact congrArg v7 (funext fun a => by obtain rfl : a = 0 := Subsingleton.elim _ _; rfl)
theorem word_6 (v7 : Vec F S16 .i32) : extractAt ![0] (k3_pay7 v7) inpos_S1_p0 = v7 (ValueIdx.ix1 ⟨6, by decide⟩) := by
  unfold k3_pay7 extractAt extractStridedSlice
  exact congrArg v7 (funext fun a => by obtain rfl : a = 0 := Subsingleton.elim _ _; rfl)
theorem word_7 (v7 : Vec F S16 .i32) : extractAt ![0] (k3_pay8 v7) inpos_S1_p0 = v7 (ValueIdx.ix1 ⟨7, by decide⟩) := by
  unfold k3_pay8 extractAt extractStridedSlice
  exact congrArg v7 (funext fun a => by obtain rfl : a = 0 := Subsingleton.elim _ _; rfl)
theorem word_8 (v7 : Vec F S16 .i32) : extractAt ![0] (k3_pay9 v7) inpos_S1_p0 = v7 (ValueIdx.ix1 ⟨8, by decide⟩) := by
  unfold k3_pay9 extractAt extractStridedSlice
  exact congrArg v7 (funext fun a => by obtain rfl : a = 0 := Subsingleton.elim _ _; rfl)
theorem word_9 (v7 : Vec F S16 .i32) : extractAt ![0] (k3_pay10 v7) inpos_S1_p0 = v7 (ValueIdx.ix1 ⟨9, by decide⟩) := by
  unfold k3_pay10 extractAt extractStridedSlice
  exact congrArg v7 (funext fun a => by obtain rfl : a = 0 := Subsingleton.elim _ _; rfl)
theorem word_10 (v7 : Vec F S16 .i32) : extractAt ![0] (k3_pay11 v7) inpos_S1_p0 = v7 (ValueIdx.ix1 ⟨10, by decide⟩) := by
  unfold k3_pay11 extractAt extractStridedSlice
  exact congrArg v7 (funext fun a => by obtain rfl : a = 0 := Subsingleton.elim _ _; rfl)
theorem word_11 (v7 : Vec F S16 .i32) : extractAt ![0] (k3_pay12 v7) inpos_S1_p0 = v7 (ValueIdx.ix1 ⟨11, by decide⟩) := by
  unfold k3_pay12 extractAt extractStridedSlice
  exact congrArg v7 (funext fun a => by obtain rfl : a = 0 := Subsingleton.elim _ _; rfl)
theorem word_12 (v7 : Vec F S16 .i32) : extractAt ![0] (k3_pay13 v7) inpos_S1_p0 = v7 (ValueIdx.ix1 ⟨12, by decide⟩) := by
  unfold k3_pay13 extractAt extractStridedSlice
  exact congrArg v7 (funext fun a => by obtain rfl : a = 0 := Subsingleton.elim _ _; rfl)
theorem word_13 (v7 : Vec F S16 .i32) : extractAt ![0] (k3_pay14 v7) inpos_S1_p0 = v7 (ValueIdx.ix1 ⟨13, by decide⟩) := by
  unfold k3_pay14 extractAt extractStridedSlice
  exact congrArg v7 (funext fun a => by obtain rfl : a = 0 := Subsingleton.elim _ _; rfl)
theorem word_14 (v7 : Vec F S16 .i32) : extractAt ![0] (k3_pay15 v7) inpos_S1_p0 = v7 (ValueIdx.ix1 ⟨14, by decide⟩) := by
  unfold k3_pay15 extractAt extractStridedSlice
  exact congrArg v7 (funext fun a => by obtain rfl : a = 0 := Subsingleton.elim _ _; rfl)
theorem word_15 (v7 : Vec F S16 .i32) : extractAt ![0] (k3_pay16 v7) inpos_S1_p0 = v7 (ValueIdx.ix1 ⟨15, by decide⟩) := by
  unfold k3_pay16 extractAt extractStridedSlice
  exact congrArg v7 (funext fun a => by obtain rfl : a = 0 := Subsingleton.elim _ _; rfl)

/-! ## The lookup's value at an index; the indices of a row -/

variable (m : (ℓ : Loc nD τ sig) → Buf (Elt F) ℓ)

theorem G_row (d : Dev nD) (r : Fin 16384) (k : Fin 64) :
    G m d (ValueIdx.ix2 r k) = m (tLoc d) (ValueIdx.ix2 (Spec.rowOf nRows nRows_pos (m (iLoc d) (ValueIdx.ix1 r))) k) := by
  unfold G
  exact Spec.gatherRows_apply nRows nRows_pos (m (tLoc d)) (m (iLoc d)) r k

theorem mem_rowSet_fst {r : Fin 16384} {i : S16384x64.Idx} (h : i ∈ rowSet r) : i 0 = r := by
  have h' : i ∈ (row r).set := by rw [← View.set_slice_whole outScv (row r)]; exact h
  rw [Rect.mem_set_unit] at h'
  have h0 := h' 0
  apply Fin.ext
  simp only [Shape.partIx, Shape.partSize] at h0
  have e : S16384x64.size 0 / 16384 = 1 := by decide
  simp only [↓reduceIte, e] at h0
  omega

/-! ## The destination of one row's copy -/

/-- The one-row rectangle at row r is the r-th of the 16384 parts of the result along its first axis. -/
theorem unitRow_eq (r : Fin 16384) (inb : ∀ a, (![r.val, 0] : Fin 2 → Nat) a + S1x64.size a ≤ S16384x64.size a) :
    Rect.unit (s := S16384x64) ![r.val, 0] S1x64.size inb = row r := by
  unfold row Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem set_dstRow (off : Fin 2 → Nat) (inb : ∀ a, off a + S1x64.size a ≤ S16384x64.size a) (r : Fin 16384)
    (hoff : off = ![r.val, 0]) :
    (((oW : Memref sig .scVector .hbm S16384x64 .f32).slice (Rect.unit (s := S16384x64) off S1x64.size inb) (fun _ => rfl)).squeeze S64
        squeezes_S1x64_S64).view.set = rowSet r := by
  subst hoff
  show (((oW : Memref sig .scVector .hbm S16384x64 .f32).view.slice (Rect.unit (s := S16384x64) ![r.val, 0] S1x64.size inb)).reshape S64
      squeezes_S1x64_S64.numel_eq).set = ((oW : Memref sig .scVector .hbm S16384x64 .f32).view.slice (row r)).set
  rw [View.set_reshape]
  exact unitRow_eq r inb ▸ rfl

/-! ## What the scratch holds after the first copy, and what a trip loads from it -/

theorem trips1 : k3_t1_loop.trips = 32 := by decide

theorem word_lt (g : Fin k3_t1_loop.trips) (j : Fin 16) : 16 * g.val + j.val < 512 := by
  have hg : g.val < 32 := Nat.lt_of_lt_of_eq g.isLt trips1
  have hj := j.isLt
  omega

/-- Word j of the sixteen that trip g loads is word 16g + j of the scratch. -/
theorem loaded_word (d : Dev nD) (L : grid0.Coords) (g : Fin k3_t1_loop.trips)
    (s : Buf (Elt F) ((sW : Memref sig .scVector .vmem S512 .i32).view.loc (V d (cV L) (jV L)))) (j : Fin 16) :
    ((sW : Memref sig .scVector .vmem S512 .i32).view.readAt (Elt F)
        (Rect.unit (s := S512) (k3_off2 g) S16.size (k3_off2_inb g)).toLoadRect s) (ValueIdx.ix1 j)
      = s (ValueIdx.ix1 ⟨16 * g.val + j.val, word_lt g j⟩) := by
  rw [View.readAt_apply]
  show s ((Rect.unit (s := S512) (k3_off2 g) S16.size (k3_off2_inb g)).toLoadRect.idx (ValueIdx.ix1 j)) = _
  refine congrArg s (funext fun (a : Fin 1) => Fin.ext ?_)
  obtain rfl : a = 0 := Subsingleton.elim _ _
  rw [LoadRect.idx_apply]
  show (k3_off2 g) 0 + 1 * j.val = 16 * g.val + j.val
  rw [k3_off2_eq]
  simp

/-- Once the first copy has landed, word t of the scratch is word base L + t of the index array. -/
theorem scratch_holds (d : Dev nD) (L : grid0.Coords)
    (fs : Buf (Elt F) ((sW : Memref sig .scVector .vmem S512 .i32).view.loc (V d (cV L) (jV L))))
    (mI : Buf (Elt F) (iLoc d)) (t : Fin 512) :
    ((sW : Memref sig .scVector .vmem S512 .i32).view.write (Elt F) fs
        ((ReadAs.same : ReadAs (Elt F) S512 .i32 S512 .i32).apply
          (((iW : Memref sig .scVector .hbm S16384 .i32).slice (Rect.unit (s := S16384) (k3_off1 L) S512.size (k3_off1_inb L))
              (fun _ => rfl)).view.read (Elt F) mI)) Finset.univ) (ValueIdx.ix1 t)
      = mI (ValueIdx.ix1 (⟨base L + t.val, base_add_lt L t⟩ : Fin 16384)) := by
  show ((View.whole scrScv).write (Elt F) fs
      (((iW : Memref sig .scVector .hbm S16384 .i32).view.slice (Rect.unit (s := S16384) (k3_off1 L) S512.size (k3_off1_inb L))).read (Elt F) mI)
      Finset.univ) (ValueIdx.ix1 t) = _
  rw [View.write_whole_univ, View.read_apply]
  refine (cast_eq _ _).trans ?_
  refine congrArg mI (funext fun (a : Fin 1) => Fin.ext ?_)
  obtain rfl : a = 0 := Subsingleton.elim _ _
  show (k3_off1 L) 0 + 1 * t.val = base L + t.val
  rw [k3_off1_eq]
  unfold base
  simp

/-! ## What one row's copy leaves -/

/-- A word that passes the copy's side condition names a row. -/
theorem lt_of_inb {w : BitVec 32} (hw : ∀ a, (k3_off4 w) a + S1x64.size a ≤ TS.size a) : w.toNat < nRows :=
  show w.toNat + 1 ≤ nRows from hw 0

/-- Column c of the destination row's own indices sits at (r, c) of the result. -/
theorem dst_emb (r : Fin 16384) (inb : ∀ a, (![r.val, 0] : Fin 2 → Nat) a + S1x64.size a ≤ S16384x64.size a) (x : S64.Idx) :
    (((oW : Memref sig .scVector .hbm S16384x64 .f32).slice (Rect.unit (s := S16384x64) ![r.val, 0] S1x64.size inb) (fun _ => rfl)).squeeze S64
        squeezes_S1x64_S64).view.emb x = ValueIdx.ix2 r (x 0) := by
  show (Rect.unit (s := S16384x64) ![r.val, 0] S1x64.size inb).emb (Shape.reshapeEquiv squeezes_S1x64_S64.numel_eq x) = _
  rw [Shape.reshapeEquiv_cons_one]
  funext a
  apply Fin.ext
  match a with
  | 0 => show r.val + 1 * 0 = r.val; omega
  | 1 => show 0 + 1 * (x 0).val = (x 0).val; omega

/-- Column c of the source row's own indices sits at (w, c) of the table. -/
theorem src_emb (w : BitVec 32) (hw : ∀ a, (k3_off4 w) a + S1x64.size a ≤ TS.size a) (x : S64.Idx) :
    (((tW : Memref sig .scVector .hbm TS .f32).slice (Rect.unit (s := TS) (k3_off4 w) S1x64.size hw) (fun _ => rfl)).squeeze S64
        squeezes_S1x64_S64).view.emb x = ValueIdx.ix2 (⟨w.toNat, lt_of_inb hw⟩ : Fin nRows) (x 0) := by
  show (Rect.unit (s := TS) (k3_off4 w) S1x64.size hw).emb (Shape.reshapeEquiv squeezes_S1x64_S64.numel_eq x) = _
  rw [Shape.reshapeEquiv_cons_one]
  funext a
  apply Fin.ext
  match a with
  | 0 => show w.toNat + 1 * 0 = w.toNat; omega
  | 1 => show 0 + 1 * (x 0).val = (x 0).val; omega

/-- After table row w has been copied onto result row r, every index of row r holds the table's entry at row w and the
    index's own column. -/
theorem write_row (d : Dev nD) (L : grid0.Coords) (off : Fin 2 → Nat) (inb : ∀ a, off a + S1x64.size a ≤ S16384x64.size a)
    (r : Fin 16384) (hoff : off = ![r.val, 0]) (w : BitVec 32) (hw : ∀ a, (k3_off4 w) a + S1x64.size a ≤ TS.size a)
    (fT : Buf (Elt F) (tLoc d)) (fO : Buf (Elt F) (oLoc d)) (i : S16384x64.Idx) (hi : i ∈ rowSet r) :
      ((((oW : Memref sig .scVector .hbm S16384x64 .f32).slice (Rect.unit (s := S16384x64) off S1x64.size inb) (fun _ => rfl)).squeeze S64
          squeezes_S1x64_S64).view.write (Elt F) fO
        ((ReadAs.same : ReadAs (Elt F) S64 .f32 S64 .f32).apply
          ((((tW : Memref sig .scVector .hbm TS .f32).slice (Rect.unit (s := TS) (k3_off4 w) S1x64.size hw) (fun _ => rfl)).squeeze S64
            squeezes_S1x64_S64).view.read (Elt F) fT)) Finset.univ) i
        = fT (ValueIdx.ix2 (⟨w.toNat, lt_of_inb hw⟩ : Fin nRows) (i 1)) := by
  subst hoff
  rw [← set_dstRow ![r.val, 0] inb r rfl] at hi
  obtain ⟨x, -, rfl⟩ := Finset.mem_map.mp hi
  rw [View.write_emb_of_mem _ _ (Finset.mem_univ x)]
  refine (cast_eq _ _).trans ?_
  show (((tW : Memref sig .scVector .hbm TS .f32).slice (Rect.unit (s := TS) (k3_off4 w) S1x64.size hw) (fun _ => rfl)).squeeze S64
      squeezes_S1x64_S64).view.read (Elt F) fT x = _
  rw [View.read_apply]
  refine (cast_eq _ _).trans ?_
  rw [src_emb w hw x, dst_emb r inb x]
  rfl

end Cert.Proof.KI.R3

end
-- ==== Proof.KIIssue3.lean ====
/-
  One of the tile's 512 row copies, started as the batch's next transfer. The copy reads the table row that the
  tile's `t`-th index word names and writes the tile's `t`-th row of the result; once it has landed, that row holds
  the lookup's value there: entry `(r, k)` of the result is entry `(idx r, k)` of the table.
-/
import proofs.«218896_g85959475462175_cont_9to1_m_647_27_alg».proof.Proof.KITileDefs3
import proofs.«218896_g85959475462175_cont_9to1_m_647_27_alg».proof.Proof.KIView3

noncomputable section

namespace Cert.Proof.KI.R3

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

variable (m : (ℓ : Loc nD τ sig) → Buf (Elt F) ℓ) (d : Dev nD) (L : grid0.Coords)

/-- A row of the result and a row of the table, as the body slices them. -/
abbrev dstRow (off : Fin 2 → Nat) (inb : ∀ a, off a + S1x64.size a ≤ S16384x64.size a) : Memref sig .scVector .hbm S64 .f32 :=
  ((oW : Memref sig .scVector .hbm S16384x64 .f32).slice (Rect.unit (s := S16384x64) off S1x64.size inb) (fun _ => rfl)).squeeze S64 squeezes_S1x64_S64
abbrev srcRow (w : BitVec 32) (hw : ∀ a, (k3_off4 w) a + S1x64.size a ≤ TS.size a) : Memref sig .scVector .hbm S64 .f32 :=
  ((tW : Memref sig .scVector .hbm TS .f32).slice (Rect.unit (s := TS) (k3_off4 w) S1x64.size hw) (fun _ => rfl)).squeeze S64 squeezes_S1x64_S64

variable [FloatOps F]

/-- What the landed copy leaves in its row is the lookup's value there. -/
theorem landed_eq (t : Fin 512) (off : Fin 2 → Nat) (inb : ∀ a, off a + S1x64.size a ≤ S16384x64.size a)
    (hoff : off = ![(tileRow L t).val, 0]) (w : BitVec 32) (hw : ∀ a, (k3_off4 w) a + S1x64.size a ≤ TS.size a)
    (hwv : w = m (iLoc d) (ValueIdx.ix1 (tileRow L t))) (hlt : w.toNat < nRows)
    (i : S16384x64.Idx) (hi : i ∈ rowSet (tileRow L t)) :
    ((dstRow off inb).view.write (Elt F) (m (oLoc d)) ((ReadAs.same : ReadAs (Elt F) S64 .f32 S64 .f32).apply ((srcRow w hw).view.read (Elt F) (m (tLoc d)))) Finset.univ) i
      = G m d i := by
  rw [write_row d L off inb (tileRow L t) hoff w hw (m (tLoc d)) (m (oLoc d)) i hi]
  obtain ⟨r, k, rfl⟩ : ∃ (r : Fin 16384) (k : Fin 64), i = ValueIdx.ix2 r k := ⟨i 0, i 1, ValueIdx.eq_ix2 i⟩
  have hr : r = tileRow L t := mem_rowSet_fst hi
  subst hr
  show m (tLoc d) (ValueIdx.ix2 _ k) = _
  rw [G_row]
  congr 2
  apply Fin.ext
  show w.toNat = (Spec.rowOf nRows nRows_pos (m (iLoc d) (ValueIdx.ix1 (tileRow L t)))).val
  rw [← hwv, Spec.rowOf_val_of_lt nRows_pos hlt]

/-- The batch's transfer `t`, started: from the copy's own token of the table and its row of the result. -/
theorem wp_issue (t : Fin 512) (off : Fin 2 → Nat) (inb : ∀ a, off a + S1x64.size a ≤ S16384x64.size a)
    (hoff : off = ![(tileRow L t).val, 0]) (w : BitVec 32) (hw : ∀ a, (k3_off4 w) a + S1x64.size a ≤ TS.size a)
    (hwv : w = m (iLoc d) (ValueIdx.ix1 (tileRow L t))) (hlt : w.toNat < nRows)
    {α : Type} {k : PUnit → Prog (TpuEff nD τ sig (Elt F) Λ₀ (thr d L).2) α} {Q : α → sProp 𝕄}
    {hs : (srcRow w hw).view.WordExact} {hd : (dstRow off inb).view.WordExact}
    {hsem : DmaTarget.Typed (nD := nD) Space.hbm (SemLoc.dma cc3_scratch1.sem) (DmaTarget.here (p := (thr d L).2) (dstRow off inb))} :
    iprop(Rk m d L t ∗ Transfers.Batch (EC (F := F)) (thr d L) (.dma cc3_scratch1.sem) (none : HIx 8) N (Dl m d L) t.val 0)
      ⊢ iprop((Transfers.Batch (EC (F := F)) (thr d L) (.dma cc3_scratch1.sem) (none : HIx 8) N (Dl m d L) (t.val + 1) 0
            -∗ wp frame (wpE (defs₀ (F := F)) 𝒱₀ (thr d L) none) Set.univ (k ⟨⟩) Q)
          -∗ wp frame (wpE (defs₀ (F := F)) 𝒱₀ (thr d L) none) Set.univ
              (.op (TpuEff.enqueueDma (srcRow w hw) (DmaTarget.here (p := (thr d L).2) (dstRow off inb)) (.dma cc3_scratch1.sem) hs hd hsem) k) Q) := by
  unfold Rk
  iintro ⟨⟨Htok, Hrow⟩, HB⟩ Hk
  ihave Htok' := ((pointsTo_split_subset (ℓ := tLoc d) (I := (srcRow w hw).view.set) (S := Finset.univ) (Finset.subset_univ _)).1) $$ Htok
  icases Htok' with ⟨Hsrc, -⟩
  iapply (Transfers.wp_dmaBatch (EC (F := F)) 𝒱₀ (thr d L) none (src := srcRow w hw) (dst := dstRow off inb)
      (q := Transfers.shareTok (tsh L) 512 t) (fs := m (tLoc d)) (Sd := rowSet (tileRow L t)) (fd := m (oLoc d)) (D := Dl m d L) (j := t.val) (u := 0)
      (none : HIx 8) N rfl (set_dstRow off inb (tileRow L t) hoff).le t.isLt (Nat.zero_le _) ?hD) $$ [Hsrc Hrow HB]
  case hD =>
    iintro ⟨H, -⟩
    unfold Dl
    iapply (Entails.of_eq (pointsTo_congr (fun i hi => landed_eq m d L t off inb hoff w hw hwv hlt i hi)))
    iexact H
  · isplitl [Hsrc]; · iexact Hsrc
    isplitl [Hrow]; · iexact Hrow
    iexact HB
  iexact Hk

end Cert.Proof.KI.R3

end
-- ==== Proof.KIDrain3.lean ====
/-
  The tile's second loop: 512 waits on the one semaphore that the 512 row copies complete on. Each wait takes one
  copy's units off the counter; copies land in any order, so a wait that is not the last proves nothing about any
  row, and only the last — when all 512 copies' units have been taken — hands back every row holding its value and
  the counter at zero. The invariant before wait k says exactly that: k copies' units consumed and the batch still
  open, or (after the last) every delivery in hand.
-/
import proofs.«218896_g85959475462175_cont_9to1_m_647_27_alg».proof.Proof.KITileDefs3

noncomputable section

namespace Cert.Proof.KI.R3

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- The loop makes 512 trips. -/
theorem trips2 : Scf.trips k3_t2_loop.lb k3_t2_loop.ub k3_t2_loop.st = 512 := by decide

/-- A row's credit is positive. -/
theorem N_pos : 0 < N := View.dmaCredit_pos _ (by decide)

/-- Before wait `k` of the 512: the batch with `k` transfers' units consumed; after the last, every delivery. -/
def inv2 (O : CellTallies nD τ sig (HIx 8)) (W : Waits sig (HIx 8)) (k : ℕ) (_ : Unit) : sProp 𝕄 :=
  iprop(Transfers.MayWaits (thr d L) (none : HIx 8) O
    ∗ ((⌜k < 512⌝ ∗ Transfers.Batch (EC (F := F)) (thr d L) (.dma cc3_scratch1.sem) (none : HIx 8) N (Dl m d L) 512 (k * N)
          ∗ ∃ W', ⌜∀ p ∈ W', p ∈ W ∨ p.2 = none⌝ ∗ owes (thr d L) O W')
      ∨ (⌜k = 512⌝ ∗ bigSep Finset.univ (Dl m d L) ∗ semVal (cB d L) 0 ∗ ∃ W', ⌜∀ p ∈ W', p ∈ W ∨ p.2 = none⌝ ∗ owes (thr d L) O W')))

variable [FloatOps F]

/-- The 512 waits: from the batch with every copy started and nothing consumed, to every row delivered and the counter at
    zero; each wait is recorded at the index of the tile's own copies. -/
theorem drain (O : CellTallies nD τ sig (HIx 8)) (W : Waits sig (HIx 8)) :
    iprop(Transfers.MayWaits (thr d L) (none : HIx 8) O
        ∗ Transfers.Batch (EC (F := F)) (thr d L) (.dma cc3_scratch1.sem) (none : HIx 8) N (Dl m d L) 512 0
        ∗ owes (thr d L) O W)
      ⊢ wp frame (wpE (defs₀ (F := F)) 𝒱₀ (thr d L) none) Set.univ
          (Scf.Loop.for k3_t2_loop k3_t2_ok ⟨⟩ (k3_t2_body L tW (Memref.isWhole_whole _) iW (Memref.isWhole_whole _) oW (Memref.isWhole_whole _) sW (Memref.isWhole_whole _) cc3_scratch1 cc3_scoped0))
          (fun _ => iprop(bigSep Finset.univ (Dl m d L) ∗ semVal (cB d L) 0 ∗ ∃ W', ⌜∀ p ∈ W', p ∈ W ∨ p.2 = none⌝ ∗ owes (thr d L) O W')) := by
  iintro ⟨#Hmw, HB, HO⟩
  sl_for (inv2 m d L O W) $$ [HB HO]
  case region =>
    intro k acc
    have hk : k.val < 512 := Nat.lt_of_lt_of_eq k.isLt trips2
    have e : (k.val + 1) * N = k.val * N + N := by rw [Nat.add_mul, Nat.one_mul]
    unfold inv2
    iintro ⟨#Hmw, H⟩
    sl_exec
    icases H with (⟨-, HB, %W', %hW', HO⟩ | ⟨%hk', -⟩)
    rotate_left
    · exfalso; omega
    ihave Hmw1 := (Transfers.MayWaits.elim (SemLoc.dma cc3_scratch1.sem)) $$ Hmw
    have hW'' : ∀ p ∈ insert (SemLoc.dma cc3_scratch1.sem, (none : HIx 8)) W', p ∈ W ∨ p.2 = none := by
      intro p hp
      rcases Finset.mem_insert.mp hp with hp | hp
      · exact .inr (hp ▸ rfl)
      · exact hW' p hp
    by_cases hlast : k.val + 1 < 512
    · have hu : k.val * N + N < N * 512 := by
        have h1 : (k.val + 1) * N < 512 * N := Nat.mul_lt_mul_of_pos_right hlast N_pos
        rw [e] at h1; rw [Nat.mul_comm N 512]; exact h1
      iapply (Transfers.wp_waitBatchO (EC (F := F)) 𝒱₀ (thr d L) none (none : HIx 8) (N := N) rfl hu) $$ [HB HO Hmw1]
      · isplitl [HB]; · iexact HB
        isplitl [HO]; · iexact HO
        iexact Hmw1
      iintro ⟨HB, HO⟩
      sl_step
      isplitr; · iexact Hmw
      ileft
      isplitr; · ipureintro; exact hlast
      rw [e]
      isplitl [HB]; · iexact HB
      iexists _; isplitr
      · ipureintro; exact hW''
      · iexact HO
    · have hu : k.val * N + N = N * 512 := by
        have h1 : k.val = 511 := by omega
        rw [h1]; omega
      iapply (Transfers.wp_waitBatchLastO (EC (F := F)) 𝒱₀ (thr d L) none (none : HIx 8) (N := N) rfl N_pos hu) $$ [HB HO Hmw1]
      · isplitl [HB]; · iexact HB
        isplitl [HO]; · iexact HO
        iexact Hmw1
      iintro ⟨HD, Hv, HO⟩
      sl_step
      isplitr; · iexact Hmw
      iright
      isplitr; · ipureintro; omega
      isplitl [HD]; · iexact HD
      isplitl [Hv]; · iexact Hv
      iexists _; isplitr
      · ipureintro; exact hW''
      · iexact HO
  rw [trips2]
  isplitl [HB HO]
  · unfold inv2
    isplitr; · iexact Hmw
    ileft
    isplitr; · ipureintro; omega
    rw [Nat.zero_mul]
    isplitl [HB]; · iexact HB
    iexists W; isplitr
    · ipureintro; exact fun p hp => .inl hp
    · iexact HO
  · iintro %acc HI
    unfold inv2
    icases HI with ⟨-, (⟨%h, -⟩ | ⟨-, HD, Hv, HW⟩)⟩
    · exfalso; omega
    isplitl [HD]; · iexact HD
    isplitl [Hv]; · iexact Hv
    iexact HW

end Cert.Proof.KI.R3

end
-- ==== Proof.KITile3.lean ====
/-
  The tile's obligation at call 3: the index words fetched into the scratch, the 512 row copies started sixteen to a
  trip on one semaphore as ONE batch (no copy's source or destination is touched between the first start and the
  last wait), the batch drained by 512 waits, and the rows handed back holding the lookup's value.
-/
import proofs.«218896_g85959475462175_cont_9to1_m_647_27_alg».proof.Proof.KITileDefs3
import proofs.«218896_g85959475462175_cont_9to1_m_647_27_alg».proof.Proof.KIView3
import proofs.«218896_g85959475462175_cont_9to1_m_647_27_alg».proof.Proof.KIIssue3
import proofs.«218896_g85959475462175_cont_9to1_m_647_27_alg».proof.Proof.KIDrain3

noncomputable section

namespace Cert.Proof.KI.R3

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- Before trip `k` of the first loop: the scratch at the landed index words, the first `16 k` copies started and none
    waited for, the later copies' tokens and rows still in hand. -/
def inv1 (k : Nat) (_ : PUnit) : sProp 𝕄 :=
  iprop(∃ sc, ⌜Holds m d L sc⌝ ∗ ((sW : Memref sig .scVector .vmem S512 .i32).view.loc (thr d L) ↦{fullShare} sc)
    ∗ Transfers.Batch (EC (F := F)) (thr d L) (.dma cc3_scratch1.sem) (none : HIx 8) N (Dl m d L) (16 * k) 0
    ∗ bigSep (Transfers.pending (n := 512) (16 * k)) (Rk m d L))

/-- The sixteen words a trip loads. -/
abbrev loaded (k : Fin k3_t1_loop.trips) (sc : Buf (Elt F) ((sW : Memref sig .scVector .vmem S512 .i32).view.loc (thr d L))) : Vec F S16 .i32 :=
  (sW : Memref sig .scVector .vmem S512 .i32).view.readAt (Elt F) (Rect.unit (s := S512) (k3_off2 k) S16.size (k3_off2_inb k)).toLoadRect sc

theorem off_eq {x y : Nat} (h : x = y) : (![x, 0] : Fin 2 → Nat) = ![y, 0] := by rw [h]

variable [FloatOps F]

/- Copy `j` of a trip: its index word names a row of the table (the check passes), and the copy is the batch's
   transfer `16 k + j`, started from that transfer's token and row. -/
set_option hygiene false in
local macro "issue_copy " j:num " with " chk:ident ", " wj:ident ", " offeq:ident : tactic => `(tactic| (
  iapply (wp_assume 𝒱₀ (thr d L) none Set.univ ($chk:ident ((congrArg BitVec.toNat ($wj:ident (loaded d L k sc))).trans_lt (hwlt ⟨$j, by decide⟩))))
  sl_exec
  ihave Hp := (Entails.of_eq (Transfers.bigSep_pending_step (Rk m d L) (16 * k.val + $j) (hidx ⟨$j, by decide⟩))) $$ Hpend
  icases Hp with ⟨HR, Hpend⟩
  iapply (wp_issue m d L ⟨16 * k.val + $j, hidx ⟨$j, by decide⟩⟩ _ _
      (($offeq:ident L k).trans (off_eq (by show _ = base L + (16 * k.val + $j); unfold base; omega))) _ _
      (($wj:ident (loaded d L k sc)).trans (hwv ⟨$j, by decide⟩)) ((congrArg BitVec.toNat ($wj:ident (loaded d L k sc))).trans_lt (hwlt ⟨$j, by decide⟩))) $$ [HR HB]
  · isplitl [HR]
    · iexact HR
    iexact HB
  iintro HB
  sl_exec))

theorem tile_body (hF : (K (F := F)).Facts) (hpre : ∀ d, Spec.InRange nRows (m (iLoc d))) : TileBody m := by
  intro d L O W hO
  simp only [cc3__gather_body_eq_skeleton]; unfold cc3__gather_body_skel
  rw [(K (F := F)).scopedBufs_V hF d (cV L) (jV L), SparseCore.Cfg.scopedSems0_V (Val := Elt F) d (cV L) (jV L), ownSems0_V, ownBufs_V]
  unfold go
  iintro ⟨#Hlv, -, ⟨Ht, Hi, Hrows⟩, ⟨⟨%fs, Hs⟩, Hbufs⟩, ⟨HsemS, HsemB, Hsems⟩, HO⟩
  ihave Hmw := ((K (F := F)).mayWaits_none (thr := thr d L) hO) $$ Hlv
  ihave Hi' := (Entails.of_eq (pts_i (F := F) d L _ _).symm) $$ Hi
  ihave Hs' := (Entails.of_eq (pts_s (F := F) d L _).symm) $$ Hs
  -- the index words fetched into the scratch, and the fetch waited for
  sl_exec
  -- the 512 copies' batch on the shared semaphore, allocated before the first is started
  imod (Transfers.batch_alloc' (Lvl := ℕ) (EC (F := F)) (thr d L) (none : HIx 8) N (Dl m d L) (sm := .dma cc3_scratch1.sem) (E := Set.univ)) $$ HsemB with HB
  -- the table's token dealt into one per copy
  ihave Ht' := (Transfers.pointsTo_toks_split (tsh L) 512) $$ Ht
  icases Ht' with ⟨-, Htoks⟩
  sl_for (inv1 m d L) $$ [Hs' HB Htoks Hrows]
  case region =>
    intro k hk
    unfold inv1
    iintro ⟨%sc, %hsc, Hs, HB, Hpend⟩
    have hk32 : k.val < 32 := lt_of_lt_of_eq k.isLt trips1
    have hidx : ∀ j : Fin 16, 16 * k.val + j.val < 512 := fun j => by have := j.isLt; omega
    -- the sixteen words the trip loads are the tile's index words 16 k … 16 k + 15; each names a row of the table
    have hwv : ∀ j : Fin 16, loaded d L k sc (ValueIdx.ix1 j) = m (iLoc d) (ValueIdx.ix1 (tileRow L ⟨16 * k.val + j.val, hidx j⟩)) :=
      fun j => (loaded_word d L k sc j).trans (hsc _)
    have hwlt : ∀ j : Fin 16, (loaded d L k sc (ValueIdx.ix1 j)).toNat < nRows := fun j => by rw [hwv j]; exact (hpre d).toNat_lt _
    sl_exec
    issue_copy 0 with chk_of_lt_1, word_0, k3_off3_eq
    issue_copy 1 with chk_of_lt_2, word_1, k3_off5_eq
    issue_copy 2 with chk_of_lt_3, word_2, k3_off7_eq
    issue_copy 3 with chk_of_lt_4, word_3, k3_off9_eq
    issue_copy 4 with chk_of_lt_5, word_4, k3_off11_eq
    issue_copy 5 with chk_of_lt_6, word_5, k3_off13_eq
    issue_copy 6 with chk_of_lt_7, word_6, k3_off15_eq
    issue_copy 7 with chk_of_lt_8, word_7, k3_off17_eq
    issue_copy 8 with chk_of_lt_9, word_8, k3_off19_eq
    issue_copy 9 with chk_of_lt_10, word_9, k3_off21_eq
    issue_copy 10 with chk_of_lt_11, word_10, k3_off23_eq
    issue_copy 11 with chk_of_lt_12, word_11, k3_off25_eq
    issue_copy 12 with chk_of_lt_13, word_12, k3_off27_eq
    issue_copy 13 with chk_of_lt_14, word_13, k3_off29_eq
    issue_copy 14 with chk_of_lt_15, word_14, k3_off31_eq
    issue_copy 15 with chk_of_lt_16, word_15, k3_off33_eq
    -- the trip's return: the invariant at `k + 1`
    rw [show 16 * (k.val + 1) = 16 * k.val + 15 + 1 by omega]
    sl_step
    iexists sc
    isplitr; · ipureintro; exact hsc
    isplitl [Hs]; · iexact Hs
    isplitl [HB]; · iexact HB
    iexact Hpend
  · -- the loop's entry: nothing started, every copy's token and row in hand
    unfold inv1
    iexists _
    isplitr; · ipureintro; exact fun t => scratch_holds d L fs (m (iLoc d)) t
    isplitl [Hs']; · iexact Hs'
    isplitl [HB]; · iexact HB
    rw [show 16 * 0 = 0 from rfl, ← Transfers.bigSep_pending_zero]
    unfold Rk
    rw [bigSep_sep']
    isplitl [Htoks]; · iexact Htoks
    iexact Hrows
  -- after the first loop: all 512 started, none waited for
  iintro %_ HI
  unfold inv1
  icases HI with ⟨%sc, -, Hs, HB, -⟩
  sl_exec
  have h512 : 16 * Scf.trips k3_t1_loop.lb k3_t1_loop.ub k3_t1_loop.st = 512 := by decide
  rw [h512]
  -- the second loop drains the batch: every row comes back holding the lookup's value
  simp only [wp_bind]
  ihave Hd := (drain m d L O _) $$ [HB HO]
  · isplitr; · iexact Hmw
    isplitl [HB]; · iexact HB
    iexact HO
  iapply (wp_wand frame _ Set.univ) $$ Hd
  iintro %_ ⟨HD, HsemB, %W', %hW', HO⟩
  sl_step
  isplitl [HD]
  · unfold td; iexact HD
  isplitl [Hs Hbufs]
  · isplitl [Hs]
    · iexists _; iapply (Entails.of_eq (pts_s (F := F) d L _)); iexact Hs
    iexact Hbufs
  isplitl [HsemS HsemB Hsems]
  · isplitl [HsemS]; · iexact HsemS
    isplitl [HsemB]; · iexact HsemB
    iexact Hsems
  iexists W'; isplitr
  · ipureintro; intro p hp
    rcases hW' p hp with h | h
    · rcases Finset.mem_insert.mp h with rfl | h
      · exact .inr rfl
      · exact .inl h
    · exact .inr h
  iexact HO

end Cert.Proof.KI.R3

end
-- ==== Proof.KITileDefs4.lean ====
/-
  The tile's own names for call 4's body: its thread, its two DMA semaphores' cells, its scoped storage opened to
  the scratch and those two cells, the batch of the 512 row copies (each copy's delivery: its row of the result at
  the lookup's value), and what a copy needs before it is started.
-/
import proofs.«218896_g85959475462175_cont_9to1_m_647_27_alg».proof.Proof.KIRes4

noncomputable section

namespace Cert.Proof.KI.R4

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

abbrev thr : Thread nD τ := V d (cV L) (jV L)
abbrev cS : GSem nD τ sig := (thr d L, .dma cc4_scoped0.sem)
abbrev cB : GSem nD τ sig := (thr d L, .dma cc4_scratch1.sem)

theorem ownSems0_V :
    (ownSems0 (thr d L) : sProp 𝕄)
      = iprop(semVal (cS d L) 0 ∗ semVal (cB d L) 0 ∗ bigSep (((ownCells (thr d L)).erase (cS d L)).erase (cB d L)) fun g => semVal g 0) := by
  unfold SparseCore.Cfg.ownSems0
  rw [SparseCore.bigSep_erase' ((mem_ownCells (g := cS d L)).mpr ⟨rfl, by
      show (SemLoc.dma cc4_scoped0.sem : SemLoc sig).isScoped .scVector = true; decide⟩),
    SparseCore.bigSep_erase' (Finset.mem_erase.mpr ⟨by simp [cS, cB]; decide, (mem_ownCells (g := cB d L)).mpr ⟨rfl, by
      show (SemLoc.dma cc4_scratch1.sem : SemLoc sig).isScoped .scVector = true; decide⟩⟩)]

theorem ownBufs_V :
    (ownBufs (thr d L) : sProp 𝕄)
      = iprop((∃ f, (thr d L).loc scrScv ↦{fullShare} f)
          ∗ bigSep ((ownRefs (τ := τ) (.scVector (cV L) (jV L))).erase ((Proc.scVector (cV L) (jV L)).devRef scrScv))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef scrScv) rfl)

omit m in
theorem pts_i (q : PosShare TreeShare) (f : Buf (Elt F) (iLoc d)) :
    ((iW : Memref sig .scVector .hbm S16384 .i32).view.loc (thr d L) ↦{q} f : sProp 𝕄) = iLoc d ↦{q} f := rfl
omit m in
theorem pts_t (q : PosShare TreeShare) (f : Buf (Elt F) (tLoc d)) :
    ((tW : Memref sig .scVector .hbm TS .f32).view.loc (thr d L) ↦{q} f : sProp 𝕄) = tLoc d ↦{q} f := rfl
omit m in
theorem pts_s (f : Buf (Elt F) ((thr d L).loc scrScv)) :
    ((sW : Memref sig .scVector .vmem S512 .i32).view.loc (thr d L) ↦{fullShare} f : sProp 𝕄) = (thr d L).loc scrScv ↦{fullShare} f := rfl

/-- The counters of the tile's own copies. -/
abbrev EC : UEmb Counters (MT nD τ sig (HIx 8) (Elt F) ℕ UU ℕ) := countersEmb (U := UU)

/-- Row 0 of the result as the waits name it: any row's credit. -/
abbrev row0 : Memref sig .scVector .hbm S64 .f32 :=
  ((oW : Memref sig .scVector .hbm S16384x64 .f32).slice (Rect.unit (s := S16384x64) ![0, 0] S1x64.size inb_S16384x64_S1x64_0_0) (fun _ => rfl)).squeeze S64 squeezes_S1x64_S64
abbrev N : ℕ := (row0).view.dmaCredit

/-- The tile's read token of the table. -/
abbrev tsh : PosShare TreeShare := Transfers.shareTok fullShare 32 (wid L)

/-- Copy `t` of the 512 delivers row `t` of the tile's rows holding the lookup's value. -/
def Dl (t : Fin 512) : sProp 𝕄 := oLoc d ↦[rowSet (tileRow L t)]{fullShare} G m d

instance Dl_storable (t : Fin 512) : BI.Storable (upEmb : UEmb _ 𝕄) (Dl m d L t) := by unfold Dl; infer_instance

/-- What copy `t` needs before it is started: its own read token of the table, and its row of the result. -/
def Rk (t : Fin 512) : sProp 𝕄 :=
  iprop((tLoc d ↦{Transfers.shareTok (tsh L) 512 t} m (tLoc d)) ∗ (oLoc d ↦[rowSet (tileRow L t)]{fullShare} m (oLoc d)))

/-- The scratch holds the tile's 512 index words. -/
def Holds (sc : Buf (Elt F) ((sW : Memref sig .scVector .vmem S512 .i32).view.loc (thr d L))) : Prop :=
  ∀ t : Fin 512, sc (ValueIdx.ix1 t) = m (iLoc d) (ValueIdx.ix1 (tileRow L t))

end Cert.Proof.KI.R4

end
-- ==== Proof.KIView4.lean ====
/-
  Call 4 of the eight: what the tile's memory accesses address and read, as plain facts about index sets and
  contents, with no program logic in them.

  The tile at grid coordinates L owns result rows base L … base L + 511. It copies index words base L … base L + 511
  into its 512-word scratch (scratch_holds: word t of the scratch is then word base L + t of the index array);
  in trip g it loads the sixteen scratch words 16g … 16g + 15 (loaded_word) and takes them apart one at a time
  (word_0 … word_15); for each word w it copies table row w, when w names a row (chk_of_lt_N), onto one result row
  (set_dstRow: the destination is exactly that row's set of indices; write_row: after the copy the row holds table row w,
  column by column). G_row is the lookup's value at one index, and mem_rowSet_fst says that an index of row r's set has
  first coordinate r.
-/
import proofs.«218896_g85959475462175_cont_9to1_m_647_27_alg».proof.Proof.KIRes4

noncomputable section

namespace Cert.Proof.KI.R4

open Cert.KernelIdeal Cert.KernelIdeal.Gen Cert.Proof.KI

open Idealize.ShloMosaic
open Idealize.ShloMosaic.SparseCore (S V T)

variable {F : FTy → Type}

/-! ## A word that names a row passes the copy's side condition -/

theorem chk_of_lt_1 {w : BitVec 32} (h : w.toNat < nRows) : k4_chk1 w := fun a =>
  match a with
  | 0 => show w.toNat + 1 ≤ nRows from h
  | 1 => show 0 + 64 ≤ 64 from Nat.le_refl _
theorem chk_of_lt_2 {w : BitVec 32} (h : w.toNat < nRows) : k4_chk2 w := fun a =>
  match a with
  | 0 => show w.toNat + 1 ≤ nRows from h
  | 1 => show 0 + 64 ≤ 64 from Nat.le_refl _
theorem chk_of_lt_3 {w : BitVec 32} (h : w.toNat < nRows) : k4_chk3 w := fun a =>
  match a with
  | 0 => show w.toNat + 1 ≤ nRows from h
  | 1 => show 0 + 64 ≤ 64 from Nat.le_refl _
theorem chk_of_lt_4 {w : BitVec 32} (h : w.toNat < nRows) : k4_chk4 w := fun a =>
  match a with
  | 0 => show w.toNat + 1 ≤ nRows from h
  | 1 => show 0 + 64 ≤ 64 from Nat.le_refl _
theorem chk_of_lt_5 {w : BitVec 32} (h : w.toNat < nRows) : k4_chk5 w := fun a =>
  match a with
  | 0 => show w.toNat + 1 ≤ nRows from h
  | 1 => show 0 + 64 ≤ 64 from Nat.le_refl _
theorem chk_of_lt_6 {w : BitVec 32} (h : w.toNat < nRows) : k4_chk6 w := fun a =>
  match a with
  | 0 => show w.toNat + 1 ≤ nRows from h
  | 1 => show 0 + 64 ≤ 64 from Nat.le_refl _
theorem chk_of_lt_7 {w : BitVec 32} (h : w.toNat < nRows) : k4_chk7 w := fun a =>
  match a with
  | 0 => show w.toNat + 1 ≤ nRows from h
  | 1 => show 0 + 64 ≤ 64 from Nat.le_refl _
theorem chk_of_lt_8 {w : BitVec 32} (h : w.toNat < nRows) : k4_chk8 w := fun a =>
  match a with
  | 0 => show w.toNat + 1 ≤ nRows from h
  | 1 => show 0 + 64 ≤ 64 from Nat.le_refl _
theorem chk_of_lt_9 {w : BitVec 32} (h : w.toNat < nRows) : k4_chk9 w := fun a =>
  match a with
  | 0 => show w.toNat + 1 ≤ nRows from h
  | 1 => show 0 + 64 ≤ 64 from Nat.le_refl _
theorem chk_of_lt_10 {w : BitVec 32} (h : w.toNat < nRows) : k4_chk10 w := fun a =>
  match a with
  | 0 => show w.toNat + 1 ≤ nRows from h
  | 1 => show 0 + 64 ≤ 64 from Nat.le_refl _
theorem chk_of_lt_11 {w : BitVec 32} (h : w.toNat < nRows) : k4_chk11 w := fun a =>
  match a with
  | 0 => show w.toNat + 1 ≤ nRows from h
  | 1 => show 0 + 64 ≤ 64 from Nat.le_refl _
theorem chk_of_lt_12 {w : BitVec 32} (h : w.toNat < nRows) : k4_chk12 w := fun a =>
  match a with
  | 0 => show w.toNat + 1 ≤ nRows from h
  | 1 => show 0 + 64 ≤ 64 from Nat.le_refl _
theorem chk_of_lt_13 {w : BitVec 32} (h : w.toNat < nRows) : k4_chk13 w := fun a =>
  match a with
  | 0 => show w.toNat + 1 ≤ nRows from h
  | 1 => show 0 + 64 ≤ 64 from Nat.le_refl _
theorem chk_of_lt_14 {w : BitVec 32} (h : w.toNat < nRows) : k4_chk14 w := fun a =>
  match a with
  | 0 => show w.toNat + 1 ≤ nRows from h
  | 1 => show 0 + 64 ≤ 64 from Nat.le_refl _
theorem chk_of_lt_15 {w : BitVec 32} (h : w.toNat < nRows) : k4_chk15 w := fun a =>
  match a with
  | 0 => show w.toNat + 1 ≤ nRows from h
  | 1 => show 0 + 64 ≤ 64 from Nat.le_refl _
theorem chk_of_lt_16 {w : BitVec 32} (h : w.toNat < nRows) : k4_chk16 w := fun a =>
  match a with
  | 0 => show w.toNat + 1 ≤ nRows from h
  | 1 => show 0 + 64 ≤ 64 from Nat.le_refl _

/-! ## The sixteen words of a load, one at a time -/

theorem word_0 (v7 : Vec F S16 .i32) : extractAt ![0] (k4_pay1 v7) inpos_S1_p0 = v7 (ValueIdx.ix1 ⟨0, by decide⟩) := by
  unfold k4_pay1 extractAt extractStridedSlice
  exact congrArg v7 (funext fun a => by obtain rfl : a = 0 := Subsingleton.elim _ _; rfl)
theorem word_1 (v7 : Vec F S16 .i32) : extractAt ![0] (k4_pay2 v7) inpos_S1_p0 = v7 (ValueIdx.ix1 ⟨1, by decide⟩) := by
  unfold k4_pay2 extractAt extractStridedSlice
  exact congrArg v7 (funext fun a => by obtain rfl : a = 0 := Subsingleton.elim _ _; rfl)
theorem word_2 (v7 : Vec F S16 .i32) : extractAt ![0] (k4_pay3 v7) inpos_S1_p0 = v7 (ValueIdx.ix1 ⟨2, by decide⟩) := by
  unfold k4_pay3 extractAt extractStridedSlice
  exact congrArg v7 (funext fun a => by obtain rfl : a = 0 := Subsingleton.elim _ _; rfl)
theorem word_3 (v7 : Vec F S16 .i32) : extractAt ![0] (k4_pay4 v7) inpos_S1_p0 = v7 (ValueIdx.ix1 ⟨3, by decide⟩) := by
  unfold k4_pay4 extractAt extractStridedSlice
  exact congrArg v7 (funext fun a => by obtain rfl : a = 0 := Subsingleton.elim _ _; rfl)
theorem word_4 (v7 : Vec F S16 .i32) : extractAt ![0] (k4_pay5 v7) inpos_S1_p0 = v7 (ValueIdx.ix1 ⟨4, by decide⟩) := by
  unfold k4_pay5 extractAt extractStridedSlice
  exact congrArg v7 (funext fun a => by obtain rfl : a = 0 := Subsingleton.elim _ _; rfl)
theorem word_5 (v7 : Vec F S16 .i32) : extractAt ![0] (k4_pay6 v7) inpos_S1_p0 = v7 (ValueIdx.ix1 ⟨5, by decide⟩) := by
  unfold k4_pay6 extractAt extractStridedSlice
  exact congrArg v7 (funext fun a => by obtain rfl : a = 0 := Subsingleton.elim _ _; rfl)
theorem word_6 (v7 : Vec F S16 .i32) : extractAt ![0] (k4_pay7 v7) inpos_S1_p0 = v7 (ValueIdx.ix1 ⟨6, by decide⟩) := by
  unfold k4_pay7 extractAt extractStridedSlice
  exact congrArg v7 (funext fun a => by obtain rfl : a = 0 := Subsingleton.elim _ _; rfl)
theorem word_7 (v7 : Vec F S16 .i32) : extractAt ![0] (k4_pay8 v7) inpos_S1_p0 = v7 (ValueIdx.ix1 ⟨7, by decide⟩) := by
  unfold k4_pay8 extractAt extractStridedSlice
  exact congrArg v7 (funext fun a => by obtain rfl : a = 0 := Subsingleton.elim _ _; rfl)
theorem word_8 (v7 : Vec F S16 .i32) : extractAt ![0] (k4_pay9 v7) inpos_S1_p0 = v7 (ValueIdx.ix1 ⟨8, by decide⟩) := by
  unfold k4_pay9 extractAt extractStridedSlice
  exact congrArg v7 (funext fun a => by obtain rfl : a = 0 := Subsingleton.elim _ _; rfl)
theorem word_9 (v7 : Vec F S16 .i32) : extractAt ![0] (k4_pay10 v7) inpos_S1_p0 = v7 (ValueIdx.ix1 ⟨9, by decide⟩) := by
  unfold k4_pay10 extractAt extractStridedSlice
  exact congrArg v7 (funext fun a => by obtain rfl : a = 0 := Subsingleton.elim _ _; rfl)
theorem word_10 (v7 : Vec F S16 .i32) : extractAt ![0] (k4_pay11 v7) inpos_S1_p0 = v7 (ValueIdx.ix1 ⟨10, by decide⟩) := by
  unfold k4_pay11 extractAt extractStridedSlice
  exact congrArg v7 (funext fun a => by obtain rfl : a = 0 := Subsingleton.elim _ _; rfl)
theorem word_11 (v7 : Vec F S16 .i32) : extractAt ![0] (k4_pay12 v7) inpos_S1_p0 = v7 (ValueIdx.ix1 ⟨11, by decide⟩) := by
  unfold k4_pay12 extractAt extractStridedSlice
  exact congrArg v7 (funext fun a => by obtain rfl : a = 0 := Subsingleton.elim _ _; rfl)
theorem word_12 (v7 : Vec F S16 .i32) : extractAt ![0] (k4_pay13 v7) inpos_S1_p0 = v7 (ValueIdx.ix1 ⟨12, by decide⟩) := by
  unfold k4_pay13 extractAt extractStridedSlice
  exact congrArg v7 (funext fun a => by obtain rfl : a = 0 := Subsingleton.elim _ _; rfl)
theorem word_13 (v7 : Vec F S16 .i32) : extractAt ![0] (k4_pay14 v7) inpos_S1_p0 = v7 (ValueIdx.ix1 ⟨13, by decide⟩) := by
  unfold k4_pay14 extractAt extractStridedSlice
  exact congrArg v7 (funext fun a => by obtain rfl : a = 0 := Subsingleton.elim _ _; rfl)
theorem word_14 (v7 : Vec F S16 .i32) : extractAt ![0] (k4_pay15 v7) inpos_S1_p0 = v7 (ValueIdx.ix1 ⟨14, by decide⟩) := by
  unfold k4_pay15 extractAt extractStridedSlice
  exact congrArg v7 (funext fun a => by obtain rfl : a = 0 := Subsingleton.elim _ _; rfl)
theorem word_15 (v7 : Vec F S16 .i32) : extractAt ![0] (k4_pay16 v7) inpos_S1_p0 = v7 (ValueIdx.ix1 ⟨15, by decide⟩) := by
  unfold k4_pay16 extractAt extractStridedSlice
  exact congrArg v7 (funext fun a => by obtain rfl : a = 0 := Subsingleton.elim _ _; rfl)

/-! ## The lookup's value at an index; the indices of a row -/

variable (m : (ℓ : Loc nD τ sig) → Buf (Elt F) ℓ)

theorem G_row (d : Dev nD) (r : Fin 16384) (k : Fin 64) :
    G m d (ValueIdx.ix2 r k) = m (tLoc d) (ValueIdx.ix2 (Spec.rowOf nRows nRows_pos (m (iLoc d) (ValueIdx.ix1 r))) k) := by
  unfold G
  exact Spec.gatherRows_apply nRows nRows_pos (m (tLoc d)) (m (iLoc d)) r k

theorem mem_rowSet_fst {r : Fin 16384} {i : S16384x64.Idx} (h : i ∈ rowSet r) : i 0 = r := by
  have h' : i ∈ (row r).set := by rw [← View.set_slice_whole outScv (row r)]; exact h
  rw [Rect.mem_set_unit] at h'
  have h0 := h' 0
  apply Fin.ext
  simp only [Shape.partIx, Shape.partSize] at h0
  have e : S16384x64.size 0 / 16384 = 1 := by decide
  simp only [↓reduceIte, e] at h0
  omega

/-! ## The destination of one row's copy -/

/-- The one-row rectangle at row r is the r-th of the 16384 parts of the result along its first axis. -/
theorem unitRow_eq (r : Fin 16384) (inb : ∀ a, (![r.val, 0] : Fin 2 → Nat) a + S1x64.size a ≤ S16384x64.size a) :
    Rect.unit (s := S16384x64) ![r.val, 0] S1x64.size inb = row r := by
  unfold row Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem set_dstRow (off : Fin 2 → Nat) (inb : ∀ a, off a + S1x64.size a ≤ S16384x64.size a) (r : Fin 16384)
    (hoff : off = ![r.val, 0]) :
    (((oW : Memref sig .scVector .hbm S16384x64 .f32).slice (Rect.unit (s := S16384x64) off S1x64.size inb) (fun _ => rfl)).squeeze S64
        squeezes_S1x64_S64).view.set = rowSet r := by
  subst hoff
  show (((oW : Memref sig .scVector .hbm S16384x64 .f32).view.slice (Rect.unit (s := S16384x64) ![r.val, 0] S1x64.size inb)).reshape S64
      squeezes_S1x64_S64.numel_eq).set = ((oW : Memref sig .scVector .hbm S16384x64 .f32).view.slice (row r)).set
  rw [View.set_reshape]
  exact unitRow_eq r inb ▸ rfl

/-! ## What the scratch holds after the first copy, and what a trip loads from it -/

theorem trips1 : k4_t1_loop.trips = 32 := by decide

theorem word_lt (g : Fin k4_t1_loop.trips) (j : Fin 16) : 16 * g.val + j.val < 512 := by
  have hg : g.val < 32 := Nat.lt_of_lt_of_eq g.isLt trips1
  have hj := j.isLt
  omega

/-- Word j of the sixteen that trip g loads is word 16g + j of the scratch. -/
theorem loaded_word (d : Dev nD) (L : grid0.Coords) (g : Fin k4_t1_loop.trips)
    (s : Buf (Elt F) ((sW : Memref sig .scVector .vmem S512 .i32).view.loc (V d (cV L) (jV L)))) (j : Fin 16) :
    ((sW : Memref sig .scVector .vmem S512 .i32).view.readAt (Elt F)
        (Rect.unit (s := S512) (k4_off2 g) S16.size (k4_off2_inb g)).toLoadRect s) (ValueIdx.ix1 j)
      = s (ValueIdx.ix1 ⟨16 * g.val + j.val, word_lt g j⟩) := by
  rw [View.readAt_apply]
  show s ((Rect.unit (s := S512) (k4_off2 g) S16.size (k4_off2_inb g)).toLoadRect.idx (ValueIdx.ix1 j)) = _
  refine congrArg s (funext fun (a : Fin 1) => Fin.ext ?_)
  obtain rfl : a = 0 := Subsingleton.elim _ _
  rw [LoadRect.idx_apply]
  show (k4_off2 g) 0 + 1 * j.val = 16 * g.val + j.val
  rw [k4_off2_eq]
  simp

/-- Once the first copy has landed, word t of the scratch is word base L + t of the index array. -/
theorem scratch_holds (d : Dev nD) (L : grid0.Coords)
    (fs : Buf (Elt F) ((sW : Memref sig .scVector .vmem S512 .i32).view.loc (V d (cV L) (jV L))))
    (mI : Buf (Elt F) (iLoc d)) (t : Fin 512) :
    ((sW : Memref sig .scVector .vmem S512 .i32).view.write (Elt F) fs
        ((ReadAs.same : ReadAs (Elt F) S512 .i32 S512 .i32).apply
          (((iW : Memref sig .scVector .hbm S16384 .i32).slice (Rect.unit (s := S16384) (k4_off1 L) S512.size (k4_off1_inb L))
              (fun _ => rfl)).view.read (Elt F) mI)) Finset.univ) (ValueIdx.ix1 t)
      = mI (ValueIdx.ix1 (⟨base L + t.val, base_add_lt L t⟩ : Fin 16384)) := by
  show ((View.whole scrScv).write (Elt F) fs
      (((iW : Memref sig .scVector .hbm S16384 .i32).view.slice (Rect.unit (s := S16384) (k4_off1 L) S512.size (k4_off1_inb L))).read (Elt F) mI)
      Finset.univ) (ValueIdx.ix1 t) = _
  rw [View.write_whole_univ, View.read_apply]
  refine (cast_eq _ _).trans ?_
  refine congrArg mI (funext fun (a : Fin 1) => Fin.ext ?_)
  obtain rfl : a = 0 := Subsingleton.elim _ _
  show (k4_off1 L) 0 + 1 * t.val = base L + t.val
  rw [k4_off1_eq]
  unfold base
  simp

/-! ## What one row's copy leaves -/

/-- A word that passes the copy's side condition names a row. -/
theorem lt_of_inb {w : BitVec 32} (hw : ∀ a, (k4_off4 w) a + S1x64.size a ≤ TS.size a) : w.toNat < nRows :=
  show w.toNat + 1 ≤ nRows from hw 0

/-- Column c of the destination row's own indices sits at (r, c) of the result. -/
theorem dst_emb (r : Fin 16384) (inb : ∀ a, (![r.val, 0] : Fin 2 → Nat) a + S1x64.size a ≤ S16384x64.size a) (x : S64.Idx) :
    (((oW : Memref sig .scVector .hbm S16384x64 .f32).slice (Rect.unit (s := S16384x64) ![r.val, 0] S1x64.size inb) (fun _ => rfl)).squeeze S64
        squeezes_S1x64_S64).view.emb x = ValueIdx.ix2 r (x 0) := by
  show (Rect.unit (s := S16384x64) ![r.val, 0] S1x64.size inb).emb (Shape.reshapeEquiv squeezes_S1x64_S64.numel_eq x) = _
  rw [Shape.reshapeEquiv_cons_one]
  funext a
  apply Fin.ext
  match a with
  | 0 => show r.val + 1 * 0 = r.val; omega
  | 1 => show 0 + 1 * (x 0).val = (x 0).val; omega

/-- Column c of the source row's own indices sits at (w, c) of the table. -/
theorem src_emb (w : BitVec 32) (hw : ∀ a, (k4_off4 w) a + S1x64.size a ≤ TS.size a) (x : S64.Idx) :
    (((tW : Memref sig .scVector .hbm TS .f32).slice (Rect.unit (s := TS) (k4_off4 w) S1x64.size hw) (fun _ => rfl)).squeeze S64
        squeezes_S1x64_S64).view.emb x = ValueIdx.ix2 (⟨w.toNat, lt_of_inb hw⟩ : Fin nRows) (x 0) := by
  show (Rect.unit (s := TS) (k4_off4 w) S1x64.size hw).emb (Shape.reshapeEquiv squeezes_S1x64_S64.numel_eq x) = _
  rw [Shape.reshapeEquiv_cons_one]
  funext a
  apply Fin.ext
  match a with
  | 0 => show w.toNat + 1 * 0 = w.toNat; omega
  | 1 => show 0 + 1 * (x 0).val = (x 0).val; omega

/-- After table row w has been copied onto result row r, every index of row r holds the table's entry at row w and the
    index's own column. -/
theorem write_row (d : Dev nD) (L : grid0.Coords) (off : Fin 2 → Nat) (inb : ∀ a, off a + S1x64.size a ≤ S16384x64.size a)
    (r : Fin 16384) (hoff : off = ![r.val, 0]) (w : BitVec 32) (hw : ∀ a, (k4_off4 w) a + S1x64.size a ≤ TS.size a)
    (fT : Buf (Elt F) (tLoc d)) (fO : Buf (Elt F) (oLoc d)) (i : S16384x64.Idx) (hi : i ∈ rowSet r) :
      ((((oW : Memref sig .scVector .hbm S16384x64 .f32).slice (Rect.unit (s := S16384x64) off S1x64.size inb) (fun _ => rfl)).squeeze S64
          squeezes_S1x64_S64).view.write (Elt F) fO
        ((ReadAs.same : ReadAs (Elt F) S64 .f32 S64 .f32).apply
          ((((tW : Memref sig .scVector .hbm TS .f32).slice (Rect.unit (s := TS) (k4_off4 w) S1x64.size hw) (fun _ => rfl)).squeeze S64
            squeezes_S1x64_S64).view.read (Elt F) fT)) Finset.univ) i
        = fT (ValueIdx.ix2 (⟨w.toNat, lt_of_inb hw⟩ : Fin nRows) (i 1)) := by
  subst hoff
  rw [← set_dstRow ![r.val, 0] inb r rfl] at hi
  obtain ⟨x, -, rfl⟩ := Finset.mem_map.mp hi
  rw [View.write_emb_of_mem _ _ (Finset.mem_univ x)]
  refine (cast_eq _ _).trans ?_
  show (((tW : Memref sig .scVector .hbm TS .f32).slice (Rect.unit (s := TS) (k4_off4 w) S1x64.size hw) (fun _ => rfl)).squeeze S64
      squeezes_S1x64_S64).view.read (Elt F) fT x = _
  rw [View.read_apply]
  refine (cast_eq _ _).trans ?_
  rw [src_emb w hw x, dst_emb r inb x]
  rfl

end Cert.Proof.KI.R4

end
-- ==== Proof.KIIssue4.lean ====
/-
  One of the tile's 512 row copies, started as the batch's next transfer. The copy reads the table row that the
  tile's `t`-th index word names and writes the tile's `t`-th row of the result; once it has landed, that row holds
  the lookup's value there: entry `(r, k)` of the result is entry `(idx r, k)` of the table.
-/
import proofs.«218896_g85959475462175_cont_9to1_m_647_27_alg».proof.Proof.KITileDefs4
import proofs.«218896_g85959475462175_cont_9to1_m_647_27_alg».proof.Proof.KIView4

noncomputable section

namespace Cert.Proof.KI.R4

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

variable (m : (ℓ : Loc nD τ sig) → Buf (Elt F) ℓ) (d : Dev nD) (L : grid0.Coords)

/-- A row of the result and a row of the table, as the body slices them. -/
abbrev dstRow (off : Fin 2 → Nat) (inb : ∀ a, off a + S1x64.size a ≤ S16384x64.size a) : Memref sig .scVector .hbm S64 .f32 :=
  ((oW : Memref sig .scVector .hbm S16384x64 .f32).slice (Rect.unit (s := S16384x64) off S1x64.size inb) (fun _ => rfl)).squeeze S64 squeezes_S1x64_S64
abbrev srcRow (w : BitVec 32) (hw : ∀ a, (k4_off4 w) a + S1x64.size a ≤ TS.size a) : Memref sig .scVector .hbm S64 .f32 :=
  ((tW : Memref sig .scVector .hbm TS .f32).slice (Rect.unit (s := TS) (k4_off4 w) S1x64.size hw) (fun _ => rfl)).squeeze S64 squeezes_S1x64_S64

variable [FloatOps F]

/-- What the landed copy leaves in its row is the lookup's value there. -/
theorem landed_eq (t : Fin 512) (off : Fin 2 → Nat) (inb : ∀ a, off a + S1x64.size a ≤ S16384x64.size a)
    (hoff : off = ![(tileRow L t).val, 0]) (w : BitVec 32) (hw : ∀ a, (k4_off4 w) a + S1x64.size a ≤ TS.size a)
    (hwv : w = m (iLoc d) (ValueIdx.ix1 (tileRow L t))) (hlt : w.toNat < nRows)
    (i : S16384x64.Idx) (hi : i ∈ rowSet (tileRow L t)) :
    ((dstRow off inb).view.write (Elt F) (m (oLoc d)) ((ReadAs.same : ReadAs (Elt F) S64 .f32 S64 .f32).apply ((srcRow w hw).view.read (Elt F) (m (tLoc d)))) Finset.univ) i
      = G m d i := by
  rw [write_row d L off inb (tileRow L t) hoff w hw (m (tLoc d)) (m (oLoc d)) i hi]
  obtain ⟨r, k, rfl⟩ : ∃ (r : Fin 16384) (k : Fin 64), i = ValueIdx.ix2 r k := ⟨i 0, i 1, ValueIdx.eq_ix2 i⟩
  have hr : r = tileRow L t := mem_rowSet_fst hi
  subst hr
  show m (tLoc d) (ValueIdx.ix2 _ k) = _
  rw [G_row]
  congr 2
  apply Fin.ext
  show w.toNat = (Spec.rowOf nRows nRows_pos (m (iLoc d) (ValueIdx.ix1 (tileRow L t)))).val
  rw [← hwv, Spec.rowOf_val_of_lt nRows_pos hlt]

/-- The batch's transfer `t`, started: from the copy's own token of the table and its row of the result. -/
theorem wp_issue (t : Fin 512) (off : Fin 2 → Nat) (inb : ∀ a, off a + S1x64.size a ≤ S16384x64.size a)
    (hoff : off = ![(tileRow L t).val, 0]) (w : BitVec 32) (hw : ∀ a, (k4_off4 w) a + S1x64.size a ≤ TS.size a)
    (hwv : w = m (iLoc d) (ValueIdx.ix1 (tileRow L t))) (hlt : w.toNat < nRows)
    {α : Type} {k : PUnit → Prog (TpuEff nD τ sig (Elt F) Λ₀ (thr d L).2) α} {Q : α → sProp 𝕄}
    {hs : (srcRow w hw).view.WordExact} {hd : (dstRow off inb).view.WordExact}
    {hsem : DmaTarget.Typed (nD := nD) Space.hbm (SemLoc.dma cc4_scratch1.sem) (DmaTarget.here (p := (thr d L).2) (dstRow off inb))} :
    iprop(Rk m d L t ∗ Transfers.Batch (EC (F := F)) (thr d L) (.dma cc4_scratch1.sem) (none : HIx 8) N (Dl m d L) t.val 0)
      ⊢ iprop((Transfers.Batch (EC (F := F)) (thr d L) (.dma cc4_scratch1.sem) (none : HIx 8) N (Dl m d L) (t.val + 1) 0
            -∗ wp frame (wpE (defs₀ (F := F)) 𝒱₀ (thr d L) none) Set.univ (k ⟨⟩) Q)
          -∗ wp frame (wpE (defs₀ (F := F)) 𝒱₀ (thr d L) none) Set.univ
              (.op (TpuEff.enqueueDma (srcRow w hw) (DmaTarget.here (p := (thr d L).2) (dstRow off inb)) (.dma cc4_scratch1.sem) hs hd hsem) k) Q) := by
  unfold Rk
  iintro ⟨⟨Htok, Hrow⟩, HB⟩ Hk
  ihave Htok' := ((pointsTo_split_subset (ℓ := tLoc d) (I := (srcRow w hw).view.set) (S := Finset.univ) (Finset.subset_univ _)).1) $$ Htok
  icases Htok' with ⟨Hsrc, -⟩
  iapply (Transfers.wp_dmaBatch (EC (F := F)) 𝒱₀ (thr d L) none (src := srcRow w hw) (dst := dstRow off inb)
      (q := Transfers.shareTok (tsh L) 512 t) (fs := m (tLoc d)) (Sd := rowSet (tileRow L t)) (fd := m (oLoc d)) (D := Dl m d L) (j := t.val) (u := 0)
      (none : HIx 8) N rfl (set_dstRow off inb (tileRow L t) hoff).le t.isLt (Nat.zero_le _) ?hD) $$ [Hsrc Hrow HB]
  case hD =>
    iintro ⟨H, -⟩
    unfold Dl
    iapply (Entails.of_eq (pointsTo_congr (fun i hi => landed_eq m d L t off inb hoff w hw hwv hlt i hi)))
    iexact H
  · isplitl [Hsrc]; · iexact Hsrc
    isplitl [Hrow]; · iexact Hrow
    iexact HB
  iexact Hk

end Cert.Proof.KI.R4

end
-- ==== Proof.KIDrain4.lean ====
/-
  The tile's second loop: 512 waits on the one semaphore that the 512 row copies complete on. Each wait takes one
  copy's units off the counter; copies land in any order, so a wait that is not the last proves nothing about any
  row, and only the last — when all 512 copies' units have been taken — hands back every row holding its value and
  the counter at zero. The invariant before wait k says exactly that: k copies' units consumed and the batch still
  open, or (after the last) every delivery in hand.
-/
import proofs.«218896_g85959475462175_cont_9to1_m_647_27_alg».proof.Proof.KITileDefs4

noncomputable section

namespace Cert.Proof.KI.R4

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- The loop makes 512 trips. -/
theorem trips2 : Scf.trips k4_t2_loop.lb k4_t2_loop.ub k4_t2_loop.st = 512 := by decide

/-- A row's credit is positive. -/
theorem N_pos : 0 < N := View.dmaCredit_pos _ (by decide)

/-- Before wait `k` of the 512: the batch with `k` transfers' units consumed; after the last, every delivery. -/
def inv2 (O : CellTallies nD τ sig (HIx 8)) (W : Waits sig (HIx 8)) (k : ℕ) (_ : Unit) : sProp 𝕄 :=
  iprop(Transfers.MayWaits (thr d L) (none : HIx 8) O
    ∗ ((⌜k < 512⌝ ∗ Transfers.Batch (EC (F := F)) (thr d L) (.dma cc4_scratch1.sem) (none : HIx 8) N (Dl m d L) 512 (k * N)
          ∗ ∃ W', ⌜∀ p ∈ W', p ∈ W ∨ p.2 = none⌝ ∗ owes (thr d L) O W')
      ∨ (⌜k = 512⌝ ∗ bigSep Finset.univ (Dl m d L) ∗ semVal (cB d L) 0 ∗ ∃ W', ⌜∀ p ∈ W', p ∈ W ∨ p.2 = none⌝ ∗ owes (thr d L) O W')))

variable [FloatOps F]

/-- The 512 waits: from the batch with every copy started and nothing consumed, to every row delivered and the counter at
    zero; each wait is recorded at the index of the tile's own copies. -/
theorem drain (O : CellTallies nD τ sig (HIx 8)) (W : Waits sig (HIx 8)) :
    iprop(Transfers.MayWaits (thr d L) (none : HIx 8) O
        ∗ Transfers.Batch (EC (F := F)) (thr d L) (.dma cc4_scratch1.sem) (none : HIx 8) N (Dl m d L) 512 0
        ∗ owes (thr d L) O W)
      ⊢ wp frame (wpE (defs₀ (F := F)) 𝒱₀ (thr d L) none) Set.univ
          (Scf.Loop.for k4_t2_loop k4_t2_ok ⟨⟩ (k4_t2_body L tW (Memref.isWhole_whole _) iW (Memref.isWhole_whole _) oW (Memref.isWhole_whole _) sW (Memref.isWhole_whole _) cc4_scratch1 cc4_scoped0))
          (fun _ => iprop(bigSep Finset.univ (Dl m d L) ∗ semVal (cB d L) 0 ∗ ∃ W', ⌜∀ p ∈ W', p ∈ W ∨ p.2 = none⌝ ∗ owes (thr d L) O W')) := by
  iintro ⟨#Hmw, HB, HO⟩
  sl_for (inv2 m d L O W) $$ [HB HO]
  case region =>
    intro k acc
    have hk : k.val < 512 := Nat.lt_of_lt_of_eq k.isLt trips2
    have e : (k.val + 1) * N = k.val * N + N := by rw [Nat.add_mul, Nat.one_mul]
    unfold inv2
    iintro ⟨#Hmw, H⟩
    sl_exec
    icases H with (⟨-, HB, %W', %hW', HO⟩ | ⟨%hk', -⟩)
    rotate_left
    · exfalso; omega
    ihave Hmw1 := (Transfers.MayWaits.elim (SemLoc.dma cc4_scratch1.sem)) $$ Hmw
    have hW'' : ∀ p ∈ insert (SemLoc.dma cc4_scratch1.sem, (none : HIx 8)) W', p ∈ W ∨ p.2 = none := by
      intro p hp
      rcases Finset.mem_insert.mp hp with hp | hp
      · exact .inr (hp ▸ rfl)
      · exact hW' p hp
    by_cases hlast : k.val + 1 < 512
    · have hu : k.val * N + N < N * 512 := by
        have h1 : (k.val + 1) * N < 512 * N := Nat.mul_lt_mul_of_pos_right hlast N_pos
        rw [e] at h1; rw [Nat.mul_comm N 512]; exact h1
      iapply (Transfers.wp_waitBatchO (EC (F := F)) 𝒱₀ (thr d L) none (none : HIx 8) (N := N) rfl hu) $$ [HB HO Hmw1]
      · isplitl [HB]; · iexact HB
        isplitl [HO]; · iexact HO
        iexact Hmw1
      iintro ⟨HB, HO⟩
      sl_step
      isplitr; · iexact Hmw
      ileft
      isplitr; · ipureintro; exact hlast
      rw [e]
      isplitl [HB]; · iexact HB
      iexists _; isplitr
      · ipureintro; exact hW''
      · iexact HO
    · have hu : k.val * N + N = N * 512 := by
        have h1 : k.val = 511 := by omega
        rw [h1]; omega
      iapply (Transfers.wp_waitBatchLastO (EC (F := F)) 𝒱₀ (thr d L) none (none : HIx 8) (N := N) rfl N_pos hu) $$ [HB HO Hmw1]
      · isplitl [HB]; · iexact HB
        isplitl [HO]; · iexact HO
        iexact Hmw1
      iintro ⟨HD, Hv, HO⟩
      sl_step
      isplitr; · iexact Hmw
      iright
      isplitr; · ipureintro; omega
      isplitl [HD]; · iexact HD
      isplitl [Hv]; · iexact Hv
      iexists _; isplitr
      · ipureintro; exact hW''
      · iexact HO
  rw [trips2]
  isplitl [HB HO]
  · unfold inv2
    isplitr; · iexact Hmw
    ileft
    isplitr; · ipureintro; omega
    rw [Nat.zero_mul]
    isplitl [HB]; · iexact HB
    iexists W; isplitr
    · ipureintro; exact fun p hp => .inl hp
    · iexact HO
  · iintro %acc HI
    unfold inv2
    icases HI with ⟨-, (⟨%h, -⟩ | ⟨-, HD, Hv, HW⟩)⟩
    · exfalso; omega
    isplitl [HD]; · iexact HD
    isplitl [Hv]; · iexact Hv
    iexact HW

end Cert.Proof.KI.R4

end
-- ==== Proof.KITile4.lean ====
/-
  The tile's obligation at call 4: the index words fetched into the scratch, the 512 row copies started sixteen to a
  trip on one semaphore as ONE batch (no copy's source or destination is touched between the first start and the
  last wait), the batch drained by 512 waits, and the rows handed back holding the lookup's value.
-/
import proofs.«218896_g85959475462175_cont_9to1_m_647_27_alg».proof.Proof.KITileDefs4
import proofs.«218896_g85959475462175_cont_9to1_m_647_27_alg».proof.Proof.KIView4
import proofs.«218896_g85959475462175_cont_9to1_m_647_27_alg».proof.Proof.KIIssue4
import proofs.«218896_g85959475462175_cont_9to1_m_647_27_alg».proof.Proof.KIDrain4

noncomputable section

namespace Cert.Proof.KI.R4

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- Before trip `k` of the first loop: the scratch at the landed index words, the first `16 k` copies started and none
    waited for, the later copies' tokens and rows still in hand. -/
def inv1 (k : Nat) (_ : PUnit) : sProp 𝕄 :=
  iprop(∃ sc, ⌜Holds m d L sc⌝ ∗ ((sW : Memref sig .scVector .vmem S512 .i32).view.loc (thr d L) ↦{fullShare} sc)
    ∗ Transfers.Batch (EC (F := F)) (thr d L) (.dma cc4_scratch1.sem) (none : HIx 8) N (Dl m d L) (16 * k) 0
    ∗ bigSep (Transfers.pending (n := 512) (16 * k)) (Rk m d L))

/-- The sixteen words a trip loads. -/
abbrev loaded (k : Fin k4_t1_loop.trips) (sc : Buf (Elt F) ((sW : Memref sig .scVector .vmem S512 .i32).view.loc (thr d L))) : Vec F S16 .i32 :=
  (sW : Memref sig .scVector .vmem S512 .i32).view.readAt (Elt F) (Rect.unit (s := S512) (k4_off2 k) S16.size (k4_off2_inb k)).toLoadRect sc

theorem off_eq {x y : Nat} (h : x = y) : (![x, 0] : Fin 2 → Nat) = ![y, 0] := by rw [h]

variable [FloatOps F]

/- Copy `j` of a trip: its index word names a row of the table (the check passes), and the copy is the batch's
   transfer `16 k + j`, started from that transfer's token and row. -/
set_option hygiene false in
local macro "issue_copy " j:num " with " chk:ident ", " wj:ident ", " offeq:ident : tactic => `(tactic| (
  iapply (wp_assume 𝒱₀ (thr d L) none Set.univ ($chk:ident ((congrArg BitVec.toNat ($wj:ident (loaded d L k sc))).trans_lt (hwlt ⟨$j, by decide⟩))))
  sl_exec
  ihave Hp := (Entails.of_eq (Transfers.bigSep_pending_step (Rk m d L) (16 * k.val + $j) (hidx ⟨$j, by decide⟩))) $$ Hpend
  icases Hp with ⟨HR, Hpend⟩
  iapply (wp_issue m d L ⟨16 * k.val + $j, hidx ⟨$j, by decide⟩⟩ _ _
      (($offeq:ident L k).trans (off_eq (by show _ = base L + (16 * k.val + $j); unfold base; omega))) _ _
      (($wj:ident (loaded d L k sc)).trans (hwv ⟨$j, by decide⟩)) ((congrArg BitVec.toNat ($wj:ident (loaded d L k sc))).trans_lt (hwlt ⟨$j, by decide⟩))) $$ [HR HB]
  · isplitl [HR]
    · iexact HR
    iexact HB
  iintro HB
  sl_exec))

theorem tile_body (hF : (K (F := F)).Facts) (hpre : ∀ d, Spec.InRange nRows (m (iLoc d))) : TileBody m := by
  intro d L O W hO
  simp only [cc4__gather_body_eq_skeleton]; unfold cc4__gather_body_skel
  rw [(K (F := F)).scopedBufs_V hF d (cV L) (jV L), SparseCore.Cfg.scopedSems0_V (Val := Elt F) d (cV L) (jV L), ownSems0_V, ownBufs_V]
  unfold go
  iintro ⟨#Hlv, -, ⟨Ht, Hi, Hrows⟩, ⟨⟨%fs, Hs⟩, Hbufs⟩, ⟨HsemS, HsemB, Hsems⟩, HO⟩
  ihave Hmw := ((K (F := F)).mayWaits_none (thr := thr d L) hO) $$ Hlv
  ihave Hi' := (Entails.of_eq (pts_i (F := F) d L _ _).symm) $$ Hi
  ihave Hs' := (Entails.of_eq (pts_s (F := F) d L _).symm) $$ Hs
  -- the index words fetched into the scratch, and the fetch waited for
  sl_exec
  -- the 512 copies' batch on the shared semaphore, allocated before the first is started
  imod (Transfers.batch_alloc' (Lvl := ℕ) (EC (F := F)) (thr d L) (none : HIx 8) N (Dl m d L) (sm := .dma cc4_scratch1.sem) (E := Set.univ)) $$ HsemB with HB
  -- the table's token dealt into one per copy
  ihave Ht' := (Transfers.pointsTo_toks_split (tsh L) 512) $$ Ht
  icases Ht' with ⟨-, Htoks⟩
  sl_for (inv1 m d L) $$ [Hs' HB Htoks Hrows]
  case region =>
    intro k hk
    unfold inv1
    iintro ⟨%sc, %hsc, Hs, HB, Hpend⟩
    have hk32 : k.val < 32 := lt_of_lt_of_eq k.isLt trips1
    have hidx : ∀ j : Fin 16, 16 * k.val + j.val < 512 := fun j => by have := j.isLt; omega
    -- the sixteen words the trip loads are the tile's index words 16 k … 16 k + 15; each names a row of the table
    have hwv : ∀ j : Fin 16, loaded d L k sc (ValueIdx.ix1 j) = m (iLoc d) (ValueIdx.ix1 (tileRow L ⟨16 * k.val + j.val, hidx j⟩)) :=
      fun j => (loaded_word d L k sc j).trans (hsc _)
    have hwlt : ∀ j : Fin 16, (loaded d L k sc (ValueIdx.ix1 j)).toNat < nRows := fun j => by rw [hwv j]; exact (hpre d).toNat_lt _
    sl_exec
    issue_copy 0 with chk_of_lt_1, word_0, k4_off3_eq
    issue_copy 1 with chk_of_lt_2, word_1, k4_off5_eq
    issue_copy 2 with chk_of_lt_3, word_2, k4_off7_eq
    issue_copy 3 with chk_of_lt_4, word_3, k4_off9_eq
    issue_copy 4 with chk_of_lt_5, word_4, k4_off11_eq
    issue_copy 5 with chk_of_lt_6, word_5, k4_off13_eq
    issue_copy 6 with chk_of_lt_7, word_6, k4_off15_eq
    issue_copy 7 with chk_of_lt_8, word_7, k4_off17_eq
    issue_copy 8 with chk_of_lt_9, word_8, k4_off19_eq
    issue_copy 9 with chk_of_lt_10, word_9, k4_off21_eq
    issue_copy 10 with chk_of_lt_11, word_10, k4_off23_eq
    issue_copy 11 with chk_of_lt_12, word_11, k4_off25_eq
    issue_copy 12 with chk_of_lt_13, word_12, k4_off27_eq
    issue_copy 13 with chk_of_lt_14, word_13, k4_off29_eq
    issue_copy 14 with chk_of_lt_15, word_14, k4_off31_eq
    issue_copy 15 with chk_of_lt_16, word_15, k4_off33_eq
    -- the trip's return: the invariant at `k + 1`
    rw [show 16 * (k.val + 1) = 16 * k.val + 15 + 1 by omega]
    sl_step
    iexists sc
    isplitr; · ipureintro; exact hsc
    isplitl [Hs]; · iexact Hs
    isplitl [HB]; · iexact HB
    iexact Hpend
  · -- the loop's entry: nothing started, every copy's token and row in hand
    unfold inv1
    iexists _
    isplitr; · ipureintro; exact fun t => scratch_holds d L fs (m (iLoc d)) t
    isplitl [Hs']; · iexact Hs'
    isplitl [HB]; · iexact HB
    rw [show 16 * 0 = 0 from rfl, ← Transfers.bigSep_pending_zero]
    unfold Rk
    rw [bigSep_sep']
    isplitl [Htoks]; · iexact Htoks
    iexact Hrows
  -- after the first loop: all 512 started, none waited for
  iintro %_ HI
  unfold inv1
  icases HI with ⟨%sc, -, Hs, HB, -⟩
  sl_exec
  have h512 : 16 * Scf.trips k4_t1_loop.lb k4_t1_loop.ub k4_t1_loop.st = 512 := by decide
  rw [h512]
  -- the second loop drains the batch: every row comes back holding the lookup's value
  simp only [wp_bind]
  ihave Hd := (drain m d L O _) $$ [HB HO]
  · isplitr; · iexact Hmw
    isplitl [HB]; · iexact HB
    iexact HO
  iapply (wp_wand frame _ Set.univ) $$ Hd
  iintro %_ ⟨HD, HsemB, %W', %hW', HO⟩
  sl_step
  isplitl [HD]
  · unfold td; iexact HD
  isplitl [Hs Hbufs]
  · isplitl [Hs]
    · iexists _; iapply (Entails.of_eq (pts_s (F := F) d L _)); iexact Hs
    iexact Hbufs
  isplitl [HsemS HsemB Hsems]
  · isplitl [HsemS]; · iexact HsemS
    isplitl [HsemB]; · iexact HsemB
    iexact Hsems
  iexists W'; isplitr
  · ipureintro; intro p hp
    rcases hW' p hp with h | h
    · rcases Finset.mem_insert.mp h with rfl | h
      · exact .inr rfl
      · exact .inl h
    · exact .inr h
  iexact HO

end Cert.Proof.KI.R4

end
-- ==== Proof.KITileDefs5.lean ====
/-
  The tile's own names for call 5's body: its thread, its two DMA semaphores' cells, its scoped storage opened to
  the scratch and those two cells, the batch of the 512 row copies (each copy's delivery: its row of the result at
  the lookup's value), and what a copy needs before it is started.
-/
import proofs.«218896_g85959475462175_cont_9to1_m_647_27_alg».proof.Proof.KIRes5

noncomputable section

namespace Cert.Proof.KI.R5

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

abbrev thr : Thread nD τ := V d (cV L) (jV L)
abbrev cS : GSem nD τ sig := (thr d L, .dma cc5_scoped0.sem)
abbrev cB : GSem nD τ sig := (thr d L, .dma cc5_scratch1.sem)

theorem ownSems0_V :
    (ownSems0 (thr d L) : sProp 𝕄)
      = iprop(semVal (cS d L) 0 ∗ semVal (cB d L) 0 ∗ bigSep (((ownCells (thr d L)).erase (cS d L)).erase (cB d L)) fun g => semVal g 0) := by
  unfold SparseCore.Cfg.ownSems0
  rw [SparseCore.bigSep_erase' ((mem_ownCells (g := cS d L)).mpr ⟨rfl, by
      show (SemLoc.dma cc5_scoped0.sem : SemLoc sig).isScoped .scVector = true; decide⟩),
    SparseCore.bigSep_erase' (Finset.mem_erase.mpr ⟨by simp [cS, cB]; decide, (mem_ownCells (g := cB d L)).mpr ⟨rfl, by
      show (SemLoc.dma cc5_scratch1.sem : SemLoc sig).isScoped .scVector = true; decide⟩⟩)]

theorem ownBufs_V :
    (ownBufs (thr d L) : sProp 𝕄)
      = iprop((∃ f, (thr d L).loc scrScv ↦{fullShare} f)
          ∗ bigSep ((ownRefs (τ := τ) (.scVector (cV L) (jV L))).erase ((Proc.scVector (cV L) (jV L)).devRef scrScv))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef scrScv) rfl)

omit m in
theorem pts_i (q : PosShare TreeShare) (f : Buf (Elt F) (iLoc d)) :
    ((iW : Memref sig .scVector .hbm S16384 .i32).view.loc (thr d L) ↦{q} f : sProp 𝕄) = iLoc d ↦{q} f := rfl
omit m in
theorem pts_t (q : PosShare TreeShare) (f : Buf (Elt F) (tLoc d)) :
    ((tW : Memref sig .scVector .hbm TS .f32).view.loc (thr d L) ↦{q} f : sProp 𝕄) = tLoc d ↦{q} f := rfl
omit m in
theorem pts_s (f : Buf (Elt F) ((thr d L).loc scrScv)) :
    ((sW : Memref sig .scVector .vmem S512 .i32).view.loc (thr d L) ↦{fullShare} f : sProp 𝕄) = (thr d L).loc scrScv ↦{fullShare} f := rfl

/-- The counters of the tile's own copies. -/
abbrev EC : UEmb Counters (MT nD τ sig (HIx 8) (Elt F) ℕ UU ℕ) := countersEmb (U := UU)

/-- Row 0 of the result as the waits name it: any row's credit. -/
abbrev row0 : Memref sig .scVector .hbm S64 .f32 :=
  ((oW : Memref sig .scVector .hbm S16384x64 .f32).slice (Rect.unit (s := S16384x64) ![0, 0] S1x64.size inb_S16384x64_S1x64_0_0) (fun _ => rfl)).squeeze S64 squeezes_S1x64_S64
abbrev N : ℕ := (row0).view.dmaCredit

/-- The tile's read token of the table. -/
abbrev tsh : PosShare TreeShare := Transfers.shareTok fullShare 32 (wid L)

/-- Copy `t` of the 512 delivers row `t` of the tile's rows holding the lookup's value. -/
def Dl (t : Fin 512) : sProp 𝕄 := oLoc d ↦[rowSet (tileRow L t)]{fullShare} G m d

instance Dl_storable (t : Fin 512) : BI.Storable (upEmb : UEmb _ 𝕄) (Dl m d L t) := by unfold Dl; infer_instance

/-- What copy `t` needs before it is started: its own read token of the table, and its row of the result. -/
def Rk (t : Fin 512) : sProp 𝕄 :=
  iprop((tLoc d ↦{Transfers.shareTok (tsh L) 512 t} m (tLoc d)) ∗ (oLoc d ↦[rowSet (tileRow L t)]{fullShare} m (oLoc d)))

/-- The scratch holds the tile's 512 index words. -/
def Holds (sc : Buf (Elt F) ((sW : Memref sig .scVector .vmem S512 .i32).view.loc (thr d L))) : Prop :=
  ∀ t : Fin 512, sc (ValueIdx.ix1 t) = m (iLoc d) (ValueIdx.ix1 (tileRow L t))

end Cert.Proof.KI.R5

end
-- ==== Proof.KIView5.lean ====
/-
  Call 5 of the eight: what the tile's memory accesses address and read, as plain facts about index sets and
  contents, with no program logic in them.

  The tile at grid coordinates L owns result rows base L … base L + 511. It copies index words base L … base L + 511
  into its 512-word scratch (scratch_holds: word t of the scratch is then word base L + t of the index array);
  in trip g it loads the sixteen scratch words 16g … 16g + 15 (loaded_word) and takes them apart one at a time
  (word_0 … word_15); for each word w it copies table row w, when w names a row (chk_of_lt_N), onto one result row
  (set_dstRow: the destination is exactly that row's set of indices; write_row: after the copy the row holds table row w,
  column by column). G_row is the lookup's value at one index, and mem_rowSet_fst says that an index of row r's set has
  first coordinate r.
-/
import proofs.«218896_g85959475462175_cont_9to1_m_647_27_alg».proof.Proof.KIRes5

noncomputable section

namespace Cert.Proof.KI.R5

open Cert.KernelIdeal Cert.KernelIdeal.Gen Cert.Proof.KI

open Idealize.ShloMosaic
open Idealize.ShloMosaic.SparseCore (S V T)

variable {F : FTy → Type}

/-! ## A word that names a row passes the copy's side condition -/

theorem chk_of_lt_1 {w : BitVec 32} (h : w.toNat < nRows) : k5_chk1 w := fun a =>
  match a with
  | 0 => show w.toNat + 1 ≤ nRows from h
  | 1 => show 0 + 64 ≤ 64 from Nat.le_refl _
theorem chk_of_lt_2 {w : BitVec 32} (h : w.toNat < nRows) : k5_chk2 w := fun a =>
  match a with
  | 0 => show w.toNat + 1 ≤ nRows from h
  | 1 => show 0 + 64 ≤ 64 from Nat.le_refl _
theorem chk_of_lt_3 {w : BitVec 32} (h : w.toNat < nRows) : k5_chk3 w := fun a =>
  match a with
  | 0 => show w.toNat + 1 ≤ nRows from h
  | 1 => show 0 + 64 ≤ 64 from Nat.le_refl _
theorem chk_of_lt_4 {w : BitVec 32} (h : w.toNat < nRows) : k5_chk4 w := fun a =>
  match a with
  | 0 => show w.toNat + 1 ≤ nRows from h
  | 1 => show 0 + 64 ≤ 64 from Nat.le_refl _
theorem chk_of_lt_5 {w : BitVec 32} (h : w.toNat < nRows) : k5_chk5 w := fun a =>
  match a with
  | 0 => show w.toNat + 1 ≤ nRows from h
  | 1 => show 0 + 64 ≤ 64 from Nat.le_refl _
theorem chk_of_lt_6 {w : BitVec 32} (h : w.toNat < nRows) : k5_chk6 w := fun a =>
  match a with
  | 0 => show w.toNat + 1 ≤ nRows from h
  | 1 => show 0 + 64 ≤ 64 from Nat.le_refl _
theorem chk_of_lt_7 {w : BitVec 32} (h : w.toNat < nRows) : k5_chk7 w := fun a =>
  match a with
  | 0 => show w.toNat + 1 ≤ nRows from h
  | 1 => show 0 + 64 ≤ 64 from Nat.le_refl _
theorem chk_of_lt_8 {w : BitVec 32} (h : w.toNat < nRows) : k5_chk8 w := fun a =>
  match a with
  | 0 => show w.toNat + 1 ≤ nRows from h
  | 1 => show 0 + 64 ≤ 64 from Nat.le_refl _
theorem chk_of_lt_9 {w : BitVec 32} (h : w.toNat < nRows) : k5_chk9 w := fun a =>
  match a with
  | 0 => show w.toNat + 1 ≤ nRows from h
  | 1 => show 0 + 64 ≤ 64 from Nat.le_refl _
theorem chk_of_lt_10 {w : BitVec 32} (h : w.toNat < nRows) : k5_chk10 w := fun a =>
  match a with
  | 0 => show w.toNat + 1 ≤ nRows from h
  | 1 => show 0 + 64 ≤ 64 from Nat.le_refl _
theorem chk_of_lt_11 {w : BitVec 32} (h : w.toNat < nRows) : k5_chk11 w := fun a =>
  match a with
  | 0 => show w.toNat + 1 ≤ nRows from h
  | 1 => show 0 + 64 ≤ 64 from Nat.le_refl _
theorem chk_of_lt_12 {w : BitVec 32} (h : w.toNat < nRows) : k5_chk12 w := fun a =>
  match a with
  | 0 => show w.toNat + 1 ≤ nRows from h
  | 1 => show 0 + 64 ≤ 64 from Nat.le_refl _
theorem chk_of_lt_13 {w : BitVec 32} (h : w.toNat < nRows) : k5_chk13 w := fun a =>
  match a with
  | 0 => show w.toNat + 1 ≤ nRows from h
  | 1 => show 0 + 64 ≤ 64 from Nat.le_refl _
theorem chk_of_lt_14 {w : BitVec 32} (h : w.toNat < nRows) : k5_chk14 w := fun a =>
  match a with
  | 0 => show w.toNat + 1 ≤ nRows from h
  | 1 => show 0 + 64 ≤ 64 from Nat.le_refl _
theorem chk_of_lt_15 {w : BitVec 32} (h : w.toNat < nRows) : k5_chk15 w := fun a =>
  match a with
  | 0 => show w.toNat + 1 ≤ nRows from h
  | 1 => show 0 + 64 ≤ 64 from Nat.le_refl _
theorem chk_of_lt_16 {w : BitVec 32} (h : w.toNat < nRows) : k5_chk16 w := fun a =>
  match a with
  | 0 => show w.toNat + 1 ≤ nRows from h
  | 1 => show 0 + 64 ≤ 64 from Nat.le_refl _

/-! ## The sixteen words of a load, one at a time -/

theorem word_0 (v7 : Vec F S16 .i32) : extractAt ![0] (k5_pay1 v7) inpos_S1_p0 = v7 (ValueIdx.ix1 ⟨0, by decide⟩) := by
  unfold k5_pay1 extractAt extractStridedSlice
  exact congrArg v7 (funext fun a => by obtain rfl : a = 0 := Subsingleton.elim _ _; rfl)
theorem word_1 (v7 : Vec F S16 .i32) : extractAt ![0] (k5_pay2 v7) inpos_S1_p0 = v7 (ValueIdx.ix1 ⟨1, by decide⟩) := by
  unfold k5_pay2 extractAt extractStridedSlice
  exact congrArg v7 (funext fun a => by obtain rfl : a = 0 := Subsingleton.elim _ _; rfl)
theorem word_2 (v7 : Vec F S16 .i32) : extractAt ![0] (k5_pay3 v7) inpos_S1_p0 = v7 (ValueIdx.ix1 ⟨2, by decide⟩) := by
  unfold k5_pay3 extractAt extractStridedSlice
  exact congrArg v7 (funext fun a => by obtain rfl : a = 0 := Subsingleton.elim _ _; rfl)
theorem word_3 (v7 : Vec F S16 .i32) : extractAt ![0] (k5_pay4 v7) inpos_S1_p0 = v7 (ValueIdx.ix1 ⟨3, by decide⟩) := by
  unfold k5_pay4 extractAt extractStridedSlice
  exact congrArg v7 (funext fun a => by obtain rfl : a = 0 := Subsingleton.elim _ _; rfl)
theorem word_4 (v7 : Vec F S16 .i32) : extractAt ![0] (k5_pay5 v7) inpos_S1_p0 = v7 (ValueIdx.ix1 ⟨4, by decide⟩) := by
  unfold k5_pay5 extractAt extractStridedSlice
  exact congrArg v7 (funext fun a => by obtain rfl : a = 0 := Subsingleton.elim _ _; rfl)
theorem word_5 (v7 : Vec F S16 .i32) : extractAt ![0] (k5_pay6 v7) inpos_S1_p0 = v7 (ValueIdx.ix1 ⟨5, by decide⟩) := by
  unfold k5_pay6 extractAt extractStridedSlice
  exact congrArg v7 (funext fun a => by obtain rfl : a = 0 := Subsingleton.elim _ _; rfl)
theorem word_6 (v7 : Vec F S16 .i32) : extractAt ![0] (k5_pay7 v7) inpos_S1_p0 = v7 (ValueIdx.ix1 ⟨6, by decide⟩) := by
  unfold k5_pay7 extractAt extractStridedSlice
  exact congrArg v7 (funext fun a => by obtain rfl : a = 0 := Subsingleton.elim _ _; rfl)
theorem word_7 (v7 : Vec F S16 .i32) : extractAt ![0] (k5_pay8 v7) inpos_S1_p0 = v7 (ValueIdx.ix1 ⟨7, by decide⟩) := by
  unfold k5_pay8 extractAt extractStridedSlice
  exact congrArg v7 (funext fun a => by obtain rfl : a = 0 := Subsingleton.elim _ _; rfl)
theorem word_8 (v7 : Vec F S16 .i32) : extractAt ![0] (k5_pay9 v7) inpos_S1_p0 = v7 (ValueIdx.ix1 ⟨8, by decide⟩) := by
  unfold k5_pay9 extractAt extractStridedSlice
  exact congrArg v7 (funext fun a => by obtain rfl : a = 0 := Subsingleton.elim _ _; rfl)
theorem word_9 (v7 : Vec F S16 .i32) : extractAt ![0] (k5_pay10 v7) inpos_S1_p0 = v7 (ValueIdx.ix1 ⟨9, by decide⟩) := by
  unfold k5_pay10 extractAt extractStridedSlice
  exact congrArg v7 (funext fun a => by obtain rfl : a = 0 := Subsingleton.elim _ _; rfl)
theorem word_10 (v7 : Vec F S16 .i32) : extractAt ![0] (k5_pay11 v7) inpos_S1_p0 = v7 (ValueIdx.ix1 ⟨10, by decide⟩) := by
  unfold k5_pay11 extractAt extractStridedSlice
  exact congrArg v7 (funext fun a => by obtain rfl : a = 0 := Subsingleton.elim _ _; rfl)
theorem word_11 (v7 : Vec F S16 .i32) : extractAt ![0] (k5_pay12 v7) inpos_S1_p0 = v7 (ValueIdx.ix1 ⟨11, by decide⟩) := by
  unfold k5_pay12 extractAt extractStridedSlice
  exact congrArg v7 (funext fun a => by obtain rfl : a = 0 := Subsingleton.elim _ _; rfl)
theorem word_12 (v7 : Vec F S16 .i32) : extractAt ![0] (k5_pay13 v7) inpos_S1_p0 = v7 (ValueIdx.ix1 ⟨12, by decide⟩) := by
  unfold k5_pay13 extractAt extractStridedSlice
  exact congrArg v7 (funext fun a => by obtain rfl : a = 0 := Subsingleton.elim _ _; rfl)
theorem word_13 (v7 : Vec F S16 .i32) : extractAt ![0] (k5_pay14 v7) inpos_S1_p0 = v7 (ValueIdx.ix1 ⟨13, by decide⟩) := by
  unfold k5_pay14 extractAt extractStridedSlice
  exact congrArg v7 (funext fun a => by obtain rfl : a = 0 := Subsingleton.elim _ _; rfl)
theorem word_14 (v7 : Vec F S16 .i32) : extractAt ![0] (k5_pay15 v7) inpos_S1_p0 = v7 (ValueIdx.ix1 ⟨14, by decide⟩) := by
  unfold k5_pay15 extractAt extractStridedSlice
  exact congrArg v7 (funext fun a => by obtain rfl : a = 0 := Subsingleton.elim _ _; rfl)
theorem word_15 (v7 : Vec F S16 .i32) : extractAt ![0] (k5_pay16 v7) inpos_S1_p0 = v7 (ValueIdx.ix1 ⟨15, by decide⟩) := by
  unfold k5_pay16 extractAt extractStridedSlice
  exact congrArg v7 (funext fun a => by obtain rfl : a = 0 := Subsingleton.elim _ _; rfl)

/-! ## The lookup's value at an index; the indices of a row -/

variable (m : (ℓ : Loc nD τ sig) → Buf (Elt F) ℓ)

theorem G_row (d : Dev nD) (r : Fin 16384) (k : Fin 64) :
    G m d (ValueIdx.ix2 r k) = m (tLoc d) (ValueIdx.ix2 (Spec.rowOf nRows nRows_pos (m (iLoc d) (ValueIdx.ix1 r))) k) := by
  unfold G
  exact Spec.gatherRows_apply nRows nRows_pos (m (tLoc d)) (m (iLoc d)) r k

theorem mem_rowSet_fst {r : Fin 16384} {i : S16384x64.Idx} (h : i ∈ rowSet r) : i 0 = r := by
  have h' : i ∈ (row r).set := by rw [← View.set_slice_whole outScv (row r)]; exact h
  rw [Rect.mem_set_unit] at h'
  have h0 := h' 0
  apply Fin.ext
  simp only [Shape.partIx, Shape.partSize] at h0
  have e : S16384x64.size 0 / 16384 = 1 := by decide
  simp only [↓reduceIte, e] at h0
  omega

/-! ## The destination of one row's copy -/

/-- The one-row rectangle at row r is the r-th of the 16384 parts of the result along its first axis. -/
theorem unitRow_eq (r : Fin 16384) (inb : ∀ a, (![r.val, 0] : Fin 2 → Nat) a + S1x64.size a ≤ S16384x64.size a) :
    Rect.unit (s := S16384x64) ![r.val, 0] S1x64.size inb = row r := by
  unfold row Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem set_dstRow (off : Fin 2 → Nat) (inb : ∀ a, off a + S1x64.size a ≤ S16384x64.size a) (r : Fin 16384)
    (hoff : off = ![r.val, 0]) :
    (((oW : Memref sig .scVector .hbm S16384x64 .f32).slice (Rect.unit (s := S16384x64) off S1x64.size inb) (fun _ => rfl)).squeeze S64
        squeezes_S1x64_S64).view.set = rowSet r := by
  subst hoff
  show (((oW : Memref sig .scVector .hbm S16384x64 .f32).view.slice (Rect.unit (s := S16384x64) ![r.val, 0] S1x64.size inb)).reshape S64
      squeezes_S1x64_S64.numel_eq).set = ((oW : Memref sig .scVector .hbm S16384x64 .f32).view.slice (row r)).set
  rw [View.set_reshape]
  exact unitRow_eq r inb ▸ rfl

/-! ## What the scratch holds after the first copy, and what a trip loads from it -/

theorem trips1 : k5_t1_loop.trips = 32 := by decide

theorem word_lt (g : Fin k5_t1_loop.trips) (j : Fin 16) : 16 * g.val + j.val < 512 := by
  have hg : g.val < 32 := Nat.lt_of_lt_of_eq g.isLt trips1
  have hj := j.isLt
  omega

/-- Word j of the sixteen that trip g loads is word 16g + j of the scratch. -/
theorem loaded_word (d : Dev nD) (L : grid0.Coords) (g : Fin k5_t1_loop.trips)
    (s : Buf (Elt F) ((sW : Memref sig .scVector .vmem S512 .i32).view.loc (V d (cV L) (jV L)))) (j : Fin 16) :
    ((sW : Memref sig .scVector .vmem S512 .i32).view.readAt (Elt F)
        (Rect.unit (s := S512) (k5_off2 g) S16.size (k5_off2_inb g)).toLoadRect s) (ValueIdx.ix1 j)
      = s (ValueIdx.ix1 ⟨16 * g.val + j.val, word_lt g j⟩) := by
  rw [View.readAt_apply]
  show s ((Rect.unit (s := S512) (k5_off2 g) S16.size (k5_off2_inb g)).toLoadRect.idx (ValueIdx.ix1 j)) = _
  refine congrArg s (funext fun (a : Fin 1) => Fin.ext ?_)
  obtain rfl : a = 0 := Subsingleton.elim _ _
  rw [LoadRect.idx_apply]
  show (k5_off2 g) 0 + 1 * j.val = 16 * g.val + j.val
  rw [k5_off2_eq]
  simp

/-- Once the first copy has landed, word t of the scratch is word base L + t of the index array. -/
theorem scratch_holds (d : Dev nD) (L : grid0.Coords)
    (fs : Buf (Elt F) ((sW : Memref sig .scVector .vmem S512 .i32).view.loc (V d (cV L) (jV L))))
    (mI : Buf (Elt F) (iLoc d)) (t : Fin 512) :
    ((sW : Memref sig .scVector .vmem S512 .i32).view.write (Elt F) fs
        ((ReadAs.same : ReadAs (Elt F) S512 .i32 S512 .i32).apply
          (((iW : Memref sig .scVector .hbm S16384 .i32).slice (Rect.unit (s := S16384) (k5_off1 L) S512.size (k5_off1_inb L))
              (fun _ => rfl)).view.read (Elt F) mI)) Finset.univ) (ValueIdx.ix1 t)
      = mI (ValueIdx.ix1 (⟨base L + t.val, base_add_lt L t⟩ : Fin 16384)) := by
  show ((View.whole scrScv).write (Elt F) fs
      (((iW : Memref sig .scVector .hbm S16384 .i32).view.slice (Rect.unit (s := S16384) (k5_off1 L) S512.size (k5_off1_inb L))).read (Elt F) mI)
      Finset.univ) (ValueIdx.ix1 t) = _
  rw [View.write_whole_univ, View.read_apply]
  refine (cast_eq _ _).trans ?_
  refine congrArg mI (funext fun (a : Fin 1) => Fin.ext ?_)
  obtain rfl : a = 0 := Subsingleton.elim _ _
  show (k5_off1 L) 0 + 1 * t.val = base L + t.val
  rw [k5_off1_eq]
  unfold base
  simp

/-! ## What one row's copy leaves -/

/-- A word that passes the copy's side condition names a row. -/
theorem lt_of_inb {w : BitVec 32} (hw : ∀ a, (k5_off4 w) a + S1x64.size a ≤ TS.size a) : w.toNat < nRows :=
  show w.toNat + 1 ≤ nRows from hw 0

/-- Column c of the destination row's own indices sits at (r, c) of the result. -/
theorem dst_emb (r : Fin 16384) (inb : ∀ a, (![r.val, 0] : Fin 2 → Nat) a + S1x64.size a ≤ S16384x64.size a) (x : S64.Idx) :
    (((oW : Memref sig .scVector .hbm S16384x64 .f32).slice (Rect.unit (s := S16384x64) ![r.val, 0] S1x64.size inb) (fun _ => rfl)).squeeze S64
        squeezes_S1x64_S64).view.emb x = ValueIdx.ix2 r (x 0) := by
  show (Rect.unit (s := S16384x64) ![r.val, 0] S1x64.size inb).emb (Shape.reshapeEquiv squeezes_S1x64_S64.numel_eq x) = _
  rw [Shape.reshapeEquiv_cons_one]
  funext a
  apply Fin.ext
  match a with
  | 0 => show r.val + 1 * 0 = r.val; omega
  | 1 => show 0 + 1 * (x 0).val = (x 0).val; omega

/-- Column c of the source row's own indices sits at (w, c) of the table. -/
theorem src_emb (w : BitVec 32) (hw : ∀ a, (k5_off4 w) a + S1x64.size a ≤ TS.size a) (x : S64.Idx) :
    (((tW : Memref sig .scVector .hbm TS .f32).slice (Rect.unit (s := TS) (k5_off4 w) S1x64.size hw) (fun _ => rfl)).squeeze S64
        squeezes_S1x64_S64).view.emb x = ValueIdx.ix2 (⟨w.toNat, lt_of_inb hw⟩ : Fin nRows) (x 0) := by
  show (Rect.unit (s := TS) (k5_off4 w) S1x64.size hw).emb (Shape.reshapeEquiv squeezes_S1x64_S64.numel_eq x) = _
  rw [Shape.reshapeEquiv_cons_one]
  funext a
  apply Fin.ext
  match a with
  | 0 => show w.toNat + 1 * 0 = w.toNat; omega
  | 1 => show 0 + 1 * (x 0).val = (x 0).val; omega

/-- After table row w has been copied onto result row r, every index of row r holds the table's entry at row w and the
    index's own column. -/
theorem write_row (d : Dev nD) (L : grid0.Coords) (off : Fin 2 → Nat) (inb : ∀ a, off a + S1x64.size a ≤ S16384x64.size a)
    (r : Fin 16384) (hoff : off = ![r.val, 0]) (w : BitVec 32) (hw : ∀ a, (k5_off4 w) a + S1x64.size a ≤ TS.size a)
    (fT : Buf (Elt F) (tLoc d)) (fO : Buf (Elt F) (oLoc d)) (i : S16384x64.Idx) (hi : i ∈ rowSet r) :
      ((((oW : Memref sig .scVector .hbm S16384x64 .f32).slice (Rect.unit (s := S16384x64) off S1x64.size inb) (fun _ => rfl)).squeeze S64
          squeezes_S1x64_S64).view.write (Elt F) fO
        ((ReadAs.same : ReadAs (Elt F) S64 .f32 S64 .f32).apply
          ((((tW : Memref sig .scVector .hbm TS .f32).slice (Rect.unit (s := TS) (k5_off4 w) S1x64.size hw) (fun _ => rfl)).squeeze S64
            squeezes_S1x64_S64).view.read (Elt F) fT)) Finset.univ) i
        = fT (ValueIdx.ix2 (⟨w.toNat, lt_of_inb hw⟩ : Fin nRows) (i 1)) := by
  subst hoff
  rw [← set_dstRow ![r.val, 0] inb r rfl] at hi
  obtain ⟨x, -, rfl⟩ := Finset.mem_map.mp hi
  rw [View.write_emb_of_mem _ _ (Finset.mem_univ x)]
  refine (cast_eq _ _).trans ?_
  show (((tW : Memref sig .scVector .hbm TS .f32).slice (Rect.unit (s := TS) (k5_off4 w) S1x64.size hw) (fun _ => rfl)).squeeze S64
      squeezes_S1x64_S64).view.read (Elt F) fT x = _
  rw [View.read_apply]
  refine (cast_eq _ _).trans ?_
  rw [src_emb w hw x, dst_emb r inb x]
  rfl

end Cert.Proof.KI.R5

end
-- ==== Proof.KIIssue5.lean ====
/-
  One of the tile's 512 row copies, started as the batch's next transfer. The copy reads the table row that the
  tile's `t`-th index word names and writes the tile's `t`-th row of the result; once it has landed, that row holds
  the lookup's value there: entry `(r, k)` of the result is entry `(idx r, k)` of the table.
-/
import proofs.«218896_g85959475462175_cont_9to1_m_647_27_alg».proof.Proof.KITileDefs5
import proofs.«218896_g85959475462175_cont_9to1_m_647_27_alg».proof.Proof.KIView5

noncomputable section

namespace Cert.Proof.KI.R5

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

variable (m : (ℓ : Loc nD τ sig) → Buf (Elt F) ℓ) (d : Dev nD) (L : grid0.Coords)

/-- A row of the result and a row of the table, as the body slices them. -/
abbrev dstRow (off : Fin 2 → Nat) (inb : ∀ a, off a + S1x64.size a ≤ S16384x64.size a) : Memref sig .scVector .hbm S64 .f32 :=
  ((oW : Memref sig .scVector .hbm S16384x64 .f32).slice (Rect.unit (s := S16384x64) off S1x64.size inb) (fun _ => rfl)).squeeze S64 squeezes_S1x64_S64
abbrev srcRow (w : BitVec 32) (hw : ∀ a, (k5_off4 w) a + S1x64.size a ≤ TS.size a) : Memref sig .scVector .hbm S64 .f32 :=
  ((tW : Memref sig .scVector .hbm TS .f32).slice (Rect.unit (s := TS) (k5_off4 w) S1x64.size hw) (fun _ => rfl)).squeeze S64 squeezes_S1x64_S64

variable [FloatOps F]

/-- What the landed copy leaves in its row is the lookup's value there. -/
theorem landed_eq (t : Fin 512) (off : Fin 2 → Nat) (inb : ∀ a, off a + S1x64.size a ≤ S16384x64.size a)
    (hoff : off = ![(tileRow L t).val, 0]) (w : BitVec 32) (hw : ∀ a, (k5_off4 w) a + S1x64.size a ≤ TS.size a)
    (hwv : w = m (iLoc d) (ValueIdx.ix1 (tileRow L t))) (hlt : w.toNat < nRows)
    (i : S16384x64.Idx) (hi : i ∈ rowSet (tileRow L t)) :
    ((dstRow off inb).view.write (Elt F) (m (oLoc d)) ((ReadAs.same : ReadAs (Elt F) S64 .f32 S64 .f32).apply ((srcRow w hw).view.read (Elt F) (m (tLoc d)))) Finset.univ) i
      = G m d i := by
  rw [write_row d L off inb (tileRow L t) hoff w hw (m (tLoc d)) (m (oLoc d)) i hi]
  obtain ⟨r, k, rfl⟩ : ∃ (r : Fin 16384) (k : Fin 64), i = ValueIdx.ix2 r k := ⟨i 0, i 1, ValueIdx.eq_ix2 i⟩
  have hr : r = tileRow L t := mem_rowSet_fst hi
  subst hr
  show m (tLoc d) (ValueIdx.ix2 _ k) = _
  rw [G_row]
  congr 2
  apply Fin.ext
  show w.toNat = (Spec.rowOf nRows nRows_pos (m (iLoc d) (ValueIdx.ix1 (tileRow L t)))).val
  rw [← hwv, Spec.rowOf_val_of_lt nRows_pos hlt]

/-- The batch's transfer `t`, started: from the copy's own token of the table and its row of the result. -/
theorem wp_issue (t : Fin 512) (off : Fin 2 → Nat) (inb : ∀ a, off a + S1x64.size a ≤ S16384x64.size a)
    (hoff : off = ![(tileRow L t).val, 0]) (w : BitVec 32) (hw : ∀ a, (k5_off4 w) a + S1x64.size a ≤ TS.size a)
    (hwv : w = m (iLoc d) (ValueIdx.ix1 (tileRow L t))) (hlt : w.toNat < nRows)
    {α : Type} {k : PUnit → Prog (TpuEff nD τ sig (Elt F) Λ₀ (thr d L).2) α} {Q : α → sProp 𝕄}
    {hs : (srcRow w hw).view.WordExact} {hd : (dstRow off inb).view.WordExact}
    {hsem : DmaTarget.Typed (nD := nD) Space.hbm (SemLoc.dma cc5_scratch1.sem) (DmaTarget.here (p := (thr d L).2) (dstRow off inb))} :
    iprop(Rk m d L t ∗ Transfers.Batch (EC (F := F)) (thr d L) (.dma cc5_scratch1.sem) (none : HIx 8) N (Dl m d L) t.val 0)
      ⊢ iprop((Transfers.Batch (EC (F := F)) (thr d L) (.dma cc5_scratch1.sem) (none : HIx 8) N (Dl m d L) (t.val + 1) 0
            -∗ wp frame (wpE (defs₀ (F := F)) 𝒱₀ (thr d L) none) Set.univ (k ⟨⟩) Q)
          -∗ wp frame (wpE (defs₀ (F := F)) 𝒱₀ (thr d L) none) Set.univ
              (.op (TpuEff.enqueueDma (srcRow w hw) (DmaTarget.here (p := (thr d L).2) (dstRow off inb)) (.dma cc5_scratch1.sem) hs hd hsem) k) Q) := by
  unfold Rk
  iintro ⟨⟨Htok, Hrow⟩, HB⟩ Hk
  ihave Htok' := ((pointsTo_split_subset (ℓ := tLoc d) (I := (srcRow w hw).view.set) (S := Finset.univ) (Finset.subset_univ _)).1) $$ Htok
  icases Htok' with ⟨Hsrc, -⟩
  iapply (Transfers.wp_dmaBatch (EC (F := F)) 𝒱₀ (thr d L) none (src := srcRow w hw) (dst := dstRow off inb)
      (q := Transfers.shareTok (tsh L) 512 t) (fs := m (tLoc d)) (Sd := rowSet (tileRow L t)) (fd := m (oLoc d)) (D := Dl m d L) (j := t.val) (u := 0)
      (none : HIx 8) N rfl (set_dstRow off inb (tileRow L t) hoff).le t.isLt (Nat.zero_le _) ?hD) $$ [Hsrc Hrow HB]
  case hD =>
    iintro ⟨H, -⟩
    unfold Dl
    iapply (Entails.of_eq (pointsTo_congr (fun i hi => landed_eq m d L t off inb hoff w hw hwv hlt i hi)))
    iexact H
  · isplitl [Hsrc]; · iexact Hsrc
    isplitl [Hrow]; · iexact Hrow
    iexact HB
  iexact Hk

end Cert.Proof.KI.R5

end
-- ==== Proof.KIDrain5.lean ====
/-
  The tile's second loop: 512 waits on the one semaphore that the 512 row copies complete on. Each wait takes one
  copy's units off the counter; copies land in any order, so a wait that is not the last proves nothing about any
  row, and only the last — when all 512 copies' units have been taken — hands back every row holding its value and
  the counter at zero. The invariant before wait k says exactly that: k copies' units consumed and the batch still
  open, or (after the last) every delivery in hand.
-/
import proofs.«218896_g85959475462175_cont_9to1_m_647_27_alg».proof.Proof.KITileDefs5

noncomputable section

namespace Cert.Proof.KI.R5

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- The loop makes 512 trips. -/
theorem trips2 : Scf.trips k5_t2_loop.lb k5_t2_loop.ub k5_t2_loop.st = 512 := by decide

/-- A row's credit is positive. -/
theorem N_pos : 0 < N := View.dmaCredit_pos _ (by decide)

/-- Before wait `k` of the 512: the batch with `k` transfers' units consumed; after the last, every delivery. -/
def inv2 (O : CellTallies nD τ sig (HIx 8)) (W : Waits sig (HIx 8)) (k : ℕ) (_ : Unit) : sProp 𝕄 :=
  iprop(Transfers.MayWaits (thr d L) (none : HIx 8) O
    ∗ ((⌜k < 512⌝ ∗ Transfers.Batch (EC (F := F)) (thr d L) (.dma cc5_scratch1.sem) (none : HIx 8) N (Dl m d L) 512 (k * N)
          ∗ ∃ W', ⌜∀ p ∈ W', p ∈ W ∨ p.2 = none⌝ ∗ owes (thr d L) O W')
      ∨ (⌜k = 512⌝ ∗ bigSep Finset.univ (Dl m d L) ∗ semVal (cB d L) 0 ∗ ∃ W', ⌜∀ p ∈ W', p ∈ W ∨ p.2 = none⌝ ∗ owes (thr d L) O W')))

variable [FloatOps F]

/-- The 512 waits: from the batch with every copy started and nothing consumed, to every row delivered and the counter at
    zero; each wait is recorded at the index of the tile's own copies. -/
theorem drain (O : CellTallies nD τ sig (HIx 8)) (W : Waits sig (HIx 8)) :
    iprop(Transfers.MayWaits (thr d L) (none : HIx 8) O
        ∗ Transfers.Batch (EC (F := F)) (thr d L) (.dma cc5_scratch1.sem) (none : HIx 8) N (Dl m d L) 512 0
        ∗ owes (thr d L) O W)
      ⊢ wp frame (wpE (defs₀ (F := F)) 𝒱₀ (thr d L) none) Set.univ
          (Scf.Loop.for k5_t2_loop k5_t2_ok ⟨⟩ (k5_t2_body L tW (Memref.isWhole_whole _) iW (Memref.isWhole_whole _) oW (Memref.isWhole_whole _) sW (Memref.isWhole_whole _) cc5_scratch1 cc5_scoped0))
          (fun _ => iprop(bigSep Finset.univ (Dl m d L) ∗ semVal (cB d L) 0 ∗ ∃ W', ⌜∀ p ∈ W', p ∈ W ∨ p.2 = none⌝ ∗ owes (thr d L) O W')) := by
  iintro ⟨#Hmw, HB, HO⟩
  sl_for (inv2 m d L O W) $$ [HB HO]
  case region =>
    intro k acc
    have hk : k.val < 512 := Nat.lt_of_lt_of_eq k.isLt trips2
    have e : (k.val + 1) * N = k.val * N + N := by rw [Nat.add_mul, Nat.one_mul]
    unfold inv2
    iintro ⟨#Hmw, H⟩
    sl_exec
    icases H with (⟨-, HB, %W', %hW', HO⟩ | ⟨%hk', -⟩)
    rotate_left
    · exfalso; omega
    ihave Hmw1 := (Transfers.MayWaits.elim (SemLoc.dma cc5_scratch1.sem)) $$ Hmw
    have hW'' : ∀ p ∈ insert (SemLoc.dma cc5_scratch1.sem, (none : HIx 8)) W', p ∈ W ∨ p.2 = none := by
      intro p hp
      rcases Finset.mem_insert.mp hp with hp | hp
      · exact .inr (hp ▸ rfl)
      · exact hW' p hp
    by_cases hlast : k.val + 1 < 512
    · have hu : k.val * N + N < N * 512 := by
        have h1 : (k.val + 1) * N < 512 * N := Nat.mul_lt_mul_of_pos_right hlast N_pos
        rw [e] at h1; rw [Nat.mul_comm N 512]; exact h1
      iapply (Transfers.wp_waitBatchO (EC (F := F)) 𝒱₀ (thr d L) none (none : HIx 8) (N := N) rfl hu) $$ [HB HO Hmw1]
      · isplitl [HB]; · iexact HB
        isplitl [HO]; · iexact HO
        iexact Hmw1
      iintro ⟨HB, HO⟩
      sl_step
      isplitr; · iexact Hmw
      ileft
      isplitr; · ipureintro; exact hlast
      rw [e]
      isplitl [HB]; · iexact HB
      iexists _; isplitr
      · ipureintro; exact hW''
      · iexact HO
    · have hu : k.val * N + N = N * 512 := by
        have h1 : k.val = 511 := by omega
        rw [h1]; omega
      iapply (Transfers.wp_waitBatchLastO (EC (F := F)) 𝒱₀ (thr d L) none (none : HIx 8) (N := N) rfl N_pos hu) $$ [HB HO Hmw1]
      · isplitl [HB]; · iexact HB
        isplitl [HO]; · iexact HO
        iexact Hmw1
      iintro ⟨HD, Hv, HO⟩
      sl_step
      isplitr; · iexact Hmw
      iright
      isplitr; · ipureintro; omega
      isplitl [HD]; · iexact HD
      isplitl [Hv]; · iexact Hv
      iexists _; isplitr
      · ipureintro; exact hW''
      · iexact HO
  rw [trips2]
  isplitl [HB HO]
  · unfold inv2
    isplitr; · iexact Hmw
    ileft
    isplitr; · ipureintro; omega
    rw [Nat.zero_mul]
    isplitl [HB]; · iexact HB
    iexists W; isplitr
    · ipureintro; exact fun p hp => .inl hp
    · iexact HO
  · iintro %acc HI
    unfold inv2
    icases HI with ⟨-, (⟨%h, -⟩ | ⟨-, HD, Hv, HW⟩)⟩
    · exfalso; omega
    isplitl [HD]; · iexact HD
    isplitl [Hv]; · iexact Hv
    iexact HW

end Cert.Proof.KI.R5

end
-- ==== Proof.KITile5.lean ====
/-
  The tile's obligation at call 5: the index words fetched into the scratch, the 512 row copies started sixteen to a
  trip on one semaphore as ONE batch (no copy's source or destination is touched between the first start and the
  last wait), the batch drained by 512 waits, and the rows handed back holding the lookup's value.
-/
import proofs.«218896_g85959475462175_cont_9to1_m_647_27_alg».proof.Proof.KITileDefs5
import proofs.«218896_g85959475462175_cont_9to1_m_647_27_alg».proof.Proof.KIView5
import proofs.«218896_g85959475462175_cont_9to1_m_647_27_alg».proof.Proof.KIIssue5
import proofs.«218896_g85959475462175_cont_9to1_m_647_27_alg».proof.Proof.KIDrain5

noncomputable section

namespace Cert.Proof.KI.R5

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- Before trip `k` of the first loop: the scratch at the landed index words, the first `16 k` copies started and none
    waited for, the later copies' tokens and rows still in hand. -/
def inv1 (k : Nat) (_ : PUnit) : sProp 𝕄 :=
  iprop(∃ sc, ⌜Holds m d L sc⌝ ∗ ((sW : Memref sig .scVector .vmem S512 .i32).view.loc (thr d L) ↦{fullShare} sc)
    ∗ Transfers.Batch (EC (F := F)) (thr d L) (.dma cc5_scratch1.sem) (none : HIx 8) N (Dl m d L) (16 * k) 0
    ∗ bigSep (Transfers.pending (n := 512) (16 * k)) (Rk m d L))

/-- The sixteen words a trip loads. -/
abbrev loaded (k : Fin k5_t1_loop.trips) (sc : Buf (Elt F) ((sW : Memref sig .scVector .vmem S512 .i32).view.loc (thr d L))) : Vec F S16 .i32 :=
  (sW : Memref sig .scVector .vmem S512 .i32).view.readAt (Elt F) (Rect.unit (s := S512) (k5_off2 k) S16.size (k5_off2_inb k)).toLoadRect sc

theorem off_eq {x y : Nat} (h : x = y) : (![x, 0] : Fin 2 → Nat) = ![y, 0] := by rw [h]

variable [FloatOps F]

/- Copy `j` of a trip: its index word names a row of the table (the check passes), and the copy is the batch's
   transfer `16 k + j`, started from that transfer's token and row. -/
set_option hygiene false in
local macro "issue_copy " j:num " with " chk:ident ", " wj:ident ", " offeq:ident : tactic => `(tactic| (
  iapply (wp_assume 𝒱₀ (thr d L) none Set.univ ($chk:ident ((congrArg BitVec.toNat ($wj:ident (loaded d L k sc))).trans_lt (hwlt ⟨$j, by decide⟩))))
  sl_exec
  ihave Hp := (Entails.of_eq (Transfers.bigSep_pending_step (Rk m d L) (16 * k.val + $j) (hidx ⟨$j, by decide⟩))) $$ Hpend
  icases Hp with ⟨HR, Hpend⟩
  iapply (wp_issue m d L ⟨16 * k.val + $j, hidx ⟨$j, by decide⟩⟩ _ _
      (($offeq:ident L k).trans (off_eq (by show _ = base L + (16 * k.val + $j); unfold base; omega))) _ _
      (($wj:ident (loaded d L k sc)).trans (hwv ⟨$j, by decide⟩)) ((congrArg BitVec.toNat ($wj:ident (loaded d L k sc))).trans_lt (hwlt ⟨$j, by decide⟩))) $$ [HR HB]
  · isplitl [HR]
    · iexact HR
    iexact HB
  iintro HB
  sl_exec))

theorem tile_body (hF : (K (F := F)).Facts) (hpre : ∀ d, Spec.InRange nRows (m (iLoc d))) : TileBody m := by
  intro d L O W hO
  simp only [cc5__gather_body_eq_skeleton]; unfold cc5__gather_body_skel
  rw [(K (F := F)).scopedBufs_V hF d (cV L) (jV L), SparseCore.Cfg.scopedSems0_V (Val := Elt F) d (cV L) (jV L), ownSems0_V, ownBufs_V]
  unfold go
  iintro ⟨#Hlv, -, ⟨Ht, Hi, Hrows⟩, ⟨⟨%fs, Hs⟩, Hbufs⟩, ⟨HsemS, HsemB, Hsems⟩, HO⟩
  ihave Hmw := ((K (F := F)).mayWaits_none (thr := thr d L) hO) $$ Hlv
  ihave Hi' := (Entails.of_eq (pts_i (F := F) d L _ _).symm) $$ Hi
  ihave Hs' := (Entails.of_eq (pts_s (F := F) d L _).symm) $$ Hs
  -- the index words fetched into the scratch, and the fetch waited for
  sl_exec
  -- the 512 copies' batch on the shared semaphore, allocated before the first is started
  imod (Transfers.batch_alloc' (Lvl := ℕ) (EC (F := F)) (thr d L) (none : HIx 8) N (Dl m d L) (sm := .dma cc5_scratch1.sem) (E := Set.univ)) $$ HsemB with HB
  -- the table's token dealt into one per copy
  ihave Ht' := (Transfers.pointsTo_toks_split (tsh L) 512) $$ Ht
  icases Ht' with ⟨-, Htoks⟩
  sl_for (inv1 m d L) $$ [Hs' HB Htoks Hrows]
  case region =>
    intro k hk
    unfold inv1
    iintro ⟨%sc, %hsc, Hs, HB, Hpend⟩
    have hk32 : k.val < 32 := lt_of_lt_of_eq k.isLt trips1
    have hidx : ∀ j : Fin 16, 16 * k.val + j.val < 512 := fun j => by have := j.isLt; omega
    -- the sixteen words the trip loads are the tile's index words 16 k … 16 k + 15; each names a row of the table
    have hwv : ∀ j : Fin 16, loaded d L k sc (ValueIdx.ix1 j) = m (iLoc d) (ValueIdx.ix1 (tileRow L ⟨16 * k.val + j.val, hidx j⟩)) :=
      fun j => (loaded_word d L k sc j).trans (hsc _)
    have hwlt : ∀ j : Fin 16, (loaded d L k sc (ValueIdx.ix1 j)).toNat < nRows := fun j => by rw [hwv j]; exact (hpre d).toNat_lt _
    sl_exec
    issue_copy 0 with chk_of_lt_1, word_0, k5_off3_eq
    issue_copy 1 with chk_of_lt_2, word_1, k5_off5_eq
    issue_copy 2 with chk_of_lt_3, word_2, k5_off7_eq
    issue_copy 3 with chk_of_lt_4, word_3, k5_off9_eq
    issue_copy 4 with chk_of_lt_5, word_4, k5_off11_eq
    issue_copy 5 with chk_of_lt_6, word_5, k5_off13_eq
    issue_copy 6 with chk_of_lt_7, word_6, k5_off15_eq
    issue_copy 7 with chk_of_lt_8, word_7, k5_off17_eq
    issue_copy 8 with chk_of_lt_9, word_8, k5_off19_eq
    issue_copy 9 with chk_of_lt_10, word_9, k5_off21_eq
    issue_copy 10 with chk_of_lt_11, word_10, k5_off23_eq
    issue_copy 11 with chk_of_lt_12, word_11, k5_off25_eq
    issue_copy 12 with chk_of_lt_13, word_12, k5_off27_eq
    issue_copy 13 with chk_of_lt_14, word_13, k5_off29_eq
    issue_copy 14 with chk_of_lt_15, word_14, k5_off31_eq
    issue_copy 15 with chk_of_lt_16, word_15, k5_off33_eq
    -- the trip's return: the invariant at `k + 1`
    rw [show 16 * (k.val + 1) = 16 * k.val + 15 + 1 by omega]
    sl_step
    iexists sc
    isplitr; · ipureintro; exact hsc
    isplitl [Hs]; · iexact Hs
    isplitl [HB]; · iexact HB
    iexact Hpend
  · -- the loop's entry: nothing started, every copy's token and row in hand
    unfold inv1
    iexists _
    isplitr; · ipureintro; exact fun t => scratch_holds d L fs (m (iLoc d)) t
    isplitl [Hs']; · iexact Hs'
    isplitl [HB]; · iexact HB
    rw [show 16 * 0 = 0 from rfl, ← Transfers.bigSep_pending_zero]
    unfold Rk
    rw [bigSep_sep']
    isplitl [Htoks]; · iexact Htoks
    iexact Hrows
  -- after the first loop: all 512 started, none waited for
  iintro %_ HI
  unfold inv1
  icases HI with ⟨%sc, -, Hs, HB, -⟩
  sl_exec
  have h512 : 16 * Scf.trips k5_t1_loop.lb k5_t1_loop.ub k5_t1_loop.st = 512 := by decide
  rw [h512]
  -- the second loop drains the batch: every row comes back holding the lookup's value
  simp only [wp_bind]
  ihave Hd := (drain m d L O _) $$ [HB HO]
  · isplitr; · iexact Hmw
    isplitl [HB]; · iexact HB
    iexact HO
  iapply (wp_wand frame _ Set.univ) $$ Hd
  iintro %_ ⟨HD, HsemB, %W', %hW', HO⟩
  sl_step
  isplitl [HD]
  · unfold td; iexact HD
  isplitl [Hs Hbufs]
  · isplitl [Hs]
    · iexists _; iapply (Entails.of_eq (pts_s (F := F) d L _)); iexact Hs
    iexact Hbufs
  isplitl [HsemS HsemB Hsems]
  · isplitl [HsemS]; · iexact HsemS
    isplitl [HsemB]; · iexact HsemB
    iexact Hsems
  iexists W'; isplitr
  · ipureintro; intro p hp
    rcases hW' p hp with h | h
    · rcases Finset.mem_insert.mp h with rfl | h
      · exact .inr rfl
      · exact .inl h
    · exact .inr h
  iexact HO

end Cert.Proof.KI.R5

end
-- ==== Proof.KITileDefs6.lean ====
/-
  The tile's own names for call 6's body: its thread, its two DMA semaphores' cells, its scoped storage opened to
  the scratch and those two cells, the batch of the 512 row copies (each copy's delivery: its row of the result at
  the lookup's value), and what a copy needs before it is started.
-/
import proofs.«218896_g85959475462175_cont_9to1_m_647_27_alg».proof.Proof.KIRes6

noncomputable section

namespace Cert.Proof.KI.R6

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

abbrev thr : Thread nD τ := V d (cV L) (jV L)
abbrev cS : GSem nD τ sig := (thr d L, .dma cc6_scoped0.sem)
abbrev cB : GSem nD τ sig := (thr d L, .dma cc6_scratch1.sem)

theorem ownSems0_V :
    (ownSems0 (thr d L) : sProp 𝕄)
      = iprop(semVal (cS d L) 0 ∗ semVal (cB d L) 0 ∗ bigSep (((ownCells (thr d L)).erase (cS d L)).erase (cB d L)) fun g => semVal g 0) := by
  unfold SparseCore.Cfg.ownSems0
  rw [SparseCore.bigSep_erase' ((mem_ownCells (g := cS d L)).mpr ⟨rfl, by
      show (SemLoc.dma cc6_scoped0.sem : SemLoc sig).isScoped .scVector = true; decide⟩),
    SparseCore.bigSep_erase' (Finset.mem_erase.mpr ⟨by simp [cS, cB]; decide, (mem_ownCells (g := cB d L)).mpr ⟨rfl, by
      show (SemLoc.dma cc6_scratch1.sem : SemLoc sig).isScoped .scVector = true; decide⟩⟩)]

theorem ownBufs_V :
    (ownBufs (thr d L) : sProp 𝕄)
      = iprop((∃ f, (thr d L).loc scrScv ↦{fullShare} f)
          ∗ bigSep ((ownRefs (τ := τ) (.scVector (cV L) (jV L))).erase ((Proc.scVector (cV L) (jV L)).devRef scrScv))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef scrScv) rfl)

omit m in
theorem pts_i (q : PosShare TreeShare) (f : Buf (Elt F) (iLoc d)) :
    ((iW : Memref sig .scVector .hbm S16384 .i32).view.loc (thr d L) ↦{q} f : sProp 𝕄) = iLoc d ↦{q} f := rfl
omit m in
theorem pts_t (q : PosShare TreeShare) (f : Buf (Elt F) (tLoc d)) :
    ((tW : Memref sig .scVector .hbm TS .f32).view.loc (thr d L) ↦{q} f : sProp 𝕄) = tLoc d ↦{q} f := rfl
omit m in
theorem pts_s (f : Buf (Elt F) ((thr d L).loc scrScv)) :
    ((sW : Memref sig .scVector .vmem S512 .i32).view.loc (thr d L) ↦{fullShare} f : sProp 𝕄) = (thr d L).loc scrScv ↦{fullShare} f := rfl

/-- The counters of the tile's own copies. -/
abbrev EC : UEmb Counters (MT nD τ sig (HIx 8) (Elt F) ℕ UU ℕ) := countersEmb (U := UU)

/-- Row 0 of the result as the waits name it: any row's credit. -/
abbrev row0 : Memref sig .scVector .hbm S64 .f32 :=
  ((oW : Memref sig .scVector .hbm S16384x64 .f32).slice (Rect.unit (s := S16384x64) ![0, 0] S1x64.size inb_S16384x64_S1x64_0_0) (fun _ => rfl)).squeeze S64 squeezes_S1x64_S64
abbrev N : ℕ := (row0).view.dmaCredit

/-- The tile's read token of the table. -/
abbrev tsh : PosShare TreeShare := Transfers.shareTok fullShare 32 (wid L)

/-- Copy `t` of the 512 delivers row `t` of the tile's rows holding the lookup's value. -/
def Dl (t : Fin 512) : sProp 𝕄 := oLoc d ↦[rowSet (tileRow L t)]{fullShare} G m d

instance Dl_storable (t : Fin 512) : BI.Storable (upEmb : UEmb _ 𝕄) (Dl m d L t) := by unfold Dl; infer_instance

/-- What copy `t` needs before it is started: its own read token of the table, and its row of the result. -/
def Rk (t : Fin 512) : sProp 𝕄 :=
  iprop((tLoc d ↦{Transfers.shareTok (tsh L) 512 t} m (tLoc d)) ∗ (oLoc d ↦[rowSet (tileRow L t)]{fullShare} m (oLoc d)))

/-- The scratch holds the tile's 512 index words. -/
def Holds (sc : Buf (Elt F) ((sW : Memref sig .scVector .vmem S512 .i32).view.loc (thr d L))) : Prop :=
  ∀ t : Fin 512, sc (ValueIdx.ix1 t) = m (iLoc d) (ValueIdx.ix1 (tileRow L t))

end Cert.Proof.KI.R6

end
-- ==== Proof.KIView6.lean ====
/-
  Call 6 of the eight: what the tile's memory accesses address and read, as plain facts about index sets and
  contents, with no program logic in them.

  The tile at grid coordinates L owns result rows base L … base L + 511. It copies index words base L … base L + 511
  into its 512-word scratch (scratch_holds: word t of the scratch is then word base L + t of the index array);
  in trip g it loads the sixteen scratch words 16g … 16g + 15 (loaded_word) and takes them apart one at a time
  (word_0 … word_15); for each word w it copies table row w, when w names a row (chk_of_lt_N), onto one result row
  (set_dstRow: the destination is exactly that row's set of indices; write_row: after the copy the row holds table row w,
  column by column). G_row is the lookup's value at one index, and mem_rowSet_fst says that an index of row r's set has
  first coordinate r.
-/
import proofs.«218896_g85959475462175_cont_9to1_m_647_27_alg».proof.Proof.KIRes6

noncomputable section

namespace Cert.Proof.KI.R6

open Cert.KernelIdeal Cert.KernelIdeal.Gen Cert.Proof.KI

open Idealize.ShloMosaic
open Idealize.ShloMosaic.SparseCore (S V T)

variable {F : FTy → Type}

/-! ## A word that names a row passes the copy's side condition -/

theorem chk_of_lt_1 {w : BitVec 32} (h : w.toNat < nRows) : k6_chk1 w := fun a =>
  match a with
  | 0 => show w.toNat + 1 ≤ nRows from h
  | 1 => show 0 + 64 ≤ 64 from Nat.le_refl _
theorem chk_of_lt_2 {w : BitVec 32} (h : w.toNat < nRows) : k6_chk2 w := fun a =>
  match a with
  | 0 => show w.toNat + 1 ≤ nRows from h
  | 1 => show 0 + 64 ≤ 64 from Nat.le_refl _
theorem chk_of_lt_3 {w : BitVec 32} (h : w.toNat < nRows) : k6_chk3 w := fun a =>
  match a with
  | 0 => show w.toNat + 1 ≤ nRows from h
  | 1 => show 0 + 64 ≤ 64 from Nat.le_refl _
theorem chk_of_lt_4 {w : BitVec 32} (h : w.toNat < nRows) : k6_chk4 w := fun a =>
  match a with
  | 0 => show w.toNat + 1 ≤ nRows from h
  | 1 => show 0 + 64 ≤ 64 from Nat.le_refl _
theorem chk_of_lt_5 {w : BitVec 32} (h : w.toNat < nRows) : k6_chk5 w := fun a =>
  match a with
  | 0 => show w.toNat + 1 ≤ nRows from h
  | 1 => show 0 + 64 ≤ 64 from Nat.le_refl _
theorem chk_of_lt_6 {w : BitVec 32} (h : w.toNat < nRows) : k6_chk6 w := fun a =>
  match a with
  | 0 => show w.toNat + 1 ≤ nRows from h
  | 1 => show 0 + 64 ≤ 64 from Nat.le_refl _
theorem chk_of_lt_7 {w : BitVec 32} (h : w.toNat < nRows) : k6_chk7 w := fun a =>
  match a with
  | 0 => show w.toNat + 1 ≤ nRows from h
  | 1 => show 0 + 64 ≤ 64 from Nat.le_refl _
theorem chk_of_lt_8 {w : BitVec 32} (h : w.toNat < nRows) : k6_chk8 w := fun a =>
  match a with
  | 0 => show w.toNat + 1 ≤ nRows from h
  | 1 => show 0 + 64 ≤ 64 from Nat.le_refl _
theorem chk_of_lt_9 {w : BitVec 32} (h : w.toNat < nRows) : k6_chk9 w := fun a =>
  match a with
  | 0 => show w.toNat + 1 ≤ nRows from h
  | 1 => show 0 + 64 ≤ 64 from Nat.le_refl _
theorem chk_of_lt_10 {w : BitVec 32} (h : w.toNat < nRows) : k6_chk10 w := fun a =>
  match a with
  | 0 => show w.toNat + 1 ≤ nRows from h
  | 1 => show 0 + 64 ≤ 64 from Nat.le_refl _
theorem chk_of_lt_11 {w : BitVec 32} (h : w.toNat < nRows) : k6_chk11 w := fun a =>
  match a with
  | 0 => show w.toNat + 1 ≤ nRows from h
  | 1 => show 0 + 64 ≤ 64 from Nat.le_refl _
theorem chk_of_lt_12 {w : BitVec 32} (h : w.toNat < nRows) : k6_chk12 w := fun a =>
  match a with
  | 0 => show w.toNat + 1 ≤ nRows from h
  | 1 => show 0 + 64 ≤ 64 from Nat.le_refl _
theorem chk_of_lt_13 {w : BitVec 32} (h : w.toNat < nRows) : k6_chk13 w := fun a =>
  match a with
  | 0 => show w.toNat + 1 ≤ nRows from h
  | 1 => show 0 + 64 ≤ 64 from Nat.le_refl _
theorem chk_of_lt_14 {w : BitVec 32} (h : w.toNat < nRows) : k6_chk14 w := fun a =>
  match a with
  | 0 => show w.toNat + 1 ≤ nRows from h
  | 1 => show 0 + 64 ≤ 64 from Nat.le_refl _
theorem chk_of_lt_15 {w : BitVec 32} (h : w.toNat < nRows) : k6_chk15 w := fun a =>
  match a with
  | 0 => show w.toNat + 1 ≤ nRows from h
  | 1 => show 0 + 64 ≤ 64 from Nat.le_refl _
theorem chk_of_lt_16 {w : BitVec 32} (h : w.toNat < nRows) : k6_chk16 w := fun a =>
  match a with
  | 0 => show w.toNat + 1 ≤ nRows from h
  | 1 => show 0 + 64 ≤ 64 from Nat.le_refl _

/-! ## The sixteen words of a load, one at a time -/

theorem word_0 (v7 : Vec F S16 .i32) : extractAt ![0] (k6_pay1 v7) inpos_S1_p0 = v7 (ValueIdx.ix1 ⟨0, by decide⟩) := by
  unfold k6_pay1 extractAt extractStridedSlice
  exact congrArg v7 (funext fun a => by obtain rfl : a = 0 := Subsingleton.elim _ _; rfl)
theorem word_1 (v7 : Vec F S16 .i32) : extractAt ![0] (k6_pay2 v7) inpos_S1_p0 = v7 (ValueIdx.ix1 ⟨1, by decide⟩) := by
  unfold k6_pay2 extractAt extractStridedSlice
  exact congrArg v7 (funext fun a => by obtain rfl : a = 0 := Subsingleton.elim _ _; rfl)
theorem word_2 (v7 : Vec F S16 .i32) : extractAt ![0] (k6_pay3 v7) inpos_S1_p0 = v7 (ValueIdx.ix1 ⟨2, by decide⟩) := by
  unfold k6_pay3 extractAt extractStridedSlice
  exact congrArg v7 (funext fun a => by obtain rfl : a = 0 := Subsingleton.elim _ _; rfl)
theorem word_3 (v7 : Vec F S16 .i32) : extractAt ![0] (k6_pay4 v7) inpos_S1_p0 = v7 (ValueIdx.ix1 ⟨3, by decide⟩) := by
  unfold k6_pay4 extractAt extractStridedSlice
  exact congrArg v7 (funext fun a => by obtain rfl : a = 0 := Subsingleton.elim _ _; rfl)
theorem word_4 (v7 : Vec F S16 .i32) : extractAt ![0] (k6_pay5 v7) inpos_S1_p0 = v7 (ValueIdx.ix1 ⟨4, by decide⟩) := by
  unfold k6_pay5 extractAt extractStridedSlice
  exact congrArg v7 (funext fun a => by obtain rfl : a = 0 := Subsingleton.elim _ _; rfl)
theorem word_5 (v7 : Vec F S16 .i32) : extractAt ![0] (k6_pay6 v7) inpos_S1_p0 = v7 (ValueIdx.ix1 ⟨5, by decide⟩) := by
  unfold k6_pay6 extractAt extractStridedSlice
  exact congrArg v7 (funext fun a => by obtain rfl : a = 0 := Subsingleton.elim _ _; rfl)
theorem word_6 (v7 : Vec F S16 .i32) : extractAt ![0] (k6_pay7 v7) inpos_S1_p0 = v7 (ValueIdx.ix1 ⟨6, by decide⟩) := by
  unfold k6_pay7 extractAt extractStridedSlice
  exact congrArg v7 (funext fun a => by obtain rfl : a = 0 := Subsingleton.elim _ _; rfl)
theorem word_7 (v7 : Vec F S16 .i32) : extractAt ![0] (k6_pay8 v7) inpos_S1_p0 = v7 (ValueIdx.ix1 ⟨7, by decide⟩) := by
  unfold k6_pay8 extractAt extractStridedSlice
  exact congrArg v7 (funext fun a => by obtain rfl : a = 0 := Subsingleton.elim _ _; rfl)
theorem word_8 (v7 : Vec F S16 .i32) : extractAt ![0] (k6_pay9 v7) inpos_S1_p0 = v7 (ValueIdx.ix1 ⟨8, by decide⟩) := by
  unfold k6_pay9 extractAt extractStridedSlice
  exact congrArg v7 (funext fun a => by obtain rfl : a = 0 := Subsingleton.elim _ _; rfl)
theorem word_9 (v7 : Vec F S16 .i32) : extractAt ![0] (k6_pay10 v7) inpos_S1_p0 = v7 (ValueIdx.ix1 ⟨9, by decide⟩) := by
  unfold k6_pay10 extractAt extractStridedSlice
  exact congrArg v7 (funext fun a => by obtain rfl : a = 0 := Subsingleton.elim _ _; rfl)
theorem word_10 (v7 : Vec F S16 .i32) : extractAt ![0] (k6_pay11 v7) inpos_S1_p0 = v7 (ValueIdx.ix1 ⟨10, by decide⟩) := by
  unfold k6_pay11 extractAt extractStridedSlice
  exact congrArg v7 (funext fun a => by obtain rfl : a = 0 := Subsingleton.elim _ _; rfl)
theorem word_11 (v7 : Vec F S16 .i32) : extractAt ![0] (k6_pay12 v7) inpos_S1_p0 = v7 (ValueIdx.ix1 ⟨11, by decide⟩) := by
  unfold k6_pay12 extractAt extractStridedSlice
  exact congrArg v7 (funext fun a => by obtain rfl : a = 0 := Subsingleton.elim _ _; rfl)
theorem word_12 (v7 : Vec F S16 .i32) : extractAt ![0] (k6_pay13 v7) inpos_S1_p0 = v7 (ValueIdx.ix1 ⟨12, by decide⟩) := by
  unfold k6_pay13 extractAt extractStridedSlice
  exact congrArg v7 (funext fun a => by obtain rfl : a = 0 := Subsingleton.elim _ _; rfl)
theorem word_13 (v7 : Vec F S16 .i32) : extractAt ![0] (k6_pay14 v7) inpos_S1_p0 = v7 (ValueIdx.ix1 ⟨13, by decide⟩) := by
  unfold k6_pay14 extractAt extractStridedSlice
  exact congrArg v7 (funext fun a => by obtain rfl : a = 0 := Subsingleton.elim _ _; rfl)
theorem word_14 (v7 : Vec F S16 .i32) : extractAt ![0] (k6_pay15 v7) inpos_S1_p0 = v7 (ValueIdx.ix1 ⟨14, by decide⟩) := by
  unfold k6_pay15 extractAt extractStridedSlice
  exact congrArg v7 (funext fun a => by obtain rfl : a = 0 := Subsingleton.elim _ _; rfl)
theorem word_15 (v7 : Vec F S16 .i32) : extractAt ![0] (k6_pay16 v7) inpos_S1_p0 = v7 (ValueIdx.ix1 ⟨15, by decide⟩) := by
  unfold k6_pay16 extractAt extractStridedSlice
  exact congrArg v7 (funext fun a => by obtain rfl : a = 0 := Subsingleton.elim _ _; rfl)

/-! ## The lookup's value at an index; the indices of a row -/

variable (m : (ℓ : Loc nD τ sig) → Buf (Elt F) ℓ)

theorem G_row (d : Dev nD) (r : Fin 16384) (k : Fin 64) :
    G m d (ValueIdx.ix2 r k) = m (tLoc d) (ValueIdx.ix2 (Spec.rowOf nRows nRows_pos (m (iLoc d) (ValueIdx.ix1 r))) k) := by
  unfold G
  exact Spec.gatherRows_apply nRows nRows_pos (m (tLoc d)) (m (iLoc d)) r k

theorem mem_rowSet_fst {r : Fin 16384} {i : S16384x64.Idx} (h : i ∈ rowSet r) : i 0 = r := by
  have h' : i ∈ (row r).set := by rw [← View.set_slice_whole outScv (row r)]; exact h
  rw [Rect.mem_set_unit] at h'
  have h0 := h' 0
  apply Fin.ext
  simp only [Shape.partIx, Shape.partSize] at h0
  have e : S16384x64.size 0 / 16384 = 1 := by decide
  simp only [↓reduceIte, e] at h0
  omega

/-! ## The destination of one row's copy -/

/-- The one-row rectangle at row r is the r-th of the 16384 parts of the result along its first axis. -/
theorem unitRow_eq (r : Fin 16384) (inb : ∀ a, (![r.val, 0] : Fin 2 → Nat) a + S1x64.size a ≤ S16384x64.size a) :
    Rect.unit (s := S16384x64) ![r.val, 0] S1x64.size inb = row r := by
  unfold row Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem set_dstRow (off : Fin 2 → Nat) (inb : ∀ a, off a + S1x64.size a ≤ S16384x64.size a) (r : Fin 16384)
    (hoff : off = ![r.val, 0]) :
    (((oW : Memref sig .scVector .hbm S16384x64 .f32).slice (Rect.unit (s := S16384x64) off S1x64.size inb) (fun _ => rfl)).squeeze S64
        squeezes_S1x64_S64).view.set = rowSet r := by
  subst hoff
  show (((oW : Memref sig .scVector .hbm S16384x64 .f32).view.slice (Rect.unit (s := S16384x64) ![r.val, 0] S1x64.size inb)).reshape S64
      squeezes_S1x64_S64.numel_eq).set = ((oW : Memref sig .scVector .hbm S16384x64 .f32).view.slice (row r)).set
  rw [View.set_reshape]
  exact unitRow_eq r inb ▸ rfl

/-! ## What the scratch holds after the first copy, and what a trip loads from it -/

theorem trips1 : k6_t1_loop.trips = 32 := by decide

theorem word_lt (g : Fin k6_t1_loop.trips) (j : Fin 16) : 16 * g.val + j.val < 512 := by
  have hg : g.val < 32 := Nat.lt_of_lt_of_eq g.isLt trips1
  have hj := j.isLt
  omega

/-- Word j of the sixteen that trip g loads is word 16g + j of the scratch. -/
theorem loaded_word (d : Dev nD) (L : grid0.Coords) (g : Fin k6_t1_loop.trips)
    (s : Buf (Elt F) ((sW : Memref sig .scVector .vmem S512 .i32).view.loc (V d (cV L) (jV L)))) (j : Fin 16) :
    ((sW : Memref sig .scVector .vmem S512 .i32).view.readAt (Elt F)
        (Rect.unit (s := S512) (k6_off2 g) S16.size (k6_off2_inb g)).toLoadRect s) (ValueIdx.ix1 j)
      = s (ValueIdx.ix1 ⟨16 * g.val + j.val, word_lt g j⟩) := by
  rw [View.readAt_apply]
  show s ((Rect.unit (s := S512) (k6_off2 g) S16.size (k6_off2_inb g)).toLoadRect.idx (ValueIdx.ix1 j)) = _
  refine congrArg s (funext fun (a : Fin 1) => Fin.ext ?_)
  obtain rfl : a = 0 := Subsingleton.elim _ _
  rw [LoadRect.idx_apply]
  show (k6_off2 g) 0 + 1 * j.val = 16 * g.val + j.val
  rw [k6_off2_eq]
  simp

/-- Once the first copy has landed, word t of the scratch is word base L + t of the index array. -/
theorem scratch_holds (d : Dev nD) (L : grid0.Coords)
    (fs : Buf (Elt F) ((sW : Memref sig .scVector .vmem S512 .i32).view.loc (V d (cV L) (jV L))))
    (mI : Buf (Elt F) (iLoc d)) (t : Fin 512) :
    ((sW : Memref sig .scVector .vmem S512 .i32).view.write (Elt F) fs
        ((ReadAs.same : ReadAs (Elt F) S512 .i32 S512 .i32).apply
          (((iW : Memref sig .scVector .hbm S16384 .i32).slice (Rect.unit (s := S16384) (k6_off1 L) S512.size (k6_off1_inb L))
              (fun _ => rfl)).view.read (Elt F) mI)) Finset.univ) (ValueIdx.ix1 t)
      = mI (ValueIdx.ix1 (⟨base L + t.val, base_add_lt L t⟩ : Fin 16384)) := by
  show ((View.whole scrScv).write (Elt F) fs
      (((iW : Memref sig .scVector .hbm S16384 .i32).view.slice (Rect.unit (s := S16384) (k6_off1 L) S512.size (k6_off1_inb L))).read (Elt F) mI)
      Finset.univ) (ValueIdx.ix1 t) = _
  rw [View.write_whole_univ, View.read_apply]
  refine (cast_eq _ _).trans ?_
  refine congrArg mI (funext fun (a : Fin 1) => Fin.ext ?_)
  obtain rfl : a = 0 := Subsingleton.elim _ _
  show (k6_off1 L) 0 + 1 * t.val = base L + t.val
  rw [k6_off1_eq]
  unfold base
  simp

/-! ## What one row's copy leaves -/

/-- A word that passes the copy's side condition names a row. -/
theorem lt_of_inb {w : BitVec 32} (hw : ∀ a, (k6_off4 w) a + S1x64.size a ≤ TS.size a) : w.toNat < nRows :=
  show w.toNat + 1 ≤ nRows from hw 0

/-- Column c of the destination row's own indices sits at (r, c) of the result. -/
theorem dst_emb (r : Fin 16384) (inb : ∀ a, (![r.val, 0] : Fin 2 → Nat) a + S1x64.size a ≤ S16384x64.size a) (x : S64.Idx) :
    (((oW : Memref sig .scVector .hbm S16384x64 .f32).slice (Rect.unit (s := S16384x64) ![r.val, 0] S1x64.size inb) (fun _ => rfl)).squeeze S64
        squeezes_S1x64_S64).view.emb x = ValueIdx.ix2 r (x 0) := by
  show (Rect.unit (s := S16384x64) ![r.val, 0] S1x64.size inb).emb (Shape.reshapeEquiv squeezes_S1x64_S64.numel_eq x) = _
  rw [Shape.reshapeEquiv_cons_one]
  funext a
  apply Fin.ext
  match a with
  | 0 => show r.val + 1 * 0 = r.val; omega
  | 1 => show 0 + 1 * (x 0).val = (x 0).val; omega

/-- Column c of the source row's own indices sits at (w, c) of the table. -/
theorem src_emb (w : BitVec 32) (hw : ∀ a, (k6_off4 w) a + S1x64.size a ≤ TS.size a) (x : S64.Idx) :
    (((tW : Memref sig .scVector .hbm TS .f32).slice (Rect.unit (s := TS) (k6_off4 w) S1x64.size hw) (fun _ => rfl)).squeeze S64
        squeezes_S1x64_S64).view.emb x = ValueIdx.ix2 (⟨w.toNat, lt_of_inb hw⟩ : Fin nRows) (x 0) := by
  show (Rect.unit (s := TS) (k6_off4 w) S1x64.size hw).emb (Shape.reshapeEquiv squeezes_S1x64_S64.numel_eq x) = _
  rw [Shape.reshapeEquiv_cons_one]
  funext a
  apply Fin.ext
  match a with
  | 0 => show w.toNat + 1 * 0 = w.toNat; omega
  | 1 => show 0 + 1 * (x 0).val = (x 0).val; omega

/-- After table row w has been copied onto result row r, every index of row r holds the table's entry at row w and the
    index's own column. -/
theorem write_row (d : Dev nD) (L : grid0.Coords) (off : Fin 2 → Nat) (inb : ∀ a, off a + S1x64.size a ≤ S16384x64.size a)
    (r : Fin 16384) (hoff : off = ![r.val, 0]) (w : BitVec 32) (hw : ∀ a, (k6_off4 w) a + S1x64.size a ≤ TS.size a)
    (fT : Buf (Elt F) (tLoc d)) (fO : Buf (Elt F) (oLoc d)) (i : S16384x64.Idx) (hi : i ∈ rowSet r) :
      ((((oW : Memref sig .scVector .hbm S16384x64 .f32).slice (Rect.unit (s := S16384x64) off S1x64.size inb) (fun _ => rfl)).squeeze S64
          squeezes_S1x64_S64).view.write (Elt F) fO
        ((ReadAs.same : ReadAs (Elt F) S64 .f32 S64 .f32).apply
          ((((tW : Memref sig .scVector .hbm TS .f32).slice (Rect.unit (s := TS) (k6_off4 w) S1x64.size hw) (fun _ => rfl)).squeeze S64
            squeezes_S1x64_S64).view.read (Elt F) fT)) Finset.univ) i
        = fT (ValueIdx.ix2 (⟨w.toNat, lt_of_inb hw⟩ : Fin nRows) (i 1)) := by
  subst hoff
  rw [← set_dstRow ![r.val, 0] inb r rfl] at hi
  obtain ⟨x, -, rfl⟩ := Finset.mem_map.mp hi
  rw [View.write_emb_of_mem _ _ (Finset.mem_univ x)]
  refine (cast_eq _ _).trans ?_
  show (((tW : Memref sig .scVector .hbm TS .f32).slice (Rect.unit (s := TS) (k6_off4 w) S1x64.size hw) (fun _ => rfl)).squeeze S64
      squeezes_S1x64_S64).view.read (Elt F) fT x = _
  rw [View.read_apply]
  refine (cast_eq _ _).trans ?_
  rw [src_emb w hw x, dst_emb r inb x]
  rfl

end Cert.Proof.KI.R6

end
-- ==== Proof.KIIssue6.lean ====
/-
  One of the tile's 512 row copies, started as the batch's next transfer. The copy reads the table row that the
  tile's `t`-th index word names and writes the tile's `t`-th row of the result; once it has landed, that row holds
  the lookup's value there: entry `(r, k)` of the result is entry `(idx r, k)` of the table.
-/
import proofs.«218896_g85959475462175_cont_9to1_m_647_27_alg».proof.Proof.KITileDefs6
import proofs.«218896_g85959475462175_cont_9to1_m_647_27_alg».proof.Proof.KIView6

noncomputable section

namespace Cert.Proof.KI.R6

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

variable (m : (ℓ : Loc nD τ sig) → Buf (Elt F) ℓ) (d : Dev nD) (L : grid0.Coords)

/-- A row of the result and a row of the table, as the body slices them. -/
abbrev dstRow (off : Fin 2 → Nat) (inb : ∀ a, off a + S1x64.size a ≤ S16384x64.size a) : Memref sig .scVector .hbm S64 .f32 :=
  ((oW : Memref sig .scVector .hbm S16384x64 .f32).slice (Rect.unit (s := S16384x64) off S1x64.size inb) (fun _ => rfl)).squeeze S64 squeezes_S1x64_S64
abbrev srcRow (w : BitVec 32) (hw : ∀ a, (k6_off4 w) a + S1x64.size a ≤ TS.size a) : Memref sig .scVector .hbm S64 .f32 :=
  ((tW : Memref sig .scVector .hbm TS .f32).slice (Rect.unit (s := TS) (k6_off4 w) S1x64.size hw) (fun _ => rfl)).squeeze S64 squeezes_S1x64_S64

variable [FloatOps F]

/-- What the landed copy leaves in its row is the lookup's value there. -/
theorem landed_eq (t : Fin 512) (off : Fin 2 → Nat) (inb : ∀ a, off a + S1x64.size a ≤ S16384x64.size a)
    (hoff : off = ![(tileRow L t).val, 0]) (w : BitVec 32) (hw : ∀ a, (k6_off4 w) a + S1x64.size a ≤ TS.size a)
    (hwv : w = m (iLoc d) (ValueIdx.ix1 (tileRow L t))) (hlt : w.toNat < nRows)
    (i : S16384x64.Idx) (hi : i ∈ rowSet (tileRow L t)) :
    ((dstRow off inb).view.write (Elt F) (m (oLoc d)) ((ReadAs.same : ReadAs (Elt F) S64 .f32 S64 .f32).apply ((srcRow w hw).view.read (Elt F) (m (tLoc d)))) Finset.univ) i
      = G m d i := by
  rw [write_row d L off inb (tileRow L t) hoff w hw (m (tLoc d)) (m (oLoc d)) i hi]
  obtain ⟨r, k, rfl⟩ : ∃ (r : Fin 16384) (k : Fin 64), i = ValueIdx.ix2 r k := ⟨i 0, i 1, ValueIdx.eq_ix2 i⟩
  have hr : r = tileRow L t := mem_rowSet_fst hi
  subst hr
  show m (tLoc d) (ValueIdx.ix2 _ k) = _
  rw [G_row]
  congr 2
  apply Fin.ext
  show w.toNat = (Spec.rowOf nRows nRows_pos (m (iLoc d) (ValueIdx.ix1 (tileRow L t)))).val
  rw [← hwv, Spec.rowOf_val_of_lt nRows_pos hlt]

/-- The batch's transfer `t`, started: from the copy's own token of the table and its row of the result. -/
theorem wp_issue (t : Fin 512) (off : Fin 2 → Nat) (inb : ∀ a, off a + S1x64.size a ≤ S16384x64.size a)
    (hoff : off = ![(tileRow L t).val, 0]) (w : BitVec 32) (hw : ∀ a, (k6_off4 w) a + S1x64.size a ≤ TS.size a)
    (hwv : w = m (iLoc d) (ValueIdx.ix1 (tileRow L t))) (hlt : w.toNat < nRows)
    {α : Type} {k : PUnit → Prog (TpuEff nD τ sig (Elt F) Λ₀ (thr d L).2) α} {Q : α → sProp 𝕄}
    {hs : (srcRow w hw).view.WordExact} {hd : (dstRow off inb).view.WordExact}
    {hsem : DmaTarget.Typed (nD := nD) Space.hbm (SemLoc.dma cc6_scratch1.sem) (DmaTarget.here (p := (thr d L).2) (dstRow off inb))} :
    iprop(Rk m d L t ∗ Transfers.Batch (EC (F := F)) (thr d L) (.dma cc6_scratch1.sem) (none : HIx 8) N (Dl m d L) t.val 0)
      ⊢ iprop((Transfers.Batch (EC (F := F)) (thr d L) (.dma cc6_scratch1.sem) (none : HIx 8) N (Dl m d L) (t.val + 1) 0
            -∗ wp frame (wpE (defs₀ (F := F)) 𝒱₀ (thr d L) none) Set.univ (k ⟨⟩) Q)
          -∗ wp frame (wpE (defs₀ (F := F)) 𝒱₀ (thr d L) none) Set.univ
              (.op (TpuEff.enqueueDma (srcRow w hw) (DmaTarget.here (p := (thr d L).2) (dstRow off inb)) (.dma cc6_scratch1.sem) hs hd hsem) k) Q) := by
  unfold Rk
  iintro ⟨⟨Htok, Hrow⟩, HB⟩ Hk
  ihave Htok' := ((pointsTo_split_subset (ℓ := tLoc d) (I := (srcRow w hw).view.set) (S := Finset.univ) (Finset.subset_univ _)).1) $$ Htok
  icases Htok' with ⟨Hsrc, -⟩
  iapply (Transfers.wp_dmaBatch (EC (F := F)) 𝒱₀ (thr d L) none (src := srcRow w hw) (dst := dstRow off inb)
      (q := Transfers.shareTok (tsh L) 512 t) (fs := m (tLoc d)) (Sd := rowSet (tileRow L t)) (fd := m (oLoc d)) (D := Dl m d L) (j := t.val) (u := 0)
      (none : HIx 8) N rfl (set_dstRow off inb (tileRow L t) hoff).le t.isLt (Nat.zero_le _) ?hD) $$ [Hsrc Hrow HB]
  case hD =>
    iintro ⟨H, -⟩
    unfold Dl
    iapply (Entails.of_eq (pointsTo_congr (fun i hi => landed_eq m d L t off inb hoff w hw hwv hlt i hi)))
    iexact H
  · isplitl [Hsrc]; · iexact Hsrc
    isplitl [Hrow]; · iexact Hrow
    iexact HB
  iexact Hk

end Cert.Proof.KI.R6

end
-- ==== Proof.KIDrain6.lean ====
/-
  The tile's second loop: 512 waits on the one semaphore that the 512 row copies complete on. Each wait takes one
  copy's units off the counter; copies land in any order, so a wait that is not the last proves nothing about any
  row, and only the last — when all 512 copies' units have been taken — hands back every row holding its value and
  the counter at zero. The invariant before wait k says exactly that: k copies' units consumed and the batch still
  open, or (after the last) every delivery in hand.
-/
import proofs.«218896_g85959475462175_cont_9to1_m_647_27_alg».proof.Proof.KITileDefs6

noncomputable section

namespace Cert.Proof.KI.R6

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- The loop makes 512 trips. -/
theorem trips2 : Scf.trips k6_t2_loop.lb k6_t2_loop.ub k6_t2_loop.st = 512 := by decide

/-- A row's credit is positive. -/
theorem N_pos : 0 < N := View.dmaCredit_pos _ (by decide)

/-- Before wait `k` of the 512: the batch with `k` transfers' units consumed; after the last, every delivery. -/
def inv2 (O : CellTallies nD τ sig (HIx 8)) (W : Waits sig (HIx 8)) (k : ℕ) (_ : Unit) : sProp 𝕄 :=
  iprop(Transfers.MayWaits (thr d L) (none : HIx 8) O
    ∗ ((⌜k < 512⌝ ∗ Transfers.Batch (EC (F := F)) (thr d L) (.dma cc6_scratch1.sem) (none : HIx 8) N (Dl m d L) 512 (k * N)
          ∗ ∃ W', ⌜∀ p ∈ W', p ∈ W ∨ p.2 = none⌝ ∗ owes (thr d L) O W')
      ∨ (⌜k = 512⌝ ∗ bigSep Finset.univ (Dl m d L) ∗ semVal (cB d L) 0 ∗ ∃ W', ⌜∀ p ∈ W', p ∈ W ∨ p.2 = none⌝ ∗ owes (thr d L) O W')))

variable [FloatOps F]

/-- The 512 waits: from the batch with every copy started and nothing consumed, to every row delivered and the counter at
    zero; each wait is recorded at the index of the tile's own copies. -/
theorem drain (O : CellTallies nD τ sig (HIx 8)) (W : Waits sig (HIx 8)) :
    iprop(Transfers.MayWaits (thr d L) (none : HIx 8) O
        ∗ Transfers.Batch (EC (F := F)) (thr d L) (.dma cc6_scratch1.sem) (none : HIx 8) N (Dl m d L) 512 0
        ∗ owes (thr d L) O W)
      ⊢ wp frame (wpE (defs₀ (F := F)) 𝒱₀ (thr d L) none) Set.univ
          (Scf.Loop.for k6_t2_loop k6_t2_ok ⟨⟩ (k6_t2_body L tW (Memref.isWhole_whole _) iW (Memref.isWhole_whole _) oW (Memref.isWhole_whole _) sW (Memref.isWhole_whole _) cc6_scratch1 cc6_scoped0))
          (fun _ => iprop(bigSep Finset.univ (Dl m d L) ∗ semVal (cB d L) 0 ∗ ∃ W', ⌜∀ p ∈ W', p ∈ W ∨ p.2 = none⌝ ∗ owes (thr d L) O W')) := by
  iintro ⟨#Hmw, HB, HO⟩
  sl_for (inv2 m d L O W) $$ [HB HO]
  case region =>
    intro k acc
    have hk : k.val < 512 := Nat.lt_of_lt_of_eq k.isLt trips2
    have e : (k.val + 1) * N = k.val * N + N := by rw [Nat.add_mul, Nat.one_mul]
    unfold inv2
    iintro ⟨#Hmw, H⟩
    sl_exec
    icases H with (⟨-, HB, %W', %hW', HO⟩ | ⟨%hk', -⟩)
    rotate_left
    · exfalso; omega
    ihave Hmw1 := (Transfers.MayWaits.elim (SemLoc.dma cc6_scratch1.sem)) $$ Hmw
    have hW'' : ∀ p ∈ insert (SemLoc.dma cc6_scratch1.sem, (none : HIx 8)) W', p ∈ W ∨ p.2 = none := by
      intro p hp
      rcases Finset.mem_insert.mp hp with hp | hp
      · exact .inr (hp ▸ rfl)
      · exact hW' p hp
    by_cases hlast : k.val + 1 < 512
    · have hu : k.val * N + N < N * 512 := by
        have h1 : (k.val + 1) * N < 512 * N := Nat.mul_lt_mul_of_pos_right hlast N_pos
        rw [e] at h1; rw [Nat.mul_comm N 512]; exact h1
      iapply (Transfers.wp_waitBatchO (EC (F := F)) 𝒱₀ (thr d L) none (none : HIx 8) (N := N) rfl hu) $$ [HB HO Hmw1]
      · isplitl [HB]; · iexact HB
        isplitl [HO]; · iexact HO
        iexact Hmw1
      iintro ⟨HB, HO⟩
      sl_step
      isplitr; · iexact Hmw
      ileft
      isplitr; · ipureintro; exact hlast
      rw [e]
      isplitl [HB]; · iexact HB
      iexists _; isplitr
      · ipureintro; exact hW''
      · iexact HO
    · have hu : k.val * N + N = N * 512 := by
        have h1 : k.val = 511 := by omega
        rw [h1]; omega
      iapply (Transfers.wp_waitBatchLastO (EC (F := F)) 𝒱₀ (thr d L) none (none : HIx 8) (N := N) rfl N_pos hu) $$ [HB HO Hmw1]
      · isplitl [HB]; · iexact HB
        isplitl [HO]; · iexact HO
        iexact Hmw1
      iintro ⟨HD, Hv, HO⟩
      sl_step
      isplitr; · iexact Hmw
      iright
      isplitr; · ipureintro; omega
      isplitl [HD]; · iexact HD
      isplitl [Hv]; · iexact Hv
      iexists _; isplitr
      · ipureintro; exact hW''
      · iexact HO
  rw [trips2]
  isplitl [HB HO]
  · unfold inv2
    isplitr; · iexact Hmw
    ileft
    isplitr; · ipureintro; omega
    rw [Nat.zero_mul]
    isplitl [HB]; · iexact HB
    iexists W; isplitr
    · ipureintro; exact fun p hp => .inl hp
    · iexact HO
  · iintro %acc HI
    unfold inv2
    icases HI with ⟨-, (⟨%h, -⟩ | ⟨-, HD, Hv, HW⟩)⟩
    · exfalso; omega
    isplitl [HD]; · iexact HD
    isplitl [Hv]; · iexact Hv
    iexact HW

end Cert.Proof.KI.R6

end
-- ==== Proof.KITile6.lean ====
/-
  The tile's obligation at call 6: the index words fetched into the scratch, the 512 row copies started sixteen to a
  trip on one semaphore as ONE batch (no copy's source or destination is touched between the first start and the
  last wait), the batch drained by 512 waits, and the rows handed back holding the lookup's value.
-/
import proofs.«218896_g85959475462175_cont_9to1_m_647_27_alg».proof.Proof.KITileDefs6
import proofs.«218896_g85959475462175_cont_9to1_m_647_27_alg».proof.Proof.KIView6
import proofs.«218896_g85959475462175_cont_9to1_m_647_27_alg».proof.Proof.KIIssue6
import proofs.«218896_g85959475462175_cont_9to1_m_647_27_alg».proof.Proof.KIDrain6

noncomputable section

namespace Cert.Proof.KI.R6

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- Before trip `k` of the first loop: the scratch at the landed index words, the first `16 k` copies started and none
    waited for, the later copies' tokens and rows still in hand. -/
def inv1 (k : Nat) (_ : PUnit) : sProp 𝕄 :=
  iprop(∃ sc, ⌜Holds m d L sc⌝ ∗ ((sW : Memref sig .scVector .vmem S512 .i32).view.loc (thr d L) ↦{fullShare} sc)
    ∗ Transfers.Batch (EC (F := F)) (thr d L) (.dma cc6_scratch1.sem) (none : HIx 8) N (Dl m d L) (16 * k) 0
    ∗ bigSep (Transfers.pending (n := 512) (16 * k)) (Rk m d L))

/-- The sixteen words a trip loads. -/
abbrev loaded (k : Fin k6_t1_loop.trips) (sc : Buf (Elt F) ((sW : Memref sig .scVector .vmem S512 .i32).view.loc (thr d L))) : Vec F S16 .i32 :=
  (sW : Memref sig .scVector .vmem S512 .i32).view.readAt (Elt F) (Rect.unit (s := S512) (k6_off2 k) S16.size (k6_off2_inb k)).toLoadRect sc

theorem off_eq {x y : Nat} (h : x = y) : (![x, 0] : Fin 2 → Nat) = ![y, 0] := by rw [h]

variable [FloatOps F]

/- Copy `j` of a trip: its index word names a row of the table (the check passes), and the copy is the batch's
   transfer `16 k + j`, started from that transfer's token and row. -/
set_option hygiene false in
local macro "issue_copy " j:num " with " chk:ident ", " wj:ident ", " offeq:ident : tactic => `(tactic| (
  iapply (wp_assume 𝒱₀ (thr d L) none Set.univ ($chk:ident ((congrArg BitVec.toNat ($wj:ident (loaded d L k sc))).trans_lt (hwlt ⟨$j, by decide⟩))))
  sl_exec
  ihave Hp := (Entails.of_eq (Transfers.bigSep_pending_step (Rk m d L) (16 * k.val + $j) (hidx ⟨$j, by decide⟩))) $$ Hpend
  icases Hp with ⟨HR, Hpend⟩
  iapply (wp_issue m d L ⟨16 * k.val + $j, hidx ⟨$j, by decide⟩⟩ _ _
      (($offeq:ident L k).trans (off_eq (by show _ = base L + (16 * k.val + $j); unfold base; omega))) _ _
      (($wj:ident (loaded d L k sc)).trans (hwv ⟨$j, by decide⟩)) ((congrArg BitVec.toNat ($wj:ident (loaded d L k sc))).trans_lt (hwlt ⟨$j, by decide⟩))) $$ [HR HB]
  · isplitl [HR]
    · iexact HR
    iexact HB
  iintro HB
  sl_exec))

theorem tile_body (hF : (K (F := F)).Facts) (hpre : ∀ d, Spec.InRange nRows (m (iLoc d))) : TileBody m := by
  intro d L O W hO
  simp only [cc6__gather_body_eq_skeleton]; unfold cc6__gather_body_skel
  rw [(K (F := F)).scopedBufs_V hF d (cV L) (jV L), SparseCore.Cfg.scopedSems0_V (Val := Elt F) d (cV L) (jV L), ownSems0_V, ownBufs_V]
  unfold go
  iintro ⟨#Hlv, -, ⟨Ht, Hi, Hrows⟩, ⟨⟨%fs, Hs⟩, Hbufs⟩, ⟨HsemS, HsemB, Hsems⟩, HO⟩
  ihave Hmw := ((K (F := F)).mayWaits_none (thr := thr d L) hO) $$ Hlv
  ihave Hi' := (Entails.of_eq (pts_i (F := F) d L _ _).symm) $$ Hi
  ihave Hs' := (Entails.of_eq (pts_s (F := F) d L _).symm) $$ Hs
  -- the index words fetched into the scratch, and the fetch waited for
  sl_exec
  -- the 512 copies' batch on the shared semaphore, allocated before the first is started
  imod (Transfers.batch_alloc' (Lvl := ℕ) (EC (F := F)) (thr d L) (none : HIx 8) N (Dl m d L) (sm := .dma cc6_scratch1.sem) (E := Set.univ)) $$ HsemB with HB
  -- the table's token dealt into one per copy
  ihave Ht' := (Transfers.pointsTo_toks_split (tsh L) 512) $$ Ht
  icases Ht' with ⟨-, Htoks⟩
  sl_for (inv1 m d L) $$ [Hs' HB Htoks Hrows]
  case region =>
    intro k hk
    unfold inv1
    iintro ⟨%sc, %hsc, Hs, HB, Hpend⟩
    have hk32 : k.val < 32 := lt_of_lt_of_eq k.isLt trips1
    have hidx : ∀ j : Fin 16, 16 * k.val + j.val < 512 := fun j => by have := j.isLt; omega
    -- the sixteen words the trip loads are the tile's index words 16 k … 16 k + 15; each names a row of the table
    have hwv : ∀ j : Fin 16, loaded d L k sc (ValueIdx.ix1 j) = m (iLoc d) (ValueIdx.ix1 (tileRow L ⟨16 * k.val + j.val, hidx j⟩)) :=
      fun j => (loaded_word d L k sc j).trans (hsc _)
    have hwlt : ∀ j : Fin 16, (loaded d L k sc (ValueIdx.ix1 j)).toNat < nRows := fun j => by rw [hwv j]; exact (hpre d).toNat_lt _
    sl_exec
    issue_copy 0 with chk_of_lt_1, word_0, k6_off3_eq
    issue_copy 1 with chk_of_lt_2, word_1, k6_off5_eq
    issue_copy 2 with chk_of_lt_3, word_2, k6_off7_eq
    issue_copy 3 with chk_of_lt_4, word_3, k6_off9_eq
    issue_copy 4 with chk_of_lt_5, word_4, k6_off11_eq
    issue_copy 5 with chk_of_lt_6, word_5, k6_off13_eq
    issue_copy 6 with chk_of_lt_7, word_6, k6_off15_eq
    issue_copy 7 with chk_of_lt_8, word_7, k6_off17_eq
    issue_copy 8 with chk_of_lt_9, word_8, k6_off19_eq
    issue_copy 9 with chk_of_lt_10, word_9, k6_off21_eq
    issue_copy 10 with chk_of_lt_11, word_10, k6_off23_eq
    issue_copy 11 with chk_of_lt_12, word_11, k6_off25_eq
    issue_copy 12 with chk_of_lt_13, word_12, k6_off27_eq
    issue_copy 13 with chk_of_lt_14, word_13, k6_off29_eq
    issue_copy 14 with chk_of_lt_15, word_14, k6_off31_eq
    issue_copy 15 with chk_of_lt_16, word_15, k6_off33_eq
    -- the trip's return: the invariant at `k + 1`
    rw [show 16 * (k.val + 1) = 16 * k.val + 15 + 1 by omega]
    sl_step
    iexists sc
    isplitr; · ipureintro; exact hsc
    isplitl [Hs]; · iexact Hs
    isplitl [HB]; · iexact HB
    iexact Hpend
  · -- the loop's entry: nothing started, every copy's token and row in hand
    unfold inv1
    iexists _
    isplitr; · ipureintro; exact fun t => scratch_holds d L fs (m (iLoc d)) t
    isplitl [Hs']; · iexact Hs'
    isplitl [HB]; · iexact HB
    rw [show 16 * 0 = 0 from rfl, ← Transfers.bigSep_pending_zero]
    unfold Rk
    rw [bigSep_sep']
    isplitl [Htoks]; · iexact Htoks
    iexact Hrows
  -- after the first loop: all 512 started, none waited for
  iintro %_ HI
  unfold inv1
  icases HI with ⟨%sc, -, Hs, HB, -⟩
  sl_exec
  have h512 : 16 * Scf.trips k6_t1_loop.lb k6_t1_loop.ub k6_t1_loop.st = 512 := by decide
  rw [h512]
  -- the second loop drains the batch: every row comes back holding the lookup's value
  simp only [wp_bind]
  ihave Hd := (drain m d L O _) $$ [HB HO]
  · isplitr; · iexact Hmw
    isplitl [HB]; · iexact HB
    iexact HO
  iapply (wp_wand frame _ Set.univ) $$ Hd
  iintro %_ ⟨HD, HsemB, %W', %hW', HO⟩
  sl_step
  isplitl [HD]
  · unfold td; iexact HD
  isplitl [Hs Hbufs]
  · isplitl [Hs]
    · iexists _; iapply (Entails.of_eq (pts_s (F := F) d L _)); iexact Hs
    iexact Hbufs
  isplitl [HsemS HsemB Hsems]
  · isplitl [HsemS]; · iexact HsemS
    isplitl [HsemB]; · iexact HsemB
    iexact Hsems
  iexists W'; isplitr
  · ipureintro; intro p hp
    rcases hW' p hp with h | h
    · rcases Finset.mem_insert.mp h with rfl | h
      · exact .inr rfl
      · exact .inl h
    · exact .inr h
  iexact HO

end Cert.Proof.KI.R6

end
-- ==== Proof.KITileDefs7.lean ====
/-
  The tile's own names for call 7's body: its thread, its two DMA semaphores' cells, its scoped storage opened to
  the scratch and those two cells, the batch of the 512 row copies (each copy's delivery: its row of the result at
  the lookup's value), and what a copy needs before it is started.
-/
import proofs.«218896_g85959475462175_cont_9to1_m_647_27_alg».proof.Proof.KIRes7

noncomputable section

namespace Cert.Proof.KI.R7

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

abbrev thr : Thread nD τ := V d (cV L) (jV L)
abbrev cS : GSem nD τ sig := (thr d L, .dma cc7_scoped0.sem)
abbrev cB : GSem nD τ sig := (thr d L, .dma cc7_scratch1.sem)

theorem ownSems0_V :
    (ownSems0 (thr d L) : sProp 𝕄)
      = iprop(semVal (cS d L) 0 ∗ semVal (cB d L) 0 ∗ bigSep (((ownCells (thr d L)).erase (cS d L)).erase (cB d L)) fun g => semVal g 0) := by
  unfold SparseCore.Cfg.ownSems0
  rw [SparseCore.bigSep_erase' ((mem_ownCells (g := cS d L)).mpr ⟨rfl, by
      show (SemLoc.dma cc7_scoped0.sem : SemLoc sig).isScoped .scVector = true; decide⟩),
    SparseCore.bigSep_erase' (Finset.mem_erase.mpr ⟨by simp [cS, cB]; decide, (mem_ownCells (g := cB d L)).mpr ⟨rfl, by
      show (SemLoc.dma cc7_scratch1.sem : SemLoc sig).isScoped .scVector = true; decide⟩⟩)]

theorem ownBufs_V :
    (ownBufs (thr d L) : sProp 𝕄)
      = iprop((∃ f, (thr d L).loc scrScv ↦{fullShare} f)
          ∗ bigSep ((ownRefs (τ := τ) (.scVector (cV L) (jV L))).erase ((Proc.scVector (cV L) (jV L)).devRef scrScv))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef scrScv) rfl)

omit m in
theorem pts_i (q : PosShare TreeShare) (f : Buf (Elt F) (iLoc d)) :
    ((iW : Memref sig .scVector .hbm S16384 .i32).view.loc (thr d L) ↦{q} f : sProp 𝕄) = iLoc d ↦{q} f := rfl
omit m in
theorem pts_t (q : PosShare TreeShare) (f : Buf (Elt F) (tLoc d)) :
    ((tW : Memref sig .scVector .hbm TS .f32).view.loc (thr d L) ↦{q} f : sProp 𝕄) = tLoc d ↦{q} f := rfl
omit m in
theorem pts_s (f : Buf (Elt F) ((thr d L).loc scrScv)) :
    ((sW : Memref sig .scVector .vmem S512 .i32).view.loc (thr d L) ↦{fullShare} f : sProp 𝕄) = (thr d L).loc scrScv ↦{fullShare} f := rfl

/-- The counters of the tile's own copies. -/
abbrev EC : UEmb Counters (MT nD τ sig (HIx 8) (Elt F) ℕ UU ℕ) := countersEmb (U := UU)

/-- Row 0 of the result as the waits name it: any row's credit. -/
abbrev row0 : Memref sig .scVector .hbm S64 .f32 :=
  ((oW : Memref sig .scVector .hbm S16384x64 .f32).slice (Rect.unit (s := S16384x64) ![0, 0] S1x64.size inb_S16384x64_S1x64_0_0) (fun _ => rfl)).squeeze S64 squeezes_S1x64_S64
abbrev N : ℕ := (row0).view.dmaCredit

/-- The tile's read token of the table. -/
abbrev tsh : PosShare TreeShare := Transfers.shareTok fullShare 32 (wid L)

/-- Copy `t` of the 512 delivers row `t` of the tile's rows holding the lookup's value. -/
def Dl (t : Fin 512) : sProp 𝕄 := oLoc d ↦[rowSet (tileRow L t)]{fullShare} G m d

instance Dl_storable (t : Fin 512) : BI.Storable (upEmb : UEmb _ 𝕄) (Dl m d L t) := by unfold Dl; infer_instance

/-- What copy `t` needs before it is started: its own read token of the table, and its row of the result. -/
def Rk (t : Fin 512) : sProp 𝕄 :=
  iprop((tLoc d ↦{Transfers.shareTok (tsh L) 512 t} m (tLoc d)) ∗ (oLoc d ↦[rowSet (tileRow L t)]{fullShare} m (oLoc d)))

/-- The scratch holds the tile's 512 index words. -/
def Holds (sc : Buf (Elt F) ((sW : Memref sig .scVector .vmem S512 .i32).view.loc (thr d L))) : Prop :=
  ∀ t : Fin 512, sc (ValueIdx.ix1 t) = m (iLoc d) (ValueIdx.ix1 (tileRow L t))

end Cert.Proof.KI.R7

end
-- ==== Proof.KIView7.lean ====
/-
  Call 7 of the eight: what the tile's memory accesses address and read, as plain facts about index sets and
  contents, with no program logic in them.

  The tile at grid coordinates L owns result rows base L … base L + 511. It copies index words base L … base L + 511
  into its 512-word scratch (scratch_holds: word t of the scratch is then word base L + t of the index array);
  in trip g it loads the sixteen scratch words 16g … 16g + 15 (loaded_word) and takes them apart one at a time
  (word_0 … word_15); for each word w it copies table row w, when w names a row (chk_of_lt_N), onto one result row
  (set_dstRow: the destination is exactly that row's set of indices; write_row: after the copy the row holds table row w,
  column by column). G_row is the lookup's value at one index, and mem_rowSet_fst says that an index of row r's set has
  first coordinate r.
-/
import proofs.«218896_g85959475462175_cont_9to1_m_647_27_alg».proof.Proof.KIRes7

noncomputable section

namespace Cert.Proof.KI.R7

open Cert.KernelIdeal Cert.KernelIdeal.Gen Cert.Proof.KI

open Idealize.ShloMosaic
open Idealize.ShloMosaic.SparseCore (S V T)

variable {F : FTy → Type}

/-! ## A word that names a row passes the copy's side condition -/

theorem chk_of_lt_1 {w : BitVec 32} (h : w.toNat < nRows) : k7_chk1 w := fun a =>
  match a with
  | 0 => show w.toNat + 1 ≤ nRows from h
  | 1 => show 0 + 64 ≤ 64 from Nat.le_refl _
theorem chk_of_lt_2 {w : BitVec 32} (h : w.toNat < nRows) : k7_chk2 w := fun a =>
  match a with
  | 0 => show w.toNat + 1 ≤ nRows from h
  | 1 => show 0 + 64 ≤ 64 from Nat.le_refl _
theorem chk_of_lt_3 {w : BitVec 32} (h : w.toNat < nRows) : k7_chk3 w := fun a =>
  match a with
  | 0 => show w.toNat + 1 ≤ nRows from h
  | 1 => show 0 + 64 ≤ 64 from Nat.le_refl _
theorem chk_of_lt_4 {w : BitVec 32} (h : w.toNat < nRows) : k7_chk4 w := fun a =>
  match a with
  | 0 => show w.toNat + 1 ≤ nRows from h
  | 1 => show 0 + 64 ≤ 64 from Nat.le_refl _
theorem chk_of_lt_5 {w : BitVec 32} (h : w.toNat < nRows) : k7_chk5 w := fun a =>
  match a with
  | 0 => show w.toNat + 1 ≤ nRows from h
  | 1 => show 0 + 64 ≤ 64 from Nat.le_refl _
theorem chk_of_lt_6 {w : BitVec 32} (h : w.toNat < nRows) : k7_chk6 w := fun a =>
  match a with
  | 0 => show w.toNat + 1 ≤ nRows from h
  | 1 => show 0 + 64 ≤ 64 from Nat.le_refl _
theorem chk_of_lt_7 {w : BitVec 32} (h : w.toNat < nRows) : k7_chk7 w := fun a =>
  match a with
  | 0 => show w.toNat + 1 ≤ nRows from h
  | 1 => show 0 + 64 ≤ 64 from Nat.le_refl _
theorem chk_of_lt_8 {w : BitVec 32} (h : w.toNat < nRows) : k7_chk8 w := fun a =>
  match a with
  | 0 => show w.toNat + 1 ≤ nRows from h
  | 1 => show 0 + 64 ≤ 64 from Nat.le_refl _
theorem chk_of_lt_9 {w : BitVec 32} (h : w.toNat < nRows) : k7_chk9 w := fun a =>
  match a with
  | 0 => show w.toNat + 1 ≤ nRows from h
  | 1 => show 0 + 64 ≤ 64 from Nat.le_refl _
theorem chk_of_lt_10 {w : BitVec 32} (h : w.toNat < nRows) : k7_chk10 w := fun a =>
  match a with
  | 0 => show w.toNat + 1 ≤ nRows from h
  | 1 => show 0 + 64 ≤ 64 from Nat.le_refl _
theorem chk_of_lt_11 {w : BitVec 32} (h : w.toNat < nRows) : k7_chk11 w := fun a =>
  match a with
  | 0 => show w.toNat + 1 ≤ nRows from h
  | 1 => show 0 + 64 ≤ 64 from Nat.le_refl _
theorem chk_of_lt_12 {w : BitVec 32} (h : w.toNat < nRows) : k7_chk12 w := fun a =>
  match a with
  | 0 => show w.toNat + 1 ≤ nRows from h
  | 1 => show 0 + 64 ≤ 64 from Nat.le_refl _
theorem chk_of_lt_13 {w : BitVec 32} (h : w.toNat < nRows) : k7_chk13 w := fun a =>
  match a with
  | 0 => show w.toNat + 1 ≤ nRows from h
  | 1 => show 0 + 64 ≤ 64 from Nat.le_refl _
theorem chk_of_lt_14 {w : BitVec 32} (h : w.toNat < nRows) : k7_chk14 w := fun a =>
  match a with
  | 0 => show w.toNat + 1 ≤ nRows from h
  | 1 => show 0 + 64 ≤ 64 from Nat.le_refl _
theorem chk_of_lt_15 {w : BitVec 32} (h : w.toNat < nRows) : k7_chk15 w := fun a =>
  match a with
  | 0 => show w.toNat + 1 ≤ nRows from h
  | 1 => show 0 + 64 ≤ 64 from Nat.le_refl _
theorem chk_of_lt_16 {w : BitVec 32} (h : w.toNat < nRows) : k7_chk16 w := fun a =>
  match a with
  | 0 => show w.toNat + 1 ≤ nRows from h
  | 1 => show 0 + 64 ≤ 64 from Nat.le_refl _

/-! ## The sixteen words of a load, one at a time -/

theorem word_0 (v7 : Vec F S16 .i32) : extractAt ![0] (k7_pay1 v7) inpos_S1_p0 = v7 (ValueIdx.ix1 ⟨0, by decide⟩) := by
  unfold k7_pay1 extractAt extractStridedSlice
  exact congrArg v7 (funext fun a => by obtain rfl : a = 0 := Subsingleton.elim _ _; rfl)
theorem word_1 (v7 : Vec F S16 .i32) : extractAt ![0] (k7_pay2 v7) inpos_S1_p0 = v7 (ValueIdx.ix1 ⟨1, by decide⟩) := by
  unfold k7_pay2 extractAt extractStridedSlice
  exact congrArg v7 (funext fun a => by obtain rfl : a = 0 := Subsingleton.elim _ _; rfl)
theorem word_2 (v7 : Vec F S16 .i32) : extractAt ![0] (k7_pay3 v7) inpos_S1_p0 = v7 (ValueIdx.ix1 ⟨2, by decide⟩) := by
  unfold k7_pay3 extractAt extractStridedSlice
  exact congrArg v7 (funext fun a => by obtain rfl : a = 0 := Subsingleton.elim _ _; rfl)
theorem word_3 (v7 : Vec F S16 .i32) : extractAt ![0] (k7_pay4 v7) inpos_S1_p0 = v7 (ValueIdx.ix1 ⟨3, by decide⟩) := by
  unfold k7_pay4 extractAt extractStridedSlice
  exact congrArg v7 (funext fun a => by obtain rfl : a = 0 := Subsingleton.elim _ _; rfl)
theorem word_4 (v7 : Vec F S16 .i32) : extractAt ![0] (k7_pay5 v7) inpos_S1_p0 = v7 (ValueIdx.ix1 ⟨4, by decide⟩) := by
  unfold k7_pay5 extractAt extractStridedSlice
  exact congrArg v7 (funext fun a => by obtain rfl : a = 0 := Subsingleton.elim _ _; rfl)
theorem word_5 (v7 : Vec F S16 .i32) : extractAt ![0] (k7_pay6 v7) inpos_S1_p0 = v7 (ValueIdx.ix1 ⟨5, by decide⟩) := by
  unfold k7_pay6 extractAt extractStridedSlice
  exact congrArg v7 (funext fun a => by obtain rfl : a = 0 := Subsingleton.elim _ _; rfl)
theorem word_6 (v7 : Vec F S16 .i32) : extractAt ![0] (k7_pay7 v7) inpos_S1_p0 = v7 (ValueIdx.ix1 ⟨6, by decide⟩) := by
  unfold k7_pay7 extractAt extractStridedSlice
  exact congrArg v7 (funext fun a => by obtain rfl : a = 0 := Subsingleton.elim _ _; rfl)
theorem word_7 (v7 : Vec F S16 .i32) : extractAt ![0] (k7_pay8 v7) inpos_S1_p0 = v7 (ValueIdx.ix1 ⟨7, by decide⟩) := by
  unfold k7_pay8 extractAt extractStridedSlice
  exact congrArg v7 (funext fun a => by obtain rfl : a = 0 := Subsingleton.elim _ _; rfl)
theorem word_8 (v7 : Vec F S16 .i32) : extractAt ![0] (k7_pay9 v7) inpos_S1_p0 = v7 (ValueIdx.ix1 ⟨8, by decide⟩) := by
  unfold k7_pay9 extractAt extractStridedSlice
  exact congrArg v7 (funext fun a => by obtain rfl : a = 0 := Subsingleton.elim _ _; rfl)
theorem word_9 (v7 : Vec F S16 .i32) : extractAt ![0] (k7_pay10 v7) inpos_S1_p0 = v7 (ValueIdx.ix1 ⟨9, by decide⟩) := by
  unfold k7_pay10 extractAt extractStridedSlice
  exact congrArg v7 (funext fun a => by obtain rfl : a = 0 := Subsingleton.elim _ _; rfl)
theorem word_10 (v7 : Vec F S16 .i32) : extractAt ![0] (k7_pay11 v7) inpos_S1_p0 = v7 (ValueIdx.ix1 ⟨10, by decide⟩) := by
  unfold k7_pay11 extractAt extractStridedSlice
  exact congrArg v7 (funext fun a => by obtain rfl : a = 0 := Subsingleton.elim _ _; rfl)
theorem word_11 (v7 : Vec F S16 .i32) : extractAt ![0] (k7_pay12 v7) inpos_S1_p0 = v7 (ValueIdx.ix1 ⟨11, by decide⟩) := by
  unfold k7_pay12 extractAt extractStridedSlice
  exact congrArg v7 (funext fun a => by obtain rfl : a = 0 := Subsingleton.elim _ _; rfl)
theorem word_12 (v7 : Vec F S16 .i32) : extractAt ![0] (k7_pay13 v7) inpos_S1_p0 = v7 (ValueIdx.ix1 ⟨12, by decide⟩) := by
  unfold k7_pay13 extractAt extractStridedSlice
  exact congrArg v7 (funext fun a => by obtain rfl : a = 0 := Subsingleton.elim _ _; rfl)
theorem word_13 (v7 : Vec F S16 .i32) : extractAt ![0] (k7_pay14 v7) inpos_S1_p0 = v7 (ValueIdx.ix1 ⟨13, by decide⟩) := by
  unfold k7_pay14 extractAt extractStridedSlice
  exact congrArg v7 (funext fun a => by obtain rfl : a = 0 := Subsingleton.elim _ _; rfl)
theorem word_14 (v7 : Vec F S16 .i32) : extractAt ![0] (k7_pay15 v7) inpos_S1_p0 = v7 (ValueIdx.ix1 ⟨14, by decide⟩) := by
  unfold k7_pay15 extractAt extractStridedSlice
  exact congrArg v7 (funext fun a => by obtain rfl : a = 0 := Subsingleton.elim _ _; rfl)
theorem word_15 (v7 : Vec F S16 .i32) : extractAt ![0] (k7_pay16 v7) inpos_S1_p0 = v7 (ValueIdx.ix1 ⟨15, by decide⟩) := by
  unfold k7_pay16 extractAt extractStridedSlice
  exact congrArg v7 (funext fun a => by obtain rfl : a = 0 := Subsingleton.elim _ _; rfl)

/-! ## The lookup's value at an index; the indices of a row -/

variable (m : (ℓ : Loc nD τ sig) → Buf (Elt F) ℓ)

theorem G_row (d : Dev nD) (r : Fin 16384) (k : Fin 64) :
    G m d (ValueIdx.ix2 r k) = m (tLoc d) (ValueIdx.ix2 (Spec.rowOf nRows nRows_pos (m (iLoc d) (ValueIdx.ix1 r))) k) := by
  unfold G
  exact Spec.gatherRows_apply nRows nRows_pos (m (tLoc d)) (m (iLoc d)) r k

theorem mem_rowSet_fst {r : Fin 16384} {i : S16384x64.Idx} (h : i ∈ rowSet r) : i 0 = r := by
  have h' : i ∈ (row r).set := by rw [← View.set_slice_whole outScv (row r)]; exact h
  rw [Rect.mem_set_unit] at h'
  have h0 := h' 0
  apply Fin.ext
  simp only [Shape.partIx, Shape.partSize] at h0
  have e : S16384x64.size 0 / 16384 = 1 := by decide
  simp only [↓reduceIte, e] at h0
  omega

/-! ## The destination of one row's copy -/

/-- The one-row rectangle at row r is the r-th of the 16384 parts of the result along its first axis. -/
theorem unitRow_eq (r : Fin 16384) (inb : ∀ a, (![r.val, 0] : Fin 2 → Nat) a + S1x64.size a ≤ S16384x64.size a) :
    Rect.unit (s := S16384x64) ![r.val, 0] S1x64.size inb = row r := by
  unfold row Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem set_dstRow (off : Fin 2 → Nat) (inb : ∀ a, off a + S1x64.size a ≤ S16384x64.size a) (r : Fin 16384)
    (hoff : off = ![r.val, 0]) :
    (((oW : Memref sig .scVector .hbm S16384x64 .f32).slice (Rect.unit (s := S16384x64) off S1x64.size inb) (fun _ => rfl)).squeeze S64
        squeezes_S1x64_S64).view.set = rowSet r := by
  subst hoff
  show (((oW : Memref sig .scVector .hbm S16384x64 .f32).view.slice (Rect.unit (s := S16384x64) ![r.val, 0] S1x64.size inb)).reshape S64
      squeezes_S1x64_S64.numel_eq).set = ((oW : Memref sig .scVector .hbm S16384x64 .f32).view.slice (row r)).set
  rw [View.set_reshape]
  exact unitRow_eq r inb ▸ rfl

/-! ## What the scratch holds after the first copy, and what a trip loads from it -/

theorem trips1 : k7_t1_loop.trips = 32 := by decide

theorem word_lt (g : Fin k7_t1_loop.trips) (j : Fin 16) : 16 * g.val + j.val < 512 := by
  have hg : g.val < 32 := Nat.lt_of_lt_of_eq g.isLt trips1
  have hj := j.isLt
  omega

/-- Word j of the sixteen that trip g loads is word 16g + j of the scratch. -/
theorem loaded_word (d : Dev nD) (L : grid0.Coords) (g : Fin k7_t1_loop.trips)
    (s : Buf (Elt F) ((sW : Memref sig .scVector .vmem S512 .i32).view.loc (V d (cV L) (jV L)))) (j : Fin 16) :
    ((sW : Memref sig .scVector .vmem S512 .i32).view.readAt (Elt F)
        (Rect.unit (s := S512) (k7_off2 g) S16.size (k7_off2_inb g)).toLoadRect s) (ValueIdx.ix1 j)
      = s (ValueIdx.ix1 ⟨16 * g.val + j.val, word_lt g j⟩) := by
  rw [View.readAt_apply]
  show s ((Rect.unit (s := S512) (k7_off2 g) S16.size (k7_off2_inb g)).toLoadRect.idx (ValueIdx.ix1 j)) = _
  refine congrArg s (funext fun (a : Fin 1) => Fin.ext ?_)
  obtain rfl : a = 0 := Subsingleton.elim _ _
  rw [LoadRect.idx_apply]
  show (k7_off2 g) 0 + 1 * j.val = 16 * g.val + j.val
  rw [k7_off2_eq]
  simp

/-- Once the first copy has landed, word t of the scratch is word base L + t of the index array. -/
theorem scratch_holds (d : Dev nD) (L : grid0.Coords)
    (fs : Buf (Elt F) ((sW : Memref sig .scVector .vmem S512 .i32).view.loc (V d (cV L) (jV L))))
    (mI : Buf (Elt F) (iLoc d)) (t : Fin 512) :
    ((sW : Memref sig .scVector .vmem S512 .i32).view.write (Elt F) fs
        ((ReadAs.same : ReadAs (Elt F) S512 .i32 S512 .i32).apply
          (((iW : Memref sig .scVector .hbm S16384 .i32).slice (Rect.unit (s := S16384) (k7_off1 L) S512.size (k7_off1_inb L))
              (fun _ => rfl)).view.read (Elt F) mI)) Finset.univ) (ValueIdx.ix1 t)
      = mI (ValueIdx.ix1 (⟨base L + t.val, base_add_lt L t⟩ : Fin 16384)) := by
  show ((View.whole scrScv).write (Elt F) fs
      (((iW : Memref sig .scVector .hbm S16384 .i32).view.slice (Rect.unit (s := S16384) (k7_off1 L) S512.size (k7_off1_inb L))).read (Elt F) mI)
      Finset.univ) (ValueIdx.ix1 t) = _
  rw [View.write_whole_univ, View.read_apply]
  refine (cast_eq _ _).trans ?_
  refine congrArg mI (funext fun (a : Fin 1) => Fin.ext ?_)
  obtain rfl : a = 0 := Subsingleton.elim _ _
  show (k7_off1 L) 0 + 1 * t.val = base L + t.val
  rw [k7_off1_eq]
  unfold base
  simp

/-! ## What one row's copy leaves -/

/-- A word that passes the copy's side condition names a row. -/
theorem lt_of_inb {w : BitVec 32} (hw : ∀ a, (k7_off4 w) a + S1x64.size a ≤ TS.size a) : w.toNat < nRows :=
  show w.toNat + 1 ≤ nRows from hw 0

/-- Column c of the destination row's own indices sits at (r, c) of the result. -/
theorem dst_emb (r : Fin 16384) (inb : ∀ a, (![r.val, 0] : Fin 2 → Nat) a + S1x64.size a ≤ S16384x64.size a) (x : S64.Idx) :
    (((oW : Memref sig .scVector .hbm S16384x64 .f32).slice (Rect.unit (s := S16384x64) ![r.val, 0] S1x64.size inb) (fun _ => rfl)).squeeze S64
        squeezes_S1x64_S64).view.emb x = ValueIdx.ix2 r (x 0) := by
  show (Rect.unit (s := S16384x64) ![r.val, 0] S1x64.size inb).emb (Shape.reshapeEquiv squeezes_S1x64_S64.numel_eq x) = _
  rw [Shape.reshapeEquiv_cons_one]
  funext a
  apply Fin.ext
  match a with
  | 0 => show r.val + 1 * 0 = r.val; omega
  | 1 => show 0 + 1 * (x 0).val = (x 0).val; omega

/-- Column c of the source row's own indices sits at (w, c) of the table. -/
theorem src_emb (w : BitVec 32) (hw : ∀ a, (k7_off4 w) a + S1x64.size a ≤ TS.size a) (x : S64.Idx) :
    (((tW : Memref sig .scVector .hbm TS .f32).slice (Rect.unit (s := TS) (k7_off4 w) S1x64.size hw) (fun _ => rfl)).squeeze S64
        squeezes_S1x64_S64).view.emb x = ValueIdx.ix2 (⟨w.toNat, lt_of_inb hw⟩ : Fin nRows) (x 0) := by
  show (Rect.unit (s := TS) (k7_off4 w) S1x64.size hw).emb (Shape.reshapeEquiv squeezes_S1x64_S64.numel_eq x) = _
  rw [Shape.reshapeEquiv_cons_one]
  funext a
  apply Fin.ext
  match a with
  | 0 => show w.toNat + 1 * 0 = w.toNat; omega
  | 1 => show 0 + 1 * (x 0).val = (x 0).val; omega

/-- After table row w has been copied onto result row r, every index of row r holds the table's entry at row w and the
    index's own column. -/
theorem write_row (d : Dev nD) (L : grid0.Coords) (off : Fin 2 → Nat) (inb : ∀ a, off a + S1x64.size a ≤ S16384x64.size a)
    (r : Fin 16384) (hoff : off = ![r.val, 0]) (w : BitVec 32) (hw : ∀ a, (k7_off4 w) a + S1x64.size a ≤ TS.size a)
    (fT : Buf (Elt F) (tLoc d)) (fO : Buf (Elt F) (oLoc d)) (i : S16384x64.Idx) (hi : i ∈ rowSet r) :
      ((((oW : Memref sig .scVector .hbm S16384x64 .f32).slice (Rect.unit (s := S16384x64) off S1x64.size inb) (fun _ => rfl)).squeeze S64
          squeezes_S1x64_S64).view.write (Elt F) fO
        ((ReadAs.same : ReadAs (Elt F) S64 .f32 S64 .f32).apply
          ((((tW : Memref sig .scVector .hbm TS .f32).slice (Rect.unit (s := TS) (k7_off4 w) S1x64.size hw) (fun _ => rfl)).squeeze S64
            squeezes_S1x64_S64).view.read (Elt F) fT)) Finset.univ) i
        = fT (ValueIdx.ix2 (⟨w.toNat, lt_of_inb hw⟩ : Fin nRows) (i 1)) := by
  subst hoff
  rw [← set_dstRow ![r.val, 0] inb r rfl] at hi
  obtain ⟨x, -, rfl⟩ := Finset.mem_map.mp hi
  rw [View.write_emb_of_mem _ _ (Finset.mem_univ x)]
  refine (cast_eq _ _).trans ?_
  show (((tW : Memref sig .scVector .hbm TS .f32).slice (Rect.unit (s := TS) (k7_off4 w) S1x64.size hw) (fun _ => rfl)).squeeze S64
      squeezes_S1x64_S64).view.read (Elt F) fT x = _
  rw [View.read_apply]
  refine (cast_eq _ _).trans ?_
  rw [src_emb w hw x, dst_emb r inb x]
  rfl

end Cert.Proof.KI.R7

end
-- ==== Proof.KIIssue7.lean ====
/-
  One of the tile's 512 row copies, started as the batch's next transfer. The copy reads the table row that the
  tile's `t`-th index word names and writes the tile's `t`-th row of the result; once it has landed, that row holds
  the lookup's value there: entry `(r, k)` of the result is entry `(idx r, k)` of the table.
-/
import proofs.«218896_g85959475462175_cont_9to1_m_647_27_alg».proof.Proof.KITileDefs7
import proofs.«218896_g85959475462175_cont_9to1_m_647_27_alg».proof.Proof.KIView7

noncomputable section

namespace Cert.Proof.KI.R7

open Cert.KernelIdeal Cert.KernelIdeal.Gen Cert.Proof.KI

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

variable (m : (ℓ : Loc nD τ sig) → Buf (Elt F) ℓ) (d : Dev nD) (L : grid0.Coords)

/-- A row of the result and a row of the table, as the body slices them. -/
abbrev dstRow (off : Fin 2 → Nat) (inb : ∀ a, off a + S1x64.size a ≤ S16384x64.size a) : Memref sig .scVector .hbm S64 .f32 :=
  ((oW : Memref sig .scVector .hbm S16384x64 .f32).slice (Rect.unit (s := S16384x64) off S1x64.size inb) (fun _ => rfl)).squeeze S64 squeezes_S1x64_S64
abbrev srcRow (w : BitVec 32) (hw : ∀ a, (k7_off4 w) a + S1x64.size a ≤ TS.size a) : Memref sig .scVector .hbm S64 .f32 :=
  ((tW : Memref sig .scVector .hbm TS .f32).slice (Rect.unit (s := TS) (k7_off4 w) S1x64.size hw) (fun _ => rfl)).squeeze S64 squeezes_S1x64_S64

variable [FloatOps F]

/-- What the landed copy leaves in its row is the lookup's value there. -/
theorem landed_eq (t : Fin 512) (off : Fin 2 → Nat) (inb : ∀ a, off a + S1x64.size a ≤ S16384x64.size a)
    (hoff : off = ![(tileRow L t).val, 0]) (w : BitVec 32) (hw : ∀ a, (k7_off4 w) a + S1x64.size a ≤ TS.size a)
    (hwv : w = m (iLoc d) (ValueIdx.ix1 (tileRow L t))) (hlt : w.toNat < nRows)
    (i : S16384x64.Idx) (hi : i ∈ rowSet (tileRow L t)) :
    ((dstRow off inb).view.write (Elt F) (m (oLoc d)) ((ReadAs.same : ReadAs (Elt F) S64 .f32 S64 .f32).apply ((srcRow w hw).view.read (Elt F) (m (tLoc d)))) Finset.univ) i
      = G m d i := by
  rw [write_row d L off inb (tileRow L t) hoff w hw (m (tLoc d)) (m (oLoc d)) i hi]
  obtain ⟨r, k, rfl⟩ : ∃ (r : Fin 16384) (k : Fin 64), i = ValueIdx.ix2 r k := ⟨i 0, i 1, ValueIdx.eq_ix2 i⟩
  have hr : r = tileRow L t := mem_rowSet_fst hi
  subst hr
  show m (tLoc d) (ValueIdx.ix2 _ k) = _
  rw [G_row]
  congr 2
  apply Fin.ext
  show w.toNat = (Spec.rowOf nRows nRows_pos (m (iLoc d) (ValueIdx.ix1 (tileRow L t)))).val
  rw [← hwv, Spec.rowOf_val_of_lt nRows_pos hlt]

/-- The batch's transfer `t`, started: from the copy's own token of the table and its row of the result. -/
theorem wp_issue (t : Fin 512) (off : Fin 2 → Nat) (inb : ∀ a, off a + S1x64.size a ≤ S16384x64.size a)
    (hoff : off = ![(tileRow L t).val, 0]) (w : BitVec 32) (hw : ∀ a, (k7_off4 w) a + S1x64.size a ≤ TS.size a)
    (hwv : w = m (iLoc d) (ValueIdx.ix1 (tileRow L t))) (hlt : w.toNat < nRows)
    {α : Type} {k : PUnit → Prog (TpuEff nD τ sig (Elt F) Λ₀ (thr d L).2) α} {Q : α → sProp 𝕄}
    {hs : (srcRow w hw).view.WordExact} {hd : (dstRow off inb).view.WordExact}
    {hsem : DmaTarget.Typed (nD := nD) Space.hbm (SemLoc.dma cc7_scratch1.sem) (DmaTarget.here (p := (thr d L).2) (dstRow off inb))} :
    iprop(Rk m d L t ∗ Transfers.Batch (EC (F := F)) (thr d L) (.dma cc7_scratch1.sem) (none : HIx 8) N (Dl m d L) t.val 0)
      ⊢ iprop((Transfers.Batch (EC (F := F)) (thr d L) (.dma cc7_scratch1.sem) (none : HIx 8) N (Dl m d L) (t.val + 1) 0
            -∗ wp frame (wpE (defs₀ (F := F)) 𝒱₀ (thr d L) none) Set.univ (k ⟨⟩) Q)
          -∗ wp frame (wpE (defs₀ (F := F)) 𝒱₀ (thr d L) none) Set.univ
              (.op (TpuEff.enqueueDma (srcRow w hw) (DmaTarget.here (p := (thr d L).2) (dstRow off inb)) (.dma cc7_scratch1.sem) hs hd hsem) k) Q) := by
  unfold Rk
  iintro ⟨⟨Htok, Hrow⟩, HB⟩ Hk
  ihave Htok' := ((pointsTo_split_subset (ℓ := tLoc d) (I := (srcRow w hw).view.set) (S := Finset.univ) (Finset.subset_univ _)).1) $$ Htok
  icases Htok' with ⟨Hsrc, -⟩
  iapply (Transfers.wp_dmaBatch (EC (F := F)) 𝒱₀ (thr d L) none (src := srcRow w hw) (dst := dstRow off inb)
      (q := Transfers.shareTok (tsh L) 512 t) (fs := m (tLoc d)) (Sd := rowSet (tileRow L t)) (fd := m (oLoc d)) (D := Dl m d L) (j := t.val) (u := 0)
      (none : HIx 8) N rfl (set_dstRow off inb (tileRow L t) hoff).le t.isLt (Nat.zero_le _) ?hD) $$ [Hsrc Hrow HB]
  case hD =>
    iintro ⟨H, -⟩
    unfold Dl
    iapply (Entails.of_eq (pointsTo_congr (fun i hi => landed_eq m d L t off inb hoff w hw hwv hlt i hi)))
    iexact H
  · isplitl [Hsrc]; · iexact Hsrc
    isplitl [Hrow]; · iexact Hrow
    iexact HB
  iexact Hk

end Cert.Proof.KI.R7

end
-- ==== Proof.KIDrain7.lean ====
/-
  The tile's second loop: 512 waits on the one semaphore that the 512 row copies complete on. Each wait takes one
  copy's units off the counter; copies land in any order, so a wait that is not the last proves nothing about any
  row, and only the last — when all 512 copies' units have been taken — hands back every row holding its value and
  the counter at zero. The invariant before wait k says exactly that: k copies' units consumed and the batch still
  open, or (after the last) every delivery in hand.
-/
import proofs.«218896_g85959475462175_cont_9to1_m_647_27_alg».proof.Proof.KITileDefs7

noncomputable section

namespace Cert.Proof.KI.R7

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- The loop makes 512 trips. -/
theorem trips2 : Scf.trips k7_t2_loop.lb k7_t2_loop.ub k7_t2_loop.st = 512 := by decide

/-- A row's credit is positive. -/
theorem N_pos : 0 < N := View.dmaCredit_pos _ (by decide)

/-- Before wait `k` of the 512: the batch with `k` transfers' units consumed; after the last, every delivery. -/
def inv2 (O : CellTallies nD τ sig (HIx 8)) (W : Waits sig (HIx 8)) (k : ℕ) (_ : Unit) : sProp 𝕄 :=
  iprop(Transfers.MayWaits (thr d L) (none : HIx 8) O
    ∗ ((⌜k < 512⌝ ∗ Transfers.Batch (EC (F := F)) (thr d L) (.dma cc7_scratch1.sem) (none : HIx 8) N (Dl m d L) 512 (k * N)
          ∗ ∃ W', ⌜∀ p ∈ W', p ∈ W ∨ p.2 = none⌝ ∗ owes (thr d L) O W')
      ∨ (⌜k = 512⌝ ∗ bigSep Finset.univ (Dl m d L) ∗ semVal (cB d L) 0 ∗ ∃ W', ⌜∀ p ∈ W', p ∈ W ∨ p.2 = none⌝ ∗ owes (thr d L) O W')))

variable [FloatOps F]

/-- The 512 waits: from the batch with every copy started and nothing consumed, to every row delivered and the counter at
    zero; each wait is recorded at the index of the tile's own copies. -/
theorem drain (O : CellTallies nD τ sig (HIx 8)) (W : Waits sig (HIx 8)) :
    iprop(Transfers.MayWaits (thr d L) (none : HIx 8) O
        ∗ Transfers.Batch (EC (F := F)) (thr d L) (.dma cc7_scratch1.sem) (none : HIx 8) N (Dl m d L) 512 0
        ∗ owes (thr d L) O W)
      ⊢ wp frame (wpE (defs₀ (F := F)) 𝒱₀ (thr d L) none) Set.univ
          (Scf.Loop.for k7_t2_loop k7_t2_ok ⟨⟩ (k7_t2_body L tW (Memref.isWhole_whole _) iW (Memref.isWhole_whole _) oW (Memref.isWhole_whole _) sW (Memref.isWhole_whole _) cc7_scratch1 cc7_scoped0))
          (fun _ => iprop(bigSep Finset.univ (Dl m d L) ∗ semVal (cB d L) 0 ∗ ∃ W', ⌜∀ p ∈ W', p ∈ W ∨ p.2 = none⌝ ∗ owes (thr d L) O W')) := by
  iintro ⟨#Hmw, HB, HO⟩
  sl_for (inv2 m d L O W) $$ [HB HO]
  case region =>
    intro k acc
    have hk : k.val < 512 := Nat.lt_of_lt_of_eq k.isLt trips2
    have e : (k.val + 1) * N = k.val * N + N := by rw [Nat.add_mul, Nat.one_mul]
    unfold inv2
    iintro ⟨#Hmw, H⟩
    sl_exec
    icases H with (⟨-, HB, %W', %hW', HO⟩ | ⟨%hk', -⟩)
    rotate_left
    · exfalso; omega
    ihave Hmw1 := (Transfers.MayWaits.elim (SemLoc.dma cc7_scratch1.sem)) $$ Hmw
    have hW'' : ∀ p ∈ insert (SemLoc.dma cc7_scratch1.sem, (none : HIx 8)) W', p ∈ W ∨ p.2 = none := by
      intro p hp
      rcases Finset.mem_insert.mp hp with hp | hp
      · exact .inr (hp ▸ rfl)
      · exact hW' p hp
    by_cases hlast : k.val + 1 < 512
    · have hu : k.val * N + N < N * 512 := by
        have h1 : (k.val + 1) * N < 512 * N := Nat.mul_lt_mul_of_pos_right hlast N_pos
        rw [e] at h1; rw [Nat.mul_comm N 512]; exact h1
      iapply (Transfers.wp_waitBatchO (EC (F := F)) 𝒱₀ (thr d L) none (none : HIx 8) (N := N) rfl hu) $$ [HB HO Hmw1]
      · isplitl [HB]; · iexact HB
        isplitl [HO]; · iexact HO
        iexact Hmw1
      iintro ⟨HB, HO⟩
      sl_step
      isplitr; · iexact Hmw
      ileft
      isplitr; · ipureintro; exact hlast
      rw [e]
      isplitl [HB]; · iexact HB
      iexists _; isplitr
      · ipureintro; exact hW''
      · iexact HO
    · have hu : k.val * N + N = N * 512 := by
        have h1 : k.val = 511 := by omega
        rw [h1]; omega
      iapply (Transfers.wp_waitBatchLastO (EC (F := F)) 𝒱₀ (thr d L) none (none : HIx 8) (N := N) rfl N_pos hu) $$ [HB HO Hmw1]
      · isplitl [HB]; · iexact HB
        isplitl [HO]; · iexact HO
        iexact Hmw1
      iintro ⟨HD, Hv, HO⟩
      sl_step
      isplitr; · iexact Hmw
      iright
      isplitr; · ipureintro; omega
      isplitl [HD]; · iexact HD
      isplitl [Hv]; · iexact Hv
      iexists _; isplitr
      · ipureintro; exact hW''
      · iexact HO
  rw [trips2]
  isplitl [HB HO]
  · unfold inv2
    isplitr; · iexact Hmw
    ileft
    isplitr; · ipureintro; omega
    rw [Nat.zero_mul]
    isplitl [HB]; · iexact HB
    iexists W; isplitr
    · ipureintro; exact fun p hp => .inl hp
    · iexact HO
  · iintro %acc HI
    unfold inv2
    icases HI with ⟨-, (⟨%h, -⟩ | ⟨-, HD, Hv, HW⟩)⟩
    · exfalso; omega
    isplitl [HD]; · iexact HD
    isplitl [Hv]; · iexact Hv
    iexact HW

end Cert.Proof.KI.R7

end
-- ==== Proof.KITile7.lean ====
/-
  The tile's obligation at call 7: the index words fetched into the scratch, the 512 row copies started sixteen to a
  trip on one semaphore as ONE batch (no copy's source or destination is touched between the first start and the
  last wait), the batch drained by 512 waits, and the rows handed back holding the lookup's value.
-/
import proofs.«218896_g85959475462175_cont_9to1_m_647_27_alg».proof.Proof.KITileDefs7
import proofs.«218896_g85959475462175_cont_9to1_m_647_27_alg».proof.Proof.KIView7
import proofs.«218896_g85959475462175_cont_9to1_m_647_27_alg».proof.Proof.KIIssue7
import proofs.«218896_g85959475462175_cont_9to1_m_647_27_alg».proof.Proof.KIDrain7

noncomputable section

namespace Cert.Proof.KI.R7

open Cert.KernelIdeal Cert.KernelIdeal.Gen Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- Before trip `k` of the first loop: the scratch at the landed index words, the first `16 k` copies started and none
    waited for, the later copies' tokens and rows still in hand. -/
def inv1 (k : Nat) (_ : PUnit) : sProp 𝕄 :=
  iprop(∃ sc, ⌜Holds m d L sc⌝ ∗ ((sW : Memref sig .scVector .vmem S512 .i32).view.loc (thr d L) ↦{fullShare} sc)
    ∗ Transfers.Batch (EC (F := F)) (thr d L) (.dma cc7_scratch1.sem) (none : HIx 8) N (Dl m d L) (16 * k) 0
    ∗ bigSep (Transfers.pending (n := 512) (16 * k)) (Rk m d L))

/-- The sixteen words a trip loads. -/
abbrev loaded (k : Fin k7_t1_loop.trips) (sc : Buf (Elt F) ((sW : Memref sig .scVector .vmem S512 .i32).view.loc (thr d L))) : Vec F S16 .i32 :=
  (sW : Memref sig .scVector .vmem S512 .i32).view.readAt (Elt F) (Rect.unit (s := S512) (k7_off2 k) S16.size (k7_off2_inb k)).toLoadRect sc

theorem off_eq {x y : Nat} (h : x = y) : (![x, 0] : Fin 2 → Nat) = ![y, 0] := by rw [h]

variable [FloatOps F]

/- Copy `j` of a trip: its index word names a row of the table (the check passes), and the copy is the batch's
   transfer `16 k + j`, started from that transfer's token and row. -/
set_option hygiene false in
local macro "issue_copy " j:num " with " chk:ident ", " wj:ident ", " offeq:ident : tactic => `(tactic| (
  iapply (wp_assume 𝒱₀ (thr d L) none Set.univ ($chk:ident ((congrArg BitVec.toNat ($wj:ident (loaded d L k sc))).trans_lt (hwlt ⟨$j, by decide⟩))))
  sl_exec
  ihave Hp := (Entails.of_eq (Transfers.bigSep_pending_step (Rk m d L) (16 * k.val + $j) (hidx ⟨$j, by decide⟩))) $$ Hpend
  icases Hp with ⟨HR, Hpend⟩
  iapply (wp_issue m d L ⟨16 * k.val + $j, hidx ⟨$j, by decide⟩⟩ _ _
      (($offeq:ident L k).trans (off_eq (by show _ = base L + (16 * k.val + $j); unfold base; omega))) _ _
      (($wj:ident (loaded d L k sc)).trans (hwv ⟨$j, by decide⟩)) ((congrArg BitVec.toNat ($wj:ident (loaded d L k sc))).trans_lt (hwlt ⟨$j, by decide⟩))) $$ [HR HB]
  · isplitl [HR]
    · iexact HR
    iexact HB
  iintro HB
  sl_exec))

theorem tile_body (hF : (K (F := F)).Facts) (hpre : ∀ d, Spec.InRange nRows (m (iLoc d))) : TileBody m := by
  intro d L O W hO
  simp only [cc7__gather_body_eq_skeleton]; unfold cc7__gather_body_skel
  rw [(K (F := F)).scopedBufs_V hF d (cV L) (jV L), SparseCore.Cfg.scopedSems0_V (Val := Elt F) d (cV L) (jV L), ownSems0_V, ownBufs_V]
  unfold go
  iintro ⟨#Hlv, -, ⟨Ht, Hi, Hrows⟩, ⟨⟨%fs, Hs⟩, Hbufs⟩, ⟨HsemS, HsemB, Hsems⟩, HO⟩
  ihave Hmw := ((K (F := F)).mayWaits_none (thr := thr d L) hO) $$ Hlv
  ihave Hi' := (Entails.of_eq (pts_i (F := F) d L _ _).symm) $$ Hi
  ihave Hs' := (Entails.of_eq (pts_s (F := F) d L _).symm) $$ Hs
  -- the index words fetched into the scratch, and the fetch waited for
  sl_exec
  -- the 512 copies' batch on the shared semaphore, allocated before the first is started
  imod (Transfers.batch_alloc' (Lvl := ℕ) (EC (F := F)) (thr d L) (none : HIx 8) N (Dl m d L) (sm := .dma cc7_scratch1.sem) (E := Set.univ)) $$ HsemB with HB
  -- the table's token dealt into one per copy
  ihave Ht' := (Transfers.pointsTo_toks_split (tsh L) 512) $$ Ht
  icases Ht' with ⟨-, Htoks⟩
  sl_for (inv1 m d L) $$ [Hs' HB Htoks Hrows]
  case region =>
    intro k hk
    unfold inv1
    iintro ⟨%sc, %hsc, Hs, HB, Hpend⟩
    have hk32 : k.val < 32 := lt_of_lt_of_eq k.isLt trips1
    have hidx : ∀ j : Fin 16, 16 * k.val + j.val < 512 := fun j => by have := j.isLt; omega
    -- the sixteen words the trip loads are the tile's index words 16 k … 16 k + 15; each names a row of the table
    have hwv : ∀ j : Fin 16, loaded d L k sc (ValueIdx.ix1 j) = m (iLoc d) (ValueIdx.ix1 (tileRow L ⟨16 * k.val + j.val, hidx j⟩)) :=
      fun j => (loaded_word d L k sc j).trans (hsc _)
    have hwlt : ∀ j : Fin 16, (loaded d L k sc (ValueIdx.ix1 j)).toNat < nRows := fun j => by rw [hwv j]; exact (hpre d).toNat_lt _
    sl_exec
    issue_copy 0 with chk_of_lt_1, word_0, k7_off3_eq
    issue_copy 1 with chk_of_lt_2, word_1, k7_off5_eq
    issue_copy 2 with chk_of_lt_3, word_2, k7_off7_eq
    issue_copy 3 with chk_of_lt_4, word_3, k7_off9_eq
    issue_copy 4 with chk_of_lt_5, word_4, k7_off11_eq
    issue_copy 5 with chk_of_lt_6, word_5, k7_off13_eq
    issue_copy 6 with chk_of_lt_7, word_6, k7_off15_eq
    issue_copy 7 with chk_of_lt_8, word_7, k7_off17_eq
    issue_copy 8 with chk_of_lt_9, word_8, k7_off19_eq
    issue_copy 9 with chk_of_lt_10, word_9, k7_off21_eq
    issue_copy 10 with chk_of_lt_11, word_10, k7_off23_eq
    issue_copy 11 with chk_of_lt_12, word_11, k7_off25_eq
    issue_copy 12 with chk_of_lt_13, word_12, k7_off27_eq
    issue_copy 13 with chk_of_lt_14, word_13, k7_off29_eq
    issue_copy 14 with chk_of_lt_15, word_14, k7_off31_eq
    issue_copy 15 with chk_of_lt_16, word_15, k7_off33_eq
    -- the trip's return: the invariant at `k + 1`
    rw [show 16 * (k.val + 1) = 16 * k.val + 15 + 1 by omega]
    sl_step
    iexists sc
    isplitr; · ipureintro; exact hsc
    isplitl [Hs]; · iexact Hs
    isplitl [HB]; · iexact HB
    iexact Hpend
  · -- the loop's entry: nothing started, every copy's token and row in hand
    unfold inv1
    iexists _
    isplitr; · ipureintro; exact fun t => scratch_holds d L fs (m (iLoc d)) t
    isplitl [Hs']; · iexact Hs'
    isplitl [HB]; · iexact HB
    rw [show 16 * 0 = 0 from rfl, ← Transfers.bigSep_pending_zero]
    unfold Rk
    rw [bigSep_sep']
    isplitl [Htoks]; · iexact Htoks
    iexact Hrows
  -- after the first loop: all 512 started, none waited for
  iintro %_ HI
  unfold inv1
  icases HI with ⟨%sc, -, Hs, HB, -⟩
  sl_exec
  have h512 : 16 * Scf.trips k7_t1_loop.lb k7_t1_loop.ub k7_t1_loop.st = 512 := by decide
  rw [h512]
  -- the second loop drains the batch: every row comes back holding the lookup's value
  simp only [wp_bind]
  ihave Hd := (drain m d L O _) $$ [HB HO]
  · isplitr; · iexact Hmw
    isplitl [HB]; · iexact HB
    iexact HO
  iapply (wp_wand frame _ Set.univ) $$ Hd
  iintro %_ ⟨HD, HsemB, %W', %hW', HO⟩
  sl_step
  isplitl [HD]
  · unfold td; iexact HD
  isplitl [Hs Hbufs]
  · isplitl [Hs]
    · iexists _; iapply (Entails.of_eq (pts_s (F := F) d L _)); iexact Hs
    iexact Hbufs
  isplitl [HsemS HsemB Hsems]
  · isplitl [HsemS]; · iexact HsemS
    isplitl [HsemB]; · iexact HsemB
    iexact Hsems
  iexists W'; isplitr
  · ipureintro; intro p hp
    rcases hW' p hp with h | h
    · rcases Finset.mem_insert.mp h with rfl | h
      · exact .inr rfl
      · exact .inl h
    · exact .inr h
  iexact HO

end Cert.Proof.KI.R7

end
-- ==== Proof.KBCommon.lean ====
/-
  The kernel's program as the launch theorem for SparseCore programs sees it: the body table, the
  eight calls, the handshake cells' ghost state beside the counters of the tiles' own copies. Each of the
  eight calls runs one embedding lookup on the thirty-two vector subcores of the device; nothing here is
  about a particular call.
-/
import proofs.«218896_g85959475462175_cont_9to1_m_647_27_alg».proof.Kernel
import Idealize.ShloMosaic.Lib.SparseCore.Launch
import Idealize.ShloMosaic.Lib.Batch
import Idealize.ShloMosaic.Lib.StableHlo.Run
import Idealize.ShloMosaic.Lib.Pipeline.Kit
import Idealize.ShloMosaic.Lib.Tactic
import proofs.«218896_g85959475462175_cont_9to1_m_647_27_alg».proof.Proof.Gen.Kernel
import proofs.«218896_g85959475462175_cont_9to1_m_647_27_alg».proof.Proof.Gen.Kernel.Skeleton
import proofs.«218896_g85959475462175_cont_9to1_m_647_27_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 8 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds beside the counters of the tiles' own copies. -/
abbrev UH : Type := URounds (GSem nD τ sig) ℕ
abbrev UU : Type := UH × Counters

abbrev EH : Emb UH (MT nD τ sig (HIx 8) (Elt F) ℕ UU ℕ) := embL

/-- A tile's thread and its grid coordinates. -/
abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

/-- The first of the 512 result rows (and index words) that the tile at `L` owns: tiles are numbered subcore-major. -/
def base (L : grid0.Coords) : Nat := 1024 * (L 1).val + 512 * (L 0).val

theorem base_add_lt (L : grid0.Coords) (t : Fin 512) : base L + t.val < 16384 := by
  have h0 : (L 0).val < 2 := (L 0).isLt
  have h1 : (L 1).val < 16 := (L 1).isLt
  unfold base; omega

end Cert.Proof.KB

end
-- ==== Proof.KBRes0.lean ====
/-
  Call 0 of the eight: what the launch hands each tile and what the tile hands back. A tile reads the table and the
  index array through read tokens of the whole arrays (never handed back: the TensorCore keeps a share of each, which
  is enough to read the final memory against the launch memory), and owns the 512 rows of the result that it writes;
  it hands those rows back holding the lookup's value, each row a restriction of the ONE whole-array function `G`.
-/
import proofs.«218896_g85959475462175_cont_9to1_m_647_27_alg».proof.Proof.KBCommon

noncomputable section

namespace Cert.Proof.KB.R0

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## This call's table, index array, result, scratch -/

abbrev nRows : Nat := 100000
theorem nRows_pos : 0 < nRows := by decide
abbrev TS : Shape := S100000x64
abbrev tblTc : Ref sig .tc := main_arg0
abbrev idxTc : Ref sig .tc := main_arg8
abbrev outTc : Ref sig .tc := main_v0
abbrev tblScv : Ref sig .scVector := main_arg0_scv
abbrev idxScv : Ref sig .scVector := main_arg8_scv
abbrev outScv : Ref sig .scVector := main_v0_scv
abbrev scrScv : Ref sig .scVector := cc0_scratch0

/-! ## The same for every call from here on -/

variable {F : FTy → Type}

local notation "𝕄" => MT nD τ sig (HIx 8) (Elt F) ℕ UU ℕ

variable (m : (ℓ : Loc nD τ sig) → Buf (Elt F) ℓ)

abbrev tLoc (d : Dev nD) : Loc nD τ sig := (SparseCore.T d).loc tblTc
abbrev iLoc (d : Dev nD) : Loc nD τ sig := (SparseCore.T d).loc idxTc
abbrev oLoc (d : Dev nD) : Loc nD τ sig := (SparseCore.T d).loc outTc

abbrev tW : Memref sig .scVector .hbm TS .f32 := Memref.whole tblScv
abbrev iW : Memref sig .scVector .hbm S16384 .i32 := Memref.whole idxScv
abbrev oW : Memref sig .scVector .hbm S16384x64 .f32 := Memref.whole outScv
abbrev sW : Memref sig .scVector .vmem S512 .i32 := Memref.whole scrScv

/-- The lookup's value on device `d`: the whole result array as one function of the launch memory. -/
def G (d : Dev nD) : Buf (Elt F) (oLoc d) := Spec.gatherRows nRows nRows_pos (m (tLoc d)) (m (iLoc d))

theorem hdiv : 16384 ∣ S16384x64.size 0 := ⟨1, rfl⟩
/-- Row `r` of the result, as a rectangle and as a set of indices. -/
abbrev row (r : Fin 16384) : Rect S16384x64 := Rect.part (s := S16384x64) (a₀ := 0) hdiv r
abbrev rowSet (r : Fin 16384) : Finset S16384x64.Idx := ((oW : Memref sig .scVector .hbm S16384x64 .f32).view.slice (row r)).set

/-- The number of the tile at `L` among the thirty-two. -/
def wid (L : grid0.Coords) : Fin 32 := ⟨2 * (L 1).val + (L 0).val, by
  have h0 : (L 0).val < 2 := (L 0).isLt
  have h1 : (L 1).val < 16 := (L 1).isLt
  omega⟩

/-- Row `t` of the tile's 512. -/
abbrev tileRow (L : grid0.Coords) (t : Fin 512) : Fin 16384 := ⟨base L + t.val, base_add_lt L t⟩

/-- What the tile at `L` is handed: a read token of the table, one of the index array, its 512 rows of the result. -/
def go (d : Dev nD) (L : grid0.Coords) : sProp 𝕄 :=
  iprop((tLoc d ↦{Transfers.shareTok fullShare 32 (wid L)} m (tLoc d)) ∗ (iLoc d ↦{Transfers.shareTok fullShare 32 (wid L)} m (iLoc d))
    ∗ bigSep Finset.univ fun t : Fin 512 => oLoc d ↦[rowSet (tileRow L t)]{fullShare} m (oLoc d))

/-- What it hands back: its 512 rows, holding the lookup's value. -/
def td (d : Dev nD) (L : grid0.Coords) : sProp 𝕄 :=
  bigSep Finset.univ fun t : Fin 512 => oLoc d ↦[rowSet (tileRow L t)]{fullShare} G m d

variable [FloatOps F]

/-- The tile's obligation at this call, at a symbolic tile: from what it is handed, its scoped storage and what it owes
    the launch, the printed body runs and ends with the 512 rows holding the lookup's value. -/
def TileBody : Prop :=
  ∀ (d : Dev nD) (L : grid0.Coords) (O : CellTallies nD τ sig (HIx 8)) (W : Waits sig (HIx 8)), (∀ g, O g none = 0) →
    iprop(levAts (K (F := F)).L (K (F := F)).lev ∗ emp ∗ go m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L tW (Memref.isWhole_whole _) iW (Memref.isWhole_whole _) oW (Memref.isWhole_whole _)
            sW (Memref.isWhole_whole _) cc0_scratch1 cc0_scoped0)
          fun _ => iprop(td m d L ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KB.R0

end
-- ==== Proof.KBRes1.lean ====
/-
  Call 1 of the eight: what the launch hands each tile and what the tile hands back. A tile reads the table and the
  index array through read tokens of the whole arrays (never handed back: the TensorCore keeps a share of each, which
  is enough to read the final memory against the launch memory), and owns the 512 rows of the result that it writes;
  it hands those rows back holding the lookup's value, each row a restriction of the ONE whole-array function `G`.
-/
import proofs.«218896_g85959475462175_cont_9to1_m_647_27_alg».proof.Proof.KBCommon

noncomputable section

namespace Cert.Proof.KB.R1

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## This call's table, index array, result, scratch -/

abbrev nRows : Nat := 1000000
theorem nRows_pos : 0 < nRows := by decide
abbrev TS : Shape := S1000000x64
abbrev tblTc : Ref sig .tc := main_arg1
abbrev idxTc : Ref sig .tc := main_arg9
abbrev outTc : Ref sig .tc := main_v1
abbrev tblScv : Ref sig .scVector := main_arg1_scv
abbrev idxScv : Ref sig .scVector := main_arg9_scv
abbrev outScv : Ref sig .scVector := main_v1_scv
abbrev scrScv : Ref sig .scVector := cc1_scratch0

/-! ## The same for every call from here on -/

variable {F : FTy → Type}

local notation "𝕄" => MT nD τ sig (HIx 8) (Elt F) ℕ UU ℕ

variable (m : (ℓ : Loc nD τ sig) → Buf (Elt F) ℓ)

abbrev tLoc (d : Dev nD) : Loc nD τ sig := (SparseCore.T d).loc tblTc
abbrev iLoc (d : Dev nD) : Loc nD τ sig := (SparseCore.T d).loc idxTc
abbrev oLoc (d : Dev nD) : Loc nD τ sig := (SparseCore.T d).loc outTc

abbrev tW : Memref sig .scVector .hbm TS .f32 := Memref.whole tblScv
abbrev iW : Memref sig .scVector .hbm S16384 .i32 := Memref.whole idxScv
abbrev oW : Memref sig .scVector .hbm S16384x64 .f32 := Memref.whole outScv
abbrev sW : Memref sig .scVector .vmem S512 .i32 := Memref.whole scrScv

/-- The lookup's value on device `d`: the whole result array as one function of the launch memory. -/
def G (d : Dev nD) : Buf (Elt F) (oLoc d) := Spec.gatherRows nRows nRows_pos (m (tLoc d)) (m (iLoc d))

theorem hdiv : 16384 ∣ S16384x64.size 0 := ⟨1, rfl⟩
/-- Row `r` of the result, as a rectangle and as a set of indices. -/
abbrev row (r : Fin 16384) : Rect S16384x64 := Rect.part (s := S16384x64) (a₀ := 0) hdiv r
abbrev rowSet (r : Fin 16384) : Finset S16384x64.Idx := ((oW : Memref sig .scVector .hbm S16384x64 .f32).view.slice (row r)).set

/-- The number of the tile at `L` among the thirty-two. -/
def wid (L : grid0.Coords) : Fin 32 := ⟨2 * (L 1).val + (L 0).val, by
  have h0 : (L 0).val < 2 := (L 0).isLt
  have h1 : (L 1).val < 16 := (L 1).isLt
  omega⟩

/-- Row `t` of the tile's 512. -/
abbrev tileRow (L : grid0.Coords) (t : Fin 512) : Fin 16384 := ⟨base L + t.val, base_add_lt L t⟩

/-- What the tile at `L` is handed: a read token of the table, one of the index array, its 512 rows of the result. -/
def go (d : Dev nD) (L : grid0.Coords) : sProp 𝕄 :=
  iprop((tLoc d ↦{Transfers.shareTok fullShare 32 (wid L)} m (tLoc d)) ∗ (iLoc d ↦{Transfers.shareTok fullShare 32 (wid L)} m (iLoc d))
    ∗ bigSep Finset.univ fun t : Fin 512 => oLoc d ↦[rowSet (tileRow L t)]{fullShare} m (oLoc d))

/-- What it hands back: its 512 rows, holding the lookup's value. -/
def td (d : Dev nD) (L : grid0.Coords) : sProp 𝕄 :=
  bigSep Finset.univ fun t : Fin 512 => oLoc d ↦[rowSet (tileRow L t)]{fullShare} G m d

variable [FloatOps F]

/-- The tile's obligation at this call, at a symbolic tile: from what it is handed, its scoped storage and what it owes
    the launch, the printed body runs and ends with the 512 rows holding the lookup's value. -/
def TileBody : Prop :=
  ∀ (d : Dev nD) (L : grid0.Coords) (O : CellTallies nD τ sig (HIx 8)) (W : Waits sig (HIx 8)), (∀ g, O g none = 0) →
    iprop(levAts (K (F := F)).L (K (F := F)).lev ∗ emp ∗ go m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__gather_body L tW (Memref.isWhole_whole _) iW (Memref.isWhole_whole _) oW (Memref.isWhole_whole _)
            sW (Memref.isWhole_whole _) cc1_scratch1 cc1_scoped0)
          fun _ => iprop(td m d L ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KB.R1

end
-- ==== Proof.KBRes2.lean ====
/-
  Call 2 of the eight: what the launch hands each tile and what the tile hands back. A tile reads the table and the
  index array through read tokens of the whole arrays (never handed back: the TensorCore keeps a share of each, which
  is enough to read the final memory against the launch memory), and owns the 512 rows of the result that it writes;
  it hands those rows back holding the lookup's value, each row a restriction of the ONE whole-array function `G`.
-/
import proofs.«218896_g85959475462175_cont_9to1_m_647_27_alg».proof.Proof.KBCommon

noncomputable section

namespace Cert.Proof.KB.R2

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## This call's table, index array, result, scratch -/

abbrev nRows : Nat := 10000
theorem nRows_pos : 0 < nRows := by decide
abbrev TS : Shape := S10000x64
abbrev tblTc : Ref sig .tc := main_arg2
abbrev idxTc : Ref sig .tc := main_arg10
abbrev outTc : Ref sig .tc := main_v2
abbrev tblScv : Ref sig .scVector := main_arg2_scv
abbrev idxScv : Ref sig .scVector := main_arg10_scv
abbrev outScv : Ref sig .scVector := main_v2_scv
abbrev scrScv : Ref sig .scVector := cc2_scratch0

/-! ## The same for every call from here on -/

variable {F : FTy → Type}

local notation "𝕄" => MT nD τ sig (HIx 8) (Elt F) ℕ UU ℕ

variable (m : (ℓ : Loc nD τ sig) → Buf (Elt F) ℓ)

abbrev tLoc (d : Dev nD) : Loc nD τ sig := (SparseCore.T d).loc tblTc
abbrev iLoc (d : Dev nD) : Loc nD τ sig := (SparseCore.T d).loc idxTc
abbrev oLoc (d : Dev nD) : Loc nD τ sig := (SparseCore.T d).loc outTc

abbrev tW : Memref sig .scVector .hbm TS .f32 := Memref.whole tblScv
abbrev iW : Memref sig .scVector .hbm S16384 .i32 := Memref.whole idxScv
abbrev oW : Memref sig .scVector .hbm S16384x64 .f32 := Memref.whole outScv
abbrev sW : Memref sig .scVector .vmem S512 .i32 := Memref.whole scrScv

/-- The lookup's value on device `d`: the whole result array as one function of the launch memory. -/
def G (d : Dev nD) : Buf (Elt F) (oLoc d) := Spec.gatherRows nRows nRows_pos (m (tLoc d)) (m (iLoc d))

theorem hdiv : 16384 ∣ S16384x64.size 0 := ⟨1, rfl⟩
/-- Row `r` of the result, as a rectangle and as a set of indices. -/
abbrev row (r : Fin 16384) : Rect S16384x64 := Rect.part (s := S16384x64) (a₀ := 0) hdiv r
abbrev rowSet (r : Fin 16384) : Finset S16384x64.Idx := ((oW : Memref sig .scVector .hbm S16384x64 .f32).view.slice (row r)).set

/-- The number of the tile at `L` among the thirty-two. -/
def wid (L : grid0.Coords) : Fin 32 := ⟨2 * (L 1).val + (L 0).val, by
  have h0 : (L 0).val < 2 := (L 0).isLt
  have h1 : (L 1).val < 16 := (L 1).isLt
  omega⟩

/-- Row `t` of the tile's 512. -/
abbrev tileRow (L : grid0.Coords) (t : Fin 512) : Fin 16384 := ⟨base L + t.val, base_add_lt L t⟩

/-- What the tile at `L` is handed: a read token of the table, one of the index array, its 512 rows of the result. -/
def go (d : Dev nD) (L : grid0.Coords) : sProp 𝕄 :=
  iprop((tLoc d ↦{Transfers.shareTok fullShare 32 (wid L)} m (tLoc d)) ∗ (iLoc d ↦{Transfers.shareTok fullShare 32 (wid L)} m (iLoc d))
    ∗ bigSep Finset.univ fun t : Fin 512 => oLoc d ↦[rowSet (tileRow L t)]{fullShare} m (oLoc d))

/-- What it hands back: its 512 rows, holding the lookup's value. -/
def td (d : Dev nD) (L : grid0.Coords) : sProp 𝕄 :=
  bigSep Finset.univ fun t : Fin 512 => oLoc d ↦[rowSet (tileRow L t)]{fullShare} G m d

variable [FloatOps F]

/-- The tile's obligation at this call, at a symbolic tile: from what it is handed, its scoped storage and what it owes
    the launch, the printed body runs and ends with the 512 rows holding the lookup's value. -/
def TileBody : Prop :=
  ∀ (d : Dev nD) (L : grid0.Coords) (O : CellTallies nD τ sig (HIx 8)) (W : Waits sig (HIx 8)), (∀ g, O g none = 0) →
    iprop(levAts (K (F := F)).L (K (F := F)).lev ∗ emp ∗ go m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__gather_body L tW (Memref.isWhole_whole _) iW (Memref.isWhole_whole _) oW (Memref.isWhole_whole _)
            sW (Memref.isWhole_whole _) cc2_scratch1 cc2_scoped0)
          fun _ => iprop(td m d L ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KB.R2

end
-- ==== Proof.KBRes3.lean ====
/-
  Call 3 of the eight: what the launch hands each tile and what the tile hands back. A tile reads the table and the
  index array through read tokens of the whole arrays (never handed back: the TensorCore keeps a share of each, which
  is enough to read the final memory against the launch memory), and owns the 512 rows of the result that it writes;
  it hands those rows back holding the lookup's value, each row a restriction of the ONE whole-array function `G`.
-/
import proofs.«218896_g85959475462175_cont_9to1_m_647_27_alg».proof.Proof.KBCommon

noncomputable section

namespace Cert.Proof.KB.R3

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## This call's table, index array, result, scratch -/

abbrev nRows : Nat := 20000
theorem nRows_pos : 0 < nRows := by decide
abbrev TS : Shape := S20000x64
abbrev tblTc : Ref sig .tc := main_arg3
abbrev idxTc : Ref sig .tc := main_arg11
abbrev outTc : Ref sig .tc := main_v3
abbrev tblScv : Ref sig .scVector := main_arg3_scv
abbrev idxScv : Ref sig .scVector := main_arg11_scv
abbrev outScv : Ref sig .scVector := main_v3_scv
abbrev scrScv : Ref sig .scVector := cc3_scratch0

/-! ## The same for every call from here on -/

variable {F : FTy → Type}

local notation "𝕄" => MT nD τ sig (HIx 8) (Elt F) ℕ UU ℕ

variable (m : (ℓ : Loc nD τ sig) → Buf (Elt F) ℓ)

abbrev tLoc (d : Dev nD) : Loc nD τ sig := (SparseCore.T d).loc tblTc
abbrev iLoc (d : Dev nD) : Loc nD τ sig := (SparseCore.T d).loc idxTc
abbrev oLoc (d : Dev nD) : Loc nD τ sig := (SparseCore.T d).loc outTc

abbrev tW : Memref sig .scVector .hbm TS .f32 := Memref.whole tblScv
abbrev iW : Memref sig .scVector .hbm S16384 .i32 := Memref.whole idxScv
abbrev oW : Memref sig .scVector .hbm S16384x64 .f32 := Memref.whole outScv
abbrev sW : Memref sig .scVector .vmem S512 .i32 := Memref.whole scrScv

/-- The lookup's value on device `d`: the whole result array as one function of the launch memory. -/
def G (d : Dev nD) : Buf (Elt F) (oLoc d) := Spec.gatherRows nRows nRows_pos (m (tLoc d)) (m (iLoc d))

theorem hdiv : 16384 ∣ S16384x64.size 0 := ⟨1, rfl⟩
/-- Row `r` of the result, as a rectangle and as a set of indices. -/
abbrev row (r : Fin 16384) : Rect S16384x64 := Rect.part (s := S16384x64) (a₀ := 0) hdiv r
abbrev rowSet (r : Fin 16384) : Finset S16384x64.Idx := ((oW : Memref sig .scVector .hbm S16384x64 .f32).view.slice (row r)).set

/-- The number of the tile at `L` among the thirty-two. -/
def wid (L : grid0.Coords) : Fin 32 := ⟨2 * (L 1).val + (L 0).val, by
  have h0 : (L 0).val < 2 := (L 0).isLt
  have h1 : (L 1).val < 16 := (L 1).isLt
  omega⟩

/-- Row `t` of the tile's 512. -/
abbrev tileRow (L : grid0.Coords) (t : Fin 512) : Fin 16384 := ⟨base L + t.val, base_add_lt L t⟩

/-- What the tile at `L` is handed: a read token of the table, one of the index array, its 512 rows of the result. -/
def go (d : Dev nD) (L : grid0.Coords) : sProp 𝕄 :=
  iprop((tLoc d ↦{Transfers.shareTok fullShare 32 (wid L)} m (tLoc d)) ∗ (iLoc d ↦{Transfers.shareTok fullShare 32 (wid L)} m (iLoc d))
    ∗ bigSep Finset.univ fun t : Fin 512 => oLoc d ↦[rowSet (tileRow L t)]{fullShare} m (oLoc d))

/-- What it hands back: its 512 rows, holding the lookup's value. -/
def td (d : Dev nD) (L : grid0.Coords) : sProp 𝕄 :=
  bigSep Finset.univ fun t : Fin 512 => oLoc d ↦[rowSet (tileRow L t)]{fullShare} G m d

variable [FloatOps F]

/-- The tile's obligation at this call, at a symbolic tile: from what it is handed, its scoped storage and what it owes
    the launch, the printed body runs and ends with the 512 rows holding the lookup's value. -/
def TileBody : Prop :=
  ∀ (d : Dev nD) (L : grid0.Coords) (O : CellTallies nD τ sig (HIx 8)) (W : Waits sig (HIx 8)), (∀ g, O g none = 0) →
    iprop(levAts (K (F := F)).L (K (F := F)).lev ∗ emp ∗ go m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3__gather_body L tW (Memref.isWhole_whole _) iW (Memref.isWhole_whole _) oW (Memref.isWhole_whole _)
            sW (Memref.isWhole_whole _) cc3_scratch1 cc3_scoped0)
          fun _ => iprop(td m d L ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KB.R3

end
-- ==== Proof.KBRes4.lean ====
/-
  Call 4 of the eight: what the launch hands each tile and what the tile hands back. A tile reads the table and the
  index array through read tokens of the whole arrays (never handed back: the TensorCore keeps a share of each, which
  is enough to read the final memory against the launch memory), and owns the 512 rows of the result that it writes;
  it hands those rows back holding the lookup's value, each row a restriction of the ONE whole-array function `G`.
-/
import proofs.«218896_g85959475462175_cont_9to1_m_647_27_alg».proof.Proof.KBCommon

noncomputable section

namespace Cert.Proof.KB.R4

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## This call's table, index array, result, scratch -/

abbrev nRows : Nat := 20000
theorem nRows_pos : 0 < nRows := by decide
abbrev TS : Shape := S20000x64
abbrev tblTc : Ref sig .tc := main_arg4
abbrev idxTc : Ref sig .tc := main_arg12
abbrev outTc : Ref sig .tc := main_v4
abbrev tblScv : Ref sig .scVector := main_arg4_scv
abbrev idxScv : Ref sig .scVector := main_arg12_scv
abbrev outScv : Ref sig .scVector := main_v4_scv
abbrev scrScv : Ref sig .scVector := cc4_scratch0

/-! ## The same for every call from here on -/

variable {F : FTy → Type}

local notation "𝕄" => MT nD τ sig (HIx 8) (Elt F) ℕ UU ℕ

variable (m : (ℓ : Loc nD τ sig) → Buf (Elt F) ℓ)

abbrev tLoc (d : Dev nD) : Loc nD τ sig := (SparseCore.T d).loc tblTc
abbrev iLoc (d : Dev nD) : Loc nD τ sig := (SparseCore.T d).loc idxTc
abbrev oLoc (d : Dev nD) : Loc nD τ sig := (SparseCore.T d).loc outTc

abbrev tW : Memref sig .scVector .hbm TS .f32 := Memref.whole tblScv
abbrev iW : Memref sig .scVector .hbm S16384 .i32 := Memref.whole idxScv
abbrev oW : Memref sig .scVector .hbm S16384x64 .f32 := Memref.whole outScv
abbrev sW : Memref sig .scVector .vmem S512 .i32 := Memref.whole scrScv

/-- The lookup's value on device `d`: the whole result array as one function of the launch memory. -/
def G (d : Dev nD) : Buf (Elt F) (oLoc d) := Spec.gatherRows nRows nRows_pos (m (tLoc d)) (m (iLoc d))

theorem hdiv : 16384 ∣ S16384x64.size 0 := ⟨1, rfl⟩
/-- Row `r` of the result, as a rectangle and as a set of indices. -/
abbrev row (r : Fin 16384) : Rect S16384x64 := Rect.part (s := S16384x64) (a₀ := 0) hdiv r
abbrev rowSet (r : Fin 16384) : Finset S16384x64.Idx := ((oW : Memref sig .scVector .hbm S16384x64 .f32).view.slice (row r)).set

/-- The number of the tile at `L` among the thirty-two. -/
def wid (L : grid0.Coords) : Fin 32 := ⟨2 * (L 1).val + (L 0).val, by
  have h0 : (L 0).val < 2 := (L 0).isLt
  have h1 : (L 1).val < 16 := (L 1).isLt
  omega⟩

/-- Row `t` of the tile's 512. -/
abbrev tileRow (L : grid0.Coords) (t : Fin 512) : Fin 16384 := ⟨base L + t.val, base_add_lt L t⟩

/-- What the tile at `L` is handed: a read token of the table, one of the index array, its 512 rows of the result. -/
def go (d : Dev nD) (L : grid0.Coords) : sProp 𝕄 :=
  iprop((tLoc d ↦{Transfers.shareTok fullShare 32 (wid L)} m (tLoc d)) ∗ (iLoc d ↦{Transfers.shareTok fullShare 32 (wid L)} m (iLoc d))
    ∗ bigSep Finset.univ fun t : Fin 512 => oLoc d ↦[rowSet (tileRow L t)]{fullShare} m (oLoc d))

/-- What it hands back: its 512 rows, holding the lookup's value. -/
def td (d : Dev nD) (L : grid0.Coords) : sProp 𝕄 :=
  bigSep Finset.univ fun t : Fin 512 => oLoc d ↦[rowSet (tileRow L t)]{fullShare} G m d

variable [FloatOps F]

/-- The tile's obligation at this call, at a symbolic tile: from what it is handed, its scoped storage and what it owes
    the launch, the printed body runs and ends with the 512 rows holding the lookup's value. -/
def TileBody : Prop :=
  ∀ (d : Dev nD) (L : grid0.Coords) (O : CellTallies nD τ sig (HIx 8)) (W : Waits sig (HIx 8)), (∀ g, O g none = 0) →
    iprop(levAts (K (F := F)).L (K (F := F)).lev ∗ emp ∗ go m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc4__gather_body L tW (Memref.isWhole_whole _) iW (Memref.isWhole_whole _) oW (Memref.isWhole_whole _)
            sW (Memref.isWhole_whole _) cc4_scratch1 cc4_scoped0)
          fun _ => iprop(td m d L ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KB.R4

end
-- ==== Proof.KBRes5.lean ====
/-
  Call 5 of the eight: what the launch hands each tile and what the tile hands back. A tile reads the table and the
  index array through read tokens of the whole arrays (never handed back: the TensorCore keeps a share of each, which
  is enough to read the final memory against the launch memory), and owns the 512 rows of the result that it writes;
  it hands those rows back holding the lookup's value, each row a restriction of the ONE whole-array function `G`.
-/
import proofs.«218896_g85959475462175_cont_9to1_m_647_27_alg».proof.Proof.KBCommon

noncomputable section

namespace Cert.Proof.KB.R5

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## This call's table, index array, result, scratch -/

abbrev nRows : Nat := 10000
theorem nRows_pos : 0 < nRows := by decide
abbrev TS : Shape := S10000x64
abbrev tblTc : Ref sig .tc := main_arg5
abbrev idxTc : Ref sig .tc := main_arg13
abbrev outTc : Ref sig .tc := main_v5
abbrev tblScv : Ref sig .scVector := main_arg5_scv
abbrev idxScv : Ref sig .scVector := main_arg13_scv
abbrev outScv : Ref sig .scVector := main_v5_scv
abbrev scrScv : Ref sig .scVector := cc5_scratch0

/-! ## The same for every call from here on -/

variable {F : FTy → Type}

local notation "𝕄" => MT nD τ sig (HIx 8) (Elt F) ℕ UU ℕ

variable (m : (ℓ : Loc nD τ sig) → Buf (Elt F) ℓ)

abbrev tLoc (d : Dev nD) : Loc nD τ sig := (SparseCore.T d).loc tblTc
abbrev iLoc (d : Dev nD) : Loc nD τ sig := (SparseCore.T d).loc idxTc
abbrev oLoc (d : Dev nD) : Loc nD τ sig := (SparseCore.T d).loc outTc

abbrev tW : Memref sig .scVector .hbm TS .f32 := Memref.whole tblScv
abbrev iW : Memref sig .scVector .hbm S16384 .i32 := Memref.whole idxScv
abbrev oW : Memref sig .scVector .hbm S16384x64 .f32 := Memref.whole outScv
abbrev sW : Memref sig .scVector .vmem S512 .i32 := Memref.whole scrScv

/-- The lookup's value on device `d`: the whole result array as one function of the launch memory. -/
def G (d : Dev nD) : Buf (Elt F) (oLoc d) := Spec.gatherRows nRows nRows_pos (m (tLoc d)) (m (iLoc d))

theorem hdiv : 16384 ∣ S16384x64.size 0 := ⟨1, rfl⟩
/-- Row `r` of the result, as a rectangle and as a set of indices. -/
abbrev row (r : Fin 16384) : Rect S16384x64 := Rect.part (s := S16384x64) (a₀ := 0) hdiv r
abbrev rowSet (r : Fin 16384) : Finset S16384x64.Idx := ((oW : Memref sig .scVector .hbm S16384x64 .f32).view.slice (row r)).set

/-- The number of the tile at `L` among the thirty-two. -/
def wid (L : grid0.Coords) : Fin 32 := ⟨2 * (L 1).val + (L 0).val, by
  have h0 : (L 0).val < 2 := (L 0).isLt
  have h1 : (L 1).val < 16 := (L 1).isLt
  omega⟩

/-- Row `t` of the tile's 512. -/
abbrev tileRow (L : grid0.Coords) (t : Fin 512) : Fin 16384 := ⟨base L + t.val, base_add_lt L t⟩

/-- What the tile at `L` is handed: a read token of the table, one of the index array, its 512 rows of the result. -/
def go (d : Dev nD) (L : grid0.Coords) : sProp 𝕄 :=
  iprop((tLoc d ↦{Transfers.shareTok fullShare 32 (wid L)} m (tLoc d)) ∗ (iLoc d ↦{Transfers.shareTok fullShare 32 (wid L)} m (iLoc d))
    ∗ bigSep Finset.univ fun t : Fin 512 => oLoc d ↦[rowSet (tileRow L t)]{fullShare} m (oLoc d))

/-- What it hands back: its 512 rows, holding the lookup's value. -/
def td (d : Dev nD) (L : grid0.Coords) : sProp 𝕄 :=
  bigSep Finset.univ fun t : Fin 512 => oLoc d ↦[rowSet (tileRow L t)]{fullShare} G m d

variable [FloatOps F]

/-- The tile's obligation at this call, at a symbolic tile: from what it is handed, its scoped storage and what it owes
    the launch, the printed body runs and ends with the 512 rows holding the lookup's value. -/
def TileBody : Prop :=
  ∀ (d : Dev nD) (L : grid0.Coords) (O : CellTallies nD τ sig (HIx 8)) (W : Waits sig (HIx 8)), (∀ g, O g none = 0) →
    iprop(levAts (K (F := F)).L (K (F := F)).lev ∗ emp ∗ go m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc5__gather_body L tW (Memref.isWhole_whole _) iW (Memref.isWhole_whole _) oW (Memref.isWhole_whole _)
            sW (Memref.isWhole_whole _) cc5_scratch1 cc5_scoped0)
          fun _ => iprop(td m d L ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KB.R5

end
-- ==== Proof.KBRes6.lean ====
/-
  Call 6 of the eight: what the launch hands each tile and what the tile hands back. A tile reads the table and the
  index array through read tokens of the whole arrays (never handed back: the TensorCore keeps a share of each, which
  is enough to read the final memory against the launch memory), and owns the 512 rows of the result that it writes;
  it hands those rows back holding the lookup's value, each row a restriction of the ONE whole-array function `G`.
-/
import proofs.«218896_g85959475462175_cont_9to1_m_647_27_alg».proof.Proof.KBCommon

noncomputable section

namespace Cert.Proof.KB.R6

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## This call's table, index array, result, scratch -/

abbrev nRows : Nat := 5000
theorem nRows_pos : 0 < nRows := by decide
abbrev TS : Shape := S5000x64
abbrev tblTc : Ref sig .tc := main_arg6
abbrev idxTc : Ref sig .tc := main_arg14
abbrev outTc : Ref sig .tc := main_v6
abbrev tblScv : Ref sig .scVector := main_arg6_scv
abbrev idxScv : Ref sig .scVector := main_arg14_scv
abbrev outScv : Ref sig .scVector := main_v6_scv
abbrev scrScv : Ref sig .scVector := cc6_scratch0

/-! ## The same for every call from here on -/

variable {F : FTy → Type}

local notation "𝕄" => MT nD τ sig (HIx 8) (Elt F) ℕ UU ℕ

variable (m : (ℓ : Loc nD τ sig) → Buf (Elt F) ℓ)

abbrev tLoc (d : Dev nD) : Loc nD τ sig := (SparseCore.T d).loc tblTc
abbrev iLoc (d : Dev nD) : Loc nD τ sig := (SparseCore.T d).loc idxTc
abbrev oLoc (d : Dev nD) : Loc nD τ sig := (SparseCore.T d).loc outTc

abbrev tW : Memref sig .scVector .hbm TS .f32 := Memref.whole tblScv
abbrev iW : Memref sig .scVector .hbm S16384 .i32 := Memref.whole idxScv
abbrev oW : Memref sig .scVector .hbm S16384x64 .f32 := Memref.whole outScv
abbrev sW : Memref sig .scVector .vmem S512 .i32 := Memref.whole scrScv

/-- The lookup's value on device `d`: the whole result array as one function of the launch memory. -/
def G (d : Dev nD) : Buf (Elt F) (oLoc d) := Spec.gatherRows nRows nRows_pos (m (tLoc d)) (m (iLoc d))

theorem hdiv : 16384 ∣ S16384x64.size 0 := ⟨1, rfl⟩
/-- Row `r` of the result, as a rectangle and as a set of indices. -/
abbrev row (r : Fin 16384) : Rect S16384x64 := Rect.part (s := S16384x64) (a₀ := 0) hdiv r
abbrev rowSet (r : Fin 16384) : Finset S16384x64.Idx := ((oW : Memref sig .scVector .hbm S16384x64 .f32).view.slice (row r)).set

/-- The number of the tile at `L` among the thirty-two. -/
def wid (L : grid0.Coords) : Fin 32 := ⟨2 * (L 1).val + (L 0).val, by
  have h0 : (L 0).val < 2 := (L 0).isLt
  have h1 : (L 1).val < 16 := (L 1).isLt
  omega⟩

/-- Row `t` of the tile's 512. -/
abbrev tileRow (L : grid0.Coords) (t : Fin 512) : Fin 16384 := ⟨base L + t.val, base_add_lt L t⟩

/-- What the tile at `L` is handed: a read token of the table, one of the index array, its 512 rows of the result. -/
def go (d : Dev nD) (L : grid0.Coords) : sProp 𝕄 :=
  iprop((tLoc d ↦{Transfers.shareTok fullShare 32 (wid L)} m (tLoc d)) ∗ (iLoc d ↦{Transfers.shareTok fullShare 32 (wid L)} m (iLoc d))
    ∗ bigSep Finset.univ fun t : Fin 512 => oLoc d ↦[rowSet (tileRow L t)]{fullShare} m (oLoc d))

/-- What it hands back: its 512 rows, holding the lookup's value. -/
def td (d : Dev nD) (L : grid0.Coords) : sProp 𝕄 :=
  bigSep Finset.univ fun t : Fin 512 => oLoc d ↦[rowSet (tileRow L t)]{fullShare} G m d

variable [FloatOps F]

/-- The tile's obligation at this call, at a symbolic tile: from what it is handed, its scoped storage and what it owes
    the launch, the printed body runs and ends with the 512 rows holding the lookup's value. -/
def TileBody : Prop :=
  ∀ (d : Dev nD) (L : grid0.Coords) (O : CellTallies nD τ sig (HIx 8)) (W : Waits sig (HIx 8)), (∀ g, O g none = 0) →
    iprop(levAts (K (F := F)).L (K (F := F)).lev ∗ emp ∗ go m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc6__gather_body L tW (Memref.isWhole_whole _) iW (Memref.isWhole_whole _) oW (Memref.isWhole_whole _)
            sW (Memref.isWhole_whole _) cc6_scratch1 cc6_scoped0)
          fun _ => iprop(td m d L ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KB.R6

end
-- ==== Proof.KBRes7.lean ====
/-
  Call 7 of the eight: what the launch hands each tile and what the tile hands back. A tile reads the table and the
  index array through read tokens of the whole arrays (never handed back: the TensorCore keeps a share of each, which
  is enough to read the final memory against the launch memory), and owns the 512 rows of the result that it writes;
  it hands those rows back holding the lookup's value, each row a restriction of the ONE whole-array function `G`.
-/
import proofs.«218896_g85959475462175_cont_9to1_m_647_27_alg».proof.Proof.KBCommon

noncomputable section

namespace Cert.Proof.KB.R7

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## This call's table, index array, result, scratch -/

abbrev nRows : Nat := 1000
theorem nRows_pos : 0 < nRows := by decide
abbrev TS : Shape := S1000x64
abbrev tblTc : Ref sig .tc := main_arg7
abbrev idxTc : Ref sig .tc := main_arg15
abbrev outTc : Ref sig .tc := main_v7
abbrev tblScv : Ref sig .scVector := main_arg7_scv
abbrev idxScv : Ref sig .scVector := main_arg15_scv
abbrev outScv : Ref sig .scVector := main_v7_scv
abbrev scrScv : Ref sig .scVector := cc7_scratch0

/-! ## The same for every call from here on -/

variable {F : FTy → Type}

local notation "𝕄" => MT nD τ sig (HIx 8) (Elt F) ℕ UU ℕ

variable (m : (ℓ : Loc nD τ sig) → Buf (Elt F) ℓ)

abbrev tLoc (d : Dev nD) : Loc nD τ sig := (SparseCore.T d).loc tblTc
abbrev iLoc (d : Dev nD) : Loc nD τ sig := (SparseCore.T d).loc idxTc
abbrev oLoc (d : Dev nD) : Loc nD τ sig := (SparseCore.T d).loc outTc

abbrev tW : Memref sig .scVector .hbm TS .f32 := Memref.whole tblScv
abbrev iW : Memref sig .scVector .hbm S16384 .i32 := Memref.whole idxScv
abbrev oW : Memref sig .scVector .hbm S16384x64 .f32 := Memref.whole outScv
abbrev sW : Memref sig .scVector .vmem S512 .i32 := Memref.whole scrScv

/-- The lookup's value on device `d`: the whole result array as one function of the launch memory. -/
def G (d : Dev nD) : Buf (Elt F) (oLoc d) := Spec.gatherRows nRows nRows_pos (m (tLoc d)) (m (iLoc d))

theorem hdiv : 16384 ∣ S16384x64.size 0 := ⟨1, rfl⟩
/-- Row `r` of the result, as a rectangle and as a set of indices. -/
abbrev row (r : Fin 16384) : Rect S16384x64 := Rect.part (s := S16384x64) (a₀ := 0) hdiv r
abbrev rowSet (r : Fin 16384) : Finset S16384x64.Idx := ((oW : Memref sig .scVector .hbm S16384x64 .f32).view.slice (row r)).set

/-- The number of the tile at `L` among the thirty-two. -/
def wid (L : grid0.Coords) : Fin 32 := ⟨2 * (L 1).val + (L 0).val, by
  have h0 : (L 0).val < 2 := (L 0).isLt
  have h1 : (L 1).val < 16 := (L 1).isLt
  omega⟩

/-- Row `t` of the tile's 512. -/
abbrev tileRow (L : grid0.Coords) (t : Fin 512) : Fin 16384 := ⟨base L + t.val, base_add_lt L t⟩

/-- What the tile at `L` is handed: a read token of the table, one of the index array, its 512 rows of the result. -/
def go (d : Dev nD) (L : grid0.Coords) : sProp 𝕄 :=
  iprop((tLoc d ↦{Transfers.shareTok fullShare 32 (wid L)} m (tLoc d)) ∗ (iLoc d ↦{Transfers.shareTok fullShare 32 (wid L)} m (iLoc d))
    ∗ bigSep Finset.univ fun t : Fin 512 => oLoc d ↦[rowSet (tileRow L t)]{fullShare} m (oLoc d))

/-- What it hands back: its 512 rows, holding the lookup's value. -/
def td (d : Dev nD) (L : grid0.Coords) : sProp 𝕄 :=
  bigSep Finset.univ fun t : Fin 512 => oLoc d ↦[rowSet (tileRow L t)]{fullShare} G m d

variable [FloatOps F]

/-- The tile's obligation at this call, at a symbolic tile: from what it is handed, its scoped storage and what it owes
    the launch, the printed body runs and ends with the 512 rows holding the lookup's value. -/
def TileBody : Prop :=
  ∀ (d : Dev nD) (L : grid0.Coords) (O : CellTallies nD τ sig (HIx 8)) (W : Waits sig (HIx 8)), (∀ g, O g none = 0) →
    iprop(levAts (K (F := F)).L (K (F := F)).lev ∗ emp ∗ go m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc7__gather_body L tW (Memref.isWhole_whole _) iW (Memref.isWhole_whole _) oW (Memref.isWhole_whole _)
            sW (Memref.isWhole_whole _) cc7_scratch1 cc7_scoped0)
          fun _ => iprop(td m d L ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KB.R7

end
-- ==== Proof.KBPay.lean ====
/-
  What the launch's handshakes carry at each of the eight calls. A SparseCore of a call's grid is handed its sixteen
  tiles' operands side by side and hands their results back side by side, so the split of a SparseCore's operands
  among its tiles is the identity. Each call's tile obligation follows from the proof of that call's body at a
  symbolic tile: the body table's entry for the tile is the printed body at the tile's grid coordinates.
-/
import proofs.«218896_g85959475462175_cont_9to1_m_647_27_alg».proof.Proof.KBRes0
import proofs.«218896_g85959475462175_cont_9to1_m_647_27_alg».proof.Proof.KBRes1
import proofs.«218896_g85959475462175_cont_9to1_m_647_27_alg».proof.Proof.KBRes2
import proofs.«218896_g85959475462175_cont_9to1_m_647_27_alg».proof.Proof.KBRes3
import proofs.«218896_g85959475462175_cont_9to1_m_647_27_alg».proof.Proof.KBRes4
import proofs.«218896_g85959475462175_cont_9to1_m_647_27_alg».proof.Proof.KBRes5
import proofs.«218896_g85959475462175_cont_9to1_m_647_27_alg».proof.Proof.KBRes6
import proofs.«218896_g85959475462175_cont_9to1_m_647_27_alg».proof.Proof.KBRes7

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 8) (Elt F) ℕ UU ℕ

variable (m : (ℓ : Loc nD τ sig) → Buf (Elt F) ℓ)

/-! ## Every call's grid is two SparseCores of sixteen tiles -/

theorem nCore_eq (q : Fin 8) : (K (F := F)).nCore q = grid0.bound 0 :=
  show scNCore q = grid0.bound 0 from by revert q; decide
theorem nSub_eq (q : Fin 8) : (K (F := F)).nSub q = grid0.bound 1 :=
  show scNSub q = grid0.bound 1 from by revert q; decide

/-- Tile `i` of SparseCore `c` of call `q`'s grid, as grid coordinates. -/
abbrev LQ (q : Fin 8) (c : Fin ((K (F := F)).nCore q)) (i : Fin ((K (F := F)).nSub q)) : grid0.Coords :=
  coordsV (Fin.cast (nCore_eq q) c) (Fin.cast (nSub_eq q) i)

/-! ## What a tile is handed and hands back, by call -/

/-- What the tile at `L` is handed at call `q`. -/
def goAt (q : Fin 8) (d : Dev nD) (L : grid0.Coords) : sProp 𝕄 :=
  match q with
  | 0 => R0.go m d L
  | 1 => R1.go m d L
  | 2 => R2.go m d L
  | 3 => R3.go m d L
  | 4 => R4.go m d L
  | 5 => R5.go m d L
  | 6 => R6.go m d L
  | 7 => R7.go m d L

/-- What it hands back. -/
def tdAt (q : Fin 8) (d : Dev nD) (L : grid0.Coords) : sProp 𝕄 :=
  match q with
  | 0 => R0.td m d L
  | 1 => R1.td m d L
  | 2 => R2.td m d L
  | 3 => R3.td m d L
  | 4 => R4.td m d L
  | 5 => R5.td m d L
  | 6 => R6.td m d L
  | 7 => R7.td m d L

instance goAt_storable (q : Fin 8) (d : Dev nD) (L : grid0.Coords) : BI.Storable (upEmb : UEmb _ 𝕄) (goAt m q d L) := by
  revert q; unfold goAt R0.go R1.go R2.go R3.go R4.go R5.go R6.go R7.go
  intro q; split <;> infer_instance

instance tdAt_storable (q : Fin 8) (d : Dev nD) (L : grid0.Coords) : BI.Storable (upEmb : UEmb _ 𝕄) (tdAt m q d L) := by
  revert q; unfold tdAt R0.td R1.td R2.td R3.td R4.td R5.td R6.td R7.td
  intro q; split <;> infer_instance

/-- The payloads: a tile's task carries `goAt` out and `tdAt` back; a SparseCore's start carries its sixteen tiles'
    `goAt` side by side, its end their `tdAt`; no call's proof consumes anything of the launch's. -/
def P : (K (F := F)).Pay (nD := nD) (Val := Elt F) (Name := ℕ) (U := UU) where
  st := fun q d c => bigSep Finset.univ fun i : Fin ((K (F := F)).nSub q) => goAt m q d (LQ q c i)
  dn := fun q d c => bigSep Finset.univ fun i : Fin ((K (F := F)).nSub q) => tdAt m q d (LQ q c i)
  go := fun q d c i => goAt m q d (LQ q c i)
  td := fun q d c i => tdAt m q d (LQ q c i)
  x := fun _ _ => iprop(emp)

theorem P_st (q : Fin 8) (d : Dev nD) (c : Fin ((K (F := F)).nCore q)) :
    (P m).st q d c = bigSep Finset.univ fun i : Fin ((K (F := F)).nSub q) => (P m).go q d c i := rfl
theorem P_dn (q : Fin 8) (d : Dev nD) (c : Fin ((K (F := F)).nCore q)) :
    (P m).dn q d c = bigSep Finset.univ fun i : Fin ((K (F := F)).nSub q) => (P m).td q d c i := rfl
theorem P_go (q : Fin 8) (d : Dev nD) (c : Fin ((K (F := F)).nCore q)) (i : Fin ((K (F := F)).nSub q)) :
    (P m).go q d c i = goAt m q d (LQ q c i) := rfl
theorem P_td (q : Fin 8) (d : Dev nD) (c : Fin ((K (F := F)).nCore q)) (i : Fin ((K (F := F)).nSub q)) :
    (P m).td q d c i = tdAt m q d (LQ q c i) := rfl

instance P_storable : (P (F := F) m).IsStorable where
  st _ _ _ := by unfold P; infer_instance
  dn _ _ _ := by unfold P; infer_instance
  go _ _ _ _ := by unfold P; infer_instance
  td _ _ _ _ := by unfold P; infer_instance

/-! ## The split of a SparseCore's operands among its tiles: the identity -/

theorem vecSplit (q : Fin 8) : (K (F := F)).VecSplit' (P m) q := by
  intro d c
  rw [P_st, P_dn]
  iintro H; imodintro
  isplitl [H]; · iexact H
  iintro H; iexact H

/-! ## The tiles' obligations -/

variable [FloatOps F]

omit [FloatOps F] in
theorem obl_post {thr : Thread nD τ} {A B C : sProp 𝕄} {O : CellTallies nD τ sig (HIx 8)} {W : Waits sig (HIx 8)} {q : Fin 8} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector0 (c : Fin τ.nSC) (s : Fin τ.nSub) :
    defs₀ (F := F) (.scVector c s) 0 ()
      = SparseCore.onTile hcore0 hsub0 (fun c s => cc0__gather_body (coordsV c s)
          R0.tW (Memref.isWhole_whole _) R0.iW (Memref.isWhole_whole _) R0.oW (Memref.isWhole_whole _)
          R0.sW (Memref.isWhole_whole _) cc0_scratch1 cc0_scoped0) ⟨⟩ c s := rfl

theorem tileObl0 (hb : R0.TileBody m) : (K (F := F)).TileObl (D (F := F)) 𝒱 (P m) v₀ 0 := by
  intro d c i O W hO _ _
  -- no call owes anything for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (hb d (coordsV ⟨_, hc.1⟩ ⟨_, hc.2⟩) O W hO).trans (wp_mono frame _ _ fun _ => obl_post)

theorem defs₀_vector1 (c : Fin τ.nSC) (s : Fin τ.nSub) :
    defs₀ (F := F) (.scVector c s) 1 ()
      = SparseCore.onTile hcore1 hsub1 (fun c s => cc1__gather_body (coordsV c s)
          R1.tW (Memref.isWhole_whole _) R1.iW (Memref.isWhole_whole _) R1.oW (Memref.isWhole_whole _)
          R1.sW (Memref.isWhole_whole _) cc1_scratch1 cc1_scoped0) ⟨⟩ c s := rfl

theorem tileObl1 (hb : R1.TileBody m) : (K (F := F)).TileObl (D (F := F)) 𝒱 (P m) v₀ 1 := by
  intro d c i O W hO _ _
  -- no call owes anything for a protocol of its own
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (hb d (coordsV ⟨_, hc.1⟩ ⟨_, hc.2⟩) O W hO).trans (wp_mono frame _ _ fun _ => obl_post)

theorem defs₀_vector2 (c : Fin τ.nSC) (s : Fin τ.nSub) :
    defs₀ (F := F) (.scVector c s) 2 ()
      = SparseCore.onTile hcore2 hsub2 (fun c s => cc2__gather_body (coordsV c s)
          R2.tW (Memref.isWhole_whole _) R2.iW (Memref.isWhole_whole _) R2.oW (Memref.isWhole_whole _)
          R2.sW (Memref.isWhole_whole _) cc2_scratch1 cc2_scoped0) ⟨⟩ c s := rfl

theorem tileObl2 (hb : R2.TileBody m) : (K (F := F)).TileObl (D (F := F)) 𝒱 (P m) v₀ 2 := by
  intro d c i O W hO _ _
  -- no call owes anything for a protocol of its own
  simp only [show (P m).ox = fun _ _ => 0 from rfl, add_zero]
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs₀_vector2]; simp only [SparseCore.onTile, hc, and_self, ↓reduceDIte]
  exact (hb d (coordsV ⟨_, hc.1⟩ ⟨_, hc.2⟩) O W hO).trans (wp_mono frame _ _ fun _ => obl_post)

theorem defs₀_vector3 (c : Fin τ.nSC) (s : Fin τ.nSub) :
    defs₀ (F := F) (.scVector c s) 3 ()
      = SparseCore.onTile hcore3 hsub3 (fun c s => cc3__gather_body (coordsV c s)
          R3.tW (Memref.isWhole_whole _) R3.iW (Memref.isWhole_whole _) R3.oW (Memref.isWhole_whole _)
          R3.sW (Memref.isWhole_whole _) cc3_scratch1 cc3_scoped0) ⟨⟩ c s := rfl

theorem tileObl3 (hb : R3.TileBody m) : (K (F := F)).TileObl (D (F := F)) 𝒱 (P m) v₀ 3 := by
  intro d c i O W hO _ _
  -- no call owes anything for a protocol of its own
  simp only [show (P m).ox = fun _ _ => 0 from rfl, add_zero]
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  have hc : ((K (F := F)).core 3 c).val < grid3.bound 0 ∧ ((K (F := F)).sub 3 i).val < grid3.bound 1 := ⟨c.isLt, i.isLt⟩
  rw [defs₀_vector3]; simp only [SparseCore.onTile, hc, and_self, ↓reduceDIte]
  exact (hb d (coordsV ⟨_, hc.1⟩ ⟨_, hc.2⟩) O W hO).trans (wp_mono frame _ _ fun _ => obl_post)

theorem defs₀_vector4 (c : Fin τ.nSC) (s : Fin τ.nSub) :
    defs₀ (F := F) (.scVector c s) 4 ()
      = SparseCore.onTile hcore4 hsub4 (fun c s => cc4__gather_body (coordsV c s)
          R4.tW (Memref.isWhole_whole _) R4.iW (Memref.isWhole_whole _) R4.oW (Memref.isWhole_whole _)
          R4.sW (Memref.isWhole_whole _) cc4_scratch1 cc4_scoped0) ⟨⟩ c s := rfl

theorem tileObl4 (hb : R4.TileBody m) : (K (F := F)).TileObl (D (F := F)) 𝒱 (P m) v₀ 4 := by
  intro d c i O W hO _ _
  -- no call owes anything for a protocol of its own
  simp only [show (P m).ox = fun _ _ => 0 from rfl, add_zero]
  change _ ⊢ wp _ _ _ (Pipeline.liftProg (defs₀ (F := F) (.scVector ((K (F := F)).core 4 c) ((K (F := F)).sub 4 i)) 4 ())) _
  refine BI.Entails.trans ?_ (Pipeline.wp_liftProg (D (F := F)) (Pipeline.defs_kernel pcfgs defs₀) 𝒱₀ _ Set.univ none _ _)
  have hc : ((K (F := F)).core 4 c).val < grid4.bound 0 ∧ ((K (F := F)).sub 4 i).val < grid4.bound 1 := ⟨c.isLt, i.isLt⟩
  rw [defs₀_vector4]; simp only [SparseCore.onTile, hc, and_self, ↓reduceDIte]
  exact (hb d (coordsV ⟨_, hc.1⟩ ⟨_, hc.2⟩) O W hO).trans (wp_mono frame _ _ fun _ => obl_post)

theorem defs₀_vector5 (c : Fin τ.nSC) (s : Fin τ.nSub) :
    defs₀ (F := F) (.scVector c s) 5 ()
      = SparseCore.onTile hcore5 hsub5 (fun c s => cc5__gather_body (coordsV c s)
          R5.tW (Memref.isWhole_whole _) R5.iW (Memref.isWhole_whole _) R5.oW (Memref.isWhole_whole _)
          R5.sW (Memref.isWhole_whole _) cc5_scratch1 cc5_scoped0) ⟨⟩ c s := rfl

theorem tileObl5 (hb : R5.TileBody m) : (K (F := F)).TileObl (D (F := F)) 𝒱 (P m) v₀ 5 := by
  intro d c i O W hO _ _
  -- no call owes anything for a protocol of its own
  simp only [show (P m).ox = fun _ _ => 0 from rfl, add_zero]
  change _ ⊢ wp _ _ _ (Pipeline.liftProg (defs₀ (F := F) (.scVector ((K (F := F)).core 5 c) ((K (F := F)).sub 5 i)) 5 ())) _
  refine BI.Entails.trans ?_ (Pipeline.wp_liftProg (D (F := F)) (Pipeline.defs_kernel pcfgs defs₀) 𝒱₀ _ Set.univ none _ _)
  have hc : ((K (F := F)).core 5 c).val < grid5.bound 0 ∧ ((K (F := F)).sub 5 i).val < grid5.bound 1 := ⟨c.isLt, i.isLt⟩
  rw [defs₀_vector5]; simp only [SparseCore.onTile, hc, and_self, ↓reduceDIte]
  exact (hb d (coordsV ⟨_, hc.1⟩ ⟨_, hc.2⟩) O W hO).trans (wp_mono frame _ _ fun _ => obl_post)

theorem defs₀_vector6 (c : Fin τ.nSC) (s : Fin τ.nSub) :
    defs₀ (F := F) (.scVector c s) 6 ()
      = SparseCore.onTile hcore6 hsub6 (fun c s => cc6__gather_body (coordsV c s)
          R6.tW (Memref.isWhole_whole _) R6.iW (Memref.isWhole_whole _) R6.oW (Memref.isWhole_whole _)
          R6.sW (Memref.isWhole_whole _) cc6_scratch1 cc6_scoped0) ⟨⟩ c s := rfl

theorem tileObl6 (hb : R6.TileBody m) : (K (F := F)).TileObl (D (F := F)) 𝒱 (P m) v₀ 6 := by
  intro d c i O W hO _ _
  -- no call owes anything for a protocol of its own
  simp only [show (P m).ox = fun _ _ => 0 from rfl, add_zero]
  change _ ⊢ wp _ _ _ (Pipeline.liftProg (defs₀ (F := F) (.scVector ((K (F := F)).core 6 c) ((K (F := F)).sub 6 i)) 6 ())) _
  refine BI.Entails.trans ?_ (Pipeline.wp_liftProg (D (F := F)) (Pipeline.defs_kernel pcfgs defs₀) 𝒱₀ _ Set.univ none _ _)
  have hc : ((K (F := F)).core 6 c).val < grid6.bound 0 ∧ ((K (F := F)).sub 6 i).val < grid6.bound 1 := ⟨c.isLt, i.isLt⟩
  rw [defs₀_vector6]; simp only [SparseCore.onTile, hc, and_self, ↓reduceDIte]
  exact (hb d (coordsV ⟨_, hc.1⟩ ⟨_, hc.2⟩) O W hO).trans (wp_mono frame _ _ fun _ => obl_post)

theorem defs₀_vector7 (c : Fin τ.nSC) (s : Fin τ.nSub) :
    defs₀ (F := F) (.scVector c s) 7 ()
      = SparseCore.onTile hcore7 hsub7 (fun c s => cc7__gather_body (coordsV c s)
          R7.tW (Memref.isWhole_whole _) R7.iW (Memref.isWhole_whole _) R7.oW (Memref.isWhole_whole _)
          R7.sW (Memref.isWhole_whole _) cc7_scratch1 cc7_scoped0) ⟨⟩ c s := rfl

theorem tileObl7 (hb : R7.TileBody m) : (K (F := F)).TileObl (D (F := F)) 𝒱 (P m) v₀ 7 := by
  intro d c i O W hO _ _
  -- no call owes anything for a protocol of its own
  simp only [show (P m).ox = fun _ _ => 0 from rfl, add_zero]
  change _ ⊢ wp _ _ _ (Pipeline.liftProg (defs₀ (F := F) (.scVector ((K (F := F)).core 7 c) ((K (F := F)).sub 7 i)) 7 ())) _
  refine BI.Entails.trans ?_ (Pipeline.wp_liftProg (D (F := F)) (Pipeline.defs_kernel pcfgs defs₀) 𝒱₀ _ Set.univ none _ _)
  have hc : ((K (F := F)).core 7 c).val < grid7.bound 0 ∧ ((K (F := F)).sub 7 i).val < grid7.bound 1 := ⟨c.isLt, i.isLt⟩
  rw [defs₀_vector7]; simp only [SparseCore.onTile, hc, and_self, ↓reduceDIte]
  exact (hb d (coordsV ⟨_, hc.1⟩ ⟨_, hc.2⟩) O W hO).trans (wp_mono frame _ _ fun _ => obl_post)

end Cert.Proof.KB

end
-- ==== Proof.KBGeom0.lean ====
/-
  The geometry of the thirty-two tiles at one call. The result's 16384 rows are pairwise disjoint and cover it; the tile
  at grid coordinates (c, i) owns the rows 1024·i + 512·c + t for t < 512, and the triples (c, i, t) number the 16384
  rows exactly once (division and remainder by 1024 and 512). So the whole result is the separating conjunction, over
  the tiles, of each tile's 512 rows. Likewise the pairs (c, i) number the thirty-two read tokens of an array exactly
  once by 2·i + c, so a whole array splits into a remainder and one token per tile.
-/
import proofs.«218896_g85959475462175_cont_9to1_m_647_27_alg».proof.Proof.KBRes0

noncomputable section

namespace Cert.Proof.KB.R0

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

/-- A separating conjunction over a whole finite type may be taken along any bijection onto it. -/
theorem bigSep_univ_bij {M : Type} [URA M] {α β : Type} [Fintype α] [Fintype β] [DecidableEq α] [DecidableEq β]
    (e : α → β) (he : Function.Bijective e) (Φ : β → sProp M) :
    bigSep Finset.univ Φ = bigSep Finset.univ fun a => Φ (e a) := by
  rw [← Finset.image_univ_of_surjective he.2, SparseCore.bigSep_image_of_injOn (he.1.injOn)]

/-! ## The 16384 rows -/

theorem rowSet_eq (r : Fin 16384) : rowSet r = (row r).set := by
  show ((View.whole (outScv : Ref sig .scVector)).slice (row r)).set = _
  rw [View.set_slice]; exact Finset.map_refl

theorem rows_disjoint : ∀ r ∈ (Finset.univ : Finset (Fin 16384)), ∀ r' ∈ (Finset.univ : Finset (Fin 16384)), r ≠ r' → Disjoint (rowSet r) (rowSet r') :=
  fun r _ r' _ h => by rw [rowSet_eq, rowSet_eq]; exact Rect.part_disjoint hdiv h

theorem rows_cover : (Finset.univ : Finset (Fin 16384)).biUnion rowSet = Finset.univ :=
  (Finset.biUnion_congr rfl fun r _ => rowSet_eq r).trans (Rect.biUnion_part hdiv)

/-- The whole result is its 16384 rows. -/
theorem out_rows (d : Dev nD) (f : Buf (Elt F) (oLoc d)) :
    (oLoc d ↦{fullShare} f : sProp 𝕄) = bigSep Finset.univ fun r : Fin 16384 => oLoc d ↦[rowSet r]{fullShare} f := by
  rw [← pointsTo_biUnion Finset.univ (ℓ := oLoc d) rowSet rows_disjoint, rows_cover]; try rfl

/-! ## The tiles number the rows -/

/-- The row that the tile at (c, i) calls its `t`-th. -/
def tileRowOf (p : Fin (grid0.bound 0) × Fin (grid0.bound 1) × Fin 512) : Fin 16384 := tileRow (coordsV p.1 p.2.1) p.2.2

theorem tileRowOf_val (p : Fin (grid0.bound 0) × Fin (grid0.bound 1) × Fin 512) :
    (tileRowOf p).val = 1024 * p.2.1.val + 512 * p.1.val + p.2.2.val := rfl

theorem tileRowOf_bijective : Function.Bijective tileRowOf := by
  constructor
  · rintro ⟨c, i, t⟩ ⟨c', i', t'⟩ h
    have hv := congrArg Fin.val h
    rw [tileRowOf_val, tileRowOf_val] at hv
    have hc : c.val < 2 := c.isLt
    have hc' : c'.val < 2 := c'.isLt
    have hi : i.val < 16 := i.isLt
    have hi' : i'.val < 16 := i'.isLt
    have ht := t.isLt
    have ht' := t'.isLt
    simp only at hv
    have h1 : c.val = c'.val := by omega
    have h2 : i.val = i'.val := by omega
    have h3 : t.val = t'.val := by omega
    rw [Fin.ext h1, Fin.ext h2, Fin.ext h3]
  · intro r
    have hr := r.isLt
    refine ⟨(⟨(r.val % 1024) / 512, ?_⟩, ⟨r.val / 1024, ?_⟩, ⟨r.val % 512, ?_⟩), ?_⟩
    · show (r.val % 1024) / 512 < 2; omega
    · show r.val / 1024 < 16; omega
    · omega
    · apply Fin.ext; rw [tileRowOf_val]; simp only; omega

/-- The whole result is, tile by tile, each tile's 512 rows. -/
theorem out_tiles (d : Dev nD) (f : Buf (Elt F) (oLoc d)) :
    (oLoc d ↦{fullShare} f : sProp 𝕄) = bigSep Finset.univ fun c : Fin (grid0.bound 0) => bigSep Finset.univ fun i : Fin (grid0.bound 1) =>
      bigSep Finset.univ fun t : Fin 512 => oLoc d ↦[rowSet (tileRow (coordsV c i) t)]{fullShare} f := by
  rw [out_rows, bigSep_univ_bij tileRowOf tileRowOf_bijective, bigSep_univ_prod]
  refine bigSep_congr fun c _ => ?_
  rw [bigSep_univ_prod]
  rfl

/-! ## The tiles number the read tokens -/

/-- The token that the tile at (c, i) reads through. -/
def widOf (p : Fin (grid0.bound 0) × Fin (grid0.bound 1)) : Fin 32 := wid (coordsV p.1 p.2)

theorem widOf_val (p : Fin (grid0.bound 0) × Fin (grid0.bound 1)) : (widOf p).val = 2 * p.2.val + p.1.val := rfl

theorem widOf_bijective : Function.Bijective widOf := by
  constructor
  · rintro ⟨c, i⟩ ⟨c', i'⟩ h
    have hv := congrArg Fin.val h
    rw [widOf_val, widOf_val] at hv
    have hc : c.val < 2 := c.isLt
    have hc' : c'.val < 2 := c'.isLt
    simp only at hv
    have h1 : c.val = c'.val := by omega
    have h2 : i.val = i'.val := by omega
    rw [Fin.ext h1, Fin.ext h2]
  · intro w
    have hw := w.isLt
    refine ⟨(⟨w.val % 2, ?_⟩, ⟨w.val / 2, ?_⟩), ?_⟩
    · show w.val % 2 < 2; omega
    · show w.val / 2 < 16; omega
    · apply Fin.ext; rw [widOf_val]; simp only; omega

/-- A whole array splits into a remainder and one read token per tile. -/
theorem toks_tiles {ℓ : Loc nD τ sig} (f : Buf (Elt F) ℓ) :
    (ℓ ↦{fullShare} f : sProp 𝕄) ⊢ iprop((ℓ ↦{Transfers.shareDrop fullShare 32} f) ∗ bigSep Finset.univ fun c : Fin (grid0.bound 0) =>
      bigSep Finset.univ fun i : Fin (grid0.bound 1) => ℓ ↦{Transfers.shareTok fullShare 32 (wid (coordsV c i))} f) := by
  have hre : (bigSep Finset.univ fun c : Fin (grid0.bound 0) => bigSep Finset.univ fun i : Fin (grid0.bound 1) =>
        (ℓ ↦{Transfers.shareTok fullShare 32 (wid (coordsV c i))} f : sProp 𝕄))
      = bigSep Finset.univ fun w : Fin 32 => (ℓ ↦{Transfers.shareTok fullShare 32 w} f : sProp 𝕄) := by
    rw [bigSep_univ_bij widOf widOf_bijective, bigSep_univ_prod]
    rfl
  rw [hre]
  exact Transfers.pointsTo_toks_split fullShare 32

end Cert.Proof.KB.R0

end
-- ==== Proof.KBGeom1.lean ====
/-
  The geometry of the thirty-two tiles at one call. The result's 16384 rows are pairwise disjoint and cover it; the tile
  at grid coordinates (c, i) owns the rows 1024·i + 512·c + t for t < 512, and the triples (c, i, t) number the 16384
  rows exactly once (division and remainder by 1024 and 512). So the whole result is the separating conjunction, over
  the tiles, of each tile's 512 rows. Likewise the pairs (c, i) number the thirty-two read tokens of an array exactly
  once by 2·i + c, so a whole array splits into a remainder and one token per tile.
-/
import proofs.«218896_g85959475462175_cont_9to1_m_647_27_alg».proof.Proof.KBRes1

noncomputable section

namespace Cert.Proof.KB.R1

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

/-- A separating conjunction over a whole finite type may be taken along any bijection onto it. -/
theorem bigSep_univ_bij {M : Type} [URA M] {α β : Type} [Fintype α] [Fintype β] [DecidableEq α] [DecidableEq β]
    (e : α → β) (he : Function.Bijective e) (Φ : β → sProp M) :
    bigSep Finset.univ Φ = bigSep Finset.univ fun a => Φ (e a) := by
  rw [← Finset.image_univ_of_surjective he.2, SparseCore.bigSep_image_of_injOn (he.1.injOn)]

/-! ## The 16384 rows -/

theorem rowSet_eq (r : Fin 16384) : rowSet r = (row r).set := by
  show ((View.whole (outScv : Ref sig .scVector)).slice (row r)).set = _
  rw [View.set_slice]; exact Finset.map_refl

theorem rows_disjoint : ∀ r ∈ (Finset.univ : Finset (Fin 16384)), ∀ r' ∈ (Finset.univ : Finset (Fin 16384)), r ≠ r' → Disjoint (rowSet r) (rowSet r') :=
  fun r _ r' _ h => by rw [rowSet_eq, rowSet_eq]; exact Rect.part_disjoint hdiv h

theorem rows_cover : (Finset.univ : Finset (Fin 16384)).biUnion rowSet = Finset.univ :=
  (Finset.biUnion_congr rfl fun r _ => rowSet_eq r).trans (Rect.biUnion_part hdiv)

/-- The whole result is its 16384 rows. -/
theorem out_rows (d : Dev nD) (f : Buf (Elt F) (oLoc d)) :
    (oLoc d ↦{fullShare} f : sProp 𝕄) = bigSep Finset.univ fun r : Fin 16384 => oLoc d ↦[rowSet r]{fullShare} f := by
  rw [← pointsTo_biUnion Finset.univ (ℓ := oLoc d) rowSet rows_disjoint, rows_cover]; try rfl

/-! ## The tiles number the rows -/

/-- The row that the tile at (c, i) calls its `t`-th. -/
def tileRowOf (p : Fin (grid0.bound 0) × Fin (grid0.bound 1) × Fin 512) : Fin 16384 := tileRow (coordsV p.1 p.2.1) p.2.2

theorem tileRowOf_val (p : Fin (grid0.bound 0) × Fin (grid0.bound 1) × Fin 512) :
    (tileRowOf p).val = 1024 * p.2.1.val + 512 * p.1.val + p.2.2.val := rfl

theorem tileRowOf_bijective : Function.Bijective tileRowOf := by
  constructor
  · rintro ⟨c, i, t⟩ ⟨c', i', t'⟩ h
    have hv := congrArg Fin.val h
    rw [tileRowOf_val, tileRowOf_val] at hv
    have hc : c.val < 2 := c.isLt
    have hc' : c'.val < 2 := c'.isLt
    have hi : i.val < 16 := i.isLt
    have hi' : i'.val < 16 := i'.isLt
    have ht := t.isLt
    have ht' := t'.isLt
    simp only at hv
    have h1 : c.val = c'.val := by omega
    have h2 : i.val = i'.val := by omega
    have h3 : t.val = t'.val := by omega
    rw [Fin.ext h1, Fin.ext h2, Fin.ext h3]
  · intro r
    have hr := r.isLt
    refine ⟨(⟨(r.val % 1024) / 512, ?_⟩, ⟨r.val / 1024, ?_⟩, ⟨r.val % 512, ?_⟩), ?_⟩
    · show (r.val % 1024) / 512 < 2; omega
    · show r.val / 1024 < 16; omega
    · omega
    · apply Fin.ext; rw [tileRowOf_val]; simp only; omega

/-- The whole result is, tile by tile, each tile's 512 rows. -/
theorem out_tiles (d : Dev nD) (f : Buf (Elt F) (oLoc d)) :
    (oLoc d ↦{fullShare} f : sProp 𝕄) = bigSep Finset.univ fun c : Fin (grid0.bound 0) => bigSep Finset.univ fun i : Fin (grid0.bound 1) =>
      bigSep Finset.univ fun t : Fin 512 => oLoc d ↦[rowSet (tileRow (coordsV c i) t)]{fullShare} f := by
  rw [out_rows, bigSep_univ_bij tileRowOf tileRowOf_bijective, bigSep_univ_prod]
  refine bigSep_congr fun c _ => ?_
  rw [bigSep_univ_prod]
  rfl

/-! ## The tiles number the read tokens -/

/-- The token that the tile at (c, i) reads through. -/
def widOf (p : Fin (grid0.bound 0) × Fin (grid0.bound 1)) : Fin 32 := wid (coordsV p.1 p.2)

theorem widOf_val (p : Fin (grid0.bound 0) × Fin (grid0.bound 1)) : (widOf p).val = 2 * p.2.val + p.1.val := rfl

theorem widOf_bijective : Function.Bijective widOf := by
  constructor
  · rintro ⟨c, i⟩ ⟨c', i'⟩ h
    have hv := congrArg Fin.val h
    rw [widOf_val, widOf_val] at hv
    have hc : c.val < 2 := c.isLt
    have hc' : c'.val < 2 := c'.isLt
    simp only at hv
    have h1 : c.val = c'.val := by omega
    have h2 : i.val = i'.val := by omega
    rw [Fin.ext h1, Fin.ext h2]
  · intro w
    have hw := w.isLt
    refine ⟨(⟨w.val % 2, ?_⟩, ⟨w.val / 2, ?_⟩), ?_⟩
    · show w.val % 2 < 2; omega
    · show w.val / 2 < 16; omega
    · apply Fin.ext; rw [widOf_val]; simp only; omega

/-- A whole array splits into a remainder and one read token per tile. -/
theorem toks_tiles {ℓ : Loc nD τ sig} (f : Buf (Elt F) ℓ) :
    (ℓ ↦{fullShare} f : sProp 𝕄) ⊢ iprop((ℓ ↦{Transfers.shareDrop fullShare 32} f) ∗ bigSep Finset.univ fun c : Fin (grid0.bound 0) =>
      bigSep Finset.univ fun i : Fin (grid0.bound 1) => ℓ ↦{Transfers.shareTok fullShare 32 (wid (coordsV c i))} f) := by
  have hre : (bigSep Finset.univ fun c : Fin (grid0.bound 0) => bigSep Finset.univ fun i : Fin (grid0.bound 1) =>
        (ℓ ↦{Transfers.shareTok fullShare 32 (wid (coordsV c i))} f : sProp 𝕄))
      = bigSep Finset.univ fun w : Fin 32 => (ℓ ↦{Transfers.shareTok fullShare 32 w} f : sProp 𝕄) := by
    rw [bigSep_univ_bij widOf widOf_bijective, bigSep_univ_prod]
    rfl
  rw [hre]
  exact Transfers.pointsTo_toks_split fullShare 32

end Cert.Proof.KB.R1

end
-- ==== Proof.KBGeom2.lean ====
/-
  The geometry of the thirty-two tiles at one call. The result's 16384 rows are pairwise disjoint and cover it; the tile
  at grid coordinates (c, i) owns the rows 1024·i + 512·c + t for t < 512, and the triples (c, i, t) number the 16384
  rows exactly once (division and remainder by 1024 and 512). So the whole result is the separating conjunction, over
  the tiles, of each tile's 512 rows. Likewise the pairs (c, i) number the thirty-two read tokens of an array exactly
  once by 2·i + c, so a whole array splits into a remainder and one token per tile.
-/
import proofs.«218896_g85959475462175_cont_9to1_m_647_27_alg».proof.Proof.KBRes2

noncomputable section

namespace Cert.Proof.KB.R2

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

/-- A separating conjunction over a whole finite type may be taken along any bijection onto it. -/
theorem bigSep_univ_bij {M : Type} [URA M] {α β : Type} [Fintype α] [Fintype β] [DecidableEq α] [DecidableEq β]
    (e : α → β) (he : Function.Bijective e) (Φ : β → sProp M) :
    bigSep Finset.univ Φ = bigSep Finset.univ fun a => Φ (e a) := by
  rw [← Finset.image_univ_of_surjective he.2, SparseCore.bigSep_image_of_injOn (he.1.injOn)]

/-! ## The 16384 rows -/

theorem rowSet_eq (r : Fin 16384) : rowSet r = (row r).set := by
  show ((View.whole (outScv : Ref sig .scVector)).slice (row r)).set = _
  rw [View.set_slice]; exact Finset.map_refl

theorem rows_disjoint : ∀ r ∈ (Finset.univ : Finset (Fin 16384)), ∀ r' ∈ (Finset.univ : Finset (Fin 16384)), r ≠ r' → Disjoint (rowSet r) (rowSet r') :=
  fun r _ r' _ h => by rw [rowSet_eq, rowSet_eq]; exact Rect.part_disjoint hdiv h

theorem rows_cover : (Finset.univ : Finset (Fin 16384)).biUnion rowSet = Finset.univ :=
  (Finset.biUnion_congr rfl fun r _ => rowSet_eq r).trans (Rect.biUnion_part hdiv)

/-- The whole result is its 16384 rows. -/
theorem out_rows (d : Dev nD) (f : Buf (Elt F) (oLoc d)) :
    (oLoc d ↦{fullShare} f : sProp 𝕄) = bigSep Finset.univ fun r : Fin 16384 => oLoc d ↦[rowSet r]{fullShare} f := by
  rw [← pointsTo_biUnion Finset.univ (ℓ := oLoc d) rowSet rows_disjoint, rows_cover]; try rfl

/-! ## The tiles number the rows -/

/-- The row that the tile at (c, i) calls its `t`-th. -/
def tileRowOf (p : Fin (grid0.bound 0) × Fin (grid0.bound 1) × Fin 512) : Fin 16384 := tileRow (coordsV p.1 p.2.1) p.2.2

theorem tileRowOf_val (p : Fin (grid0.bound 0) × Fin (grid0.bound 1) × Fin 512) :
    (tileRowOf p).val = 1024 * p.2.1.val + 512 * p.1.val + p.2.2.val := rfl

theorem tileRowOf_bijective : Function.Bijective tileRowOf := by
  constructor
  · rintro ⟨c, i, t⟩ ⟨c', i', t'⟩ h
    have hv := congrArg Fin.val h
    rw [tileRowOf_val, tileRowOf_val] at hv
    have hc : c.val < 2 := c.isLt
    have hc' : c'.val < 2 := c'.isLt
    have hi : i.val < 16 := i.isLt
    have hi' : i'.val < 16 := i'.isLt
    have ht := t.isLt
    have ht' := t'.isLt
    simp only at hv
    have h1 : c.val = c'.val := by omega
    have h2 : i.val = i'.val := by omega
    have h3 : t.val = t'.val := by omega
    rw [Fin.ext h1, Fin.ext h2, Fin.ext h3]
  · intro r
    have hr := r.isLt
    refine ⟨(⟨(r.val % 1024) / 512, ?_⟩, ⟨r.val / 1024, ?_⟩, ⟨r.val % 512, ?_⟩), ?_⟩
    · show (r.val % 1024) / 512 < 2; omega
    · show r.val / 1024 < 16; omega
    · omega
    · apply Fin.ext; rw [tileRowOf_val]; simp only; omega

/-- The whole result is, tile by tile, each tile's 512 rows. -/
theorem out_tiles (d : Dev nD) (f : Buf (Elt F) (oLoc d)) :
    (oLoc d ↦{fullShare} f : sProp 𝕄) = bigSep Finset.univ fun c : Fin (grid0.bound 0) => bigSep Finset.univ fun i : Fin (grid0.bound 1) =>
      bigSep Finset.univ fun t : Fin 512 => oLoc d ↦[rowSet (tileRow (coordsV c i) t)]{fullShare} f := by
  rw [out_rows, bigSep_univ_bij tileRowOf tileRowOf_bijective, bigSep_univ_prod]
  refine bigSep_congr fun c _ => ?_
  rw [bigSep_univ_prod]
  rfl

/-! ## The tiles number the read tokens -/

/-- The token that the tile at (c, i) reads through. -/
def widOf (p : Fin (grid0.bound 0) × Fin (grid0.bound 1)) : Fin 32 := wid (coordsV p.1 p.2)

theorem widOf_val (p : Fin (grid0.bound 0) × Fin (grid0.bound 1)) : (widOf p).val = 2 * p.2.val + p.1.val := rfl

theorem widOf_bijective : Function.Bijective widOf := by
  constructor
  · rintro ⟨c, i⟩ ⟨c', i'⟩ h
    have hv := congrArg Fin.val h
    rw [widOf_val, widOf_val] at hv
    have hc : c.val < 2 := c.isLt
    have hc' : c'.val < 2 := c'.isLt
    simp only at hv
    have h1 : c.val = c'.val := by omega
    have h2 : i.val = i'.val := by omega
    rw [Fin.ext h1, Fin.ext h2]
  · intro w
    have hw := w.isLt
    refine ⟨(⟨w.val % 2, ?_⟩, ⟨w.val / 2, ?_⟩), ?_⟩
    · show w.val % 2 < 2; omega
    · show w.val / 2 < 16; omega
    · apply Fin.ext; rw [widOf_val]; simp only; omega

/-- A whole array splits into a remainder and one read token per tile. -/
theorem toks_tiles {ℓ : Loc nD τ sig} (f : Buf (Elt F) ℓ) :
    (ℓ ↦{fullShare} f : sProp 𝕄) ⊢ iprop((ℓ ↦{Transfers.shareDrop fullShare 32} f) ∗ bigSep Finset.univ fun c : Fin (grid0.bound 0) =>
      bigSep Finset.univ fun i : Fin (grid0.bound 1) => ℓ ↦{Transfers.shareTok fullShare 32 (wid (coordsV c i))} f) := by
  have hre : (bigSep Finset.univ fun c : Fin (grid0.bound 0) => bigSep Finset.univ fun i : Fin (grid0.bound 1) =>
        (ℓ ↦{Transfers.shareTok fullShare 32 (wid (coordsV c i))} f : sProp 𝕄))
      = bigSep Finset.univ fun w : Fin 32 => (ℓ ↦{Transfers.shareTok fullShare 32 w} f : sProp 𝕄) := by
    rw [bigSep_univ_bij widOf widOf_bijective, bigSep_univ_prod]
    rfl
  rw [hre]
  exact Transfers.pointsTo_toks_split fullShare 32

end Cert.Proof.KB.R2

end
-- ==== Proof.KBGeom3.lean ====
/-
  The geometry of the thirty-two tiles at one call. The result's 16384 rows are pairwise disjoint and cover it; the tile
  at grid coordinates (c, i) owns the rows 1024·i + 512·c + t for t < 512, and the triples (c, i, t) number the 16384
  rows exactly once (division and remainder by 1024 and 512). So the whole result is the separating conjunction, over
  the tiles, of each tile's 512 rows. Likewise the pairs (c, i) number the thirty-two read tokens of an array exactly
  once by 2·i + c, so a whole array splits into a remainder and one token per tile.
-/
import proofs.«218896_g85959475462175_cont_9to1_m_647_27_alg».proof.Proof.KBRes3

noncomputable section

namespace Cert.Proof.KB.R3

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

/-- A separating conjunction over a whole finite type may be taken along any bijection onto it. -/
theorem bigSep_univ_bij {M : Type} [URA M] {α β : Type} [Fintype α] [Fintype β] [DecidableEq α] [DecidableEq β]
    (e : α → β) (he : Function.Bijective e) (Φ : β → sProp M) :
    bigSep Finset.univ Φ = bigSep Finset.univ fun a => Φ (e a) := by
  rw [← Finset.image_univ_of_surjective he.2, SparseCore.bigSep_image_of_injOn (he.1.injOn)]

/-! ## The 16384 rows -/

theorem rowSet_eq (r : Fin 16384) : rowSet r = (row r).set := by
  show ((View.whole (outScv : Ref sig .scVector)).slice (row r)).set = _
  rw [View.set_slice]; exact Finset.map_refl

theorem rows_disjoint : ∀ r ∈ (Finset.univ : Finset (Fin 16384)), ∀ r' ∈ (Finset.univ : Finset (Fin 16384)), r ≠ r' → Disjoint (rowSet r) (rowSet r') :=
  fun r _ r' _ h => by rw [rowSet_eq, rowSet_eq]; exact Rect.part_disjoint hdiv h

theorem rows_cover : (Finset.univ : Finset (Fin 16384)).biUnion rowSet = Finset.univ :=
  (Finset.biUnion_congr rfl fun r _ => rowSet_eq r).trans (Rect.biUnion_part hdiv)

/-- The whole result is its 16384 rows. -/
theorem out_rows (d : Dev nD) (f : Buf (Elt F) (oLoc d)) :
    (oLoc d ↦{fullShare} f : sProp 𝕄) = bigSep Finset.univ fun r : Fin 16384 => oLoc d ↦[rowSet r]{fullShare} f := by
  rw [← pointsTo_biUnion Finset.univ (ℓ := oLoc d) rowSet rows_disjoint, rows_cover]; try rfl

/-! ## The tiles number the rows -/

/-- The row that the tile at (c, i) calls its `t`-th. -/
def tileRowOf (p : Fin (grid0.bound 0) × Fin (grid0.bound 1) × Fin 512) : Fin 16384 := tileRow (coordsV p.1 p.2.1) p.2.2

theorem tileRowOf_val (p : Fin (grid0.bound 0) × Fin (grid0.bound 1) × Fin 512) :
    (tileRowOf p).val = 1024 * p.2.1.val + 512 * p.1.val + p.2.2.val := rfl

theorem tileRowOf_bijective : Function.Bijective tileRowOf := by
  constructor
  · rintro ⟨c, i, t⟩ ⟨c', i', t'⟩ h
    have hv := congrArg Fin.val h
    rw [tileRowOf_val, tileRowOf_val] at hv
    have hc : c.val < 2 := c.isLt
    have hc' : c'.val < 2 := c'.isLt
    have hi : i.val < 16 := i.isLt
    have hi' : i'.val < 16 := i'.isLt
    have ht := t.isLt
    have ht' := t'.isLt
    simp only at hv
    have h1 : c.val = c'.val := by omega
    have h2 : i.val = i'.val := by omega
    have h3 : t.val = t'.val := by omega
    rw [Fin.ext h1, Fin.ext h2, Fin.ext h3]
  · intro r
    have hr := r.isLt
    refine ⟨(⟨(r.val % 1024) / 512, ?_⟩, ⟨r.val / 1024, ?_⟩, ⟨r.val % 512, ?_⟩), ?_⟩
    · show (r.val % 1024) / 512 < 2; omega
    · show r.val / 1024 < 16; omega
    · omega
    · apply Fin.ext; rw [tileRowOf_val]; simp only; omega

/-- The whole result is, tile by tile, each tile's 512 rows. -/
theorem out_tiles (d : Dev nD) (f : Buf (Elt F) (oLoc d)) :
    (oLoc d ↦{fullShare} f : sProp 𝕄) = bigSep Finset.univ fun c : Fin (grid0.bound 0) => bigSep Finset.univ fun i : Fin (grid0.bound 1) =>
      bigSep Finset.univ fun t : Fin 512 => oLoc d ↦[rowSet (tileRow (coordsV c i) t)]{fullShare} f := by
  rw [out_rows, bigSep_univ_bij tileRowOf tileRowOf_bijective, bigSep_univ_prod]
  refine bigSep_congr fun c _ => ?_
  rw [bigSep_univ_prod]
  rfl

/-! ## The tiles number the read tokens -/

/-- The token that the tile at (c, i) reads through. -/
def widOf (p : Fin (grid0.bound 0) × Fin (grid0.bound 1)) : Fin 32 := wid (coordsV p.1 p.2)

theorem widOf_val (p : Fin (grid0.bound 0) × Fin (grid0.bound 1)) : (widOf p).val = 2 * p.2.val + p.1.val := rfl

theorem widOf_bijective : Function.Bijective widOf := by
  constructor
  · rintro ⟨c, i⟩ ⟨c', i'⟩ h
    have hv := congrArg Fin.val h
    rw [widOf_val, widOf_val] at hv
    have hc : c.val < 2 := c.isLt
    have hc' : c'.val < 2 := c'.isLt
    simp only at hv
    have h1 : c.val = c'.val := by omega
    have h2 : i.val = i'.val := by omega
    rw [Fin.ext h1, Fin.ext h2]
  · intro w
    have hw := w.isLt
    refine ⟨(⟨w.val % 2, ?_⟩, ⟨w.val / 2, ?_⟩), ?_⟩
    · show w.val % 2 < 2; omega
    · show w.val / 2 < 16; omega
    · apply Fin.ext; rw [widOf_val]; simp only; omega

/-- A whole array splits into a remainder and one read token per tile. -/
theorem toks_tiles {ℓ : Loc nD τ sig} (f : Buf (Elt F) ℓ) :
    (ℓ ↦{fullShare} f : sProp 𝕄) ⊢ iprop((ℓ ↦{Transfers.shareDrop fullShare 32} f) ∗ bigSep Finset.univ fun c : Fin (grid0.bound 0) =>
      bigSep Finset.univ fun i : Fin (grid0.bound 1) => ℓ ↦{Transfers.shareTok fullShare 32 (wid (coordsV c i))} f) := by
  have hre : (bigSep Finset.univ fun c : Fin (grid0.bound 0) => bigSep Finset.univ fun i : Fin (grid0.bound 1) =>
        (ℓ ↦{Transfers.shareTok fullShare 32 (wid (coordsV c i))} f : sProp 𝕄))
      = bigSep Finset.univ fun w : Fin 32 => (ℓ ↦{Transfers.shareTok fullShare 32 w} f : sProp 𝕄) := by
    rw [bigSep_univ_bij widOf widOf_bijective, bigSep_univ_prod]
    rfl
  rw [hre]
  exact Transfers.pointsTo_toks_split fullShare 32

end Cert.Proof.KB.R3

end
-- ==== Proof.KBGeom4.lean ====
/-
  The geometry of the thirty-two tiles at one call. The result's 16384 rows are pairwise disjoint and cover it; the tile
  at grid coordinates (c, i) owns the rows 1024·i + 512·c + t for t < 512, and the triples (c, i, t) number the 16384
  rows exactly once (division and remainder by 1024 and 512). So the whole result is the separating conjunction, over
  the tiles, of each tile's 512 rows. Likewise the pairs (c, i) number the thirty-two read tokens of an array exactly
  once by 2·i + c, so a whole array splits into a remainder and one token per tile.
-/
import proofs.«218896_g85959475462175_cont_9to1_m_647_27_alg».proof.Proof.KBRes4

noncomputable section

namespace Cert.Proof.KB.R4

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

/-- A separating conjunction over a whole finite type may be taken along any bijection onto it. -/
theorem bigSep_univ_bij {M : Type} [URA M] {α β : Type} [Fintype α] [Fintype β] [DecidableEq α] [DecidableEq β]
    (e : α → β) (he : Function.Bijective e) (Φ : β → sProp M) :
    bigSep Finset.univ Φ = bigSep Finset.univ fun a => Φ (e a) := by
  rw [← Finset.image_univ_of_surjective he.2, SparseCore.bigSep_image_of_injOn (he.1.injOn)]

/-! ## The 16384 rows -/

theorem rowSet_eq (r : Fin 16384) : rowSet r = (row r).set := by
  show ((View.whole (outScv : Ref sig .scVector)).slice (row r)).set = _
  rw [View.set_slice]; exact Finset.map_refl

theorem rows_disjoint : ∀ r ∈ (Finset.univ : Finset (Fin 16384)), ∀ r' ∈ (Finset.univ : Finset (Fin 16384)), r ≠ r' → Disjoint (rowSet r) (rowSet r') :=
  fun r _ r' _ h => by rw [rowSet_eq, rowSet_eq]; exact Rect.part_disjoint hdiv h

theorem rows_cover : (Finset.univ : Finset (Fin 16384)).biUnion rowSet = Finset.univ :=
  (Finset.biUnion_congr rfl fun r _ => rowSet_eq r).trans (Rect.biUnion_part hdiv)

/-- The whole result is its 16384 rows. -/
theorem out_rows (d : Dev nD) (f : Buf (Elt F) (oLoc d)) :
    (oLoc d ↦{fullShare} f : sProp 𝕄) = bigSep Finset.univ fun r : Fin 16384 => oLoc d ↦[rowSet r]{fullShare} f := by
  rw [← pointsTo_biUnion Finset.univ (ℓ := oLoc d) rowSet rows_disjoint, rows_cover]; try rfl

/-! ## The tiles number the rows -/

/-- The row that the tile at (c, i) calls its `t`-th. -/
def tileRowOf (p : Fin (grid0.bound 0) × Fin (grid0.bound 1) × Fin 512) : Fin 16384 := tileRow (coordsV p.1 p.2.1) p.2.2

theorem tileRowOf_val (p : Fin (grid0.bound 0) × Fin (grid0.bound 1) × Fin 512) :
    (tileRowOf p).val = 1024 * p.2.1.val + 512 * p.1.val + p.2.2.val := rfl

theorem tileRowOf_bijective : Function.Bijective tileRowOf := by
  constructor
  · rintro ⟨c, i, t⟩ ⟨c', i', t'⟩ h
    have hv := congrArg Fin.val h
    rw [tileRowOf_val, tileRowOf_val] at hv
    have hc : c.val < 2 := c.isLt
    have hc' : c'.val < 2 := c'.isLt
    have hi : i.val < 16 := i.isLt
    have hi' : i'.val < 16 := i'.isLt
    have ht := t.isLt
    have ht' := t'.isLt
    simp only at hv
    have h1 : c.val = c'.val := by omega
    have h2 : i.val = i'.val := by omega
    have h3 : t.val = t'.val := by omega
    rw [Fin.ext h1, Fin.ext h2, Fin.ext h3]
  · intro r
    have hr := r.isLt
    refine ⟨(⟨(r.val % 1024) / 512, ?_⟩, ⟨r.val / 1024, ?_⟩, ⟨r.val % 512, ?_⟩), ?_⟩
    · show (r.val % 1024) / 512 < 2; omega
    · show r.val / 1024 < 16; omega
    · omega
    · apply Fin.ext; rw [tileRowOf_val]; simp only; omega

/-- The whole result is, tile by tile, each tile's 512 rows. -/
theorem out_tiles (d : Dev nD) (f : Buf (Elt F) (oLoc d)) :
    (oLoc d ↦{fullShare} f : sProp 𝕄) = bigSep Finset.univ fun c : Fin (grid0.bound 0) => bigSep Finset.univ fun i : Fin (grid0.bound 1) =>
      bigSep Finset.univ fun t : Fin 512 => oLoc d ↦[rowSet (tileRow (coordsV c i) t)]{fullShare} f := by
  rw [out_rows, bigSep_univ_bij tileRowOf tileRowOf_bijective, bigSep_univ_prod]
  refine bigSep_congr fun c _ => ?_
  rw [bigSep_univ_prod]
  rfl

/-! ## The tiles number the read tokens -/

/-- The token that the tile at (c, i) reads through. -/
def widOf (p : Fin (grid0.bound 0) × Fin (grid0.bound 1)) : Fin 32 := wid (coordsV p.1 p.2)

theorem widOf_val (p : Fin (grid0.bound 0) × Fin (grid0.bound 1)) : (widOf p).val = 2 * p.2.val + p.1.val := rfl

theorem widOf_bijective : Function.Bijective widOf := by
  constructor
  · rintro ⟨c, i⟩ ⟨c', i'⟩ h
    have hv := congrArg Fin.val h
    rw [widOf_val, widOf_val] at hv
    have hc : c.val < 2 := c.isLt
    have hc' : c'.val < 2 := c'.isLt
    simp only at hv
    have h1 : c.val = c'.val := by omega
    have h2 : i.val = i'.val := by omega
    rw [Fin.ext h1, Fin.ext h2]
  · intro w
    have hw := w.isLt
    refine ⟨(⟨w.val % 2, ?_⟩, ⟨w.val / 2, ?_⟩), ?_⟩
    · show w.val % 2 < 2; omega
    · show w.val / 2 < 16; omega
    · apply Fin.ext; rw [widOf_val]; simp only; omega

/-- A whole array splits into a remainder and one read token per tile. -/
theorem toks_tiles {ℓ : Loc nD τ sig} (f : Buf (Elt F) ℓ) :
    (ℓ ↦{fullShare} f : sProp 𝕄) ⊢ iprop((ℓ ↦{Transfers.shareDrop fullShare 32} f) ∗ bigSep Finset.univ fun c : Fin (grid0.bound 0) =>
      bigSep Finset.univ fun i : Fin (grid0.bound 1) => ℓ ↦{Transfers.shareTok fullShare 32 (wid (coordsV c i))} f) := by
  have hre : (bigSep Finset.univ fun c : Fin (grid0.bound 0) => bigSep Finset.univ fun i : Fin (grid0.bound 1) =>
        (ℓ ↦{Transfers.shareTok fullShare 32 (wid (coordsV c i))} f : sProp 𝕄))
      = bigSep Finset.univ fun w : Fin 32 => (ℓ ↦{Transfers.shareTok fullShare 32 w} f : sProp 𝕄) := by
    rw [bigSep_univ_bij widOf widOf_bijective, bigSep_univ_prod]
    rfl
  rw [hre]
  exact Transfers.pointsTo_toks_split fullShare 32

end Cert.Proof.KB.R4

end
-- ==== Proof.KBGeom5.lean ====
/-
  The geometry of the thirty-two tiles at one call. The result's 16384 rows are pairwise disjoint and cover it; the tile
  at grid coordinates (c, i) owns the rows 1024·i + 512·c + t for t < 512, and the triples (c, i, t) number the 16384
  rows exactly once (division and remainder by 1024 and 512). So the whole result is the separating conjunction, over
  the tiles, of each tile's 512 rows. Likewise the pairs (c, i) number the thirty-two read tokens of an array exactly
  once by 2·i + c, so a whole array splits into a remainder and one token per tile.
-/
import proofs.«218896_g85959475462175_cont_9to1_m_647_27_alg».proof.Proof.KBRes5

noncomputable section

namespace Cert.Proof.KB.R5

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

/-- A separating conjunction over a whole finite type may be taken along any bijection onto it. -/
theorem bigSep_univ_bij {M : Type} [URA M] {α β : Type} [Fintype α] [Fintype β] [DecidableEq α] [DecidableEq β]
    (e : α → β) (he : Function.Bijective e) (Φ : β → sProp M) :
    bigSep Finset.univ Φ = bigSep Finset.univ fun a => Φ (e a) := by
  rw [← Finset.image_univ_of_surjective he.2, SparseCore.bigSep_image_of_injOn (he.1.injOn)]

/-! ## The 16384 rows -/

theorem rowSet_eq (r : Fin 16384) : rowSet r = (row r).set := by
  show ((View.whole (outScv : Ref sig .scVector)).slice (row r)).set = _
  rw [View.set_slice]; exact Finset.map_refl

theorem rows_disjoint : ∀ r ∈ (Finset.univ : Finset (Fin 16384)), ∀ r' ∈ (Finset.univ : Finset (Fin 16384)), r ≠ r' → Disjoint (rowSet r) (rowSet r') :=
  fun r _ r' _ h => by rw [rowSet_eq, rowSet_eq]; exact Rect.part_disjoint hdiv h

theorem rows_cover : (Finset.univ : Finset (Fin 16384)).biUnion rowSet = Finset.univ :=
  (Finset.biUnion_congr rfl fun r _ => rowSet_eq r).trans (Rect.biUnion_part hdiv)

/-- The whole result is its 16384 rows. -/
theorem out_rows (d : Dev nD) (f : Buf (Elt F) (oLoc d)) :
    (oLoc d ↦{fullShare} f : sProp 𝕄) = bigSep Finset.univ fun r : Fin 16384 => oLoc d ↦[rowSet r]{fullShare} f := by
  rw [← pointsTo_biUnion Finset.univ (ℓ := oLoc d) rowSet rows_disjoint, rows_cover]; try rfl

/-! ## The tiles number the rows -/

/-- The row that the tile at (c, i) calls its `t`-th. -/
def tileRowOf (p : Fin (grid0.bound 0) × Fin (grid0.bound 1) × Fin 512) : Fin 16384 := tileRow (coordsV p.1 p.2.1) p.2.2

theorem tileRowOf_val (p : Fin (grid0.bound 0) × Fin (grid0.bound 1) × Fin 512) :
    (tileRowOf p).val = 1024 * p.2.1.val + 512 * p.1.val + p.2.2.val := rfl

theorem tileRowOf_bijective : Function.Bijective tileRowOf := by
  constructor
  · rintro ⟨c, i, t⟩ ⟨c', i', t'⟩ h
    have hv := congrArg Fin.val h
    rw [tileRowOf_val, tileRowOf_val] at hv
    have hc : c.val < 2 := c.isLt
    have hc' : c'.val < 2 := c'.isLt
    have hi : i.val < 16 := i.isLt
    have hi' : i'.val < 16 := i'.isLt
    have ht := t.isLt
    have ht' := t'.isLt
    simp only at hv
    have h1 : c.val = c'.val := by omega
    have h2 : i.val = i'.val := by omega
    have h3 : t.val = t'.val := by omega
    rw [Fin.ext h1, Fin.ext h2, Fin.ext h3]
  · intro r
    have hr := r.isLt
    refine ⟨(⟨(r.val % 1024) / 512, ?_⟩, ⟨r.val / 1024, ?_⟩, ⟨r.val % 512, ?_⟩), ?_⟩
    · show (r.val % 1024) / 512 < 2; omega
    · show r.val / 1024 < 16; omega
    · omega
    · apply Fin.ext; rw [tileRowOf_val]; simp only; omega

/-- The whole result is, tile by tile, each tile's 512 rows. -/
theorem out_tiles (d : Dev nD) (f : Buf (Elt F) (oLoc d)) :
    (oLoc d ↦{fullShare} f : sProp 𝕄) = bigSep Finset.univ fun c : Fin (grid0.bound 0) => bigSep Finset.univ fun i : Fin (grid0.bound 1) =>
      bigSep Finset.univ fun t : Fin 512 => oLoc d ↦[rowSet (tileRow (coordsV c i) t)]{fullShare} f := by
  rw [out_rows, bigSep_univ_bij tileRowOf tileRowOf_bijective, bigSep_univ_prod]
  refine bigSep_congr fun c _ => ?_
  rw [bigSep_univ_prod]
  rfl

/-! ## The tiles number the read tokens -/

/-- The token that the tile at (c, i) reads through. -/
def widOf (p : Fin (grid0.bound 0) × Fin (grid0.bound 1)) : Fin 32 := wid (coordsV p.1 p.2)

theorem widOf_val (p : Fin (grid0.bound 0) × Fin (grid0.bound 1)) : (widOf p).val = 2 * p.2.val + p.1.val := rfl

theorem widOf_bijective : Function.Bijective widOf := by
  constructor
  · rintro ⟨c, i⟩ ⟨c', i'⟩ h
    have hv := congrArg Fin.val h
    rw [widOf_val, widOf_val] at hv
    have hc : c.val < 2 := c.isLt
    have hc' : c'.val < 2 := c'.isLt
    simp only at hv
    have h1 : c.val = c'.val := by omega
    have h2 : i.val = i'.val := by omega
    rw [Fin.ext h1, Fin.ext h2]
  · intro w
    have hw := w.isLt
    refine ⟨(⟨w.val % 2, ?_⟩, ⟨w.val / 2, ?_⟩), ?_⟩
    · show w.val % 2 < 2; omega
    · show w.val / 2 < 16; omega
    · apply Fin.ext; rw [widOf_val]; simp only; omega

/-- A whole array splits into a remainder and one read token per tile. -/
theorem toks_tiles {ℓ : Loc nD τ sig} (f : Buf (Elt F) ℓ) :
    (ℓ ↦{fullShare} f : sProp 𝕄) ⊢ iprop((ℓ ↦{Transfers.shareDrop fullShare 32} f) ∗ bigSep Finset.univ fun c : Fin (grid0.bound 0) =>
      bigSep Finset.univ fun i : Fin (grid0.bound 1) => ℓ ↦{Transfers.shareTok fullShare 32 (wid (coordsV c i))} f) := by
  have hre : (bigSep Finset.univ fun c : Fin (grid0.bound 0) => bigSep Finset.univ fun i : Fin (grid0.bound 1) =>
        (ℓ ↦{Transfers.shareTok fullShare 32 (wid (coordsV c i))} f : sProp 𝕄))
      = bigSep Finset.univ fun w : Fin 32 => (ℓ ↦{Transfers.shareTok fullShare 32 w} f : sProp 𝕄) := by
    rw [bigSep_univ_bij widOf widOf_bijective, bigSep_univ_prod]
    rfl
  rw [hre]
  exact Transfers.pointsTo_toks_split fullShare 32

end Cert.Proof.KB.R5

end
-- ==== Proof.KBGeom6.lean ====
/-
  The geometry of the thirty-two tiles at one call. The result's 16384 rows are pairwise disjoint and cover it; the tile
  at grid coordinates (c, i) owns the rows 1024·i + 512·c + t for t < 512, and the triples (c, i, t) number the 16384
  rows exactly once (division and remainder by 1024 and 512). So the whole result is the separating conjunction, over
  the tiles, of each tile's 512 rows. Likewise the pairs (c, i) number the thirty-two read tokens of an array exactly
  once by 2·i + c, so a whole array splits into a remainder and one token per tile.
-/
import proofs.«218896_g85959475462175_cont_9to1_m_647_27_alg».proof.Proof.KBRes6

noncomputable section

namespace Cert.Proof.KB.R6

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

/-- A separating conjunction over a whole finite type may be taken along any bijection onto it. -/
theorem bigSep_univ_bij {M : Type} [URA M] {α β : Type} [Fintype α] [Fintype β] [DecidableEq α] [DecidableEq β]
    (e : α → β) (he : Function.Bijective e) (Φ : β → sProp M) :
    bigSep Finset.univ Φ = bigSep Finset.univ fun a => Φ (e a) := by
  rw [← Finset.image_univ_of_surjective he.2, SparseCore.bigSep_image_of_injOn (he.1.injOn)]

/-! ## The 16384 rows -/

theorem rowSet_eq (r : Fin 16384) : rowSet r = (row r).set := by
  show ((View.whole (outScv : Ref sig .scVector)).slice (row r)).set = _
  rw [View.set_slice]; exact Finset.map_refl

theorem rows_disjoint : ∀ r ∈ (Finset.univ : Finset (Fin 16384)), ∀ r' ∈ (Finset.univ : Finset (Fin 16384)), r ≠ r' → Disjoint (rowSet r) (rowSet r') :=
  fun r _ r' _ h => by rw [rowSet_eq, rowSet_eq]; exact Rect.part_disjoint hdiv h

theorem rows_cover : (Finset.univ : Finset (Fin 16384)).biUnion rowSet = Finset.univ :=
  (Finset.biUnion_congr rfl fun r _ => rowSet_eq r).trans (Rect.biUnion_part hdiv)

/-- The whole result is its 16384 rows. -/
theorem out_rows (d : Dev nD) (f : Buf (Elt F) (oLoc d)) :
    (oLoc d ↦{fullShare} f : sProp 𝕄) = bigSep Finset.univ fun r : Fin 16384 => oLoc d ↦[rowSet r]{fullShare} f := by
  rw [← pointsTo_biUnion Finset.univ (ℓ := oLoc d) rowSet rows_disjoint, rows_cover]; try rfl

/-! ## The tiles number the rows -/

/-- The row that the tile at (c, i) calls its `t`-th. -/
def tileRowOf (p : Fin (grid0.bound 0) × Fin (grid0.bound 1) × Fin 512) : Fin 16384 := tileRow (coordsV p.1 p.2.1) p.2.2

theorem tileRowOf_val (p : Fin (grid0.bound 0) × Fin (grid0.bound 1) × Fin 512) :
    (tileRowOf p).val = 1024 * p.2.1.val + 512 * p.1.val + p.2.2.val := rfl

theorem tileRowOf_bijective : Function.Bijective tileRowOf := by
  constructor
  · rintro ⟨c, i, t⟩ ⟨c', i', t'⟩ h
    have hv := congrArg Fin.val h
    rw [tileRowOf_val, tileRowOf_val] at hv
    have hc : c.val < 2 := c.isLt
    have hc' : c'.val < 2 := c'.isLt
    have hi : i.val < 16 := i.isLt
    have hi' : i'.val < 16 := i'.isLt
    have ht := t.isLt
    have ht' := t'.isLt
    simp only at hv
    have h1 : c.val = c'.val := by omega
    have h2 : i.val = i'.val := by omega
    have h3 : t.val = t'.val := by omega
    rw [Fin.ext h1, Fin.ext h2, Fin.ext h3]
  · intro r
    have hr := r.isLt
    refine ⟨(⟨(r.val % 1024) / 512, ?_⟩, ⟨r.val / 1024, ?_⟩, ⟨r.val % 512, ?_⟩), ?_⟩
    · show (r.val % 1024) / 512 < 2; omega
    · show r.val / 1024 < 16; omega
    · omega
    · apply Fin.ext; rw [tileRowOf_val]; simp only; omega

/-- The whole result is, tile by tile, each tile's 512 rows. -/
theorem out_tiles (d : Dev nD) (f : Buf (Elt F) (oLoc d)) :
    (oLoc d ↦{fullShare} f : sProp 𝕄) = bigSep Finset.univ fun c : Fin (grid0.bound 0) => bigSep Finset.univ fun i : Fin (grid0.bound 1) =>
      bigSep Finset.univ fun t : Fin 512 => oLoc d ↦[rowSet (tileRow (coordsV c i) t)]{fullShare} f := by
  rw [out_rows, bigSep_univ_bij tileRowOf tileRowOf_bijective, bigSep_univ_prod]
  refine bigSep_congr fun c _ => ?_
  rw [bigSep_univ_prod]
  rfl

/-! ## The tiles number the read tokens -/

/-- The token that the tile at (c, i) reads through. -/
def widOf (p : Fin (grid0.bound 0) × Fin (grid0.bound 1)) : Fin 32 := wid (coordsV p.1 p.2)

theorem widOf_val (p : Fin (grid0.bound 0) × Fin (grid0.bound 1)) : (widOf p).val = 2 * p.2.val + p.1.val := rfl

theorem widOf_bijective : Function.Bijective widOf := by
  constructor
  · rintro ⟨c, i⟩ ⟨c', i'⟩ h
    have hv := congrArg Fin.val h
    rw [widOf_val, widOf_val] at hv
    have hc : c.val < 2 := c.isLt
    have hc' : c'.val < 2 := c'.isLt
    simp only at hv
    have h1 : c.val = c'.val := by omega
    have h2 : i.val = i'.val := by omega
    rw [Fin.ext h1, Fin.ext h2]
  · intro w
    have hw := w.isLt
    refine ⟨(⟨w.val % 2, ?_⟩, ⟨w.val / 2, ?_⟩), ?_⟩
    · show w.val % 2 < 2; omega
    · show w.val / 2 < 16; omega
    · apply Fin.ext; rw [widOf_val]; simp only; omega

/-- A whole array splits into a remainder and one read token per tile. -/
theorem toks_tiles {ℓ : Loc nD τ sig} (f : Buf (Elt F) ℓ) :
    (ℓ ↦{fullShare} f : sProp 𝕄) ⊢ iprop((ℓ ↦{Transfers.shareDrop fullShare 32} f) ∗ bigSep Finset.univ fun c : Fin (grid0.bound 0) =>
      bigSep Finset.univ fun i : Fin (grid0.bound 1) => ℓ ↦{Transfers.shareTok fullShare 32 (wid (coordsV c i))} f) := by
  have hre : (bigSep Finset.univ fun c : Fin (grid0.bound 0) => bigSep Finset.univ fun i : Fin (grid0.bound 1) =>
        (ℓ ↦{Transfers.shareTok fullShare 32 (wid (coordsV c i))} f : sProp 𝕄))
      = bigSep Finset.univ fun w : Fin 32 => (ℓ ↦{Transfers.shareTok fullShare 32 w} f : sProp 𝕄) := by
    rw [bigSep_univ_bij widOf widOf_bijective, bigSep_univ_prod]
    rfl
  rw [hre]
  exact Transfers.pointsTo_toks_split fullShare 32

end Cert.Proof.KB.R6

end
-- ==== Proof.KBGeom7.lean ====
/-
  The geometry of the thirty-two tiles at one call. The result's 16384 rows are pairwise disjoint and cover it; the tile
  at grid coordinates (c, i) owns the rows 1024·i + 512·c + t for t < 512, and the triples (c, i, t) number the 16384
  rows exactly once (division and remainder by 1024 and 512). So the whole result is the separating conjunction, over
  the tiles, of each tile's 512 rows. Likewise the pairs (c, i) number the thirty-two read tokens of an array exactly
  once by 2·i + c, so a whole array splits into a remainder and one token per tile.
-/
import proofs.«218896_g85959475462175_cont_9to1_m_647_27_alg».proof.Proof.KBRes7

noncomputable section

namespace Cert.Proof.KB.R7

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

/-- A separating conjunction over a whole finite type may be taken along any bijection onto it. -/
theorem bigSep_univ_bij {M : Type} [URA M] {α β : Type} [Fintype α] [Fintype β] [DecidableEq α] [DecidableEq β]
    (e : α → β) (he : Function.Bijective e) (Φ : β → sProp M) :
    bigSep Finset.univ Φ = bigSep Finset.univ fun a => Φ (e a) := by
  rw [← Finset.image_univ_of_surjective he.2, SparseCore.bigSep_image_of_injOn (he.1.injOn)]

/-! ## The 16384 rows -/

theorem rowSet_eq (r : Fin 16384) : rowSet r = (row r).set := by
  show ((View.whole (outScv : Ref sig .scVector)).slice (row r)).set = _
  rw [View.set_slice]; exact Finset.map_refl

theorem rows_disjoint : ∀ r ∈ (Finset.univ : Finset (Fin 16384)), ∀ r' ∈ (Finset.univ : Finset (Fin 16384)), r ≠ r' → Disjoint (rowSet r) (rowSet r') :=
  fun r _ r' _ h => by rw [rowSet_eq, rowSet_eq]; exact Rect.part_disjoint hdiv h

theorem rows_cover : (Finset.univ : Finset (Fin 16384)).biUnion rowSet = Finset.univ :=
  (Finset.biUnion_congr rfl fun r _ => rowSet_eq r).trans (Rect.biUnion_part hdiv)

/-- The whole result is its 16384 rows. -/
theorem out_rows (d : Dev nD) (f : Buf (Elt F) (oLoc d)) :
    (oLoc d ↦{fullShare} f : sProp 𝕄) = bigSep Finset.univ fun r : Fin 16384 => oLoc d ↦[rowSet r]{fullShare} f := by
  rw [← pointsTo_biUnion Finset.univ (ℓ := oLoc d) rowSet rows_disjoint, rows_cover]; try rfl

/-! ## The tiles number the rows -/

/-- The row that the tile at (c, i) calls its `t`-th. -/
def tileRowOf (p : Fin (grid0.bound 0) × Fin (grid0.bound 1) × Fin 512) : Fin 16384 := tileRow (coordsV p.1 p.2.1) p.2.2

theorem tileRowOf_val (p : Fin (grid0.bound 0) × Fin (grid0.bound 1) × Fin 512) :
    (tileRowOf p).val = 1024 * p.2.1.val + 512 * p.1.val + p.2.2.val := rfl

theorem tileRowOf_bijective : Function.Bijective tileRowOf := by
  constructor
  · rintro ⟨c, i, t⟩ ⟨c', i', t'⟩ h
    have hv := congrArg Fin.val h
    rw [tileRowOf_val, tileRowOf_val] at hv
    have hc : c.val < 2 := c.isLt
    have hc' : c'.val < 2 := c'.isLt
    have hi : i.val < 16 := i.isLt
    have hi' : i'.val < 16 := i'.isLt
    have ht := t.isLt
    have ht' := t'.isLt
    simp only at hv
    have h1 : c.val = c'.val := by omega
    have h2 : i.val = i'.val := by omega
    have h3 : t.val = t'.val := by omega
    rw [Fin.ext h1, Fin.ext h2, Fin.ext h3]
  · intro r
    have hr := r.isLt
    refine ⟨(⟨(r.val % 1024) / 512, ?_⟩, ⟨r.val / 1024, ?_⟩, ⟨r.val % 512, ?_⟩), ?_⟩
    · show (r.val % 1024) / 512 < 2; omega
    · show r.val / 1024 < 16; omega
    · omega
    · apply Fin.ext; rw [tileRowOf_val]; simp only; omega

/-- The whole result is, tile by tile, each tile's 512 rows. -/
theorem out_tiles (d : Dev nD) (f : Buf (Elt F) (oLoc d)) :
    (oLoc d ↦{fullShare} f : sProp 𝕄) = bigSep Finset.univ fun c : Fin (grid0.bound 0) => bigSep Finset.univ fun i : Fin (grid0.bound 1) =>
      bigSep Finset.univ fun t : Fin 512 => oLoc d ↦[rowSet (tileRow (coordsV c i) t)]{fullShare} f := by
  rw [out_rows, bigSep_univ_bij tileRowOf tileRowOf_bijective, bigSep_univ_prod]
  refine bigSep_congr fun c _ => ?_
  rw [bigSep_univ_prod]
  rfl

/-! ## The tiles number the read tokens -/

/-- The token that the tile at (c, i) reads through. -/
def widOf (p : Fin (grid0.bound 0) × Fin (grid0.bound 1)) : Fin 32 := wid (coordsV p.1 p.2)

theorem widOf_val (p : Fin (grid0.bound 0) × Fin (grid0.bound 1)) : (widOf p).val = 2 * p.2.val + p.1.val := rfl

theorem widOf_bijective : Function.Bijective widOf := by
  constructor
  · rintro ⟨c, i⟩ ⟨c', i'⟩ h
    have hv := congrArg Fin.val h
    rw [widOf_val, widOf_val] at hv
    have hc : c.val < 2 := c.isLt
    have hc' : c'.val < 2 := c'.isLt
    simp only at hv
    have h1 : c.val = c'.val := by omega
    have h2 : i.val = i'.val := by omega
    rw [Fin.ext h1, Fin.ext h2]
  · intro w
    have hw := w.isLt
    refine ⟨(⟨w.val % 2, ?_⟩, ⟨w.val / 2, ?_⟩), ?_⟩
    · show w.val % 2 < 2; omega
    · show w.val / 2 < 16; omega
    · apply Fin.ext; rw [widOf_val]; simp only; omega

/-- A whole array splits into a remainder and one read token per tile. -/
theorem toks_tiles {ℓ : Loc nD τ sig} (f : Buf (Elt F) ℓ) :
    (ℓ ↦{fullShare} f : sProp 𝕄) ⊢ iprop((ℓ ↦{Transfers.shareDrop fullShare 32} f) ∗ bigSep Finset.univ fun c : Fin (grid0.bound 0) =>
      bigSep Finset.univ fun i : Fin (grid0.bound 1) => ℓ ↦{Transfers.shareTok fullShare 32 (wid (coordsV c i))} f) := by
  have hre : (bigSep Finset.univ fun c : Fin (grid0.bound 0) => bigSep Finset.univ fun i : Fin (grid0.bound 1) =>
        (ℓ ↦{Transfers.shareTok fullShare 32 (wid (coordsV c i))} f : sProp 𝕄))
      = bigSep Finset.univ fun w : Fin 32 => (ℓ ↦{Transfers.shareTok fullShare 32 w} f : sProp 𝕄) := by
    rw [bigSep_univ_bij widOf widOf_bijective, bigSep_univ_prod]
    rfl
  rw [hre]
  exact Transfers.pointsTo_toks_split fullShare 32

end Cert.Proof.KB.R7

end
-- ==== Proof.KBLaunch.lean ====
/-
  The launch of the kernel's program: @main on the TensorCore is the eight calls in turn. Before a call the
  TensorCore splits the call's table and index array into a kept remainder and one read token per tile, and the call's
  result into the tiles' rows; after it the tiles' rows, each holding a restriction of the one whole-array lookup, join
  into the result whole at the lookup's value (the tiles' read tokens are not handed back: the kept remainders are
  enough to read the arguments in the final memory against the launch memory). The handshakes' ghost state stands
  beside the counters of the tiles' own copies, which the launch element leaves untouched.
-/
import proofs.«218896_g85959475462175_cont_9to1_m_647_27_alg».proof.Proof.KBPay
import proofs.«218896_g85959475462175_cont_9to1_m_647_27_alg».proof.Proof.KBGeom0
import proofs.«218896_g85959475462175_cont_9to1_m_647_27_alg».proof.Proof.KBGeom1
import proofs.«218896_g85959475462175_cont_9to1_m_647_27_alg».proof.Proof.KBGeom2
import proofs.«218896_g85959475462175_cont_9to1_m_647_27_alg».proof.Proof.KBGeom3
import proofs.«218896_g85959475462175_cont_9to1_m_647_27_alg».proof.Proof.KBGeom4
import proofs.«218896_g85959475462175_cont_9to1_m_647_27_alg».proof.Proof.KBGeom5
import proofs.«218896_g85959475462175_cont_9to1_m_647_27_alg».proof.Proof.KBGeom6
import proofs.«218896_g85959475462175_cont_9to1_m_647_27_alg».proof.Proof.KBGeom7

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 8) (Elt F) ℕ UU ℕ

variable (m : (ℓ : Loc nD τ sig) → Buf (Elt F) ℓ) (ρ : Dev nD → PrngReg)

/-! ## The launch element: the handshakes' rounds; nothing of the calls' own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 8 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 8 => (iprop(emp) : sProp 𝕄)) = iprop(emp) from by
    rw [bigSep_congr fun _ _ => bigSep_emp' _, bigSep_emp']]
  iempintro

/-! ## Regrouping, and reading a whole array off the final memory -/

/-- A doubly indexed separating conjunction of triples is the three doubly indexed conjunctions. -/
theorem regroup3 {M : Type} [URA M] {α β : Type} (s : Finset α) (t : Finset β) (A B C : α → β → sProp M) :
    (bigSep s fun a => bigSep t fun b => iprop(A a b ∗ B a b ∗ C a b))
      = iprop((bigSep s fun a => bigSep t fun b => A a b) ∗ (bigSep s fun a => bigSep t fun b => B a b) ∗ (bigSep s fun a => bigSep t fun b => C a b)) := by
  rw [bigSep_congr (fun a _ => (by rw [bigSep_sep', bigSep_sep'] :
      (bigSep t fun b => iprop(A a b ∗ B a b ∗ C a b)) = iprop((bigSep t fun b => A a b) ∗ (bigSep t fun b => B a b) ∗ (bigSep t fun b => C a b)))),
    bigSep_sep', bigSep_sep']

/-- Under the state interpretation a whole array held at any share pins the array in the memory. -/
theorem agree_whole {ℓ : Loc nD τ sig} {q : PosShare TreeShare} {f : Buf (Elt F) ℓ} (s' : Phys nD τ sig (Elt F)) :
    iprop(SI s' ∗ ℓ ↦{q} f) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := q) (f := f))) $$ [HSI Hp]
  · isplitl [HSI] <;> iassumption
  icases H with ⟨%h, HSI, -⟩
  isplitr
  · ipureintro; exact funext fun i => h i (Finset.mem_univ i)
  · iexact HSI

/-! ## The tiles of a call's grid, as grid coordinates -/

/-- A separating conjunction over `Fin n` may be taken over `Fin n'` when `n = n'`. -/
theorem bigSep_fin_cast {M : Type} [URA M] {n n' : ℕ} (h : n = n') (Φ : Fin n → sProp M) :
    bigSep Finset.univ Φ = bigSep Finset.univ fun c : Fin n' => Φ (Fin.cast h.symm c) := by
  subst h; rfl

/-- Over the tiles of call `q`'s grid, a family of the tile's grid coordinates is the family over the two SparseCores
    and their sixteen tiles. -/
theorem bigSep_tiles (q : Fin 8) (Φ : grid0.Coords → sProp 𝕄) :
    (bigSep Finset.univ fun c : Fin ((K (F := F)).nCore q) => bigSep Finset.univ fun i : Fin ((K (F := F)).nSub q) => Φ (LQ q c i))
      = bigSep Finset.univ fun c : Fin (grid0.bound 0) => bigSep Finset.univ fun i : Fin (grid0.bound 1) => Φ (coordsV c i) := by
  rw [bigSep_fin_cast (nCore_eq (F := F) q)]
  refine bigSep_congr fun c _ => ?_
  rw [bigSep_fin_cast (nSub_eq (F := F) q)]
  rfl

/-! ## The eight calls -/

/-! ### Call 0 -/

/-- What call 0 leaves the claim: the kept remainders of its table and index array, its result whole at the lookup's value. -/
def fin0 (d : Dev nD) : sProp 𝕄 :=
  iprop((R0.tLoc d ↦{Transfers.shareDrop fullShare 32} m (R0.tLoc d)) ∗ (R0.iLoc d ↦{Transfers.shareDrop fullShare 32} m (R0.iLoc d))
    ∗ (R0.oLoc d ↦{fullShare} R0.G m d))

theorem goAt_0 (d : Dev nD) (L : grid0.Coords) : goAt m 0 d L = R0.go m d L := rfl
theorem tdAt_0 (d : Dev nD) (L : grid0.Coords) : tdAt m 0 d L = R0.td m d L := rfl

theorem st0_eq (d : Dev nD) :
    (bigSep Finset.univ fun c : Fin ((K (F := F)).nCore 0) => (P m).st 0 d c)
      = bigSep Finset.univ fun c : Fin (grid0.bound 0) => bigSep Finset.univ fun i : Fin (grid0.bound 1) => R0.go m d (coordsV c i) := by
  simp only [P_st, P_go, goAt_0]
  exact bigSep_tiles 0 (fun L => R0.go m d L)

theorem dn0_eq (d : Dev nD) :
    (bigSep Finset.univ fun c : Fin ((K (F := F)).nCore 0) => (P m).dn 0 d c)
      = bigSep Finset.univ fun c : Fin (grid0.bound 0) => bigSep Finset.univ fun i : Fin (grid0.bound 1) => R0.td m d (coordsV c i) := by
  simp only [P_dn, P_td, tdAt_0]
  exact bigSep_tiles 0 (fun L => R0.td m d L)

/-- Before the call: the table and the index array each split into a kept remainder and the tiles' read tokens, the
    result into the tiles' rows; regrouped tile by tile, that is what the call's SparseCores are handed. -/
theorem st0_intro (d : Dev nD) :
    iprop((R0.tLoc d ↦{fullShare} m (R0.tLoc d)) ∗ (R0.iLoc d ↦{fullShare} m (R0.iLoc d)) ∗ (R0.oLoc d ↦{fullShare} m (R0.oLoc d)))
      ⊢ iprop(((R0.tLoc d ↦{Transfers.shareDrop fullShare 32} m (R0.tLoc d)) ∗ (R0.iLoc d ↦{Transfers.shareDrop fullShare 32} m (R0.iLoc d)))
          ∗ bigSep Finset.univ fun c : Fin ((K (F := F)).nCore 0) => (P m).st 0 d c) := by
  rw [st0_eq]; unfold R0.go
  rw [regroup3, ← R0.out_tiles]
  iintro ⟨Ht, Hi, Ho⟩
  ihave Ht' := (R0.toks_tiles (m (R0.tLoc d))) $$ Ht
  icases Ht' with ⟨Htd, Htt⟩
  ihave Hi' := (R0.toks_tiles (m (R0.iLoc d))) $$ Hi
  icases Hi' with ⟨Hid, Hit⟩
  isplitl [Htd Hid]
  · isplitl [Htd] <;> iassumption
  isplitl [Htt]; · iexact Htt
  isplitl [Hit]; · iexact Hit
  iexact Ho

/-- After it: the tiles' rows, each a restriction of the one whole-array function, are the result whole at that function. -/
theorem dn0_elim (d : Dev nD) :
    (bigSep Finset.univ fun c : Fin ((K (F := F)).nCore 0) => (P m).dn 0 d c) ⊢ (R0.oLoc d ↦{fullShare} R0.G m d : sProp 𝕄) := by
  rw [dn0_eq]; unfold R0.td
  rw [← R0.out_tiles]

variable [FloatOps F] in
/-- The TensorCore at call 0: from the call's three arrays whole at the launch memory to `fin0`. -/
theorem call0 (κ : GSem nD τ sig → ℕ) (d : Dev nD) (Φ : PUnit → sProp 𝕄) :
    iprop((K (F := F)).ctx EH (P m) κ ∗ (K (F := F)).tcSt EH d 0
        ∗ ((R0.tLoc d ↦{fullShare} m (R0.tLoc d)) ∗ (R0.iLoc d ↦{fullShare} m (R0.iLoc d)) ∗ (R0.oLoc d ↦{fullShare} m (R0.oLoc d)))
        ∗ (((K (F := F)).tcSt EH d 1 ∗ fin0 m d) -∗ Φ ⟨⟩))
      ⊢ wp frame (wpE ((K (F := F)).defs (D (F := F))) 𝒱 (SparseCore.T d) none) Set.univ ((K (F := F)).run d 0) Φ := by
  iintro ⟨#Hctx, Hst, Hb, Hk⟩
  ihave Hb' := (st0_intro m d) $$ Hb
  icases Hb' with ⟨⟨Htd, Hid⟩, Hgo⟩
  iapply ((K (F := F)).wp_run (D (F := F)) 𝒱 (EH := EH) (P := P m) κ d 0) $$ [Hst Hgo Hk Htd Hid]
  isplitr; · iexact Hctx
  isplitl [Hst]; · iexact Hst
  isplitl [Hgo]; · iexact Hgo
  iintro ⟨Hst, Hdn⟩
  iapply Hk
  isplitl [Hst]; · iexact Hst
  unfold fin0
  isplitl [Htd]; · iexact Htd
  isplitl [Hid]; · iexact Hid
  iapply (dn0_elim m d); iexact Hdn

/-- Under the state interpretation, what call 0 leaves pins its result, its table and its index array in the final memory. -/
theorem fin0_agree (d : Dev nD) (s' : Phys nD τ sig (Elt F)) :
    iprop(fin0 m d ∗ SI s') ⊢ (iprop(⌜s'.mem.mem (R0.oLoc d) = R0.G m d ∧ s'.mem.mem (R0.tLoc d) = m (R0.tLoc d) ∧ s'.mem.mem (R0.iLoc d) = m (R0.iLoc d)⌝ ∗ SI s') : sProp 𝕄) := by
  unfold fin0
  iintro ⟨⟨Ht, Hi, Ho⟩, HSI⟩
  ihave H := (agree_whole s') $$ [HSI Ht]
  · isplitl [HSI] <;> iassumption
  icases H with ⟨%ht, HSI⟩
  ihave H := (agree_whole s') $$ [HSI Hi]
  · isplitl [HSI] <;> iassumption
  icases H with ⟨%hi, HSI⟩
  ihave H := (agree_whole s') $$ [HSI Ho]
  · isplitl [HSI] <;> iassumption
  icases H with ⟨%ho, HSI⟩
  isplitr
  · ipureintro; exact ⟨ho, ht, hi⟩
  · iexact HSI

/-! ### Call 1 -/

/-- What call 1 leaves the claim: the kept remainders of its table and index array, its result whole at the lookup's value. -/
def fin1 (d : Dev nD) : sProp 𝕄 :=
  iprop((R1.tLoc d ↦{Transfers.shareDrop fullShare 32} m (R1.tLoc d)) ∗ (R1.iLoc d ↦{Transfers.shareDrop fullShare 32} m (R1.iLoc d))
    ∗ (R1.oLoc d ↦{fullShare} R1.G m d))

theorem goAt_1 (d : Dev nD) (L : grid0.Coords) : goAt m 1 d L = R1.go m d L := rfl
theorem tdAt_1 (d : Dev nD) (L : grid0.Coords) : tdAt m 1 d L = R1.td m d L := rfl

theorem st1_eq (d : Dev nD) :
    (bigSep Finset.univ fun c : Fin ((K (F := F)).nCore 1) => (P m).st 1 d c)
      = bigSep Finset.univ fun c : Fin (grid0.bound 0) => bigSep Finset.univ fun i : Fin (grid0.bound 1) => R1.go m d (coordsV c i) := by
  simp only [P_st, P_go, goAt_1]
  exact bigSep_tiles 1 (fun L => R1.go m d L)

theorem dn1_eq (d : Dev nD) :
    (bigSep Finset.univ fun c : Fin ((K (F := F)).nCore 1) => (P m).dn 1 d c)
      = bigSep Finset.univ fun c : Fin (grid0.bound 0) => bigSep Finset.univ fun i : Fin (grid0.bound 1) => R1.td m d (coordsV c i) := by
  simp only [P_dn, P_td, tdAt_1]
  exact bigSep_tiles 1 (fun L => R1.td m d L)

/-- Before the call: the table and the index array each split into a kept remainder and the tiles' read tokens, the
    result into the tiles' rows; regrouped tile by tile, that is what the call's SparseCores are handed. -/
theorem st1_intro (d : Dev nD) :
    iprop((R1.tLoc d ↦{fullShare} m (R1.tLoc d)) ∗ (R1.iLoc d ↦{fullShare} m (R1.iLoc d)) ∗ (R1.oLoc d ↦{fullShare} m (R1.oLoc d)))
      ⊢ iprop(((R1.tLoc d ↦{Transfers.shareDrop fullShare 32} m (R1.tLoc d)) ∗ (R1.iLoc d ↦{Transfers.shareDrop fullShare 32} m (R1.iLoc d)))
          ∗ bigSep Finset.univ fun c : Fin ((K (F := F)).nCore 1) => (P m).st 1 d c) := by
  rw [st1_eq]; unfold R1.go
  rw [regroup3, ← R1.out_tiles]
  iintro ⟨Ht, Hi, Ho⟩
  ihave Ht' := (R1.toks_tiles (m (R1.tLoc d))) $$ Ht
  icases Ht' with ⟨Htd, Htt⟩
  ihave Hi' := (R1.toks_tiles (m (R1.iLoc d))) $$ Hi
  icases Hi' with ⟨Hid, Hit⟩
  isplitl [Htd Hid]
  · isplitl [Htd] <;> iassumption
  isplitl [Htt]; · iexact Htt
  isplitl [Hit]; · iexact Hit
  iexact Ho

/-- After it: the tiles' rows, each a restriction of the one whole-array function, are the result whole at that function. -/
theorem dn1_elim (d : Dev nD) :
    (bigSep Finset.univ fun c : Fin ((K (F := F)).nCore 1) => (P m).dn 1 d c) ⊢ (R1.oLoc d ↦{fullShare} R1.G m d : sProp 𝕄) := by
  rw [dn1_eq]; unfold R1.td
  rw [← R1.out_tiles]

variable [FloatOps F] in
/-- The TensorCore at call 1: from the call's three arrays whole at the launch memory to `fin1`. -/
theorem call1 (κ : GSem nD τ sig → ℕ) (d : Dev nD) (Φ : PUnit → sProp 𝕄) :
    iprop((K (F := F)).ctx EH (P m) κ ∗ (K (F := F)).tcSt EH d 1
        ∗ ((R1.tLoc d ↦{fullShare} m (R1.tLoc d)) ∗ (R1.iLoc d ↦{fullShare} m (R1.iLoc d)) ∗ (R1.oLoc d ↦{fullShare} m (R1.oLoc d)))
        ∗ (((K (F := F)).tcSt EH d 2 ∗ fin1 m d) -∗ Φ ⟨⟩))
      ⊢ wp frame (wpE ((K (F := F)).defs (D (F := F))) 𝒱 (SparseCore.T d) none) Set.univ ((K (F := F)).run d 1) Φ := by
  iintro ⟨#Hctx, Hst, Hb, Hk⟩
  ihave Hb' := (st1_intro m d) $$ Hb
  icases Hb' with ⟨⟨Htd, Hid⟩, Hgo⟩
  iapply ((K (F := F)).wp_run (D (F := F)) 𝒱 (EH := EH) (P := P m) κ d 1) $$ [Hst Hgo Hk Htd Hid]
  isplitr; · iexact Hctx
  isplitl [Hst]; · iexact Hst
  isplitl [Hgo]; · iexact Hgo
  iintro ⟨Hst, Hdn⟩
  iapply Hk
  isplitl [Hst]; · iexact Hst
  unfold fin1
  isplitl [Htd]; · iexact Htd
  isplitl [Hid]; · iexact Hid
  iapply (dn1_elim m d); iexact Hdn

/-- Under the state interpretation, what call 1 leaves pins its result, its table and its index array in the final memory. -/
theorem fin1_agree (d : Dev nD) (s' : Phys nD τ sig (Elt F)) :
    iprop(fin1 m d ∗ SI s') ⊢ (iprop(⌜s'.mem.mem (R1.oLoc d) = R1.G m d ∧ s'.mem.mem (R1.tLoc d) = m (R1.tLoc d) ∧ s'.mem.mem (R1.iLoc d) = m (R1.iLoc d)⌝ ∗ SI s') : sProp 𝕄) := by
  unfold fin1
  iintro ⟨⟨Ht, Hi, Ho⟩, HSI⟩
  ihave H := (agree_whole s') $$ [HSI Ht]
  · isplitl [HSI] <;> iassumption
  icases H with ⟨%ht, HSI⟩
  ihave H := (agree_whole s') $$ [HSI Hi]
  · isplitl [HSI] <;> iassumption
  icases H with ⟨%hi, HSI⟩
  ihave H := (agree_whole s') $$ [HSI Ho]
  · isplitl [HSI] <;> iassumption
  icases H with ⟨%ho, HSI⟩
  isplitr
  · ipureintro; exact ⟨ho, ht, hi⟩
  · iexact HSI

/-! ### Call 2 -/

/-- What call 2 leaves the claim: the kept remainders of its table and index array, its result whole at the lookup's value. -/
def fin2 (d : Dev nD) : sProp 𝕄 :=
  iprop((R2.tLoc d ↦{Transfers.shareDrop fullShare 32} m (R2.tLoc d)) ∗ (R2.iLoc d ↦{Transfers.shareDrop fullShare 32} m (R2.iLoc d))
    ∗ (R2.oLoc d ↦{fullShare} R2.G m d))

theorem goAt_2 (d : Dev nD) (L : grid0.Coords) : goAt m 2 d L = R2.go m d L := rfl
theorem tdAt_2 (d : Dev nD) (L : grid0.Coords) : tdAt m 2 d L = R2.td m d L := rfl

theorem st2_eq (d : Dev nD) :
    (bigSep Finset.univ fun c : Fin ((K (F := F)).nCore 2) => (P m).st 2 d c)
      = bigSep Finset.univ fun c : Fin (grid0.bound 0) => bigSep Finset.univ fun i : Fin (grid0.bound 1) => R2.go m d (coordsV c i) := by
  simp only [P_st, P_go, goAt_2]
  exact bigSep_tiles 2 (fun L => R2.go m d L)

theorem dn2_eq (d : Dev nD) :
    (bigSep Finset.univ fun c : Fin ((K (F := F)).nCore 2) => (P m).dn 2 d c)
      = bigSep Finset.univ fun c : Fin (grid0.bound 0) => bigSep Finset.univ fun i : Fin (grid0.bound 1) => R2.td m d (coordsV c i) := by
  simp only [P_dn, P_td, tdAt_2]
  exact bigSep_tiles 2 (fun L => R2.td m d L)

/-- Before the call: the table and the index array each split into a kept remainder and the tiles' read tokens, the
    result into the tiles' rows; regrouped tile by tile, that is what the call's SparseCores are handed. -/
theorem st2_intro (d : Dev nD) :
    iprop((R2.tLoc d ↦{fullShare} m (R2.tLoc d)) ∗ (R2.iLoc d ↦{fullShare} m (R2.iLoc d)) ∗ (R2.oLoc d ↦{fullShare} m (R2.oLoc d)))
      ⊢ iprop(((R2.tLoc d ↦{Transfers.shareDrop fullShare 32} m (R2.tLoc d)) ∗ (R2.iLoc d ↦{Transfers.shareDrop fullShare 32} m (R2.iLoc d)))
          ∗ bigSep Finset.univ fun c : Fin ((K (F := F)).nCore 2) => (P m).st 2 d c) := by
  rw [st2_eq]; unfold R2.go
  rw [regroup3, ← R2.out_tiles]
  iintro ⟨Ht, Hi, Ho⟩
  ihave Ht' := (R2.toks_tiles (m (R2.tLoc d))) $$ Ht
  icases Ht' with ⟨Htd, Htt⟩
  ihave Hi' := (R2.toks_tiles (m (R2.iLoc d))) $$ Hi
  icases Hi' with ⟨Hid, Hit⟩
  isplitl [Htd Hid]
  · isplitl [Htd] <;> iassumption
  isplitl [Htt]; · iexact Htt
  isplitl [Hit]; · iexact Hit
  iexact Ho

/-- After it: the tiles' rows, each a restriction of the one whole-array function, are the result whole at that function. -/
theorem dn2_elim (d : Dev nD) :
    (bigSep Finset.univ fun c : Fin ((K (F := F)).nCore 2) => (P m).dn 2 d c) ⊢ (R2.oLoc d ↦{fullShare} R2.G m d : sProp 𝕄) := by
  rw [dn2_eq]; unfold R2.td
  rw [← R2.out_tiles]

variable [FloatOps F] in
/-- The TensorCore at call 2: from the call's three arrays whole at the launch memory to `fin2`. -/
theorem call2 (κ : GSem nD τ sig → ℕ) (d : Dev nD) (Φ : PUnit → sProp 𝕄) :
    iprop((K (F := F)).ctx EH (P m) κ ∗ (K (F := F)).tcSt EH d 2
        ∗ ((R2.tLoc d ↦{fullShare} m (R2.tLoc d)) ∗ (R2.iLoc d ↦{fullShare} m (R2.iLoc d)) ∗ (R2.oLoc d ↦{fullShare} m (R2.oLoc d)))
        ∗ (((K (F := F)).tcSt EH d 3 ∗ fin2 m d) -∗ Φ ⟨⟩))
      ⊢ wp frame (wpE ((K (F := F)).defs (D (F := F))) 𝒱 (SparseCore.T d) none) Set.univ ((K (F := F)).run d 2) Φ := by
  iintro ⟨#Hctx, Hst, Hb, Hk⟩
  ihave Hb' := (st2_intro m d) $$ Hb
  icases Hb' with ⟨⟨Htd, Hid⟩, Hgo⟩
  iapply ((K (F := F)).wp_run (D (F := F)) 𝒱 (EH := EH) (P := P m) κ d 2) $$ [Hst Hgo Hk Htd Hid]
  isplitr; · iexact Hctx
  isplitl [Hst]; · iexact Hst
  isplitl [Hgo]; · iexact Hgo
  iintro ⟨Hst, Hdn⟩
  iapply Hk
  isplitl [Hst]; · iexact Hst
  unfold fin2
  isplitl [Htd]; · iexact Htd
  isplitl [Hid]; · iexact Hid
  iapply (dn2_elim m d); iexact Hdn

/-- Under the state interpretation, what call 2 leaves pins its result, its table and its index array in the final memory. -/
theorem fin2_agree (d : Dev nD) (s' : Phys nD τ sig (Elt F)) :
    iprop(fin2 m d ∗ SI s') ⊢ (iprop(⌜s'.mem.mem (R2.oLoc d) = R2.G m d ∧ s'.mem.mem (R2.tLoc d) = m (R2.tLoc d) ∧ s'.mem.mem (R2.iLoc d) = m (R2.iLoc d)⌝ ∗ SI s') : sProp 𝕄) := by
  unfold fin2
  iintro ⟨⟨Ht, Hi, Ho⟩, HSI⟩
  ihave H := (agree_whole s') $$ [HSI Ht]
  · isplitl [HSI] <;> iassumption
  icases H with ⟨%ht, HSI⟩
  ihave H := (agree_whole s') $$ [HSI Hi]
  · isplitl [HSI] <;> iassumption
  icases H with ⟨%hi, HSI⟩
  ihave H := (agree_whole s') $$ [HSI Ho]
  · isplitl [HSI] <;> iassumption
  icases H with ⟨%ho, HSI⟩
  isplitr
  · ipureintro; exact ⟨ho, ht, hi⟩
  · iexact HSI

/-! ### Call 3 -/

/-- What call 3 leaves the claim: the kept remainders of its table and index array, its result whole at the lookup's value. -/
def fin3 (d : Dev nD) : sProp 𝕄 :=
  iprop((R3.tLoc d ↦{Transfers.shareDrop fullShare 32} m (R3.tLoc d)) ∗ (R3.iLoc d ↦{Transfers.shareDrop fullShare 32} m (R3.iLoc d))
    ∗ (R3.oLoc d ↦{fullShare} R3.G m d))

theorem goAt_3 (d : Dev nD) (L : grid0.Coords) : goAt m 3 d L = R3.go m d L := rfl
theorem tdAt_3 (d : Dev nD) (L : grid0.Coords) : tdAt m 3 d L = R3.td m d L := rfl

theorem st3_eq (d : Dev nD) :
    (bigSep Finset.univ fun c : Fin ((K (F := F)).nCore 3) => (P m).st 3 d c)
      = bigSep Finset.univ fun c : Fin (grid0.bound 0) => bigSep Finset.univ fun i : Fin (grid0.bound 1) => R3.go m d (coordsV c i) := by
  simp only [P_st, P_go, goAt_3]
  exact bigSep_tiles 3 (fun L => R3.go m d L)

theorem dn3_eq (d : Dev nD) :
    (bigSep Finset.univ fun c : Fin ((K (F := F)).nCore 3) => (P m).dn 3 d c)
      = bigSep Finset.univ fun c : Fin (grid0.bound 0) => bigSep Finset.univ fun i : Fin (grid0.bound 1) => R3.td m d (coordsV c i) := by
  simp only [P_dn, P_td, tdAt_3]
  exact bigSep_tiles 3 (fun L => R3.td m d L)

/-- Before the call: the table and the index array each split into a kept remainder and the tiles' read tokens, the
    result into the tiles' rows; regrouped tile by tile, that is what the call's SparseCores are handed. -/
theorem st3_intro (d : Dev nD) :
    iprop((R3.tLoc d ↦{fullShare} m (R3.tLoc d)) ∗ (R3.iLoc d ↦{fullShare} m (R3.iLoc d)) ∗ (R3.oLoc d ↦{fullShare} m (R3.oLoc d)))
      ⊢ iprop(((R3.tLoc d ↦{Transfers.shareDrop fullShare 32} m (R3.tLoc d)) ∗ (R3.iLoc d ↦{Transfers.shareDrop fullShare 32} m (R3.iLoc d)))
          ∗ bigSep Finset.univ fun c : Fin ((K (F := F)).nCore 3) => (P m).st 3 d c) := by
  rw [st3_eq]; unfold R3.go
  rw [regroup3, ← R3.out_tiles]
  iintro ⟨Ht, Hi, Ho⟩
  ihave Ht' := (R3.toks_tiles (m (R3.tLoc d))) $$ Ht
  icases Ht' with ⟨Htd, Htt⟩
  ihave Hi' := (R3.toks_tiles (m (R3.iLoc d))) $$ Hi
  icases Hi' with ⟨Hid, Hit⟩
  isplitl [Htd Hid]
  · isplitl [Htd] <;> iassumption
  isplitl [Htt]; · iexact Htt
  isplitl [Hit]; · iexact Hit
  iexact Ho

/-- After it: the tiles' rows, each a restriction of the one whole-array function, are the result whole at that function. -/
theorem dn3_elim (d : Dev nD) :
    (bigSep Finset.univ fun c : Fin ((K (F := F)).nCore 3) => (P m).dn 3 d c) ⊢ (R3.oLoc d ↦{fullShare} R3.G m d : sProp 𝕄) := by
  rw [dn3_eq]; unfold R3.td
  rw [← R3.out_tiles]

variable [FloatOps F] in
/-- The TensorCore at call 3: from the call's three arrays whole at the launch memory to `fin3`. -/
theorem call3 (κ : GSem nD τ sig → ℕ) (d : Dev nD) (Φ : PUnit → sProp 𝕄) :
    iprop((K (F := F)).ctx EH (P m) κ ∗ (K (F := F)).tcSt EH d 3
        ∗ ((R3.tLoc d ↦{fullShare} m (R3.tLoc d)) ∗ (R3.iLoc d ↦{fullShare} m (R3.iLoc d)) ∗ (R3.oLoc d ↦{fullShare} m (R3.oLoc d)))
        ∗ (((K (F := F)).tcSt EH d 4 ∗ fin3 m d) -∗ Φ ⟨⟩))
      ⊢ wp frame (wpE ((K (F := F)).defs (D (F := F))) 𝒱 (SparseCore.T d) none) Set.univ ((K (F := F)).run d 3) Φ := by
  iintro ⟨#Hctx, Hst, Hb, Hk⟩
  ihave Hb' := (st3_intro m d) $$ Hb
  icases Hb' with ⟨⟨Htd, Hid⟩, Hgo⟩
  iapply ((K (F := F)).wp_run (D (F := F)) 𝒱 (EH := EH) (P := P m) κ d 3) $$ [Hst Hgo Hk Htd Hid]
  isplitr; · iexact Hctx
  isplitl [Hst]; · iexact Hst
  isplitl [Hgo]; · iexact Hgo
  iintro ⟨Hst, Hdn⟩
  iapply Hk
  isplitl [Hst]; · iexact Hst
  unfold fin3
  isplitl [Htd]; · iexact Htd
  isplitl [Hid]; · iexact Hid
  iapply (dn3_elim m d); iexact Hdn

/-- Under the state interpretation, what call 3 leaves pins its result, its table and its index array in the final memory. -/
theorem fin3_agree (d : Dev nD) (s' : Phys nD τ sig (Elt F)) :
    iprop(fin3 m d ∗ SI s') ⊢ (iprop(⌜s'.mem.mem (R3.oLoc d) = R3.G m d ∧ s'.mem.mem (R3.tLoc d) = m (R3.tLoc d) ∧ s'.mem.mem (R3.iLoc d) = m (R3.iLoc d)⌝ ∗ SI s') : sProp 𝕄) := by
  unfold fin3
  iintro ⟨⟨Ht, Hi, Ho⟩, HSI⟩
  ihave H := (agree_whole s') $$ [HSI Ht]
  · isplitl [HSI] <;> iassumption
  icases H with ⟨%ht, HSI⟩
  ihave H := (agree_whole s') $$ [HSI Hi]
  · isplitl [HSI] <;> iassumption
  icases H with ⟨%hi, HSI⟩
  ihave H := (agree_whole s') $$ [HSI Ho]
  · isplitl [HSI] <;> iassumption
  icases H with ⟨%ho, HSI⟩
  isplitr
  · ipureintro; exact ⟨ho, ht, hi⟩
  · iexact HSI

/-! ### Call 4 -/

/-- What call 4 leaves the claim: the kept remainders of its table and index array, its result whole at the lookup's value. -/
def fin4 (d : Dev nD) : sProp 𝕄 :=
  iprop((R4.tLoc d ↦{Transfers.shareDrop fullShare 32} m (R4.tLoc d)) ∗ (R4.iLoc d ↦{Transfers.shareDrop fullShare 32} m (R4.iLoc d))
    ∗ (R4.oLoc d ↦{fullShare} R4.G m d))

theorem goAt_4 (d : Dev nD) (L : grid0.Coords) : goAt m 4 d L = R4.go m d L := rfl
theorem tdAt_4 (d : Dev nD) (L : grid0.Coords) : tdAt m 4 d L = R4.td m d L := rfl

theorem st4_eq (d : Dev nD) :
    (bigSep Finset.univ fun c : Fin ((K (F := F)).nCore 4) => (P m).st 4 d c)
      = bigSep Finset.univ fun c : Fin (grid0.bound 0) => bigSep Finset.univ fun i : Fin (grid0.bound 1) => R4.go m d (coordsV c i) := by
  simp only [P_st, P_go, goAt_4]
  exact bigSep_tiles 4 (fun L => R4.go m d L)

theorem dn4_eq (d : Dev nD) :
    (bigSep Finset.univ fun c : Fin ((K (F := F)).nCore 4) => (P m).dn 4 d c)
      = bigSep Finset.univ fun c : Fin (grid0.bound 0) => bigSep Finset.univ fun i : Fin (grid0.bound 1) => R4.td m d (coordsV c i) := by
  simp only [P_dn, P_td, tdAt_4]
  exact bigSep_tiles 4 (fun L => R4.td m d L)

/-- Before the call: the table and the index array each split into a kept remainder and the tiles' read tokens, the
    result into the tiles' rows; regrouped tile by tile, that is what the call's SparseCores are handed. -/
theorem st4_intro (d : Dev nD) :
    iprop((R4.tLoc d ↦{fullShare} m (R4.tLoc d)) ∗ (R4.iLoc d ↦{fullShare} m (R4.iLoc d)) ∗ (R4.oLoc d ↦{fullShare} m (R4.oLoc d)))
      ⊢ iprop(((R4.tLoc d ↦{Transfers.shareDrop fullShare 32} m (R4.tLoc d)) ∗ (R4.iLoc d ↦{Transfers.shareDrop fullShare 32} m (R4.iLoc d)))
          ∗ bigSep Finset.univ fun c : Fin ((K (F := F)).nCore 4) => (P m).st 4 d c) := by
  rw [st4_eq]; unfold R4.go
  rw [regroup3, ← R4.out_tiles]
  iintro ⟨Ht, Hi, Ho⟩
  ihave Ht' := (R4.toks_tiles (m (R4.tLoc d))) $$ Ht
  icases Ht' with ⟨Htd, Htt⟩
  ihave Hi' := (R4.toks_tiles (m (R4.iLoc d))) $$ Hi
  icases Hi' with ⟨Hid, Hit⟩
  isplitl [Htd Hid]
  · isplitl [Htd] <;> iassumption
  isplitl [Htt]; · iexact Htt
  isplitl [Hit]; · iexact Hit
  iexact Ho

/-- After it: the tiles' rows, each a restriction of the one whole-array function, are the result whole at that function. -/
theorem dn4_elim (d : Dev nD) :
    (bigSep Finset.univ fun c : Fin ((K (F := F)).nCore 4) => (P m).dn 4 d c) ⊢ (R4.oLoc d ↦{fullShare} R4.G m d : sProp 𝕄) := by
  rw [dn4_eq]; unfold R4.td
  rw [← R4.out_tiles]

variable [FloatOps F] in
/-- The TensorCore at call 4: from the call's three arrays whole at the launch memory to `fin4`. -/
theorem call4 (κ : GSem nD τ sig → ℕ) (d : Dev nD) (Φ : PUnit → sProp 𝕄) :
    iprop((K (F := F)).ctx EH (P m) κ ∗ (K (F := F)).tcSt EH d 4
        ∗ ((R4.tLoc d ↦{fullShare} m (R4.tLoc d)) ∗ (R4.iLoc d ↦{fullShare} m (R4.iLoc d)) ∗ (R4.oLoc d ↦{fullShare} m (R4.oLoc d)))
        ∗ (((K (F := F)).tcSt EH d 5 ∗ fin4 m d) -∗ Φ ⟨⟩))
      ⊢ wp frame (wpE ((K (F := F)).defs (D (F := F))) 𝒱 (SparseCore.T d) none) Set.univ ((K (F := F)).run d 4) Φ := by
  iintro ⟨#Hctx, Hst, Hb, Hk⟩
  ihave Hb' := (st4_intro m d) $$ Hb
  icases Hb' with ⟨⟨Htd, Hid⟩, Hgo⟩
  iapply ((K (F := F)).wp_run (D (F := F)) 𝒱 (EH := EH) (P := P m) κ d 4) $$ [Hst Hgo Hk Htd Hid]
  isplitr; · iexact Hctx
  isplitl [Hst]; · iexact Hst
  isplitl [Hgo]; · iexact Hgo
  iintro ⟨Hst, Hdn⟩
  iapply Hk
  isplitl [Hst]; · iexact Hst
  unfold fin4
  isplitl [Htd]; · iexact Htd
  isplitl [Hid]; · iexact Hid
  iapply (dn4_elim m d); iexact Hdn

/-- Under the state interpretation, what call 4 leaves pins its result, its table and its index array in the final memory. -/
theorem fin4_agree (d : Dev nD) (s' : Phys nD τ sig (Elt F)) :
    iprop(fin4 m d ∗ SI s') ⊢ (iprop(⌜s'.mem.mem (R4.oLoc d) = R4.G m d ∧ s'.mem.mem (R4.tLoc d) = m (R4.tLoc d) ∧ s'.mem.mem (R4.iLoc d) = m (R4.iLoc d)⌝ ∗ SI s') : sProp 𝕄) := by
  unfold fin4
  iintro ⟨⟨Ht, Hi, Ho⟩, HSI⟩
  ihave H := (agree_whole s') $$ [HSI Ht]
  · isplitl [HSI] <;> iassumption
  icases H with ⟨%ht, HSI⟩
  ihave H := (agree_whole s') $$ [HSI Hi]
  · isplitl [HSI] <;> iassumption
  icases H with ⟨%hi, HSI⟩
  ihave H := (agree_whole s') $$ [HSI Ho]
  · isplitl [HSI] <;> iassumption
  icases H with ⟨%ho, HSI⟩
  isplitr
  · ipureintro; exact ⟨ho, ht, hi⟩
  · iexact HSI

/-! ### Call 5 -/

/-- What call 5 leaves the claim: the kept remainders of its table and index array, its result whole at the lookup's value. -/
def fin5 (d : Dev nD) : sProp 𝕄 :=
  iprop((R5.tLoc d ↦{Transfers.shareDrop fullShare 32} m (R5.tLoc d)) ∗ (R5.iLoc d ↦{Transfers.shareDrop fullShare 32} m (R5.iLoc d))
    ∗ (R5.oLoc d ↦{fullShare} R5.G m d))

theorem goAt_5 (d : Dev nD) (L : grid0.Coords) : goAt m 5 d L = R5.go m d L := rfl
theorem tdAt_5 (d : Dev nD) (L : grid0.Coords) : tdAt m 5 d L = R5.td m d L := rfl

theorem st5_eq (d : Dev nD) :
    (bigSep Finset.univ fun c : Fin ((K (F := F)).nCore 5) => (P m).st 5 d c)
      = bigSep Finset.univ fun c : Fin (grid0.bound 0) => bigSep Finset.univ fun i : Fin (grid0.bound 1) => R5.go m d (coordsV c i) := by
  simp only [P_st, P_go, goAt_5]
  exact bigSep_tiles 5 (fun L => R5.go m d L)

theorem dn5_eq (d : Dev nD) :
    (bigSep Finset.univ fun c : Fin ((K (F := F)).nCore 5) => (P m).dn 5 d c)
      = bigSep Finset.univ fun c : Fin (grid0.bound 0) => bigSep Finset.univ fun i : Fin (grid0.bound 1) => R5.td m d (coordsV c i) := by
  simp only [P_dn, P_td, tdAt_5]
  exact bigSep_tiles 5 (fun L => R5.td m d L)

/-- Before the call: the table and the index array each split into a kept remainder and the tiles' read tokens, the
    result into the tiles' rows; regrouped tile by tile, that is what the call's SparseCores are handed. -/
theorem st5_intro (d : Dev nD) :
    iprop((R5.tLoc d ↦{fullShare} m (R5.tLoc d)) ∗ (R5.iLoc d ↦{fullShare} m (R5.iLoc d)) ∗ (R5.oLoc d ↦{fullShare} m (R5.oLoc d)))
      ⊢ iprop(((R5.tLoc d ↦{Transfers.shareDrop fullShare 32} m (R5.tLoc d)) ∗ (R5.iLoc d ↦{Transfers.shareDrop fullShare 32} m (R5.iLoc d)))
          ∗ bigSep Finset.univ fun c : Fin ((K (F := F)).nCore 5) => (P m).st 5 d c) := by
  rw [st5_eq]; unfold R5.go
  rw [regroup3, ← R5.out_tiles]
  iintro ⟨Ht, Hi, Ho⟩
  ihave Ht' := (R5.toks_tiles (m (R5.tLoc d))) $$ Ht
  icases Ht' with ⟨Htd, Htt⟩
  ihave Hi' := (R5.toks_tiles (m (R5.iLoc d))) $$ Hi
  icases Hi' with ⟨Hid, Hit⟩
  isplitl [Htd Hid]
  · isplitl [Htd] <;> iassumption
  isplitl [Htt]; · iexact Htt
  isplitl [Hit]; · iexact Hit
  iexact Ho

/-- After it: the tiles' rows, each a restriction of the one whole-array function, are the result whole at that function. -/
theorem dn5_elim (d : Dev nD) :
    (bigSep Finset.univ fun c : Fin ((K (F := F)).nCore 5) => (P m).dn 5 d c) ⊢ (R5.oLoc d ↦{fullShare} R5.G m d : sProp 𝕄) := by
  rw [dn5_eq]; unfold R5.td
  rw [← R5.out_tiles]

variable [FloatOps F] in
/-- The TensorCore at call 5: from the call's three arrays whole at the launch memory to `fin5`. -/
theorem call5 (κ : GSem nD τ sig → ℕ) (d : Dev nD) (Φ : PUnit → sProp 𝕄) :
    iprop((K (F := F)).ctx EH (P m) κ ∗ (K (F := F)).tcSt EH d 5
        ∗ ((R5.tLoc d ↦{fullShare} m (R5.tLoc d)) ∗ (R5.iLoc d ↦{fullShare} m (R5.iLoc d)) ∗ (R5.oLoc d ↦{fullShare} m (R5.oLoc d)))
        ∗ (((K (F := F)).tcSt EH d 6 ∗ fin5 m d) -∗ Φ ⟨⟩))
      ⊢ wp frame (wpE ((K (F := F)).defs (D (F := F))) 𝒱 (SparseCore.T d) none) Set.univ ((K (F := F)).run d 5) Φ := by
  iintro ⟨#Hctx, Hst, Hb, Hk⟩
  ihave Hb' := (st5_intro m d) $$ Hb
  icases Hb' with ⟨⟨Htd, Hid⟩, Hgo⟩
  iapply ((K (F := F)).wp_run (D (F := F)) 𝒱 (EH := EH) (P := P m) κ d 5) $$ [Hst Hgo Hk Htd Hid]
  isplitr; · iexact Hctx
  isplitl [Hst]; · iexact Hst
  isplitl [Hgo]; · iexact Hgo
  iintro ⟨Hst, Hdn⟩
  iapply Hk
  isplitl [Hst]; · iexact Hst
  unfold fin5
  isplitl [Htd]; · iexact Htd
  isplitl [Hid]; · iexact Hid
  iapply (dn5_elim m d); iexact Hdn

/-- Under the state interpretation, what call 5 leaves pins its result, its table and its index array in the final memory. -/
theorem fin5_agree (d : Dev nD) (s' : Phys nD τ sig (Elt F)) :
    iprop(fin5 m d ∗ SI s') ⊢ (iprop(⌜s'.mem.mem (R5.oLoc d) = R5.G m d ∧ s'.mem.mem (R5.tLoc d) = m (R5.tLoc d) ∧ s'.mem.mem (R5.iLoc d) = m (R5.iLoc d)⌝ ∗ SI s') : sProp 𝕄) := by
  unfold fin5
  iintro ⟨⟨Ht, Hi, Ho⟩, HSI⟩
  ihave H := (agree_whole s') $$ [HSI Ht]
  · isplitl [HSI] <;> iassumption
  icases H with ⟨%ht, HSI⟩
  ihave H := (agree_whole s') $$ [HSI Hi]
  · isplitl [HSI] <;> iassumption
  icases H with ⟨%hi, HSI⟩
  ihave H := (agree_whole s') $$ [HSI Ho]
  · isplitl [HSI] <;> iassumption
  icases H with ⟨%ho, HSI⟩
  isplitr
  · ipureintro; exact ⟨ho, ht, hi⟩
  · iexact HSI

/-! ### Call 6 -/

/-- What call 6 leaves the claim: the kept remainders of its table and index array, its result whole at the lookup's value. -/
def fin6 (d : Dev nD) : sProp 𝕄 :=
  iprop((R6.tLoc d ↦{Transfers.shareDrop fullShare 32} m (R6.tLoc d)) ∗ (R6.iLoc d ↦{Transfers.shareDrop fullShare 32} m (R6.iLoc d))
    ∗ (R6.oLoc d ↦{fullShare} R6.G m d))

theorem goAt_6 (d : Dev nD) (L : grid0.Coords) : goAt m 6 d L = R6.go m d L := rfl
theorem tdAt_6 (d : Dev nD) (L : grid0.Coords) : tdAt m 6 d L = R6.td m d L := rfl

theorem st6_eq (d : Dev nD) :
    (bigSep Finset.univ fun c : Fin ((K (F := F)).nCore 6) => (P m).st 6 d c)
      = bigSep Finset.univ fun c : Fin (grid0.bound 0) => bigSep Finset.univ fun i : Fin (grid0.bound 1) => R6.go m d (coordsV c i) := by
  simp only [P_st, P_go, goAt_6]
  exact bigSep_tiles 6 (fun L => R6.go m d L)

theorem dn6_eq (d : Dev nD) :
    (bigSep Finset.univ fun c : Fin ((K (F := F)).nCore 6) => (P m).dn 6 d c)
      = bigSep Finset.univ fun c : Fin (grid0.bound 0) => bigSep Finset.univ fun i : Fin (grid0.bound 1) => R6.td m d (coordsV c i) := by
  simp only [P_dn, P_td, tdAt_6]
  exact bigSep_tiles 6 (fun L => R6.td m d L)

/-- Before the call: the table and the index array each split into a kept remainder and the tiles' read tokens, the
    result into the tiles' rows; regrouped tile by tile, that is what the call's SparseCores are handed. -/
theorem st6_intro (d : Dev nD) :
    iprop((R6.tLoc d ↦{fullShare} m (R6.tLoc d)) ∗ (R6.iLoc d ↦{fullShare} m (R6.iLoc d)) ∗ (R6.oLoc d ↦{fullShare} m (R6.oLoc d)))
      ⊢ iprop(((R6.tLoc d ↦{Transfers.shareDrop fullShare 32} m (R6.tLoc d)) ∗ (R6.iLoc d ↦{Transfers.shareDrop fullShare 32} m (R6.iLoc d)))
          ∗ bigSep Finset.univ fun c : Fin ((K (F := F)).nCore 6) => (P m).st 6 d c) := by
  rw [st6_eq]; unfold R6.go
  rw [regroup3, ← R6.out_tiles]
  iintro ⟨Ht, Hi, Ho⟩
  ihave Ht' := (R6.toks_tiles (m (R6.tLoc d))) $$ Ht
  icases Ht' with ⟨Htd, Htt⟩
  ihave Hi' := (R6.toks_tiles (m (R6.iLoc d))) $$ Hi
  icases Hi' with ⟨Hid, Hit⟩
  isplitl [Htd Hid]
  · isplitl [Htd] <;> iassumption
  isplitl [Htt]; · iexact Htt
  isplitl [Hit]; · iexact Hit
  iexact Ho

/-- After it: the tiles' rows, each a restriction of the one whole-array function, are the result whole at that function. -/
theorem dn6_elim (d : Dev nD) :
    (bigSep Finset.univ fun c : Fin ((K (F := F)).nCore 6) => (P m).dn 6 d c) ⊢ (R6.oLoc d ↦{fullShare} R6.G m d : sProp 𝕄) := by
  rw [dn6_eq]; unfold R6.td
  rw [← R6.out_tiles]

variable [FloatOps F] in
/-- The TensorCore at call 6: from the call's three arrays whole at the launch memory to `fin6`. -/
theorem call6 (κ : GSem nD τ sig → ℕ) (d : Dev nD) (Φ : PUnit → sProp 𝕄) :
    iprop((K (F := F)).ctx EH (P m) κ ∗ (K (F := F)).tcSt EH d 6
        ∗ ((R6.tLoc d ↦{fullShare} m (R6.tLoc d)) ∗ (R6.iLoc d ↦{fullShare} m (R6.iLoc d)) ∗ (R6.oLoc d ↦{fullShare} m (R6.oLoc d)))
        ∗ (((K (F := F)).tcSt EH d 7 ∗ fin6 m d) -∗ Φ ⟨⟩))
      ⊢ wp frame (wpE ((K (F := F)).defs (D (F := F))) 𝒱 (SparseCore.T d) none) Set.univ ((K (F := F)).run d 6) Φ := by
  iintro ⟨#Hctx, Hst, Hb, Hk⟩
  ihave Hb' := (st6_intro m d) $$ Hb
  icases Hb' with ⟨⟨Htd, Hid⟩, Hgo⟩
  iapply ((K (F := F)).wp_run (D (F := F)) 𝒱 (EH := EH) (P := P m) κ d 6) $$ [Hst Hgo Hk Htd Hid]
  isplitr; · iexact Hctx
  isplitl [Hst]; · iexact Hst
  isplitl [Hgo]; · iexact Hgo
  iintro ⟨Hst, Hdn⟩
  iapply Hk
  isplitl [Hst]; · iexact Hst
  unfold fin6
  isplitl [Htd]; · iexact Htd
  isplitl [Hid]; · iexact Hid
  iapply (dn6_elim m d); iexact Hdn

/-- Under the state interpretation, what call 6 leaves pins its result, its table and its index array in the final memory. -/
theorem fin6_agree (d : Dev nD) (s' : Phys nD τ sig (Elt F)) :
    iprop(fin6 m d ∗ SI s') ⊢ (iprop(⌜s'.mem.mem (R6.oLoc d) = R6.G m d ∧ s'.mem.mem (R6.tLoc d) = m (R6.tLoc d) ∧ s'.mem.mem (R6.iLoc d) = m (R6.iLoc d)⌝ ∗ SI s') : sProp 𝕄) := by
  unfold fin6
  iintro ⟨⟨Ht, Hi, Ho⟩, HSI⟩
  ihave H := (agree_whole s') $$ [HSI Ht]
  · isplitl [HSI] <;> iassumption
  icases H with ⟨%ht, HSI⟩
  ihave H := (agree_whole s') $$ [HSI Hi]
  · isplitl [HSI] <;> iassumption
  icases H with ⟨%hi, HSI⟩
  ihave H := (agree_whole s') $$ [HSI Ho]
  · isplitl [HSI] <;> iassumption
  icases H with ⟨%ho, HSI⟩
  isplitr
  · ipureintro; exact ⟨ho, ht, hi⟩
  · iexact HSI

/-! ### Call 7 -/

/-- What call 7 leaves the claim: the kept remainders of its table and index array, its result whole at the lookup's value. -/
def fin7 (d : Dev nD) : sProp 𝕄 :=
  iprop((R7.tLoc d ↦{Transfers.shareDrop fullShare 32} m (R7.tLoc d)) ∗ (R7.iLoc d ↦{Transfers.shareDrop fullShare 32} m (R7.iLoc d))
    ∗ (R7.oLoc d ↦{fullShare} R7.G m d))

theorem goAt_7 (d : Dev nD) (L : grid0.Coords) : goAt m 7 d L = R7.go m d L := rfl
theorem tdAt_7 (d : Dev nD) (L : grid0.Coords) : tdAt m 7 d L = R7.td m d L := rfl

theorem st7_eq (d : Dev nD) :
    (bigSep Finset.univ fun c : Fin ((K (F := F)).nCore 7) => (P m).st 7 d c)
      = bigSep Finset.univ fun c : Fin (grid0.bound 0) => bigSep Finset.univ fun i : Fin (grid0.bound 1) => R7.go m d (coordsV c i) := by
  simp only [P_st, P_go, goAt_7]
  exact bigSep_tiles 7 (fun L => R7.go m d L)

theorem dn7_eq (d : Dev nD) :
    (bigSep Finset.univ fun c : Fin ((K (F := F)).nCore 7) => (P m).dn 7 d c)
      = bigSep Finset.univ fun c : Fin (grid0.bound 0) => bigSep Finset.univ fun i : Fin (grid0.bound 1) => R7.td m d (coordsV c i) := by
  simp only [P_dn, P_td, tdAt_7]
  exact bigSep_tiles 7 (fun L => R7.td m d L)

/-- Before the call: the table and the index array each split into a kept remainder and the tiles' read tokens, the
    result into the tiles' rows; regrouped tile by tile, that is what the call's SparseCores are handed. -/
theorem st7_intro (d : Dev nD) :
    iprop((R7.tLoc d ↦{fullShare} m (R7.tLoc d)) ∗ (R7.iLoc d ↦{fullShare} m (R7.iLoc d)) ∗ (R7.oLoc d ↦{fullShare} m (R7.oLoc d)))
      ⊢ iprop(((R7.tLoc d ↦{Transfers.shareDrop fullShare 32} m (R7.tLoc d)) ∗ (R7.iLoc d ↦{Transfers.shareDrop fullShare 32} m (R7.iLoc d)))
          ∗ bigSep Finset.univ fun c : Fin ((K (F := F)).nCore 7) => (P m).st 7 d c) := by
  rw [st7_eq]; unfold R7.go
  rw [regroup3, ← R7.out_tiles]
  iintro ⟨Ht, Hi, Ho⟩
  ihave Ht' := (R7.toks_tiles (m (R7.tLoc d))) $$ Ht
  icases Ht' with ⟨Htd, Htt⟩
  ihave Hi' := (R7.toks_tiles (m (R7.iLoc d))) $$ Hi
  icases Hi' with ⟨Hid, Hit⟩
  isplitl [Htd Hid]
  · isplitl [Htd] <;> iassumption
  isplitl [Htt]; · iexact Htt
  isplitl [Hit]; · iexact Hit
  iexact Ho

/-- After it: the tiles' rows, each a restriction of the one whole-array function, are the result whole at that function. -/
theorem dn7_elim (d : Dev nD) :
    (bigSep Finset.univ fun c : Fin ((K (F := F)).nCore 7) => (P m).dn 7 d c) ⊢ (R7.oLoc d ↦{fullShare} R7.G m d : sProp 𝕄) := by
  rw [dn7_eq]; unfold R7.td
  rw [← R7.out_tiles]

variable [FloatOps F] in
/-- The TensorCore at call 7: from the call's three arrays whole at the launch memory to `fin7`. -/
theorem call7 (κ : GSem nD τ sig → ℕ) (d : Dev nD) (Φ : PUnit → sProp 𝕄) :
    iprop((K (F := F)).ctx EH (P m) κ ∗ (K (F := F)).tcSt EH d 7
        ∗ ((R7.tLoc d ↦{fullShare} m (R7.tLoc d)) ∗ (R7.iLoc d ↦{fullShare} m (R7.iLoc d)) ∗ (R7.oLoc d ↦{fullShare} m (R7.oLoc d)))
        ∗ (((K (F := F)).tcSt EH d 8 ∗ fin7 m d) -∗ Φ ⟨⟩))
      ⊢ wp frame (wpE ((K (F := F)).defs (D (F := F))) 𝒱 (SparseCore.T d) none) Set.univ ((K (F := F)).run d 7) Φ := by
  iintro ⟨#Hctx, Hst, Hb, Hk⟩
  ihave Hb' := (st7_intro m d) $$ Hb
  icases Hb' with ⟨⟨Htd, Hid⟩, Hgo⟩
  iapply ((K (F := F)).wp_run (D (F := F)) 𝒱 (EH := EH) (P := P m) κ d 7) $$ [Hst Hgo Hk Htd Hid]
  isplitr; · iexact Hctx
  isplitl [Hst]; · iexact Hst
  isplitl [Hgo]; · iexact Hgo
  iintro ⟨Hst, Hdn⟩
  iapply Hk
  isplitl [Hst]; · iexact Hst
  unfold fin7
  isplitl [Htd]; · iexact Htd
  isplitl [Hid]; · iexact Hid
  iapply (dn7_elim m d); iexact Hdn

/-- Under the state interpretation, what call 7 leaves pins its result, its table and its index array in the final memory. -/
theorem fin7_agree (d : Dev nD) (s' : Phys nD τ sig (Elt F)) :
    iprop(fin7 m d ∗ SI s') ⊢ (iprop(⌜s'.mem.mem (R7.oLoc d) = R7.G m d ∧ s'.mem.mem (R7.tLoc d) = m (R7.tLoc d) ∧ s'.mem.mem (R7.iLoc d) = m (R7.iLoc d)⌝ ∗ SI s') : sProp 𝕄) := by
  unfold fin7
  iintro ⟨⟨Ht, Hi, Ho⟩, HSI⟩
  ihave H := (agree_whole s') $$ [HSI Ht]
  · isplitl [HSI] <;> iassumption
  icases H with ⟨%ht, HSI⟩
  ihave H := (agree_whole s') $$ [HSI Hi]
  · isplitl [HSI] <;> iassumption
  icases H with ⟨%hi, HSI⟩
  ihave H := (agree_whole s') $$ [HSI Ho]
  · isplitl [HSI] <;> iassumption
  icases H with ⟨%ho, HSI⟩
  isplitr
  · ipureintro; exact ⟨ho, ht, hi⟩
  · iexact HSI

/-! ## @main on the TensorCore -/

set_option maxHeartbeats 2000000 in
/-- The TensorCore's arrays, all unscoped: the sixteen arguments and the eight results. -/
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0)
      ∗ ((SparseCore.T d).loc main_arg1 ↦{fullShare} W main_arg1)
      ∗ ((SparseCore.T d).loc main_arg2 ↦{fullShare} W main_arg2)
      ∗ ((SparseCore.T d).loc main_arg3 ↦{fullShare} W main_arg3)
      ∗ ((SparseCore.T d).loc main_arg4 ↦{fullShare} W main_arg4)
      ∗ ((SparseCore.T d).loc main_arg5 ↦{fullShare} W main_arg5)
      ∗ ((SparseCore.T d).loc main_arg6 ↦{fullShare} W main_arg6)
      ∗ ((SparseCore.T d).loc main_arg7 ↦{fullShare} W main_arg7)
      ∗ ((SparseCore.T d).loc main_arg8 ↦{fullShare} W main_arg8)
      ∗ ((SparseCore.T d).loc main_arg9 ↦{fullShare} W main_arg9)
      ∗ ((SparseCore.T d).loc main_arg10 ↦{fullShare} W main_arg10)
      ∗ ((SparseCore.T d).loc main_arg11 ↦{fullShare} W main_arg11)
      ∗ ((SparseCore.T d).loc main_arg12 ↦{fullShare} W main_arg12)
      ∗ ((SparseCore.T d).loc main_arg13 ↦{fullShare} W main_arg13)
      ∗ ((SparseCore.T d).loc main_arg14 ↦{fullShare} W main_arg14)
      ∗ ((SparseCore.T d).loc main_arg15 ↦{fullShare} W main_arg15)
      ∗ ((SparseCore.T d).loc main_v0 ↦{fullShare} W main_v0)
      ∗ ((SparseCore.T d).loc main_v1 ↦{fullShare} W main_v1)
      ∗ ((SparseCore.T d).loc main_v2 ↦{fullShare} W main_v2)
      ∗ ((SparseCore.T d).loc main_v3 ↦{fullShare} W main_v3)
      ∗ ((SparseCore.T d).loc main_v4 ↦{fullShare} W main_v4)
      ∗ ((SparseCore.T d).loc main_v5 ↦{fullShare} W main_v5)
      ∗ ((SparseCore.T d).loc main_v6 ↦{fullShare} W main_v6)
      ∗ ((SparseCore.T d).loc main_v7 ↦{fullShare} W main_v7)) := by
  unfold unscopedBufs
  rw [show (Finset.univ.filter fun b : Ref sig .tc => ¬ b.isScoped) = {main_arg0, main_arg1, main_arg2, main_arg3, main_arg4, main_arg5, main_arg6, main_arg7, main_arg8, main_arg9, main_arg10, main_arg11, main_arg12, main_arg13, main_arg14, main_arg15, main_v0, main_v1, main_v2, main_v3, main_v4, main_v5, main_v6, main_v7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- What @main leaves the claim. -/
def FIN (d : Dev nD) : sProp 𝕄 :=
  iprop(fin0 m d ∗ fin1 m d ∗ fin2 m d ∗ fin3 m d ∗ fin4 m d ∗ fin5 m d ∗ fin6 m d ∗ fin7 m d)

variable [FloatOps F] in
/-- @main on device `d`'s TensorCore: the eight calls in turn, each from its three arrays whole at the launch memory. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 8 ∗ FIN m d) := by
  unfold SparseCore.Cfg.tcRes
  rw [unscopedBufs_eq]
  simp only [main, wp_bind, wp_pure]
  iintro ⟨#Hctx, Hst, ⟨-, ⟨Ha0, Ha1, Ha2, Ha3, Ha4, Ha5, Ha6, Ha7, Ha8, Ha9, Ha10, Ha11, Ha12, Ha13, Ha14, Ha15, Hv0, Hv1, Hv2, Hv3, Hv4, Hv5, Hv6, Hv7⟩, -, -⟩, -⟩
  -- call 0
  iapply (call0 m κ d _)
  isplitr; · iexact Hctx
  isplitl [Hst]; · iexact Hst
  isplitl [Ha0 Ha8 Hv0]
  · isplitl [Ha0]; · iexact Ha0
    isplitl [Ha8]; · iexact Ha8
    iexact Hv0
  iintro ⟨Hst, Hf0⟩
  -- call 1
  iapply (call1 m κ d _)
  isplitr; · iexact Hctx
  isplitl [Hst]; · iexact Hst
  isplitl [Ha1 Ha9 Hv1]
  · isplitl [Ha1]; · iexact Ha1
    isplitl [Ha9]; · iexact Ha9
    iexact Hv1
  iintro ⟨Hst, Hf1⟩
  -- call 2
  iapply (call2 m κ d _)
  isplitr; · iexact Hctx
  isplitl [Hst]; · iexact Hst
  isplitl [Ha2 Ha10 Hv2]
  · isplitl [Ha2]; · iexact Ha2
    isplitl [Ha10]; · iexact Ha10
    iexact Hv2
  iintro ⟨Hst, Hf2⟩
  -- call 3
  iapply (call3 m κ d _)
  isplitr; · iexact Hctx
  isplitl [Hst]; · iexact Hst
  isplitl [Ha3 Ha11 Hv3]
  · isplitl [Ha3]; · iexact Ha3
    isplitl [Ha11]; · iexact Ha11
    iexact Hv3
  iintro ⟨Hst, Hf3⟩
  -- call 4
  iapply (call4 m κ d _)
  isplitr; · iexact Hctx
  isplitl [Hst]; · iexact Hst
  isplitl [Ha4 Ha12 Hv4]
  · isplitl [Ha4]; · iexact Ha4
    isplitl [Ha12]; · iexact Ha12
    iexact Hv4
  iintro ⟨Hst, Hf4⟩
  -- call 5
  iapply (call5 m κ d _)
  isplitr; · iexact Hctx
  isplitl [Hst]; · iexact Hst
  isplitl [Ha5 Ha13 Hv5]
  · isplitl [Ha5]; · iexact Ha5
    isplitl [Ha13]; · iexact Ha13
    iexact Hv5
  iintro ⟨Hst, Hf5⟩
  -- call 6
  iapply (call6 m κ d _)
  isplitr; · iexact Hctx
  isplitl [Hst]; · iexact Hst
  isplitl [Ha6 Ha14 Hv6]
  · isplitl [Ha6]; · iexact Ha6
    isplitl [Ha14]; · iexact Ha14
    iexact Hv6
  iintro ⟨Hst, Hf6⟩
  -- call 7
  iapply (call7 m κ d _)
  isplitr; · iexact Hctx
  isplitl [Hst]; · iexact Hst
  isplitl [Ha7 Ha15 Hv7]
  · isplitl [Ha7]; · iexact Ha7
    isplitl [Ha15]; · iexact Ha15
    iexact Hv7
  iintro ⟨Hst, Hf7⟩
  imodintro
  isplitl [Hst]; · iexact Hst
  unfold FIN
  isplitl [Hf0]; · iexact Hf0
  isplitl [Hf1]; · iexact Hf1
  isplitl [Hf2]; · iexact Hf2
  isplitl [Hf3]; · iexact Hf3
  isplitl [Hf4]; · iexact Hf4
  isplitl [Hf5]; · iexact Hf5
  isplitl [Hf6]; · iexact Hf6
  iexact Hf7

/-! ## Reading the claim off the final memory -/

def fq (d : Dev nD) (s' : Phys nD τ sig (Elt F)) : Prop :=
  s'.mem.mem (R0.oLoc d) = R0.G m d
    ∧ s'.mem.mem (R1.oLoc d) = R1.G m d
    ∧ s'.mem.mem (R2.oLoc d) = R2.G m d
    ∧ s'.mem.mem (R3.oLoc d) = R3.G m d
    ∧ s'.mem.mem (R4.oLoc d) = R4.G m d
    ∧ s'.mem.mem (R5.oLoc d) = R5.G m d
    ∧ s'.mem.mem (R6.oLoc d) = R6.G m d
    ∧ s'.mem.mem (R7.oLoc d) = R7.G m d
    ∧ s'.mem.mem (R0.tLoc d) = m (R0.tLoc d)
    ∧ s'.mem.mem (R1.tLoc d) = m (R1.tLoc d)
    ∧ s'.mem.mem (R2.tLoc d) = m (R2.tLoc d)
    ∧ s'.mem.mem (R3.tLoc d) = m (R3.tLoc d)
    ∧ s'.mem.mem (R4.tLoc d) = m (R4.tLoc d)
    ∧ s'.mem.mem (R5.tLoc d) = m (R5.tLoc d)
    ∧ s'.mem.mem (R6.tLoc d) = m (R6.tLoc d)
    ∧ s'.mem.mem (R7.tLoc d) = m (R7.tLoc d)
    ∧ s'.mem.mem (R0.iLoc d) = m (R0.iLoc d)
    ∧ s'.mem.mem (R1.iLoc d) = m (R1.iLoc d)
    ∧ s'.mem.mem (R2.iLoc d) = m (R2.iLoc d)
    ∧ s'.mem.mem (R3.iLoc d) = m (R3.iLoc d)
    ∧ s'.mem.mem (R4.iLoc d) = m (R4.iLoc d)
    ∧ s'.mem.mem (R5.iLoc d) = m (R5.iLoc d)
    ∧ s'.mem.mem (R6.iLoc d) = m (R6.iLoc d)
    ∧ s'.mem.mem (R7.iLoc d) = m (R7.iLoc d)

theorem hfin (d : Dev nD) (s' : Phys nD τ sig (Elt F)) : iprop(FIN m d ∗ SI s') ⊢ (⌜fq m d s'⌝ : sProp 𝕄) := by
  unfold FIN
  iintro ⟨⟨H0, H1, H2, H3, H4, H5, H6, H7⟩, HSI⟩
  ihave H := (fin0_agree m d s') $$ [H0 HSI]
  · isplitl [H0] <;> iassumption
  icases H with ⟨%h0, HSI⟩
  ihave H := (fin1_agree m d s') $$ [H1 HSI]
  · isplitl [H1] <;> iassumption
  icases H with ⟨%h1, HSI⟩
  ihave H := (fin2_agree m d s') $$ [H2 HSI]
  · isplitl [H2] <;> iassumption
  icases H with ⟨%h2, HSI⟩
  ihave H := (fin3_agree m d s') $$ [H3 HSI]
  · isplitl [H3] <;> iassumption
  icases H with ⟨%h3, HSI⟩
  ihave H := (fin4_agree m d s') $$ [H4 HSI]
  · isplitl [H4] <;> iassumption
  icases H with ⟨%h4, HSI⟩
  ihave H := (fin5_agree m d s') $$ [H5 HSI]
  · isplitl [H5] <;> iassumption
  icases H with ⟨%h5, HSI⟩
  ihave H := (fin6_agree m d s') $$ [H6 HSI]
  · isplitl [H6] <;> iassumption
  icases H with ⟨%h6, HSI⟩
  ihave H := (fin7_agree m d s') $$ [H7 HSI]
  · isplitl [H7] <;> iassumption
  icases H with ⟨%h7, HSI⟩
  ipureintro
  exact ⟨h0.1, h1.1, h2.1, h3.1, h4.1, h5.1, h6.1, h7.1, h0.2.1, h1.2.1, h2.2.1, h3.2.1, h4.2.1, h5.2.1, h6.2.1, h7.2.1, h0.2.2, h1.2.2, h2.2.2, h3.2.2, h4.2.2, h5.2.2, h6.2.2, h7.2.2⟩

/-! ## The program's run -/

theorem kind_ne (q : Fin 8) : (K (F := F)).kind q ≠ .scScalar :=
  show scKind q ≠ .scScalar from by revert q; decide

/-- The kernel's program runs to completion from the launch memory `m`, ending with each result the lookup's
    value on its table and index array, and every argument as the launch left it. -/
theorem run [FloatOps F] [∀ e, Nonempty (Elt F e)] (m : (ℓ : Loc nD τ sig) → Buf (Elt F) ℓ) (ρ : Dev nD → PrngReg)
    (hb0 : R0.TileBody m) (hb1 : R1.TileBody m) (hb2 : R2.TileBody m) (hb3 : R3.TileBody m) (hb4 : R4.TileBody m) (hb5 : R5.TileBody m) (hb6 : R6.TileBody m) (hb7 : R7.TileBody m) :
    θ_run (Cert.Kernel.defs (F := F)) (Cert.Kernel.threads (F := F)) ⟨m, fun _ => 0, ρ⟩
      (fun r => ∀ c : Dev nD,
          r.2.mem ((c.tc : Thread nD τ).loc main_v0) = R0.G m c
          ∧ r.2.mem ((c.tc : Thread nD τ).loc main_v1) = R1.G m c
          ∧ r.2.mem ((c.tc : Thread nD τ).loc main_v2) = R2.G m c
          ∧ r.2.mem ((c.tc : Thread nD τ).loc main_v3) = R3.G m c
          ∧ r.2.mem ((c.tc : Thread nD τ).loc main_v4) = R4.G m c
          ∧ r.2.mem ((c.tc : Thread nD τ).loc main_v5) = R5.G m c
          ∧ r.2.mem ((c.tc : Thread nD τ).loc main_v6) = R6.G m c
          ∧ r.2.mem ((c.tc : Thread nD τ).loc main_v7) = R7.G m c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)
          ∧ r.2.mem ((c.tc : Thread nD τ).loc main_arg8) = m ((c.tc : Thread nD τ).loc main_arg8)
          ∧ r.2.mem ((c.tc : Thread nD τ).loc main_arg9) = m ((c.tc : Thread nD τ).loc main_arg9)
          ∧ r.2.mem ((c.tc : Thread nD τ).loc main_arg10) = m ((c.tc : Thread nD τ).loc main_arg10)
          ∧ r.2.mem ((c.tc : Thread nD τ).loc main_arg11) = m ((c.tc : Thread nD τ).loc main_arg11)
          ∧ r.2.mem ((c.tc : Thread nD τ).loc main_arg12) = m ((c.tc : Thread nD τ).loc main_arg12)
          ∧ r.2.mem ((c.tc : Thread nD τ).loc main_arg13) = m ((c.tc : Thread nD τ).loc main_arg13)
          ∧ r.2.mem ((c.tc : Thread nD τ).loc main_arg14) = m ((c.tc : Thread nD τ).loc main_arg14)
          ∧ r.2.mem ((c.tc : Thread nD τ).loc main_arg15) = m ((c.tc : Thread nD τ).loc main_arg15)) :=
  SparseCore.Cfg.θ_run_sc (K := K (F := F)) (D := D (F := F)) (𝒱 := 𝒱) (EH := EH) (P := P m) facts v₀
    (fun q hq => absurd hq (kind_ne q))
    (fun q _ => match q with
      | 0 => tileObl0 m hb0
      | 1 => tileObl1 m hb1
      | 2 => tileObl2 m hb2
      | 3 => tileObl3 m hb3
      | 4 => tileObl4 m hb4
      | 5 => tileObl5 m hb5
      | 6 => tileObl6 m hb6
      | 7 => tileObl7 m hb7)
    (fun q _ => SparseCore.Cfg.VecSplit.of_plain (vecSplit m q))
    m ρ main (fun _ => iprop(emp)) (FIN m) (u₀ (F := F)) (sep_elim_left.trans (hu₀ m)) (hmain m ρ) (fq m) (hfin m) _ (fun _ h => h)

end Cert.Proof.KB

end
-- ==== Proof.KBTileDefs0.lean ====
/-
  The tile's own names for call 0's body: its thread, its two DMA semaphores' cells, its scoped storage opened to
  the scratch and those two cells, the batch of the 512 row copies (each copy's delivery: its row of the result at
  the lookup's value), and what a copy needs before it is started.
-/
import proofs.«218896_g85959475462175_cont_9to1_m_647_27_alg».proof.Proof.KBRes0

noncomputable section

namespace Cert.Proof.KB.R0

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

abbrev thr : Thread nD τ := V d (cV L) (jV L)
abbrev cS : GSem nD τ sig := (thr d L, .dma cc0_scoped0.sem)
abbrev cB : GSem nD τ sig := (thr d L, .dma cc0_scratch1.sem)

theorem ownSems0_V :
    (ownSems0 (thr d L) : sProp 𝕄)
      = iprop(semVal (cS d L) 0 ∗ semVal (cB d L) 0 ∗ bigSep (((ownCells (thr d L)).erase (cS d L)).erase (cB d L)) fun g => semVal g 0) := by
  unfold SparseCore.Cfg.ownSems0
  rw [SparseCore.bigSep_erase' ((mem_ownCells (g := cS d L)).mpr ⟨rfl, by
      show (SemLoc.dma cc0_scoped0.sem : SemLoc sig).isScoped .scVector = true; decide⟩),
    SparseCore.bigSep_erase' (Finset.mem_erase.mpr ⟨by simp [cS, cB]; decide, (mem_ownCells (g := cB d L)).mpr ⟨rfl, by
      show (SemLoc.dma cc0_scratch1.sem : SemLoc sig).isScoped .scVector = true; decide⟩⟩)]

theorem ownBufs_V :
    (ownBufs (thr d L) : sProp 𝕄)
      = iprop((∃ f, (thr d L).loc scrScv ↦{fullShare} f)
          ∗ bigSep ((ownRefs (τ := τ) (.scVector (cV L) (jV L))).erase ((Proc.scVector (cV L) (jV L)).devRef scrScv))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef scrScv) rfl)

omit m in
theorem pts_i (q : PosShare TreeShare) (f : Buf (Elt F) (iLoc d)) :
    ((iW : Memref sig .scVector .hbm S16384 .i32).view.loc (thr d L) ↦{q} f : sProp 𝕄) = iLoc d ↦{q} f := rfl
omit m in
theorem pts_t (q : PosShare TreeShare) (f : Buf (Elt F) (tLoc d)) :
    ((tW : Memref sig .scVector .hbm TS .f32).view.loc (thr d L) ↦{q} f : sProp 𝕄) = tLoc d ↦{q} f := rfl
omit m in
theorem pts_s (f : Buf (Elt F) ((thr d L).loc scrScv)) :
    ((sW : Memref sig .scVector .vmem S512 .i32).view.loc (thr d L) ↦{fullShare} f : sProp 𝕄) = (thr d L).loc scrScv ↦{fullShare} f := rfl

/-- The counters of the tile's own copies. -/
abbrev EC : UEmb Counters (MT nD τ sig (HIx 8) (Elt F) ℕ UU ℕ) := countersEmb (U := UU)

/-- Row 0 of the result as the waits name it: any row's credit. -/
abbrev row0 : Memref sig .scVector .hbm S64 .f32 :=
  ((oW : Memref sig .scVector .hbm S16384x64 .f32).slice (Rect.unit (s := S16384x64) ![0, 0] S1x64.size inb_S16384x64_S1x64_0_0) (fun _ => rfl)).squeeze S64 squeezes_S1x64_S64
abbrev N : ℕ := (row0).view.dmaCredit

/-- The tile's read token of the table. -/
abbrev tsh : PosShare TreeShare := Transfers.shareTok fullShare 32 (wid L)

/-- Copy `t` of the 512 delivers row `t` of the tile's rows holding the lookup's value. -/
def Dl (t : Fin 512) : sProp 𝕄 := oLoc d ↦[rowSet (tileRow L t)]{fullShare} G m d

instance Dl_storable (t : Fin 512) : BI.Storable (upEmb : UEmb _ 𝕄) (Dl m d L t) := by unfold Dl; infer_instance

/-- What copy `t` needs before it is started: its own read token of the table, and its row of the result. -/
def Rk (t : Fin 512) : sProp 𝕄 :=
  iprop((tLoc d ↦{Transfers.shareTok (tsh L) 512 t} m (tLoc d)) ∗ (oLoc d ↦[rowSet (tileRow L t)]{fullShare} m (oLoc d)))

/-- The scratch holds the tile's 512 index words. -/
def Holds (sc : Buf (Elt F) ((sW : Memref sig .scVector .vmem S512 .i32).view.loc (thr d L))) : Prop :=
  ∀ t : Fin 512, sc (ValueIdx.ix1 t) = m (iLoc d) (ValueIdx.ix1 (tileRow L t))

end Cert.Proof.KB.R0

end
-- ==== Proof.KBView0.lean ====
/-
  Call 0 of the eight: what the tile's memory accesses address and read, as plain facts about index sets and
  contents, with no program logic in them.

  The tile at grid coordinates L owns result rows base L … base L + 511. It copies index words base L … base L + 511
  into its 512-word scratch (scratch_holds: word t of the scratch is then word base L + t of the index array);
  in trip g it loads the sixteen scratch words 16g … 16g + 15 (loaded_word) and takes them apart one at a time
  (word_0 … word_15); for each word w it copies table row w, when w names a row (chk_of_lt_N), onto one result row
  (set_dstRow: the destination is exactly that row's set of indices; write_row: after the copy the row holds table row w,
  column by column). G_row is the lookup's value at one index, and mem_rowSet_fst says that an index of row r's set has
  first coordinate r.
-/
import proofs.«218896_g85959475462175_cont_9to1_m_647_27_alg».proof.Proof.KBRes0

noncomputable section

namespace Cert.Proof.KB.R0

open Cert.Kernel Cert.Kernel.Gen Cert.Proof.KB

open Idealize.ShloMosaic
open Idealize.ShloMosaic.SparseCore (S V T)

variable {F : FTy → Type}

/-! ## A word that names a row passes the copy's side condition -/

theorem chk_of_lt_1 {w : BitVec 32} (h : w.toNat < nRows) : k0_chk1 w := fun a =>
  match a with
  | 0 => show w.toNat + 1 ≤ nRows from h
  | 1 => show 0 + 64 ≤ 64 from Nat.le_refl _
theorem chk_of_lt_2 {w : BitVec 32} (h : w.toNat < nRows) : k0_chk2 w := fun a =>
  match a with
  | 0 => show w.toNat + 1 ≤ nRows from h
  | 1 => show 0 + 64 ≤ 64 from Nat.le_refl _
theorem chk_of_lt_3 {w : BitVec 32} (h : w.toNat < nRows) : k0_chk3 w := fun a =>
  match a with
  | 0 => show w.toNat + 1 ≤ nRows from h
  | 1 => show 0 + 64 ≤ 64 from Nat.le_refl _
theorem chk_of_lt_4 {w : BitVec 32} (h : w.toNat < nRows) : k0_chk4 w := fun a =>
  match a with
  | 0 => show w.toNat + 1 ≤ nRows from h
  | 1 => show 0 + 64 ≤ 64 from Nat.le_refl _
theorem chk_of_lt_5 {w : BitVec 32} (h : w.toNat < nRows) : k0_chk5 w := fun a =>
  match a with
  | 0 => show w.toNat + 1 ≤ nRows from h
  | 1 => show 0 + 64 ≤ 64 from Nat.le_refl _
theorem chk_of_lt_6 {w : BitVec 32} (h : w.toNat < nRows) : k0_chk6 w := fun a =>
  match a with
  | 0 => show w.toNat + 1 ≤ nRows from h
  | 1 => show 0 + 64 ≤ 64 from Nat.le_refl _
theorem chk_of_lt_7 {w : BitVec 32} (h : w.toNat < nRows) : k0_chk7 w := fun a =>
  match a with
  | 0 => show w.toNat + 1 ≤ nRows from h
  | 1 => show 0 + 64 ≤ 64 from Nat.le_refl _
theorem chk_of_lt_8 {w : BitVec 32} (h : w.toNat < nRows) : k0_chk8 w := fun a =>
  match a with
  | 0 => show w.toNat + 1 ≤ nRows from h
  | 1 => show 0 + 64 ≤ 64 from Nat.le_refl _
theorem chk_of_lt_9 {w : BitVec 32} (h : w.toNat < nRows) : k0_chk9 w := fun a =>
  match a with
  | 0 => show w.toNat + 1 ≤ nRows from h
  | 1 => show 0 + 64 ≤ 64 from Nat.le_refl _
theorem chk_of_lt_10 {w : BitVec 32} (h : w.toNat < nRows) : k0_chk10 w := fun a =>
  match a with
  | 0 => show w.toNat + 1 ≤ nRows from h
  | 1 => show 0 + 64 ≤ 64 from Nat.le_refl _
theorem chk_of_lt_11 {w : BitVec 32} (h : w.toNat < nRows) : k0_chk11 w := fun a =>
  match a with
  | 0 => show w.toNat + 1 ≤ nRows from h
  | 1 => show 0 + 64 ≤ 64 from Nat.le_refl _
theorem chk_of_lt_12 {w : BitVec 32} (h : w.toNat < nRows) : k0_chk12 w := fun a =>
  match a with
  | 0 => show w.toNat + 1 ≤ nRows from h
  | 1 => show 0 + 64 ≤ 64 from Nat.le_refl _
theorem chk_of_lt_13 {w : BitVec 32} (h : w.toNat < nRows) : k0_chk13 w := fun a =>
  match a with
  | 0 => show w.toNat + 1 ≤ nRows from h
  | 1 => show 0 + 64 ≤ 64 from Nat.le_refl _
theorem chk_of_lt_14 {w : BitVec 32} (h : w.toNat < nRows) : k0_chk14 w := fun a =>
  match a with
  | 0 => show w.toNat + 1 ≤ nRows from h
  | 1 => show 0 + 64 ≤ 64 from Nat.le_refl _
theorem chk_of_lt_15 {w : BitVec 32} (h : w.toNat < nRows) : k0_chk15 w := fun a =>
  match a with
  | 0 => show w.toNat + 1 ≤ nRows from h
  | 1 => show 0 + 64 ≤ 64 from Nat.le_refl _
theorem chk_of_lt_16 {w : BitVec 32} (h : w.toNat < nRows) : k0_chk16 w := fun a =>
  match a with
  | 0 => show w.toNat + 1 ≤ nRows from h
  | 1 => show 0 + 64 ≤ 64 from Nat.le_refl _

/-! ## The sixteen words of a load, one at a time -/

theorem word_0 (v7 : Vec F S16 .i32) : extractAt ![0] (k0_pay1 v7) inpos_S1_p0 = v7 (ValueIdx.ix1 ⟨0, by decide⟩) := by
  unfold k0_pay1 extractAt extractStridedSlice
  exact congrArg v7 (funext fun a => by obtain rfl : a = 0 := Subsingleton.elim _ _; rfl)
theorem word_1 (v7 : Vec F S16 .i32) : extractAt ![0] (k0_pay2 v7) inpos_S1_p0 = v7 (ValueIdx.ix1 ⟨1, by decide⟩) := by
  unfold k0_pay2 extractAt extractStridedSlice
  exact congrArg v7 (funext fun a => by obtain rfl : a = 0 := Subsingleton.elim _ _; rfl)
theorem word_2 (v7 : Vec F S16 .i32) : extractAt ![0] (k0_pay3 v7) inpos_S1_p0 = v7 (ValueIdx.ix1 ⟨2, by decide⟩) := by
  unfold k0_pay3 extractAt extractStridedSlice
  exact congrArg v7 (funext fun a => by obtain rfl : a = 0 := Subsingleton.elim _ _; rfl)
theorem word_3 (v7 : Vec F S16 .i32) : extractAt ![0] (k0_pay4 v7) inpos_S1_p0 = v7 (ValueIdx.ix1 ⟨3, by decide⟩) := by
  unfold k0_pay4 extractAt extractStridedSlice
  exact congrArg v7 (funext fun a => by obtain rfl : a = 0 := Subsingleton.elim _ _; rfl)
theorem word_4 (v7 : Vec F S16 .i32) : extractAt ![0] (k0_pay5 v7) inpos_S1_p0 = v7 (ValueIdx.ix1 ⟨4, by decide⟩) := by
  unfold k0_pay5 extractAt extractStridedSlice
  exact congrArg v7 (funext fun a => by obtain rfl : a = 0 := Subsingleton.elim _ _; rfl)
theorem word_5 (v7 : Vec F S16 .i32) : extractAt ![0] (k0_pay6 v7) inpos_S1_p0 = v7 (ValueIdx.ix1 ⟨5, by decide⟩) := by
  unfold k0_pay6 extractAt extractStridedSlice
  exact congrArg v7 (funext fun a => by obtain rfl : a = 0 := Subsingleton.elim _ _; rfl)
theorem word_6 (v7 : Vec F S16 .i32) : extractAt ![0] (k0_pay7 v7) inpos_S1_p0 = v7 (ValueIdx.ix1 ⟨6, by decide⟩) := by
  unfold k0_pay7 extractAt extractStridedSlice
  exact congrArg v7 (funext fun a => by obtain rfl : a = 0 := Subsingleton.elim _ _; rfl)
theorem word_7 (v7 : Vec F S16 .i32) : extractAt ![0] (k0_pay8 v7) inpos_S1_p0 = v7 (ValueIdx.ix1 ⟨7, by decide⟩) := by
  unfold k0_pay8 extractAt extractStridedSlice
  exact congrArg v7 (funext fun a => by obtain rfl : a = 0 := Subsingleton.elim _ _; rfl)
theorem word_8 (v7 : Vec F S16 .i32) : extractAt ![0] (k0_pay9 v7) inpos_S1_p0 = v7 (ValueIdx.ix1 ⟨8, by decide⟩) := by
  unfold k0_pay9 extractAt extractStridedSlice
  exact congrArg v7 (funext fun a => by obtain rfl : a = 0 := Subsingleton.elim _ _; rfl)
theorem word_9 (v7 : Vec F S16 .i32) : extractAt ![0] (k0_pay10 v7) inpos_S1_p0 = v7 (ValueIdx.ix1 ⟨9, by decide⟩) := by
  unfold k0_pay10 extractAt extractStridedSlice
  exact congrArg v7 (funext fun a => by obtain rfl : a = 0 := Subsingleton.elim _ _; rfl)
theorem word_10 (v7 : Vec F S16 .i32) : extractAt ![0] (k0_pay11 v7) inpos_S1_p0 = v7 (ValueIdx.ix1 ⟨10, by decide⟩) := by
  unfold k0_pay11 extractAt extractStridedSlice
  exact congrArg v7 (funext fun a => by obtain rfl : a = 0 := Subsingleton.elim _ _; rfl)
theorem word_11 (v7 : Vec F S16 .i32) : extractAt ![0] (k0_pay12 v7) inpos_S1_p0 = v7 (ValueIdx.ix1 ⟨11, by decide⟩) := by
  unfold k0_pay12 extractAt extractStridedSlice
  exact congrArg v7 (funext fun a => by obtain rfl : a = 0 := Subsingleton.elim _ _; rfl)
theorem word_12 (v7 : Vec F S16 .i32) : extractAt ![0] (k0_pay13 v7) inpos_S1_p0 = v7 (ValueIdx.ix1 ⟨12, by decide⟩) := by
  unfold k0_pay13 extractAt extractStridedSlice
  exact congrArg v7 (funext fun a => by obtain rfl : a = 0 := Subsingleton.elim _ _; rfl)
theorem word_13 (v7 : Vec F S16 .i32) : extractAt ![0] (k0_pay14 v7) inpos_S1_p0 = v7 (ValueIdx.ix1 ⟨13, by decide⟩) := by
  unfold k0_pay14 extractAt extractStridedSlice
  exact congrArg v7 (funext fun a => by obtain rfl : a = 0 := Subsingleton.elim _ _; rfl)
theorem word_14 (v7 : Vec F S16 .i32) : extractAt ![0] (k0_pay15 v7) inpos_S1_p0 = v7 (ValueIdx.ix1 ⟨14, by decide⟩) := by
  unfold k0_pay15 extractAt extractStridedSlice
  exact congrArg v7 (funext fun a => by obtain rfl : a = 0 := Subsingleton.elim _ _; rfl)
theorem word_15 (v7 : Vec F S16 .i32) : extractAt ![0] (k0_pay16 v7) inpos_S1_p0 = v7 (ValueIdx.ix1 ⟨15, by decide⟩) := by
  unfold k0_pay16 extractAt extractStridedSlice
  exact congrArg v7 (funext fun a => by obtain rfl : a = 0 := Subsingleton.elim _ _; rfl)

/-! ## The lookup's value at an index; the indices of a row -/

variable (m : (ℓ : Loc nD τ sig) → Buf (Elt F) ℓ)

theorem G_row (d : Dev nD) (r : Fin 16384) (k : Fin 64) :
    G m d (ValueIdx.ix2 r k) = m (tLoc d) (ValueIdx.ix2 (Spec.rowOf nRows nRows_pos (m (iLoc d) (ValueIdx.ix1 r))) k) := by
  unfold G
  exact Spec.gatherRows_apply nRows nRows_pos (m (tLoc d)) (m (iLoc d)) r k

theorem mem_rowSet_fst {r : Fin 16384} {i : S16384x64.Idx} (h : i ∈ rowSet r) : i 0 = r := by
  have h' : i ∈ (row r).set := by rw [← View.set_slice_whole outScv (row r)]; exact h
  rw [Rect.mem_set_unit] at h'
  have h0 := h' 0
  apply Fin.ext
  simp only [Shape.partIx, Shape.partSize] at h0
  have e : S16384x64.size 0 / 16384 = 1 := by decide
  simp only [↓reduceIte, e] at h0
  omega

/-! ## The destination of one row's copy -/

/-- The one-row rectangle at row r is the r-th of the 16384 parts of the result along its first axis. -/
theorem unitRow_eq (r : Fin 16384) (inb : ∀ a, (![r.val, 0] : Fin 2 → Nat) a + S1x64.size a ≤ S16384x64.size a) :
    Rect.unit (s := S16384x64) ![r.val, 0] S1x64.size inb = row r := by
  unfold row Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem set_dstRow (off : Fin 2 → Nat) (inb : ∀ a, off a + S1x64.size a ≤ S16384x64.size a) (r : Fin 16384)
    (hoff : off = ![r.val, 0]) :
    (((oW : Memref sig .scVector .hbm S16384x64 .f32).slice (Rect.unit (s := S16384x64) off S1x64.size inb) (fun _ => rfl)).squeeze S64
        squeezes_S1x64_S64).view.set = rowSet r := by
  subst hoff
  show (((oW : Memref sig .scVector .hbm S16384x64 .f32).view.slice (Rect.unit (s := S16384x64) ![r.val, 0] S1x64.size inb)).reshape S64
      squeezes_S1x64_S64.numel_eq).set = ((oW : Memref sig .scVector .hbm S16384x64 .f32).view.slice (row r)).set
  rw [View.set_reshape]
  exact unitRow_eq r inb ▸ rfl

/-! ## What the scratch holds after the first copy, and what a trip loads from it -/

theorem trips1 : k0_t1_loop.trips = 32 := by decide

theorem word_lt (g : Fin k0_t1_loop.trips) (j : Fin 16) : 16 * g.val + j.val < 512 := by
  have hg : g.val < 32 := Nat.lt_of_lt_of_eq g.isLt trips1
  have hj := j.isLt
  omega

/-- Word j of the sixteen that trip g loads is word 16g + j of the scratch. -/
theorem loaded_word (d : Dev nD) (L : grid0.Coords) (g : Fin k0_t1_loop.trips)
    (s : Buf (Elt F) ((sW : Memref sig .scVector .vmem S512 .i32).view.loc (V d (cV L) (jV L)))) (j : Fin 16) :
    ((sW : Memref sig .scVector .vmem S512 .i32).view.readAt (Elt F)
        (Rect.unit (s := S512) (k0_off2 g) S16.size (k0_off2_inb g)).toLoadRect s) (ValueIdx.ix1 j)
      = s (ValueIdx.ix1 ⟨16 * g.val + j.val, word_lt g j⟩) := by
  rw [View.readAt_apply]
  show s ((Rect.unit (s := S512) (k0_off2 g) S16.size (k0_off2_inb g)).toLoadRect.idx (ValueIdx.ix1 j)) = _
  refine congrArg s (funext fun (a : Fin 1) => Fin.ext ?_)
  obtain rfl : a = 0 := Subsingleton.elim _ _
  rw [LoadRect.idx_apply]
  show (k0_off2 g) 0 + 1 * j.val = 16 * g.val + j.val
  rw [k0_off2_eq]
  simp

/-- Once the first copy has landed, word t of the scratch is word base L + t of the index array. -/
theorem scratch_holds (d : Dev nD) (L : grid0.Coords)
    (fs : Buf (Elt F) ((sW : Memref sig .scVector .vmem S512 .i32).view.loc (V d (cV L) (jV L))))
    (mI : Buf (Elt F) (iLoc d)) (t : Fin 512) :
    ((sW : Memref sig .scVector .vmem S512 .i32).view.write (Elt F) fs
        ((ReadAs.same : ReadAs (Elt F) S512 .i32 S512 .i32).apply
          (((iW : Memref sig .scVector .hbm S16384 .i32).slice (Rect.unit (s := S16384) (k0_off1 L) S512.size (k0_off1_inb L))
              (fun _ => rfl)).view.read (Elt F) mI)) Finset.univ) (ValueIdx.ix1 t)
      = mI (ValueIdx.ix1 (⟨base L + t.val, base_add_lt L t⟩ : Fin 16384)) := by
  show ((View.whole scrScv).write (Elt F) fs
      (((iW : Memref sig .scVector .hbm S16384 .i32).view.slice (Rect.unit (s := S16384) (k0_off1 L) S512.size (k0_off1_inb L))).read (Elt F) mI)
      Finset.univ) (ValueIdx.ix1 t) = _
  rw [View.write_whole_univ, View.read_apply]
  refine (cast_eq _ _).trans ?_
  refine congrArg mI (funext fun (a : Fin 1) => Fin.ext ?_)
  obtain rfl : a = 0 := Subsingleton.elim _ _
  show (k0_off1 L) 0 + 1 * t.val = base L + t.val
  rw [k0_off1_eq]
  unfold base
  simp

/-! ## What one row's copy leaves -/

/-- A word that passes the copy's side condition names a row. -/
theorem lt_of_inb {w : BitVec 32} (hw : ∀ a, (k0_off4 w) a + S1x64.size a ≤ TS.size a) : w.toNat < nRows :=
  show w.toNat + 1 ≤ nRows from hw 0

/-- Column c of the destination row's own indices sits at (r, c) of the result. -/
theorem dst_emb (r : Fin 16384) (inb : ∀ a, (![r.val, 0] : Fin 2 → Nat) a + S1x64.size a ≤ S16384x64.size a) (x : S64.Idx) :
    (((oW : Memref sig .scVector .hbm S16384x64 .f32).slice (Rect.unit (s := S16384x64) ![r.val, 0] S1x64.size inb) (fun _ => rfl)).squeeze S64
        squeezes_S1x64_S64).view.emb x = ValueIdx.ix2 r (x 0) := by
  show (Rect.unit (s := S16384x64) ![r.val, 0] S1x64.size inb).emb (Shape.reshapeEquiv squeezes_S1x64_S64.numel_eq x) = _
  rw [Shape.reshapeEquiv_cons_one]
  funext a
  apply Fin.ext
  match a with
  | 0 => show r.val + 1 * 0 = r.val; omega
  | 1 => show 0 + 1 * (x 0).val = (x 0).val; omega

/-- Column c of the source row's own indices sits at (w, c) of the table. -/
theorem src_emb (w : BitVec 32) (hw : ∀ a, (k0_off4 w) a + S1x64.size a ≤ TS.size a) (x : S64.Idx) :
    (((tW : Memref sig .scVector .hbm TS .f32).slice (Rect.unit (s := TS) (k0_off4 w) S1x64.size hw) (fun _ => rfl)).squeeze S64
        squeezes_S1x64_S64).view.emb x = ValueIdx.ix2 (⟨w.toNat, lt_of_inb hw⟩ : Fin nRows) (x 0) := by
  show (Rect.unit (s := TS) (k0_off4 w) S1x64.size hw).emb (Shape.reshapeEquiv squeezes_S1x64_S64.numel_eq x) = _
  rw [Shape.reshapeEquiv_cons_one]
  funext a
  apply Fin.ext
  match a with
  | 0 => show w.toNat + 1 * 0 = w.toNat; omega
  | 1 => show 0 + 1 * (x 0).val = (x 0).val; omega

/-- After table row w has been copied onto result row r, every index of row r holds the table's entry at row w and the
    index's own column. -/
theorem write_row (d : Dev nD) (L : grid0.Coords) (off : Fin 2 → Nat) (inb : ∀ a, off a + S1x64.size a ≤ S16384x64.size a)
    (r : Fin 16384) (hoff : off = ![r.val, 0]) (w : BitVec 32) (hw : ∀ a, (k0_off4 w) a + S1x64.size a ≤ TS.size a)
    (fT : Buf (Elt F) (tLoc d)) (fO : Buf (Elt F) (oLoc d)) (i : S16384x64.Idx) (hi : i ∈ rowSet r) :
      ((((oW : Memref sig .scVector .hbm S16384x64 .f32).slice (Rect.unit (s := S16384x64) off S1x64.size inb) (fun _ => rfl)).squeeze S64
          squeezes_S1x64_S64).view.write (Elt F) fO
        ((ReadAs.same : ReadAs (Elt F) S64 .f32 S64 .f32).apply
          ((((tW : Memref sig .scVector .hbm TS .f32).slice (Rect.unit (s := TS) (k0_off4 w) S1x64.size hw) (fun _ => rfl)).squeeze S64
            squeezes_S1x64_S64).view.read (Elt F) fT)) Finset.univ) i
        = fT (ValueIdx.ix2 (⟨w.toNat, lt_of_inb hw⟩ : Fin nRows) (i 1)) := by
  subst hoff
  rw [← set_dstRow ![r.val, 0] inb r rfl] at hi
  obtain ⟨x, -, rfl⟩ := Finset.mem_map.mp hi
  rw [View.write_emb_of_mem _ _ (Finset.mem_univ x)]
  refine (cast_eq _ _).trans ?_
  show (((tW : Memref sig .scVector .hbm TS .f32).slice (Rect.unit (s := TS) (k0_off4 w) S1x64.size hw) (fun _ => rfl)).squeeze S64
      squeezes_S1x64_S64).view.read (Elt F) fT x = _
  rw [View.read_apply]
  refine (cast_eq _ _).trans ?_
  rw [src_emb w hw x, dst_emb r inb x]
  rfl

end Cert.Proof.KB.R0

end
-- ==== Proof.KBIssue0.lean ====
/-
  One of the tile's 512 row copies, started as the batch's next transfer. The copy reads the table row that the
  tile's `t`-th index word names and writes the tile's `t`-th row of the result; once it has landed, that row holds
  the lookup's value there: entry `(r, k)` of the result is entry `(idx r, k)` of the table.
-/
import proofs.«218896_g85959475462175_cont_9to1_m_647_27_alg».proof.Proof.KBTileDefs0
import proofs.«218896_g85959475462175_cont_9to1_m_647_27_alg».proof.Proof.KBView0

noncomputable section

namespace Cert.Proof.KB.R0

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

variable (m : (ℓ : Loc nD τ sig) → Buf (Elt F) ℓ) (d : Dev nD) (L : grid0.Coords)

/-- A row of the result and a row of the table, as the body slices them. -/
abbrev dstRow (off : Fin 2 → Nat) (inb : ∀ a, off a + S1x64.size a ≤ S16384x64.size a) : Memref sig .scVector .hbm S64 .f32 :=
  ((oW : Memref sig .scVector .hbm S16384x64 .f32).slice (Rect.unit (s := S16384x64) off S1x64.size inb) (fun _ => rfl)).squeeze S64 squeezes_S1x64_S64
abbrev srcRow (w : BitVec 32) (hw : ∀ a, (k0_off4 w) a + S1x64.size a ≤ TS.size a) : Memref sig .scVector .hbm S64 .f32 :=
  ((tW : Memref sig .scVector .hbm TS .f32).slice (Rect.unit (s := TS) (k0_off4 w) S1x64.size hw) (fun _ => rfl)).squeeze S64 squeezes_S1x64_S64

variable [FloatOps F]

/-- What the landed copy leaves in its row is the lookup's value there. -/
theorem landed_eq (t : Fin 512) (off : Fin 2 → Nat) (inb : ∀ a, off a + S1x64.size a ≤ S16384x64.size a)
    (hoff : off = ![(tileRow L t).val, 0]) (w : BitVec 32) (hw : ∀ a, (k0_off4 w) a + S1x64.size a ≤ TS.size a)
    (hwv : w = m (iLoc d) (ValueIdx.ix1 (tileRow L t))) (hlt : w.toNat < nRows)
    (i : S16384x64.Idx) (hi : i ∈ rowSet (tileRow L t)) :
    ((dstRow off inb).view.write (Elt F) (m (oLoc d)) ((ReadAs.same : ReadAs (Elt F) S64 .f32 S64 .f32).apply ((srcRow w hw).view.read (Elt F) (m (tLoc d)))) Finset.univ) i
      = G m d i := by
  rw [write_row d L off inb (tileRow L t) hoff w hw (m (tLoc d)) (m (oLoc d)) i hi]
  obtain ⟨r, k, rfl⟩ : ∃ (r : Fin 16384) (k : Fin 64), i = ValueIdx.ix2 r k := ⟨i 0, i 1, ValueIdx.eq_ix2 i⟩
  have hr : r = tileRow L t := mem_rowSet_fst hi
  subst hr
  show m (tLoc d) (ValueIdx.ix2 _ k) = _
  rw [G_row]
  congr 2
  apply Fin.ext
  show w.toNat = (Spec.rowOf nRows nRows_pos (m (iLoc d) (ValueIdx.ix1 (tileRow L t)))).val
  rw [← hwv, Spec.rowOf_val_of_lt nRows_pos hlt]

/-- The batch's transfer `t`, started: from the copy's own token of the table and its row of the result. -/
theorem wp_issue (t : Fin 512) (off : Fin 2 → Nat) (inb : ∀ a, off a + S1x64.size a ≤ S16384x64.size a)
    (hoff : off = ![(tileRow L t).val, 0]) (w : BitVec 32) (hw : ∀ a, (k0_off4 w) a + S1x64.size a ≤ TS.size a)
    (hwv : w = m (iLoc d) (ValueIdx.ix1 (tileRow L t))) (hlt : w.toNat < nRows)
    {α : Type} {k : PUnit → Prog (TpuEff nD τ sig (Elt F) Λ₀ (thr d L).2) α} {Q : α → sProp 𝕄}
    {hs : (srcRow w hw).view.WordExact} {hd : (dstRow off inb).view.WordExact}
    {hsem : DmaTarget.Typed (nD := nD) Space.hbm (SemLoc.dma cc0_scratch1.sem) (DmaTarget.here (p := (thr d L).2) (dstRow off inb))} :
    iprop(Rk m d L t ∗ Transfers.Batch (EC (F := F)) (thr d L) (.dma cc0_scratch1.sem) (none : HIx 8) N (Dl m d L) t.val 0)
      ⊢ iprop((Transfers.Batch (EC (F := F)) (thr d L) (.dma cc0_scratch1.sem) (none : HIx 8) N (Dl m d L) (t.val + 1) 0
            -∗ wp frame (wpE (defs₀ (F := F)) 𝒱₀ (thr d L) none) Set.univ (k ⟨⟩) Q)
          -∗ wp frame (wpE (defs₀ (F := F)) 𝒱₀ (thr d L) none) Set.univ
              (.op (TpuEff.enqueueDma (srcRow w hw) (DmaTarget.here (p := (thr d L).2) (dstRow off inb)) (.dma cc0_scratch1.sem) hs hd hsem) k) Q) := by
  unfold Rk
  iintro ⟨⟨Htok, Hrow⟩, HB⟩ Hk
  ihave Htok' := ((pointsTo_split_subset (ℓ := tLoc d) (I := (srcRow w hw).view.set) (S := Finset.univ) (Finset.subset_univ _)).1) $$ Htok
  icases Htok' with ⟨Hsrc, -⟩
  iapply (Transfers.wp_dmaBatch (EC (F := F)) 𝒱₀ (thr d L) none (src := srcRow w hw) (dst := dstRow off inb)
      (q := Transfers.shareTok (tsh L) 512 t) (fs := m (tLoc d)) (Sd := rowSet (tileRow L t)) (fd := m (oLoc d)) (D := Dl m d L) (j := t.val) (u := 0)
      (none : HIx 8) N rfl (set_dstRow off inb (tileRow L t) hoff).le t.isLt (Nat.zero_le _) ?hD) $$ [Hsrc Hrow HB]
  case hD =>
    iintro ⟨H, -⟩
    unfold Dl
    iapply (Entails.of_eq (pointsTo_congr (fun i hi => landed_eq m d L t off inb hoff w hw hwv hlt i hi)))
    iexact H
  · isplitl [Hsrc]; · iexact Hsrc
    isplitl [Hrow]; · iexact Hrow
    iexact HB
  iexact Hk

end Cert.Proof.KB.R0

end
-- ==== Proof.KBDrain0.lean ====
/-
  The tile's second loop: 512 waits on the one semaphore that the 512 row copies complete on. Each wait takes one
  copy's units off the counter; copies land in any order, so a wait that is not the last proves nothing about any
  row, and only the last — when all 512 copies' units have been taken — hands back every row holding its value and
  the counter at zero. The invariant before wait k says exactly that: k copies' units consumed and the batch still
  open, or (after the last) every delivery in hand.
-/
import proofs.«218896_g85959475462175_cont_9to1_m_647_27_alg».proof.Proof.KBTileDefs0

noncomputable section

namespace Cert.Proof.KB.R0

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- The loop makes 512 trips. -/
theorem trips2 : Scf.trips k0_t2_loop.lb k0_t2_loop.ub k0_t2_loop.st = 512 := by decide

/-- A row's credit is positive. -/
theorem N_pos : 0 < N := View.dmaCredit_pos _ (by decide)

/-- Before wait `k` of the 512: the batch with `k` transfers' units consumed; after the last, every delivery. -/
def inv2 (O : CellTallies nD τ sig (HIx 8)) (W : Waits sig (HIx 8)) (k : ℕ) (_ : Unit) : sProp 𝕄 :=
  iprop(Transfers.MayWaits (thr d L) (none : HIx 8) O
    ∗ ((⌜k < 512⌝ ∗ Transfers.Batch (EC (F := F)) (thr d L) (.dma cc0_scratch1.sem) (none : HIx 8) N (Dl m d L) 512 (k * N)
          ∗ ∃ W', ⌜∀ p ∈ W', p ∈ W ∨ p.2 = none⌝ ∗ owes (thr d L) O W')
      ∨ (⌜k = 512⌝ ∗ bigSep Finset.univ (Dl m d L) ∗ semVal (cB d L) 0 ∗ ∃ W', ⌜∀ p ∈ W', p ∈ W ∨ p.2 = none⌝ ∗ owes (thr d L) O W')))

variable [FloatOps F]

/-- The 512 waits: from the batch with every copy started and nothing consumed, to every row delivered and the counter at
    zero; each wait is recorded at the index of the tile's own copies. -/
theorem drain (O : CellTallies nD τ sig (HIx 8)) (W : Waits sig (HIx 8)) :
    iprop(Transfers.MayWaits (thr d L) (none : HIx 8) O
        ∗ Transfers.Batch (EC (F := F)) (thr d L) (.dma cc0_scratch1.sem) (none : HIx 8) N (Dl m d L) 512 0
        ∗ owes (thr d L) O W)
      ⊢ wp frame (wpE (defs₀ (F := F)) 𝒱₀ (thr d L) none) Set.univ
          (Scf.Loop.for k0_t2_loop k0_t2_ok ⟨⟩ (k0_t2_body L tW (Memref.isWhole_whole _) iW (Memref.isWhole_whole _) oW (Memref.isWhole_whole _) sW (Memref.isWhole_whole _) cc0_scratch1 cc0_scoped0))
          (fun _ => iprop(bigSep Finset.univ (Dl m d L) ∗ semVal (cB d L) 0 ∗ ∃ W', ⌜∀ p ∈ W', p ∈ W ∨ p.2 = none⌝ ∗ owes (thr d L) O W')) := by
  iintro ⟨#Hmw, HB, HO⟩
  sl_for (inv2 m d L O W) $$ [HB HO]
  case region =>
    intro k acc
    have hk : k.val < 512 := Nat.lt_of_lt_of_eq k.isLt trips2
    have e : (k.val + 1) * N = k.val * N + N := by rw [Nat.add_mul, Nat.one_mul]
    unfold inv2
    iintro ⟨#Hmw, H⟩
    sl_exec
    icases H with (⟨-, HB, %W', %hW', HO⟩ | ⟨%hk', -⟩)
    rotate_left
    · exfalso; omega
    ihave Hmw1 := (Transfers.MayWaits.elim (SemLoc.dma cc0_scratch1.sem)) $$ Hmw
    have hW'' : ∀ p ∈ insert (SemLoc.dma cc0_scratch1.sem, (none : HIx 8)) W', p ∈ W ∨ p.2 = none := by
      intro p hp
      rcases Finset.mem_insert.mp hp with hp | hp
      · exact .inr (hp ▸ rfl)
      · exact hW' p hp
    by_cases hlast : k.val + 1 < 512
    · have hu : k.val * N + N < N * 512 := by
        have h1 : (k.val + 1) * N < 512 * N := Nat.mul_lt_mul_of_pos_right hlast N_pos
        rw [e] at h1; rw [Nat.mul_comm N 512]; exact h1
      iapply (Transfers.wp_waitBatchO (EC (F := F)) 𝒱₀ (thr d L) none (none : HIx 8) (N := N) rfl hu) $$ [HB HO Hmw1]
      · isplitl [HB]; · iexact HB
        isplitl [HO]; · iexact HO
        iexact Hmw1
      iintro ⟨HB, HO⟩
      sl_step
      isplitr; · iexact Hmw
      ileft
      isplitr; · ipureintro; exact hlast
      rw [e]
      isplitl [HB]; · iexact HB
      iexists _; isplitr
      · ipureintro; exact hW''
      · iexact HO
    · have hu : k.val * N + N = N * 512 := by
        have h1 : k.val = 511 := by omega
        rw [h1]; omega
      iapply (Transfers.wp_waitBatchLastO (EC (F := F)) 𝒱₀ (thr d L) none (none : HIx 8) (N := N) rfl N_pos hu) $$ [HB HO Hmw1]
      · isplitl [HB]; · iexact HB
        isplitl [HO]; · iexact HO
        iexact Hmw1
      iintro ⟨HD, Hv, HO⟩
      sl_step
      isplitr; · iexact Hmw
      iright
      isplitr; · ipureintro; omega
      isplitl [HD]; · iexact HD
      isplitl [Hv]; · iexact Hv
      iexists _; isplitr
      · ipureintro; exact hW''
      · iexact HO
  rw [trips2]
  isplitl [HB HO]
  · unfold inv2
    isplitr; · iexact Hmw
    ileft
    isplitr; · ipureintro; omega
    rw [Nat.zero_mul]
    isplitl [HB]; · iexact HB
    iexists W; isplitr
    · ipureintro; exact fun p hp => .inl hp
    · iexact HO
  · iintro %acc HI
    unfold inv2
    icases HI with ⟨-, (⟨%h, -⟩ | ⟨-, HD, Hv, HW⟩)⟩
    · exfalso; omega
    isplitl [HD]; · iexact HD
    isplitl [Hv]; · iexact Hv
    iexact HW

end Cert.Proof.KB.R0

end
-- ==== Proof.KBTile0.lean ====
/-
  The tile's obligation at call 0: the index words fetched into the scratch, the 512 row copies started sixteen to a
  trip on one semaphore as ONE batch (no copy's source or destination is touched between the first start and the
  last wait), the batch drained by 512 waits, and the rows handed back holding the lookup's value.
-/
import proofs.«218896_g85959475462175_cont_9to1_m_647_27_alg».proof.Proof.KBTileDefs0
import proofs.«218896_g85959475462175_cont_9to1_m_647_27_alg».proof.Proof.KBView0
import proofs.«218896_g85959475462175_cont_9to1_m_647_27_alg».proof.Proof.KBIssue0
import proofs.«218896_g85959475462175_cont_9to1_m_647_27_alg».proof.Proof.KBDrain0

noncomputable section

namespace Cert.Proof.KB.R0

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- Before trip `k` of the first loop: the scratch at the landed index words, the first `16 k` copies started and none
    waited for, the later copies' tokens and rows still in hand. -/
def inv1 (k : Nat) (_ : PUnit) : sProp 𝕄 :=
  iprop(∃ sc, ⌜Holds m d L sc⌝ ∗ ((sW : Memref sig .scVector .vmem S512 .i32).view.loc (thr d L) ↦{fullShare} sc)
    ∗ Transfers.Batch (EC (F := F)) (thr d L) (.dma cc0_scratch1.sem) (none : HIx 8) N (Dl m d L) (16 * k) 0
    ∗ bigSep (Transfers.pending (n := 512) (16 * k)) (Rk m d L))

/-- The sixteen words a trip loads. -/
abbrev loaded (k : Fin k0_t1_loop.trips) (sc : Buf (Elt F) ((sW : Memref sig .scVector .vmem S512 .i32).view.loc (thr d L))) : Vec F S16 .i32 :=
  (sW : Memref sig .scVector .vmem S512 .i32).view.readAt (Elt F) (Rect.unit (s := S512) (k0_off2 k) S16.size (k0_off2_inb k)).toLoadRect sc

theorem off_eq {x y : Nat} (h : x = y) : (![x, 0] : Fin 2 → Nat) = ![y, 0] := by rw [h]

variable [FloatOps F]

/- Copy `j` of a trip: its index word names a row of the table (the check passes), and the copy is the batch's
   transfer `16 k + j`, started from that transfer's token and row. -/
set_option hygiene false in
local macro "issue_copy " j:num " with " chk:ident ", " wj:ident ", " offeq:ident : tactic => `(tactic| (
  iapply (wp_assume 𝒱₀ (thr d L) none Set.univ ($chk:ident ((congrArg BitVec.toNat ($wj:ident (loaded d L k sc))).trans_lt (hwlt ⟨$j, by decide⟩))))
  sl_exec
  ihave Hp := (Entails.of_eq (Transfers.bigSep_pending_step (Rk m d L) (16 * k.val + $j) (hidx ⟨$j, by decide⟩))) $$ Hpend
  icases Hp with ⟨HR, Hpend⟩
  iapply (wp_issue m d L ⟨16 * k.val + $j, hidx ⟨$j, by decide⟩⟩ _ _
      (($offeq:ident L k).trans (off_eq (by show _ = base L + (16 * k.val + $j); unfold base; omega))) _ _
      (($wj:ident (loaded d L k sc)).trans (hwv ⟨$j, by decide⟩)) ((congrArg BitVec.toNat ($wj:ident (loaded d L k sc))).trans_lt (hwlt ⟨$j, by decide⟩))) $$ [HR HB]
  · isplitl [HR]
    · iexact HR
    iexact HB
  iintro HB
  sl_exec))

theorem tile_body (hF : (K (F := F)).Facts) (hpre : ∀ d, Spec.InRange nRows (m (iLoc d))) : TileBody m := by
  intro d L O W hO
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  unfold go
  iintro ⟨#Hlv, -, ⟨Ht, Hi, Hrows⟩, ⟨⟨%fs, Hs⟩, Hbufs⟩, ⟨HsemS, HsemB, Hsems⟩, HO⟩
  ihave Hmw := ((K (F := F)).mayWaits_none (thr := thr d L) hO) $$ Hlv
  ihave Hi' := (Entails.of_eq (pts_i (F := F) d L _ _).symm) $$ Hi
  ihave Hs' := (Entails.of_eq (pts_s (F := F) d L _).symm) $$ Hs
  -- the index words fetched into the scratch, and the fetch waited for
  sl_exec
  -- the 512 copies' batch on the shared semaphore, allocated before the first is started
  imod (Transfers.batch_alloc' (Lvl := ℕ) (EC (F := F)) (thr d L) (none : HIx 8) N (Dl m d L) (sm := .dma cc0_scratch1.sem) (E := Set.univ)) $$ HsemB with HB
  -- the table's token dealt into one per copy
  ihave Ht' := (Transfers.pointsTo_toks_split (tsh L) 512) $$ Ht
  icases Ht' with ⟨-, Htoks⟩
  sl_for (inv1 m d L) $$ [Hs' HB Htoks Hrows]
  case region =>
    intro k hk
    unfold inv1
    iintro ⟨%sc, %hsc, Hs, HB, Hpend⟩
    have hk32 : k.val < 32 := lt_of_lt_of_eq k.isLt trips1
    have hidx : ∀ j : Fin 16, 16 * k.val + j.val < 512 := fun j => by have := j.isLt; omega
    -- the sixteen words the trip loads are the tile's index words 16 k … 16 k + 15; each names a row of the table
    have hwv : ∀ j : Fin 16, loaded d L k sc (ValueIdx.ix1 j) = m (iLoc d) (ValueIdx.ix1 (tileRow L ⟨16 * k.val + j.val, hidx j⟩)) :=
      fun j => (loaded_word d L k sc j).trans (hsc _)
    have hwlt : ∀ j : Fin 16, (loaded d L k sc (ValueIdx.ix1 j)).toNat < nRows := fun j => by rw [hwv j]; exact (hpre d).toNat_lt _
    sl_exec
    issue_copy 0 with chk_of_lt_1, word_0, k0_off3_eq
    issue_copy 1 with chk_of_lt_2, word_1, k0_off5_eq
    issue_copy 2 with chk_of_lt_3, word_2, k0_off7_eq
    issue_copy 3 with chk_of_lt_4, word_3, k0_off9_eq
    issue_copy 4 with chk_of_lt_5, word_4, k0_off11_eq
    issue_copy 5 with chk_of_lt_6, word_5, k0_off13_eq
    issue_copy 6 with chk_of_lt_7, word_6, k0_off15_eq
    issue_copy 7 with chk_of_lt_8, word_7, k0_off17_eq
    issue_copy 8 with chk_of_lt_9, word_8, k0_off19_eq
    issue_copy 9 with chk_of_lt_10, word_9, k0_off21_eq
    issue_copy 10 with chk_of_lt_11, word_10, k0_off23_eq
    issue_copy 11 with chk_of_lt_12, word_11, k0_off25_eq
    issue_copy 12 with chk_of_lt_13, word_12, k0_off27_eq
    issue_copy 13 with chk_of_lt_14, word_13, k0_off29_eq
    issue_copy 14 with chk_of_lt_15, word_14, k0_off31_eq
    issue_copy 15 with chk_of_lt_16, word_15, k0_off33_eq
    -- the trip's return: the invariant at `k + 1`
    rw [show 16 * (k.val + 1) = 16 * k.val + 15 + 1 by omega]
    sl_step
    iexists sc
    isplitr; · ipureintro; exact hsc
    isplitl [Hs]; · iexact Hs
    isplitl [HB]; · iexact HB
    iexact Hpend
  · -- the loop's entry: nothing started, every copy's token and row in hand
    unfold inv1
    iexists _
    isplitr; · ipureintro; exact fun t => scratch_holds d L fs (m (iLoc d)) t
    isplitl [Hs']; · iexact Hs'
    isplitl [HB]; · iexact HB
    rw [show 16 * 0 = 0 from rfl, ← Transfers.bigSep_pending_zero]
    unfold Rk
    rw [bigSep_sep']
    isplitl [Htoks]; · iexact Htoks
    iexact Hrows
  -- after the first loop: all 512 started, none waited for
  iintro %_ HI
  unfold inv1
  icases HI with ⟨%sc, -, Hs, HB, -⟩
  sl_exec
  have h512 : 16 * Scf.trips k0_t1_loop.lb k0_t1_loop.ub k0_t1_loop.st = 512 := by decide
  rw [h512]
  -- the second loop drains the batch: every row comes back holding the lookup's value
  simp only [wp_bind]
  ihave Hd := (drain m d L O _) $$ [HB HO]
  · isplitr; · iexact Hmw
    isplitl [HB]; · iexact HB
    iexact HO
  iapply (wp_wand frame _ Set.univ) $$ Hd
  iintro %_ ⟨HD, HsemB, %W', %hW', HO⟩
  sl_step
  isplitl [HD]
  · unfold td; iexact HD
  isplitl [Hs Hbufs]
  · isplitl [Hs]
    · iexists _; iapply (Entails.of_eq (pts_s (F := F) d L _)); iexact Hs
    iexact Hbufs
  isplitl [HsemS HsemB Hsems]
  · isplitl [HsemS]; · iexact HsemS
    isplitl [HsemB]; · iexact HsemB
    iexact Hsems
  iexists W'; isplitr
  · ipureintro; intro p hp
    rcases hW' p hp with h | h
    · rcases Finset.mem_insert.mp h with rfl | h
      · exact .inr rfl
      · exact .inl h
    · exact .inr h
  iexact HO

end Cert.Proof.KB.R0

end
-- ==== Proof.KBTileDefs1.lean ====
/-
  The tile's own names for call 1's body: its thread, its two DMA semaphores' cells, its scoped storage opened to
  the scratch and those two cells, the batch of the 512 row copies (each copy's delivery: its row of the result at
  the lookup's value), and what a copy needs before it is started.
-/
import proofs.«218896_g85959475462175_cont_9to1_m_647_27_alg».proof.Proof.KBRes1

noncomputable section

namespace Cert.Proof.KB.R1

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

abbrev thr : Thread nD τ := V d (cV L) (jV L)
abbrev cS : GSem nD τ sig := (thr d L, .dma cc1_scoped0.sem)
abbrev cB : GSem nD τ sig := (thr d L, .dma cc1_scratch1.sem)

theorem ownSems0_V :
    (ownSems0 (thr d L) : sProp 𝕄)
      = iprop(semVal (cS d L) 0 ∗ semVal (cB d L) 0 ∗ bigSep (((ownCells (thr d L)).erase (cS d L)).erase (cB d L)) fun g => semVal g 0) := by
  unfold SparseCore.Cfg.ownSems0
  rw [SparseCore.bigSep_erase' ((mem_ownCells (g := cS d L)).mpr ⟨rfl, by
      show (SemLoc.dma cc1_scoped0.sem : SemLoc sig).isScoped .scVector = true; decide⟩),
    SparseCore.bigSep_erase' (Finset.mem_erase.mpr ⟨by simp [cS, cB]; decide, (mem_ownCells (g := cB d L)).mpr ⟨rfl, by
      show (SemLoc.dma cc1_scratch1.sem : SemLoc sig).isScoped .scVector = true; decide⟩⟩)]

theorem ownBufs_V :
    (ownBufs (thr d L) : sProp 𝕄)
      = iprop((∃ f, (thr d L).loc scrScv ↦{fullShare} f)
          ∗ bigSep ((ownRefs (τ := τ) (.scVector (cV L) (jV L))).erase ((Proc.scVector (cV L) (jV L)).devRef scrScv))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef scrScv) rfl)

omit m in
theorem pts_i (q : PosShare TreeShare) (f : Buf (Elt F) (iLoc d)) :
    ((iW : Memref sig .scVector .hbm S16384 .i32).view.loc (thr d L) ↦{q} f : sProp 𝕄) = iLoc d ↦{q} f := rfl
omit m in
theorem pts_t (q : PosShare TreeShare) (f : Buf (Elt F) (tLoc d)) :
    ((tW : Memref sig .scVector .hbm TS .f32).view.loc (thr d L) ↦{q} f : sProp 𝕄) = tLoc d ↦{q} f := rfl
omit m in
theorem pts_s (f : Buf (Elt F) ((thr d L).loc scrScv)) :
    ((sW : Memref sig .scVector .vmem S512 .i32).view.loc (thr d L) ↦{fullShare} f : sProp 𝕄) = (thr d L).loc scrScv ↦{fullShare} f := rfl

/-- The counters of the tile's own copies. -/
abbrev EC : UEmb Counters (MT nD τ sig (HIx 8) (Elt F) ℕ UU ℕ) := countersEmb (U := UU)

/-- Row 0 of the result as the waits name it: any row's credit. -/
abbrev row0 : Memref sig .scVector .hbm S64 .f32 :=
  ((oW : Memref sig .scVector .hbm S16384x64 .f32).slice (Rect.unit (s := S16384x64) ![0, 0] S1x64.size inb_S16384x64_S1x64_0_0) (fun _ => rfl)).squeeze S64 squeezes_S1x64_S64
abbrev N : ℕ := (row0).view.dmaCredit

/-- The tile's read token of the table. -/
abbrev tsh : PosShare TreeShare := Transfers.shareTok fullShare 32 (wid L)

/-- Copy `t` of the 512 delivers row `t` of the tile's rows holding the lookup's value. -/
def Dl (t : Fin 512) : sProp 𝕄 := oLoc d ↦[rowSet (tileRow L t)]{fullShare} G m d

instance Dl_storable (t : Fin 512) : BI.Storable (upEmb : UEmb _ 𝕄) (Dl m d L t) := by unfold Dl; infer_instance

/-- What copy `t` needs before it is started: its own read token of the table, and its row of the result. -/
def Rk (t : Fin 512) : sProp 𝕄 :=
  iprop((tLoc d ↦{Transfers.shareTok (tsh L) 512 t} m (tLoc d)) ∗ (oLoc d ↦[rowSet (tileRow L t)]{fullShare} m (oLoc d)))

/-- The scratch holds the tile's 512 index words. -/
def Holds (sc : Buf (Elt F) ((sW : Memref sig .scVector .vmem S512 .i32).view.loc (thr d L))) : Prop :=
  ∀ t : Fin 512, sc (ValueIdx.ix1 t) = m (iLoc d) (ValueIdx.ix1 (tileRow L t))

end Cert.Proof.KB.R1

end
-- ==== Proof.KBView1.lean ====
/-
  Call 1 of the eight: what the tile's memory accesses address and read, as plain facts about index sets and
  contents, with no program logic in them.

  The tile at grid coordinates L owns result rows base L … base L + 511. It copies index words base L … base L + 511
  into its 512-word scratch (scratch_holds: word t of the scratch is then word base L + t of the index array);
  in trip g it loads the sixteen scratch words 16g … 16g + 15 (loaded_word) and takes them apart one at a time
  (word_0 … word_15); for each word w it copies table row w, when w names a row (chk_of_lt_N), onto one result row
  (set_dstRow: the destination is exactly that row's set of indices; write_row: after the copy the row holds table row w,
  column by column). G_row is the lookup's value at one index, and mem_rowSet_fst says that an index of row r's set has
  first coordinate r.
-/
import proofs.«218896_g85959475462175_cont_9to1_m_647_27_alg».proof.Proof.KBRes1

noncomputable section

namespace Cert.Proof.KB.R1

open Cert.Kernel Cert.Kernel.Gen Cert.Proof.KB

open Idealize.ShloMosaic
open Idealize.ShloMosaic.SparseCore (S V T)

variable {F : FTy → Type}

/-! ## A word that names a row passes the copy's side condition -/

theorem chk_of_lt_1 {w : BitVec 32} (h : w.toNat < nRows) : k1_chk1 w := fun a =>
  match a with
  | 0 => show w.toNat + 1 ≤ nRows from h
  | 1 => show 0 + 64 ≤ 64 from Nat.le_refl _
theorem chk_of_lt_2 {w : BitVec 32} (h : w.toNat < nRows) : k1_chk2 w := fun a =>
  match a with
  | 0 => show w.toNat + 1 ≤ nRows from h
  | 1 => show 0 + 64 ≤ 64 from Nat.le_refl _
theorem chk_of_lt_3 {w : BitVec 32} (h : w.toNat < nRows) : k1_chk3 w := fun a =>
  match a with
  | 0 => show w.toNat + 1 ≤ nRows from h
  | 1 => show 0 + 64 ≤ 64 from Nat.le_refl _
theorem chk_of_lt_4 {w : BitVec 32} (h : w.toNat < nRows) : k1_chk4 w := fun a =>
  match a with
  | 0 => show w.toNat + 1 ≤ nRows from h
  | 1 => show 0 + 64 ≤ 64 from Nat.le_refl _
theorem chk_of_lt_5 {w : BitVec 32} (h : w.toNat < nRows) : k1_chk5 w := fun a =>
  match a with
  | 0 => show w.toNat + 1 ≤ nRows from h
  | 1 => show 0 + 64 ≤ 64 from Nat.le_refl _
theorem chk_of_lt_6 {w : BitVec 32} (h : w.toNat < nRows) : k1_chk6 w := fun a =>
  match a with
  | 0 => show w.toNat + 1 ≤ nRows from h
  | 1 => show 0 + 64 ≤ 64 from Nat.le_refl _
theorem chk_of_lt_7 {w : BitVec 32} (h : w.toNat < nRows) : k1_chk7 w := fun a =>
  match a with
  | 0 => show w.toNat + 1 ≤ nRows from h
  | 1 => show 0 + 64 ≤ 64 from Nat.le_refl _
theorem chk_of_lt_8 {w : BitVec 32} (h : w.toNat < nRows) : k1_chk8 w := fun a =>
  match a with
  | 0 => show w.toNat + 1 ≤ nRows from h
  | 1 => show 0 + 64 ≤ 64 from Nat.le_refl _
theorem chk_of_lt_9 {w : BitVec 32} (h : w.toNat < nRows) : k1_chk9 w := fun a =>
  match a with
  | 0 => show w.toNat + 1 ≤ nRows from h
  | 1 => show 0 + 64 ≤ 64 from Nat.le_refl _
theorem chk_of_lt_10 {w : BitVec 32} (h : w.toNat < nRows) : k1_chk10 w := fun a =>
  match a with
  | 0 => show w.toNat + 1 ≤ nRows from h
  | 1 => show 0 + 64 ≤ 64 from Nat.le_refl _
theorem chk_of_lt_11 {w : BitVec 32} (h : w.toNat < nRows) : k1_chk11 w := fun a =>
  match a with
  | 0 => show w.toNat + 1 ≤ nRows from h
  | 1 => show 0 + 64 ≤ 64 from Nat.le_refl _
theorem chk_of_lt_12 {w : BitVec 32} (h : w.toNat < nRows) : k1_chk12 w := fun a =>
  match a with
  | 0 => show w.toNat + 1 ≤ nRows from h
  | 1 => show 0 + 64 ≤ 64 from Nat.le_refl _
theorem chk_of_lt_13 {w : BitVec 32} (h : w.toNat < nRows) : k1_chk13 w := fun a =>
  match a with
  | 0 => show w.toNat + 1 ≤ nRows from h
  | 1 => show 0 + 64 ≤ 64 from Nat.le_refl _
theorem chk_of_lt_14 {w : BitVec 32} (h : w.toNat < nRows) : k1_chk14 w := fun a =>
  match a with
  | 0 => show w.toNat + 1 ≤ nRows from h
  | 1 => show 0 + 64 ≤ 64 from Nat.le_refl _
theorem chk_of_lt_15 {w : BitVec 32} (h : w.toNat < nRows) : k1_chk15 w := fun a =>
  match a with
  | 0 => show w.toNat + 1 ≤ nRows from h
  | 1 => show 0 + 64 ≤ 64 from Nat.le_refl _
theorem chk_of_lt_16 {w : BitVec 32} (h : w.toNat < nRows) : k1_chk16 w := fun a =>
  match a with
  | 0 => show w.toNat + 1 ≤ nRows from h
  | 1 => show 0 + 64 ≤ 64 from Nat.le_refl _

/-! ## The sixteen words of a load, one at a time -/

theorem word_0 (v7 : Vec F S16 .i32) : extractAt ![0] (k1_pay1 v7) inpos_S1_p0 = v7 (ValueIdx.ix1 ⟨0, by decide⟩) := by
  unfold k1_pay1 extractAt extractStridedSlice
  exact congrArg v7 (funext fun a => by obtain rfl : a = 0 := Subsingleton.elim _ _; rfl)
theorem word_1 (v7 : Vec F S16 .i32) : extractAt ![0] (k1_pay2 v7) inpos_S1_p0 = v7 (ValueIdx.ix1 ⟨1, by decide⟩) := by
  unfold k1_pay2 extractAt extractStridedSlice
  exact congrArg v7 (funext fun a => by obtain rfl : a = 0 := Subsingleton.elim _ _; rfl)
theorem word_2 (v7 : Vec F S16 .i32) : extractAt ![0] (k1_pay3 v7) inpos_S1_p0 = v7 (ValueIdx.ix1 ⟨2, by decide⟩) := by
  unfold k1_pay3 extractAt extractStridedSlice
  exact congrArg v7 (funext fun a => by obtain rfl : a = 0 := Subsingleton.elim _ _; rfl)
theorem word_3 (v7 : Vec F S16 .i32) : extractAt ![0] (k1_pay4 v7) inpos_S1_p0 = v7 (ValueIdx.ix1 ⟨3, by decide⟩) := by
  unfold k1_pay4 extractAt extractStridedSlice
  exact congrArg v7 (funext fun a => by obtain rfl : a = 0 := Subsingleton.elim _ _; rfl)
theorem word_4 (v7 : Vec F S16 .i32) : extractAt ![0] (k1_pay5 v7) inpos_S1_p0 = v7 (ValueIdx.ix1 ⟨4, by decide⟩) := by
  unfold k1_pay5 extractAt extractStridedSlice
  exact congrArg v7 (funext fun a => by obtain rfl : a = 0 := Subsingleton.elim _ _; rfl)
theorem word_5 (v7 : Vec F S16 .i32) : extractAt ![0] (k1_pay6 v7) inpos_S1_p0 = v7 (ValueIdx.ix1 ⟨5, by decide⟩) := by
  unfold k1_pay6 extractAt extractStridedSlice
  exact congrArg v7 (funext fun a => by obtain rfl : a = 0 := Subsingleton.elim _ _; rfl)
theorem word_6 (v7 : Vec F S16 .i32) : extractAt ![0] (k1_pay7 v7) inpos_S1_p0 = v7 (ValueIdx.ix1 ⟨6, by decide⟩) := by
  unfold k1_pay7 extractAt extractStridedSlice
  exact congrArg v7 (funext fun a => by obtain rfl : a = 0 := Subsingleton.elim _ _; rfl)
theorem word_7 (v7 : Vec F S16 .i32) : extractAt ![0] (k1_pay8 v7) inpos_S1_p0 = v7 (ValueIdx.ix1 ⟨7, by decide⟩) := by
  unfold k1_pay8 extractAt extractStridedSlice
  exact congrArg v7 (funext fun a => by obtain rfl : a = 0 := Subsingleton.elim _ _; rfl)
theorem word_8 (v7 : Vec F S16 .i32) : extractAt ![0] (k1_pay9 v7) inpos_S1_p0 = v7 (ValueIdx.ix1 ⟨8, by decide⟩) := by
  unfold k1_pay9 extractAt extractStridedSlice
  exact congrArg v7 (funext fun a => by obtain rfl : a = 0 := Subsingleton.elim _ _; rfl)
theorem word_9 (v7 : Vec F S16 .i32) : extractAt ![0] (k1_pay10 v7) inpos_S1_p0 = v7 (ValueIdx.ix1 ⟨9, by decide⟩) := by
  unfold k1_pay10 extractAt extractStridedSlice
  exact congrArg v7 (funext fun a => by obtain rfl : a = 0 := Subsingleton.elim _ _; rfl)
theorem word_10 (v7 : Vec F S16 .i32) : extractAt ![0] (k1_pay11 v7) inpos_S1_p0 = v7 (ValueIdx.ix1 ⟨10, by decide⟩) := by
  unfold k1_pay11 extractAt extractStridedSlice
  exact congrArg v7 (funext fun a => by obtain rfl : a = 0 := Subsingleton.elim _ _; rfl)
theorem word_11 (v7 : Vec F S16 .i32) : extractAt ![0] (k1_pay12 v7) inpos_S1_p0 = v7 (ValueIdx.ix1 ⟨11, by decide⟩) := by
  unfold k1_pay12 extractAt extractStridedSlice
  exact congrArg v7 (funext fun a => by obtain rfl : a = 0 := Subsingleton.elim _ _; rfl)
theorem word_12 (v7 : Vec F S16 .i32) : extractAt ![0] (k1_pay13 v7) inpos_S1_p0 = v7 (ValueIdx.ix1 ⟨12, by decide⟩) := by
  unfold k1_pay13 extractAt extractStridedSlice
  exact congrArg v7 (funext fun a => by obtain rfl : a = 0 := Subsingleton.elim _ _; rfl)
theorem word_13 (v7 : Vec F S16 .i32) : extractAt ![0] (k1_pay14 v7) inpos_S1_p0 = v7 (ValueIdx.ix1 ⟨13, by decide⟩) := by
  unfold k1_pay14 extractAt extractStridedSlice
  exact congrArg v7 (funext fun a => by obtain rfl : a = 0 := Subsingleton.elim _ _; rfl)
theorem word_14 (v7 : Vec F S16 .i32) : extractAt ![0] (k1_pay15 v7) inpos_S1_p0 = v7 (ValueIdx.ix1 ⟨14, by decide⟩) := by
  unfold k1_pay15 extractAt extractStridedSlice
  exact congrArg v7 (funext fun a => by obtain rfl : a = 0 := Subsingleton.elim _ _; rfl)
theorem word_15 (v7 : Vec F S16 .i32) : extractAt ![0] (k1_pay16 v7) inpos_S1_p0 = v7 (ValueIdx.ix1 ⟨15, by decide⟩) := by
  unfold k1_pay16 extractAt extractStridedSlice
  exact congrArg v7 (funext fun a => by obtain rfl : a = 0 := Subsingleton.elim _ _; rfl)

/-! ## The lookup's value at an index; the indices of a row -/

variable (m : (ℓ : Loc nD τ sig) → Buf (Elt F) ℓ)

theorem G_row (d : Dev nD) (r : Fin 16384) (k : Fin 64) :
    G m d (ValueIdx.ix2 r k) = m (tLoc d) (ValueIdx.ix2 (Spec.rowOf nRows nRows_pos (m (iLoc d) (ValueIdx.ix1 r))) k) := by
  unfold G
  exact Spec.gatherRows_apply nRows nRows_pos (m (tLoc d)) (m (iLoc d)) r k

theorem mem_rowSet_fst {r : Fin 16384} {i : S16384x64.Idx} (h : i ∈ rowSet r) : i 0 = r := by
  have h' : i ∈ (row r).set := by rw [← View.set_slice_whole outScv (row r)]; exact h
  rw [Rect.mem_set_unit] at h'
  have h0 := h' 0
  apply Fin.ext
  simp only [Shape.partIx, Shape.partSize] at h0
  have e : S16384x64.size 0 / 16384 = 1 := by decide
  simp only [↓reduceIte, e] at h0
  omega

/-! ## The destination of one row's copy -/

/-- The one-row rectangle at row r is the r-th of the 16384 parts of the result along its first axis. -/
theorem unitRow_eq (r : Fin 16384) (inb : ∀ a, (![r.val, 0] : Fin 2 → Nat) a + S1x64.size a ≤ S16384x64.size a) :
    Rect.unit (s := S16384x64) ![r.val, 0] S1x64.size inb = row r := by
  unfold row Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem set_dstRow (off : Fin 2 → Nat) (inb : ∀ a, off a + S1x64.size a ≤ S16384x64.size a) (r : Fin 16384)
    (hoff : off = ![r.val, 0]) :
    (((oW : Memref sig .scVector .hbm S16384x64 .f32).slice (Rect.unit (s := S16384x64) off S1x64.size inb) (fun _ => rfl)).squeeze S64
        squeezes_S1x64_S64).view.set = rowSet r := by
  subst hoff
  show (((oW : Memref sig .scVector .hbm S16384x64 .f32).view.slice (Rect.unit (s := S16384x64) ![r.val, 0] S1x64.size inb)).reshape S64
      squeezes_S1x64_S64.numel_eq).set = ((oW : Memref sig .scVector .hbm S16384x64 .f32).view.slice (row r)).set
  rw [View.set_reshape]
  exact unitRow_eq r inb ▸ rfl

/-! ## What the scratch holds after the first copy, and what a trip loads from it -/

theorem trips1 : k1_t1_loop.trips = 32 := by decide

theorem word_lt (g : Fin k1_t1_loop.trips) (j : Fin 16) : 16 * g.val + j.val < 512 := by
  have hg : g.val < 32 := Nat.lt_of_lt_of_eq g.isLt trips1
  have hj := j.isLt
  omega

/-- Word j of the sixteen that trip g loads is word 16g + j of the scratch. -/
theorem loaded_word (d : Dev nD) (L : grid0.Coords) (g : Fin k1_t1_loop.trips)
    (s : Buf (Elt F) ((sW : Memref sig .scVector .vmem S512 .i32).view.loc (V d (cV L) (jV L)))) (j : Fin 16) :
    ((sW : Memref sig .scVector .vmem S512 .i32).view.readAt (Elt F)
        (Rect.unit (s := S512) (k1_off2 g) S16.size (k1_off2_inb g)).toLoadRect s) (ValueIdx.ix1 j)
      = s (ValueIdx.ix1 ⟨16 * g.val + j.val, word_lt g j⟩) := by
  rw [View.readAt_apply]
  show s ((Rect.unit (s := S512) (k1_off2 g) S16.size (k1_off2_inb g)).toLoadRect.idx (ValueIdx.ix1 j)) = _
  refine congrArg s (funext fun (a : Fin 1) => Fin.ext ?_)
  obtain rfl : a = 0 := Subsingleton.elim _ _
  rw [LoadRect.idx_apply]
  show (k1_off2 g) 0 + 1 * j.val = 16 * g.val + j.val
  rw [k1_off2_eq]
  simp

/-- Once the first copy has landed, word t of the scratch is word base L + t of the index array. -/
theorem scratch_holds (d : Dev nD) (L : grid0.Coords)
    (fs : Buf (Elt F) ((sW : Memref sig .scVector .vmem S512 .i32).view.loc (V d (cV L) (jV L))))
    (mI : Buf (Elt F) (iLoc d)) (t : Fin 512) :
    ((sW : Memref sig .scVector .vmem S512 .i32).view.write (Elt F) fs
        ((ReadAs.same : ReadAs (Elt F) S512 .i32 S512 .i32).apply
          (((iW : Memref sig .scVector .hbm S16384 .i32).slice (Rect.unit (s := S16384) (k1_off1 L) S512.size (k1_off1_inb L))
              (fun _ => rfl)).view.read (Elt F) mI)) Finset.univ) (ValueIdx.ix1 t)
      = mI (ValueIdx.ix1 (⟨base L + t.val, base_add_lt L t⟩ : Fin 16384)) := by
  show ((View.whole scrScv).write (Elt F) fs
      (((iW : Memref sig .scVector .hbm S16384 .i32).view.slice (Rect.unit (s := S16384) (k1_off1 L) S512.size (k1_off1_inb L))).read (Elt F) mI)
      Finset.univ) (ValueIdx.ix1 t) = _
  rw [View.write_whole_univ, View.read_apply]
  refine (cast_eq _ _).trans ?_
  refine congrArg mI (funext fun (a : Fin 1) => Fin.ext ?_)
  obtain rfl : a = 0 := Subsingleton.elim _ _
  show (k1_off1 L) 0 + 1 * t.val = base L + t.val
  rw [k1_off1_eq]
  unfold base
  simp

/-! ## What one row's copy leaves -/

/-- A word that passes the copy's side condition names a row. -/
theorem lt_of_inb {w : BitVec 32} (hw : ∀ a, (k1_off4 w) a + S1x64.size a ≤ TS.size a) : w.toNat < nRows :=
  show w.toNat + 1 ≤ nRows from hw 0

/-- Column c of the destination row's own indices sits at (r, c) of the result. -/
theorem dst_emb (r : Fin 16384) (inb : ∀ a, (![r.val, 0] : Fin 2 → Nat) a + S1x64.size a ≤ S16384x64.size a) (x : S64.Idx) :
    (((oW : Memref sig .scVector .hbm S16384x64 .f32).slice (Rect.unit (s := S16384x64) ![r.val, 0] S1x64.size inb) (fun _ => rfl)).squeeze S64
        squeezes_S1x64_S64).view.emb x = ValueIdx.ix2 r (x 0) := by
  show (Rect.unit (s := S16384x64) ![r.val, 0] S1x64.size inb).emb (Shape.reshapeEquiv squeezes_S1x64_S64.numel_eq x) = _
  rw [Shape.reshapeEquiv_cons_one]
  funext a
  apply Fin.ext
  match a with
  | 0 => show r.val + 1 * 0 = r.val; omega
  | 1 => show 0 + 1 * (x 0).val = (x 0).val; omega

/-- Column c of the source row's own indices sits at (w, c) of the table. -/
theorem src_emb (w : BitVec 32) (hw : ∀ a, (k1_off4 w) a + S1x64.size a ≤ TS.size a) (x : S64.Idx) :
    (((tW : Memref sig .scVector .hbm TS .f32).slice (Rect.unit (s := TS) (k1_off4 w) S1x64.size hw) (fun _ => rfl)).squeeze S64
        squeezes_S1x64_S64).view.emb x = ValueIdx.ix2 (⟨w.toNat, lt_of_inb hw⟩ : Fin nRows) (x 0) := by
  show (Rect.unit (s := TS) (k1_off4 w) S1x64.size hw).emb (Shape.reshapeEquiv squeezes_S1x64_S64.numel_eq x) = _
  rw [Shape.reshapeEquiv_cons_one]
  funext a
  apply Fin.ext
  match a with
  | 0 => show w.toNat + 1 * 0 = w.toNat; omega
  | 1 => show 0 + 1 * (x 0).val = (x 0).val; omega

/-- After table row w has been copied onto result row r, every index of row r holds the table's entry at row w and the
    index's own column. -/
theorem write_row (d : Dev nD) (L : grid0.Coords) (off : Fin 2 → Nat) (inb : ∀ a, off a + S1x64.size a ≤ S16384x64.size a)
    (r : Fin 16384) (hoff : off = ![r.val, 0]) (w : BitVec 32) (hw : ∀ a, (k1_off4 w) a + S1x64.size a ≤ TS.size a)
    (fT : Buf (Elt F) (tLoc d)) (fO : Buf (Elt F) (oLoc d)) (i : S16384x64.Idx) (hi : i ∈ rowSet r) :
      ((((oW : Memref sig .scVector .hbm S16384x64 .f32).slice (Rect.unit (s := S16384x64) off S1x64.size inb) (fun _ => rfl)).squeeze S64
          squeezes_S1x64_S64).view.write (Elt F) fO
        ((ReadAs.same : ReadAs (Elt F) S64 .f32 S64 .f32).apply
          ((((tW : Memref sig .scVector .hbm TS .f32).slice (Rect.unit (s := TS) (k1_off4 w) S1x64.size hw) (fun _ => rfl)).squeeze S64
            squeezes_S1x64_S64).view.read (Elt F) fT)) Finset.univ) i
        = fT (ValueIdx.ix2 (⟨w.toNat, lt_of_inb hw⟩ : Fin nRows) (i 1)) := by
  subst hoff
  rw [← set_dstRow ![r.val, 0] inb r rfl] at hi
  obtain ⟨x, -, rfl⟩ := Finset.mem_map.mp hi
  rw [View.write_emb_of_mem _ _ (Finset.mem_univ x)]
  refine (cast_eq _ _).trans ?_
  show (((tW : Memref sig .scVector .hbm TS .f32).slice (Rect.unit (s := TS) (k1_off4 w) S1x64.size hw) (fun _ => rfl)).squeeze S64
      squeezes_S1x64_S64).view.read (Elt F) fT x = _
  rw [View.read_apply]
  refine (cast_eq _ _).trans ?_
  rw [src_emb w hw x, dst_emb r inb x]
  rfl

end Cert.Proof.KB.R1

end
-- ==== Proof.KBIssue1.lean ====
/-
  One of the tile's 512 row copies, started as the batch's next transfer. The copy reads the table row that the
  tile's `t`-th index word names and writes the tile's `t`-th row of the result; once it has landed, that row holds
  the lookup's value there: entry `(r, k)` of the result is entry `(idx r, k)` of the table.
-/
import proofs.«218896_g85959475462175_cont_9to1_m_647_27_alg».proof.Proof.KBTileDefs1
import proofs.«218896_g85959475462175_cont_9to1_m_647_27_alg».proof.Proof.KBView1

noncomputable section

namespace Cert.Proof.KB.R1

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

variable (m : (ℓ : Loc nD τ sig) → Buf (Elt F) ℓ) (d : Dev nD) (L : grid0.Coords)

/-- A row of the result and a row of the table, as the body slices them. -/
abbrev dstRow (off : Fin 2 → Nat) (inb : ∀ a, off a + S1x64.size a ≤ S16384x64.size a) : Memref sig .scVector .hbm S64 .f32 :=
  ((oW : Memref sig .scVector .hbm S16384x64 .f32).slice (Rect.unit (s := S16384x64) off S1x64.size inb) (fun _ => rfl)).squeeze S64 squeezes_S1x64_S64
abbrev srcRow (w : BitVec 32) (hw : ∀ a, (k1_off4 w) a + S1x64.size a ≤ TS.size a) : Memref sig .scVector .hbm S64 .f32 :=
  ((tW : Memref sig .scVector .hbm TS .f32).slice (Rect.unit (s := TS) (k1_off4 w) S1x64.size hw) (fun _ => rfl)).squeeze S64 squeezes_S1x64_S64

variable [FloatOps F]

/-- What the landed copy leaves in its row is the lookup's value there. -/
theorem landed_eq (t : Fin 512) (off : Fin 2 → Nat) (inb : ∀ a, off a + S1x64.size a ≤ S16384x64.size a)
    (hoff : off = ![(tileRow L t).val, 0]) (w : BitVec 32) (hw : ∀ a, (k1_off4 w) a + S1x64.size a ≤ TS.size a)
    (hwv : w = m (iLoc d) (ValueIdx.ix1 (tileRow L t))) (hlt : w.toNat < nRows)
    (i : S16384x64.Idx) (hi : i ∈ rowSet (tileRow L t)) :
    ((dstRow off inb).view.write (Elt F) (m (oLoc d)) ((ReadAs.same : ReadAs (Elt F) S64 .f32 S64 .f32).apply ((srcRow w hw).view.read (Elt F) (m (tLoc d)))) Finset.univ) i
      = G m d i := by
  rw [write_row d L off inb (tileRow L t) hoff w hw (m (tLoc d)) (m (oLoc d)) i hi]
  obtain ⟨r, k, rfl⟩ : ∃ (r : Fin 16384) (k : Fin 64), i = ValueIdx.ix2 r k := ⟨i 0, i 1, ValueIdx.eq_ix2 i⟩
  have hr : r = tileRow L t := mem_rowSet_fst hi
  subst hr
  show m (tLoc d) (ValueIdx.ix2 _ k) = _
  rw [G_row]
  congr 2
  apply Fin.ext
  show w.toNat = (Spec.rowOf nRows nRows_pos (m (iLoc d) (ValueIdx.ix1 (tileRow L t)))).val
  rw [← hwv, Spec.rowOf_val_of_lt nRows_pos hlt]

/-- The batch's transfer `t`, started: from the copy's own token of the table and its row of the result. -/
theorem wp_issue (t : Fin 512) (off : Fin 2 → Nat) (inb : ∀ a, off a + S1x64.size a ≤ S16384x64.size a)
    (hoff : off = ![(tileRow L t).val, 0]) (w : BitVec 32) (hw : ∀ a, (k1_off4 w) a + S1x64.size a ≤ TS.size a)
    (hwv : w = m (iLoc d) (ValueIdx.ix1 (tileRow L t))) (hlt : w.toNat < nRows)
    {α : Type} {k : PUnit → Prog (TpuEff nD τ sig (Elt F) Λ₀ (thr d L).2) α} {Q : α → sProp 𝕄}
    {hs : (srcRow w hw).view.WordExact} {hd : (dstRow off inb).view.WordExact}
    {hsem : DmaTarget.Typed (nD := nD) Space.hbm (SemLoc.dma cc1_scratch1.sem) (DmaTarget.here (p := (thr d L).2) (dstRow off inb))} :
    iprop(Rk m d L t ∗ Transfers.Batch (EC (F := F)) (thr d L) (.dma cc1_scratch1.sem) (none : HIx 8) N (Dl m d L) t.val 0)
      ⊢ iprop((Transfers.Batch (EC (F := F)) (thr d L) (.dma cc1_scratch1.sem) (none : HIx 8) N (Dl m d L) (t.val + 1) 0
            -∗ wp frame (wpE (defs₀ (F := F)) 𝒱₀ (thr d L) none) Set.univ (k ⟨⟩) Q)
          -∗ wp frame (wpE (defs₀ (F := F)) 𝒱₀ (thr d L) none) Set.univ
              (.op (TpuEff.enqueueDma (srcRow w hw) (DmaTarget.here (p := (thr d L).2) (dstRow off inb)) (.dma cc1_scratch1.sem) hs hd hsem) k) Q) := by
  unfold Rk
  iintro ⟨⟨Htok, Hrow⟩, HB⟩ Hk
  ihave Htok' := ((pointsTo_split_subset (ℓ := tLoc d) (I := (srcRow w hw).view.set) (S := Finset.univ) (Finset.subset_univ _)).1) $$ Htok
  icases Htok' with ⟨Hsrc, -⟩
  iapply (Transfers.wp_dmaBatch (EC (F := F)) 𝒱₀ (thr d L) none (src := srcRow w hw) (dst := dstRow off inb)
      (q := Transfers.shareTok (tsh L) 512 t) (fs := m (tLoc d)) (Sd := rowSet (tileRow L t)) (fd := m (oLoc d)) (D := Dl m d L) (j := t.val) (u := 0)
      (none : HIx 8) N rfl (set_dstRow off inb (tileRow L t) hoff).le t.isLt (Nat.zero_le _) ?hD) $$ [Hsrc Hrow HB]
  case hD =>
    iintro ⟨H, -⟩
    unfold Dl
    iapply (Entails.of_eq (pointsTo_congr (fun i hi => landed_eq m d L t off inb hoff w hw hwv hlt i hi)))
    iexact H
  · isplitl [Hsrc]; · iexact Hsrc
    isplitl [Hrow]; · iexact Hrow
    iexact HB
  iexact Hk

end Cert.Proof.KB.R1

end
-- ==== Proof.KBDrain1.lean ====
/-
  The tile's second loop: 512 waits on the one semaphore that the 512 row copies complete on. Each wait takes one
  copy's units off the counter; copies land in any order, so a wait that is not the last proves nothing about any
  row, and only the last — when all 512 copies' units have been taken — hands back every row holding its value and
  the counter at zero. The invariant before wait k says exactly that: k copies' units consumed and the batch still
  open, or (after the last) every delivery in hand.
-/
import proofs.«218896_g85959475462175_cont_9to1_m_647_27_alg».proof.Proof.KBTileDefs1

noncomputable section

namespace Cert.Proof.KB.R1

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- The loop makes 512 trips. -/
theorem trips2 : Scf.trips k1_t2_loop.lb k1_t2_loop.ub k1_t2_loop.st = 512 := by decide

/-- A row's credit is positive. -/
theorem N_pos : 0 < N := View.dmaCredit_pos _ (by decide)

/-- Before wait `k` of the 512: the batch with `k` transfers' units consumed; after the last, every delivery. -/
def inv2 (O : CellTallies nD τ sig (HIx 8)) (W : Waits sig (HIx 8)) (k : ℕ) (_ : Unit) : sProp 𝕄 :=
  iprop(Transfers.MayWaits (thr d L) (none : HIx 8) O
    ∗ ((⌜k < 512⌝ ∗ Transfers.Batch (EC (F := F)) (thr d L) (.dma cc1_scratch1.sem) (none : HIx 8) N (Dl m d L) 512 (k * N)
          ∗ ∃ W', ⌜∀ p ∈ W', p ∈ W ∨ p.2 = none⌝ ∗ owes (thr d L) O W')
      ∨ (⌜k = 512⌝ ∗ bigSep Finset.univ (Dl m d L) ∗ semVal (cB d L) 0 ∗ ∃ W', ⌜∀ p ∈ W', p ∈ W ∨ p.2 = none⌝ ∗ owes (thr d L) O W')))

variable [FloatOps F]

/-- The 512 waits: from the batch with every copy started and nothing consumed, to every row delivered and the counter at
    zero; each wait is recorded at the index of the tile's own copies. -/
theorem drain (O : CellTallies nD τ sig (HIx 8)) (W : Waits sig (HIx 8)) :
    iprop(Transfers.MayWaits (thr d L) (none : HIx 8) O
        ∗ Transfers.Batch (EC (F := F)) (thr d L) (.dma cc1_scratch1.sem) (none : HIx 8) N (Dl m d L) 512 0
        ∗ owes (thr d L) O W)
      ⊢ wp frame (wpE (defs₀ (F := F)) 𝒱₀ (thr d L) none) Set.univ
          (Scf.Loop.for k1_t2_loop k1_t2_ok ⟨⟩ (k1_t2_body L tW (Memref.isWhole_whole _) iW (Memref.isWhole_whole _) oW (Memref.isWhole_whole _) sW (Memref.isWhole_whole _) cc1_scratch1 cc1_scoped0))
          (fun _ => iprop(bigSep Finset.univ (Dl m d L) ∗ semVal (cB d L) 0 ∗ ∃ W', ⌜∀ p ∈ W', p ∈ W ∨ p.2 = none⌝ ∗ owes (thr d L) O W')) := by
  iintro ⟨#Hmw, HB, HO⟩
  sl_for (inv2 m d L O W) $$ [HB HO]
  case region =>
    intro k acc
    have hk : k.val < 512 := Nat.lt_of_lt_of_eq k.isLt trips2
    have e : (k.val + 1) * N = k.val * N + N := by rw [Nat.add_mul, Nat.one_mul]
    unfold inv2
    iintro ⟨#Hmw, H⟩
    sl_exec
    icases H with (⟨-, HB, %W', %hW', HO⟩ | ⟨%hk', -⟩)
    rotate_left
    · exfalso; omega
    ihave Hmw1 := (Transfers.MayWaits.elim (SemLoc.dma cc1_scratch1.sem)) $$ Hmw
    have hW'' : ∀ p ∈ insert (SemLoc.dma cc1_scratch1.sem, (none : HIx 8)) W', p ∈ W ∨ p.2 = none := by
      intro p hp
      rcases Finset.mem_insert.mp hp with hp | hp
      · exact .inr (hp ▸ rfl)
      · exact hW' p hp
    by_cases hlast : k.val + 1 < 512
    · have hu : k.val * N + N < N * 512 := by
        have h1 : (k.val + 1) * N < 512 * N := Nat.mul_lt_mul_of_pos_right hlast N_pos
        rw [e] at h1; rw [Nat.mul_comm N 512]; exact h1
      iapply (Transfers.wp_waitBatchO (EC (F := F)) 𝒱₀ (thr d L) none (none : HIx 8) (N := N) rfl hu) $$ [HB HO Hmw1]
      · isplitl [HB]; · iexact HB
        isplitl [HO]; · iexact HO
        iexact Hmw1
      iintro ⟨HB, HO⟩
      sl_step
      isplitr; · iexact Hmw
      ileft
      isplitr; · ipureintro; exact hlast
      rw [e]
      isplitl [HB]; · iexact HB
      iexists _; isplitr
      · ipureintro; exact hW''
      · iexact HO
    · have hu : k.val * N + N = N * 512 := by
        have h1 : k.val = 511 := by omega
        rw [h1]; omega
      iapply (Transfers.wp_waitBatchLastO (EC (F := F)) 𝒱₀ (thr d L) none (none : HIx 8) (N := N) rfl N_pos hu) $$ [HB HO Hmw1]
      · isplitl [HB]; · iexact HB
        isplitl [HO]; · iexact HO
        iexact Hmw1
      iintro ⟨HD, Hv, HO⟩
      sl_step
      isplitr; · iexact Hmw
      iright
      isplitr; · ipureintro; omega
      isplitl [HD]; · iexact HD
      isplitl [Hv]; · iexact Hv
      iexists _; isplitr
      · ipureintro; exact hW''
      · iexact HO
  rw [trips2]
  isplitl [HB HO]
  · unfold inv2
    isplitr; · iexact Hmw
    ileft
    isplitr; · ipureintro; omega
    rw [Nat.zero_mul]
    isplitl [HB]; · iexact HB
    iexists W; isplitr
    · ipureintro; exact fun p hp => .inl hp
    · iexact HO
  · iintro %acc HI
    unfold inv2
    icases HI with ⟨-, (⟨%h, -⟩ | ⟨-, HD, Hv, HW⟩)⟩
    · exfalso; omega
    isplitl [HD]; · iexact HD
    isplitl [Hv]; · iexact Hv
    iexact HW

end Cert.Proof.KB.R1

end
-- ==== Proof.KBTile1.lean ====
/-
  The tile's obligation at call 1: the index words fetched into the scratch, the 512 row copies started sixteen to a
  trip on one semaphore as ONE batch (no copy's source or destination is touched between the first start and the
  last wait), the batch drained by 512 waits, and the rows handed back holding the lookup's value.
-/
import proofs.«218896_g85959475462175_cont_9to1_m_647_27_alg».proof.Proof.KBTileDefs1
import proofs.«218896_g85959475462175_cont_9to1_m_647_27_alg».proof.Proof.KBView1
import proofs.«218896_g85959475462175_cont_9to1_m_647_27_alg».proof.Proof.KBIssue1
import proofs.«218896_g85959475462175_cont_9to1_m_647_27_alg».proof.Proof.KBDrain1

noncomputable section

namespace Cert.Proof.KB.R1

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- Before trip `k` of the first loop: the scratch at the landed index words, the first `16 k` copies started and none
    waited for, the later copies' tokens and rows still in hand. -/
def inv1 (k : Nat) (_ : PUnit) : sProp 𝕄 :=
  iprop(∃ sc, ⌜Holds m d L sc⌝ ∗ ((sW : Memref sig .scVector .vmem S512 .i32).view.loc (thr d L) ↦{fullShare} sc)
    ∗ Transfers.Batch (EC (F := F)) (thr d L) (.dma cc1_scratch1.sem) (none : HIx 8) N (Dl m d L) (16 * k) 0
    ∗ bigSep (Transfers.pending (n := 512) (16 * k)) (Rk m d L))

/-- The sixteen words a trip loads. -/
abbrev loaded (k : Fin k1_t1_loop.trips) (sc : Buf (Elt F) ((sW : Memref sig .scVector .vmem S512 .i32).view.loc (thr d L))) : Vec F S16 .i32 :=
  (sW : Memref sig .scVector .vmem S512 .i32).view.readAt (Elt F) (Rect.unit (s := S512) (k1_off2 k) S16.size (k1_off2_inb k)).toLoadRect sc

theorem off_eq {x y : Nat} (h : x = y) : (![x, 0] : Fin 2 → Nat) = ![y, 0] := by rw [h]

variable [FloatOps F]

/- Copy `j` of a trip: its index word names a row of the table (the check passes), and the copy is the batch's
   transfer `16 k + j`, started from that transfer's token and row. -/
set_option hygiene false in
local macro "issue_copy " j:num " with " chk:ident ", " wj:ident ", " offeq:ident : tactic => `(tactic| (
  iapply (wp_assume 𝒱₀ (thr d L) none Set.univ ($chk:ident ((congrArg BitVec.toNat ($wj:ident (loaded d L k sc))).trans_lt (hwlt ⟨$j, by decide⟩))))
  sl_exec
  ihave Hp := (Entails.of_eq (Transfers.bigSep_pending_step (Rk m d L) (16 * k.val + $j) (hidx ⟨$j, by decide⟩))) $$ Hpend
  icases Hp with ⟨HR, Hpend⟩
  iapply (wp_issue m d L ⟨16 * k.val + $j, hidx ⟨$j, by decide⟩⟩ _ _
      (($offeq:ident L k).trans (off_eq (by show _ = base L + (16 * k.val + $j); unfold base; omega))) _ _
      (($wj:ident (loaded d L k sc)).trans (hwv ⟨$j, by decide⟩)) ((congrArg BitVec.toNat ($wj:ident (loaded d L k sc))).trans_lt (hwlt ⟨$j, by decide⟩))) $$ [HR HB]
  · isplitl [HR]
    · iexact HR
    iexact HB
  iintro HB
  sl_exec))

theorem tile_body (hF : (K (F := F)).Facts) (hpre : ∀ d, Spec.InRange nRows (m (iLoc d))) : TileBody m := by
  intro d L O W hO
  simp only [cc1__gather_body_eq_skeleton]; unfold cc1__gather_body_skel
  rw [(K (F := F)).scopedBufs_V hF d (cV L) (jV L), SparseCore.Cfg.scopedSems0_V (Val := Elt F) d (cV L) (jV L), ownSems0_V, ownBufs_V]
  unfold go
  iintro ⟨#Hlv, -, ⟨Ht, Hi, Hrows⟩, ⟨⟨%fs, Hs⟩, Hbufs⟩, ⟨HsemS, HsemB, Hsems⟩, HO⟩
  ihave Hmw := ((K (F := F)).mayWaits_none (thr := thr d L) hO) $$ Hlv
  ihave Hi' := (Entails.of_eq (pts_i (F := F) d L _ _).symm) $$ Hi
  ihave Hs' := (Entails.of_eq (pts_s (F := F) d L _).symm) $$ Hs
  -- the index words fetched into the scratch, and the fetch waited for
  sl_exec
  -- the 512 copies' batch on the shared semaphore, allocated before the first is started
  imod (Transfers.batch_alloc' (Lvl := ℕ) (EC (F := F)) (thr d L) (none : HIx 8) N (Dl m d L) (sm := .dma cc1_scratch1.sem) (E := Set.univ)) $$ HsemB with HB
  -- the table's token dealt into one per copy
  ihave Ht' := (Transfers.pointsTo_toks_split (tsh L) 512) $$ Ht
  icases Ht' with ⟨-, Htoks⟩
  sl_for (inv1 m d L) $$ [Hs' HB Htoks Hrows]
  case region =>
    intro k hk
    unfold inv1
    iintro ⟨%sc, %hsc, Hs, HB, Hpend⟩
    have hk32 : k.val < 32 := lt_of_lt_of_eq k.isLt trips1
    have hidx : ∀ j : Fin 16, 16 * k.val + j.val < 512 := fun j => by have := j.isLt; omega
    -- the sixteen words the trip loads are the tile's index words 16 k … 16 k + 15; each names a row of the table
    have hwv : ∀ j : Fin 16, loaded d L k sc (ValueIdx.ix1 j) = m (iLoc d) (ValueIdx.ix1 (tileRow L ⟨16 * k.val + j.val, hidx j⟩)) :=
      fun j => (loaded_word d L k sc j).trans (hsc _)
    have hwlt : ∀ j : Fin 16, (loaded d L k sc (ValueIdx.ix1 j)).toNat < nRows := fun j => by rw [hwv j]; exact (hpre d).toNat_lt _
    sl_exec
    issue_copy 0 with chk_of_lt_1, word_0, k1_off3_eq
    issue_copy 1 with chk_of_lt_2, word_1, k1_off5_eq
    issue_copy 2 with chk_of_lt_3, word_2, k1_off7_eq
    issue_copy 3 with chk_of_lt_4, word_3, k1_off9_eq
    issue_copy 4 with chk_of_lt_5, word_4, k1_off11_eq
    issue_copy 5 with chk_of_lt_6, word_5, k1_off13_eq
    issue_copy 6 with chk_of_lt_7, word_6, k1_off15_eq
    issue_copy 7 with chk_of_lt_8, word_7, k1_off17_eq
    issue_copy 8 with chk_of_lt_9, word_8, k1_off19_eq
    issue_copy 9 with chk_of_lt_10, word_9, k1_off21_eq
    issue_copy 10 with chk_of_lt_11, word_10, k1_off23_eq
    issue_copy 11 with chk_of_lt_12, word_11, k1_off25_eq
    issue_copy 12 with chk_of_lt_13, word_12, k1_off27_eq
    issue_copy 13 with chk_of_lt_14, word_13, k1_off29_eq
    issue_copy 14 with chk_of_lt_15, word_14, k1_off31_eq
    issue_copy 15 with chk_of_lt_16, word_15, k1_off33_eq
    -- the trip's return: the invariant at `k + 1`
    rw [show 16 * (k.val + 1) = 16 * k.val + 15 + 1 by omega]
    sl_step
    iexists sc
    isplitr; · ipureintro; exact hsc
    isplitl [Hs]; · iexact Hs
    isplitl [HB]; · iexact HB
    iexact Hpend
  · -- the loop's entry: nothing started, every copy's token and row in hand
    unfold inv1
    iexists _
    isplitr; · ipureintro; exact fun t => scratch_holds d L fs (m (iLoc d)) t
    isplitl [Hs']; · iexact Hs'
    isplitl [HB]; · iexact HB
    rw [show 16 * 0 = 0 from rfl, ← Transfers.bigSep_pending_zero]
    unfold Rk
    rw [bigSep_sep']
    isplitl [Htoks]; · iexact Htoks
    iexact Hrows
  -- after the first loop: all 512 started, none waited for
  iintro %_ HI
  unfold inv1
  icases HI with ⟨%sc, -, Hs, HB, -⟩
  sl_exec
  have h512 : 16 * Scf.trips k1_t1_loop.lb k1_t1_loop.ub k1_t1_loop.st = 512 := by decide
  rw [h512]
  -- the second loop drains the batch: every row comes back holding the lookup's value
  simp only [wp_bind]
  ihave Hd := (drain m d L O _) $$ [HB HO]
  · isplitr; · iexact Hmw
    isplitl [HB]; · iexact HB
    iexact HO
  iapply (wp_wand frame _ Set.univ) $$ Hd
  iintro %_ ⟨HD, HsemB, %W', %hW', HO⟩
  sl_step
  isplitl [HD]
  · unfold td; iexact HD
  isplitl [Hs Hbufs]
  · isplitl [Hs]
    · iexists _; iapply (Entails.of_eq (pts_s (F := F) d L _)); iexact Hs
    iexact Hbufs
  isplitl [HsemS HsemB Hsems]
  · isplitl [HsemS]; · iexact HsemS
    isplitl [HsemB]; · iexact HsemB
    iexact Hsems
  iexists W'; isplitr
  · ipureintro; intro p hp
    rcases hW' p hp with h | h
    · rcases Finset.mem_insert.mp h with rfl | h
      · exact .inr rfl
      · exact .inl h
    · exact .inr h
  iexact HO

end Cert.Proof.KB.R1

end
-- ==== Proof.KBTileDefs2.lean ====
/-
  The tile's own names for call 2's body: its thread, its two DMA semaphores' cells, its scoped storage opened to
  the scratch and those two cells, the batch of the 512 row copies (each copy's delivery: its row of the result at
  the lookup's value), and what a copy needs before it is started.
-/
import proofs.«218896_g85959475462175_cont_9to1_m_647_27_alg».proof.Proof.KBRes2

noncomputable section

namespace Cert.Proof.KB.R2

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

abbrev thr : Thread nD τ := V d (cV L) (jV L)
abbrev cS : GSem nD τ sig := (thr d L, .dma cc2_scoped0.sem)
abbrev cB : GSem nD τ sig := (thr d L, .dma cc2_scratch1.sem)

theorem ownSems0_V :
    (ownSems0 (thr d L) : sProp 𝕄)
      = iprop(semVal (cS d L) 0 ∗ semVal (cB d L) 0 ∗ bigSep (((ownCells (thr d L)).erase (cS d L)).erase (cB d L)) fun g => semVal g 0) := by
  unfold SparseCore.Cfg.ownSems0
  rw [SparseCore.bigSep_erase' ((mem_ownCells (g := cS d L)).mpr ⟨rfl, by
      show (SemLoc.dma cc2_scoped0.sem : SemLoc sig).isScoped .scVector = true; decide⟩),
    SparseCore.bigSep_erase' (Finset.mem_erase.mpr ⟨by simp [cS, cB]; decide, (mem_ownCells (g := cB d L)).mpr ⟨rfl, by
      show (SemLoc.dma cc2_scratch1.sem : SemLoc sig).isScoped .scVector = true; decide⟩⟩)]

theorem ownBufs_V :
    (ownBufs (thr d L) : sProp 𝕄)
      = iprop((∃ f, (thr d L).loc scrScv ↦{fullShare} f)
          ∗ bigSep ((ownRefs (τ := τ) (.scVector (cV L) (jV L))).erase ((Proc.scVector (cV L) (jV L)).devRef scrScv))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef scrScv) rfl)

omit m in
theorem pts_i (q : PosShare TreeShare) (f : Buf (Elt F) (iLoc d)) :
    ((iW : Memref sig .scVector .hbm S16384 .i32).view.loc (thr d L) ↦{q} f : sProp 𝕄) = iLoc d ↦{q} f := rfl
omit m in
theorem pts_t (q : PosShare TreeShare) (f : Buf (Elt F) (tLoc d)) :
    ((tW : Memref sig .scVector .hbm TS .f32).view.loc (thr d L) ↦{q} f : sProp 𝕄) = tLoc d ↦{q} f := rfl
omit m in
theorem pts_s (f : Buf (Elt F) ((thr d L).loc scrScv)) :
    ((sW : Memref sig .scVector .vmem S512 .i32).view.loc (thr d L) ↦{fullShare} f : sProp 𝕄) = (thr d L).loc scrScv ↦{fullShare} f := rfl

/-- The counters of the tile's own copies. -/
abbrev EC : UEmb Counters (MT nD τ sig (HIx 8) (Elt F) ℕ UU ℕ) := countersEmb (U := UU)

/-- Row 0 of the result as the waits name it: any row's credit. -/
abbrev row0 : Memref sig .scVector .hbm S64 .f32 :=
  ((oW : Memref sig .scVector .hbm S16384x64 .f32).slice (Rect.unit (s := S16384x64) ![0, 0] S1x64.size inb_S16384x64_S1x64_0_0) (fun _ => rfl)).squeeze S64 squeezes_S1x64_S64
abbrev N : ℕ := (row0).view.dmaCredit

/-- The tile's read token of the table. -/
abbrev tsh : PosShare TreeShare := Transfers.shareTok fullShare 32 (wid L)

/-- Copy `t` of the 512 delivers row `t` of the tile's rows holding the lookup's value. -/
def Dl (t : Fin 512) : sProp 𝕄 := oLoc d ↦[rowSet (tileRow L t)]{fullShare} G m d

instance Dl_storable (t : Fin 512) : BI.Storable (upEmb : UEmb _ 𝕄) (Dl m d L t) := by unfold Dl; infer_instance

/-- What copy `t` needs before it is started: its own read token of the table, and its row of the result. -/
def Rk (t : Fin 512) : sProp 𝕄 :=
  iprop((tLoc d ↦{Transfers.shareTok (tsh L) 512 t} m (tLoc d)) ∗ (oLoc d ↦[rowSet (tileRow L t)]{fullShare} m (oLoc d)))

/-- The scratch holds the tile's 512 index words. -/
def Holds (sc : Buf (Elt F) ((sW : Memref sig .scVector .vmem S512 .i32).view.loc (thr d L))) : Prop :=
  ∀ t : Fin 512, sc (ValueIdx.ix1 t) = m (iLoc d) (ValueIdx.ix1 (tileRow L t))

end Cert.Proof.KB.R2

end
-- ==== Proof.KBView2.lean ====
/-
  Call 2 of the eight: what the tile's memory accesses address and read, as plain facts about index sets and
  contents, with no program logic in them.

  The tile at grid coordinates L owns result rows base L … base L + 511. It copies index words base L … base L + 511
  into its 512-word scratch (scratch_holds: word t of the scratch is then word base L + t of the index array);
  in trip g it loads the sixteen scratch words 16g … 16g + 15 (loaded_word) and takes them apart one at a time
  (word_0 … word_15); for each word w it copies table row w, when w names a row (chk_of_lt_N), onto one result row
  (set_dstRow: the destination is exactly that row's set of indices; write_row: after the copy the row holds table row w,
  column by column). G_row is the lookup's value at one index, and mem_rowSet_fst says that an index of row r's set has
  first coordinate r.
-/
import proofs.«218896_g85959475462175_cont_9to1_m_647_27_alg».proof.Proof.KBRes2

noncomputable section

namespace Cert.Proof.KB.R2

open Cert.Kernel Cert.Kernel.Gen Cert.Proof.KB

open Idealize.ShloMosaic
open Idealize.ShloMosaic.SparseCore (S V T)

variable {F : FTy → Type}

/-! ## A word that names a row passes the copy's side condition -/

theorem chk_of_lt_1 {w : BitVec 32} (h : w.toNat < nRows) : k2_chk1 w := fun a =>
  match a with
  | 0 => show w.toNat + 1 ≤ nRows from h
  | 1 => show 0 + 64 ≤ 64 from Nat.le_refl _
theorem chk_of_lt_2 {w : BitVec 32} (h : w.toNat < nRows) : k2_chk2 w := fun a =>
  match a with
  | 0 => show w.toNat + 1 ≤ nRows from h
  | 1 => show 0 + 64 ≤ 64 from Nat.le_refl _
theorem chk_of_lt_3 {w : BitVec 32} (h : w.toNat < nRows) : k2_chk3 w := fun a =>
  match a with
  | 0 => show w.toNat + 1 ≤ nRows from h
  | 1 => show 0 + 64 ≤ 64 from Nat.le_refl _
theorem chk_of_lt_4 {w : BitVec 32} (h : w.toNat < nRows) : k2_chk4 w := fun a =>
  match a with
  | 0 => show w.toNat + 1 ≤ nRows from h
  | 1 => show 0 + 64 ≤ 64 from Nat.le_refl _
theorem chk_of_lt_5 {w : BitVec 32} (h : w.toNat < nRows) : k2_chk5 w := fun a =>
  match a with
  | 0 => show w.toNat + 1 ≤ nRows from h
  | 1 => show 0 + 64 ≤ 64 from Nat.le_refl _
theorem chk_of_lt_6 {w : BitVec 32} (h : w.toNat < nRows) : k2_chk6 w := fun a =>
  match a with
  | 0 => show w.toNat + 1 ≤ nRows from h
  | 1 => show 0 + 64 ≤ 64 from Nat.le_refl _
theorem chk_of_lt_7 {w : BitVec 32} (h : w.toNat < nRows) : k2_chk7 w := fun a =>
  match a with
  | 0 => show w.toNat + 1 ≤ nRows from h
  | 1 => show 0 + 64 ≤ 64 from Nat.le_refl _
theorem chk_of_lt_8 {w : BitVec 32} (h : w.toNat < nRows) : k2_chk8 w := fun a =>
  match a with
  | 0 => show w.toNat + 1 ≤ nRows from h
  | 1 => show 0 + 64 ≤ 64 from Nat.le_refl _
theorem chk_of_lt_9 {w : BitVec 32} (h : w.toNat < nRows) : k2_chk9 w := fun a =>
  match a with
  | 0 => show w.toNat + 1 ≤ nRows from h
  | 1 => show 0 + 64 ≤ 64 from Nat.le_refl _
theorem chk_of_lt_10 {w : BitVec 32} (h : w.toNat < nRows) : k2_chk10 w := fun a =>
  match a with
  | 0 => show w.toNat + 1 ≤ nRows from h
  | 1 => show 0 + 64 ≤ 64 from Nat.le_refl _
theorem chk_of_lt_11 {w : BitVec 32} (h : w.toNat < nRows) : k2_chk11 w := fun a =>
  match a with
  | 0 => show w.toNat + 1 ≤ nRows from h
  | 1 => show 0 + 64 ≤ 64 from Nat.le_refl _
theorem chk_of_lt_12 {w : BitVec 32} (h : w.toNat < nRows) : k2_chk12 w := fun a =>
  match a with
  | 0 => show w.toNat + 1 ≤ nRows from h
  | 1 => show 0 + 64 ≤ 64 from Nat.le_refl _
theorem chk_of_lt_13 {w : BitVec 32} (h : w.toNat < nRows) : k2_chk13 w := fun a =>
  match a with
  | 0 => show w.toNat + 1 ≤ nRows from h
  | 1 => show 0 + 64 ≤ 64 from Nat.le_refl _
theorem chk_of_lt_14 {w : BitVec 32} (h : w.toNat < nRows) : k2_chk14 w := fun a =>
  match a with
  | 0 => show w.toNat + 1 ≤ nRows from h
  | 1 => show 0 + 64 ≤ 64 from Nat.le_refl _
theorem chk_of_lt_15 {w : BitVec 32} (h : w.toNat < nRows) : k2_chk15 w := fun a =>
  match a with
  | 0 => show w.toNat + 1 ≤ nRows from h
  | 1 => show 0 + 64 ≤ 64 from Nat.le_refl _
theorem chk_of_lt_16 {w : BitVec 32} (h : w.toNat < nRows) : k2_chk16 w := fun a =>
  match a with
  | 0 => show w.toNat + 1 ≤ nRows from h
  | 1 => show 0 + 64 ≤ 64 from Nat.le_refl _

/-! ## The sixteen words of a load, one at a time -/

theorem word_0 (v7 : Vec F S16 .i32) : extractAt ![0] (k2_pay1 v7) inpos_S1_p0 = v7 (ValueIdx.ix1 ⟨0, by decide⟩) := by
  unfold k2_pay1 extractAt extractStridedSlice
  exact congrArg v7 (funext fun a => by obtain rfl : a = 0 := Subsingleton.elim _ _; rfl)
theorem word_1 (v7 : Vec F S16 .i32) : extractAt ![0] (k2_pay2 v7) inpos_S1_p0 = v7 (ValueIdx.ix1 ⟨1, by decide⟩) := by
  unfold k2_pay2 extractAt extractStridedSlice
  exact congrArg v7 (funext fun a => by obtain rfl : a = 0 := Subsingleton.elim _ _; rfl)
theorem word_2 (v7 : Vec F S16 .i32) : extractAt ![0] (k2_pay3 v7) inpos_S1_p0 = v7 (ValueIdx.ix1 ⟨2, by decide⟩) := by
  unfold k2_pay3 extractAt extractStridedSlice
  exact congrArg v7 (funext fun a => by obtain rfl : a = 0 := Subsingleton.elim _ _; rfl)
theorem word_3 (v7 : Vec F S16 .i32) : extractAt ![0] (k2_pay4 v7) inpos_S1_p0 = v7 (ValueIdx.ix1 ⟨3, by decide⟩) := by
  unfold k2_pay4 extractAt extractStridedSlice
  exact congrArg v7 (funext fun a => by obtain rfl : a = 0 := Subsingleton.elim _ _; rfl)
theorem word_4 (v7 : Vec F S16 .i32) : extractAt ![0] (k2_pay5 v7) inpos_S1_p0 = v7 (ValueIdx.ix1 ⟨4, by decide⟩) := by
  unfold k2_pay5 extractAt extractStridedSlice
  exact congrArg v7 (funext fun a => by obtain rfl : a = 0 := Subsingleton.elim _ _; rfl)
theorem word_5 (v7 : Vec F S16 .i32) : extractAt ![0] (k2_pay6 v7) inpos_S1_p0 = v7 (ValueIdx.ix1 ⟨5, by decide⟩) := by
  unfold k2_pay6 extractAt extractStridedSlice
  exact congrArg v7 (funext fun a => by obtain rfl : a = 0 := Subsingleton.elim _ _; rfl)
theorem word_6 (v7 : Vec F S16 .i32) : extractAt ![0] (k2_pay7 v7) inpos_S1_p0 = v7 (ValueIdx.ix1 ⟨6, by decide⟩) := by
  unfold k2_pay7 extractAt extractStridedSlice
  exact congrArg v7 (funext fun a => by obtain rfl : a = 0 := Subsingleton.elim _ _; rfl)
theorem word_7 (v7 : Vec F S16 .i32) : extractAt ![0] (k2_pay8 v7) inpos_S1_p0 = v7 (ValueIdx.ix1 ⟨7, by decide⟩) := by
  unfold k2_pay8 extractAt extractStridedSlice
  exact congrArg v7 (funext fun a => by obtain rfl : a = 0 := Subsingleton.elim _ _; rfl)
theorem word_8 (v7 : Vec F S16 .i32) : extractAt ![0] (k2_pay9 v7) inpos_S1_p0 = v7 (ValueIdx.ix1 ⟨8, by decide⟩) := by
  unfold k2_pay9 extractAt extractStridedSlice
  exact congrArg v7 (funext fun a => by obtain rfl : a = 0 := Subsingleton.elim _ _; rfl)
theorem word_9 (v7 : Vec F S16 .i32) : extractAt ![0] (k2_pay10 v7) inpos_S1_p0 = v7 (ValueIdx.ix1 ⟨9, by decide⟩) := by
  unfold k2_pay10 extractAt extractStridedSlice
  exact congrArg v7 (funext fun a => by obtain rfl : a = 0 := Subsingleton.elim _ _; rfl)
theorem word_10 (v7 : Vec F S16 .i32) : extractAt ![0] (k2_pay11 v7) inpos_S1_p0 = v7 (ValueIdx.ix1 ⟨10, by decide⟩) := by
  unfold k2_pay11 extractAt extractStridedSlice
  exact congrArg v7 (funext fun a => by obtain rfl : a = 0 := Subsingleton.elim _ _; rfl)
theorem word_11 (v7 : Vec F S16 .i32) : extractAt ![0] (k2_pay12 v7) inpos_S1_p0 = v7 (ValueIdx.ix1 ⟨11, by decide⟩) := by
  unfold k2_pay12 extractAt extractStridedSlice
  exact congrArg v7 (funext fun a => by obtain rfl : a = 0 := Subsingleton.elim _ _; rfl)
theorem word_12 (v7 : Vec F S16 .i32) : extractAt ![0] (k2_pay13 v7) inpos_S1_p0 = v7 (ValueIdx.ix1 ⟨12, by decide⟩) := by
  unfold k2_pay13 extractAt extractStridedSlice
  exact congrArg v7 (funext fun a => by obtain rfl : a = 0 := Subsingleton.elim _ _; rfl)
theorem word_13 (v7 : Vec F S16 .i32) : extractAt ![0] (k2_pay14 v7) inpos_S1_p0 = v7 (ValueIdx.ix1 ⟨13, by decide⟩) := by
  unfold k2_pay14 extractAt extractStridedSlice
  exact congrArg v7 (funext fun a => by obtain rfl : a = 0 := Subsingleton.elim _ _; rfl)
theorem word_14 (v7 : Vec F S16 .i32) : extractAt ![0] (k2_pay15 v7) inpos_S1_p0 = v7 (ValueIdx.ix1 ⟨14, by decide⟩) := by
  unfold k2_pay15 extractAt extractStridedSlice
  exact congrArg v7 (funext fun a => by obtain rfl : a = 0 := Subsingleton.elim _ _; rfl)
theorem word_15 (v7 : Vec F S16 .i32) : extractAt ![0] (k2_pay16 v7) inpos_S1_p0 = v7 (ValueIdx.ix1 ⟨15, by decide⟩) := by
  unfold k2_pay16 extractAt extractStridedSlice
  exact congrArg v7 (funext fun a => by obtain rfl : a = 0 := Subsingleton.elim _ _; rfl)

/-! ## The lookup's value at an index; the indices of a row -/

variable (m : (ℓ : Loc nD τ sig) → Buf (Elt F) ℓ)

theorem G_row (d : Dev nD) (r : Fin 16384) (k : Fin 64) :
    G m d (ValueIdx.ix2 r k) = m (tLoc d) (ValueIdx.ix2 (Spec.rowOf nRows nRows_pos (m (iLoc d) (ValueIdx.ix1 r))) k) := by
  unfold G
  exact Spec.gatherRows_apply nRows nRows_pos (m (tLoc d)) (m (iLoc d)) r k

theorem mem_rowSet_fst {r : Fin 16384} {i : S16384x64.Idx} (h : i ∈ rowSet r) : i 0 = r := by
  have h' : i ∈ (row r).set := by rw [← View.set_slice_whole outScv (row r)]; exact h
  rw [Rect.mem_set_unit] at h'
  have h0 := h' 0
  apply Fin.ext
  simp only [Shape.partIx, Shape.partSize] at h0
  have e : S16384x64.size 0 / 16384 = 1 := by decide
  simp only [↓reduceIte, e] at h0
  omega

/-! ## The destination of one row's copy -/

/-- The one-row rectangle at row r is the r-th of the 16384 parts of the result along its first axis. -/
theorem unitRow_eq (r : Fin 16384) (inb : ∀ a, (![r.val, 0] : Fin 2 → Nat) a + S1x64.size a ≤ S16384x64.size a) :
    Rect.unit (s := S16384x64) ![r.val, 0] S1x64.size inb = row r := by
  unfold row Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem set_dstRow (off : Fin 2 → Nat) (inb : ∀ a, off a + S1x64.size a ≤ S16384x64.size a) (r : Fin 16384)
    (hoff : off = ![r.val, 0]) :
    (((oW : Memref sig .scVector .hbm S16384x64 .f32).slice (Rect.unit (s := S16384x64) off S1x64.size inb) (fun _ => rfl)).squeeze S64
        squeezes_S1x64_S64).view.set = rowSet r := by
  subst hoff
  show (((oW : Memref sig .scVector .hbm S16384x64 .f32).view.slice (Rect.unit (s := S16384x64) ![r.val, 0] S1x64.size inb)).reshape S64
      squeezes_S1x64_S64.numel_eq).set = ((oW : Memref sig .scVector .hbm S16384x64 .f32).view.slice (row r)).set
  rw [View.set_reshape]
  exact unitRow_eq r inb ▸ rfl

/-! ## What the scratch holds after the first copy, and what a trip loads from it -/

theorem trips1 : k2_t1_loop.trips = 32 := by decide

theorem word_lt (g : Fin k2_t1_loop.trips) (j : Fin 16) : 16 * g.val + j.val < 512 := by
  have hg : g.val < 32 := Nat.lt_of_lt_of_eq g.isLt trips1
  have hj := j.isLt
  omega

/-- Word j of the sixteen that trip g loads is word 16g + j of the scratch. -/
theorem loaded_word (d : Dev nD) (L : grid0.Coords) (g : Fin k2_t1_loop.trips)
    (s : Buf (Elt F) ((sW : Memref sig .scVector .vmem S512 .i32).view.loc (V d (cV L) (jV L)))) (j : Fin 16) :
    ((sW : Memref sig .scVector .vmem S512 .i32).view.readAt (Elt F)
        (Rect.unit (s := S512) (k2_off2 g) S16.size (k2_off2_inb g)).toLoadRect s) (ValueIdx.ix1 j)
      = s (ValueIdx.ix1 ⟨16 * g.val + j.val, word_lt g j⟩) := by
  rw [View.readAt_apply]
  show s ((Rect.unit (s := S512) (k2_off2 g) S16.size (k2_off2_inb g)).toLoadRect.idx (ValueIdx.ix1 j)) = _
  refine congrArg s (funext fun (a : Fin 1) => Fin.ext ?_)
  obtain rfl : a = 0 := Subsingleton.elim _ _
  rw [LoadRect.idx_apply]
  show (k2_off2 g) 0 + 1 * j.val = 16 * g.val + j.val
  rw [k2_off2_eq]
  simp

/-- Once the first copy has landed, word t of the scratch is word base L + t of the index array. -/
theorem scratch_holds (d : Dev nD) (L : grid0.Coords)
    (fs : Buf (Elt F) ((sW : Memref sig .scVector .vmem S512 .i32).view.loc (V d (cV L) (jV L))))
    (mI : Buf (Elt F) (iLoc d)) (t : Fin 512) :
    ((sW : Memref sig .scVector .vmem S512 .i32).view.write (Elt F) fs
        ((ReadAs.same : ReadAs (Elt F) S512 .i32 S512 .i32).apply
          (((iW : Memref sig .scVector .hbm S16384 .i32).slice (Rect.unit (s := S16384) (k2_off1 L) S512.size (k2_off1_inb L))
              (fun _ => rfl)).view.read (Elt F) mI)) Finset.univ) (ValueIdx.ix1 t)
      = mI (ValueIdx.ix1 (⟨base L + t.val, base_add_lt L t⟩ : Fin 16384)) := by
  show ((View.whole scrScv).write (Elt F) fs
      (((iW : Memref sig .scVector .hbm S16384 .i32).view.slice (Rect.unit (s := S16384) (k2_off1 L) S512.size (k2_off1_inb L))).read (Elt F) mI)
      Finset.univ) (ValueIdx.ix1 t) = _
  rw [View.write_whole_univ, View.read_apply]
  refine (cast_eq _ _).trans ?_
  refine congrArg mI (funext fun (a : Fin 1) => Fin.ext ?_)
  obtain rfl : a = 0 := Subsingleton.elim _ _
  show (k2_off1 L) 0 + 1 * t.val = base L + t.val
  rw [k2_off1_eq]
  unfold base
  simp

/-! ## What one row's copy leaves -/

/-- A word that passes the copy's side condition names a row. -/
theorem lt_of_inb {w : BitVec 32} (hw : ∀ a, (k2_off4 w) a + S1x64.size a ≤ TS.size a) : w.toNat < nRows :=
  show w.toNat + 1 ≤ nRows from hw 0

/-- Column c of the destination row's own indices sits at (r, c) of the result. -/
theorem dst_emb (r : Fin 16384) (inb : ∀ a, (![r.val, 0] : Fin 2 → Nat) a + S1x64.size a ≤ S16384x64.size a) (x : S64.Idx) :
    (((oW : Memref sig .scVector .hbm S16384x64 .f32).slice (Rect.unit (s := S16384x64) ![r.val, 0] S1x64.size inb) (fun _ => rfl)).squeeze S64
        squeezes_S1x64_S64).view.emb x = ValueIdx.ix2 r (x 0) := by
  show (Rect.unit (s := S16384x64) ![r.val, 0] S1x64.size inb).emb (Shape.reshapeEquiv squeezes_S1x64_S64.numel_eq x) = _
  rw [Shape.reshapeEquiv_cons_one]
  funext a
  apply Fin.ext
  match a with
  | 0 => show r.val + 1 * 0 = r.val; omega
  | 1 => show 0 + 1 * (x 0).val = (x 0).val; omega

/-- Column c of the source row's own indices sits at (w, c) of the table. -/
theorem src_emb (w : BitVec 32) (hw : ∀ a, (k2_off4 w) a + S1x64.size a ≤ TS.size a) (x : S64.Idx) :
    (((tW : Memref sig .scVector .hbm TS .f32).slice (Rect.unit (s := TS) (k2_off4 w) S1x64.size hw) (fun _ => rfl)).squeeze S64
        squeezes_S1x64_S64).view.emb x = ValueIdx.ix2 (⟨w.toNat, lt_of_inb hw⟩ : Fin nRows) (x 0) := by
  show (Rect.unit (s := TS) (k2_off4 w) S1x64.size hw).emb (Shape.reshapeEquiv squeezes_S1x64_S64.numel_eq x) = _
  rw [Shape.reshapeEquiv_cons_one]
  funext a
  apply Fin.ext
  match a with
  | 0 => show w.toNat + 1 * 0 = w.toNat; omega
  | 1 => show 0 + 1 * (x 0).val = (x 0).val; omega

/-- After table row w has been copied onto result row r, every index of row r holds the table's entry at row w and the
    index's own column. -/
theorem write_row (d : Dev nD) (L : grid0.Coords) (off : Fin 2 → Nat) (inb : ∀ a, off a + S1x64.size a ≤ S16384x64.size a)
    (r : Fin 16384) (hoff : off = ![r.val, 0]) (w : BitVec 32) (hw : ∀ a, (k2_off4 w) a + S1x64.size a ≤ TS.size a)
    (fT : Buf (Elt F) (tLoc d)) (fO : Buf (Elt F) (oLoc d)) (i : S16384x64.Idx) (hi : i ∈ rowSet r) :
      ((((oW : Memref sig .scVector .hbm S16384x64 .f32).slice (Rect.unit (s := S16384x64) off S1x64.size inb) (fun _ => rfl)).squeeze S64
          squeezes_S1x64_S64).view.write (Elt F) fO
        ((ReadAs.same : ReadAs (Elt F) S64 .f32 S64 .f32).apply
          ((((tW : Memref sig .scVector .hbm TS .f32).slice (Rect.unit (s := TS) (k2_off4 w) S1x64.size hw) (fun _ => rfl)).squeeze S64
            squeezes_S1x64_S64).view.read (Elt F) fT)) Finset.univ) i
        = fT (ValueIdx.ix2 (⟨w.toNat, lt_of_inb hw⟩ : Fin nRows) (i 1)) := by
  subst hoff
  rw [← set_dstRow ![r.val, 0] inb r rfl] at hi
  obtain ⟨x, -, rfl⟩ := Finset.mem_map.mp hi
  rw [View.write_emb_of_mem _ _ (Finset.mem_univ x)]
  refine (cast_eq _ _).trans ?_
  show (((tW : Memref sig .scVector .hbm TS .f32).slice (Rect.unit (s := TS) (k2_off4 w) S1x64.size hw) (fun _ => rfl)).squeeze S64
      squeezes_S1x64_S64).view.read (Elt F) fT x = _
  rw [View.read_apply]
  refine (cast_eq _ _).trans ?_
  rw [src_emb w hw x, dst_emb r inb x]
  rfl

end Cert.Proof.KB.R2

end
-- ==== Proof.KBIssue2.lean ====
/-
  One of the tile's 512 row copies, started as the batch's next transfer. The copy reads the table row that the
  tile's `t`-th index word names and writes the tile's `t`-th row of the result; once it has landed, that row holds
  the lookup's value there: entry `(r, k)` of the result is entry `(idx r, k)` of the table.
-/
import proofs.«218896_g85959475462175_cont_9to1_m_647_27_alg».proof.Proof.KBTileDefs2
import proofs.«218896_g85959475462175_cont_9to1_m_647_27_alg».proof.Proof.KBView2

noncomputable section

namespace Cert.Proof.KB.R2

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

variable (m : (ℓ : Loc nD τ sig) → Buf (Elt F) ℓ) (d : Dev nD) (L : grid0.Coords)

/-- A row of the result and a row of the table, as the body slices them. -/
abbrev dstRow (off : Fin 2 → Nat) (inb : ∀ a, off a + S1x64.size a ≤ S16384x64.size a) : Memref sig .scVector .hbm S64 .f32 :=
  ((oW : Memref sig .scVector .hbm S16384x64 .f32).slice (Rect.unit (s := S16384x64) off S1x64.size inb) (fun _ => rfl)).squeeze S64 squeezes_S1x64_S64
abbrev srcRow (w : BitVec 32) (hw : ∀ a, (k2_off4 w) a + S1x64.size a ≤ TS.size a) : Memref sig .scVector .hbm S64 .f32 :=
  ((tW : Memref sig .scVector .hbm TS .f32).slice (Rect.unit (s := TS) (k2_off4 w) S1x64.size hw) (fun _ => rfl)).squeeze S64 squeezes_S1x64_S64

variable [FloatOps F]

/-- What the landed copy leaves in its row is the lookup's value there. -/
theorem landed_eq (t : Fin 512) (off : Fin 2 → Nat) (inb : ∀ a, off a + S1x64.size a ≤ S16384x64.size a)
    (hoff : off = ![(tileRow L t).val, 0]) (w : BitVec 32) (hw : ∀ a, (k2_off4 w) a + S1x64.size a ≤ TS.size a)
    (hwv : w = m (iLoc d) (ValueIdx.ix1 (tileRow L t))) (hlt : w.toNat < nRows)
    (i : S16384x64.Idx) (hi : i ∈ rowSet (tileRow L t)) :
    ((dstRow off inb).view.write (Elt F) (m (oLoc d)) ((ReadAs.same : ReadAs (Elt F) S64 .f32 S64 .f32).apply ((srcRow w hw).view.read (Elt F) (m (tLoc d)))) Finset.univ) i
      = G m d i := by
  rw [write_row d L off inb (tileRow L t) hoff w hw (m (tLoc d)) (m (oLoc d)) i hi]
  obtain ⟨r, k, rfl⟩ : ∃ (r : Fin 16384) (k : Fin 64), i = ValueIdx.ix2 r k := ⟨i 0, i 1, ValueIdx.eq_ix2 i⟩
  have hr : r = tileRow L t := mem_rowSet_fst hi
  subst hr
  show m (tLoc d) (ValueIdx.ix2 _ k) = _
  rw [G_row]
  congr 2
  apply Fin.ext
  show w.toNat = (Spec.rowOf nRows nRows_pos (m (iLoc d) (ValueIdx.ix1 (tileRow L t)))).val
  rw [← hwv, Spec.rowOf_val_of_lt nRows_pos hlt]

/-- The batch's transfer `t`, started: from the copy's own token of the table and its row of the result. -/
theorem wp_issue (t : Fin 512) (off : Fin 2 → Nat) (inb : ∀ a, off a + S1x64.size a ≤ S16384x64.size a)
    (hoff : off = ![(tileRow L t).val, 0]) (w : BitVec 32) (hw : ∀ a, (k2_off4 w) a + S1x64.size a ≤ TS.size a)
    (hwv : w = m (iLoc d) (ValueIdx.ix1 (tileRow L t))) (hlt : w.toNat < nRows)
    {α : Type} {k : PUnit → Prog (TpuEff nD τ sig (Elt F) Λ₀ (thr d L).2) α} {Q : α → sProp 𝕄}
    {hs : (srcRow w hw).view.WordExact} {hd : (dstRow off inb).view.WordExact}
    {hsem : DmaTarget.Typed (nD := nD) Space.hbm (SemLoc.dma cc2_scratch1.sem) (DmaTarget.here (p := (thr d L).2) (dstRow off inb))} :
    iprop(Rk m d L t ∗ Transfers.Batch (EC (F := F)) (thr d L) (.dma cc2_scratch1.sem) (none : HIx 8) N (Dl m d L) t.val 0)
      ⊢ iprop((Transfers.Batch (EC (F := F)) (thr d L) (.dma cc2_scratch1.sem) (none : HIx 8) N (Dl m d L) (t.val + 1) 0
            -∗ wp frame (wpE (defs₀ (F := F)) 𝒱₀ (thr d L) none) Set.univ (k ⟨⟩) Q)
          -∗ wp frame (wpE (defs₀ (F := F)) 𝒱₀ (thr d L) none) Set.univ
              (.op (TpuEff.enqueueDma (srcRow w hw) (DmaTarget.here (p := (thr d L).2) (dstRow off inb)) (.dma cc2_scratch1.sem) hs hd hsem) k) Q) := by
  unfold Rk
  iintro ⟨⟨Htok, Hrow⟩, HB⟩ Hk
  ihave Htok' := ((pointsTo_split_subset (ℓ := tLoc d) (I := (srcRow w hw).view.set) (S := Finset.univ) (Finset.subset_univ _)).1) $$ Htok
  icases Htok' with ⟨Hsrc, -⟩
  iapply (Transfers.wp_dmaBatch (EC (F := F)) 𝒱₀ (thr d L) none (src := srcRow w hw) (dst := dstRow off inb)
      (q := Transfers.shareTok (tsh L) 512 t) (fs := m (tLoc d)) (Sd := rowSet (tileRow L t)) (fd := m (oLoc d)) (D := Dl m d L) (j := t.val) (u := 0)
      (none : HIx 8) N rfl (set_dstRow off inb (tileRow L t) hoff).le t.isLt (Nat.zero_le _) ?hD) $$ [Hsrc Hrow HB]
  case hD =>
    iintro ⟨H, -⟩
    unfold Dl
    iapply (Entails.of_eq (pointsTo_congr (fun i hi => landed_eq m d L t off inb hoff w hw hwv hlt i hi)))
    iexact H
  · isplitl [Hsrc]; · iexact Hsrc
    isplitl [Hrow]; · iexact Hrow
    iexact HB
  iexact Hk

end Cert.Proof.KB.R2

end
-- ==== Proof.KBDrain2.lean ====
/-
  The tile's second loop: 512 waits on the one semaphore that the 512 row copies complete on. Each wait takes one
  copy's units off the counter; copies land in any order, so a wait that is not the last proves nothing about any
  row, and only the last — when all 512 copies' units have been taken — hands back every row holding its value and
  the counter at zero. The invariant before wait k says exactly that: k copies' units consumed and the batch still
  open, or (after the last) every delivery in hand.
-/
import proofs.«218896_g85959475462175_cont_9to1_m_647_27_alg».proof.Proof.KBTileDefs2

noncomputable section

namespace Cert.Proof.KB.R2

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- The loop makes 512 trips. -/
theorem trips2 : Scf.trips k2_t2_loop.lb k2_t2_loop.ub k2_t2_loop.st = 512 := by decide

/-- A row's credit is positive. -/
theorem N_pos : 0 < N := View.dmaCredit_pos _ (by decide)

/-- Before wait `k` of the 512: the batch with `k` transfers' units consumed; after the last, every delivery. -/
def inv2 (O : CellTallies nD τ sig (HIx 8)) (W : Waits sig (HIx 8)) (k : ℕ) (_ : Unit) : sProp 𝕄 :=
  iprop(Transfers.MayWaits (thr d L) (none : HIx 8) O
    ∗ ((⌜k < 512⌝ ∗ Transfers.Batch (EC (F := F)) (thr d L) (.dma cc2_scratch1.sem) (none : HIx 8) N (Dl m d L) 512 (k * N)
          ∗ ∃ W', ⌜∀ p ∈ W', p ∈ W ∨ p.2 = none⌝ ∗ owes (thr d L) O W')
      ∨ (⌜k = 512⌝ ∗ bigSep Finset.univ (Dl m d L) ∗ semVal (cB d L) 0 ∗ ∃ W', ⌜∀ p ∈ W', p ∈ W ∨ p.2 = none⌝ ∗ owes (thr d L) O W')))

variable [FloatOps F]

/-- The 512 waits: from the batch with every copy started and nothing consumed, to every row delivered and the counter at
    zero; each wait is recorded at the index of the tile's own copies. -/
theorem drain (O : CellTallies nD τ sig (HIx 8)) (W : Waits sig (HIx 8)) :
    iprop(Transfers.MayWaits (thr d L) (none : HIx 8) O
        ∗ Transfers.Batch (EC (F := F)) (thr d L) (.dma cc2_scratch1.sem) (none : HIx 8) N (Dl m d L) 512 0
        ∗ owes (thr d L) O W)
      ⊢ wp frame (wpE (defs₀ (F := F)) 𝒱₀ (thr d L) none) Set.univ
          (Scf.Loop.for k2_t2_loop k2_t2_ok ⟨⟩ (k2_t2_body L tW (Memref.isWhole_whole _) iW (Memref.isWhole_whole _) oW (Memref.isWhole_whole _) sW (Memref.isWhole_whole _) cc2_scratch1 cc2_scoped0))
          (fun _ => iprop(bigSep Finset.univ (Dl m d L) ∗ semVal (cB d L) 0 ∗ ∃ W', ⌜∀ p ∈ W', p ∈ W ∨ p.2 = none⌝ ∗ owes (thr d L) O W')) := by
  iintro ⟨#Hmw, HB, HO⟩
  sl_for (inv2 m d L O W) $$ [HB HO]
  case region =>
    intro k acc
    have hk : k.val < 512 := Nat.lt_of_lt_of_eq k.isLt trips2
    have e : (k.val + 1) * N = k.val * N + N := by rw [Nat.add_mul, Nat.one_mul]
    unfold inv2
    iintro ⟨#Hmw, H⟩
    sl_exec
    icases H with (⟨-, HB, %W', %hW', HO⟩ | ⟨%hk', -⟩)
    rotate_left
    · exfalso; omega
    ihave Hmw1 := (Transfers.MayWaits.elim (SemLoc.dma cc2_scratch1.sem)) $$ Hmw
    have hW'' : ∀ p ∈ insert (SemLoc.dma cc2_scratch1.sem, (none : HIx 8)) W', p ∈ W ∨ p.2 = none := by
      intro p hp
      rcases Finset.mem_insert.mp hp with hp | hp
      · exact .inr (hp ▸ rfl)
      · exact hW' p hp
    by_cases hlast : k.val + 1 < 512
    · have hu : k.val * N + N < N * 512 := by
        have h1 : (k.val + 1) * N < 512 * N := Nat.mul_lt_mul_of_pos_right hlast N_pos
        rw [e] at h1; rw [Nat.mul_comm N 512]; exact h1
      iapply (Transfers.wp_waitBatchO (EC (F := F)) 𝒱₀ (thr d L) none (none : HIx 8) (N := N) rfl hu) $$ [HB HO Hmw1]
      · isplitl [HB]; · iexact HB
        isplitl [HO]; · iexact HO
        iexact Hmw1
      iintro ⟨HB, HO⟩
      sl_step
      isplitr; · iexact Hmw
      ileft
      isplitr; · ipureintro; exact hlast
      rw [e]
      isplitl [HB]; · iexact HB
      iexists _; isplitr
      · ipureintro; exact hW''
      · iexact HO
    · have hu : k.val * N + N = N * 512 := by
        have h1 : k.val = 511 := by omega
        rw [h1]; omega
      iapply (Transfers.wp_waitBatchLastO (EC (F := F)) 𝒱₀ (thr d L) none (none : HIx 8) (N := N) rfl N_pos hu) $$ [HB HO Hmw1]
      · isplitl [HB]; · iexact HB
        isplitl [HO]; · iexact HO
        iexact Hmw1
      iintro ⟨HD, Hv, HO⟩
      sl_step
      isplitr; · iexact Hmw
      iright
      isplitr; · ipureintro; omega
      isplitl [HD]; · iexact HD
      isplitl [Hv]; · iexact Hv
      iexists _; isplitr
      · ipureintro; exact hW''
      · iexact HO
  rw [trips2]
  isplitl [HB HO]
  · unfold inv2
    isplitr; · iexact Hmw
    ileft
    isplitr; · ipureintro; omega
    rw [Nat.zero_mul]
    isplitl [HB]; · iexact HB
    iexists W; isplitr
    · ipureintro; exact fun p hp => .inl hp
    · iexact HO
  · iintro %acc HI
    unfold inv2
    icases HI with ⟨-, (⟨%h, -⟩ | ⟨-, HD, Hv, HW⟩)⟩
    · exfalso; omega
    isplitl [HD]; · iexact HD
    isplitl [Hv]; · iexact Hv
    iexact HW

end Cert.Proof.KB.R2

end
-- ==== Proof.KBTile2.lean ====
/-
  The tile's obligation at call 2: the index words fetched into the scratch, the 512 row copies started sixteen to a
  trip on one semaphore as ONE batch (no copy's source or destination is touched between the first start and the
  last wait), the batch drained by 512 waits, and the rows handed back holding the lookup's value.
-/
import proofs.«218896_g85959475462175_cont_9to1_m_647_27_alg».proof.Proof.KBTileDefs2
import proofs.«218896_g85959475462175_cont_9to1_m_647_27_alg».proof.Proof.KBView2
import proofs.«218896_g85959475462175_cont_9to1_m_647_27_alg».proof.Proof.KBIssue2
import proofs.«218896_g85959475462175_cont_9to1_m_647_27_alg».proof.Proof.KBDrain2

noncomputable section

namespace Cert.Proof.KB.R2

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- Before trip `k` of the first loop: the scratch at the landed index words, the first `16 k` copies started and none
    waited for, the later copies' tokens and rows still in hand. -/
def inv1 (k : Nat) (_ : PUnit) : sProp 𝕄 :=
  iprop(∃ sc, ⌜Holds m d L sc⌝ ∗ ((sW : Memref sig .scVector .vmem S512 .i32).view.loc (thr d L) ↦{fullShare} sc)
    ∗ Transfers.Batch (EC (F := F)) (thr d L) (.dma cc2_scratch1.sem) (none : HIx 8) N (Dl m d L) (16 * k) 0
    ∗ bigSep (Transfers.pending (n := 512) (16 * k)) (Rk m d L))

/-- The sixteen words a trip loads. -/
abbrev loaded (k : Fin k2_t1_loop.trips) (sc : Buf (Elt F) ((sW : Memref sig .scVector .vmem S512 .i32).view.loc (thr d L))) : Vec F S16 .i32 :=
  (sW : Memref sig .scVector .vmem S512 .i32).view.readAt (Elt F) (Rect.unit (s := S512) (k2_off2 k) S16.size (k2_off2_inb k)).toLoadRect sc

theorem off_eq {x y : Nat} (h : x = y) : (![x, 0] : Fin 2 → Nat) = ![y, 0] := by rw [h]

variable [FloatOps F]

/- Copy `j` of a trip: its index word names a row of the table (the check passes), and the copy is the batch's
   transfer `16 k + j`, started from that transfer's token and row. -/
set_option hygiene false in
local macro "issue_copy " j:num " with " chk:ident ", " wj:ident ", " offeq:ident : tactic => `(tactic| (
  iapply (wp_assume 𝒱₀ (thr d L) none Set.univ ($chk:ident ((congrArg BitVec.toNat ($wj:ident (loaded d L k sc))).trans_lt (hwlt ⟨$j, by decide⟩))))
  sl_exec
  ihave Hp := (Entails.of_eq (Transfers.bigSep_pending_step (Rk m d L) (16 * k.val + $j) (hidx ⟨$j, by decide⟩))) $$ Hpend
  icases Hp with ⟨HR, Hpend⟩
  iapply (wp_issue m d L ⟨16 * k.val + $j, hidx ⟨$j, by decide⟩⟩ _ _
      (($offeq:ident L k).trans (off_eq (by show _ = base L + (16 * k.val + $j); unfold base; omega))) _ _
      (($wj:ident (loaded d L k sc)).trans (hwv ⟨$j, by decide⟩)) ((congrArg BitVec.toNat ($wj:ident (loaded d L k sc))).trans_lt (hwlt ⟨$j, by decide⟩))) $$ [HR HB]
  · isplitl [HR]
    · iexact HR
    iexact HB
  iintro HB
  sl_exec))

theorem tile_body (hF : (K (F := F)).Facts) (hpre : ∀ d, Spec.InRange nRows (m (iLoc d))) : TileBody m := by
  intro d L O W hO
  simp only [cc2__gather_body_eq_skeleton]; unfold cc2__gather_body_skel
  rw [(K (F := F)).scopedBufs_V hF d (cV L) (jV L), SparseCore.Cfg.scopedSems0_V (Val := Elt F) d (cV L) (jV L), ownSems0_V, ownBufs_V]
  unfold go
  iintro ⟨#Hlv, -, ⟨Ht, Hi, Hrows⟩, ⟨⟨%fs, Hs⟩, Hbufs⟩, ⟨HsemS, HsemB, Hsems⟩, HO⟩
  ihave Hmw := ((K (F := F)).mayWaits_none (thr := thr d L) hO) $$ Hlv
  ihave Hi' := (Entails.of_eq (pts_i (F := F) d L _ _).symm) $$ Hi
  ihave Hs' := (Entails.of_eq (pts_s (F := F) d L _).symm) $$ Hs
  -- the index words fetched into the scratch, and the fetch waited for
  sl_exec
  -- the 512 copies' batch on the shared semaphore, allocated before the first is started
  imod (Transfers.batch_alloc' (Lvl := ℕ) (EC (F := F)) (thr d L) (none : HIx 8) N (Dl m d L) (sm := .dma cc2_scratch1.sem) (E := Set.univ)) $$ HsemB with HB
  -- the table's token dealt into one per copy
  ihave Ht' := (Transfers.pointsTo_toks_split (tsh L) 512) $$ Ht
  icases Ht' with ⟨-, Htoks⟩
  sl_for (inv1 m d L) $$ [Hs' HB Htoks Hrows]
  case region =>
    intro k hk
    unfold inv1
    iintro ⟨%sc, %hsc, Hs, HB, Hpend⟩
    have hk32 : k.val < 32 := lt_of_lt_of_eq k.isLt trips1
    have hidx : ∀ j : Fin 16, 16 * k.val + j.val < 512 := fun j => by have := j.isLt; omega
    -- the sixteen words the trip loads are the tile's index words 16 k … 16 k + 15; each names a row of the table
    have hwv : ∀ j : Fin 16, loaded d L k sc (ValueIdx.ix1 j) = m (iLoc d) (ValueIdx.ix1 (tileRow L ⟨16 * k.val + j.val, hidx j⟩)) :=
      fun j => (loaded_word d L k sc j).trans (hsc _)
    have hwlt : ∀ j : Fin 16, (loaded d L k sc (ValueIdx.ix1 j)).toNat < nRows := fun j => by rw [hwv j]; exact (hpre d).toNat_lt _
    sl_exec
    issue_copy 0 with chk_of_lt_1, word_0, k2_off3_eq
    issue_copy 1 with chk_of_lt_2, word_1, k2_off5_eq
    issue_copy 2 with chk_of_lt_3, word_2, k2_off7_eq
    issue_copy 3 with chk_of_lt_4, word_3, k2_off9_eq
    issue_copy 4 with chk_of_lt_5, word_4, k2_off11_eq
    issue_copy 5 with chk_of_lt_6, word_5, k2_off13_eq
    issue_copy 6 with chk_of_lt_7, word_6, k2_off15_eq
    issue_copy 7 with chk_of_lt_8, word_7, k2_off17_eq
    issue_copy 8 with chk_of_lt_9, word_8, k2_off19_eq
    issue_copy 9 with chk_of_lt_10, word_9, k2_off21_eq
    issue_copy 10 with chk_of_lt_11, word_10, k2_off23_eq
    issue_copy 11 with chk_of_lt_12, word_11, k2_off25_eq
    issue_copy 12 with chk_of_lt_13, word_12, k2_off27_eq
    issue_copy 13 with chk_of_lt_14, word_13, k2_off29_eq
    issue_copy 14 with chk_of_lt_15, word_14, k2_off31_eq
    issue_copy 15 with chk_of_lt_16, word_15, k2_off33_eq
    -- the trip's return: the invariant at `k + 1`
    rw [show 16 * (k.val + 1) = 16 * k.val + 15 + 1 by omega]
    sl_step
    iexists sc
    isplitr; · ipureintro; exact hsc
    isplitl [Hs]; · iexact Hs
    isplitl [HB]; · iexact HB
    iexact Hpend
  · -- the loop's entry: nothing started, every copy's token and row in hand
    unfold inv1
    iexists _
    isplitr; · ipureintro; exact fun t => scratch_holds d L fs (m (iLoc d)) t
    isplitl [Hs']; · iexact Hs'
    isplitl [HB]; · iexact HB
    rw [show 16 * 0 = 0 from rfl, ← Transfers.bigSep_pending_zero]
    unfold Rk
    rw [bigSep_sep']
    isplitl [Htoks]; · iexact Htoks
    iexact Hrows
  -- after the first loop: all 512 started, none waited for
  iintro %_ HI
  unfold inv1
  icases HI with ⟨%sc, -, Hs, HB, -⟩
  sl_exec
  have h512 : 16 * Scf.trips k2_t1_loop.lb k2_t1_loop.ub k2_t1_loop.st = 512 := by decide
  rw [h512]
  -- the second loop drains the batch: every row comes back holding the lookup's value
  simp only [wp_bind]
  ihave Hd := (drain m d L O _) $$ [HB HO]
  · isplitr; · iexact Hmw
    isplitl [HB]; · iexact HB
    iexact HO
  iapply (wp_wand frame _ Set.univ) $$ Hd
  iintro %_ ⟨HD, HsemB, %W', %hW', HO⟩
  sl_step
  isplitl [HD]
  · unfold td; iexact HD
  isplitl [Hs Hbufs]
  · isplitl [Hs]
    · iexists _; iapply (Entails.of_eq (pts_s (F := F) d L _)); iexact Hs
    iexact Hbufs
  isplitl [HsemS HsemB Hsems]
  · isplitl [HsemS]; · iexact HsemS
    isplitl [HsemB]; · iexact HsemB
    iexact Hsems
  iexists W'; isplitr
  · ipureintro; intro p hp
    rcases hW' p hp with h | h
    · rcases Finset.mem_insert.mp h with rfl | h
      · exact .inr rfl
      · exact .inl h
    · exact .inr h
  iexact HO

end Cert.Proof.KB.R2

end
-- ==== Proof.KBTileDefs3.lean ====
/-
  The tile's own names for call 3's body: its thread, its two DMA semaphores' cells, its scoped storage opened to
  the scratch and those two cells, the batch of the 512 row copies (each copy's delivery: its row of the result at
  the lookup's value), and what a copy needs before it is started.
-/
import proofs.«218896_g85959475462175_cont_9to1_m_647_27_alg».proof.Proof.KBRes3

noncomputable section

namespace Cert.Proof.KB.R3

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

abbrev thr : Thread nD τ := V d (cV L) (jV L)
abbrev cS : GSem nD τ sig := (thr d L, .dma cc3_scoped0.sem)
abbrev cB : GSem nD τ sig := (thr d L, .dma cc3_scratch1.sem)

theorem ownSems0_V :
    (ownSems0 (thr d L) : sProp 𝕄)
      = iprop(semVal (cS d L) 0 ∗ semVal (cB d L) 0 ∗ bigSep (((ownCells (thr d L)).erase (cS d L)).erase (cB d L)) fun g => semVal g 0) := by
  unfold SparseCore.Cfg.ownSems0
  rw [SparseCore.bigSep_erase' ((mem_ownCells (g := cS d L)).mpr ⟨rfl, by
      show (SemLoc.dma cc3_scoped0.sem : SemLoc sig).isScoped .scVector = true; decide⟩),
    SparseCore.bigSep_erase' (Finset.mem_erase.mpr ⟨by simp [cS, cB]; decide, (mem_ownCells (g := cB d L)).mpr ⟨rfl, by
      show (SemLoc.dma cc3_scratch1.sem : SemLoc sig).isScoped .scVector = true; decide⟩⟩)]

theorem ownBufs_V :
    (ownBufs (thr d L) : sProp 𝕄)
      = iprop((∃ f, (thr d L).loc scrScv ↦{fullShare} f)
          ∗ bigSep ((ownRefs (τ := τ) (.scVector (cV L) (jV L))).erase ((Proc.scVector (cV L) (jV L)).devRef scrScv))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef scrScv) rfl)

omit m in
theorem pts_i (q : PosShare TreeShare) (f : Buf (Elt F) (iLoc d)) :
    ((iW : Memref sig .scVector .hbm S16384 .i32).view.loc (thr d L) ↦{q} f : sProp 𝕄) = iLoc d ↦{q} f := rfl
omit m in
theorem pts_t (q : PosShare TreeShare) (f : Buf (Elt F) (tLoc d)) :
    ((tW : Memref sig .scVector .hbm TS .f32).view.loc (thr d L) ↦{q} f : sProp 𝕄) = tLoc d ↦{q} f := rfl
omit m in
theorem pts_s (f : Buf (Elt F) ((thr d L).loc scrScv)) :
    ((sW : Memref sig .scVector .vmem S512 .i32).view.loc (thr d L) ↦{fullShare} f : sProp 𝕄) = (thr d L).loc scrScv ↦{fullShare} f := rfl

/-- The counters of the tile's own copies. -/
abbrev EC : UEmb Counters (MT nD τ sig (HIx 8) (Elt F) ℕ UU ℕ) := countersEmb (U := UU)

/-- Row 0 of the result as the waits name it: any row's credit. -/
abbrev row0 : Memref sig .scVector .hbm S64 .f32 :=
  ((oW : Memref sig .scVector .hbm S16384x64 .f32).slice (Rect.unit (s := S16384x64) ![0, 0] S1x64.size inb_S16384x64_S1x64_0_0) (fun _ => rfl)).squeeze S64 squeezes_S1x64_S64
abbrev N : ℕ := (row0).view.dmaCredit

/-- The tile's read token of the table. -/
abbrev tsh : PosShare TreeShare := Transfers.shareTok fullShare 32 (wid L)

/-- Copy `t` of the 512 delivers row `t` of the tile's rows holding the lookup's value. -/
def Dl (t : Fin 512) : sProp 𝕄 := oLoc d ↦[rowSet (tileRow L t)]{fullShare} G m d

instance Dl_storable (t : Fin 512) : BI.Storable (upEmb : UEmb _ 𝕄) (Dl m d L t) := by unfold Dl; infer_instance

/-- What copy `t` needs before it is started: its own read token of the table, and its row of the result. -/
def Rk (t : Fin 512) : sProp 𝕄 :=
  iprop((tLoc d ↦{Transfers.shareTok (tsh L) 512 t} m (tLoc d)) ∗ (oLoc d ↦[rowSet (tileRow L t)]{fullShare} m (oLoc d)))

/-- The scratch holds the tile's 512 index words. -/
def Holds (sc : Buf (Elt F) ((sW : Memref sig .scVector .vmem S512 .i32).view.loc (thr d L))) : Prop :=
  ∀ t : Fin 512, sc (ValueIdx.ix1 t) = m (iLoc d) (ValueIdx.ix1 (tileRow L t))

end Cert.Proof.KB.R3

end
-- ==== Proof.KBView3.lean ====
/-
  Call 3 of the eight: what the tile's memory accesses address and read, as plain facts about index sets and
  contents, with no program logic in them.

  The tile at grid coordinates L owns result rows base L … base L + 511. It copies index words base L … base L + 511
  into its 512-word scratch (scratch_holds: word t of the scratch is then word base L + t of the index array);
  in trip g it loads the sixteen scratch words 16g … 16g + 15 (loaded_word) and takes them apart one at a time
  (word_0 … word_15); for each word w it copies table row w, when w names a row (chk_of_lt_N), onto one result row
  (set_dstRow: the destination is exactly that row's set of indices; write_row: after the copy the row holds table row w,
  column by column). G_row is the lookup's value at one index, and mem_rowSet_fst says that an index of row r's set has
  first coordinate r.
-/
import proofs.«218896_g85959475462175_cont_9to1_m_647_27_alg».proof.Proof.KBRes3

noncomputable section

namespace Cert.Proof.KB.R3

open Cert.Kernel Cert.Kernel.Gen Cert.Proof.KB

open Idealize.ShloMosaic
open Idealize.ShloMosaic.SparseCore (S V T)

variable {F : FTy → Type}

/-! ## A word that names a row passes the copy's side condition -/

theorem chk_of_lt_1 {w : BitVec 32} (h : w.toNat < nRows) : k3_chk1 w := fun a =>
  match a with
  | 0 => show w.toNat + 1 ≤ nRows from h
  | 1 => show 0 + 64 ≤ 64 from Nat.le_refl _
theorem chk_of_lt_2 {w : BitVec 32} (h : w.toNat < nRows) : k3_chk2 w := fun a =>
  match a with
  | 0 => show w.toNat + 1 ≤ nRows from h
  | 1 => show 0 + 64 ≤ 64 from Nat.le_refl _
theorem chk_of_lt_3 {w : BitVec 32} (h : w.toNat < nRows) : k3_chk3 w := fun a =>
  match a with
  | 0 => show w.toNat + 1 ≤ nRows from h
  | 1 => show 0 + 64 ≤ 64 from Nat.le_refl _
theorem chk_of_lt_4 {w : BitVec 32} (h : w.toNat < nRows) : k3_chk4 w := fun a =>
  match a with
  | 0 => show w.toNat + 1 ≤ nRows from h
  | 1 => show 0 + 64 ≤ 64 from Nat.le_refl _
theorem chk_of_lt_5 {w : BitVec 32} (h : w.toNat < nRows) : k3_chk5 w := fun a =>
  match a with
  | 0 => show w.toNat + 1 ≤ nRows from h
  | 1 => show 0 + 64 ≤ 64 from Nat.le_refl _
theorem chk_of_lt_6 {w : BitVec 32} (h : w.toNat < nRows) : k3_chk6 w := fun a =>
  match a with
  | 0 => show w.toNat + 1 ≤ nRows from h
  | 1 => show 0 + 64 ≤ 64 from Nat.le_refl _
theorem chk_of_lt_7 {w : BitVec 32} (h : w.toNat < nRows) : k3_chk7 w := fun a =>
  match a with
  | 0 => show w.toNat + 1 ≤ nRows from h
  | 1 => show 0 + 64 ≤ 64 from Nat.le_refl _
theorem chk_of_lt_8 {w : BitVec 32} (h : w.toNat < nRows) : k3_chk8 w := fun a =>
  match a with
  | 0 => show w.toNat + 1 ≤ nRows from h
  | 1 => show 0 + 64 ≤ 64 from Nat.le_refl _
theorem chk_of_lt_9 {w : BitVec 32} (h : w.toNat < nRows) : k3_chk9 w := fun a =>
  match a with
  | 0 => show w.toNat + 1 ≤ nRows from h
  | 1 => show 0 + 64 ≤ 64 from Nat.le_refl _
theorem chk_of_lt_10 {w : BitVec 32} (h : w.toNat < nRows) : k3_chk10 w := fun a =>
  match a with
  | 0 => show w.toNat + 1 ≤ nRows from h
  | 1 => show 0 + 64 ≤ 64 from Nat.le_refl _
theorem chk_of_lt_11 {w : BitVec 32} (h : w.toNat < nRows) : k3_chk11 w := fun a =>
  match a with
  | 0 => show w.toNat + 1 ≤ nRows from h
  | 1 => show 0 + 64 ≤ 64 from Nat.le_refl _
theorem chk_of_lt_12 {w : BitVec 32} (h : w.toNat < nRows) : k3_chk12 w := fun a =>
  match a with
  | 0 => show w.toNat + 1 ≤ nRows from h
  | 1 => show 0 + 64 ≤ 64 from Nat.le_refl _
theorem chk_of_lt_13 {w : BitVec 32} (h : w.toNat < nRows) : k3_chk13 w := fun a =>
  match a with
  | 0 => show w.toNat + 1 ≤ nRows from h
  | 1 => show 0 + 64 ≤ 64 from Nat.le_refl _
theorem chk_of_lt_14 {w : BitVec 32} (h : w.toNat < nRows) : k3_chk14 w := fun a =>
  match a with
  | 0 => show w.toNat + 1 ≤ nRows from h
  | 1 => show 0 + 64 ≤ 64 from Nat.le_refl _
theorem chk_of_lt_15 {w : BitVec 32} (h : w.toNat < nRows) : k3_chk15 w := fun a =>
  match a with
  | 0 => show w.toNat + 1 ≤ nRows from h
  | 1 => show 0 + 64 ≤ 64 from Nat.le_refl _
theorem chk_of_lt_16 {w : BitVec 32} (h : w.toNat < nRows) : k3_chk16 w := fun a =>
  match a with
  | 0 => show w.toNat + 1 ≤ nRows from h
  | 1 => show 0 + 64 ≤ 64 from Nat.le_refl _

/-! ## The sixteen words of a load, one at a time -/

theorem word_0 (v7 : Vec F S16 .i32) : extractAt ![0] (k3_pay1 v7) inpos_S1_p0 = v7 (ValueIdx.ix1 ⟨0, by decide⟩) := by
  unfold k3_pay1 extractAt extractStridedSlice
  exact congrArg v7 (funext fun a => by obtain rfl : a = 0 := Subsingleton.elim _ _; rfl)
theorem word_1 (v7 : Vec F S16 .i32) : extractAt ![0] (k3_pay2 v7) inpos_S1_p0 = v7 (ValueIdx.ix1 ⟨1, by decide⟩) := by
  unfold k3_pay2 extractAt extractStridedSlice
  exact congrArg v7 (funext fun a => by obtain rfl : a = 0 := Subsingleton.elim _ _; rfl)
theorem word_2 (v7 : Vec F S16 .i32) : extractAt ![0] (k3_pay3 v7) inpos_S1_p0 = v7 (ValueIdx.ix1 ⟨2, by decide⟩) := by
  unfold k3_pay3 extractAt extractStridedSlice
  exact congrArg v7 (funext fun a => by obtain rfl : a = 0 := Subsingleton.elim _ _; rfl)
theorem word_3 (v7 : Vec F S16 .i32) : extractAt ![0] (k3_pay4 v7) inpos_S1_p0 = v7 (ValueIdx.ix1 ⟨3, by decide⟩) := by
  unfold k3_pay4 extractAt extractStridedSlice
  exact congrArg v7 (funext fun a => by obtain rfl : a = 0 := Subsingleton.elim _ _; rfl)
theorem word_4 (v7 : Vec F S16 .i32) : extractAt ![0] (k3_pay5 v7) inpos_S1_p0 = v7 (ValueIdx.ix1 ⟨4, by decide⟩) := by
  unfold k3_pay5 extractAt extractStridedSlice
  exact congrArg v7 (funext fun a => by obtain rfl : a = 0 := Subsingleton.elim _ _; rfl)
theorem word_5 (v7 : Vec F S16 .i32) : extractAt ![0] (k3_pay6 v7) inpos_S1_p0 = v7 (ValueIdx.ix1 ⟨5, by decide⟩) := by
  unfold k3_pay6 extractAt extractStridedSlice
  exact congrArg v7 (funext fun a => by obtain rfl : a = 0 := Subsingleton.elim _ _; rfl)
theorem word_6 (v7 : Vec F S16 .i32) : extractAt ![0] (k3_pay7 v7) inpos_S1_p0 = v7 (ValueIdx.ix1 ⟨6, by decide⟩) := by
  unfold k3_pay7 extractAt extractStridedSlice
  exact congrArg v7 (funext fun a => by obtain rfl : a = 0 := Subsingleton.elim _ _; rfl)
theorem word_7 (v7 : Vec F S16 .i32) : extractAt ![0] (k3_pay8 v7) inpos_S1_p0 = v7 (ValueIdx.ix1 ⟨7, by decide⟩) := by
  unfold k3_pay8 extractAt extractStridedSlice
  exact congrArg v7 (funext fun a => by obtain rfl : a = 0 := Subsingleton.elim _ _; rfl)
theorem word_8 (v7 : Vec F S16 .i32) : extractAt ![0] (k3_pay9 v7) inpos_S1_p0 = v7 (ValueIdx.ix1 ⟨8, by decide⟩) := by
  unfold k3_pay9 extractAt extractStridedSlice
  exact congrArg v7 (funext fun a => by obtain rfl : a = 0 := Subsingleton.elim _ _; rfl)
theorem word_9 (v7 : Vec F S16 .i32) : extractAt ![0] (k3_pay10 v7) inpos_S1_p0 = v7 (ValueIdx.ix1 ⟨9, by decide⟩) := by
  unfold k3_pay10 extractAt extractStridedSlice
  exact congrArg v7 (funext fun a => by obtain rfl : a = 0 := Subsingleton.elim _ _; rfl)
theorem word_10 (v7 : Vec F S16 .i32) : extractAt ![0] (k3_pay11 v7) inpos_S1_p0 = v7 (ValueIdx.ix1 ⟨10, by decide⟩) := by
  unfold k3_pay11 extractAt extractStridedSlice
  exact congrArg v7 (funext fun a => by obtain rfl : a = 0 := Subsingleton.elim _ _; rfl)
theorem word_11 (v7 : Vec F S16 .i32) : extractAt ![0] (k3_pay12 v7) inpos_S1_p0 = v7 (ValueIdx.ix1 ⟨11, by decide⟩) := by
  unfold k3_pay12 extractAt extractStridedSlice
  exact congrArg v7 (funext fun a => by obtain rfl : a = 0 := Subsingleton.elim _ _; rfl)
theorem word_12 (v7 : Vec F S16 .i32) : extractAt ![0] (k3_pay13 v7) inpos_S1_p0 = v7 (ValueIdx.ix1 ⟨12, by decide⟩) := by
  unfold k3_pay13 extractAt extractStridedSlice
  exact congrArg v7 (funext fun a => by obtain rfl : a = 0 := Subsingleton.elim _ _; rfl)
theorem word_13 (v7 : Vec F S16 .i32) : extractAt ![0] (k3_pay14 v7) inpos_S1_p0 = v7 (ValueIdx.ix1 ⟨13, by decide⟩) := by
  unfold k3_pay14 extractAt extractStridedSlice
  exact congrArg v7 (funext fun a => by obtain rfl : a = 0 := Subsingleton.elim _ _; rfl)
theorem word_14 (v7 : Vec F S16 .i32) : extractAt ![0] (k3_pay15 v7) inpos_S1_p0 = v7 (ValueIdx.ix1 ⟨14, by decide⟩) := by
  unfold k3_pay15 extractAt extractStridedSlice
  exact congrArg v7 (funext fun a => by obtain rfl : a = 0 := Subsingleton.elim _ _; rfl)
theorem word_15 (v7 : Vec F S16 .i32) : extractAt ![0] (k3_pay16 v7) inpos_S1_p0 = v7 (ValueIdx.ix1 ⟨15, by decide⟩) := by
  unfold k3_pay16 extractAt extractStridedSlice
  exact congrArg v7 (funext fun a => by obtain rfl : a = 0 := Subsingleton.elim _ _; rfl)

/-! ## The lookup's value at an index; the indices of a row -/

variable (m : (ℓ : Loc nD τ sig) → Buf (Elt F) ℓ)

theorem G_row (d : Dev nD) (r : Fin 16384) (k : Fin 64) :
    G m d (ValueIdx.ix2 r k) = m (tLoc d) (ValueIdx.ix2 (Spec.rowOf nRows nRows_pos (m (iLoc d) (ValueIdx.ix1 r))) k) := by
  unfold G
  exact Spec.gatherRows_apply nRows nRows_pos (m (tLoc d)) (m (iLoc d)) r k

theorem mem_rowSet_fst {r : Fin 16384} {i : S16384x64.Idx} (h : i ∈ rowSet r) : i 0 = r := by
  have h' : i ∈ (row r).set := by rw [← View.set_slice_whole outScv (row r)]; exact h
  rw [Rect.mem_set_unit] at h'
  have h0 := h' 0
  apply Fin.ext
  simp only [Shape.partIx, Shape.partSize] at h0
  have e : S16384x64.size 0 / 16384 = 1 := by decide
  simp only [↓reduceIte, e] at h0
  omega

/-! ## The destination of one row's copy -/

/-- The one-row rectangle at row r is the r-th of the 16384 parts of the result along its first axis. -/
theorem unitRow_eq (r : Fin 16384) (inb : ∀ a, (![r.val, 0] : Fin 2 → Nat) a + S1x64.size a ≤ S16384x64.size a) :
    Rect.unit (s := S16384x64) ![r.val, 0] S1x64.size inb = row r := by
  unfold row Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem set_dstRow (off : Fin 2 → Nat) (inb : ∀ a, off a + S1x64.size a ≤ S16384x64.size a) (r : Fin 16384)
    (hoff : off = ![r.val, 0]) :
    (((oW : Memref sig .scVector .hbm S16384x64 .f32).slice (Rect.unit (s := S16384x64) off S1x64.size inb) (fun _ => rfl)).squeeze S64
        squeezes_S1x64_S64).view.set = rowSet r := by
  subst hoff
  show (((oW : Memref sig .scVector .hbm S16384x64 .f32).view.slice (Rect.unit (s := S16384x64) ![r.val, 0] S1x64.size inb)).reshape S64
      squeezes_S1x64_S64.numel_eq).set = ((oW : Memref sig .scVector .hbm S16384x64 .f32).view.slice (row r)).set
  rw [View.set_reshape]
  exact unitRow_eq r inb ▸ rfl

/-! ## What the scratch holds after the first copy, and what a trip loads from it -/

theorem trips1 : k3_t1_loop.trips = 32 := by decide

theorem word_lt (g : Fin k3_t1_loop.trips) (j : Fin 16) : 16 * g.val + j.val < 512 := by
  have hg : g.val < 32 := Nat.lt_of_lt_of_eq g.isLt trips1
  have hj := j.isLt
  omega

/-- Word j of the sixteen that trip g loads is word 16g + j of the scratch. -/
theorem loaded_word (d : Dev nD) (L : grid0.Coords) (g : Fin k3_t1_loop.trips)
    (s : Buf (Elt F) ((sW : Memref sig .scVector .vmem S512 .i32).view.loc (V d (cV L) (jV L)))) (j : Fin 16) :
    ((sW : Memref sig .scVector .vmem S512 .i32).view.readAt (Elt F)
        (Rect.unit (s := S512) (k3_off2 g) S16.size (k3_off2_inb g)).toLoadRect s) (ValueIdx.ix1 j)
      = s (ValueIdx.ix1 ⟨16 * g.val + j.val, word_lt g j⟩) := by
  rw [View.readAt_apply]
  show s ((Rect.unit (s := S512) (k3_off2 g) S16.size (k3_off2_inb g)).toLoadRect.idx (ValueIdx.ix1 j)) = _
  refine congrArg s (funext fun (a : Fin 1) => Fin.ext ?_)
  obtain rfl : a = 0 := Subsingleton.elim _ _
  rw [LoadRect.idx_apply]
  show (k3_off2 g) 0 + 1 * j.val = 16 * g.val + j.val
  rw [k3_off2_eq]
  simp

/-- Once the first copy has landed, word t of the scratch is word base L + t of the index array. -/
theorem scratch_holds (d : Dev nD) (L : grid0.Coords)
    (fs : Buf (Elt F) ((sW : Memref sig .scVector .vmem S512 .i32).view.loc (V d (cV L) (jV L))))
    (mI : Buf (Elt F) (iLoc d)) (t : Fin 512) :
    ((sW : Memref sig .scVector .vmem S512 .i32).view.write (Elt F) fs
        ((ReadAs.same : ReadAs (Elt F) S512 .i32 S512 .i32).apply
          (((iW : Memref sig .scVector .hbm S16384 .i32).slice (Rect.unit (s := S16384) (k3_off1 L) S512.size (k3_off1_inb L))
              (fun _ => rfl)).view.read (Elt F) mI)) Finset.univ) (ValueIdx.ix1 t)
      = mI (ValueIdx.ix1 (⟨base L + t.val, base_add_lt L t⟩ : Fin 16384)) := by
  show ((View.whole scrScv).write (Elt F) fs
      (((iW : Memref sig .scVector .hbm S16384 .i32).view.slice (Rect.unit (s := S16384) (k3_off1 L) S512.size (k3_off1_inb L))).read (Elt F) mI)
      Finset.univ) (ValueIdx.ix1 t) = _
  rw [View.write_whole_univ, View.read_apply]
  refine (cast_eq _ _).trans ?_
  refine congrArg mI (funext fun (a : Fin 1) => Fin.ext ?_)
  obtain rfl : a = 0 := Subsingleton.elim _ _
  show (k3_off1 L) 0 + 1 * t.val = base L + t.val
  rw [k3_off1_eq]
  unfold base
  simp

/-! ## What one row's copy leaves -/

/-- A word that passes the copy's side condition names a row. -/
theorem lt_of_inb {w : BitVec 32} (hw : ∀ a, (k3_off4 w) a + S1x64.size a ≤ TS.size a) : w.toNat < nRows :=
  show w.toNat + 1 ≤ nRows from hw 0

/-- Column c of the destination row's own indices sits at (r, c) of the result. -/
theorem dst_emb (r : Fin 16384) (inb : ∀ a, (![r.val, 0] : Fin 2 → Nat) a + S1x64.size a ≤ S16384x64.size a) (x : S64.Idx) :
    (((oW : Memref sig .scVector .hbm S16384x64 .f32).slice (Rect.unit (s := S16384x64) ![r.val, 0] S1x64.size inb) (fun _ => rfl)).squeeze S64
        squeezes_S1x64_S64).view.emb x = ValueIdx.ix2 r (x 0) := by
  show (Rect.unit (s := S16384x64) ![r.val, 0] S1x64.size inb).emb (Shape.reshapeEquiv squeezes_S1x64_S64.numel_eq x) = _
  rw [Shape.reshapeEquiv_cons_one]
  funext a
  apply Fin.ext
  match a with
  | 0 => show r.val + 1 * 0 = r.val; omega
  | 1 => show 0 + 1 * (x 0).val = (x 0).val; omega

/-- Column c of the source row's own indices sits at (w, c) of the table. -/
theorem src_emb (w : BitVec 32) (hw : ∀ a, (k3_off4 w) a + S1x64.size a ≤ TS.size a) (x : S64.Idx) :
    (((tW : Memref sig .scVector .hbm TS .f32).slice (Rect.unit (s := TS) (k3_off4 w) S1x64.size hw) (fun _ => rfl)).squeeze S64
        squeezes_S1x64_S64).view.emb x = ValueIdx.ix2 (⟨w.toNat, lt_of_inb hw⟩ : Fin nRows) (x 0) := by
  show (Rect.unit (s := TS) (k3_off4 w) S1x64.size hw).emb (Shape.reshapeEquiv squeezes_S1x64_S64.numel_eq x) = _
  rw [Shape.reshapeEquiv_cons_one]
  funext a
  apply Fin.ext
  match a with
  | 0 => show w.toNat + 1 * 0 = w.toNat; omega
  | 1 => show 0 + 1 * (x 0).val = (x 0).val; omega

/-- After table row w has been copied onto result row r, every index of row r holds the table's entry at row w and the
    index's own column. -/
theorem write_row (d : Dev nD) (L : grid0.Coords) (off : Fin 2 → Nat) (inb : ∀ a, off a + S1x64.size a ≤ S16384x64.size a)
    (r : Fin 16384) (hoff : off = ![r.val, 0]) (w : BitVec 32) (hw : ∀ a, (k3_off4 w) a + S1x64.size a ≤ TS.size a)
    (fT : Buf (Elt F) (tLoc d)) (fO : Buf (Elt F) (oLoc d)) (i : S16384x64.Idx) (hi : i ∈ rowSet r) :
      ((((oW : Memref sig .scVector .hbm S16384x64 .f32).slice (Rect.unit (s := S16384x64) off S1x64.size inb) (fun _ => rfl)).squeeze S64
          squeezes_S1x64_S64).view.write (Elt F) fO
        ((ReadAs.same : ReadAs (Elt F) S64 .f32 S64 .f32).apply
          ((((tW : Memref sig .scVector .hbm TS .f32).slice (Rect.unit (s := TS) (k3_off4 w) S1x64.size hw) (fun _ => rfl)).squeeze S64
            squeezes_S1x64_S64).view.read (Elt F) fT)) Finset.univ) i
        = fT (ValueIdx.ix2 (⟨w.toNat, lt_of_inb hw⟩ : Fin nRows) (i 1)) := by
  subst hoff
  rw [← set_dstRow ![r.val, 0] inb r rfl] at hi
  obtain ⟨x, -, rfl⟩ := Finset.mem_map.mp hi
  rw [View.write_emb_of_mem _ _ (Finset.mem_univ x)]
  refine (cast_eq _ _).trans ?_
  show (((tW : Memref sig .scVector .hbm TS .f32).slice (Rect.unit (s := TS) (k3_off4 w) S1x64.size hw) (fun _ => rfl)).squeeze S64
      squeezes_S1x64_S64).view.read (Elt F) fT x = _
  rw [View.read_apply]
  refine (cast_eq _ _).trans ?_
  rw [src_emb w hw x, dst_emb r inb x]
  rfl

end Cert.Proof.KB.R3

end
-- ==== Proof.KBIssue3.lean ====
/-
  One of the tile's 512 row copies, started as the batch's next transfer. The copy reads the table row that the
  tile's `t`-th index word names and writes the tile's `t`-th row of the result; once it has landed, that row holds
  the lookup's value there: entry `(r, k)` of the result is entry `(idx r, k)` of the table.
-/
import proofs.«218896_g85959475462175_cont_9to1_m_647_27_alg».proof.Proof.KBTileDefs3
import proofs.«218896_g85959475462175_cont_9to1_m_647_27_alg».proof.Proof.KBView3

noncomputable section

namespace Cert.Proof.KB.R3

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

variable (m : (ℓ : Loc nD τ sig) → Buf (Elt F) ℓ) (d : Dev nD) (L : grid0.Coords)

/-- A row of the result and a row of the table, as the body slices them. -/
abbrev dstRow (off : Fin 2 → Nat) (inb : ∀ a, off a + S1x64.size a ≤ S16384x64.size a) : Memref sig .scVector .hbm S64 .f32 :=
  ((oW : Memref sig .scVector .hbm S16384x64 .f32).slice (Rect.unit (s := S16384x64) off S1x64.size inb) (fun _ => rfl)).squeeze S64 squeezes_S1x64_S64
abbrev srcRow (w : BitVec 32) (hw : ∀ a, (k3_off4 w) a + S1x64.size a ≤ TS.size a) : Memref sig .scVector .hbm S64 .f32 :=
  ((tW : Memref sig .scVector .hbm TS .f32).slice (Rect.unit (s := TS) (k3_off4 w) S1x64.size hw) (fun _ => rfl)).squeeze S64 squeezes_S1x64_S64

variable [FloatOps F]

/-- What the landed copy leaves in its row is the lookup's value there. -/
theorem landed_eq (t : Fin 512) (off : Fin 2 → Nat) (inb : ∀ a, off a + S1x64.size a ≤ S16384x64.size a)
    (hoff : off = ![(tileRow L t).val, 0]) (w : BitVec 32) (hw : ∀ a, (k3_off4 w) a + S1x64.size a ≤ TS.size a)
    (hwv : w = m (iLoc d) (ValueIdx.ix1 (tileRow L t))) (hlt : w.toNat < nRows)
    (i : S16384x64.Idx) (hi : i ∈ rowSet (tileRow L t)) :
    ((dstRow off inb).view.write (Elt F) (m (oLoc d)) ((ReadAs.same : ReadAs (Elt F) S64 .f32 S64 .f32).apply ((srcRow w hw).view.read (Elt F) (m (tLoc d)))) Finset.univ) i
      = G m d i := by
  rw [write_row d L off inb (tileRow L t) hoff w hw (m (tLoc d)) (m (oLoc d)) i hi]
  obtain ⟨r, k, rfl⟩ : ∃ (r : Fin 16384) (k : Fin 64), i = ValueIdx.ix2 r k := ⟨i 0, i 1, ValueIdx.eq_ix2 i⟩
  have hr : r = tileRow L t := mem_rowSet_fst hi
  subst hr
  show m (tLoc d) (ValueIdx.ix2 _ k) = _
  rw [G_row]
  congr 2
  apply Fin.ext
  show w.toNat = (Spec.rowOf nRows nRows_pos (m (iLoc d) (ValueIdx.ix1 (tileRow L t)))).val
  rw [← hwv, Spec.rowOf_val_of_lt nRows_pos hlt]

/-- The batch's transfer `t`, started: from the copy's own token of the table and its row of the result. -/
theorem wp_issue (t : Fin 512) (off : Fin 2 → Nat) (inb : ∀ a, off a + S1x64.size a ≤ S16384x64.size a)
    (hoff : off = ![(tileRow L t).val, 0]) (w : BitVec 32) (hw : ∀ a, (k3_off4 w) a + S1x64.size a ≤ TS.size a)
    (hwv : w = m (iLoc d) (ValueIdx.ix1 (tileRow L t))) (hlt : w.toNat < nRows)
    {α : Type} {k : PUnit → Prog (TpuEff nD τ sig (Elt F) Λ₀ (thr d L).2) α} {Q : α → sProp 𝕄}
    {hs : (srcRow w hw).view.WordExact} {hd : (dstRow off inb).view.WordExact}
    {hsem : DmaTarget.Typed (nD := nD) Space.hbm (SemLoc.dma cc3_scratch1.sem) (DmaTarget.here (p := (thr d L).2) (dstRow off inb))} :
    iprop(Rk m d L t ∗ Transfers.Batch (EC (F := F)) (thr d L) (.dma cc3_scratch1.sem) (none : HIx 8) N (Dl m d L) t.val 0)
      ⊢ iprop((Transfers.Batch (EC (F := F)) (thr d L) (.dma cc3_scratch1.sem) (none : HIx 8) N (Dl m d L) (t.val + 1) 0
            -∗ wp frame (wpE (defs₀ (F := F)) 𝒱₀ (thr d L) none) Set.univ (k ⟨⟩) Q)
          -∗ wp frame (wpE (defs₀ (F := F)) 𝒱₀ (thr d L) none) Set.univ
              (.op (TpuEff.enqueueDma (srcRow w hw) (DmaTarget.here (p := (thr d L).2) (dstRow off inb)) (.dma cc3_scratch1.sem) hs hd hsem) k) Q) := by
  unfold Rk
  iintro ⟨⟨Htok, Hrow⟩, HB⟩ Hk
  ihave Htok' := ((pointsTo_split_subset (ℓ := tLoc d) (I := (srcRow w hw).view.set) (S := Finset.univ) (Finset.subset_univ _)).1) $$ Htok
  icases Htok' with ⟨Hsrc, -⟩
  iapply (Transfers.wp_dmaBatch (EC (F := F)) 𝒱₀ (thr d L) none (src := srcRow w hw) (dst := dstRow off inb)
      (q := Transfers.shareTok (tsh L) 512 t) (fs := m (tLoc d)) (Sd := rowSet (tileRow L t)) (fd := m (oLoc d)) (D := Dl m d L) (j := t.val) (u := 0)
      (none : HIx 8) N rfl (set_dstRow off inb (tileRow L t) hoff).le t.isLt (Nat.zero_le _) ?hD) $$ [Hsrc Hrow HB]
  case hD =>
    iintro ⟨H, -⟩
    unfold Dl
    iapply (Entails.of_eq (pointsTo_congr (fun i hi => landed_eq m d L t off inb hoff w hw hwv hlt i hi)))
    iexact H
  · isplitl [Hsrc]; · iexact Hsrc
    isplitl [Hrow]; · iexact Hrow
    iexact HB
  iexact Hk

end Cert.Proof.KB.R3

end
-- ==== Proof.KBDrain3.lean ====
/-
  The tile's second loop: 512 waits on the one semaphore that the 512 row copies complete on. Each wait takes one
  copy's units off the counter; copies land in any order, so a wait that is not the last proves nothing about any
  row, and only the last — when all 512 copies' units have been taken — hands back every row holding its value and
  the counter at zero. The invariant before wait k says exactly that: k copies' units consumed and the batch still
  open, or (after the last) every delivery in hand.
-/
import proofs.«218896_g85959475462175_cont_9to1_m_647_27_alg».proof.Proof.KBTileDefs3

noncomputable section

namespace Cert.Proof.KB.R3

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- The loop makes 512 trips. -/
theorem trips2 : Scf.trips k3_t2_loop.lb k3_t2_loop.ub k3_t2_loop.st = 512 := by decide

/-- A row's credit is positive. -/
theorem N_pos : 0 < N := View.dmaCredit_pos _ (by decide)

/-- Before wait `k` of the 512: the batch with `k` transfers' units consumed; after the last, every delivery. -/
def inv2 (O : CellTallies nD τ sig (HIx 8)) (W : Waits sig (HIx 8)) (k : ℕ) (_ : Unit) : sProp 𝕄 :=
  iprop(Transfers.MayWaits (thr d L) (none : HIx 8) O
    ∗ ((⌜k < 512⌝ ∗ Transfers.Batch (EC (F := F)) (thr d L) (.dma cc3_scratch1.sem) (none : HIx 8) N (Dl m d L) 512 (k * N)
          ∗ ∃ W', ⌜∀ p ∈ W', p ∈ W ∨ p.2 = none⌝ ∗ owes (thr d L) O W')
      ∨ (⌜k = 512⌝ ∗ bigSep Finset.univ (Dl m d L) ∗ semVal (cB d L) 0 ∗ ∃ W', ⌜∀ p ∈ W', p ∈ W ∨ p.2 = none⌝ ∗ owes (thr d L) O W')))

variable [FloatOps F]

/-- The 512 waits: from the batch with every copy started and nothing consumed, to every row delivered and the counter at
    zero; each wait is recorded at the index of the tile's own copies. -/
theorem drain (O : CellTallies nD τ sig (HIx 8)) (W : Waits sig (HIx 8)) :
    iprop(Transfers.MayWaits (thr d L) (none : HIx 8) O
        ∗ Transfers.Batch (EC (F := F)) (thr d L) (.dma cc3_scratch1.sem) (none : HIx 8) N (Dl m d L) 512 0
        ∗ owes (thr d L) O W)
      ⊢ wp frame (wpE (defs₀ (F := F)) 𝒱₀ (thr d L) none) Set.univ
          (Scf.Loop.for k3_t2_loop k3_t2_ok ⟨⟩ (k3_t2_body L tW (Memref.isWhole_whole _) iW (Memref.isWhole_whole _) oW (Memref.isWhole_whole _) sW (Memref.isWhole_whole _) cc3_scratch1 cc3_scoped0))
          (fun _ => iprop(bigSep Finset.univ (Dl m d L) ∗ semVal (cB d L) 0 ∗ ∃ W', ⌜∀ p ∈ W', p ∈ W ∨ p.2 = none⌝ ∗ owes (thr d L) O W')) := by
  iintro ⟨#Hmw, HB, HO⟩
  sl_for (inv2 m d L O W) $$ [HB HO]
  case region =>
    intro k acc
    have hk : k.val < 512 := Nat.lt_of_lt_of_eq k.isLt trips2
    have e : (k.val + 1) * N = k.val * N + N := by rw [Nat.add_mul, Nat.one_mul]
    unfold inv2
    iintro ⟨#Hmw, H⟩
    sl_exec
    icases H with (⟨-, HB, %W', %hW', HO⟩ | ⟨%hk', -⟩)
    rotate_left
    · exfalso; omega
    ihave Hmw1 := (Transfers.MayWaits.elim (SemLoc.dma cc3_scratch1.sem)) $$ Hmw
    have hW'' : ∀ p ∈ insert (SemLoc.dma cc3_scratch1.sem, (none : HIx 8)) W', p ∈ W ∨ p.2 = none := by
      intro p hp
      rcases Finset.mem_insert.mp hp with hp | hp
      · exact .inr (hp ▸ rfl)
      · exact hW' p hp
    by_cases hlast : k.val + 1 < 512
    · have hu : k.val * N + N < N * 512 := by
        have h1 : (k.val + 1) * N < 512 * N := Nat.mul_lt_mul_of_pos_right hlast N_pos
        rw [e] at h1; rw [Nat.mul_comm N 512]; exact h1
      iapply (Transfers.wp_waitBatchO (EC (F := F)) 𝒱₀ (thr d L) none (none : HIx 8) (N := N) rfl hu) $$ [HB HO Hmw1]
      · isplitl [HB]; · iexact HB
        isplitl [HO]; · iexact HO
        iexact Hmw1
      iintro ⟨HB, HO⟩
      sl_step
      isplitr; · iexact Hmw
      ileft
      isplitr; · ipureintro; exact hlast
      rw [e]
      isplitl [HB]; · iexact HB
      iexists _; isplitr
      · ipureintro; exact hW''
      · iexact HO
    · have hu : k.val * N + N = N * 512 := by
        have h1 : k.val = 511 := by omega
        rw [h1]; omega
      iapply (Transfers.wp_waitBatchLastO (EC (F := F)) 𝒱₀ (thr d L) none (none : HIx 8) (N := N) rfl N_pos hu) $$ [HB HO Hmw1]
      · isplitl [HB]; · iexact HB
        isplitl [HO]; · iexact HO
        iexact Hmw1
      iintro ⟨HD, Hv, HO⟩
      sl_step
      isplitr; · iexact Hmw
      iright
      isplitr; · ipureintro; omega
      isplitl [HD]; · iexact HD
      isplitl [Hv]; · iexact Hv
      iexists _; isplitr
      · ipureintro; exact hW''
      · iexact HO
  rw [trips2]
  isplitl [HB HO]
  · unfold inv2
    isplitr; · iexact Hmw
    ileft
    isplitr; · ipureintro; omega
    rw [Nat.zero_mul]
    isplitl [HB]; · iexact HB
    iexists W; isplitr
    · ipureintro; exact fun p hp => .inl hp
    · iexact HO
  · iintro %acc HI
    unfold inv2
    icases HI with ⟨-, (⟨%h, -⟩ | ⟨-, HD, Hv, HW⟩)⟩
    · exfalso; omega
    isplitl [HD]; · iexact HD
    isplitl [Hv]; · iexact Hv
    iexact HW

end Cert.Proof.KB.R3

end
-- ==== Proof.KBTile3.lean ====
/-
  The tile's obligation at call 3: the index words fetched into the scratch, the 512 row copies started sixteen to a
  trip on one semaphore as ONE batch (no copy's source or destination is touched between the first start and the
  last wait), the batch drained by 512 waits, and the rows handed back holding the lookup's value.
-/
import proofs.«218896_g85959475462175_cont_9to1_m_647_27_alg».proof.Proof.KBTileDefs3
import proofs.«218896_g85959475462175_cont_9to1_m_647_27_alg».proof.Proof.KBView3
import proofs.«218896_g85959475462175_cont_9to1_m_647_27_alg».proof.Proof.KBIssue3
import proofs.«218896_g85959475462175_cont_9to1_m_647_27_alg».proof.Proof.KBDrain3

noncomputable section

namespace Cert.Proof.KB.R3

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- Before trip `k` of the first loop: the scratch at the landed index words, the first `16 k` copies started and none
    waited for, the later copies' tokens and rows still in hand. -/
def inv1 (k : Nat) (_ : PUnit) : sProp 𝕄 :=
  iprop(∃ sc, ⌜Holds m d L sc⌝ ∗ ((sW : Memref sig .scVector .vmem S512 .i32).view.loc (thr d L) ↦{fullShare} sc)
    ∗ Transfers.Batch (EC (F := F)) (thr d L) (.dma cc3_scratch1.sem) (none : HIx 8) N (Dl m d L) (16 * k) 0
    ∗ bigSep (Transfers.pending (n := 512) (16 * k)) (Rk m d L))

/-- The sixteen words a trip loads. -/
abbrev loaded (k : Fin k3_t1_loop.trips) (sc : Buf (Elt F) ((sW : Memref sig .scVector .vmem S512 .i32).view.loc (thr d L))) : Vec F S16 .i32 :=
  (sW : Memref sig .scVector .vmem S512 .i32).view.readAt (Elt F) (Rect.unit (s := S512) (k3_off2 k) S16.size (k3_off2_inb k)).toLoadRect sc

theorem off_eq {x y : Nat} (h : x = y) : (![x, 0] : Fin 2 → Nat) = ![y, 0] := by rw [h]

variable [FloatOps F]

/- Copy `j` of a trip: its index word names a row of the table (the check passes), and the copy is the batch's
   transfer `16 k + j`, started from that transfer's token and row. -/
set_option hygiene false in
local macro "issue_copy " j:num " with " chk:ident ", " wj:ident ", " offeq:ident : tactic => `(tactic| (
  iapply (wp_assume 𝒱₀ (thr d L) none Set.univ ($chk:ident ((congrArg BitVec.toNat ($wj:ident (loaded d L k sc))).trans_lt (hwlt ⟨$j, by decide⟩))))
  sl_exec
  ihave Hp := (Entails.of_eq (Transfers.bigSep_pending_step (Rk m d L) (16 * k.val + $j) (hidx ⟨$j, by decide⟩))) $$ Hpend
  icases Hp with ⟨HR, Hpend⟩
  iapply (wp_issue m d L ⟨16 * k.val + $j, hidx ⟨$j, by decide⟩⟩ _ _
      (($offeq:ident L k).trans (off_eq (by show _ = base L + (16 * k.val + $j); unfold base; omega))) _ _
      (($wj:ident (loaded d L k sc)).trans (hwv ⟨$j, by decide⟩)) ((congrArg BitVec.toNat ($wj:ident (loaded d L k sc))).trans_lt (hwlt ⟨$j, by decide⟩))) $$ [HR HB]
  · isplitl [HR]
    · iexact HR
    iexact HB
  iintro HB
  sl_exec))

theorem tile_body (hF : (K (F := F)).Facts) (hpre : ∀ d, Spec.InRange nRows (m (iLoc d))) : TileBody m := by
  intro d L O W hO
  simp only [cc3__gather_body_eq_skeleton]; unfold cc3__gather_body_skel
  rw [(K (F := F)).scopedBufs_V hF d (cV L) (jV L), SparseCore.Cfg.scopedSems0_V (Val := Elt F) d (cV L) (jV L), ownSems0_V, ownBufs_V]
  unfold go
  iintro ⟨#Hlv, -, ⟨Ht, Hi, Hrows⟩, ⟨⟨%fs, Hs⟩, Hbufs⟩, ⟨HsemS, HsemB, Hsems⟩, HO⟩
  ihave Hmw := ((K (F := F)).mayWaits_none (thr := thr d L) hO) $$ Hlv
  ihave Hi' := (Entails.of_eq (pts_i (F := F) d L _ _).symm) $$ Hi
  ihave Hs' := (Entails.of_eq (pts_s (F := F) d L _).symm) $$ Hs
  -- the index words fetched into the scratch, and the fetch waited for
  sl_exec
  -- the 512 copies' batch on the shared semaphore, allocated before the first is started
  imod (Transfers.batch_alloc' (Lvl := ℕ) (EC (F := F)) (thr d L) (none : HIx 8) N (Dl m d L) (sm := .dma cc3_scratch1.sem) (E := Set.univ)) $$ HsemB with HB
  -- the table's token dealt into one per copy
  ihave Ht' := (Transfers.pointsTo_toks_split (tsh L) 512) $$ Ht
  icases Ht' with ⟨-, Htoks⟩
  sl_for (inv1 m d L) $$ [Hs' HB Htoks Hrows]
  case region =>
    intro k hk
    unfold inv1
    iintro ⟨%sc, %hsc, Hs, HB, Hpend⟩
    have hk32 : k.val < 32 := lt_of_lt_of_eq k.isLt trips1
    have hidx : ∀ j : Fin 16, 16 * k.val + j.val < 512 := fun j => by have := j.isLt; omega
    -- the sixteen words the trip loads are the tile's index words 16 k … 16 k + 15; each names a row of the table
    have hwv : ∀ j : Fin 16, loaded d L k sc (ValueIdx.ix1 j) = m (iLoc d) (ValueIdx.ix1 (tileRow L ⟨16 * k.val + j.val, hidx j⟩)) :=
      fun j => (loaded_word d L k sc j).trans (hsc _)
    have hwlt : ∀ j : Fin 16, (loaded d L k sc (ValueIdx.ix1 j)).toNat < nRows := fun j => by rw [hwv j]; exact (hpre d).toNat_lt _
    sl_exec
    issue_copy 0 with chk_of_lt_1, word_0, k3_off3_eq
    issue_copy 1 with chk_of_lt_2, word_1, k3_off5_eq
    issue_copy 2 with chk_of_lt_3, word_2, k3_off7_eq
    issue_copy 3 with chk_of_lt_4, word_3, k3_off9_eq
    issue_copy 4 with chk_of_lt_5, word_4, k3_off11_eq
    issue_copy 5 with chk_of_lt_6, word_5, k3_off13_eq
    issue_copy 6 with chk_of_lt_7, word_6, k3_off15_eq
    issue_copy 7 with chk_of_lt_8, word_7, k3_off17_eq
    issue_copy 8 with chk_of_lt_9, word_8, k3_off19_eq
    issue_copy 9 with chk_of_lt_10, word_9, k3_off21_eq
    issue_copy 10 with chk_of_lt_11, word_10, k3_off23_eq
    issue_copy 11 with chk_of_lt_12, word_11, k3_off25_eq
    issue_copy 12 with chk_of_lt_13, word_12, k3_off27_eq
    issue_copy 13 with chk_of_lt_14, word_13, k3_off29_eq
    issue_copy 14 with chk_of_lt_15, word_14, k3_off31_eq
    issue_copy 15 with chk_of_lt_16, word_15, k3_off33_eq
    -- the trip's return: the invariant at `k + 1`
    rw [show 16 * (k.val + 1) = 16 * k.val + 15 + 1 by omega]
    sl_step
    iexists sc
    isplitr; · ipureintro; exact hsc
    isplitl [Hs]; · iexact Hs
    isplitl [HB]; · iexact HB
    iexact Hpend
  · -- the loop's entry: nothing started, every copy's token and row in hand
    unfold inv1
    iexists _
    isplitr; · ipureintro; exact fun t => scratch_holds d L fs (m (iLoc d)) t
    isplitl [Hs']; · iexact Hs'
    isplitl [HB]; · iexact HB
    rw [show 16 * 0 = 0 from rfl, ← Transfers.bigSep_pending_zero]
    unfold Rk
    rw [bigSep_sep']
    isplitl [Htoks]; · iexact Htoks
    iexact Hrows
  -- after the first loop: all 512 started, none waited for
  iintro %_ HI
  unfold inv1
  icases HI with ⟨%sc, -, Hs, HB, -⟩
  sl_exec
  have h512 : 16 * Scf.trips k3_t1_loop.lb k3_t1_loop.ub k3_t1_loop.st = 512 := by decide
  rw [h512]
  -- the second loop drains the batch: every row comes back holding the lookup's value
  simp only [wp_bind]
  ihave Hd := (drain m d L O _) $$ [HB HO]
  · isplitr; · iexact Hmw
    isplitl [HB]; · iexact HB
    iexact HO
  iapply (wp_wand frame _ Set.univ) $$ Hd
  iintro %_ ⟨HD, HsemB, %W', %hW', HO⟩
  sl_step
  isplitl [HD]
  · unfold td; iexact HD
  isplitl [Hs Hbufs]
  · isplitl [Hs]
    · iexists _; iapply (Entails.of_eq (pts_s (F := F) d L _)); iexact Hs
    iexact Hbufs
  isplitl [HsemS HsemB Hsems]
  · isplitl [HsemS]; · iexact HsemS
    isplitl [HsemB]; · iexact HsemB
    iexact Hsems
  iexists W'; isplitr
  · ipureintro; intro p hp
    rcases hW' p hp with h | h
    · rcases Finset.mem_insert.mp h with rfl | h
      · exact .inr rfl
      · exact .inl h
    · exact .inr h
  iexact HO

end Cert.Proof.KB.R3

end
-- ==== Proof.KBTileDefs4.lean ====
/-
  The tile's own names for call 4's body: its thread, its two DMA semaphores' cells, its scoped storage opened to
  the scratch and those two cells, the batch of the 512 row copies (each copy's delivery: its row of the result at
  the lookup's value), and what a copy needs before it is started.
-/
import proofs.«218896_g85959475462175_cont_9to1_m_647_27_alg».proof.Proof.KBRes4

noncomputable section

namespace Cert.Proof.KB.R4

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

abbrev thr : Thread nD τ := V d (cV L) (jV L)
abbrev cS : GSem nD τ sig := (thr d L, .dma cc4_scoped0.sem)
abbrev cB : GSem nD τ sig := (thr d L, .dma cc4_scratch1.sem)

theorem ownSems0_V :
    (ownSems0 (thr d L) : sProp 𝕄)
      = iprop(semVal (cS d L) 0 ∗ semVal (cB d L) 0 ∗ bigSep (((ownCells (thr d L)).erase (cS d L)).erase (cB d L)) fun g => semVal g 0) := by
  unfold SparseCore.Cfg.ownSems0
  rw [SparseCore.bigSep_erase' ((mem_ownCells (g := cS d L)).mpr ⟨rfl, by
      show (SemLoc.dma cc4_scoped0.sem : SemLoc sig).isScoped .scVector = true; decide⟩),
    SparseCore.bigSep_erase' (Finset.mem_erase.mpr ⟨by simp [cS, cB]; decide, (mem_ownCells (g := cB d L)).mpr ⟨rfl, by
      show (SemLoc.dma cc4_scratch1.sem : SemLoc sig).isScoped .scVector = true; decide⟩⟩)]

theorem ownBufs_V :
    (ownBufs (thr d L) : sProp 𝕄)
      = iprop((∃ f, (thr d L).loc scrScv ↦{fullShare} f)
          ∗ bigSep ((ownRefs (τ := τ) (.scVector (cV L) (jV L))).erase ((Proc.scVector (cV L) (jV L)).devRef scrScv))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef scrScv) rfl)

omit m in
theorem pts_i (q : PosShare TreeShare) (f : Buf (Elt F) (iLoc d)) :
    ((iW : Memref sig .scVector .hbm S16384 .i32).view.loc (thr d L) ↦{q} f : sProp 𝕄) = iLoc d ↦{q} f := rfl
omit m in
theorem pts_t (q : PosShare TreeShare) (f : Buf (Elt F) (tLoc d)) :
    ((tW : Memref sig .scVector .hbm TS .f32).view.loc (thr d L) ↦{q} f : sProp 𝕄) = tLoc d ↦{q} f := rfl
omit m in
theorem pts_s (f : Buf (Elt F) ((thr d L).loc scrScv)) :
    ((sW : Memref sig .scVector .vmem S512 .i32).view.loc (thr d L) ↦{fullShare} f : sProp 𝕄) = (thr d L).loc scrScv ↦{fullShare} f := rfl

/-- The counters of the tile's own copies. -/
abbrev EC : UEmb Counters (MT nD τ sig (HIx 8) (Elt F) ℕ UU ℕ) := countersEmb (U := UU)

/-- Row 0 of the result as the waits name it: any row's credit. -/
abbrev row0 : Memref sig .scVector .hbm S64 .f32 :=
  ((oW : Memref sig .scVector .hbm S16384x64 .f32).slice (Rect.unit (s := S16384x64) ![0, 0] S1x64.size inb_S16384x64_S1x64_0_0) (fun _ => rfl)).squeeze S64 squeezes_S1x64_S64
abbrev N : ℕ := (row0).view.dmaCredit

/-- The tile's read token of the table. -/
abbrev tsh : PosShare TreeShare := Transfers.shareTok fullShare 32 (wid L)

/-- Copy `t` of the 512 delivers row `t` of the tile's rows holding the lookup's value. -/
def Dl (t : Fin 512) : sProp 𝕄 := oLoc d ↦[rowSet (tileRow L t)]{fullShare} G m d

instance Dl_storable (t : Fin 512) : BI.Storable (upEmb : UEmb _ 𝕄) (Dl m d L t) := by unfold Dl; infer_instance

/-- What copy `t` needs before it is started: its own read token of the table, and its row of the result. -/
def Rk (t : Fin 512) : sProp 𝕄 :=
  iprop((tLoc d ↦{Transfers.shareTok (tsh L) 512 t} m (tLoc d)) ∗ (oLoc d ↦[rowSet (tileRow L t)]{fullShare} m (oLoc d)))

/-- The scratch holds the tile's 512 index words. -/
def Holds (sc : Buf (Elt F) ((sW : Memref sig .scVector .vmem S512 .i32).view.loc (thr d L))) : Prop :=
  ∀ t : Fin 512, sc (ValueIdx.ix1 t) = m (iLoc d) (ValueIdx.ix1 (tileRow L t))

end Cert.Proof.KB.R4

end
-- ==== Proof.KBView4.lean ====
/-
  Call 4 of the eight: what the tile's memory accesses address and read, as plain facts about index sets and
  contents, with no program logic in them.

  The tile at grid coordinates L owns result rows base L … base L + 511. It copies index words base L … base L + 511
  into its 512-word scratch (scratch_holds: word t of the scratch is then word base L + t of the index array);
  in trip g it loads the sixteen scratch words 16g … 16g + 15 (loaded_word) and takes them apart one at a time
  (word_0 … word_15); for each word w it copies table row w, when w names a row (chk_of_lt_N), onto one result row
  (set_dstRow: the destination is exactly that row's set of indices; write_row: after the copy the row holds table row w,
  column by column). G_row is the lookup's value at one index, and mem_rowSet_fst says that an index of row r's set has
  first coordinate r.
-/
import proofs.«218896_g85959475462175_cont_9to1_m_647_27_alg».proof.Proof.KBRes4

noncomputable section

namespace Cert.Proof.KB.R4

open Cert.Kernel Cert.Kernel.Gen Cert.Proof.KB

open Idealize.ShloMosaic
open Idealize.ShloMosaic.SparseCore (S V T)

variable {F : FTy → Type}

/-! ## A word that names a row passes the copy's side condition -/

theorem chk_of_lt_1 {w : BitVec 32} (h : w.toNat < nRows) : k4_chk1 w := fun a =>
  match a with
  | 0 => show w.toNat + 1 ≤ nRows from h
  | 1 => show 0 + 64 ≤ 64 from Nat.le_refl _
theorem chk_of_lt_2 {w : BitVec 32} (h : w.toNat < nRows) : k4_chk2 w := fun a =>
  match a with
  | 0 => show w.toNat + 1 ≤ nRows from h
  | 1 => show 0 + 64 ≤ 64 from Nat.le_refl _
theorem chk_of_lt_3 {w : BitVec 32} (h : w.toNat < nRows) : k4_chk3 w := fun a =>
  match a with
  | 0 => show w.toNat + 1 ≤ nRows from h
  | 1 => show 0 + 64 ≤ 64 from Nat.le_refl _
theorem chk_of_lt_4 {w : BitVec 32} (h : w.toNat < nRows) : k4_chk4 w := fun a =>
  match a with
  | 0 => show w.toNat + 1 ≤ nRows from h
  | 1 => show 0 + 64 ≤ 64 from Nat.le_refl _
theorem chk_of_lt_5 {w : BitVec 32} (h : w.toNat < nRows) : k4_chk5 w := fun a =>
  match a with
  | 0 => show w.toNat + 1 ≤ nRows from h
  | 1 => show 0 + 64 ≤ 64 from Nat.le_refl _
theorem chk_of_lt_6 {w : BitVec 32} (h : w.toNat < nRows) : k4_chk6 w := fun a =>
  match a with
  | 0 => show w.toNat + 1 ≤ nRows from h
  | 1 => show 0 + 64 ≤ 64 from Nat.le_refl _
theorem chk_of_lt_7 {w : BitVec 32} (h : w.toNat < nRows) : k4_chk7 w := fun a =>
  match a with
  | 0 => show w.toNat + 1 ≤ nRows from h
  | 1 => show 0 + 64 ≤ 64 from Nat.le_refl _
theorem chk_of_lt_8 {w : BitVec 32} (h : w.toNat < nRows) : k4_chk8 w := fun a =>
  match a with
  | 0 => show w.toNat + 1 ≤ nRows from h
  | 1 => show 0 + 64 ≤ 64 from Nat.le_refl _
theorem chk_of_lt_9 {w : BitVec 32} (h : w.toNat < nRows) : k4_chk9 w := fun a =>
  match a with
  | 0 => show w.toNat + 1 ≤ nRows from h
  | 1 => show 0 + 64 ≤ 64 from Nat.le_refl _
theorem chk_of_lt_10 {w : BitVec 32} (h : w.toNat < nRows) : k4_chk10 w := fun a =>
  match a with
  | 0 => show w.toNat + 1 ≤ nRows from h
  | 1 => show 0 + 64 ≤ 64 from Nat.le_refl _
theorem chk_of_lt_11 {w : BitVec 32} (h : w.toNat < nRows) : k4_chk11 w := fun a =>
  match a with
  | 0 => show w.toNat + 1 ≤ nRows from h
  | 1 => show 0 + 64 ≤ 64 from Nat.le_refl _
theorem chk_of_lt_12 {w : BitVec 32} (h : w.toNat < nRows) : k4_chk12 w := fun a =>
  match a with
  | 0 => show w.toNat + 1 ≤ nRows from h
  | 1 => show 0 + 64 ≤ 64 from Nat.le_refl _
theorem chk_of_lt_13 {w : BitVec 32} (h : w.toNat < nRows) : k4_chk13 w := fun a =>
  match a with
  | 0 => show w.toNat + 1 ≤ nRows from h
  | 1 => show 0 + 64 ≤ 64 from Nat.le_refl _
theorem chk_of_lt_14 {w : BitVec 32} (h : w.toNat < nRows) : k4_chk14 w := fun a =>
  match a with
  | 0 => show w.toNat + 1 ≤ nRows from h
  | 1 => show 0 + 64 ≤ 64 from Nat.le_refl _
theorem chk_of_lt_15 {w : BitVec 32} (h : w.toNat < nRows) : k4_chk15 w := fun a =>
  match a with
  | 0 => show w.toNat + 1 ≤ nRows from h
  | 1 => show 0 + 64 ≤ 64 from Nat.le_refl _
theorem chk_of_lt_16 {w : BitVec 32} (h : w.toNat < nRows) : k4_chk16 w := fun a =>
  match a with
  | 0 => show w.toNat + 1 ≤ nRows from h
  | 1 => show 0 + 64 ≤ 64 from Nat.le_refl _

/-! ## The sixteen words of a load, one at a time -/

theorem word_0 (v7 : Vec F S16 .i32) : extractAt ![0] (k4_pay1 v7) inpos_S1_p0 = v7 (ValueIdx.ix1 ⟨0, by decide⟩) := by
  unfold k4_pay1 extractAt extractStridedSlice
  exact congrArg v7 (funext fun a => by obtain rfl : a = 0 := Subsingleton.elim _ _; rfl)
theorem word_1 (v7 : Vec F S16 .i32) : extractAt ![0] (k4_pay2 v7) inpos_S1_p0 = v7 (ValueIdx.ix1 ⟨1, by decide⟩) := by
  unfold k4_pay2 extractAt extractStridedSlice
  exact congrArg v7 (funext fun a => by obtain rfl : a = 0 := Subsingleton.elim _ _; rfl)
theorem word_2 (v7 : Vec F S16 .i32) : extractAt ![0] (k4_pay3 v7) inpos_S1_p0 = v7 (ValueIdx.ix1 ⟨2, by decide⟩) := by
  unfold k4_pay3 extractAt extractStridedSlice
  exact congrArg v7 (funext fun a => by obtain rfl : a = 0 := Subsingleton.elim _ _; rfl)
theorem word_3 (v7 : Vec F S16 .i32) : extractAt ![0] (k4_pay4 v7) inpos_S1_p0 = v7 (ValueIdx.ix1 ⟨3, by decide⟩) := by
  unfold k4_pay4 extractAt extractStridedSlice
  exact congrArg v7 (funext fun a => by obtain rfl : a = 0 := Subsingleton.elim _ _; rfl)
theorem word_4 (v7 : Vec F S16 .i32) : extractAt ![0] (k4_pay5 v7) inpos_S1_p0 = v7 (ValueIdx.ix1 ⟨4, by decide⟩) := by
  unfold k4_pay5 extractAt extractStridedSlice
  exact congrArg v7 (funext fun a => by obtain rfl : a = 0 := Subsingleton.elim _ _; rfl)
theorem word_5 (v7 : Vec F S16 .i32) : extractAt ![0] (k4_pay6 v7) inpos_S1_p0 = v7 (ValueIdx.ix1 ⟨5, by decide⟩) := by
  unfold k4_pay6 extractAt extractStridedSlice
  exact congrArg v7 (funext fun a => by obtain rfl : a = 0 := Subsingleton.elim _ _; rfl)
theorem word_6 (v7 : Vec F S16 .i32) : extractAt ![0] (k4_pay7 v7) inpos_S1_p0 = v7 (ValueIdx.ix1 ⟨6, by decide⟩) := by
  unfold k4_pay7 extractAt extractStridedSlice
  exact congrArg v7 (funext fun a => by obtain rfl : a = 0 := Subsingleton.elim _ _; rfl)
theorem word_7 (v7 : Vec F S16 .i32) : extractAt ![0] (k4_pay8 v7) inpos_S1_p0 = v7 (ValueIdx.ix1 ⟨7, by decide⟩) := by
  unfold k4_pay8 extractAt extractStridedSlice
  exact congrArg v7 (funext fun a => by obtain rfl : a = 0 := Subsingleton.elim _ _; rfl)
theorem word_8 (v7 : Vec F S16 .i32) : extractAt ![0] (k4_pay9 v7) inpos_S1_p0 = v7 (ValueIdx.ix1 ⟨8, by decide⟩) := by
  unfold k4_pay9 extractAt extractStridedSlice
  exact congrArg v7 (funext fun a => by obtain rfl : a = 0 := Subsingleton.elim _ _; rfl)
theorem word_9 (v7 : Vec F S16 .i32) : extractAt ![0] (k4_pay10 v7) inpos_S1_p0 = v7 (ValueIdx.ix1 ⟨9, by decide⟩) := by
  unfold k4_pay10 extractAt extractStridedSlice
  exact congrArg v7 (funext fun a => by obtain rfl : a = 0 := Subsingleton.elim _ _; rfl)
theorem word_10 (v7 : Vec F S16 .i32) : extractAt ![0] (k4_pay11 v7) inpos_S1_p0 = v7 (ValueIdx.ix1 ⟨10, by decide⟩) := by
  unfold k4_pay11 extractAt extractStridedSlice
  exact congrArg v7 (funext fun a => by obtain rfl : a = 0 := Subsingleton.elim _ _; rfl)
theorem word_11 (v7 : Vec F S16 .i32) : extractAt ![0] (k4_pay12 v7) inpos_S1_p0 = v7 (ValueIdx.ix1 ⟨11, by decide⟩) := by
  unfold k4_pay12 extractAt extractStridedSlice
  exact congrArg v7 (funext fun a => by obtain rfl : a = 0 := Subsingleton.elim _ _; rfl)
theorem word_12 (v7 : Vec F S16 .i32) : extractAt ![0] (k4_pay13 v7) inpos_S1_p0 = v7 (ValueIdx.ix1 ⟨12, by decide⟩) := by
  unfold k4_pay13 extractAt extractStridedSlice
  exact congrArg v7 (funext fun a => by obtain rfl : a = 0 := Subsingleton.elim _ _; rfl)
theorem word_13 (v7 : Vec F S16 .i32) : extractAt ![0] (k4_pay14 v7) inpos_S1_p0 = v7 (ValueIdx.ix1 ⟨13, by decide⟩) := by
  unfold k4_pay14 extractAt extractStridedSlice
  exact congrArg v7 (funext fun a => by obtain rfl : a = 0 := Subsingleton.elim _ _; rfl)
theorem word_14 (v7 : Vec F S16 .i32) : extractAt ![0] (k4_pay15 v7) inpos_S1_p0 = v7 (ValueIdx.ix1 ⟨14, by decide⟩) := by
  unfold k4_pay15 extractAt extractStridedSlice
  exact congrArg v7 (funext fun a => by obtain rfl : a = 0 := Subsingleton.elim _ _; rfl)
theorem word_15 (v7 : Vec F S16 .i32) : extractAt ![0] (k4_pay16 v7) inpos_S1_p0 = v7 (ValueIdx.ix1 ⟨15, by decide⟩) := by
  unfold k4_pay16 extractAt extractStridedSlice
  exact congrArg v7 (funext fun a => by obtain rfl : a = 0 := Subsingleton.elim _ _; rfl)

/-! ## The lookup's value at an index; the indices of a row -/

variable (m : (ℓ : Loc nD τ sig) → Buf (Elt F) ℓ)

theorem G_row (d : Dev nD) (r : Fin 16384) (k : Fin 64) :
    G m d (ValueIdx.ix2 r k) = m (tLoc d) (ValueIdx.ix2 (Spec.rowOf nRows nRows_pos (m (iLoc d) (ValueIdx.ix1 r))) k) := by
  unfold G
  exact Spec.gatherRows_apply nRows nRows_pos (m (tLoc d)) (m (iLoc d)) r k

theorem mem_rowSet_fst {r : Fin 16384} {i : S16384x64.Idx} (h : i ∈ rowSet r) : i 0 = r := by
  have h' : i ∈ (row r).set := by rw [← View.set_slice_whole outScv (row r)]; exact h
  rw [Rect.mem_set_unit] at h'
  have h0 := h' 0
  apply Fin.ext
  simp only [Shape.partIx, Shape.partSize] at h0
  have e : S16384x64.size 0 / 16384 = 1 := by decide
  simp only [↓reduceIte, e] at h0
  omega

/-! ## The destination of one row's copy -/

/-- The one-row rectangle at row r is the r-th of the 16384 parts of the result along its first axis. -/
theorem unitRow_eq (r : Fin 16384) (inb : ∀ a, (![r.val, 0] : Fin 2 → Nat) a + S1x64.size a ≤ S16384x64.size a) :
    Rect.unit (s := S16384x64) ![r.val, 0] S1x64.size inb = row r := by
  unfold row Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem set_dstRow (off : Fin 2 → Nat) (inb : ∀ a, off a + S1x64.size a ≤ S16384x64.size a) (r : Fin 16384)
    (hoff : off = ![r.val, 0]) :
    (((oW : Memref sig .scVector .hbm S16384x64 .f32).slice (Rect.unit (s := S16384x64) off S1x64.size inb) (fun _ => rfl)).squeeze S64
        squeezes_S1x64_S64).view.set = rowSet r := by
  subst hoff
  show (((oW : Memref sig .scVector .hbm S16384x64 .f32).view.slice (Rect.unit (s := S16384x64) ![r.val, 0] S1x64.size inb)).reshape S64
      squeezes_S1x64_S64.numel_eq).set = ((oW : Memref sig .scVector .hbm S16384x64 .f32).view.slice (row r)).set
  rw [View.set_reshape]
  exact unitRow_eq r inb ▸ rfl

/-! ## What the scratch holds after the first copy, and what a trip loads from it -/

theorem trips1 : k4_t1_loop.trips = 32 := by decide

theorem word_lt (g : Fin k4_t1_loop.trips) (j : Fin 16) : 16 * g.val + j.val < 512 := by
  have hg : g.val < 32 := Nat.lt_of_lt_of_eq g.isLt trips1
  have hj := j.isLt
  omega

/-- Word j of the sixteen that trip g loads is word 16g + j of the scratch. -/
theorem loaded_word (d : Dev nD) (L : grid0.Coords) (g : Fin k4_t1_loop.trips)
    (s : Buf (Elt F) ((sW : Memref sig .scVector .vmem S512 .i32).view.loc (V d (cV L) (jV L)))) (j : Fin 16) :
    ((sW : Memref sig .scVector .vmem S512 .i32).view.readAt (Elt F)
        (Rect.unit (s := S512) (k4_off2 g) S16.size (k4_off2_inb g)).toLoadRect s) (ValueIdx.ix1 j)
      = s (ValueIdx.ix1 ⟨16 * g.val + j.val, word_lt g j⟩) := by
  rw [View.readAt_apply]
  show s ((Rect.unit (s := S512) (k4_off2 g) S16.size (k4_off2_inb g)).toLoadRect.idx (ValueIdx.ix1 j)) = _
  refine congrArg s (funext fun (a : Fin 1) => Fin.ext ?_)
  obtain rfl : a = 0 := Subsingleton.elim _ _
  rw [LoadRect.idx_apply]
  show (k4_off2 g) 0 + 1 * j.val = 16 * g.val + j.val
  rw [k4_off2_eq]
  simp

/-- Once the first copy has landed, word t of the scratch is word base L + t of the index array. -/
theorem scratch_holds (d : Dev nD) (L : grid0.Coords)
    (fs : Buf (Elt F) ((sW : Memref sig .scVector .vmem S512 .i32).view.loc (V d (cV L) (jV L))))
    (mI : Buf (Elt F) (iLoc d)) (t : Fin 512) :
    ((sW : Memref sig .scVector .vmem S512 .i32).view.write (Elt F) fs
        ((ReadAs.same : ReadAs (Elt F) S512 .i32 S512 .i32).apply
          (((iW : Memref sig .scVector .hbm S16384 .i32).slice (Rect.unit (s := S16384) (k4_off1 L) S512.size (k4_off1_inb L))
              (fun _ => rfl)).view.read (Elt F) mI)) Finset.univ) (ValueIdx.ix1 t)
      = mI (ValueIdx.ix1 (⟨base L + t.val, base_add_lt L t⟩ : Fin 16384)) := by
  show ((View.whole scrScv).write (Elt F) fs
      (((iW : Memref sig .scVector .hbm S16384 .i32).view.slice (Rect.unit (s := S16384) (k4_off1 L) S512.size (k4_off1_inb L))).read (Elt F) mI)
      Finset.univ) (ValueIdx.ix1 t) = _
  rw [View.write_whole_univ, View.read_apply]
  refine (cast_eq _ _).trans ?_
  refine congrArg mI (funext fun (a : Fin 1) => Fin.ext ?_)
  obtain rfl : a = 0 := Subsingleton.elim _ _
  show (k4_off1 L) 0 + 1 * t.val = base L + t.val
  rw [k4_off1_eq]
  unfold base
  simp

/-! ## What one row's copy leaves -/

/-- A word that passes the copy's side condition names a row. -/
theorem lt_of_inb {w : BitVec 32} (hw : ∀ a, (k4_off4 w) a + S1x64.size a ≤ TS.size a) : w.toNat < nRows :=
  show w.toNat + 1 ≤ nRows from hw 0

/-- Column c of the destination row's own indices sits at (r, c) of the result. -/
theorem dst_emb (r : Fin 16384) (inb : ∀ a, (![r.val, 0] : Fin 2 → Nat) a + S1x64.size a ≤ S16384x64.size a) (x : S64.Idx) :
    (((oW : Memref sig .scVector .hbm S16384x64 .f32).slice (Rect.unit (s := S16384x64) ![r.val, 0] S1x64.size inb) (fun _ => rfl)).squeeze S64
        squeezes_S1x64_S64).view.emb x = ValueIdx.ix2 r (x 0) := by
  show (Rect.unit (s := S16384x64) ![r.val, 0] S1x64.size inb).emb (Shape.reshapeEquiv squeezes_S1x64_S64.numel_eq x) = _
  rw [Shape.reshapeEquiv_cons_one]
  funext a
  apply Fin.ext
  match a with
  | 0 => show r.val + 1 * 0 = r.val; omega
  | 1 => show 0 + 1 * (x 0).val = (x 0).val; omega

/-- Column c of the source row's own indices sits at (w, c) of the table. -/
theorem src_emb (w : BitVec 32) (hw : ∀ a, (k4_off4 w) a + S1x64.size a ≤ TS.size a) (x : S64.Idx) :
    (((tW : Memref sig .scVector .hbm TS .f32).slice (Rect.unit (s := TS) (k4_off4 w) S1x64.size hw) (fun _ => rfl)).squeeze S64
        squeezes_S1x64_S64).view.emb x = ValueIdx.ix2 (⟨w.toNat, lt_of_inb hw⟩ : Fin nRows) (x 0) := by
  show (Rect.unit (s := TS) (k4_off4 w) S1x64.size hw).emb (Shape.reshapeEquiv squeezes_S1x64_S64.numel_eq x) = _
  rw [Shape.reshapeEquiv_cons_one]
  funext a
  apply Fin.ext
  match a with
  | 0 => show w.toNat + 1 * 0 = w.toNat; omega
  | 1 => show 0 + 1 * (x 0).val = (x 0).val; omega

/-- After table row w has been copied onto result row r, every index of row r holds the table's entry at row w and the
    index's own column. -/
theorem write_row (d : Dev nD) (L : grid0.Coords) (off : Fin 2 → Nat) (inb : ∀ a, off a + S1x64.size a ≤ S16384x64.size a)
    (r : Fin 16384) (hoff : off = ![r.val, 0]) (w : BitVec 32) (hw : ∀ a, (k4_off4 w) a + S1x64.size a ≤ TS.size a)
    (fT : Buf (Elt F) (tLoc d)) (fO : Buf (Elt F) (oLoc d)) (i : S16384x64.Idx) (hi : i ∈ rowSet r) :
      ((((oW : Memref sig .scVector .hbm S16384x64 .f32).slice (Rect.unit (s := S16384x64) off S1x64.size inb) (fun _ => rfl)).squeeze S64
          squeezes_S1x64_S64).view.write (Elt F) fO
        ((ReadAs.same : ReadAs (Elt F) S64 .f32 S64 .f32).apply
          ((((tW : Memref sig .scVector .hbm TS .f32).slice (Rect.unit (s := TS) (k4_off4 w) S1x64.size hw) (fun _ => rfl)).squeeze S64
            squeezes_S1x64_S64).view.read (Elt F) fT)) Finset.univ) i
        = fT (ValueIdx.ix2 (⟨w.toNat, lt_of_inb hw⟩ : Fin nRows) (i 1)) := by
  subst hoff
  rw [← set_dstRow ![r.val, 0] inb r rfl] at hi
  obtain ⟨x, -, rfl⟩ := Finset.mem_map.mp hi
  rw [View.write_emb_of_mem _ _ (Finset.mem_univ x)]
  refine (cast_eq _ _).trans ?_
  show (((tW : Memref sig .scVector .hbm TS .f32).slice (Rect.unit (s := TS) (k4_off4 w) S1x64.size hw) (fun _ => rfl)).squeeze S64
      squeezes_S1x64_S64).view.read (Elt F) fT x = _
  rw [View.read_apply]
  refine (cast_eq _ _).trans ?_
  rw [src_emb w hw x, dst_emb r inb x]
  rfl

end Cert.Proof.KB.R4

end
-- ==== Proof.KBIssue4.lean ====
/-
  One of the tile's 512 row copies, started as the batch's next transfer. The copy reads the table row that the
  tile's `t`-th index word names and writes the tile's `t`-th row of the result; once it has landed, that row holds
  the lookup's value there: entry `(r, k)` of the result is entry `(idx r, k)` of the table.
-/
import proofs.«218896_g85959475462175_cont_9to1_m_647_27_alg».proof.Proof.KBTileDefs4
import proofs.«218896_g85959475462175_cont_9to1_m_647_27_alg».proof.Proof.KBView4

noncomputable section

namespace Cert.Proof.KB.R4

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

variable (m : (ℓ : Loc nD τ sig) → Buf (Elt F) ℓ) (d : Dev nD) (L : grid0.Coords)

/-- A row of the result and a row of the table, as the body slices them. -/
abbrev dstRow (off : Fin 2 → Nat) (inb : ∀ a, off a + S1x64.size a ≤ S16384x64.size a) : Memref sig .scVector .hbm S64 .f32 :=
  ((oW : Memref sig .scVector .hbm S16384x64 .f32).slice (Rect.unit (s := S16384x64) off S1x64.size inb) (fun _ => rfl)).squeeze S64 squeezes_S1x64_S64
abbrev srcRow (w : BitVec 32) (hw : ∀ a, (k4_off4 w) a + S1x64.size a ≤ TS.size a) : Memref sig .scVector .hbm S64 .f32 :=
  ((tW : Memref sig .scVector .hbm TS .f32).slice (Rect.unit (s := TS) (k4_off4 w) S1x64.size hw) (fun _ => rfl)).squeeze S64 squeezes_S1x64_S64

variable [FloatOps F]

/-- What the landed copy leaves in its row is the lookup's value there. -/
theorem landed_eq (t : Fin 512) (off : Fin 2 → Nat) (inb : ∀ a, off a + S1x64.size a ≤ S16384x64.size a)
    (hoff : off = ![(tileRow L t).val, 0]) (w : BitVec 32) (hw : ∀ a, (k4_off4 w) a + S1x64.size a ≤ TS.size a)
    (hwv : w = m (iLoc d) (ValueIdx.ix1 (tileRow L t))) (hlt : w.toNat < nRows)
    (i : S16384x64.Idx) (hi : i ∈ rowSet (tileRow L t)) :
    ((dstRow off inb).view.write (Elt F) (m (oLoc d)) ((ReadAs.same : ReadAs (Elt F) S64 .f32 S64 .f32).apply ((srcRow w hw).view.read (Elt F) (m (tLoc d)))) Finset.univ) i
      = G m d i := by
  rw [write_row d L off inb (tileRow L t) hoff w hw (m (tLoc d)) (m (oLoc d)) i hi]
  obtain ⟨r, k, rfl⟩ : ∃ (r : Fin 16384) (k : Fin 64), i = ValueIdx.ix2 r k := ⟨i 0, i 1, ValueIdx.eq_ix2 i⟩
  have hr : r = tileRow L t := mem_rowSet_fst hi
  subst hr
  show m (tLoc d) (ValueIdx.ix2 _ k) = _
  rw [G_row]
  congr 2
  apply Fin.ext
  show w.toNat = (Spec.rowOf nRows nRows_pos (m (iLoc d) (ValueIdx.ix1 (tileRow L t)))).val
  rw [← hwv, Spec.rowOf_val_of_lt nRows_pos hlt]

/-- The batch's transfer `t`, started: from the copy's own token of the table and its row of the result. -/
theorem wp_issue (t : Fin 512) (off : Fin 2 → Nat) (inb : ∀ a, off a + S1x64.size a ≤ S16384x64.size a)
    (hoff : off = ![(tileRow L t).val, 0]) (w : BitVec 32) (hw : ∀ a, (k4_off4 w) a + S1x64.size a ≤ TS.size a)
    (hwv : w = m (iLoc d) (ValueIdx.ix1 (tileRow L t))) (hlt : w.toNat < nRows)
    {α : Type} {k : PUnit → Prog (TpuEff nD τ sig (Elt F) Λ₀ (thr d L).2) α} {Q : α → sProp 𝕄}
    {hs : (srcRow w hw).view.WordExact} {hd : (dstRow off inb).view.WordExact}
    {hsem : DmaTarget.Typed (nD := nD) Space.hbm (SemLoc.dma cc4_scratch1.sem) (DmaTarget.here (p := (thr d L).2) (dstRow off inb))} :
    iprop(Rk m d L t ∗ Transfers.Batch (EC (F := F)) (thr d L) (.dma cc4_scratch1.sem) (none : HIx 8) N (Dl m d L) t.val 0)
      ⊢ iprop((Transfers.Batch (EC (F := F)) (thr d L) (.dma cc4_scratch1.sem) (none : HIx 8) N (Dl m d L) (t.val + 1) 0
            -∗ wp frame (wpE (defs₀ (F := F)) 𝒱₀ (thr d L) none) Set.univ (k ⟨⟩) Q)
          -∗ wp frame (wpE (defs₀ (F := F)) 𝒱₀ (thr d L) none) Set.univ
              (.op (TpuEff.enqueueDma (srcRow w hw) (DmaTarget.here (p := (thr d L).2) (dstRow off inb)) (.dma cc4_scratch1.sem) hs hd hsem) k) Q) := by
  unfold Rk
  iintro ⟨⟨Htok, Hrow⟩, HB⟩ Hk
  ihave Htok' := ((pointsTo_split_subset (ℓ := tLoc d) (I := (srcRow w hw).view.set) (S := Finset.univ) (Finset.subset_univ _)).1) $$ Htok
  icases Htok' with ⟨Hsrc, -⟩
  iapply (Transfers.wp_dmaBatch (EC (F := F)) 𝒱₀ (thr d L) none (src := srcRow w hw) (dst := dstRow off inb)
      (q := Transfers.shareTok (tsh L) 512 t) (fs := m (tLoc d)) (Sd := rowSet (tileRow L t)) (fd := m (oLoc d)) (D := Dl m d L) (j := t.val) (u := 0)
      (none : HIx 8) N rfl (set_dstRow off inb (tileRow L t) hoff).le t.isLt (Nat.zero_le _) ?hD) $$ [Hsrc Hrow HB]
  case hD =>
    iintro ⟨H, -⟩
    unfold Dl
    iapply (Entails.of_eq (pointsTo_congr (fun i hi => landed_eq m d L t off inb hoff w hw hwv hlt i hi)))
    iexact H
  · isplitl [Hsrc]; · iexact Hsrc
    isplitl [Hrow]; · iexact Hrow
    iexact HB
  iexact Hk

end Cert.Proof.KB.R4

end
-- ==== Proof.KBDrain4.lean ====
/-
  The tile's second loop: 512 waits on the one semaphore that the 512 row copies complete on. Each wait takes one
  copy's units off the counter; copies land in any order, so a wait that is not the last proves nothing about any
  row, and only the last — when all 512 copies' units have been taken — hands back every row holding its value and
  the counter at zero. The invariant before wait k says exactly that: k copies' units consumed and the batch still
  open, or (after the last) every delivery in hand.
-/
import proofs.«218896_g85959475462175_cont_9to1_m_647_27_alg».proof.Proof.KBTileDefs4

noncomputable section

namespace Cert.Proof.KB.R4

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- The loop makes 512 trips. -/
theorem trips2 : Scf.trips k4_t2_loop.lb k4_t2_loop.ub k4_t2_loop.st = 512 := by decide

/-- A row's credit is positive. -/
theorem N_pos : 0 < N := View.dmaCredit_pos _ (by decide)

/-- Before wait `k` of the 512: the batch with `k` transfers' units consumed; after the last, every delivery. -/
def inv2 (O : CellTallies nD τ sig (HIx 8)) (W : Waits sig (HIx 8)) (k : ℕ) (_ : Unit) : sProp 𝕄 :=
  iprop(Transfers.MayWaits (thr d L) (none : HIx 8) O
    ∗ ((⌜k < 512⌝ ∗ Transfers.Batch (EC (F := F)) (thr d L) (.dma cc4_scratch1.sem) (none : HIx 8) N (Dl m d L) 512 (k * N)
          ∗ ∃ W', ⌜∀ p ∈ W', p ∈ W ∨ p.2 = none⌝ ∗ owes (thr d L) O W')
      ∨ (⌜k = 512⌝ ∗ bigSep Finset.univ (Dl m d L) ∗ semVal (cB d L) 0 ∗ ∃ W', ⌜∀ p ∈ W', p ∈ W ∨ p.2 = none⌝ ∗ owes (thr d L) O W')))

variable [FloatOps F]

/-- The 512 waits: from the batch with every copy started and nothing consumed, to every row delivered and the counter at
    zero; each wait is recorded at the index of the tile's own copies. -/
theorem drain (O : CellTallies nD τ sig (HIx 8)) (W : Waits sig (HIx 8)) :
    iprop(Transfers.MayWaits (thr d L) (none : HIx 8) O
        ∗ Transfers.Batch (EC (F := F)) (thr d L) (.dma cc4_scratch1.sem) (none : HIx 8) N (Dl m d L) 512 0
        ∗ owes (thr d L) O W)
      ⊢ wp frame (wpE (defs₀ (F := F)) 𝒱₀ (thr d L) none) Set.univ
          (Scf.Loop.for k4_t2_loop k4_t2_ok ⟨⟩ (k4_t2_body L tW (Memref.isWhole_whole _) iW (Memref.isWhole_whole _) oW (Memref.isWhole_whole _) sW (Memref.isWhole_whole _) cc4_scratch1 cc4_scoped0))
          (fun _ => iprop(bigSep Finset.univ (Dl m d L) ∗ semVal (cB d L) 0 ∗ ∃ W', ⌜∀ p ∈ W', p ∈ W ∨ p.2 = none⌝ ∗ owes (thr d L) O W')) := by
  iintro ⟨#Hmw, HB, HO⟩
  sl_for (inv2 m d L O W) $$ [HB HO]
  case region =>
    intro k acc
    have hk : k.val < 512 := Nat.lt_of_lt_of_eq k.isLt trips2
    have e : (k.val + 1) * N = k.val * N + N := by rw [Nat.add_mul, Nat.one_mul]
    unfold inv2
    iintro ⟨#Hmw, H⟩
    sl_exec
    icases H with (⟨-, HB, %W', %hW', HO⟩ | ⟨%hk', -⟩)
    rotate_left
    · exfalso; omega
    ihave Hmw1 := (Transfers.MayWaits.elim (SemLoc.dma cc4_scratch1.sem)) $$ Hmw
    have hW'' : ∀ p ∈ insert (SemLoc.dma cc4_scratch1.sem, (none : HIx 8)) W', p ∈ W ∨ p.2 = none := by
      intro p hp
      rcases Finset.mem_insert.mp hp with hp | hp
      · exact .inr (hp ▸ rfl)
      · exact hW' p hp
    by_cases hlast : k.val + 1 < 512
    · have hu : k.val * N + N < N * 512 := by
        have h1 : (k.val + 1) * N < 512 * N := Nat.mul_lt_mul_of_pos_right hlast N_pos
        rw [e] at h1; rw [Nat.mul_comm N 512]; exact h1
      iapply (Transfers.wp_waitBatchO (EC (F := F)) 𝒱₀ (thr d L) none (none : HIx 8) (N := N) rfl hu) $$ [HB HO Hmw1]
      · isplitl [HB]; · iexact HB
        isplitl [HO]; · iexact HO
        iexact Hmw1
      iintro ⟨HB, HO⟩
      sl_step
      isplitr; · iexact Hmw
      ileft
      isplitr; · ipureintro; exact hlast
      rw [e]
      isplitl [HB]; · iexact HB
      iexists _; isplitr
      · ipureintro; exact hW''
      · iexact HO
    · have hu : k.val * N + N = N * 512 := by
        have h1 : k.val = 511 := by omega
        rw [h1]; omega
      iapply (Transfers.wp_waitBatchLastO (EC (F := F)) 𝒱₀ (thr d L) none (none : HIx 8) (N := N) rfl N_pos hu) $$ [HB HO Hmw1]
      · isplitl [HB]; · iexact HB
        isplitl [HO]; · iexact HO
        iexact Hmw1
      iintro ⟨HD, Hv, HO⟩
      sl_step
      isplitr; · iexact Hmw
      iright
      isplitr; · ipureintro; omega
      isplitl [HD]; · iexact HD
      isplitl [Hv]; · iexact Hv
      iexists _; isplitr
      · ipureintro; exact hW''
      · iexact HO
  rw [trips2]
  isplitl [HB HO]
  · unfold inv2
    isplitr; · iexact Hmw
    ileft
    isplitr; · ipureintro; omega
    rw [Nat.zero_mul]
    isplitl [HB]; · iexact HB
    iexists W; isplitr
    · ipureintro; exact fun p hp => .inl hp
    · iexact HO
  · iintro %acc HI
    unfold inv2
    icases HI with ⟨-, (⟨%h, -⟩ | ⟨-, HD, Hv, HW⟩)⟩
    · exfalso; omega
    isplitl [HD]; · iexact HD
    isplitl [Hv]; · iexact Hv
    iexact HW

end Cert.Proof.KB.R4

end
-- ==== Proof.KBTile4.lean ====
/-
  The tile's obligation at call 4: the index words fetched into the scratch, the 512 row copies started sixteen to a
  trip on one semaphore as ONE batch (no copy's source or destination is touched between the first start and the
  last wait), the batch drained by 512 waits, and the rows handed back holding the lookup's value.
-/
import proofs.«218896_g85959475462175_cont_9to1_m_647_27_alg».proof.Proof.KBTileDefs4
import proofs.«218896_g85959475462175_cont_9to1_m_647_27_alg».proof.Proof.KBView4
import proofs.«218896_g85959475462175_cont_9to1_m_647_27_alg».proof.Proof.KBIssue4
import proofs.«218896_g85959475462175_cont_9to1_m_647_27_alg».proof.Proof.KBDrain4

noncomputable section

namespace Cert.Proof.KB.R4

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- Before trip `k` of the first loop: the scratch at the landed index words, the first `16 k` copies started and none
    waited for, the later copies' tokens and rows still in hand. -/
def inv1 (k : Nat) (_ : PUnit) : sProp 𝕄 :=
  iprop(∃ sc, ⌜Holds m d L sc⌝ ∗ ((sW : Memref sig .scVector .vmem S512 .i32).view.loc (thr d L) ↦{fullShare} sc)
    ∗ Transfers.Batch (EC (F := F)) (thr d L) (.dma cc4_scratch1.sem) (none : HIx 8) N (Dl m d L) (16 * k) 0
    ∗ bigSep (Transfers.pending (n := 512) (16 * k)) (Rk m d L))

/-- The sixteen words a trip loads. -/
abbrev loaded (k : Fin k4_t1_loop.trips) (sc : Buf (Elt F) ((sW : Memref sig .scVector .vmem S512 .i32).view.loc (thr d L))) : Vec F S16 .i32 :=
  (sW : Memref sig .scVector .vmem S512 .i32).view.readAt (Elt F) (Rect.unit (s := S512) (k4_off2 k) S16.size (k4_off2_inb k)).toLoadRect sc

theorem off_eq {x y : Nat} (h : x = y) : (![x, 0] : Fin 2 → Nat) = ![y, 0] := by rw [h]

variable [FloatOps F]

/- Copy `j` of a trip: its index word names a row of the table (the check passes), and the copy is the batch's
   transfer `16 k + j`, started from that transfer's token and row. -/
set_option hygiene false in
local macro "issue_copy " j:num " with " chk:ident ", " wj:ident ", " offeq:ident : tactic => `(tactic| (
  iapply (wp_assume 𝒱₀ (thr d L) none Set.univ ($chk:ident ((congrArg BitVec.toNat ($wj:ident (loaded d L k sc))).trans_lt (hwlt ⟨$j, by decide⟩))))
  sl_exec
  ihave Hp := (Entails.of_eq (Transfers.bigSep_pending_step (Rk m d L) (16 * k.val + $j) (hidx ⟨$j, by decide⟩))) $$ Hpend
  icases Hp with ⟨HR, Hpend⟩
  iapply (wp_issue m d L ⟨16 * k.val + $j, hidx ⟨$j, by decide⟩⟩ _ _
      (($offeq:ident L k).trans (off_eq (by show _ = base L + (16 * k.val + $j); unfold base; omega))) _ _
      (($wj:ident (loaded d L k sc)).trans (hwv ⟨$j, by decide⟩)) ((congrArg BitVec.toNat ($wj:ident (loaded d L k sc))).trans_lt (hwlt ⟨$j, by decide⟩))) $$ [HR HB]
  · isplitl [HR]
    · iexact HR
    iexact HB
  iintro HB
  sl_exec))

theorem tile_body (hF : (K (F := F)).Facts) (hpre : ∀ d, Spec.InRange nRows (m (iLoc d))) : TileBody m := by
  intro d L O W hO
  simp only [cc4__gather_body_eq_skeleton]; unfold cc4__gather_body_skel
  rw [(K (F := F)).scopedBufs_V hF d (cV L) (jV L), SparseCore.Cfg.scopedSems0_V (Val := Elt F) d (cV L) (jV L), ownSems0_V, ownBufs_V]
  unfold go
  iintro ⟨#Hlv, -, ⟨Ht, Hi, Hrows⟩, ⟨⟨%fs, Hs⟩, Hbufs⟩, ⟨HsemS, HsemB, Hsems⟩, HO⟩
  ihave Hmw := ((K (F := F)).mayWaits_none (thr := thr d L) hO) $$ Hlv
  ihave Hi' := (Entails.of_eq (pts_i (F := F) d L _ _).symm) $$ Hi
  ihave Hs' := (Entails.of_eq (pts_s (F := F) d L _).symm) $$ Hs
  -- the index words fetched into the scratch, and the fetch waited for
  sl_exec
  -- the 512 copies' batch on the shared semaphore, allocated before the first is started
  imod (Transfers.batch_alloc' (Lvl := ℕ) (EC (F := F)) (thr d L) (none : HIx 8) N (Dl m d L) (sm := .dma cc4_scratch1.sem) (E := Set.univ)) $$ HsemB with HB
  -- the table's token dealt into one per copy
  ihave Ht' := (Transfers.pointsTo_toks_split (tsh L) 512) $$ Ht
  icases Ht' with ⟨-, Htoks⟩
  sl_for (inv1 m d L) $$ [Hs' HB Htoks Hrows]
  case region =>
    intro k hk
    unfold inv1
    iintro ⟨%sc, %hsc, Hs, HB, Hpend⟩
    have hk32 : k.val < 32 := lt_of_lt_of_eq k.isLt trips1
    have hidx : ∀ j : Fin 16, 16 * k.val + j.val < 512 := fun j => by have := j.isLt; omega
    -- the sixteen words the trip loads are the tile's index words 16 k … 16 k + 15; each names a row of the table
    have hwv : ∀ j : Fin 16, loaded d L k sc (ValueIdx.ix1 j) = m (iLoc d) (ValueIdx.ix1 (tileRow L ⟨16 * k.val + j.val, hidx j⟩)) :=
      fun j => (loaded_word d L k sc j).trans (hsc _)
    have hwlt : ∀ j : Fin 16, (loaded d L k sc (ValueIdx.ix1 j)).toNat < nRows := fun j => by rw [hwv j]; exact (hpre d).toNat_lt _
    sl_exec
    issue_copy 0 with chk_of_lt_1, word_0, k4_off3_eq
    issue_copy 1 with chk_of_lt_2, word_1, k4_off5_eq
    issue_copy 2 with chk_of_lt_3, word_2, k4_off7_eq
    issue_copy 3 with chk_of_lt_4, word_3, k4_off9_eq
    issue_copy 4 with chk_of_lt_5, word_4, k4_off11_eq
    issue_copy 5 with chk_of_lt_6, word_5, k4_off13_eq
    issue_copy 6 with chk_of_lt_7, word_6, k4_off15_eq
    issue_copy 7 with chk_of_lt_8, word_7, k4_off17_eq
    issue_copy 8 with chk_of_lt_9, word_8, k4_off19_eq
    issue_copy 9 with chk_of_lt_10, word_9, k4_off21_eq
    issue_copy 10 with chk_of_lt_11, word_10, k4_off23_eq
    issue_copy 11 with chk_of_lt_12, word_11, k4_off25_eq
    issue_copy 12 with chk_of_lt_13, word_12, k4_off27_eq
    issue_copy 13 with chk_of_lt_14, word_13, k4_off29_eq
    issue_copy 14 with chk_of_lt_15, word_14, k4_off31_eq
    issue_copy 15 with chk_of_lt_16, word_15, k4_off33_eq
    -- the trip's return: the invariant at `k + 1`
    rw [show 16 * (k.val + 1) = 16 * k.val + 15 + 1 by omega]
    sl_step
    iexists sc
    isplitr; · ipureintro; exact hsc
    isplitl [Hs]; · iexact Hs
    isplitl [HB]; · iexact HB
    iexact Hpend
  · -- the loop's entry: nothing started, every copy's token and row in hand
    unfold inv1
    iexists _
    isplitr; · ipureintro; exact fun t => scratch_holds d L fs (m (iLoc d)) t
    isplitl [Hs']; · iexact Hs'
    isplitl [HB]; · iexact HB
    rw [show 16 * 0 = 0 from rfl, ← Transfers.bigSep_pending_zero]
    unfold Rk
    rw [bigSep_sep']
    isplitl [Htoks]; · iexact Htoks
    iexact Hrows
  -- after the first loop: all 512 started, none waited for
  iintro %_ HI
  unfold inv1
  icases HI with ⟨%sc, -, Hs, HB, -⟩
  sl_exec
  have h512 : 16 * Scf.trips k4_t1_loop.lb k4_t1_loop.ub k4_t1_loop.st = 512 := by decide
  rw [h512]
  -- the second loop drains the batch: every row comes back holding the lookup's value
  simp only [wp_bind]
  ihave Hd := (drain m d L O _) $$ [HB HO]
  · isplitr; · iexact Hmw
    isplitl [HB]; · iexact HB
    iexact HO
  iapply (wp_wand frame _ Set.univ) $$ Hd
  iintro %_ ⟨HD, HsemB, %W', %hW', HO⟩
  sl_step
  isplitl [HD]
  · unfold td; iexact HD
  isplitl [Hs Hbufs]
  · isplitl [Hs]
    · iexists _; iapply (Entails.of_eq (pts_s (F := F) d L _)); iexact Hs
    iexact Hbufs
  isplitl [HsemS HsemB Hsems]
  · isplitl [HsemS]; · iexact HsemS
    isplitl [HsemB]; · iexact HsemB
    iexact Hsems
  iexists W'; isplitr
  · ipureintro; intro p hp
    rcases hW' p hp with h | h
    · rcases Finset.mem_insert.mp h with rfl | h
      · exact .inr rfl
      · exact .inl h
    · exact .inr h
  iexact HO

end Cert.Proof.KB.R4

end
-- ==== Proof.KBTileDefs5.lean ====
/-
  The tile's own names for call 5's body: its thread, its two DMA semaphores' cells, its scoped storage opened to
  the scratch and those two cells, the batch of the 512 row copies (each copy's delivery: its row of the result at
  the lookup's value), and what a copy needs before it is started.
-/
import proofs.«218896_g85959475462175_cont_9to1_m_647_27_alg».proof.Proof.KBRes5

noncomputable section

namespace Cert.Proof.KB.R5

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

abbrev thr : Thread nD τ := V d (cV L) (jV L)
abbrev cS : GSem nD τ sig := (thr d L, .dma cc5_scoped0.sem)
abbrev cB : GSem nD τ sig := (thr d L, .dma cc5_scratch1.sem)

theorem ownSems0_V :
    (ownSems0 (thr d L) : sProp 𝕄)
      = iprop(semVal (cS d L) 0 ∗ semVal (cB d L) 0 ∗ bigSep (((ownCells (thr d L)).erase (cS d L)).erase (cB d L)) fun g => semVal g 0) := by
  unfold SparseCore.Cfg.ownSems0
  rw [SparseCore.bigSep_erase' ((mem_ownCells (g := cS d L)).mpr ⟨rfl, by
      show (SemLoc.dma cc5_scoped0.sem : SemLoc sig).isScoped .scVector = true; decide⟩),
    SparseCore.bigSep_erase' (Finset.mem_erase.mpr ⟨by simp [cS, cB]; decide, (mem_ownCells (g := cB d L)).mpr ⟨rfl, by
      show (SemLoc.dma cc5_scratch1.sem : SemLoc sig).isScoped .scVector = true; decide⟩⟩)]

theorem ownBufs_V :
    (ownBufs (thr d L) : sProp 𝕄)
      = iprop((∃ f, (thr d L).loc scrScv ↦{fullShare} f)
          ∗ bigSep ((ownRefs (τ := τ) (.scVector (cV L) (jV L))).erase ((Proc.scVector (cV L) (jV L)).devRef scrScv))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef scrScv) rfl)

omit m in
theorem pts_i (q : PosShare TreeShare) (f : Buf (Elt F) (iLoc d)) :
    ((iW : Memref sig .scVector .hbm S16384 .i32).view.loc (thr d L) ↦{q} f : sProp 𝕄) = iLoc d ↦{q} f := rfl
omit m in
theorem pts_t (q : PosShare TreeShare) (f : Buf (Elt F) (tLoc d)) :
    ((tW : Memref sig .scVector .hbm TS .f32).view.loc (thr d L) ↦{q} f : sProp 𝕄) = tLoc d ↦{q} f := rfl
omit m in
theorem pts_s (f : Buf (Elt F) ((thr d L).loc scrScv)) :
    ((sW : Memref sig .scVector .vmem S512 .i32).view.loc (thr d L) ↦{fullShare} f : sProp 𝕄) = (thr d L).loc scrScv ↦{fullShare} f := rfl

/-- The counters of the tile's own copies. -/
abbrev EC : UEmb Counters (MT nD τ sig (HIx 8) (Elt F) ℕ UU ℕ) := countersEmb (U := UU)

/-- Row 0 of the result as the waits name it: any row's credit. -/
abbrev row0 : Memref sig .scVector .hbm S64 .f32 :=
  ((oW : Memref sig .scVector .hbm S16384x64 .f32).slice (Rect.unit (s := S16384x64) ![0, 0] S1x64.size inb_S16384x64_S1x64_0_0) (fun _ => rfl)).squeeze S64 squeezes_S1x64_S64
abbrev N : ℕ := (row0).view.dmaCredit

/-- The tile's read token of the table. -/
abbrev tsh : PosShare TreeShare := Transfers.shareTok fullShare 32 (wid L)

/-- Copy `t` of the 512 delivers row `t` of the tile's rows holding the lookup's value. -/
def Dl (t : Fin 512) : sProp 𝕄 := oLoc d ↦[rowSet (tileRow L t)]{fullShare} G m d

instance Dl_storable (t : Fin 512) : BI.Storable (upEmb : UEmb _ 𝕄) (Dl m d L t) := by unfold Dl; infer_instance

/-- What copy `t` needs before it is started: its own read token of the table, and its row of the result. -/
def Rk (t : Fin 512) : sProp 𝕄 :=
  iprop((tLoc d ↦{Transfers.shareTok (tsh L) 512 t} m (tLoc d)) ∗ (oLoc d ↦[rowSet (tileRow L t)]{fullShare} m (oLoc d)))

/-- The scratch holds the tile's 512 index words. -/
def Holds (sc : Buf (Elt F) ((sW : Memref sig .scVector .vmem S512 .i32).view.loc (thr d L))) : Prop :=
  ∀ t : Fin 512, sc (ValueIdx.ix1 t) = m (iLoc d) (ValueIdx.ix1 (tileRow L t))

end Cert.Proof.KB.R5

end
-- ==== Proof.KBView5.lean ====
/-
  Call 5 of the eight: what the tile's memory accesses address and read, as plain facts about index sets and
  contents, with no program logic in them.

  The tile at grid coordinates L owns result rows base L … base L + 511. It copies index words base L … base L + 511
  into its 512-word scratch (scratch_holds: word t of the scratch is then word base L + t of the index array);
  in trip g it loads the sixteen scratch words 16g … 16g + 15 (loaded_word) and takes them apart one at a time
  (word_0 … word_15); for each word w it copies table row w, when w names a row (chk_of_lt_N), onto one result row
  (set_dstRow: the destination is exactly that row's set of indices; write_row: after the copy the row holds table row w,
  column by column). G_row is the lookup's value at one index, and mem_rowSet_fst says that an index of row r's set has
  first coordinate r.
-/
import proofs.«218896_g85959475462175_cont_9to1_m_647_27_alg».proof.Proof.KBRes5

noncomputable section

namespace Cert.Proof.KB.R5

open Cert.Kernel Cert.Kernel.Gen Cert.Proof.KB

open Idealize.ShloMosaic
open Idealize.ShloMosaic.SparseCore (S V T)

variable {F : FTy → Type}

/-! ## A word that names a row passes the copy's side condition -/

theorem chk_of_lt_1 {w : BitVec 32} (h : w.toNat < nRows) : k5_chk1 w := fun a =>
  match a with
  | 0 => show w.toNat + 1 ≤ nRows from h
  | 1 => show 0 + 64 ≤ 64 from Nat.le_refl _
theorem chk_of_lt_2 {w : BitVec 32} (h : w.toNat < nRows) : k5_chk2 w := fun a =>
  match a with
  | 0 => show w.toNat + 1 ≤ nRows from h
  | 1 => show 0 + 64 ≤ 64 from Nat.le_refl _
theorem chk_of_lt_3 {w : BitVec 32} (h : w.toNat < nRows) : k5_chk3 w := fun a =>
  match a with
  | 0 => show w.toNat + 1 ≤ nRows from h
  | 1 => show 0 + 64 ≤ 64 from Nat.le_refl _
theorem chk_of_lt_4 {w : BitVec 32} (h : w.toNat < nRows) : k5_chk4 w := fun a =>
  match a with
  | 0 => show w.toNat + 1 ≤ nRows from h
  | 1 => show 0 + 64 ≤ 64 from Nat.le_refl _
theorem chk_of_lt_5 {w : BitVec 32} (h : w.toNat < nRows) : k5_chk5 w := fun a =>
  match a with
  | 0 => show w.toNat + 1 ≤ nRows from h
  | 1 => show 0 + 64 ≤ 64 from Nat.le_refl _
theorem chk_of_lt_6 {w : BitVec 32} (h : w.toNat < nRows) : k5_chk6 w := fun a =>
  match a with
  | 0 => show w.toNat + 1 ≤ nRows from h
  | 1 => show 0 + 64 ≤ 64 from Nat.le_refl _
theorem chk_of_lt_7 {w : BitVec 32} (h : w.toNat < nRows) : k5_chk7 w := fun a =>
  match a with
  | 0 => show w.toNat + 1 ≤ nRows from h
  | 1 => show 0 + 64 ≤ 64 from Nat.le_refl _
theorem chk_of_lt_8 {w : BitVec 32} (h : w.toNat < nRows) : k5_chk8 w := fun a =>
  match a with
  | 0 => show w.toNat + 1 ≤ nRows from h
  | 1 => show 0 + 64 ≤ 64 from Nat.le_refl _
theorem chk_of_lt_9 {w : BitVec 32} (h : w.toNat < nRows) : k5_chk9 w := fun a =>
  match a with
  | 0 => show w.toNat + 1 ≤ nRows from h
  | 1 => show 0 + 64 ≤ 64 from Nat.le_refl _
theorem chk_of_lt_10 {w : BitVec 32} (h : w.toNat < nRows) : k5_chk10 w := fun a =>
  match a with
  | 0 => show w.toNat + 1 ≤ nRows from h
  | 1 => show 0 + 64 ≤ 64 from Nat.le_refl _
theorem chk_of_lt_11 {w : BitVec 32} (h : w.toNat < nRows) : k5_chk11 w := fun a =>
  match a with
  | 0 => show w.toNat + 1 ≤ nRows from h
  | 1 => show 0 + 64 ≤ 64 from Nat.le_refl _
theorem chk_of_lt_12 {w : BitVec 32} (h : w.toNat < nRows) : k5_chk12 w := fun a =>
  match a with
  | 0 => show w.toNat + 1 ≤ nRows from h
  | 1 => show 0 + 64 ≤ 64 from Nat.le_refl _
theorem chk_of_lt_13 {w : BitVec 32} (h : w.toNat < nRows) : k5_chk13 w := fun a =>
  match a with
  | 0 => show w.toNat + 1 ≤ nRows from h
  | 1 => show 0 + 64 ≤ 64 from Nat.le_refl _
theorem chk_of_lt_14 {w : BitVec 32} (h : w.toNat < nRows) : k5_chk14 w := fun a =>
  match a with
  | 0 => show w.toNat + 1 ≤ nRows from h
  | 1 => show 0 + 64 ≤ 64 from Nat.le_refl _
theorem chk_of_lt_15 {w : BitVec 32} (h : w.toNat < nRows) : k5_chk15 w := fun a =>
  match a with
  | 0 => show w.toNat + 1 ≤ nRows from h
  | 1 => show 0 + 64 ≤ 64 from Nat.le_refl _
theorem chk_of_lt_16 {w : BitVec 32} (h : w.toNat < nRows) : k5_chk16 w := fun a =>
  match a with
  | 0 => show w.toNat + 1 ≤ nRows from h
  | 1 => show 0 + 64 ≤ 64 from Nat.le_refl _

/-! ## The sixteen words of a load, one at a time -/

theorem word_0 (v7 : Vec F S16 .i32) : extractAt ![0] (k5_pay1 v7) inpos_S1_p0 = v7 (ValueIdx.ix1 ⟨0, by decide⟩) := by
  unfold k5_pay1 extractAt extractStridedSlice
  exact congrArg v7 (funext fun a => by obtain rfl : a = 0 := Subsingleton.elim _ _; rfl)
theorem word_1 (v7 : Vec F S16 .i32) : extractAt ![0] (k5_pay2 v7) inpos_S1_p0 = v7 (ValueIdx.ix1 ⟨1, by decide⟩) := by
  unfold k5_pay2 extractAt extractStridedSlice
  exact congrArg v7 (funext fun a => by obtain rfl : a = 0 := Subsingleton.elim _ _; rfl)
theorem word_2 (v7 : Vec F S16 .i32) : extractAt ![0] (k5_pay3 v7) inpos_S1_p0 = v7 (ValueIdx.ix1 ⟨2, by decide⟩) := by
  unfold k5_pay3 extractAt extractStridedSlice
  exact congrArg v7 (funext fun a => by obtain rfl : a = 0 := Subsingleton.elim _ _; rfl)
theorem word_3 (v7 : Vec F S16 .i32) : extractAt ![0] (k5_pay4 v7) inpos_S1_p0 = v7 (ValueIdx.ix1 ⟨3, by decide⟩) := by
  unfold k5_pay4 extractAt extractStridedSlice
  exact congrArg v7 (funext fun a => by obtain rfl : a = 0 := Subsingleton.elim _ _; rfl)
theorem word_4 (v7 : Vec F S16 .i32) : extractAt ![0] (k5_pay5 v7) inpos_S1_p0 = v7 (ValueIdx.ix1 ⟨4, by decide⟩) := by
  unfold k5_pay5 extractAt extractStridedSlice
  exact congrArg v7 (funext fun a => by obtain rfl : a = 0 := Subsingleton.elim _ _; rfl)
theorem word_5 (v7 : Vec F S16 .i32) : extractAt ![0] (k5_pay6 v7) inpos_S1_p0 = v7 (ValueIdx.ix1 ⟨5, by decide⟩) := by
  unfold k5_pay6 extractAt extractStridedSlice
  exact congrArg v7 (funext fun a => by obtain rfl : a = 0 := Subsingleton.elim _ _; rfl)
theorem word_6 (v7 : Vec F S16 .i32) : extractAt ![0] (k5_pay7 v7) inpos_S1_p0 = v7 (ValueIdx.ix1 ⟨6, by decide⟩) := by
  unfold k5_pay7 extractAt extractStridedSlice
  exact congrArg v7 (funext fun a => by obtain rfl : a = 0 := Subsingleton.elim _ _; rfl)
theorem word_7 (v7 : Vec F S16 .i32) : extractAt ![0] (k5_pay8 v7) inpos_S1_p0 = v7 (ValueIdx.ix1 ⟨7, by decide⟩) := by
  unfold k5_pay8 extractAt extractStridedSlice
  exact congrArg v7 (funext fun a => by obtain rfl : a = 0 := Subsingleton.elim _ _; rfl)
theorem word_8 (v7 : Vec F S16 .i32) : extractAt ![0] (k5_pay9 v7) inpos_S1_p0 = v7 (ValueIdx.ix1 ⟨8, by decide⟩) := by
  unfold k5_pay9 extractAt extractStridedSlice
  exact congrArg v7 (funext fun a => by obtain rfl : a = 0 := Subsingleton.elim _ _; rfl)
theorem word_9 (v7 : Vec F S16 .i32) : extractAt ![0] (k5_pay10 v7) inpos_S1_p0 = v7 (ValueIdx.ix1 ⟨9, by decide⟩) := by
  unfold k5_pay10 extractAt extractStridedSlice
  exact congrArg v7 (funext fun a => by obtain rfl : a = 0 := Subsingleton.elim _ _; rfl)
theorem word_10 (v7 : Vec F S16 .i32) : extractAt ![0] (k5_pay11 v7) inpos_S1_p0 = v7 (ValueIdx.ix1 ⟨10, by decide⟩) := by
  unfold k5_pay11 extractAt extractStridedSlice
  exact congrArg v7 (funext fun a => by obtain rfl : a = 0 := Subsingleton.elim _ _; rfl)
theorem word_11 (v7 : Vec F S16 .i32) : extractAt ![0] (k5_pay12 v7) inpos_S1_p0 = v7 (ValueIdx.ix1 ⟨11, by decide⟩) := by
  unfold k5_pay12 extractAt extractStridedSlice
  exact congrArg v7 (funext fun a => by obtain rfl : a = 0 := Subsingleton.elim _ _; rfl)
theorem word_12 (v7 : Vec F S16 .i32) : extractAt ![0] (k5_pay13 v7) inpos_S1_p0 = v7 (ValueIdx.ix1 ⟨12, by decide⟩) := by
  unfold k5_pay13 extractAt extractStridedSlice
  exact congrArg v7 (funext fun a => by obtain rfl : a = 0 := Subsingleton.elim _ _; rfl)
theorem word_13 (v7 : Vec F S16 .i32) : extractAt ![0] (k5_pay14 v7) inpos_S1_p0 = v7 (ValueIdx.ix1 ⟨13, by decide⟩) := by
  unfold k5_pay14 extractAt extractStridedSlice
  exact congrArg v7 (funext fun a => by obtain rfl : a = 0 := Subsingleton.elim _ _; rfl)
theorem word_14 (v7 : Vec F S16 .i32) : extractAt ![0] (k5_pay15 v7) inpos_S1_p0 = v7 (ValueIdx.ix1 ⟨14, by decide⟩) := by
  unfold k5_pay15 extractAt extractStridedSlice
  exact congrArg v7 (funext fun a => by obtain rfl : a = 0 := Subsingleton.elim _ _; rfl)
theorem word_15 (v7 : Vec F S16 .i32) : extractAt ![0] (k5_pay16 v7) inpos_S1_p0 = v7 (ValueIdx.ix1 ⟨15, by decide⟩) := by
  unfold k5_pay16 extractAt extractStridedSlice
  exact congrArg v7 (funext fun a => by obtain rfl : a = 0 := Subsingleton.elim _ _; rfl)

/-! ## The lookup's value at an index; the indices of a row -/

variable (m : (ℓ : Loc nD τ sig) → Buf (Elt F) ℓ)

theorem G_row (d : Dev nD) (r : Fin 16384) (k : Fin 64) :
    G m d (ValueIdx.ix2 r k) = m (tLoc d) (ValueIdx.ix2 (Spec.rowOf nRows nRows_pos (m (iLoc d) (ValueIdx.ix1 r))) k) := by
  unfold G
  exact Spec.gatherRows_apply nRows nRows_pos (m (tLoc d)) (m (iLoc d)) r k

theorem mem_rowSet_fst {r : Fin 16384} {i : S16384x64.Idx} (h : i ∈ rowSet r) : i 0 = r := by
  have h' : i ∈ (row r).set := by rw [← View.set_slice_whole outScv (row r)]; exact h
  rw [Rect.mem_set_unit] at h'
  have h0 := h' 0
  apply Fin.ext
  simp only [Shape.partIx, Shape.partSize] at h0
  have e : S16384x64.size 0 / 16384 = 1 := by decide
  simp only [↓reduceIte, e] at h0
  omega

/-! ## The destination of one row's copy -/

/-- The one-row rectangle at row r is the r-th of the 16384 parts of the result along its first axis. -/
theorem unitRow_eq (r : Fin 16384) (inb : ∀ a, (![r.val, 0] : Fin 2 → Nat) a + S1x64.size a ≤ S16384x64.size a) :
    Rect.unit (s := S16384x64) ![r.val, 0] S1x64.size inb = row r := by
  unfold row Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem set_dstRow (off : Fin 2 → Nat) (inb : ∀ a, off a + S1x64.size a ≤ S16384x64.size a) (r : Fin 16384)
    (hoff : off = ![r.val, 0]) :
    (((oW : Memref sig .scVector .hbm S16384x64 .f32).slice (Rect.unit (s := S16384x64) off S1x64.size inb) (fun _ => rfl)).squeeze S64
        squeezes_S1x64_S64).view.set = rowSet r := by
  subst hoff
  show (((oW : Memref sig .scVector .hbm S16384x64 .f32).view.slice (Rect.unit (s := S16384x64) ![r.val, 0] S1x64.size inb)).reshape S64
      squeezes_S1x64_S64.numel_eq).set = ((oW : Memref sig .scVector .hbm S16384x64 .f32).view.slice (row r)).set
  rw [View.set_reshape]
  exact unitRow_eq r inb ▸ rfl

/-! ## What the scratch holds after the first copy, and what a trip loads from it -/

theorem trips1 : k5_t1_loop.trips = 32 := by decide

theorem word_lt (g : Fin k5_t1_loop.trips) (j : Fin 16) : 16 * g.val + j.val < 512 := by
  have hg : g.val < 32 := Nat.lt_of_lt_of_eq g.isLt trips1
  have hj := j.isLt
  omega

/-- Word j of the sixteen that trip g loads is word 16g + j of the scratch. -/
theorem loaded_word (d : Dev nD) (L : grid0.Coords) (g : Fin k5_t1_loop.trips)
    (s : Buf (Elt F) ((sW : Memref sig .scVector .vmem S512 .i32).view.loc (V d (cV L) (jV L)))) (j : Fin 16) :
    ((sW : Memref sig .scVector .vmem S512 .i32).view.readAt (Elt F)
        (Rect.unit (s := S512) (k5_off2 g) S16.size (k5_off2_inb g)).toLoadRect s) (ValueIdx.ix1 j)
      = s (ValueIdx.ix1 ⟨16 * g.val + j.val, word_lt g j⟩) := by
  rw [View.readAt_apply]
  show s ((Rect.unit (s := S512) (k5_off2 g) S16.size (k5_off2_inb g)).toLoadRect.idx (ValueIdx.ix1 j)) = _
  refine congrArg s (funext fun (a : Fin 1) => Fin.ext ?_)
  obtain rfl : a = 0 := Subsingleton.elim _ _
  rw [LoadRect.idx_apply]
  show (k5_off2 g) 0 + 1 * j.val = 16 * g.val + j.val
  rw [k5_off2_eq]
  simp

/-- Once the first copy has landed, word t of the scratch is word base L + t of the index array. -/
theorem scratch_holds (d : Dev nD) (L : grid0.Coords)
    (fs : Buf (Elt F) ((sW : Memref sig .scVector .vmem S512 .i32).view.loc (V d (cV L) (jV L))))
    (mI : Buf (Elt F) (iLoc d)) (t : Fin 512) :
    ((sW : Memref sig .scVector .vmem S512 .i32).view.write (Elt F) fs
        ((ReadAs.same : ReadAs (Elt F) S512 .i32 S512 .i32).apply
          (((iW : Memref sig .scVector .hbm S16384 .i32).slice (Rect.unit (s := S16384) (k5_off1 L) S512.size (k5_off1_inb L))
              (fun _ => rfl)).view.read (Elt F) mI)) Finset.univ) (ValueIdx.ix1 t)
      = mI (ValueIdx.ix1 (⟨base L + t.val, base_add_lt L t⟩ : Fin 16384)) := by
  show ((View.whole scrScv).write (Elt F) fs
      (((iW : Memref sig .scVector .hbm S16384 .i32).view.slice (Rect.unit (s := S16384) (k5_off1 L) S512.size (k5_off1_inb L))).read (Elt F) mI)
      Finset.univ) (ValueIdx.ix1 t) = _
  rw [View.write_whole_univ, View.read_apply]
  refine (cast_eq _ _).trans ?_
  refine congrArg mI (funext fun (a : Fin 1) => Fin.ext ?_)
  obtain rfl : a = 0 := Subsingleton.elim _ _
  show (k5_off1 L) 0 + 1 * t.val = base L + t.val
  rw [k5_off1_eq]
  unfold base
  simp

/-! ## What one row's copy leaves -/

/-- A word that passes the copy's side condition names a row. -/
theorem lt_of_inb {w : BitVec 32} (hw : ∀ a, (k5_off4 w) a + S1x64.size a ≤ TS.size a) : w.toNat < nRows :=
  show w.toNat + 1 ≤ nRows from hw 0

/-- Column c of the destination row's own indices sits at (r, c) of the result. -/
theorem dst_emb (r : Fin 16384) (inb : ∀ a, (![r.val, 0] : Fin 2 → Nat) a + S1x64.size a ≤ S16384x64.size a) (x : S64.Idx) :
    (((oW : Memref sig .scVector .hbm S16384x64 .f32).slice (Rect.unit (s := S16384x64) ![r.val, 0] S1x64.size inb) (fun _ => rfl)).squeeze S64
        squeezes_S1x64_S64).view.emb x = ValueIdx.ix2 r (x 0) := by
  show (Rect.unit (s := S16384x64) ![r.val, 0] S1x64.size inb).emb (Shape.reshapeEquiv squeezes_S1x64_S64.numel_eq x) = _
  rw [Shape.reshapeEquiv_cons_one]
  funext a
  apply Fin.ext
  match a with
  | 0 => show r.val + 1 * 0 = r.val; omega
  | 1 => show 0 + 1 * (x 0).val = (x 0).val; omega

/-- Column c of the source row's own indices sits at (w, c) of the table. -/
theorem src_emb (w : BitVec 32) (hw : ∀ a, (k5_off4 w) a + S1x64.size a ≤ TS.size a) (x : S64.Idx) :
    (((tW : Memref sig .scVector .hbm TS .f32).slice (Rect.unit (s := TS) (k5_off4 w) S1x64.size hw) (fun _ => rfl)).squeeze S64
        squeezes_S1x64_S64).view.emb x = ValueIdx.ix2 (⟨w.toNat, lt_of_inb hw⟩ : Fin nRows) (x 0) := by
  show (Rect.unit (s := TS) (k5_off4 w) S1x64.size hw).emb (Shape.reshapeEquiv squeezes_S1x64_S64.numel_eq x) = _
  rw [Shape.reshapeEquiv_cons_one]
  funext a
  apply Fin.ext
  match a with
  | 0 => show w.toNat + 1 * 0 = w.toNat; omega
  | 1 => show 0 + 1 * (x 0).val = (x 0).val; omega

/-- After table row w has been copied onto result row r, every index of row r holds the table's entry at row w and the
    index's own column. -/
theorem write_row (d : Dev nD) (L : grid0.Coords) (off : Fin 2 → Nat) (inb : ∀ a, off a + S1x64.size a ≤ S16384x64.size a)
    (r : Fin 16384) (hoff : off = ![r.val, 0]) (w : BitVec 32) (hw : ∀ a, (k5_off4 w) a + S1x64.size a ≤ TS.size a)
    (fT : Buf (Elt F) (tLoc d)) (fO : Buf (Elt F) (oLoc d)) (i : S16384x64.Idx) (hi : i ∈ rowSet r) :
      ((((oW : Memref sig .scVector .hbm S16384x64 .f32).slice (Rect.unit (s := S16384x64) off S1x64.size inb) (fun _ => rfl)).squeeze S64
          squeezes_S1x64_S64).view.write (Elt F) fO
        ((ReadAs.same : ReadAs (Elt F) S64 .f32 S64 .f32).apply
          ((((tW : Memref sig .scVector .hbm TS .f32).slice (Rect.unit (s := TS) (k5_off4 w) S1x64.size hw) (fun _ => rfl)).squeeze S64
            squeezes_S1x64_S64).view.read (Elt F) fT)) Finset.univ) i
        = fT (ValueIdx.ix2 (⟨w.toNat, lt_of_inb hw⟩ : Fin nRows) (i 1)) := by
  subst hoff
  rw [← set_dstRow ![r.val, 0] inb r rfl] at hi
  obtain ⟨x, -, rfl⟩ := Finset.mem_map.mp hi
  rw [View.write_emb_of_mem _ _ (Finset.mem_univ x)]
  refine (cast_eq _ _).trans ?_
  show (((tW : Memref sig .scVector .hbm TS .f32).slice (Rect.unit (s := TS) (k5_off4 w) S1x64.size hw) (fun _ => rfl)).squeeze S64
      squeezes_S1x64_S64).view.read (Elt F) fT x = _
  rw [View.read_apply]
  refine (cast_eq _ _).trans ?_
  rw [src_emb w hw x, dst_emb r inb x]
  rfl

end Cert.Proof.KB.R5

end
-- ==== Proof.KBIssue5.lean ====
/-
  One of the tile's 512 row copies, started as the batch's next transfer. The copy reads the table row that the
  tile's `t`-th index word names and writes the tile's `t`-th row of the result; once it has landed, that row holds
  the lookup's value there: entry `(r, k)` of the result is entry `(idx r, k)` of the table.
-/
import proofs.«218896_g85959475462175_cont_9to1_m_647_27_alg».proof.Proof.KBTileDefs5
import proofs.«218896_g85959475462175_cont_9to1_m_647_27_alg».proof.Proof.KBView5

noncomputable section

namespace Cert.Proof.KB.R5

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

variable (m : (ℓ : Loc nD τ sig) → Buf (Elt F) ℓ) (d : Dev nD) (L : grid0.Coords)

/-- A row of the result and a row of the table, as the body slices them. -/
abbrev dstRow (off : Fin 2 → Nat) (inb : ∀ a, off a + S1x64.size a ≤ S16384x64.size a) : Memref sig .scVector .hbm S64 .f32 :=
  ((oW : Memref sig .scVector .hbm S16384x64 .f32).slice (Rect.unit (s := S16384x64) off S1x64.size inb) (fun _ => rfl)).squeeze S64 squeezes_S1x64_S64
abbrev srcRow (w : BitVec 32) (hw : ∀ a, (k5_off4 w) a + S1x64.size a ≤ TS.size a) : Memref sig .scVector .hbm S64 .f32 :=
  ((tW : Memref sig .scVector .hbm TS .f32).slice (Rect.unit (s := TS) (k5_off4 w) S1x64.size hw) (fun _ => rfl)).squeeze S64 squeezes_S1x64_S64

variable [FloatOps F]

/-- What the landed copy leaves in its row is the lookup's value there. -/
theorem landed_eq (t : Fin 512) (off : Fin 2 → Nat) (inb : ∀ a, off a + S1x64.size a ≤ S16384x64.size a)
    (hoff : off = ![(tileRow L t).val, 0]) (w : BitVec 32) (hw : ∀ a, (k5_off4 w) a + S1x64.size a ≤ TS.size a)
    (hwv : w = m (iLoc d) (ValueIdx.ix1 (tileRow L t))) (hlt : w.toNat < nRows)
    (i : S16384x64.Idx) (hi : i ∈ rowSet (tileRow L t)) :
    ((dstRow off inb).view.write (Elt F) (m (oLoc d)) ((ReadAs.same : ReadAs (Elt F) S64 .f32 S64 .f32).apply ((srcRow w hw).view.read (Elt F) (m (tLoc d)))) Finset.univ) i
      = G m d i := by
  rw [write_row d L off inb (tileRow L t) hoff w hw (m (tLoc d)) (m (oLoc d)) i hi]
  obtain ⟨r, k, rfl⟩ : ∃ (r : Fin 16384) (k : Fin 64), i = ValueIdx.ix2 r k := ⟨i 0, i 1, ValueIdx.eq_ix2 i⟩
  have hr : r = tileRow L t := mem_rowSet_fst hi
  subst hr
  show m (tLoc d) (ValueIdx.ix2 _ k) = _
  rw [G_row]
  congr 2
  apply Fin.ext
  show w.toNat = (Spec.rowOf nRows nRows_pos (m (iLoc d) (ValueIdx.ix1 (tileRow L t)))).val
  rw [← hwv, Spec.rowOf_val_of_lt nRows_pos hlt]

/-- The batch's transfer `t`, started: from the copy's own token of the table and its row of the result. -/
theorem wp_issue (t : Fin 512) (off : Fin 2 → Nat) (inb : ∀ a, off a + S1x64.size a ≤ S16384x64.size a)
    (hoff : off = ![(tileRow L t).val, 0]) (w : BitVec 32) (hw : ∀ a, (k5_off4 w) a + S1x64.size a ≤ TS.size a)
    (hwv : w = m (iLoc d) (ValueIdx.ix1 (tileRow L t))) (hlt : w.toNat < nRows)
    {α : Type} {k : PUnit → Prog (TpuEff nD τ sig (Elt F) Λ₀ (thr d L).2) α} {Q : α → sProp 𝕄}
    {hs : (srcRow w hw).view.WordExact} {hd : (dstRow off inb).view.WordExact}
    {hsem : DmaTarget.Typed (nD := nD) Space.hbm (SemLoc.dma cc5_scratch1.sem) (DmaTarget.here (p := (thr d L).2) (dstRow off inb))} :
    iprop(Rk m d L t ∗ Transfers.Batch (EC (F := F)) (thr d L) (.dma cc5_scratch1.sem) (none : HIx 8) N (Dl m d L) t.val 0)
      ⊢ iprop((Transfers.Batch (EC (F := F)) (thr d L) (.dma cc5_scratch1.sem) (none : HIx 8) N (Dl m d L) (t.val + 1) 0
            -∗ wp frame (wpE (defs₀ (F := F)) 𝒱₀ (thr d L) none) Set.univ (k ⟨⟩) Q)
          -∗ wp frame (wpE (defs₀ (F := F)) 𝒱₀ (thr d L) none) Set.univ
              (.op (TpuEff.enqueueDma (srcRow w hw) (DmaTarget.here (p := (thr d L).2) (dstRow off inb)) (.dma cc5_scratch1.sem) hs hd hsem) k) Q) := by
  unfold Rk
  iintro ⟨⟨Htok, Hrow⟩, HB⟩ Hk
  ihave Htok' := ((pointsTo_split_subset (ℓ := tLoc d) (I := (srcRow w hw).view.set) (S := Finset.univ) (Finset.subset_univ _)).1) $$ Htok
  icases Htok' with ⟨Hsrc, -⟩
  iapply (Transfers.wp_dmaBatch (EC (F := F)) 𝒱₀ (thr d L) none (src := srcRow w hw) (dst := dstRow off inb)
      (q := Transfers.shareTok (tsh L) 512 t) (fs := m (tLoc d)) (Sd := rowSet (tileRow L t)) (fd := m (oLoc d)) (D := Dl m d L) (j := t.val) (u := 0)
      (none : HIx 8) N rfl (set_dstRow off inb (tileRow L t) hoff).le t.isLt (Nat.zero_le _) ?hD) $$ [Hsrc Hrow HB]
  case hD =>
    iintro ⟨H, -⟩
    unfold Dl
    iapply (Entails.of_eq (pointsTo_congr (fun i hi => landed_eq m d L t off inb hoff w hw hwv hlt i hi)))
    iexact H
  · isplitl [Hsrc]; · iexact Hsrc
    isplitl [Hrow]; · iexact Hrow
    iexact HB
  iexact Hk

end Cert.Proof.KB.R5

end
-- ==== Proof.KBDrain5.lean ====
/-
  The tile's second loop: 512 waits on the one semaphore that the 512 row copies complete on. Each wait takes one
  copy's units off the counter; copies land in any order, so a wait that is not the last proves nothing about any
  row, and only the last — when all 512 copies' units have been taken — hands back every row holding its value and
  the counter at zero. The invariant before wait k says exactly that: k copies' units consumed and the batch still
  open, or (after the last) every delivery in hand.
-/
import proofs.«218896_g85959475462175_cont_9to1_m_647_27_alg».proof.Proof.KBTileDefs5

noncomputable section

namespace Cert.Proof.KB.R5

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- The loop makes 512 trips. -/
theorem trips2 : Scf.trips k5_t2_loop.lb k5_t2_loop.ub k5_t2_loop.st = 512 := by decide

/-- A row's credit is positive. -/
theorem N_pos : 0 < N := View.dmaCredit_pos _ (by decide)

/-- Before wait `k` of the 512: the batch with `k` transfers' units consumed; after the last, every delivery. -/
def inv2 (O : CellTallies nD τ sig (HIx 8)) (W : Waits sig (HIx 8)) (k : ℕ) (_ : Unit) : sProp 𝕄 :=
  iprop(Transfers.MayWaits (thr d L) (none : HIx 8) O
    ∗ ((⌜k < 512⌝ ∗ Transfers.Batch (EC (F := F)) (thr d L) (.dma cc5_scratch1.sem) (none : HIx 8) N (Dl m d L) 512 (k * N)
          ∗ ∃ W', ⌜∀ p ∈ W', p ∈ W ∨ p.2 = none⌝ ∗ owes (thr d L) O W')
      ∨ (⌜k = 512⌝ ∗ bigSep Finset.univ (Dl m d L) ∗ semVal (cB d L) 0 ∗ ∃ W', ⌜∀ p ∈ W', p ∈ W ∨ p.2 = none⌝ ∗ owes (thr d L) O W')))

variable [FloatOps F]

/-- The 512 waits: from the batch with every copy started and nothing consumed, to every row delivered and the counter at
    zero; each wait is recorded at the index of the tile's own copies. -/
theorem drain (O : CellTallies nD τ sig (HIx 8)) (W : Waits sig (HIx 8)) :
    iprop(Transfers.MayWaits (thr d L) (none : HIx 8) O
        ∗ Transfers.Batch (EC (F := F)) (thr d L) (.dma cc5_scratch1.sem) (none : HIx 8) N (Dl m d L) 512 0
        ∗ owes (thr d L) O W)
      ⊢ wp frame (wpE (defs₀ (F := F)) 𝒱₀ (thr d L) none) Set.univ
          (Scf.Loop.for k5_t2_loop k5_t2_ok ⟨⟩ (k5_t2_body L tW (Memref.isWhole_whole _) iW (Memref.isWhole_whole _) oW (Memref.isWhole_whole _) sW (Memref.isWhole_whole _) cc5_scratch1 cc5_scoped0))
          (fun _ => iprop(bigSep Finset.univ (Dl m d L) ∗ semVal (cB d L) 0 ∗ ∃ W', ⌜∀ p ∈ W', p ∈ W ∨ p.2 = none⌝ ∗ owes (thr d L) O W')) := by
  iintro ⟨#Hmw, HB, HO⟩
  sl_for (inv2 m d L O W) $$ [HB HO]
  case region =>
    intro k acc
    have hk : k.val < 512 := Nat.lt_of_lt_of_eq k.isLt trips2
    have e : (k.val + 1) * N = k.val * N + N := by rw [Nat.add_mul, Nat.one_mul]
    unfold inv2
    iintro ⟨#Hmw, H⟩
    sl_exec
    icases H with (⟨-, HB, %W', %hW', HO⟩ | ⟨%hk', -⟩)
    rotate_left
    · exfalso; omega
    ihave Hmw1 := (Transfers.MayWaits.elim (SemLoc.dma cc5_scratch1.sem)) $$ Hmw
    have hW'' : ∀ p ∈ insert (SemLoc.dma cc5_scratch1.sem, (none : HIx 8)) W', p ∈ W ∨ p.2 = none := by
      intro p hp
      rcases Finset.mem_insert.mp hp with hp | hp
      · exact .inr (hp ▸ rfl)
      · exact hW' p hp
    by_cases hlast : k.val + 1 < 512
    · have hu : k.val * N + N < N * 512 := by
        have h1 : (k.val + 1) * N < 512 * N := Nat.mul_lt_mul_of_pos_right hlast N_pos
        rw [e] at h1; rw [Nat.mul_comm N 512]; exact h1
      iapply (Transfers.wp_waitBatchO (EC (F := F)) 𝒱₀ (thr d L) none (none : HIx 8) (N := N) rfl hu) $$ [HB HO Hmw1]
      · isplitl [HB]; · iexact HB
        isplitl [HO]; · iexact HO
        iexact Hmw1
      iintro ⟨HB, HO⟩
      sl_step
      isplitr; · iexact Hmw
      ileft
      isplitr; · ipureintro; exact hlast
      rw [e]
      isplitl [HB]; · iexact HB
      iexists _; isplitr
      · ipureintro; exact hW''
      · iexact HO
    · have hu : k.val * N + N = N * 512 := by
        have h1 : k.val = 511 := by omega
        rw [h1]; omega
      iapply (Transfers.wp_waitBatchLastO (EC (F := F)) 𝒱₀ (thr d L) none (none : HIx 8) (N := N) rfl N_pos hu) $$ [HB HO Hmw1]
      · isplitl [HB]; · iexact HB
        isplitl [HO]; · iexact HO
        iexact Hmw1
      iintro ⟨HD, Hv, HO⟩
      sl_step
      isplitr; · iexact Hmw
      iright
      isplitr; · ipureintro; omega
      isplitl [HD]; · iexact HD
      isplitl [Hv]; · iexact Hv
      iexists _; isplitr
      · ipureintro; exact hW''
      · iexact HO
  rw [trips2]
  isplitl [HB HO]
  · unfold inv2
    isplitr; · iexact Hmw
    ileft
    isplitr; · ipureintro; omega
    rw [Nat.zero_mul]
    isplitl [HB]; · iexact HB
    iexists W; isplitr
    · ipureintro; exact fun p hp => .inl hp
    · iexact HO
  · iintro %acc HI
    unfold inv2
    icases HI with ⟨-, (⟨%h, -⟩ | ⟨-, HD, Hv, HW⟩)⟩
    · exfalso; omega
    isplitl [HD]; · iexact HD
    isplitl [Hv]; · iexact Hv
    iexact HW

end Cert.Proof.KB.R5

end
-- ==== Proof.KBTile5.lean ====
/-
  The tile's obligation at call 5: the index words fetched into the scratch, the 512 row copies started sixteen to a
  trip on one semaphore as ONE batch (no copy's source or destination is touched between the first start and the
  last wait), the batch drained by 512 waits, and the rows handed back holding the lookup's value.
-/
import proofs.«218896_g85959475462175_cont_9to1_m_647_27_alg».proof.Proof.KBTileDefs5
import proofs.«218896_g85959475462175_cont_9to1_m_647_27_alg».proof.Proof.KBView5
import proofs.«218896_g85959475462175_cont_9to1_m_647_27_alg».proof.Proof.KBIssue5
import proofs.«218896_g85959475462175_cont_9to1_m_647_27_alg».proof.Proof.KBDrain5

noncomputable section

namespace Cert.Proof.KB.R5

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- Before trip `k` of the first loop: the scratch at the landed index words, the first `16 k` copies started and none
    waited for, the later copies' tokens and rows still in hand. -/
def inv1 (k : Nat) (_ : PUnit) : sProp 𝕄 :=
  iprop(∃ sc, ⌜Holds m d L sc⌝ ∗ ((sW : Memref sig .scVector .vmem S512 .i32).view.loc (thr d L) ↦{fullShare} sc)
    ∗ Transfers.Batch (EC (F := F)) (thr d L) (.dma cc5_scratch1.sem) (none : HIx 8) N (Dl m d L) (16 * k) 0
    ∗ bigSep (Transfers.pending (n := 512) (16 * k)) (Rk m d L))

/-- The sixteen words a trip loads. -/
abbrev loaded (k : Fin k5_t1_loop.trips) (sc : Buf (Elt F) ((sW : Memref sig .scVector .vmem S512 .i32).view.loc (thr d L))) : Vec F S16 .i32 :=
  (sW : Memref sig .scVector .vmem S512 .i32).view.readAt (Elt F) (Rect.unit (s := S512) (k5_off2 k) S16.size (k5_off2_inb k)).toLoadRect sc

theorem off_eq {x y : Nat} (h : x = y) : (![x, 0] : Fin 2 → Nat) = ![y, 0] := by rw [h]

variable [FloatOps F]

/- Copy `j` of a trip: its index word names a row of the table (the check passes), and the copy is the batch's
   transfer `16 k + j`, started from that transfer's token and row. -/
set_option hygiene false in
local macro "issue_copy " j:num " with " chk:ident ", " wj:ident ", " offeq:ident : tactic => `(tactic| (
  iapply (wp_assume 𝒱₀ (thr d L) none Set.univ ($chk:ident ((congrArg BitVec.toNat ($wj:ident (loaded d L k sc))).trans_lt (hwlt ⟨$j, by decide⟩))))
  sl_exec
  ihave Hp := (Entails.of_eq (Transfers.bigSep_pending_step (Rk m d L) (16 * k.val + $j) (hidx ⟨$j, by decide⟩))) $$ Hpend
  icases Hp with ⟨HR, Hpend⟩
  iapply (wp_issue m d L ⟨16 * k.val + $j, hidx ⟨$j, by decide⟩⟩ _ _
      (($offeq:ident L k).trans (off_eq (by show _ = base L + (16 * k.val + $j); unfold base; omega))) _ _
      (($wj:ident (loaded d L k sc)).trans (hwv ⟨$j, by decide⟩)) ((congrArg BitVec.toNat ($wj:ident (loaded d L k sc))).trans_lt (hwlt ⟨$j, by decide⟩))) $$ [HR HB]
  · isplitl [HR]
    · iexact HR
    iexact HB
  iintro HB
  sl_exec))

theorem tile_body (hF : (K (F := F)).Facts) (hpre : ∀ d, Spec.InRange nRows (m (iLoc d))) : TileBody m := by
  intro d L O W hO
  simp only [cc5__gather_body_eq_skeleton]; unfold cc5__gather_body_skel
  rw [(K (F := F)).scopedBufs_V hF d (cV L) (jV L), SparseCore.Cfg.scopedSems0_V (Val := Elt F) d (cV L) (jV L), ownSems0_V, ownBufs_V]
  unfold go
  iintro ⟨#Hlv, -, ⟨Ht, Hi, Hrows⟩, ⟨⟨%fs, Hs⟩, Hbufs⟩, ⟨HsemS, HsemB, Hsems⟩, HO⟩
  ihave Hmw := ((K (F := F)).mayWaits_none (thr := thr d L) hO) $$ Hlv
  ihave Hi' := (Entails.of_eq (pts_i (F := F) d L _ _).symm) $$ Hi
  ihave Hs' := (Entails.of_eq (pts_s (F := F) d L _).symm) $$ Hs
  -- the index words fetched into the scratch, and the fetch waited for
  sl_exec
  -- the 512 copies' batch on the shared semaphore, allocated before the first is started
  imod (Transfers.batch_alloc' (Lvl := ℕ) (EC (F := F)) (thr d L) (none : HIx 8) N (Dl m d L) (sm := .dma cc5_scratch1.sem) (E := Set.univ)) $$ HsemB with HB
  -- the table's token dealt into one per copy
  ihave Ht' := (Transfers.pointsTo_toks_split (tsh L) 512) $$ Ht
  icases Ht' with ⟨-, Htoks⟩
  sl_for (inv1 m d L) $$ [Hs' HB Htoks Hrows]
  case region =>
    intro k hk
    unfold inv1
    iintro ⟨%sc, %hsc, Hs, HB, Hpend⟩
    have hk32 : k.val < 32 := lt_of_lt_of_eq k.isLt trips1
    have hidx : ∀ j : Fin 16, 16 * k.val + j.val < 512 := fun j => by have := j.isLt; omega
    -- the sixteen words the trip loads are the tile's index words 16 k … 16 k + 15; each names a row of the table
    have hwv : ∀ j : Fin 16, loaded d L k sc (ValueIdx.ix1 j) = m (iLoc d) (ValueIdx.ix1 (tileRow L ⟨16 * k.val + j.val, hidx j⟩)) :=
      fun j => (loaded_word d L k sc j).trans (hsc _)
    have hwlt : ∀ j : Fin 16, (loaded d L k sc (ValueIdx.ix1 j)).toNat < nRows := fun j => by rw [hwv j]; exact (hpre d).toNat_lt _
    sl_exec
    issue_copy 0 with chk_of_lt_1, word_0, k5_off3_eq
    issue_copy 1 with chk_of_lt_2, word_1, k5_off5_eq
    issue_copy 2 with chk_of_lt_3, word_2, k5_off7_eq
    issue_copy 3 with chk_of_lt_4, word_3, k5_off9_eq
    issue_copy 4 with chk_of_lt_5, word_4, k5_off11_eq
    issue_copy 5 with chk_of_lt_6, word_5, k5_off13_eq
    issue_copy 6 with chk_of_lt_7, word_6, k5_off15_eq
    issue_copy 7 with chk_of_lt_8, word_7, k5_off17_eq
    issue_copy 8 with chk_of_lt_9, word_8, k5_off19_eq
    issue_copy 9 with chk_of_lt_10, word_9, k5_off21_eq
    issue_copy 10 with chk_of_lt_11, word_10, k5_off23_eq
    issue_copy 11 with chk_of_lt_12, word_11, k5_off25_eq
    issue_copy 12 with chk_of_lt_13, word_12, k5_off27_eq
    issue_copy 13 with chk_of_lt_14, word_13, k5_off29_eq
    issue_copy 14 with chk_of_lt_15, word_14, k5_off31_eq
    issue_copy 15 with chk_of_lt_16, word_15, k5_off33_eq
    -- the trip's return: the invariant at `k + 1`
    rw [show 16 * (k.val + 1) = 16 * k.val + 15 + 1 by omega]
    sl_step
    iexists sc
    isplitr; · ipureintro; exact hsc
    isplitl [Hs]; · iexact Hs
    isplitl [HB]; · iexact HB
    iexact Hpend
  · -- the loop's entry: nothing started, every copy's token and row in hand
    unfold inv1
    iexists _
    isplitr; · ipureintro; exact fun t => scratch_holds d L fs (m (iLoc d)) t
    isplitl [Hs']; · iexact Hs'
    isplitl [HB]; · iexact HB
    rw [show 16 * 0 = 0 from rfl, ← Transfers.bigSep_pending_zero]
    unfold Rk
    rw [bigSep_sep']
    isplitl [Htoks]; · iexact Htoks
    iexact Hrows
  -- after the first loop: all 512 started, none waited for
  iintro %_ HI
  unfold inv1
  icases HI with ⟨%sc, -, Hs, HB, -⟩
  sl_exec
  have h512 : 16 * Scf.trips k5_t1_loop.lb k5_t1_loop.ub k5_t1_loop.st = 512 := by decide
  rw [h512]
  -- the second loop drains the batch: every row comes back holding the lookup's value
  simp only [wp_bind]
  ihave Hd := (drain m d L O _) $$ [HB HO]
  · isplitr; · iexact Hmw
    isplitl [HB]; · iexact HB
    iexact HO
  iapply (wp_wand frame _ Set.univ) $$ Hd
  iintro %_ ⟨HD, HsemB, %W', %hW', HO⟩
  sl_step
  isplitl [HD]
  · unfold td; iexact HD
  isplitl [Hs Hbufs]
  · isplitl [Hs]
    · iexists _; iapply (Entails.of_eq (pts_s (F := F) d L _)); iexact Hs
    iexact Hbufs
  isplitl [HsemS HsemB Hsems]
  · isplitl [HsemS]; · iexact HsemS
    isplitl [HsemB]; · iexact HsemB
    iexact Hsems
  iexists W'; isplitr
  · ipureintro; intro p hp
    rcases hW' p hp with h | h
    · rcases Finset.mem_insert.mp h with rfl | h
      · exact .inr rfl
      · exact .inl h
    · exact .inr h
  iexact HO

end Cert.Proof.KB.R5

end
-- ==== Proof.KBTileDefs6.lean ====
/-
  The tile's own names for call 6's body: its thread, its two DMA semaphores' cells, its scoped storage opened to
  the scratch and those two cells, the batch of the 512 row copies (each copy's delivery: its row of the result at
  the lookup's value), and what a copy needs before it is started.
-/
import proofs.«218896_g85959475462175_cont_9to1_m_647_27_alg».proof.Proof.KBRes6

noncomputable section

namespace Cert.Proof.KB.R6

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

abbrev thr : Thread nD τ := V d (cV L) (jV L)
abbrev cS : GSem nD τ sig := (thr d L, .dma cc6_scoped0.sem)
abbrev cB : GSem nD τ sig := (thr d L, .dma cc6_scratch1.sem)

theorem ownSems0_V :
    (ownSems0 (thr d L) : sProp 𝕄)
      = iprop(semVal (cS d L) 0 ∗ semVal (cB d L) 0 ∗ bigSep (((ownCells (thr d L)).erase (cS d L)).erase (cB d L)) fun g => semVal g 0) := by
  unfold SparseCore.Cfg.ownSems0
  rw [SparseCore.bigSep_erase' ((mem_ownCells (g := cS d L)).mpr ⟨rfl, by
      show (SemLoc.dma cc6_scoped0.sem : SemLoc sig).isScoped .scVector = true; decide⟩),
    SparseCore.bigSep_erase' (Finset.mem_erase.mpr ⟨by simp [cS, cB]; decide, (mem_ownCells (g := cB d L)).mpr ⟨rfl, by
      show (SemLoc.dma cc6_scratch1.sem : SemLoc sig).isScoped .scVector = true; decide⟩⟩)]

theorem ownBufs_V :
    (ownBufs (thr d L) : sProp 𝕄)
      = iprop((∃ f, (thr d L).loc scrScv ↦{fullShare} f)
          ∗ bigSep ((ownRefs (τ := τ) (.scVector (cV L) (jV L))).erase ((Proc.scVector (cV L) (jV L)).devRef scrScv))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef scrScv) rfl)

omit m in
theorem pts_i (q : PosShare TreeShare) (f : Buf (Elt F) (iLoc d)) :
    ((iW : Memref sig .scVector .hbm S16384 .i32).view.loc (thr d L) ↦{q} f : sProp 𝕄) = iLoc d ↦{q} f := rfl
omit m in
theorem pts_t (q : PosShare TreeShare) (f : Buf (Elt F) (tLoc d)) :
    ((tW : Memref sig .scVector .hbm TS .f32).view.loc (thr d L) ↦{q} f : sProp 𝕄) = tLoc d ↦{q} f := rfl
omit m in
theorem pts_s (f : Buf (Elt F) ((thr d L).loc scrScv)) :
    ((sW : Memref sig .scVector .vmem S512 .i32).view.loc (thr d L) ↦{fullShare} f : sProp 𝕄) = (thr d L).loc scrScv ↦{fullShare} f := rfl

/-- The counters of the tile's own copies. -/
abbrev EC : UEmb Counters (MT nD τ sig (HIx 8) (Elt F) ℕ UU ℕ) := countersEmb (U := UU)

/-- Row 0 of the result as the waits name it: any row's credit. -/
abbrev row0 : Memref sig .scVector .hbm S64 .f32 :=
  ((oW : Memref sig .scVector .hbm S16384x64 .f32).slice (Rect.unit (s := S16384x64) ![0, 0] S1x64.size inb_S16384x64_S1x64_0_0) (fun _ => rfl)).squeeze S64 squeezes_S1x64_S64
abbrev N : ℕ := (row0).view.dmaCredit

/-- The tile's read token of the table. -/
abbrev tsh : PosShare TreeShare := Transfers.shareTok fullShare 32 (wid L)

/-- Copy `t` of the 512 delivers row `t` of the tile's rows holding the lookup's value. -/
def Dl (t : Fin 512) : sProp 𝕄 := oLoc d ↦[rowSet (tileRow L t)]{fullShare} G m d

instance Dl_storable (t : Fin 512) : BI.Storable (upEmb : UEmb _ 𝕄) (Dl m d L t) := by unfold Dl; infer_instance

/-- What copy `t` needs before it is started: its own read token of the table, and its row of the result. -/
def Rk (t : Fin 512) : sProp 𝕄 :=
  iprop((tLoc d ↦{Transfers.shareTok (tsh L) 512 t} m (tLoc d)) ∗ (oLoc d ↦[rowSet (tileRow L t)]{fullShare} m (oLoc d)))

/-- The scratch holds the tile's 512 index words. -/
def Holds (sc : Buf (Elt F) ((sW : Memref sig .scVector .vmem S512 .i32).view.loc (thr d L))) : Prop :=
  ∀ t : Fin 512, sc (ValueIdx.ix1 t) = m (iLoc d) (ValueIdx.ix1 (tileRow L t))

end Cert.Proof.KB.R6

end
-- ==== Proof.KBView6.lean ====
/-
  Call 6 of the eight: what the tile's memory accesses address and read, as plain facts about index sets and
  contents, with no program logic in them.

  The tile at grid coordinates L owns result rows base L … base L + 511. It copies index words base L … base L + 511
  into its 512-word scratch (scratch_holds: word t of the scratch is then word base L + t of the index array);
  in trip g it loads the sixteen scratch words 16g … 16g + 15 (loaded_word) and takes them apart one at a time
  (word_0 … word_15); for each word w it copies table row w, when w names a row (chk_of_lt_N), onto one result row
  (set_dstRow: the destination is exactly that row's set of indices; write_row: after the copy the row holds table row w,
  column by column). G_row is the lookup's value at one index, and mem_rowSet_fst says that an index of row r's set has
  first coordinate r.
-/
import proofs.«218896_g85959475462175_cont_9to1_m_647_27_alg».proof.Proof.KBRes6

noncomputable section

namespace Cert.Proof.KB.R6

open Cert.Kernel Cert.Kernel.Gen Cert.Proof.KB

open Idealize.ShloMosaic
open Idealize.ShloMosaic.SparseCore (S V T)

variable {F : FTy → Type}

/-! ## A word that names a row passes the copy's side condition -/

theorem chk_of_lt_1 {w : BitVec 32} (h : w.toNat < nRows) : k6_chk1 w := fun a =>
  match a with
  | 0 => show w.toNat + 1 ≤ nRows from h
  | 1 => show 0 + 64 ≤ 64 from Nat.le_refl _
theorem chk_of_lt_2 {w : BitVec 32} (h : w.toNat < nRows) : k6_chk2 w := fun a =>
  match a with
  | 0 => show w.toNat + 1 ≤ nRows from h
  | 1 => show 0 + 64 ≤ 64 from Nat.le_refl _
theorem chk_of_lt_3 {w : BitVec 32} (h : w.toNat < nRows) : k6_chk3 w := fun a =>
  match a with
  | 0 => show w.toNat + 1 ≤ nRows from h
  | 1 => show 0 + 64 ≤ 64 from Nat.le_refl _
theorem chk_of_lt_4 {w : BitVec 32} (h : w.toNat < nRows) : k6_chk4 w := fun a =>
  match a with
  | 0 => show w.toNat + 1 ≤ nRows from h
  | 1 => show 0 + 64 ≤ 64 from Nat.le_refl _
theorem chk_of_lt_5 {w : BitVec 32} (h : w.toNat < nRows) : k6_chk5 w := fun a =>
  match a with
  | 0 => show w.toNat + 1 ≤ nRows from h
  | 1 => show 0 + 64 ≤ 64 from Nat.le_refl _
theorem chk_of_lt_6 {w : BitVec 32} (h : w.toNat < nRows) : k6_chk6 w := fun a =>
  match a with
  | 0 => show w.toNat + 1 ≤ nRows from h
  | 1 => show 0 + 64 ≤ 64 from Nat.le_refl _
theorem chk_of_lt_7 {w : BitVec 32} (h : w.toNat < nRows) : k6_chk7 w := fun a =>
  match a with
  | 0 => show w.toNat + 1 ≤ nRows from h
  | 1 => show 0 + 64 ≤ 64 from Nat.le_refl _
theorem chk_of_lt_8 {w : BitVec 32} (h : w.toNat < nRows) : k6_chk8 w := fun a =>
  match a with
  | 0 => show w.toNat + 1 ≤ nRows from h
  | 1 => show 0 + 64 ≤ 64 from Nat.le_refl _
theorem chk_of_lt_9 {w : BitVec 32} (h : w.toNat < nRows) : k6_chk9 w := fun a =>
  match a with
  | 0 => show w.toNat + 1 ≤ nRows from h
  | 1 => show 0 + 64 ≤ 64 from Nat.le_refl _
theorem chk_of_lt_10 {w : BitVec 32} (h : w.toNat < nRows) : k6_chk10 w := fun a =>
  match a with
  | 0 => show w.toNat + 1 ≤ nRows from h
  | 1 => show 0 + 64 ≤ 64 from Nat.le_refl _
theorem chk_of_lt_11 {w : BitVec 32} (h : w.toNat < nRows) : k6_chk11 w := fun a =>
  match a with
  | 0 => show w.toNat + 1 ≤ nRows from h
  | 1 => show 0 + 64 ≤ 64 from Nat.le_refl _
theorem chk_of_lt_12 {w : BitVec 32} (h : w.toNat < nRows) : k6_chk12 w := fun a =>
  match a with
  | 0 => show w.toNat + 1 ≤ nRows from h
  | 1 => show 0 + 64 ≤ 64 from Nat.le_refl _
theorem chk_of_lt_13 {w : BitVec 32} (h : w.toNat < nRows) : k6_chk13 w := fun a =>
  match a with
  | 0 => show w.toNat + 1 ≤ nRows from h
  | 1 => show 0 + 64 ≤ 64 from Nat.le_refl _
theorem chk_of_lt_14 {w : BitVec 32} (h : w.toNat < nRows) : k6_chk14 w := fun a =>
  match a with
  | 0 => show w.toNat + 1 ≤ nRows from h
  | 1 => show 0 + 64 ≤ 64 from Nat.le_refl _
theorem chk_of_lt_15 {w : BitVec 32} (h : w.toNat < nRows) : k6_chk15 w := fun a =>
  match a with
  | 0 => show w.toNat + 1 ≤ nRows from h
  | 1 => show 0 + 64 ≤ 64 from Nat.le_refl _
theorem chk_of_lt_16 {w : BitVec 32} (h : w.toNat < nRows) : k6_chk16 w := fun a =>
  match a with
  | 0 => show w.toNat + 1 ≤ nRows from h
  | 1 => show 0 + 64 ≤ 64 from Nat.le_refl _

/-! ## The sixteen words of a load, one at a time -/

theorem word_0 (v7 : Vec F S16 .i32) : extractAt ![0] (k6_pay1 v7) inpos_S1_p0 = v7 (ValueIdx.ix1 ⟨0, by decide⟩) := by
  unfold k6_pay1 extractAt extractStridedSlice
  exact congrArg v7 (funext fun a => by obtain rfl : a = 0 := Subsingleton.elim _ _; rfl)
theorem word_1 (v7 : Vec F S16 .i32) : extractAt ![0] (k6_pay2 v7) inpos_S1_p0 = v7 (ValueIdx.ix1 ⟨1, by decide⟩) := by
  unfold k6_pay2 extractAt extractStridedSlice
  exact congrArg v7 (funext fun a => by obtain rfl : a = 0 := Subsingleton.elim _ _; rfl)
theorem word_2 (v7 : Vec F S16 .i32) : extractAt ![0] (k6_pay3 v7) inpos_S1_p0 = v7 (ValueIdx.ix1 ⟨2, by decide⟩) := by
  unfold k6_pay3 extractAt extractStridedSlice
  exact congrArg v7 (funext fun a => by obtain rfl : a = 0 := Subsingleton.elim _ _; rfl)
theorem word_3 (v7 : Vec F S16 .i32) : extractAt ![0] (k6_pay4 v7) inpos_S1_p0 = v7 (ValueIdx.ix1 ⟨3, by decide⟩) := by
  unfold k6_pay4 extractAt extractStridedSlice
  exact congrArg v7 (funext fun a => by obtain rfl : a = 0 := Subsingleton.elim _ _; rfl)
theorem word_4 (v7 : Vec F S16 .i32) : extractAt ![0] (k6_pay5 v7) inpos_S1_p0 = v7 (ValueIdx.ix1 ⟨4, by decide⟩) := by
  unfold k6_pay5 extractAt extractStridedSlice
  exact congrArg v7 (funext fun a => by obtain rfl : a = 0 := Subsingleton.elim _ _; rfl)
theorem word_5 (v7 : Vec F S16 .i32) : extractAt ![0] (k6_pay6 v7) inpos_S1_p0 = v7 (ValueIdx.ix1 ⟨5, by decide⟩) := by
  unfold k6_pay6 extractAt extractStridedSlice
  exact congrArg v7 (funext fun a => by obtain rfl : a = 0 := Subsingleton.elim _ _; rfl)
theorem word_6 (v7 : Vec F S16 .i32) : extractAt ![0] (k6_pay7 v7) inpos_S1_p0 = v7 (ValueIdx.ix1 ⟨6, by decide⟩) := by
  unfold k6_pay7 extractAt extractStridedSlice
  exact congrArg v7 (funext fun a => by obtain rfl : a = 0 := Subsingleton.elim _ _; rfl)
theorem word_7 (v7 : Vec F S16 .i32) : extractAt ![0] (k6_pay8 v7) inpos_S1_p0 = v7 (ValueIdx.ix1 ⟨7, by decide⟩) := by
  unfold k6_pay8 extractAt extractStridedSlice
  exact congrArg v7 (funext fun a => by obtain rfl : a = 0 := Subsingleton.elim _ _; rfl)
theorem word_8 (v7 : Vec F S16 .i32) : extractAt ![0] (k6_pay9 v7) inpos_S1_p0 = v7 (ValueIdx.ix1 ⟨8, by decide⟩) := by
  unfold k6_pay9 extractAt extractStridedSlice
  exact congrArg v7 (funext fun a => by obtain rfl : a = 0 := Subsingleton.elim _ _; rfl)
theorem word_9 (v7 : Vec F S16 .i32) : extractAt ![0] (k6_pay10 v7) inpos_S1_p0 = v7 (ValueIdx.ix1 ⟨9, by decide⟩) := by
  unfold k6_pay10 extractAt extractStridedSlice
  exact congrArg v7 (funext fun a => by obtain rfl : a = 0 := Subsingleton.elim _ _; rfl)
theorem word_10 (v7 : Vec F S16 .i32) : extractAt ![0] (k6_pay11 v7) inpos_S1_p0 = v7 (ValueIdx.ix1 ⟨10, by decide⟩) := by
  unfold k6_pay11 extractAt extractStridedSlice
  exact congrArg v7 (funext fun a => by obtain rfl : a = 0 := Subsingleton.elim _ _; rfl)
theorem word_11 (v7 : Vec F S16 .i32) : extractAt ![0] (k6_pay12 v7) inpos_S1_p0 = v7 (ValueIdx.ix1 ⟨11, by decide⟩) := by
  unfold k6_pay12 extractAt extractStridedSlice
  exact congrArg v7 (funext fun a => by obtain rfl : a = 0 := Subsingleton.elim _ _; rfl)
theorem word_12 (v7 : Vec F S16 .i32) : extractAt ![0] (k6_pay13 v7) inpos_S1_p0 = v7 (ValueIdx.ix1 ⟨12, by decide⟩) := by
  unfold k6_pay13 extractAt extractStridedSlice
  exact congrArg v7 (funext fun a => by obtain rfl : a = 0 := Subsingleton.elim _ _; rfl)
theorem word_13 (v7 : Vec F S16 .i32) : extractAt ![0] (k6_pay14 v7) inpos_S1_p0 = v7 (ValueIdx.ix1 ⟨13, by decide⟩) := by
  unfold k6_pay14 extractAt extractStridedSlice
  exact congrArg v7 (funext fun a => by obtain rfl : a = 0 := Subsingleton.elim _ _; rfl)
theorem word_14 (v7 : Vec F S16 .i32) : extractAt ![0] (k6_pay15 v7) inpos_S1_p0 = v7 (ValueIdx.ix1 ⟨14, by decide⟩) := by
  unfold k6_pay15 extractAt extractStridedSlice
  exact congrArg v7 (funext fun a => by obtain rfl : a = 0 := Subsingleton.elim _ _; rfl)
theorem word_15 (v7 : Vec F S16 .i32) : extractAt ![0] (k6_pay16 v7) inpos_S1_p0 = v7 (ValueIdx.ix1 ⟨15, by decide⟩) := by
  unfold k6_pay16 extractAt extractStridedSlice
  exact congrArg v7 (funext fun a => by obtain rfl : a = 0 := Subsingleton.elim _ _; rfl)

/-! ## The lookup's value at an index; the indices of a row -/

variable (m : (ℓ : Loc nD τ sig) → Buf (Elt F) ℓ)

theorem G_row (d : Dev nD) (r : Fin 16384) (k : Fin 64) :
    G m d (ValueIdx.ix2 r k) = m (tLoc d) (ValueIdx.ix2 (Spec.rowOf nRows nRows_pos (m (iLoc d) (ValueIdx.ix1 r))) k) := by
  unfold G
  exact Spec.gatherRows_apply nRows nRows_pos (m (tLoc d)) (m (iLoc d)) r k

theorem mem_rowSet_fst {r : Fin 16384} {i : S16384x64.Idx} (h : i ∈ rowSet r) : i 0 = r := by
  have h' : i ∈ (row r).set := by rw [← View.set_slice_whole outScv (row r)]; exact h
  rw [Rect.mem_set_unit] at h'
  have h0 := h' 0
  apply Fin.ext
  simp only [Shape.partIx, Shape.partSize] at h0
  have e : S16384x64.size 0 / 16384 = 1 := by decide
  simp only [↓reduceIte, e] at h0
  omega

/-! ## The destination of one row's copy -/

/-- The one-row rectangle at row r is the r-th of the 16384 parts of the result along its first axis. -/
theorem unitRow_eq (r : Fin 16384) (inb : ∀ a, (![r.val, 0] : Fin 2 → Nat) a + S1x64.size a ≤ S16384x64.size a) :
    Rect.unit (s := S16384x64) ![r.val, 0] S1x64.size inb = row r := by
  unfold row Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem set_dstRow (off : Fin 2 → Nat) (inb : ∀ a, off a + S1x64.size a ≤ S16384x64.size a) (r : Fin 16384)
    (hoff : off = ![r.val, 0]) :
    (((oW : Memref sig .scVector .hbm S16384x64 .f32).slice (Rect.unit (s := S16384x64) off S1x64.size inb) (fun _ => rfl)).squeeze S64
        squeezes_S1x64_S64).view.set = rowSet r := by
  subst hoff
  show (((oW : Memref sig .scVector .hbm S16384x64 .f32).view.slice (Rect.unit (s := S16384x64) ![r.val, 0] S1x64.size inb)).reshape S64
      squeezes_S1x64_S64.numel_eq).set = ((oW : Memref sig .scVector .hbm S16384x64 .f32).view.slice (row r)).set
  rw [View.set_reshape]
  exact unitRow_eq r inb ▸ rfl

/-! ## What the scratch holds after the first copy, and what a trip loads from it -/

theorem trips1 : k6_t1_loop.trips = 32 := by decide

theorem word_lt (g : Fin k6_t1_loop.trips) (j : Fin 16) : 16 * g.val + j.val < 512 := by
  have hg : g.val < 32 := Nat.lt_of_lt_of_eq g.isLt trips1
  have hj := j.isLt
  omega

/-- Word j of the sixteen that trip g loads is word 16g + j of the scratch. -/
theorem loaded_word (d : Dev nD) (L : grid0.Coords) (g : Fin k6_t1_loop.trips)
    (s : Buf (Elt F) ((sW : Memref sig .scVector .vmem S512 .i32).view.loc (V d (cV L) (jV L)))) (j : Fin 16) :
    ((sW : Memref sig .scVector .vmem S512 .i32).view.readAt (Elt F)
        (Rect.unit (s := S512) (k6_off2 g) S16.size (k6_off2_inb g)).toLoadRect s) (ValueIdx.ix1 j)
      = s (ValueIdx.ix1 ⟨16 * g.val + j.val, word_lt g j⟩) := by
  rw [View.readAt_apply]
  show s ((Rect.unit (s := S512) (k6_off2 g) S16.size (k6_off2_inb g)).toLoadRect.idx (ValueIdx.ix1 j)) = _
  refine congrArg s (funext fun (a : Fin 1) => Fin.ext ?_)
  obtain rfl : a = 0 := Subsingleton.elim _ _
  rw [LoadRect.idx_apply]
  show (k6_off2 g) 0 + 1 * j.val = 16 * g.val + j.val
  rw [k6_off2_eq]
  simp

/-- Once the first copy has landed, word t of the scratch is word base L + t of the index array. -/
theorem scratch_holds (d : Dev nD) (L : grid0.Coords)
    (fs : Buf (Elt F) ((sW : Memref sig .scVector .vmem S512 .i32).view.loc (V d (cV L) (jV L))))
    (mI : Buf (Elt F) (iLoc d)) (t : Fin 512) :
    ((sW : Memref sig .scVector .vmem S512 .i32).view.write (Elt F) fs
        ((ReadAs.same : ReadAs (Elt F) S512 .i32 S512 .i32).apply
          (((iW : Memref sig .scVector .hbm S16384 .i32).slice (Rect.unit (s := S16384) (k6_off1 L) S512.size (k6_off1_inb L))
              (fun _ => rfl)).view.read (Elt F) mI)) Finset.univ) (ValueIdx.ix1 t)
      = mI (ValueIdx.ix1 (⟨base L + t.val, base_add_lt L t⟩ : Fin 16384)) := by
  show ((View.whole scrScv).write (Elt F) fs
      (((iW : Memref sig .scVector .hbm S16384 .i32).view.slice (Rect.unit (s := S16384) (k6_off1 L) S512.size (k6_off1_inb L))).read (Elt F) mI)
      Finset.univ) (ValueIdx.ix1 t) = _
  rw [View.write_whole_univ, View.read_apply]
  refine (cast_eq _ _).trans ?_
  refine congrArg mI (funext fun (a : Fin 1) => Fin.ext ?_)
  obtain rfl : a = 0 := Subsingleton.elim _ _
  show (k6_off1 L) 0 + 1 * t.val = base L + t.val
  rw [k6_off1_eq]
  unfold base
  simp

/-! ## What one row's copy leaves -/

/-- A word that passes the copy's side condition names a row. -/
theorem lt_of_inb {w : BitVec 32} (hw : ∀ a, (k6_off4 w) a + S1x64.size a ≤ TS.size a) : w.toNat < nRows :=
  show w.toNat + 1 ≤ nRows from hw 0

/-- Column c of the destination row's own indices sits at (r, c) of the result. -/
theorem dst_emb (r : Fin 16384) (inb : ∀ a, (![r.val, 0] : Fin 2 → Nat) a + S1x64.size a ≤ S16384x64.size a) (x : S64.Idx) :
    (((oW : Memref sig .scVector .hbm S16384x64 .f32).slice (Rect.unit (s := S16384x64) ![r.val, 0] S1x64.size inb) (fun _ => rfl)).squeeze S64
        squeezes_S1x64_S64).view.emb x = ValueIdx.ix2 r (x 0) := by
  show (Rect.unit (s := S16384x64) ![r.val, 0] S1x64.size inb).emb (Shape.reshapeEquiv squeezes_S1x64_S64.numel_eq x) = _
  rw [Shape.reshapeEquiv_cons_one]
  funext a
  apply Fin.ext
  match a with
  | 0 => show r.val + 1 * 0 = r.val; omega
  | 1 => show 0 + 1 * (x 0).val = (x 0).val; omega

/-- Column c of the source row's own indices sits at (w, c) of the table. -/
theorem src_emb (w : BitVec 32) (hw : ∀ a, (k6_off4 w) a + S1x64.size a ≤ TS.size a) (x : S64.Idx) :
    (((tW : Memref sig .scVector .hbm TS .f32).slice (Rect.unit (s := TS) (k6_off4 w) S1x64.size hw) (fun _ => rfl)).squeeze S64
        squeezes_S1x64_S64).view.emb x = ValueIdx.ix2 (⟨w.toNat, lt_of_inb hw⟩ : Fin nRows) (x 0) := by
  show (Rect.unit (s := TS) (k6_off4 w) S1x64.size hw).emb (Shape.reshapeEquiv squeezes_S1x64_S64.numel_eq x) = _
  rw [Shape.reshapeEquiv_cons_one]
  funext a
  apply Fin.ext
  match a with
  | 0 => show w.toNat + 1 * 0 = w.toNat; omega
  | 1 => show 0 + 1 * (x 0).val = (x 0).val; omega

/-- After table row w has been copied onto result row r, every index of row r holds the table's entry at row w and the
    index's own column. -/
theorem write_row (d : Dev nD) (L : grid0.Coords) (off : Fin 2 → Nat) (inb : ∀ a, off a + S1x64.size a ≤ S16384x64.size a)
    (r : Fin 16384) (hoff : off = ![r.val, 0]) (w : BitVec 32) (hw : ∀ a, (k6_off4 w) a + S1x64.size a ≤ TS.size a)
    (fT : Buf (Elt F) (tLoc d)) (fO : Buf (Elt F) (oLoc d)) (i : S16384x64.Idx) (hi : i ∈ rowSet r) :
      ((((oW : Memref sig .scVector .hbm S16384x64 .f32).slice (Rect.unit (s := S16384x64) off S1x64.size inb) (fun _ => rfl)).squeeze S64
          squeezes_S1x64_S64).view.write (Elt F) fO
        ((ReadAs.same : ReadAs (Elt F) S64 .f32 S64 .f32).apply
          ((((tW : Memref sig .scVector .hbm TS .f32).slice (Rect.unit (s := TS) (k6_off4 w) S1x64.size hw) (fun _ => rfl)).squeeze S64
            squeezes_S1x64_S64).view.read (Elt F) fT)) Finset.univ) i
        = fT (ValueIdx.ix2 (⟨w.toNat, lt_of_inb hw⟩ : Fin nRows) (i 1)) := by
  subst hoff
  rw [← set_dstRow ![r.val, 0] inb r rfl] at hi
  obtain ⟨x, -, rfl⟩ := Finset.mem_map.mp hi
  rw [View.write_emb_of_mem _ _ (Finset.mem_univ x)]
  refine (cast_eq _ _).trans ?_
  show (((tW : Memref sig .scVector .hbm TS .f32).slice (Rect.unit (s := TS) (k6_off4 w) S1x64.size hw) (fun _ => rfl)).squeeze S64
      squeezes_S1x64_S64).view.read (Elt F) fT x = _
  rw [View.read_apply]
  refine (cast_eq _ _).trans ?_
  rw [src_emb w hw x, dst_emb r inb x]
  rfl

end Cert.Proof.KB.R6

end
-- ==== Proof.KBIssue6.lean ====
/-
  One of the tile's 512 row copies, started as the batch's next transfer. The copy reads the table row that the
  tile's `t`-th index word names and writes the tile's `t`-th row of the result; once it has landed, that row holds
  the lookup's value there: entry `(r, k)` of the result is entry `(idx r, k)` of the table.
-/
import proofs.«218896_g85959475462175_cont_9to1_m_647_27_alg».proof.Proof.KBTileDefs6
import proofs.«218896_g85959475462175_cont_9to1_m_647_27_alg».proof.Proof.KBView6

noncomputable section

namespace Cert.Proof.KB.R6

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

variable (m : (ℓ : Loc nD τ sig) → Buf (Elt F) ℓ) (d : Dev nD) (L : grid0.Coords)

/-- A row of the result and a row of the table, as the body slices them. -/
abbrev dstRow (off : Fin 2 → Nat) (inb : ∀ a, off a + S1x64.size a ≤ S16384x64.size a) : Memref sig .scVector .hbm S64 .f32 :=
  ((oW : Memref sig .scVector .hbm S16384x64 .f32).slice (Rect.unit (s := S16384x64) off S1x64.size inb) (fun _ => rfl)).squeeze S64 squeezes_S1x64_S64
abbrev srcRow (w : BitVec 32) (hw : ∀ a, (k6_off4 w) a + S1x64.size a ≤ TS.size a) : Memref sig .scVector .hbm S64 .f32 :=
  ((tW : Memref sig .scVector .hbm TS .f32).slice (Rect.unit (s := TS) (k6_off4 w) S1x64.size hw) (fun _ => rfl)).squeeze S64 squeezes_S1x64_S64

variable [FloatOps F]

/-- What the landed copy leaves in its row is the lookup's value there. -/
theorem landed_eq (t : Fin 512) (off : Fin 2 → Nat) (inb : ∀ a, off a + S1x64.size a ≤ S16384x64.size a)
    (hoff : off = ![(tileRow L t).val, 0]) (w : BitVec 32) (hw : ∀ a, (k6_off4 w) a + S1x64.size a ≤ TS.size a)
    (hwv : w = m (iLoc d) (ValueIdx.ix1 (tileRow L t))) (hlt : w.toNat < nRows)
    (i : S16384x64.Idx) (hi : i ∈ rowSet (tileRow L t)) :
    ((dstRow off inb).view.write (Elt F) (m (oLoc d)) ((ReadAs.same : ReadAs (Elt F) S64 .f32 S64 .f32).apply ((srcRow w hw).view.read (Elt F) (m (tLoc d)))) Finset.univ) i
      = G m d i := by
  rw [write_row d L off inb (tileRow L t) hoff w hw (m (tLoc d)) (m (oLoc d)) i hi]
  obtain ⟨r, k, rfl⟩ : ∃ (r : Fin 16384) (k : Fin 64), i = ValueIdx.ix2 r k := ⟨i 0, i 1, ValueIdx.eq_ix2 i⟩
  have hr : r = tileRow L t := mem_rowSet_fst hi
  subst hr
  show m (tLoc d) (ValueIdx.ix2 _ k) = _
  rw [G_row]
  congr 2
  apply Fin.ext
  show w.toNat = (Spec.rowOf nRows nRows_pos (m (iLoc d) (ValueIdx.ix1 (tileRow L t)))).val
  rw [← hwv, Spec.rowOf_val_of_lt nRows_pos hlt]

/-- The batch's transfer `t`, started: from the copy's own token of the table and its row of the result. -/
theorem wp_issue (t : Fin 512) (off : Fin 2 → Nat) (inb : ∀ a, off a + S1x64.size a ≤ S16384x64.size a)
    (hoff : off = ![(tileRow L t).val, 0]) (w : BitVec 32) (hw : ∀ a, (k6_off4 w) a + S1x64.size a ≤ TS.size a)
    (hwv : w = m (iLoc d) (ValueIdx.ix1 (tileRow L t))) (hlt : w.toNat < nRows)
    {α : Type} {k : PUnit → Prog (TpuEff nD τ sig (Elt F) Λ₀ (thr d L).2) α} {Q : α → sProp 𝕄}
    {hs : (srcRow w hw).view.WordExact} {hd : (dstRow off inb).view.WordExact}
    {hsem : DmaTarget.Typed (nD := nD) Space.hbm (SemLoc.dma cc6_scratch1.sem) (DmaTarget.here (p := (thr d L).2) (dstRow off inb))} :
    iprop(Rk m d L t ∗ Transfers.Batch (EC (F := F)) (thr d L) (.dma cc6_scratch1.sem) (none : HIx 8) N (Dl m d L) t.val 0)
      ⊢ iprop((Transfers.Batch (EC (F := F)) (thr d L) (.dma cc6_scratch1.sem) (none : HIx 8) N (Dl m d L) (t.val + 1) 0
            -∗ wp frame (wpE (defs₀ (F := F)) 𝒱₀ (thr d L) none) Set.univ (k ⟨⟩) Q)
          -∗ wp frame (wpE (defs₀ (F := F)) 𝒱₀ (thr d L) none) Set.univ
              (.op (TpuEff.enqueueDma (srcRow w hw) (DmaTarget.here (p := (thr d L).2) (dstRow off inb)) (.dma cc6_scratch1.sem) hs hd hsem) k) Q) := by
  unfold Rk
  iintro ⟨⟨Htok, Hrow⟩, HB⟩ Hk
  ihave Htok' := ((pointsTo_split_subset (ℓ := tLoc d) (I := (srcRow w hw).view.set) (S := Finset.univ) (Finset.subset_univ _)).1) $$ Htok
  icases Htok' with ⟨Hsrc, -⟩
  iapply (Transfers.wp_dmaBatch (EC (F := F)) 𝒱₀ (thr d L) none (src := srcRow w hw) (dst := dstRow off inb)
      (q := Transfers.shareTok (tsh L) 512 t) (fs := m (tLoc d)) (Sd := rowSet (tileRow L t)) (fd := m (oLoc d)) (D := Dl m d L) (j := t.val) (u := 0)
      (none : HIx 8) N rfl (set_dstRow off inb (tileRow L t) hoff).le t.isLt (Nat.zero_le _) ?hD) $$ [Hsrc Hrow HB]
  case hD =>
    iintro ⟨H, -⟩
    unfold Dl
    iapply (Entails.of_eq (pointsTo_congr (fun i hi => landed_eq m d L t off inb hoff w hw hwv hlt i hi)))
    iexact H
  · isplitl [Hsrc]; · iexact Hsrc
    isplitl [Hrow]; · iexact Hrow
    iexact HB
  iexact Hk

end Cert.Proof.KB.R6

end
-- ==== Proof.KBDrain6.lean ====
/-
  The tile's second loop: 512 waits on the one semaphore that the 512 row copies complete on. Each wait takes one
  copy's units off the counter; copies land in any order, so a wait that is not the last proves nothing about any
  row, and only the last — when all 512 copies' units have been taken — hands back every row holding its value and
  the counter at zero. The invariant before wait k says exactly that: k copies' units consumed and the batch still
  open, or (after the last) every delivery in hand.
-/
import proofs.«218896_g85959475462175_cont_9to1_m_647_27_alg».proof.Proof.KBTileDefs6

noncomputable section

namespace Cert.Proof.KB.R6

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- The loop makes 512 trips. -/
theorem trips2 : Scf.trips k6_t2_loop.lb k6_t2_loop.ub k6_t2_loop.st = 512 := by decide

/-- A row's credit is positive. -/
theorem N_pos : 0 < N := View.dmaCredit_pos _ (by decide)

/-- Before wait `k` of the 512: the batch with `k` transfers' units consumed; after the last, every delivery. -/
def inv2 (O : CellTallies nD τ sig (HIx 8)) (W : Waits sig (HIx 8)) (k : ℕ) (_ : Unit) : sProp 𝕄 :=
  iprop(Transfers.MayWaits (thr d L) (none : HIx 8) O
    ∗ ((⌜k < 512⌝ ∗ Transfers.Batch (EC (F := F)) (thr d L) (.dma cc6_scratch1.sem) (none : HIx 8) N (Dl m d L) 512 (k * N)
          ∗ ∃ W', ⌜∀ p ∈ W', p ∈ W ∨ p.2 = none⌝ ∗ owes (thr d L) O W')
      ∨ (⌜k = 512⌝ ∗ bigSep Finset.univ (Dl m d L) ∗ semVal (cB d L) 0 ∗ ∃ W', ⌜∀ p ∈ W', p ∈ W ∨ p.2 = none⌝ ∗ owes (thr d L) O W')))

variable [FloatOps F]

/-- The 512 waits: from the batch with every copy started and nothing consumed, to every row delivered and the counter at
    zero; each wait is recorded at the index of the tile's own copies. -/
theorem drain (O : CellTallies nD τ sig (HIx 8)) (W : Waits sig (HIx 8)) :
    iprop(Transfers.MayWaits (thr d L) (none : HIx 8) O
        ∗ Transfers.Batch (EC (F := F)) (thr d L) (.dma cc6_scratch1.sem) (none : HIx 8) N (Dl m d L) 512 0
        ∗ owes (thr d L) O W)
      ⊢ wp frame (wpE (defs₀ (F := F)) 𝒱₀ (thr d L) none) Set.univ
          (Scf.Loop.for k6_t2_loop k6_t2_ok ⟨⟩ (k6_t2_body L tW (Memref.isWhole_whole _) iW (Memref.isWhole_whole _) oW (Memref.isWhole_whole _) sW (Memref.isWhole_whole _) cc6_scratch1 cc6_scoped0))
          (fun _ => iprop(bigSep Finset.univ (Dl m d L) ∗ semVal (cB d L) 0 ∗ ∃ W', ⌜∀ p ∈ W', p ∈ W ∨ p.2 = none⌝ ∗ owes (thr d L) O W')) := by
  iintro ⟨#Hmw, HB, HO⟩
  sl_for (inv2 m d L O W) $$ [HB HO]
  case region =>
    intro k acc
    have hk : k.val < 512 := Nat.lt_of_lt_of_eq k.isLt trips2
    have e : (k.val + 1) * N = k.val * N + N := by rw [Nat.add_mul, Nat.one_mul]
    unfold inv2
    iintro ⟨#Hmw, H⟩
    sl_exec
    icases H with (⟨-, HB, %W', %hW', HO⟩ | ⟨%hk', -⟩)
    rotate_left
    · exfalso; omega
    ihave Hmw1 := (Transfers.MayWaits.elim (SemLoc.dma cc6_scratch1.sem)) $$ Hmw
    have hW'' : ∀ p ∈ insert (SemLoc.dma cc6_scratch1.sem, (none : HIx 8)) W', p ∈ W ∨ p.2 = none := by
      intro p hp
      rcases Finset.mem_insert.mp hp with hp | hp
      · exact .inr (hp ▸ rfl)
      · exact hW' p hp
    by_cases hlast : k.val + 1 < 512
    · have hu : k.val * N + N < N * 512 := by
        have h1 : (k.val + 1) * N < 512 * N := Nat.mul_lt_mul_of_pos_right hlast N_pos
        rw [e] at h1; rw [Nat.mul_comm N 512]; exact h1
      iapply (Transfers.wp_waitBatchO (EC (F := F)) 𝒱₀ (thr d L) none (none : HIx 8) (N := N) rfl hu) $$ [HB HO Hmw1]
      · isplitl [HB]; · iexact HB
        isplitl [HO]; · iexact HO
        iexact Hmw1
      iintro ⟨HB, HO⟩
      sl_step
      isplitr; · iexact Hmw
      ileft
      isplitr; · ipureintro; exact hlast
      rw [e]
      isplitl [HB]; · iexact HB
      iexists _; isplitr
      · ipureintro; exact hW''
      · iexact HO
    · have hu : k.val * N + N = N * 512 := by
        have h1 : k.val = 511 := by omega
        rw [h1]; omega
      iapply (Transfers.wp_waitBatchLastO (EC (F := F)) 𝒱₀ (thr d L) none (none : HIx 8) (N := N) rfl N_pos hu) $$ [HB HO Hmw1]
      · isplitl [HB]; · iexact HB
        isplitl [HO]; · iexact HO
        iexact Hmw1
      iintro ⟨HD, Hv, HO⟩
      sl_step
      isplitr; · iexact Hmw
      iright
      isplitr; · ipureintro; omega
      isplitl [HD]; · iexact HD
      isplitl [Hv]; · iexact Hv
      iexists _; isplitr
      · ipureintro; exact hW''
      · iexact HO
  rw [trips2]
  isplitl [HB HO]
  · unfold inv2
    isplitr; · iexact Hmw
    ileft
    isplitr; · ipureintro; omega
    rw [Nat.zero_mul]
    isplitl [HB]; · iexact HB
    iexists W; isplitr
    · ipureintro; exact fun p hp => .inl hp
    · iexact HO
  · iintro %acc HI
    unfold inv2
    icases HI with ⟨-, (⟨%h, -⟩ | ⟨-, HD, Hv, HW⟩)⟩
    · exfalso; omega
    isplitl [HD]; · iexact HD
    isplitl [Hv]; · iexact Hv
    iexact HW

end Cert.Proof.KB.R6

end
-- ==== Proof.KBTile6.lean ====
/-
  The tile's obligation at call 6: the index words fetched into the scratch, the 512 row copies started sixteen to a
  trip on one semaphore as ONE batch (no copy's source or destination is touched between the first start and the
  last wait), the batch drained by 512 waits, and the rows handed back holding the lookup's value.
-/
import proofs.«218896_g85959475462175_cont_9to1_m_647_27_alg».proof.Proof.KBTileDefs6
import proofs.«218896_g85959475462175_cont_9to1_m_647_27_alg».proof.Proof.KBView6
import proofs.«218896_g85959475462175_cont_9to1_m_647_27_alg».proof.Proof.KBIssue6
import proofs.«218896_g85959475462175_cont_9to1_m_647_27_alg».proof.Proof.KBDrain6

noncomputable section

namespace Cert.Proof.KB.R6

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- Before trip `k` of the first loop: the scratch at the landed index words, the first `16 k` copies started and none
    waited for, the later copies' tokens and rows still in hand. -/
def inv1 (k : Nat) (_ : PUnit) : sProp 𝕄 :=
  iprop(∃ sc, ⌜Holds m d L sc⌝ ∗ ((sW : Memref sig .scVector .vmem S512 .i32).view.loc (thr d L) ↦{fullShare} sc)
    ∗ Transfers.Batch (EC (F := F)) (thr d L) (.dma cc6_scratch1.sem) (none : HIx 8) N (Dl m d L) (16 * k) 0
    ∗ bigSep (Transfers.pending (n := 512) (16 * k)) (Rk m d L))

/-- The sixteen words a trip loads. -/
abbrev loaded (k : Fin k6_t1_loop.trips) (sc : Buf (Elt F) ((sW : Memref sig .scVector .vmem S512 .i32).view.loc (thr d L))) : Vec F S16 .i32 :=
  (sW : Memref sig .scVector .vmem S512 .i32).view.readAt (Elt F) (Rect.unit (s := S512) (k6_off2 k) S16.size (k6_off2_inb k)).toLoadRect sc

theorem off_eq {x y : Nat} (h : x = y) : (![x, 0] : Fin 2 → Nat) = ![y, 0] := by rw [h]

variable [FloatOps F]

/- Copy `j` of a trip: its index word names a row of the table (the check passes), and the copy is the batch's
   transfer `16 k + j`, started from that transfer's token and row. -/
set_option hygiene false in
local macro "issue_copy " j:num " with " chk:ident ", " wj:ident ", " offeq:ident : tactic => `(tactic| (
  iapply (wp_assume 𝒱₀ (thr d L) none Set.univ ($chk:ident ((congrArg BitVec.toNat ($wj:ident (loaded d L k sc))).trans_lt (hwlt ⟨$j, by decide⟩))))
  sl_exec
  ihave Hp := (Entails.of_eq (Transfers.bigSep_pending_step (Rk m d L) (16 * k.val + $j) (hidx ⟨$j, by decide⟩))) $$ Hpend
  icases Hp with ⟨HR, Hpend⟩
  iapply (wp_issue m d L ⟨16 * k.val + $j, hidx ⟨$j, by decide⟩⟩ _ _
      (($offeq:ident L k).trans (off_eq (by show _ = base L + (16 * k.val + $j); unfold base; omega))) _ _
      (($wj:ident (loaded d L k sc)).trans (hwv ⟨$j, by decide⟩)) ((congrArg BitVec.toNat ($wj:ident (loaded d L k sc))).trans_lt (hwlt ⟨$j, by decide⟩))) $$ [HR HB]
  · isplitl [HR]
    · iexact HR
    iexact HB
  iintro HB
  sl_exec))

theorem tile_body (hF : (K (F := F)).Facts) (hpre : ∀ d, Spec.InRange nRows (m (iLoc d))) : TileBody m := by
  intro d L O W hO
  simp only [cc6__gather_body_eq_skeleton]; unfold cc6__gather_body_skel
  rw [(K (F := F)).scopedBufs_V hF d (cV L) (jV L), SparseCore.Cfg.scopedSems0_V (Val := Elt F) d (cV L) (jV L), ownSems0_V, ownBufs_V]
  unfold go
  iintro ⟨#Hlv, -, ⟨Ht, Hi, Hrows⟩, ⟨⟨%fs, Hs⟩, Hbufs⟩, ⟨HsemS, HsemB, Hsems⟩, HO⟩
  ihave Hmw := ((K (F := F)).mayWaits_none (thr := thr d L) hO) $$ Hlv
  ihave Hi' := (Entails.of_eq (pts_i (F := F) d L _ _).symm) $$ Hi
  ihave Hs' := (Entails.of_eq (pts_s (F := F) d L _).symm) $$ Hs
  -- the index words fetched into the scratch, and the fetch waited for
  sl_exec
  -- the 512 copies' batch on the shared semaphore, allocated before the first is started
  imod (Transfers.batch_alloc' (Lvl := ℕ) (EC (F := F)) (thr d L) (none : HIx 8) N (Dl m d L) (sm := .dma cc6_scratch1.sem) (E := Set.univ)) $$ HsemB with HB
  -- the table's token dealt into one per copy
  ihave Ht' := (Transfers.pointsTo_toks_split (tsh L) 512) $$ Ht
  icases Ht' with ⟨-, Htoks⟩
  sl_for (inv1 m d L) $$ [Hs' HB Htoks Hrows]
  case region =>
    intro k hk
    unfold inv1
    iintro ⟨%sc, %hsc, Hs, HB, Hpend⟩
    have hk32 : k.val < 32 := lt_of_lt_of_eq k.isLt trips1
    have hidx : ∀ j : Fin 16, 16 * k.val + j.val < 512 := fun j => by have := j.isLt; omega
    -- the sixteen words the trip loads are the tile's index words 16 k … 16 k + 15; each names a row of the table
    have hwv : ∀ j : Fin 16, loaded d L k sc (ValueIdx.ix1 j) = m (iLoc d) (ValueIdx.ix1 (tileRow L ⟨16 * k.val + j.val, hidx j⟩)) :=
      fun j => (loaded_word d L k sc j).trans (hsc _)
    have hwlt : ∀ j : Fin 16, (loaded d L k sc (ValueIdx.ix1 j)).toNat < nRows := fun j => by rw [hwv j]; exact (hpre d).toNat_lt _
    sl_exec
    issue_copy 0 with chk_of_lt_1, word_0, k6_off3_eq
    issue_copy 1 with chk_of_lt_2, word_1, k6_off5_eq
    issue_copy 2 with chk_of_lt_3, word_2, k6_off7_eq
    issue_copy 3 with chk_of_lt_4, word_3, k6_off9_eq
    issue_copy 4 with chk_of_lt_5, word_4, k6_off11_eq
    issue_copy 5 with chk_of_lt_6, word_5, k6_off13_eq
    issue_copy 6 with chk_of_lt_7, word_6, k6_off15_eq
    issue_copy 7 with chk_of_lt_8, word_7, k6_off17_eq
    issue_copy 8 with chk_of_lt_9, word_8, k6_off19_eq
    issue_copy 9 with chk_of_lt_10, word_9, k6_off21_eq
    issue_copy 10 with chk_of_lt_11, word_10, k6_off23_eq
    issue_copy 11 with chk_of_lt_12, word_11, k6_off25_eq
    issue_copy 12 with chk_of_lt_13, word_12, k6_off27_eq
    issue_copy 13 with chk_of_lt_14, word_13, k6_off29_eq
    issue_copy 14 with chk_of_lt_15, word_14, k6_off31_eq
    issue_copy 15 with chk_of_lt_16, word_15, k6_off33_eq
    -- the trip's return: the invariant at `k + 1`
    rw [show 16 * (k.val + 1) = 16 * k.val + 15 + 1 by omega]
    sl_step
    iexists sc
    isplitr; · ipureintro; exact hsc
    isplitl [Hs]; · iexact Hs
    isplitl [HB]; · iexact HB
    iexact Hpend
  · -- the loop's entry: nothing started, every copy's token and row in hand
    unfold inv1
    iexists _
    isplitr; · ipureintro; exact fun t => scratch_holds d L fs (m (iLoc d)) t
    isplitl [Hs']; · iexact Hs'
    isplitl [HB]; · iexact HB
    rw [show 16 * 0 = 0 from rfl, ← Transfers.bigSep_pending_zero]
    unfold Rk
    rw [bigSep_sep']
    isplitl [Htoks]; · iexact Htoks
    iexact Hrows
  -- after the first loop: all 512 started, none waited for
  iintro %_ HI
  unfold inv1
  icases HI with ⟨%sc, -, Hs, HB, -⟩
  sl_exec
  have h512 : 16 * Scf.trips k6_t1_loop.lb k6_t1_loop.ub k6_t1_loop.st = 512 := by decide
  rw [h512]
  -- the second loop drains the batch: every row comes back holding the lookup's value
  simp only [wp_bind]
  ihave Hd := (drain m d L O _) $$ [HB HO]
  · isplitr; · iexact Hmw
    isplitl [HB]; · iexact HB
    iexact HO
  iapply (wp_wand frame _ Set.univ) $$ Hd
  iintro %_ ⟨HD, HsemB, %W', %hW', HO⟩
  sl_step
  isplitl [HD]
  · unfold td; iexact HD
  isplitl [Hs Hbufs]
  · isplitl [Hs]
    · iexists _; iapply (Entails.of_eq (pts_s (F := F) d L _)); iexact Hs
    iexact Hbufs
  isplitl [HsemS HsemB Hsems]
  · isplitl [HsemS]; · iexact HsemS
    isplitl [HsemB]; · iexact HsemB
    iexact Hsems
  iexists W'; isplitr
  · ipureintro; intro p hp
    rcases hW' p hp with h | h
    · rcases Finset.mem_insert.mp h with rfl | h
      · exact .inr rfl
      · exact .inl h
    · exact .inr h
  iexact HO

end Cert.Proof.KB.R6

end
-- ==== Proof.KBTileDefs7.lean ====
/-
  The tile's own names for call 7's body: its thread, its two DMA semaphores' cells, its scoped storage opened to
  the scratch and those two cells, the batch of the 512 row copies (each copy's delivery: its row of the result at
  the lookup's value), and what a copy needs before it is started.
-/
import proofs.«218896_g85959475462175_cont_9to1_m_647_27_alg».proof.Proof.KBRes7

noncomputable section

namespace Cert.Proof.KB.R7

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

abbrev thr : Thread nD τ := V d (cV L) (jV L)
abbrev cS : GSem nD τ sig := (thr d L, .dma cc7_scoped0.sem)
abbrev cB : GSem nD τ sig := (thr d L, .dma cc7_scratch1.sem)

theorem ownSems0_V :
    (ownSems0 (thr d L) : sProp 𝕄)
      = iprop(semVal (cS d L) 0 ∗ semVal (cB d L) 0 ∗ bigSep (((ownCells (thr d L)).erase (cS d L)).erase (cB d L)) fun g => semVal g 0) := by
  unfold SparseCore.Cfg.ownSems0
  rw [SparseCore.bigSep_erase' ((mem_ownCells (g := cS d L)).mpr ⟨rfl, by
      show (SemLoc.dma cc7_scoped0.sem : SemLoc sig).isScoped .scVector = true; decide⟩),
    SparseCore.bigSep_erase' (Finset.mem_erase.mpr ⟨by simp [cS, cB]; decide, (mem_ownCells (g := cB d L)).mpr ⟨rfl, by
      show (SemLoc.dma cc7_scratch1.sem : SemLoc sig).isScoped .scVector = true; decide⟩⟩)]

theorem ownBufs_V :
    (ownBufs (thr d L) : sProp 𝕄)
      = iprop((∃ f, (thr d L).loc scrScv ↦{fullShare} f)
          ∗ bigSep ((ownRefs (τ := τ) (.scVector (cV L) (jV L))).erase ((Proc.scVector (cV L) (jV L)).devRef scrScv))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef scrScv) rfl)

omit m in
theorem pts_i (q : PosShare TreeShare) (f : Buf (Elt F) (iLoc d)) :
    ((iW : Memref sig .scVector .hbm S16384 .i32).view.loc (thr d L) ↦{q} f : sProp 𝕄) = iLoc d ↦{q} f := rfl
omit m in
theorem pts_t (q : PosShare TreeShare) (f : Buf (Elt F) (tLoc d)) :
    ((tW : Memref sig .scVector .hbm TS .f32).view.loc (thr d L) ↦{q} f : sProp 𝕄) = tLoc d ↦{q} f := rfl
omit m in
theorem pts_s (f : Buf (Elt F) ((thr d L).loc scrScv)) :
    ((sW : Memref sig .scVector .vmem S512 .i32).view.loc (thr d L) ↦{fullShare} f : sProp 𝕄) = (thr d L).loc scrScv ↦{fullShare} f := rfl

/-- The counters of the tile's own copies. -/
abbrev EC : UEmb Counters (MT nD τ sig (HIx 8) (Elt F) ℕ UU ℕ) := countersEmb (U := UU)

/-- Row 0 of the result as the waits name it: any row's credit. -/
abbrev row0 : Memref sig .scVector .hbm S64 .f32 :=
  ((oW : Memref sig .scVector .hbm S16384x64 .f32).slice (Rect.unit (s := S16384x64) ![0, 0] S1x64.size inb_S16384x64_S1x64_0_0) (fun _ => rfl)).squeeze S64 squeezes_S1x64_S64
abbrev N : ℕ := (row0).view.dmaCredit

/-- The tile's read token of the table. -/
abbrev tsh : PosShare TreeShare := Transfers.shareTok fullShare 32 (wid L)

/-- Copy `t` of the 512 delivers row `t` of the tile's rows holding the lookup's value. -/
def Dl (t : Fin 512) : sProp 𝕄 := oLoc d ↦[rowSet (tileRow L t)]{fullShare} G m d

instance Dl_storable (t : Fin 512) : BI.Storable (upEmb : UEmb _ 𝕄) (Dl m d L t) := by unfold Dl; infer_instance

/-- What copy `t` needs before it is started: its own read token of the table, and its row of the result. -/
def Rk (t : Fin 512) : sProp 𝕄 :=
  iprop((tLoc d ↦{Transfers.shareTok (tsh L) 512 t} m (tLoc d)) ∗ (oLoc d ↦[rowSet (tileRow L t)]{fullShare} m (oLoc d)))

/-- The scratch holds the tile's 512 index words. -/
def Holds (sc : Buf (Elt F) ((sW : Memref sig .scVector .vmem S512 .i32).view.loc (thr d L))) : Prop :=
  ∀ t : Fin 512, sc (ValueIdx.ix1 t) = m (iLoc d) (ValueIdx.ix1 (tileRow L t))

end Cert.Proof.KB.R7

end
-- ==== Proof.KBView7.lean ====
/-
  Call 7 of the eight: what the tile's memory accesses address and read, as plain facts about index sets and
  contents, with no program logic in them.

  The tile at grid coordinates L owns result rows base L … base L + 511. It copies index words base L … base L + 511
  into its 512-word scratch (scratch_holds: word t of the scratch is then word base L + t of the index array);
  in trip g it loads the sixteen scratch words 16g … 16g + 15 (loaded_word) and takes them apart one at a time
  (word_0 … word_15); for each word w it copies table row w, when w names a row (chk_of_lt_N), onto one result row
  (set_dstRow: the destination is exactly that row's set of indices; write_row: after the copy the row holds table row w,
  column by column). G_row is the lookup's value at one index, and mem_rowSet_fst says that an index of row r's set has
  first coordinate r.
-/
import proofs.«218896_g85959475462175_cont_9to1_m_647_27_alg».proof.Proof.KBRes7

noncomputable section

namespace Cert.Proof.KB.R7

open Cert.Kernel Cert.Kernel.Gen Cert.Proof.KB

open Idealize.ShloMosaic
open Idealize.ShloMosaic.SparseCore (S V T)

variable {F : FTy → Type}

/-! ## A word that names a row passes the copy's side condition -/

theorem chk_of_lt_1 {w : BitVec 32} (h : w.toNat < nRows) : k7_chk1 w := fun a =>
  match a with
  | 0 => show w.toNat + 1 ≤ nRows from h
  | 1 => show 0 + 64 ≤ 64 from Nat.le_refl _
theorem chk_of_lt_2 {w : BitVec 32} (h : w.toNat < nRows) : k7_chk2 w := fun a =>
  match a with
  | 0 => show w.toNat + 1 ≤ nRows from h
  | 1 => show 0 + 64 ≤ 64 from Nat.le_refl _
theorem chk_of_lt_3 {w : BitVec 32} (h : w.toNat < nRows) : k7_chk3 w := fun a =>
  match a with
  | 0 => show w.toNat + 1 ≤ nRows from h
  | 1 => show 0 + 64 ≤ 64 from Nat.le_refl _
theorem chk_of_lt_4 {w : BitVec 32} (h : w.toNat < nRows) : k7_chk4 w := fun a =>
  match a with
  | 0 => show w.toNat + 1 ≤ nRows from h
  | 1 => show 0 + 64 ≤ 64 from Nat.le_refl _
theorem chk_of_lt_5 {w : BitVec 32} (h : w.toNat < nRows) : k7_chk5 w := fun a =>
  match a with
  | 0 => show w.toNat + 1 ≤ nRows from h
  | 1 => show 0 + 64 ≤ 64 from Nat.le_refl _
theorem chk_of_lt_6 {w : BitVec 32} (h : w.toNat < nRows) : k7_chk6 w := fun a =>
  match a with
  | 0 => show w.toNat + 1 ≤ nRows from h
  | 1 => show 0 + 64 ≤ 64 from Nat.le_refl _
theorem chk_of_lt_7 {w : BitVec 32} (h : w.toNat < nRows) : k7_chk7 w := fun a =>
  match a with
  | 0 => show w.toNat + 1 ≤ nRows from h
  | 1 => show 0 + 64 ≤ 64 from Nat.le_refl _
theorem chk_of_lt_8 {w : BitVec 32} (h : w.toNat < nRows) : k7_chk8 w := fun a =>
  match a with
  | 0 => show w.toNat + 1 ≤ nRows from h
  | 1 => show 0 + 64 ≤ 64 from Nat.le_refl _
theorem chk_of_lt_9 {w : BitVec 32} (h : w.toNat < nRows) : k7_chk9 w := fun a =>
  match a with
  | 0 => show w.toNat + 1 ≤ nRows from h
  | 1 => show 0 + 64 ≤ 64 from Nat.le_refl _
theorem chk_of_lt_10 {w : BitVec 32} (h : w.toNat < nRows) : k7_chk10 w := fun a =>
  match a with
  | 0 => show w.toNat + 1 ≤ nRows from h
  | 1 => show 0 + 64 ≤ 64 from Nat.le_refl _
theorem chk_of_lt_11 {w : BitVec 32} (h : w.toNat < nRows) : k7_chk11 w := fun a =>
  match a with
  | 0 => show w.toNat + 1 ≤ nRows from h
  | 1 => show 0 + 64 ≤ 64 from Nat.le_refl _
theorem chk_of_lt_12 {w : BitVec 32} (h : w.toNat < nRows) : k7_chk12 w := fun a =>
  match a with
  | 0 => show w.toNat + 1 ≤ nRows from h
  | 1 => show 0 + 64 ≤ 64 from Nat.le_refl _
theorem chk_of_lt_13 {w : BitVec 32} (h : w.toNat < nRows) : k7_chk13 w := fun a =>
  match a with
  | 0 => show w.toNat + 1 ≤ nRows from h
  | 1 => show 0 + 64 ≤ 64 from Nat.le_refl _
theorem chk_of_lt_14 {w : BitVec 32} (h : w.toNat < nRows) : k7_chk14 w := fun a =>
  match a with
  | 0 => show w.toNat + 1 ≤ nRows from h
  | 1 => show 0 + 64 ≤ 64 from Nat.le_refl _
theorem chk_of_lt_15 {w : BitVec 32} (h : w.toNat < nRows) : k7_chk15 w := fun a =>
  match a with
  | 0 => show w.toNat + 1 ≤ nRows from h
  | 1 => show 0 + 64 ≤ 64 from Nat.le_refl _
theorem chk_of_lt_16 {w : BitVec 32} (h : w.toNat < nRows) : k7_chk16 w := fun a =>
  match a with
  | 0 => show w.toNat + 1 ≤ nRows from h
  | 1 => show 0 + 64 ≤ 64 from Nat.le_refl _

/-! ## The sixteen words of a load, one at a time -/

theorem word_0 (v7 : Vec F S16 .i32) : extractAt ![0] (k7_pay1 v7) inpos_S1_p0 = v7 (ValueIdx.ix1 ⟨0, by decide⟩) := by
  unfold k7_pay1 extractAt extractStridedSlice
  exact congrArg v7 (funext fun a => by obtain rfl : a = 0 := Subsingleton.elim _ _; rfl)
theorem word_1 (v7 : Vec F S16 .i32) : extractAt ![0] (k7_pay2 v7) inpos_S1_p0 = v7 (ValueIdx.ix1 ⟨1, by decide⟩) := by
  unfold k7_pay2 extractAt extractStridedSlice
  exact congrArg v7 (funext fun a => by obtain rfl : a = 0 := Subsingleton.elim _ _; rfl)
theorem word_2 (v7 : Vec F S16 .i32) : extractAt ![0] (k7_pay3 v7) inpos_S1_p0 = v7 (ValueIdx.ix1 ⟨2, by decide⟩) := by
  unfold k7_pay3 extractAt extractStridedSlice
  exact congrArg v7 (funext fun a => by obtain rfl : a = 0 := Subsingleton.elim _ _; rfl)
theorem word_3 (v7 : Vec F S16 .i32) : extractAt ![0] (k7_pay4 v7) inpos_S1_p0 = v7 (ValueIdx.ix1 ⟨3, by decide⟩) := by
  unfold k7_pay4 extractAt extractStridedSlice
  exact congrArg v7 (funext fun a => by obtain rfl : a = 0 := Subsingleton.elim _ _; rfl)
theorem word_4 (v7 : Vec F S16 .i32) : extractAt ![0] (k7_pay5 v7) inpos_S1_p0 = v7 (ValueIdx.ix1 ⟨4, by decide⟩) := by
  unfold k7_pay5 extractAt extractStridedSlice
  exact congrArg v7 (funext fun a => by obtain rfl : a = 0 := Subsingleton.elim _ _; rfl)
theorem word_5 (v7 : Vec F S16 .i32) : extractAt ![0] (k7_pay6 v7) inpos_S1_p0 = v7 (ValueIdx.ix1 ⟨5, by decide⟩) := by
  unfold k7_pay6 extractAt extractStridedSlice
  exact congrArg v7 (funext fun a => by obtain rfl : a = 0 := Subsingleton.elim _ _; rfl)
theorem word_6 (v7 : Vec F S16 .i32) : extractAt ![0] (k7_pay7 v7) inpos_S1_p0 = v7 (ValueIdx.ix1 ⟨6, by decide⟩) := by
  unfold k7_pay7 extractAt extractStridedSlice
  exact congrArg v7 (funext fun a => by obtain rfl : a = 0 := Subsingleton.elim _ _; rfl)
theorem word_7 (v7 : Vec F S16 .i32) : extractAt ![0] (k7_pay8 v7) inpos_S1_p0 = v7 (ValueIdx.ix1 ⟨7, by decide⟩) := by
  unfold k7_pay8 extractAt extractStridedSlice
  exact congrArg v7 (funext fun a => by obtain rfl : a = 0 := Subsingleton.elim _ _; rfl)
theorem word_8 (v7 : Vec F S16 .i32) : extractAt ![0] (k7_pay9 v7) inpos_S1_p0 = v7 (ValueIdx.ix1 ⟨8, by decide⟩) := by
  unfold k7_pay9 extractAt extractStridedSlice
  exact congrArg v7 (funext fun a => by obtain rfl : a = 0 := Subsingleton.elim _ _; rfl)
theorem word_9 (v7 : Vec F S16 .i32) : extractAt ![0] (k7_pay10 v7) inpos_S1_p0 = v7 (ValueIdx.ix1 ⟨9, by decide⟩) := by
  unfold k7_pay10 extractAt extractStridedSlice
  exact congrArg v7 (funext fun a => by obtain rfl : a = 0 := Subsingleton.elim _ _; rfl)
theorem word_10 (v7 : Vec F S16 .i32) : extractAt ![0] (k7_pay11 v7) inpos_S1_p0 = v7 (ValueIdx.ix1 ⟨10, by decide⟩) := by
  unfold k7_pay11 extractAt extractStridedSlice
  exact congrArg v7 (funext fun a => by obtain rfl : a = 0 := Subsingleton.elim _ _; rfl)
theorem word_11 (v7 : Vec F S16 .i32) : extractAt ![0] (k7_pay12 v7) inpos_S1_p0 = v7 (ValueIdx.ix1 ⟨11, by decide⟩) := by
  unfold k7_pay12 extractAt extractStridedSlice
  exact congrArg v7 (funext fun a => by obtain rfl : a = 0 := Subsingleton.elim _ _; rfl)
theorem word_12 (v7 : Vec F S16 .i32) : extractAt ![0] (k7_pay13 v7) inpos_S1_p0 = v7 (ValueIdx.ix1 ⟨12, by decide⟩) := by
  unfold k7_pay13 extractAt extractStridedSlice
  exact congrArg v7 (funext fun a => by obtain rfl : a = 0 := Subsingleton.elim _ _; rfl)
theorem word_13 (v7 : Vec F S16 .i32) : extractAt ![0] (k7_pay14 v7) inpos_S1_p0 = v7 (ValueIdx.ix1 ⟨13, by decide⟩) := by
  unfold k7_pay14 extractAt extractStridedSlice
  exact congrArg v7 (funext fun a => by obtain rfl : a = 0 := Subsingleton.elim _ _; rfl)
theorem word_14 (v7 : Vec F S16 .i32) : extractAt ![0] (k7_pay15 v7) inpos_S1_p0 = v7 (ValueIdx.ix1 ⟨14, by decide⟩) := by
  unfold k7_pay15 extractAt extractStridedSlice
  exact congrArg v7 (funext fun a => by obtain rfl : a = 0 := Subsingleton.elim _ _; rfl)
theorem word_15 (v7 : Vec F S16 .i32) : extractAt ![0] (k7_pay16 v7) inpos_S1_p0 = v7 (ValueIdx.ix1 ⟨15, by decide⟩) := by
  unfold k7_pay16 extractAt extractStridedSlice
  exact congrArg v7 (funext fun a => by obtain rfl : a = 0 := Subsingleton.elim _ _; rfl)

/-! ## The lookup's value at an index; the indices of a row -/

variable (m : (ℓ : Loc nD τ sig) → Buf (Elt F) ℓ)

theorem G_row (d : Dev nD) (r : Fin 16384) (k : Fin 64) :
    G m d (ValueIdx.ix2 r k) = m (tLoc d) (ValueIdx.ix2 (Spec.rowOf nRows nRows_pos (m (iLoc d) (ValueIdx.ix1 r))) k) := by
  unfold G
  exact Spec.gatherRows_apply nRows nRows_pos (m (tLoc d)) (m (iLoc d)) r k

theorem mem_rowSet_fst {r : Fin 16384} {i : S16384x64.Idx} (h : i ∈ rowSet r) : i 0 = r := by
  have h' : i ∈ (row r).set := by rw [← View.set_slice_whole outScv (row r)]; exact h
  rw [Rect.mem_set_unit] at h'
  have h0 := h' 0
  apply Fin.ext
  simp only [Shape.partIx, Shape.partSize] at h0
  have e : S16384x64.size 0 / 16384 = 1 := by decide
  simp only [↓reduceIte, e] at h0
  omega

/-! ## The destination of one row's copy -/

/-- The one-row rectangle at row r is the r-th of the 16384 parts of the result along its first axis. -/
theorem unitRow_eq (r : Fin 16384) (inb : ∀ a, (![r.val, 0] : Fin 2 → Nat) a + S1x64.size a ≤ S16384x64.size a) :
    Rect.unit (s := S16384x64) ![r.val, 0] S1x64.size inb = row r := by
  unfold row Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem set_dstRow (off : Fin 2 → Nat) (inb : ∀ a, off a + S1x64.size a ≤ S16384x64.size a) (r : Fin 16384)
    (hoff : off = ![r.val, 0]) :
    (((oW : Memref sig .scVector .hbm S16384x64 .f32).slice (Rect.unit (s := S16384x64) off S1x64.size inb) (fun _ => rfl)).squeeze S64
        squeezes_S1x64_S64).view.set = rowSet r := by
  subst hoff
  show (((oW : Memref sig .scVector .hbm S16384x64 .f32).view.slice (Rect.unit (s := S16384x64) ![r.val, 0] S1x64.size inb)).reshape S64
      squeezes_S1x64_S64.numel_eq).set = ((oW : Memref sig .scVector .hbm S16384x64 .f32).view.slice (row r)).set
  rw [View.set_reshape]
  exact unitRow_eq r inb ▸ rfl

/-! ## What the scratch holds after the first copy, and what a trip loads from it -/

theorem trips1 : k7_t1_loop.trips = 32 := by decide

theorem word_lt (g : Fin k7_t1_loop.trips) (j : Fin 16) : 16 * g.val + j.val < 512 := by
  have hg : g.val < 32 := Nat.lt_of_lt_of_eq g.isLt trips1
  have hj := j.isLt
  omega

/-- Word j of the sixteen that trip g loads is word 16g + j of the scratch. -/
theorem loaded_word (d : Dev nD) (L : grid0.Coords) (g : Fin k7_t1_loop.trips)
    (s : Buf (Elt F) ((sW : Memref sig .scVector .vmem S512 .i32).view.loc (V d (cV L) (jV L)))) (j : Fin 16) :
    ((sW : Memref sig .scVector .vmem S512 .i32).view.readAt (Elt F)
        (Rect.unit (s := S512) (k7_off2 g) S16.size (k7_off2_inb g)).toLoadRect s) (ValueIdx.ix1 j)
      = s (ValueIdx.ix1 ⟨16 * g.val + j.val, word_lt g j⟩) := by
  rw [View.readAt_apply]
  show s ((Rect.unit (s := S512) (k7_off2 g) S16.size (k7_off2_inb g)).toLoadRect.idx (ValueIdx.ix1 j)) = _
  refine congrArg s (funext fun (a : Fin 1) => Fin.ext ?_)
  obtain rfl : a = 0 := Subsingleton.elim _ _
  rw [LoadRect.idx_apply]
  show (k7_off2 g) 0 + 1 * j.val = 16 * g.val + j.val
  rw [k7_off2_eq]
  simp

/-- Once the first copy has landed, word t of the scratch is word base L + t of the index array. -/
theorem scratch_holds (d : Dev nD) (L : grid0.Coords)
    (fs : Buf (Elt F) ((sW : Memref sig .scVector .vmem S512 .i32).view.loc (V d (cV L) (jV L))))
    (mI : Buf (Elt F) (iLoc d)) (t : Fin 512) :
    ((sW : Memref sig .scVector .vmem S512 .i32).view.write (Elt F) fs
        ((ReadAs.same : ReadAs (Elt F) S512 .i32 S512 .i32).apply
          (((iW : Memref sig .scVector .hbm S16384 .i32).slice (Rect.unit (s := S16384) (k7_off1 L) S512.size (k7_off1_inb L))
              (fun _ => rfl)).view.read (Elt F) mI)) Finset.univ) (ValueIdx.ix1 t)
      = mI (ValueIdx.ix1 (⟨base L + t.val, base_add_lt L t⟩ : Fin 16384)) := by
  show ((View.whole scrScv).write (Elt F) fs
      (((iW : Memref sig .scVector .hbm S16384 .i32).view.slice (Rect.unit (s := S16384) (k7_off1 L) S512.size (k7_off1_inb L))).read (Elt F) mI)
      Finset.univ) (ValueIdx.ix1 t) = _
  rw [View.write_whole_univ, View.read_apply]
  refine (cast_eq _ _).trans ?_
  refine congrArg mI (funext fun (a : Fin 1) => Fin.ext ?_)
  obtain rfl : a = 0 := Subsingleton.elim _ _
  show (k7_off1 L) 0 + 1 * t.val = base L + t.val
  rw [k7_off1_eq]
  unfold base
  simp

/-! ## What one row's copy leaves -/

/-- A word that passes the copy's side condition names a row. -/
theorem lt_of_inb {w : BitVec 32} (hw : ∀ a, (k7_off4 w) a + S1x64.size a ≤ TS.size a) : w.toNat < nRows :=
  show w.toNat + 1 ≤ nRows from hw 0

/-- Column c of the destination row's own indices sits at (r, c) of the result. -/
theorem dst_emb (r : Fin 16384) (inb : ∀ a, (![r.val, 0] : Fin 2 → Nat) a + S1x64.size a ≤ S16384x64.size a) (x : S64.Idx) :
    (((oW : Memref sig .scVector .hbm S16384x64 .f32).slice (Rect.unit (s := S16384x64) ![r.val, 0] S1x64.size inb) (fun _ => rfl)).squeeze S64
        squeezes_S1x64_S64).view.emb x = ValueIdx.ix2 r (x 0) := by
  show (Rect.unit (s := S16384x64) ![r.val, 0] S1x64.size inb).emb (Shape.reshapeEquiv squeezes_S1x64_S64.numel_eq x) = _
  rw [Shape.reshapeEquiv_cons_one]
  funext a
  apply Fin.ext
  match a with
  | 0 => show r.val + 1 * 0 = r.val; omega
  | 1 => show 0 + 1 * (x 0).val = (x 0).val; omega

/-- Column c of the source row's own indices sits at (w, c) of the table. -/
theorem src_emb (w : BitVec 32) (hw : ∀ a, (k7_off4 w) a + S1x64.size a ≤ TS.size a) (x : S64.Idx) :
    (((tW : Memref sig .scVector .hbm TS .f32).slice (Rect.unit (s := TS) (k7_off4 w) S1x64.size hw) (fun _ => rfl)).squeeze S64
        squeezes_S1x64_S64).view.emb x = ValueIdx.ix2 (⟨w.toNat, lt_of_inb hw⟩ : Fin nRows) (x 0) := by
  show (Rect.unit (s := TS) (k7_off4 w) S1x64.size hw).emb (Shape.reshapeEquiv squeezes_S1x64_S64.numel_eq x) = _
  rw [Shape.reshapeEquiv_cons_one]
  funext a
  apply Fin.ext
  match a with
  | 0 => show w.toNat + 1 * 0 = w.toNat; omega
  | 1 => show 0 + 1 * (x 0).val = (x 0).val; omega

/-- After table row w has been copied onto result row r, every index of row r holds the table's entry at row w and the
    index's own column. -/
theorem write_row (d : Dev nD) (L : grid0.Coords) (off : Fin 2 → Nat) (inb : ∀ a, off a + S1x64.size a ≤ S16384x64.size a)
    (r : Fin 16384) (hoff : off = ![r.val, 0]) (w : BitVec 32) (hw : ∀ a, (k7_off4 w) a + S1x64.size a ≤ TS.size a)
    (fT : Buf (Elt F) (tLoc d)) (fO : Buf (Elt F) (oLoc d)) (i : S16384x64.Idx) (hi : i ∈ rowSet r) :
      ((((oW : Memref sig .scVector .hbm S16384x64 .f32).slice (Rect.unit (s := S16384x64) off S1x64.size inb) (fun _ => rfl)).squeeze S64
          squeezes_S1x64_S64).view.write (Elt F) fO
        ((ReadAs.same : ReadAs (Elt F) S64 .f32 S64 .f32).apply
          ((((tW : Memref sig .scVector .hbm TS .f32).slice (Rect.unit (s := TS) (k7_off4 w) S1x64.size hw) (fun _ => rfl)).squeeze S64
            squeezes_S1x64_S64).view.read (Elt F) fT)) Finset.univ) i
        = fT (ValueIdx.ix2 (⟨w.toNat, lt_of_inb hw⟩ : Fin nRows) (i 1)) := by
  subst hoff
  rw [← set_dstRow ![r.val, 0] inb r rfl] at hi
  obtain ⟨x, -, rfl⟩ := Finset.mem_map.mp hi
  rw [View.write_emb_of_mem _ _ (Finset.mem_univ x)]
  refine (cast_eq _ _).trans ?_
  show (((tW : Memref sig .scVector .hbm TS .f32).slice (Rect.unit (s := TS) (k7_off4 w) S1x64.size hw) (fun _ => rfl)).squeeze S64
      squeezes_S1x64_S64).view.read (Elt F) fT x = _
  rw [View.read_apply]
  refine (cast_eq _ _).trans ?_
  rw [src_emb w hw x, dst_emb r inb x]
  rfl

end Cert.Proof.KB.R7

end
-- ==== Proof.KBIssue7.lean ====
/-
  One of the tile's 512 row copies, started as the batch's next transfer. The copy reads the table row that the
  tile's `t`-th index word names and writes the tile's `t`-th row of the result; once it has landed, that row holds
  the lookup's value there: entry `(r, k)` of the result is entry `(idx r, k)` of the table.
-/
import proofs.«218896_g85959475462175_cont_9to1_m_647_27_alg».proof.Proof.KBTileDefs7
import proofs.«218896_g85959475462175_cont_9to1_m_647_27_alg».proof.Proof.KBView7

noncomputable section

namespace Cert.Proof.KB.R7

open Cert.Kernel Cert.Kernel.Gen Cert.Proof.KB

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 8) (Elt F) ℕ UU ℕ

variable (m : (ℓ : Loc nD τ sig) → Buf (Elt F) ℓ) (d : Dev nD) (L : grid0.Coords)

/-- A row of the result and a row of the table, as the body slices them. -/
abbrev dstRow (off : Fin 2 → Nat) (inb : ∀ a, off a + S1x64.size a ≤ S16384x64.size a) : Memref sig .scVector .hbm S64 .f32 :=
  ((oW : Memref sig .scVector .hbm S16384x64 .f32).slice (Rect.unit (s := S16384x64) off S1x64.size inb) (fun _ => rfl)).squeeze S64 squeezes_S1x64_S64
abbrev srcRow (w : BitVec 32) (hw : ∀ a, (k7_off4 w) a + S1x64.size a ≤ TS.size a) : Memref sig .scVector .hbm S64 .f32 :=
  ((tW : Memref sig .scVector .hbm TS .f32).slice (Rect.unit (s := TS) (k7_off4 w) S1x64.size hw) (fun _ => rfl)).squeeze S64 squeezes_S1x64_S64

variable [FloatOps F]

/-- What the landed copy leaves in its row is the lookup's value there. -/
theorem landed_eq (t : Fin 512) (off : Fin 2 → Nat) (inb : ∀ a, off a + S1x64.size a ≤ S16384x64.size a)
    (hoff : off = ![(tileRow L t).val, 0]) (w : BitVec 32) (hw : ∀ a, (k7_off4 w) a + S1x64.size a ≤ TS.size a)
    (hwv : w = m (iLoc d) (ValueIdx.ix1 (tileRow L t))) (hlt : w.toNat < nRows)
    (i : S16384x64.Idx) (hi : i ∈ rowSet (tileRow L t)) :
    ((dstRow off inb).view.write (Elt F) (m (oLoc d)) ((ReadAs.same : ReadAs (Elt F) S64 .f32 S64 .f32).apply ((srcRow w hw).view.read (Elt F) (m (tLoc d)))) Finset.univ) i
      = G m d i := by
  rw [write_row d L off inb (tileRow L t) hoff w hw (m (tLoc d)) (m (oLoc d)) i hi]
  obtain ⟨r, k, rfl⟩ : ∃ (r : Fin 16384) (k : Fin 64), i = ValueIdx.ix2 r k := ⟨i 0, i 1, ValueIdx.eq_ix2 i⟩
  have hr : r = tileRow L t := mem_rowSet_fst hi
  subst hr
  show m (tLoc d) (ValueIdx.ix2 _ k) = _
  rw [G_row]
  congr 2
  apply Fin.ext
  show w.toNat = (Spec.rowOf nRows nRows_pos (m (iLoc d) (ValueIdx.ix1 (tileRow L t)))).val
  rw [← hwv, Spec.rowOf_val_of_lt nRows_pos hlt]

/-- The batch's transfer `t`, started: from the copy's own token of the table and its row of the result. -/
theorem wp_issue (t : Fin 512) (off : Fin 2 → Nat) (inb : ∀ a, off a + S1x64.size a ≤ S16384x64.size a)
    (hoff : off = ![(tileRow L t).val, 0]) (w : BitVec 32) (hw : ∀ a, (k7_off4 w) a + S1x64.size a ≤ TS.size a)
    (hwv : w = m (iLoc d) (ValueIdx.ix1 (tileRow L t))) (hlt : w.toNat < nRows)
    {α : Type} {k : PUnit → Prog (TpuEff nD τ sig (Elt F) Λ₀ (thr d L).2) α} {Q : α → sProp 𝕄}
    {hs : (srcRow w hw).view.WordExact} {hd : (dstRow off inb).view.WordExact}
    {hsem : DmaTarget.Typed (nD := nD) Space.hbm (SemLoc.dma cc7_scratch1.sem) (DmaTarget.here (p := (thr d L).2) (dstRow off inb))} :
    iprop(Rk m d L t ∗ Transfers.Batch (EC (F := F)) (thr d L) (.dma cc7_scratch1.sem) (none : HIx 8) N (Dl m d L) t.val 0)
      ⊢ iprop((Transfers.Batch (EC (F := F)) (thr d L) (.dma cc7_scratch1.sem) (none : HIx 8) N (Dl m d L) (t.val + 1) 0
            -∗ wp frame (wpE (defs₀ (F := F)) 𝒱₀ (thr d L) none) Set.univ (k ⟨⟩) Q)
          -∗ wp frame (wpE (defs₀ (F := F)) 𝒱₀ (thr d L) none) Set.univ
              (.op (TpuEff.enqueueDma (srcRow w hw) (DmaTarget.here (p := (thr d L).2) (dstRow off inb)) (.dma cc7_scratch1.sem) hs hd hsem) k) Q) := by
  unfold Rk
  iintro ⟨⟨Htok, Hrow⟩, HB⟩ Hk
  ihave Htok' := ((pointsTo_split_subset (ℓ := tLoc d) (I := (srcRow w hw).view.set) (S := Finset.univ) (Finset.subset_univ _)).1) $$ Htok
  icases Htok' with ⟨Hsrc, -⟩
  iapply (Transfers.wp_dmaBatch (EC (F := F)) 𝒱₀ (thr d L) none (src := srcRow w hw) (dst := dstRow off inb)
      (q := Transfers.shareTok (tsh L) 512 t) (fs := m (tLoc d)) (Sd := rowSet (tileRow L t)) (fd := m (oLoc d)) (D := Dl m d L) (j := t.val) (u := 0)
      (none : HIx 8) N rfl (set_dstRow off inb (tileRow L t) hoff).le t.isLt (Nat.zero_le _) ?hD) $$ [Hsrc Hrow HB]
  case hD =>
    iintro ⟨H, -⟩
    unfold Dl
    iapply (Entails.of_eq (pointsTo_congr (fun i hi => landed_eq m d L t off inb hoff w hw hwv hlt i hi)))
    iexact H
  · isplitl [Hsrc]; · iexact Hsrc
    isplitl [Hrow]; · iexact Hrow
    iexact HB
  iexact Hk

end Cert.Proof.KB.R7

end
-- ==== Proof.KBDrain7.lean ====
/-
  The tile's second loop: 512 waits on the one semaphore that the 512 row copies complete on. Each wait takes one
  copy's units off the counter; copies land in any order, so a wait that is not the last proves nothing about any
  row, and only the last — when all 512 copies' units have been taken — hands back every row holding its value and
  the counter at zero. The invariant before wait k says exactly that: k copies' units consumed and the batch still
  open, or (after the last) every delivery in hand.
-/
import proofs.«218896_g85959475462175_cont_9to1_m_647_27_alg».proof.Proof.KBTileDefs7

noncomputable section

namespace Cert.Proof.KB.R7

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- The loop makes 512 trips. -/
theorem trips2 : Scf.trips k7_t2_loop.lb k7_t2_loop.ub k7_t2_loop.st = 512 := by decide

/-- A row's credit is positive. -/
theorem N_pos : 0 < N := View.dmaCredit_pos _ (by decide)

/-- Before wait `k` of the 512: the batch with `k` transfers' units consumed; after the last, every delivery. -/
def inv2 (O : CellTallies nD τ sig (HIx 8)) (W : Waits sig (HIx 8)) (k : ℕ) (_ : Unit) : sProp 𝕄 :=
  iprop(Transfers.MayWaits (thr d L) (none : HIx 8) O
    ∗ ((⌜k < 512⌝ ∗ Transfers.Batch (EC (F := F)) (thr d L) (.dma cc7_scratch1.sem) (none : HIx 8) N (Dl m d L) 512 (k * N)
          ∗ ∃ W', ⌜∀ p ∈ W', p ∈ W ∨ p.2 = none⌝ ∗ owes (thr d L) O W')
      ∨ (⌜k = 512⌝ ∗ bigSep Finset.univ (Dl m d L) ∗ semVal (cB d L) 0 ∗ ∃ W', ⌜∀ p ∈ W', p ∈ W ∨ p.2 = none⌝ ∗ owes (thr d L) O W')))

variable [FloatOps F]

/-- The 512 waits: from the batch with every copy started and nothing consumed, to every row delivered and the counter at
    zero; each wait is recorded at the index of the tile's own copies. -/
theorem drain (O : CellTallies nD τ sig (HIx 8)) (W : Waits sig (HIx 8)) :
    iprop(Transfers.MayWaits (thr d L) (none : HIx 8) O
        ∗ Transfers.Batch (EC (F := F)) (thr d L) (.dma cc7_scratch1.sem) (none : HIx 8) N (Dl m d L) 512 0
        ∗ owes (thr d L) O W)
      ⊢ wp frame (wpE (defs₀ (F := F)) 𝒱₀ (thr d L) none) Set.univ
          (Scf.Loop.for k7_t2_loop k7_t2_ok ⟨⟩ (k7_t2_body L tW (Memref.isWhole_whole _) iW (Memref.isWhole_whole _) oW (Memref.isWhole_whole _) sW (Memref.isWhole_whole _) cc7_scratch1 cc7_scoped0))
          (fun _ => iprop(bigSep Finset.univ (Dl m d L) ∗ semVal (cB d L) 0 ∗ ∃ W', ⌜∀ p ∈ W', p ∈ W ∨ p.2 = none⌝ ∗ owes (thr d L) O W')) := by
  iintro ⟨#Hmw, HB, HO⟩
  sl_for (inv2 m d L O W) $$ [HB HO]
  case region =>
    intro k acc
    have hk : k.val < 512 := Nat.lt_of_lt_of_eq k.isLt trips2
    have e : (k.val + 1) * N = k.val * N + N := by rw [Nat.add_mul, Nat.one_mul]
    unfold inv2
    iintro ⟨#Hmw, H⟩
    sl_exec
    icases H with (⟨-, HB, %W', %hW', HO⟩ | ⟨%hk', -⟩)
    rotate_left
    · exfalso; omega
    ihave Hmw1 := (Transfers.MayWaits.elim (SemLoc.dma cc7_scratch1.sem)) $$ Hmw
    have hW'' : ∀ p ∈ insert (SemLoc.dma cc7_scratch1.sem, (none : HIx 8)) W', p ∈ W ∨ p.2 = none := by
      intro p hp
      rcases Finset.mem_insert.mp hp with hp | hp
      · exact .inr (hp ▸ rfl)
      · exact hW' p hp
    by_cases hlast : k.val + 1 < 512
    · have hu : k.val * N + N < N * 512 := by
        have h1 : (k.val + 1) * N < 512 * N := Nat.mul_lt_mul_of_pos_right hlast N_pos
        rw [e] at h1; rw [Nat.mul_comm N 512]; exact h1
      iapply (Transfers.wp_waitBatchO (EC (F := F)) 𝒱₀ (thr d L) none (none : HIx 8) (N := N) rfl hu) $$ [HB HO Hmw1]
      · isplitl [HB]; · iexact HB
        isplitl [HO]; · iexact HO
        iexact Hmw1
      iintro ⟨HB, HO⟩
      sl_step
      isplitr; · iexact Hmw
      ileft
      isplitr; · ipureintro; exact hlast
      rw [e]
      isplitl [HB]; · iexact HB
      iexists _; isplitr
      · ipureintro; exact hW''
      · iexact HO
    · have hu : k.val * N + N = N * 512 := by
        have h1 : k.val = 511 := by omega
        rw [h1]; omega
      iapply (Transfers.wp_waitBatchLastO (EC (F := F)) 𝒱₀ (thr d L) none (none : HIx 8) (N := N) rfl N_pos hu) $$ [HB HO Hmw1]
      · isplitl [HB]; · iexact HB
        isplitl [HO]; · iexact HO
        iexact Hmw1
      iintro ⟨HD, Hv, HO⟩
      sl_step
      isplitr; · iexact Hmw
      iright
      isplitr; · ipureintro; omega
      isplitl [HD]; · iexact HD
      isplitl [Hv]; · iexact Hv
      iexists _; isplitr
      · ipureintro; exact hW''
      · iexact HO
  rw [trips2]
  isplitl [HB HO]
  · unfold inv2
    isplitr; · iexact Hmw
    ileft
    isplitr; · ipureintro; omega
    rw [Nat.zero_mul]
    isplitl [HB]; · iexact HB
    iexists W; isplitr
    · ipureintro; exact fun p hp => .inl hp
    · iexact HO
  · iintro %acc HI
    unfold inv2
    icases HI with ⟨-, (⟨%h, -⟩ | ⟨-, HD, Hv, HW⟩)⟩
    · exfalso; omega
    isplitl [HD]; · iexact HD
    isplitl [Hv]; · iexact Hv
    iexact HW

end Cert.Proof.KB.R7

end
-- ==== Proof.KBTile7.lean ====
/-
  The tile's obligation at call 7: the index words fetched into the scratch, the 512 row copies started sixteen to a
  trip on one semaphore as ONE batch (no copy's source or destination is touched between the first start and the
  last wait), the batch drained by 512 waits, and the rows handed back holding the lookup's value.
-/
import proofs.«218896_g85959475462175_cont_9to1_m_647_27_alg».proof.Proof.KBTileDefs7
import proofs.«218896_g85959475462175_cont_9to1_m_647_27_alg».proof.Proof.KBView7
import proofs.«218896_g85959475462175_cont_9to1_m_647_27_alg».proof.Proof.KBIssue7
import proofs.«218896_g85959475462175_cont_9to1_m_647_27_alg».proof.Proof.KBDrain7

noncomputable section

namespace Cert.Proof.KB.R7

open Cert.Kernel Cert.Kernel.Gen Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 8) (Elt F) ℕ UU ℕ

variable (m : (ℓ : Loc nD τ sig) → Buf (Elt F) ℓ) (d : Dev nD) (L : grid0.Coords)

/-- Before trip `k` of the first loop: the scratch at the landed index words, the first `16 k` copies started and none
    waited for, the later copies' tokens and rows still in hand. -/
def inv1 (k : Nat) (_ : PUnit) : sProp 𝕄 :=
  iprop(∃ sc, ⌜Holds m d L sc⌝ ∗ ((sW : Memref sig .scVector .vmem S512 .i32).view.loc (thr d L) ↦{fullShare} sc)
    ∗ Transfers.Batch (EC (F := F)) (thr d L) (.dma cc7_scratch1.sem) (none : HIx 8) N (Dl m d L) (16 * k) 0
    ∗ bigSep (Transfers.pending (n := 512) (16 * k)) (Rk m d L))

/-- The sixteen words a trip loads. -/
abbrev loaded (k : Fin k7_t1_loop.trips) (sc : Buf (Elt F) ((sW : Memref sig .scVector .vmem S512 .i32).view.loc (thr d L))) : Vec F S16 .i32 :=
  (sW : Memref sig .scVector .vmem S512 .i32).view.readAt (Elt F) (Rect.unit (s := S512) (k7_off2 k) S16.size (k7_off2_inb k)).toLoadRect sc

theorem off_eq {x y : Nat} (h : x = y) : (![x, 0] : Fin 2 → Nat) = ![y, 0] := by rw [h]

variable [FloatOps F]

/- Copy `j` of a trip: its index word names a row of the table (the check passes), and the copy is the batch's
   transfer `16 k + j`, started from that transfer's token and row. -/
set_option hygiene false in
local macro "issue_copy " j:num " with " chk:ident ", " wj:ident ", " offeq:ident : tactic => `(tactic| (
  iapply (wp_assume 𝒱₀ (thr d L) none Set.univ ($chk:ident ((congrArg BitVec.toNat ($wj:ident (loaded d L k sc))).trans_lt (hwlt ⟨$j, by decide⟩))))
  sl_exec
  ihave Hp := (Entails.of_eq (Transfers.bigSep_pending_step (Rk m d L) (16 * k.val + $j) (hidx ⟨$j, by decide⟩))) $$ Hpend
  icases Hp with ⟨HR, Hpend⟩
  iapply (wp_issue m d L ⟨16 * k.val + $j, hidx ⟨$j, by decide⟩⟩ _ _
      (($offeq:ident L k).trans (off_eq (by show _ = base L + (16 * k.val + $j); unfold base; omega))) _ _
      (($wj:ident (loaded d L k sc)).trans (hwv ⟨$j, by decide⟩)) ((congrArg BitVec.toNat ($wj:ident (loaded d L k sc))).trans_lt (hwlt ⟨$j, by decide⟩))) $$ [HR HB]
  · isplitl [HR]
    · iexact HR
    iexact HB
  iintro HB
  sl_exec))

theorem tile_body (hF : (K (F := F)).Facts) (hpre : ∀ d, Spec.InRange nRows (m (iLoc d))) : TileBody m := by
  intro d L O W hO
  simp only [cc7__gather_body_eq_skeleton]; unfold cc7__gather_body_skel
  rw [(K (F := F)).scopedBufs_V hF d (cV L) (jV L), SparseCore.Cfg.scopedSems0_V (Val := Elt F) d (cV L) (jV L), ownSems0_V, ownBufs_V]
  unfold go
  iintro ⟨#Hlv, -, ⟨Ht, Hi, Hrows⟩, ⟨⟨%fs, Hs⟩, Hbufs⟩, ⟨HsemS, HsemB, Hsems⟩, HO⟩
  ihave Hmw := ((K (F := F)).mayWaits_none (thr := thr d L) hO) $$ Hlv
  ihave Hi' := (Entails.of_eq (pts_i (F := F) d L _ _).symm) $$ Hi
  ihave Hs' := (Entails.of_eq (pts_s (F := F) d L _).symm) $$ Hs
  -- the index words fetched into the scratch, and the fetch waited for
  sl_exec
  -- the 512 copies' batch on the shared semaphore, allocated before the first is started
  imod (Transfers.batch_alloc' (Lvl := ℕ) (EC (F := F)) (thr d L) (none : HIx 8) N (Dl m d L) (sm := .dma cc7_scratch1.sem) (E := Set.univ)) $$ HsemB with HB
  -- the table's token dealt into one per copy
  ihave Ht' := (Transfers.pointsTo_toks_split (tsh L) 512) $$ Ht
  icases Ht' with ⟨-, Htoks⟩
  sl_for (inv1 m d L) $$ [Hs' HB Htoks Hrows]
  case region =>
    intro k hk
    unfold inv1
    iintro ⟨%sc, %hsc, Hs, HB, Hpend⟩
    have hk32 : k.val < 32 := lt_of_lt_of_eq k.isLt trips1
    have hidx : ∀ j : Fin 16, 16 * k.val + j.val < 512 := fun j => by have := j.isLt; omega
    -- the sixteen words the trip loads are the tile's index words 16 k … 16 k + 15; each names a row of the table
    have hwv : ∀ j : Fin 16, loaded d L k sc (ValueIdx.ix1 j) = m (iLoc d) (ValueIdx.ix1 (tileRow L ⟨16 * k.val + j.val, hidx j⟩)) :=
      fun j => (loaded_word d L k sc j).trans (hsc _)
    have hwlt : ∀ j : Fin 16, (loaded d L k sc (ValueIdx.ix1 j)).toNat < nRows := fun j => by rw [hwv j]; exact (hpre d).toNat_lt _
    sl_exec
    issue_copy 0 with chk_of_lt_1, word_0, k7_off3_eq
    issue_copy 1 with chk_of_lt_2, word_1, k7_off5_eq
    issue_copy 2 with chk_of_lt_3, word_2, k7_off7_eq
    issue_copy 3 with chk_of_lt_4, word_3, k7_off9_eq
    issue_copy 4 with chk_of_lt_5, word_4, k7_off11_eq
    issue_copy 5 with chk_of_lt_6, word_5, k7_off13_eq
    issue_copy 6 with chk_of_lt_7, word_6, k7_off15_eq
    issue_copy 7 with chk_of_lt_8, word_7, k7_off17_eq
    issue_copy 8 with chk_of_lt_9, word_8, k7_off19_eq
    issue_copy 9 with chk_of_lt_10, word_9, k7_off21_eq
    issue_copy 10 with chk_of_lt_11, word_10, k7_off23_eq
    issue_copy 11 with chk_of_lt_12, word_11, k7_off25_eq
    issue_copy 12 with chk_of_lt_13, word_12, k7_off27_eq
    issue_copy 13 with chk_of_lt_14, word_13, k7_off29_eq
    issue_copy 14 with chk_of_lt_15, word_14, k7_off31_eq
    issue_copy 15 with chk_of_lt_16, word_15, k7_off33_eq
    -- the trip's return: the invariant at `k + 1`
    rw [show 16 * (k.val + 1) = 16 * k.val + 15 + 1 by omega]
    sl_step
    iexists sc
    isplitr; · ipureintro; exact hsc
    isplitl [Hs]; · iexact Hs
    isplitl [HB]; · iexact HB
    iexact Hpend
  · -- the loop's entry: nothing started, every copy's token and row in hand
    unfold inv1
    iexists _
    isplitr; · ipureintro; exact fun t => scratch_holds d L fs (m (iLoc d)) t
    isplitl [Hs']; · iexact Hs'
    isplitl [HB]; · iexact HB
    rw [show 16 * 0 = 0 from rfl, ← Transfers.bigSep_pending_zero]
    unfold Rk
    rw [bigSep_sep']
    isplitl [Htoks]; · iexact Htoks
    iexact Hrows
  -- after the first loop: all 512 started, none waited for
  iintro %_ HI
  unfold inv1
  icases HI with ⟨%sc, -, Hs, HB, -⟩
  sl_exec
  have h512 : 16 * Scf.trips k7_t1_loop.lb k7_t1_loop.ub k7_t1_loop.st = 512 := by decide
  rw [h512]
  -- the second loop drains the batch: every row comes back holding the lookup's value
  simp only [wp_bind]
  ihave Hd := (drain m d L O _) $$ [HB HO]
  · isplitr; · iexact Hmw
    isplitl [HB]; · iexact HB
    iexact HO
  iapply (wp_wand frame _ Set.univ) $$ Hd
  iintro %_ ⟨HD, HsemB, %W', %hW', HO⟩
  sl_step
  isplitl [HD]
  · unfold td; iexact HD
  isplitl [Hs Hbufs]
  · isplitl [Hs]
    · iexists _; iapply (Entails.of_eq (pts_s (F := F) d L _)); iexact Hs
    iexact Hbufs
  isplitl [HsemS HsemB Hsems]
  · isplitl [HsemS]; · iexact HsemS
    isplitl [HsemB]; · iexact HsemB
    iexact Hsems
  iexists W'; isplitr
  · ipureintro; intro p hp
    rcases hW' p hp with h | h
    · rcases Finset.mem_insert.mp h with rfl | h
      · exact .inr rfl
      · exact .inl h
    · exact .inr h
  iexact HO

end Cert.Proof.KB.R7

end
-- ==== Proof.AsmKernel.lean ====
/-
  The two kernel frames and the equality with the reference, assembled. Each of the kernel's eight calls hands every
  one of the thirty-two tiles 512 rows of the result, and a tile leaves in its rows the table's rows that its 512 index
  words name; under the precondition every index word names a row, so each tile's obligation holds and the launch ends
  with each result array the lookup of its table at its index array, the sixteen arguments as they were. Dropping the
  results gives each kernel program's frame. The reference, from arguments equal to the kernel's, ends with the same
  lookups of the same arrays: the two runs' results are equal, element by element.
-/
import proofs.«218896_g85959475462175_cont_9to1_m_647_27_alg».proof.Proof.AsmRef
import proofs.«218896_g85959475462175_cont_9to1_m_647_27_alg».proof.Proof.KILaunch
import proofs.«218896_g85959475462175_cont_9to1_m_647_27_alg».proof.Proof.KITile0
import proofs.«218896_g85959475462175_cont_9to1_m_647_27_alg».proof.Proof.KITile1
import proofs.«218896_g85959475462175_cont_9to1_m_647_27_alg».proof.Proof.KITile2
import proofs.«218896_g85959475462175_cont_9to1_m_647_27_alg».proof.Proof.KITile3
import proofs.«218896_g85959475462175_cont_9to1_m_647_27_alg».proof.Proof.KITile4
import proofs.«218896_g85959475462175_cont_9to1_m_647_27_alg».proof.Proof.KITile5
import proofs.«218896_g85959475462175_cont_9to1_m_647_27_alg».proof.Proof.KITile6
import proofs.«218896_g85959475462175_cont_9to1_m_647_27_alg».proof.Proof.KITile7
import proofs.«218896_g85959475462175_cont_9to1_m_647_27_alg».proof.Proof.KBLaunch
import proofs.«218896_g85959475462175_cont_9to1_m_647_27_alg».proof.Proof.KBTile0
import proofs.«218896_g85959475462175_cont_9to1_m_647_27_alg».proof.Proof.KBTile1
import proofs.«218896_g85959475462175_cont_9to1_m_647_27_alg».proof.Proof.KBTile2
import proofs.«218896_g85959475462175_cont_9to1_m_647_27_alg».proof.Proof.KBTile3
import proofs.«218896_g85959475462175_cont_9to1_m_647_27_alg».proof.Proof.KBTile4
import proofs.«218896_g85959475462175_cont_9to1_m_647_27_alg».proof.Proof.KBTile5
import proofs.«218896_g85959475462175_cont_9to1_m_647_27_alg».proof.Proof.KBTile6
import proofs.«218896_g85959475462175_cont_9to1_m_647_27_alg».proof.Proof.KBTile7

noncomputable section

namespace Cert.Proof.Asm

open Idealize.ShloMosaic Idealize.ShloMosaic.TcCoe Idealize.SL.Sem Cert.Proof.Spec

/-- The kernel as printed runs and leaves its sixteen arguments as they were: the argument conjuncts of its launch,
    each tile's obligation discharged by the index range the precondition gives its call. -/
theorem frame_p : Cert.frame_Kernel (hKernel := Cert.Kernel.Gen.facts) (hPre_input_domain := Cert.Pre_input_domain.Gen.facts) :=
  fun m ρ hpre =>
    (θ_run (Cert.Kernel.defs (F := Bits)) _ _).mono (fun _ h c => (h c).2.2.2.2.2.2.2.2)
      (Cert.Proof.KB.run (F := Bits) m ρ
        (Cert.Proof.KB.R0.tile_body m Cert.Proof.KB.facts (fun d => (ranges_Kernel m hpre d).1))
        (Cert.Proof.KB.R1.tile_body m Cert.Proof.KB.facts (fun d => (ranges_Kernel m hpre d).2.1))
        (Cert.Proof.KB.R2.tile_body m Cert.Proof.KB.facts (fun d => (ranges_Kernel m hpre d).2.2.1))
        (Cert.Proof.KB.R3.tile_body m Cert.Proof.KB.facts (fun d => (ranges_Kernel m hpre d).2.2.2.1))
        (Cert.Proof.KB.R4.tile_body m Cert.Proof.KB.facts (fun d => (ranges_Kernel m hpre d).2.2.2.2.1))
        (Cert.Proof.KB.R5.tile_body m Cert.Proof.KB.facts (fun d => (ranges_Kernel m hpre d).2.2.2.2.2.1))
        (Cert.Proof.KB.R6.tile_body m Cert.Proof.KB.facts (fun d => (ranges_Kernel m hpre d).2.2.2.2.2.2.1))
        (Cert.Proof.KB.R7.tile_body m Cert.Proof.KB.facts (fun d => (ranges_Kernel m hpre d).2.2.2.2.2.2.2)))

/-- The idealized kernel runs and leaves its sixteen arguments as they were, in the same way. -/
theorem frame_pi : Cert.frame_KernelIdeal (hKernelIdeal := Cert.KernelIdeal.Gen.facts) (hPre_input_domain := Cert.Pre_input_domain.Gen.facts) :=
  fun m ρ hpre =>
    (θ_run (Cert.KernelIdeal.defs (F := Ideal)) _ _).mono (fun _ h c => (h c).2.2.2.2.2.2.2.2)
      (Cert.Proof.KI.run (F := Ideal) m ρ
        (Cert.Proof.KI.R0.tile_body m Cert.Proof.KI.facts (fun d => (ranges_KernelIdeal m hpre d).1))
        (Cert.Proof.KI.R1.tile_body m Cert.Proof.KI.facts (fun d => (ranges_KernelIdeal m hpre d).2.1))
        (Cert.Proof.KI.R2.tile_body m Cert.Proof.KI.facts (fun d => (ranges_KernelIdeal m hpre d).2.2.1))
        (Cert.Proof.KI.R3.tile_body m Cert.Proof.KI.facts (fun d => (ranges_KernelIdeal m hpre d).2.2.2.1))
        (Cert.Proof.KI.R4.tile_body m Cert.Proof.KI.facts (fun d => (ranges_KernelIdeal m hpre d).2.2.2.2.1))
        (Cert.Proof.KI.R5.tile_body m Cert.Proof.KI.facts (fun d => (ranges_KernelIdeal m hpre d).2.2.2.2.2.1))
        (Cert.Proof.KI.R6.tile_body m Cert.Proof.KI.facts (fun d => (ranges_KernelIdeal m hpre d).2.2.2.2.2.2.1))
        (Cert.Proof.KI.R7.tile_body m Cert.Proof.KI.facts (fun d => (ranges_KernelIdeal m hpre d).2.2.2.2.2.2.2)))

/-- From memories agreeing on the sixteen arguments, the idealized kernel and the idealized reference both run and end
    with the same eight results — on each device the lookup of the kernel's own table at its own index array — and
    unchanged arguments: the kernel by its launch; the reference by its run read as the lookups of ITS arguments, which
    are the kernel's (so its index arrays are in range too, and its lookups are the kernel's). -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  refine ⟨fun c => Cert.Proof.KI.R0.G m c, fun c => Cert.Proof.KI.R1.G m c, fun c => Cert.Proof.KI.R2.G m c, fun c => Cert.Proof.KI.R3.G m c, fun c => Cert.Proof.KI.R4.G m c, fun c => Cert.Proof.KI.R5.G m c, fun c => Cert.Proof.KI.R6.G m c, fun c => Cert.Proof.KI.R7.G m c,
    Cert.Proof.KI.run (F := Ideal) m ρ
        (Cert.Proof.KI.R0.tile_body m Cert.Proof.KI.facts (fun d => (ranges_KernelIdeal m hpre d).1))
        (Cert.Proof.KI.R1.tile_body m Cert.Proof.KI.facts (fun d => (ranges_KernelIdeal m hpre d).2.1))
        (Cert.Proof.KI.R2.tile_body m Cert.Proof.KI.facts (fun d => (ranges_KernelIdeal m hpre d).2.2.1))
        (Cert.Proof.KI.R3.tile_body m Cert.Proof.KI.facts (fun d => (ranges_KernelIdeal m hpre d).2.2.2.1))
        (Cert.Proof.KI.R4.tile_body m Cert.Proof.KI.facts (fun d => (ranges_KernelIdeal m hpre d).2.2.2.2.1))
        (Cert.Proof.KI.R5.tile_body m Cert.Proof.KI.facts (fun d => (ranges_KernelIdeal m hpre d).2.2.2.2.2.1))
        (Cert.Proof.KI.R6.tile_body m Cert.Proof.KI.facts (fun d => (ranges_KernelIdeal m hpre d).2.2.2.2.2.2.1))
        (Cert.Proof.KI.R7.tile_body m Cert.Proof.KI.facts (fun d => (ranges_KernelIdeal m hpre d).2.2.2.2.2.2.2)), ?_⟩
  -- the reference's index arrays are the kernel's, hence in range
  have hr : ∀ c : Dev Cert.ReferenceIdeal.nD,
      InRange 100000 (m' ((c.tc : Thread Cert.ReferenceIdeal.nD Cert.ReferenceIdeal.τ).loc Cert.ReferenceIdeal.main_arg8))
      ∧ InRange 1000000 (m' ((c.tc : Thread Cert.ReferenceIdeal.nD Cert.ReferenceIdeal.τ).loc Cert.ReferenceIdeal.main_arg9))
      ∧ InRange 10000 (m' ((c.tc : Thread Cert.ReferenceIdeal.nD Cert.ReferenceIdeal.τ).loc Cert.ReferenceIdeal.main_arg10))
      ∧ InRange 20000 (m' ((c.tc : Thread Cert.ReferenceIdeal.nD Cert.ReferenceIdeal.τ).loc Cert.ReferenceIdeal.main_arg11))
      ∧ InRange 20000 (m' ((c.tc : Thread Cert.ReferenceIdeal.nD Cert.ReferenceIdeal.τ).loc Cert.ReferenceIdeal.main_arg12))
      ∧ InRange 10000 (m' ((c.tc : Thread Cert.ReferenceIdeal.nD Cert.ReferenceIdeal.τ).loc Cert.ReferenceIdeal.main_arg13))
      ∧ InRange 5000 (m' ((c.tc : Thread Cert.ReferenceIdeal.nD Cert.ReferenceIdeal.τ).loc Cert.ReferenceIdeal.main_arg14))
      ∧ InRange 1000 (m' ((c.tc : Thread Cert.ReferenceIdeal.nD Cert.ReferenceIdeal.τ).loc Cert.ReferenceIdeal.main_arg15)) := fun c => by
    obtain ⟨_, _, _, _, _, _, _, _, e8, e9, e10, e11, e12, e13, e14, e15⟩ := hagree c
    rw [e8, e9, e10, e11, e12, e13, e14, e15]
    exact ranges_KernelIdeal m hpre c
  refine (θ_run (Cert.ReferenceIdeal.defs (F := Ideal)) _ _).mono (fun _ h c => ?_) (ref_side m' ρ' hr)
  obtain ⟨e0, e1, e2, e3, e4, e5, e6, e7, e8, e9, e10, e11, e12, e13, e14, e15⟩ := hagree c
  obtain ⟨h0, h1, h2, h3, h4, h5, h6, h7, hargs⟩ := h c
  exact ⟨h0.trans (by rw [e0, e8]; rfl),
    h1.trans (by rw [e1, e9]; rfl),
    h2.trans (by rw [e2, e10]; rfl),
    h3.trans (by rw [e3, e11]; rfl),
    h4.trans (by rw [e4, e12]; rfl),
    h5.trans (by rw [e5, e13]; rfl),
    h6.trans (by rw [e6, e14]; rfl),
    h7.trans (by rw [e7, e15]; rfl),
    hargs⟩

end Cert.Proof.Asm

end
-- ==== Proof.lean ====
/-
  The certificate's claim, assembled. The program is eight embedding lookups: each takes a table of n rows of 64
  numbers and an array of 16384 index words and returns, row by row, the table's row that the word names. The kernel
  computes each lookup on thirty-two tiles, a tile owning 512 consecutive rows of the result and writing into them
  the table's rows named by its 512 index words; the reference is `take` of the table at the index array, which wraps
  a negative word, tests the word against the table's bounds and returns not-a-number outside them. Under the
  precondition every index word lies in [0, n − 1], so nothing is wrapped and nothing is out of bounds: both sides
  are the same function of the same arrays — row r of the result is row (index r) of the table.

  Five statements follow from that. Each of the three programs runs to its end, faulting nowhere, with its sixteen
  arguments unchanged (the kernel as printed, the kernel read over the extended reals, the reference read over the
  extended reals). The second is the first's reading over the extended reals with no operation rewritten, so there is
  nothing to preserve. And from memories agreeing on the arguments, the kernel and the reference over the extended
  reals end with equal results.
-/
import proofs.«218896_g85959475462175_cont_9to1_m_647_27_alg».proof.Defs
import proofs.«218896_g85959475462175_cont_9to1_m_647_27_alg».proof.Proof.AsmRef
import proofs.«218896_g85959475462175_cont_9to1_m_647_27_alg».proof.Proof.AsmKernel

noncomputable section

namespace Cert.Proof

/-- The four programs' stated side conditions hold (the instances proved beside each program), and under them the
    five claims: the three frames, the trivial preservation, and the equality of results. -/
theorem claim : Cert.Claim :=
  ⟨Cert.Kernel.Gen.facts, Cert.KernelIdeal.Gen.facts, Cert.ReferenceIdeal.Gen.facts, Cert.Pre_input_domain.Gen.facts,
    Asm.frame_p, Asm.frame_pi, Asm.frame_ri, trivial, Asm.algebraic⟩

end Cert.Proof

end
